-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v165)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v165) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S32 .f32) (main_arg17 : FVec F S32x1 .f32) (main_arg18 : FVec F S1 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x1 .f32 := Host.absf main_arg17
  let main_cst_28 : FVec F S_ .f32 := constant S_ .f32 0x7F800000#32
  let main_v75 : FVec F S32x1 .f32 := broadcastInDim S32x1 ![] bcast_S_S32x1 main_cst_28
  let main_v76 : IVec S32x1 1 := cmpf .olt main_v74 main_v75
  let main_c_29 : IVec S_ 1 := constantI S_ 1 1#1
  let main_v77 : IVec S_ 1 := (fun x v => Host.reduce IntOp.andi x v reducesTo_S32x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg13 : FVec F S128x64 .f32) (main_arg14 : FVec F S64 .f32) (main_arg15 : FVec F S64x32 .f32) (main_arg16 : FVec F S32 .f32) (main_arg17 : FVec F S32x1 .f32) (main_arg18 : FVec F S1 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg15
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg16 main_arg17 main_arg18 main_v63 main_v67

def fn_part2 {F : FTy → Type} [FloatOps F] (main_arg9 : FVec F S3x128x128 .f32) (main_arg10 : FVec F S3x128 .f32) (main_arg11 : FVec F S3x128 .f32) (main_arg12 : FVec F S3x128 .f32) (main_arg13 : FVec F S128x64 .f32) (main_arg14 : FVec F S64 .f32) (main_arg15 : FVec F S64x32 .f32) (main_arg16 : FVec F S32 .f32) (main_arg17 : FVec F S32x1 .f32) (main_arg18 : FVec F S1 .f32) (main_v33 : IVec S_ 1) : IVec S_ 1 :=
  let main_v34 : FVec F S3x128x128 .f32 := Host.absf main_arg9
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg11
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128 .f32 := Host.absf main_arg12
  let main_cst_18 : FVec F S_ .f32 := constant S_ .f32 0x7F800000#32
  let main_v50 : FVec F S3x128 .f32 := broadcastInDim S3x128 ![] bcast_S_S3x128 main_cst_18
  fn_part3 (F := F) main_arg13 main_arg14 main_arg15 main_arg16 main_arg17 main_arg18 main_v48 main_v49 main_v50

def fn_part1 {F : FTy → Type} [FloatOps F] (main_arg6 : FVec F S128 .f32) (main_arg7 : FVec F S128x128 .f32) (main_arg8 : FVec F S128 .f32) (main_arg9 : FVec F S3x128x128 .f32) (main_arg10 : FVec F S3x128 .f32) (main_arg11 : FVec F S3x128 .f32) (main_arg12 : FVec F S3x128 .f32) (main_arg13 : FVec F S128x64 .f32) (main_arg14 : FVec F S64 .f32) (main_arg15 : FVec F S64x32 .f32) (main_arg16 : FVec F S32 .f32) (main_arg17 : FVec F S32x1 .f32) (main_arg18 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x128 .f32) (main_arg1 : IVec S2x640000 32) (main_arg2 : IVec S100000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S3x128x128 .f32) (main_arg10 : FVec F S3x128 .f32) (main_arg11 : FVec F S3x128 .f32) (main_arg12 : FVec F S3x128 .f32) (main_arg13 : FVec F S128x64 .f32) (main_arg14 : FVec F S64 .f32) (main_arg15 : FVec F S64x32 .f32) (main_arg16 : FVec F S32 .f32) (main_arg17 : FVec F S32x1 .f32) (main_arg18 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x640000 : Shape := ⟨2, ![2, 640000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x128 : Shape := ⟨2, ![1, 128]⟩
abbrev S5000x128 : Shape := ⟨2, ![5000, 128]⟩
abbrev S1x128x128 : Shape := ⟨3, ![1, 128, 128]⟩
abbrev S640000x128 : Shape := ⟨2, ![640000, 128]⟩
abbrev S64x128 : Shape := ⟨2, ![64, 128]⟩
abbrev S100000x1 : Shape := ⟨2, ![100000, 1]⟩
abbrev S64x64 : Shape := ⟨2, ![64, 64]⟩
abbrev S1x64 : Shape := ⟨2, ![1, 64]⟩
abbrev S1x32 : Shape := ⟨2, ![1, 32]⟩
abbrev S64x1 : Shape := ⟨2, ![64, 1]⟩
abbrev S1x1 : Shape := ⟨2, ![1, 1]⟩

abbrev nBuf : Space → Nat
  | .hbm => 227
  | .vmem => 92
  | .smem => 0
  | _ => 0

abbrev hbmTy0_0 (i : Nat) : BufTy := match i % 128 with
  | 0 => ⟨S100000x128, .f32⟩
  | 1 => ⟨S2x640000, .i32⟩
  | 2 => ⟨S100000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S3x128x128, .f32⟩
  | 10 => ⟨S3x128, .f32⟩
  | 11 => ⟨S3x128, .f32⟩
  | 12 => ⟨S3x128, .f32⟩
  | 13 => ⟨S128x64, .f32⟩
  | 14 => ⟨S64, .f32⟩
  | 15 => ⟨S64x32, .f32⟩
  | 16 => ⟨S32, .f32⟩
  | 17 => ⟨S32x1, .f32⟩
  | 18 => ⟨S1, .f32⟩
  | 19 => ⟨S1x640000, .i32⟩
  | 20 => ⟨S640000, .i32⟩
  | 21 => ⟨S1x640000, .i32⟩
  | 22 => ⟨S640000, .i32⟩
  | 23 => ⟨S_, .f32⟩
  | 24 => ⟨S640000, .f32⟩
  | 25 => ⟨S_, .f32⟩
  | 26 => ⟨S100000, .f32⟩
  | 27 => ⟨S640000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S640000, .i32⟩
  | 42 => ⟨S640000, .i1⟩
  | 43 => ⟨S_, .i32⟩
  | 44 => ⟨S640000, .i32⟩
  | 45 => ⟨S640000, .i32⟩
  | 46 => ⟨S640000, .i32⟩
  | 47 => ⟨S640000x1, .i32⟩
  | 48 => ⟨S640000, .f32⟩
  | 49 => ⟨S_, .i32⟩
  | 50 => ⟨S640000, .i32⟩
  | 51 => ⟨S640000, .i1⟩
  | 52 => ⟨S_, .i32⟩
  | 53 => ⟨S640000, .i32⟩
  | 54 => ⟨S640000, .i32⟩
  | 55 => ⟨S640000, .i32⟩
  | 56 => ⟨S640000x1, .i32⟩
  | 57 => ⟨S640000, .f32⟩
  | 58 => ⟨S640000, .f32⟩
  | 59 => ⟨S640000x1, .f32⟩
  | 60 => ⟨S_, .f32⟩
  | 61 => ⟨S1x128, .f32⟩
  | 62 => ⟨S1x128, .f32⟩
  | 63 => ⟨S1x128, .f32⟩
  | 64 => ⟨S1x128, .f32⟩
  | 65 => ⟨S1x128, .f32⟩
  | 66 => ⟨S100000x128, .f32⟩
  | 67 => ⟨S1x128, .f32⟩
  | 68 => ⟨S1x128, .f32⟩
  | 69 => ⟨S_, .f32⟩
  | 70 => ⟨S1x128, .f32⟩
  | 71 => ⟨S1x128, .f32⟩
  | 72 => ⟨S_, .f32⟩
  | 73 => ⟨S1x128, .f32⟩
  | 74 => ⟨S1x128, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S100000x128, .f32⟩
  | 81 => ⟨S100000x128, .f32⟩
  | 82 => ⟨S1x128x128, .f32⟩
  | 83 => ⟨S128x128, .f32⟩
  | 84 => ⟨S100000x128, .f32⟩
  | 85 => ⟨S_, .i32⟩
  | 86 => ⟨S640000, .i32⟩
  | 87 => ⟨S640000, .i1⟩
  | 88 => ⟨S_, .i32⟩
  | 89 => ⟨S640000, .i32⟩
  | 90 => ⟨S640000, .i32⟩
  | 91 => ⟨S640000, .i32⟩
  | 92 => ⟨S640000x1, .i32⟩
  | 93 => ⟨S640000x128, .f32⟩
  | 94 => ⟨S640000x128, .f32⟩
  | 95 => ⟨S640000x128, .f32⟩
  | 96 => ⟨S_, .f32⟩
  | 97 => ⟨S100000x128, .f32⟩
  | 98 => ⟨S640000x1, .i32⟩
  | 99 => ⟨S100000x128, .f32⟩
  | 100 => ⟨S1x128, .f32⟩
  | 101 => ⟨S128, .f32⟩
  | 102 => ⟨S1x128, .f32⟩
  | 103 => ⟨S1x128, .f32⟩
  | 104 => ⟨S128, .f32⟩
  | 105 => ⟨S1x128, .f32⟩
  | 106 => ⟨S1x128, .f32⟩
  | 107 => ⟨S128, .f32⟩
  | 108 => ⟨S1x128, .f32⟩
  | 109 => ⟨S1x128, .f32⟩
  | 110 => ⟨S1x128, .f32⟩
  | 111 => ⟨S_, .f32⟩
  | 112 => ⟨S1x128, .f32⟩
  | 113 => ⟨S1x128, .f32⟩
  | 114 => ⟨S_, .f32⟩
  | 115 => ⟨S1x128, .f32⟩
  | 116 => ⟨S1x128, .f32⟩
  | 117 => ⟨S1x128, .f32⟩
  | 118 => ⟨S1x128, .f32⟩
  | 119 => ⟨S_, .f32⟩
  | 120 => ⟨S1x128, .f32⟩
  | 121 => ⟨S1x128, .f32⟩
  | 122 => ⟨S100000x128, .f32⟩
  | 123 => ⟨S1x128x128, .f32⟩
  | 124 => ⟨S128x128, .f32⟩
  | 125 => ⟨S100000x128, .f32⟩
  | 126 => ⟨S_, .i32⟩
  | 127 => ⟨S640000, .i32⟩
  | _ => ⟨S100000x128, .f32⟩

abbrev hbmTy0_1 (i : Nat) : BufTy := match i % 128 with
  | 0 => ⟨S640000, .i1⟩
  | 1 => ⟨S_, .i32⟩
  | 2 => ⟨S640000, .i32⟩
  | 3 => ⟨S640000, .i32⟩
  | 4 => ⟨S640000, .i32⟩
  | 5 => ⟨S640000x1, .i32⟩
  | 6 => ⟨S640000x128, .f32⟩
  | 7 => ⟨S640000x128, .f32⟩
  | 8 => ⟨S640000x128, .f32⟩
  | 9 => ⟨S_, .f32⟩
  | 10 => ⟨S100000x128, .f32⟩
  | 11 => ⟨S640000x1, .i32⟩
  | 12 => ⟨S100000x128, .f32⟩
  | 13 => ⟨S1x128, .f32⟩
  | 14 => ⟨S128, .f32⟩
  | 15 => ⟨S1x128, .f32⟩
  | 16 => ⟨S1x128, .f32⟩
  | 17 => ⟨S128, .f32⟩
  | 18 => ⟨S1x128, .f32⟩
  | 19 => ⟨S1x128, .f32⟩
  | 20 => ⟨S128, .f32⟩
  | 21 => ⟨S1x128, .f32⟩
  | 22 => ⟨S1x128, .f32⟩
  | 23 => ⟨S1x128, .f32⟩
  | 24 => ⟨S_, .f32⟩
  | 25 => ⟨S1x128, .f32⟩
  | 26 => ⟨S1x128, .f32⟩
  | 27 => ⟨S_, .f32⟩
  | 28 => ⟨S1x128, .f32⟩
  | 29 => ⟨S1x128, .f32⟩
  | 30 => ⟨S1x128, .f32⟩
  | 31 => ⟨S1x128, .f32⟩
  | 32 => ⟨S_, .f32⟩
  | 33 => ⟨S1x128, .f32⟩
  | 34 => ⟨S1x128, .f32⟩
  | 35 => ⟨S100000x128, .f32⟩
  | 36 => ⟨S1x128x128, .f32⟩
  | 37 => ⟨S128x128, .f32⟩
  | 38 => ⟨S100000x128, .f32⟩
  | 39 => ⟨S_, .i32⟩
  | 40 => ⟨S640000, .i32⟩
  | 41 => ⟨S640000, .i1⟩
  | 42 => ⟨S_, .i32⟩
  | 43 => ⟨S640000, .i32⟩
  | 44 => ⟨S640000, .i32⟩
  | 45 => ⟨S640000, .i32⟩
  | 46 => ⟨S640000x1, .i32⟩
  | 47 => ⟨S640000x128, .f32⟩
  | 48 => ⟨S640000x128, .f32⟩
  | 49 => ⟨S640000x128, .f32⟩
  | 50 => ⟨S_, .f32⟩
  | 51 => ⟨S100000x128, .f32⟩
  | 52 => ⟨S640000x1, .i32⟩
  | 53 => ⟨S100000x128, .f32⟩
  | 54 => ⟨S1x128, .f32⟩
  | 55 => ⟨S128, .f32⟩
  | 56 => ⟨S1x128, .f32⟩
  | 57 => ⟨S1x128, .f32⟩
  | 58 => ⟨S128, .f32⟩
  | 59 => ⟨S1x128, .f32⟩
  | 60 => ⟨S1x128, .f32⟩
  | 61 => ⟨S128, .f32⟩
  | 62 => ⟨S1x128, .f32⟩
  | 63 => ⟨S1x128, .f32⟩
  | 64 => ⟨S1x128, .f32⟩
  | 65 => ⟨S_, .f32⟩
  | 66 => ⟨S1x128, .f32⟩
  | 67 => ⟨S1x128, .f32⟩
  | 68 => ⟨S_, .f32⟩
  | 69 => ⟨S1x128, .f32⟩
  | 70 => ⟨S1x128, .f32⟩
  | 71 => ⟨S1x128, .f32⟩
  | 72 => ⟨S1x128, .f32⟩
  | 73 => ⟨S_, .f32⟩
  | 74 => ⟨S1x128, .f32⟩
  | 75 => ⟨S1x128, .f32⟩
  | 76 => ⟨S100000x128, .f32⟩
  | 77 => ⟨S_, .f32⟩
  | 78 => ⟨S64x128, .f32⟩
  | 79 => ⟨S100000x1, .i32⟩
  | 80 => ⟨S64x128, .f32⟩
  | 81 => ⟨S64x64, .f32⟩
  | 82 => ⟨S1x64, .f32⟩
  | 83 => ⟨S64x64, .f32⟩
  | 84 => ⟨S64x64, .f32⟩
  | 85 => ⟨S_, .f32⟩
  | 86 => ⟨S64x64, .f32⟩
  | 87 => ⟨S64x64, .f32⟩
  | 88 => ⟨S64x32, .f32⟩
  | 89 => ⟨S1x32, .f32⟩
  | 90 => ⟨S64x32, .f32⟩
  | 91 => ⟨S64x32, .f32⟩
  | 92 => ⟨S_, .f32⟩
  | 93 => ⟨S64x32, .f32⟩
  | 94 => ⟨S64x32, .f32⟩
  | 95 => ⟨S64x1, .f32⟩
  | 96 => ⟨S1x1, .f32⟩
  | 97 => ⟨S64x1, .f32⟩
  | 98 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S1x128, .f32⟩
  | .local _ .vmem, ⟨57, _⟩ => ⟨S1x128, .f32⟩
  | .local _ .vmem, ⟨58, _⟩ => ⟨S1x128, .f32⟩
  | .local _ .vmem, ⟨59, _⟩ => ⟨S5000x128, .f32⟩
  | .local _ .vmem, ⟨60, _⟩ => ⟨S5000x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S1x128, .f32⟩
  | .local _ .vmem, ⟨65, _⟩ => ⟨S1x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S128x128, .f32⟩
  | .local _ .vmem, ⟨73, _⟩ => ⟨S1x128, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S5000x128, .f32⟩
  | .local _ .vmem, ⟨78, _⟩ => ⟨S1x128, .f32⟩
  | .local _ .vmem, ⟨79, _⟩ => ⟨S1x128, .f32⟩
  | .local _ .vmem, ⟨80, _⟩ => ⟨S1x128, .f32⟩
  | .local _ .vmem, ⟨81, _⟩ => ⟨S5000x128, .f32⟩
  | .local _ .vmem, ⟨82, _⟩ => ⟨S5000x128, .f32⟩
  | .local _ .vmem, ⟨83, _⟩ => ⟨S1x128, .f32⟩
  | .local _ .vmem, ⟨84, _⟩ => ⟨S1x128, .f32⟩
  | .local _ .vmem, ⟨85, _⟩ => ⟨S1x128, .f32⟩
  | .local _ .vmem, ⟨86, _⟩ => ⟨S1x128, .f32⟩
  | .local _ .vmem, ⟨87, _⟩ => ⟨S1x128, .f32⟩
  | .local _ .vmem, ⟨88, _⟩ => ⟨S5000x128, .f32⟩
  | .local _ .vmem, ⟨89, _⟩ => ⟨S5000x128, .f32⟩
  | .local _ .vmem, ⟨90, _⟩ => ⟨S5000x128, .f32⟩
  | .local _ .vmem, ⟨91, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | _, _ => false

abbrev semScoped : Fin 0 → Bool
  | ⟨_, h⟩ => absurd h (Nat.not_lt_zero _)

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  ofTc nBuf bufTy 0 92 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v13 : Ref sig .tc := ⟨.hbm, 39, rfl⟩
abbrev main_c : Ref sig .tc := ⟨.hbm, 40, rfl⟩
abbrev main_v14 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_5 : Ref sig .tc := ⟨.hbm, 49, rfl⟩
abbrev main_v21 : Ref sig .tc := ⟨.hbm, 50, rfl⟩
abbrev main_v22 : Ref sig .tc := ⟨.hbm, 51, rfl⟩
abbrev main_c_6 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_7 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36_0 : Ref sig .tc := ⟨.hbm, 67, rfl⟩
abbrev main_v36_1 : Ref sig .tc := ⟨.hbm, 68, rfl⟩
abbrev main_cst_8 : Ref sig .tc := ⟨.hbm, 69, rfl⟩
abbrev main_v37 : Ref sig .tc := ⟨.hbm, 70, rfl⟩
abbrev main_v38 : Ref sig .tc := ⟨.hbm, 71, rfl⟩
abbrev main_cst_9 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_10 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_11 : Ref sig .tc := ⟨.hbm, 85, rfl⟩
abbrev main_v50 : Ref sig .tc := ⟨.hbm, 86, rfl⟩
abbrev main_v51 : Ref sig .tc := ⟨.hbm, 87, rfl⟩
abbrev main_c_12 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_13 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71_0 : Ref sig .tc := ⟨.hbm, 109, rfl⟩
abbrev main_v71_1 : Ref sig .tc := ⟨.hbm, 110, rfl⟩
abbrev main_cst_14 : Ref sig .tc := ⟨.hbm, 111, rfl⟩
abbrev main_v72 : Ref sig .tc := ⟨.hbm, 112, rfl⟩
abbrev main_v73 : Ref sig .tc := ⟨.hbm, 113, rfl⟩
abbrev main_cst_15 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_16 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_c_17 : Ref sig .tc := ⟨.hbm, 126, rfl⟩
abbrev main_v84 : Ref sig .tc := ⟨.hbm, 127, rfl⟩
abbrev main_v85 : Ref sig .tc := ⟨.hbm, 128, rfl⟩
abbrev main_c_18 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_19 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105_0 : Ref sig .tc := ⟨.hbm, 150, rfl⟩
abbrev main_v105_1 : Ref sig .tc := ⟨.hbm, 151, rfl⟩
abbrev main_cst_20 : Ref sig .tc := ⟨.hbm, 152, rfl⟩
abbrev main_v106 : Ref sig .tc := ⟨.hbm, 153, rfl⟩
abbrev main_v107 : Ref sig .tc := ⟨.hbm, 154, rfl⟩
abbrev main_cst_21 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_22 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_c_23 : Ref sig .tc := ⟨.hbm, 167, rfl⟩
abbrev main_v118 : Ref sig .tc := ⟨.hbm, 168, rfl⟩
abbrev main_v119 : Ref sig .tc := ⟨.hbm, 169, rfl⟩
abbrev main_c_24 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_25 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139_0 : Ref sig .tc := ⟨.hbm, 191, rfl⟩
abbrev main_v139_1 : Ref sig .tc := ⟨.hbm, 192, rfl⟩
abbrev main_cst_26 : Ref sig .tc := ⟨.hbm, 193, rfl⟩
abbrev main_v140 : Ref sig .tc := ⟨.hbm, 194, rfl⟩
abbrev main_v141 : Ref sig .tc := ⟨.hbm, 195, rfl⟩
abbrev main_cst_27 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_cst_28 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_cst_29 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_call1_cst : Ref sig .tc := ⟨.hbm, 213, rfl⟩
abbrev main_call1_v0 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_call2_cst : Ref sig .tc := ⟨.hbm, 220, rfl⟩
abbrev main_call2_v0 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg2_0 : Ref sig .tc := ⟨.vmem, 40, rfl⟩
abbrev cc6_stg3_0 : Ref sig .tc := ⟨.vmem, 41, rfl⟩
abbrev cc6_stg4_0 : Ref sig .tc := ⟨.vmem, 42, rfl⟩
abbrev cc6_stg5_0 : Ref sig .tc := ⟨.vmem, 43, rfl⟩
abbrev cc6_stg6_0 : Ref sig .tc := ⟨.vmem, 44, rfl⟩
abbrev cc6_stg6_1 : Ref sig .tc := ⟨.vmem, 45, rfl⟩
abbrev cc6_stg7_0 : Ref sig .tc := ⟨.vmem, 46, rfl⟩
abbrev cc6_stg7_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg3_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg2_0 : Ref sig .tc := ⟨.vmem, 57, rfl⟩
abbrev cc8_stg3_0 : Ref sig .tc := ⟨.vmem, 58, rfl⟩
abbrev cc9_stg0_0 : Ref sig .tc := ⟨.vmem, 59, rfl⟩
abbrev cc9_stg0_1 : Ref sig .tc := ⟨.vmem, 60, rfl⟩
abbrev cc9_stg1_0 : Ref sig .tc := ⟨.vmem, 61, rfl⟩
abbrev cc9_stg2_0 : Ref sig .tc := ⟨.vmem, 62, rfl⟩
abbrev cc9_stg3_0 : Ref sig .tc := ⟨.vmem, 63, rfl⟩
abbrev cc9_stg4_0 : Ref sig .tc := ⟨.vmem, 64, rfl⟩
abbrev cc9_stg5_0 : Ref sig .tc := ⟨.vmem, 65, rfl⟩
abbrev cc9_stg6_0 : Ref sig .tc := ⟨.vmem, 66, rfl⟩
abbrev cc9_stg6_1 : Ref sig .tc := ⟨.vmem, 67, rfl⟩
abbrev cc9_stg7_0 : Ref sig .tc := ⟨.vmem, 68, rfl⟩
abbrev cc9_stg7_1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg2_0 : Ref sig .tc := ⟨.vmem, 73, rfl⟩
abbrev cc10_stg3_0 : Ref sig .tc := ⟨.vmem, 74, rfl⟩
abbrev cc10_stg3_1 : Ref sig .tc := ⟨.vmem, 75, rfl⟩
abbrev cc11_stg0_0 : Ref sig .tc := ⟨.vmem, 76, rfl⟩
abbrev cc11_stg0_1 : Ref sig .tc := ⟨.vmem, 77, rfl⟩
abbrev cc11_stg1_0 : Ref sig .tc := ⟨.vmem, 78, rfl⟩
abbrev cc11_stg2_0 : Ref sig .tc := ⟨.vmem, 79, rfl⟩
abbrev cc11_stg3_0 : Ref sig .tc := ⟨.vmem, 80, rfl⟩
abbrev cc12_stg0_0 : Ref sig .tc := ⟨.vmem, 81, rfl⟩
abbrev cc12_stg0_1 : Ref sig .tc := ⟨.vmem, 82, rfl⟩
abbrev cc12_stg1_0 : Ref sig .tc := ⟨.vmem, 83, rfl⟩
abbrev cc12_stg2_0 : Ref sig .tc := ⟨.vmem, 84, rfl⟩
abbrev cc12_stg3_0 : Ref sig .tc := ⟨.vmem, 85, rfl⟩
abbrev cc12_stg4_0 : Ref sig .tc := ⟨.vmem, 86, rfl⟩
abbrev cc12_stg5_0 : Ref sig .tc := ⟨.vmem, 87, rfl⟩
abbrev cc12_stg6_0 : Ref sig .tc := ⟨.vmem, 88, rfl⟩
abbrev cc12_stg6_1 : Ref sig .tc := ⟨.vmem, 89, rfl⟩
abbrev cc12_stg7_0 : Ref sig .tc := ⟨.vmem, 90, rfl⟩
abbrev cc12_stg7_1 : Ref sig .tc := ⟨.vmem, 91, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc6_sem0_0 : DmaSem sig := 37
abbrev cc6_sem0_1 : DmaSem sig := 38
abbrev cc6_sem1_0 : DmaSem sig := 39
abbrev cc6_sem2_0 : DmaSem sig := 40
abbrev cc6_sem3_0 : DmaSem sig := 41
abbrev cc6_sem4_0 : DmaSem sig := 42
abbrev cc6_sem5_0 : DmaSem sig := 43
abbrev cc6_sem6_0 : DmaSem sig := 44
abbrev cc6_sem6_1 : DmaSem sig := 45
abbrev cc6_sem7_0 : DmaSem sig := 46
abbrev cc6_sem7_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem3_0 : DmaSem sig := 52
abbrev cc7_sem3_1 : DmaSem sig := 53
abbrev cc8_sem0_0 : DmaSem sig := 54
abbrev cc8_sem0_1 : DmaSem sig := 55
abbrev cc8_sem1_0 : DmaSem sig := 56
abbrev cc8_sem2_0 : DmaSem sig := 57
abbrev cc8_sem3_0 : DmaSem sig := 58
abbrev cc9_sem0_0 : DmaSem sig := 59
abbrev cc9_sem0_1 : DmaSem sig := 60
abbrev cc9_sem1_0 : DmaSem sig := 61
abbrev cc9_sem2_0 : DmaSem sig := 62
abbrev cc9_sem3_0 : DmaSem sig := 63
abbrev cc9_sem4_0 : DmaSem sig := 64
abbrev cc9_sem5_0 : DmaSem sig := 65
abbrev cc9_sem6_0 : DmaSem sig := 66
abbrev cc9_sem6_1 : DmaSem sig := 67
abbrev cc9_sem7_0 : DmaSem sig := 68
abbrev cc9_sem7_1 : DmaSem sig := 69
abbrev cc10_sem0_0 : DmaSem sig := 70
abbrev cc10_sem0_1 : DmaSem sig := 71
abbrev cc10_sem1_0 : DmaSem sig := 72
abbrev cc10_sem2_0 : DmaSem sig := 73
abbrev cc10_sem3_0 : DmaSem sig := 74
abbrev cc10_sem3_1 : DmaSem sig := 75
abbrev cc11_sem0_0 : DmaSem sig := 76
abbrev cc11_sem0_1 : DmaSem sig := 77
abbrev cc11_sem1_0 : DmaSem sig := 78
abbrev cc11_sem2_0 : DmaSem sig := 79
abbrev cc11_sem3_0 : DmaSem sig := 80
abbrev cc12_sem0_0 : DmaSem sig := 81
abbrev cc12_sem0_1 : DmaSem sig := 82
abbrev cc12_sem1_0 : DmaSem sig := 83
abbrev cc12_sem2_0 : DmaSem sig := 84
abbrev cc12_sem3_0 : DmaSem sig := 85
abbrev cc12_sem4_0 : DmaSem sig := 86
abbrev cc12_sem5_0 : DmaSem sig := 87
abbrev cc12_sem6_0 : DmaSem sig := 88
abbrev cc12_sem6_1 : DmaSem sig := 89
abbrev cc12_sem7_0 : DmaSem sig := 90
abbrev cc12_sem7_1 : DmaSem sig := 91

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S5000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S5000x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev stage9_7 : Fin 2 → Memref sig .tc .vmem S5000x128 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S5000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_7 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 2 → Memref sig .tc .vmem S5000x128 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev stage12_7 : Fin 2 → Memref sig .tc .vmem S5000x128 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S_S1x128 : S_.BroadcastsInDim S1x128 (![] : Fin 0 → Fin S1x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  reduces_S5000x128_S128 : S5000x128.Reduces [0] S128
  slices_S3x128x128_S1x128x128_0_0_0 : S3x128x128.Slices ![0, 0, 0] S1x128x128
  shapeCasts_S1x128x128_S128x128 : S1x128x128.ShapeCasts S128x128
  shapeCasts_S128x128_S128x128 : S128x128.ShapeCasts S128x128
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  dot_S5000x128_S128x128_S5000x128_1_0_0_1_n_n_wf : DotDims.WF S5000x128 S128x128 S5000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S64x128_S100000x1_S100000x128_1_0_0_1_wf : ScatterDims.WF S64x128 S100000x1 S100000x128 [1] [0] [0] 1
  dot_S64x128_S128x64_S64x64_1_0_0_1_n_n_wf : DotDims.WF S64x128 S128x64 S64x64 [1] [0] [0] [1] [] []
  dot_S64x64_S64x32_S64x32_1_0_0_1_n_n_wf : DotDims.WF S64x64 S64x32 S64x32 [1] [0] [0] [1] [] []
  dot_S64x32_S32x1_S64x1_1_0_0_1_n_n_wf : DotDims.WF S64x32 S32x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S100000x128.size a
  hwx6_6 : ∀ i : grid6.Coords, EltTy.bits .f32 = 32 ∨ (Rect.block (s := S100000x128) S5000x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x128.size a ≤ S100000x128.size a
  hwx6_7 : ∀ i : grid6.Coords, EltTy.bits .f32 = 32 ∨ (Rect.block (s := S100000x128) S5000x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S100000x128.size a
  hwx7_3 : ∀ i : grid7.Coords, EltTy.bits .f32 = 32 ∨ (Rect.block (s := S100000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S5000x128.size a ≤ S100000x128.size a
  hwx9_6 : ∀ i : grid9.Coords, EltTy.bits .f32 = 32 ∨ (Rect.block (s := S100000x128) S5000x128.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S5000x128.size a ≤ S100000x128.size a
  hwx9_7 : ∀ i : grid9.Coords, EltTy.bits .f32 = 32 ∨ (Rect.block (s := S100000x128) S5000x128.size (cc9_transform_7 i) (hinb9_7 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x128.size a ≤ S100000x128.size a
  hwx10_3 : ∀ i : grid10.Coords, EltTy.bits .f32 = 32 ∨ (Rect.block (s := S100000x128) S5000x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S100000x128.size a
  hwx11_0 : ∀ i : grid11.Coords, EltTy.bits .f32 = 32 ∨ (Rect.block (s := S100000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S100000x128.size a
  hwx12_0 : ∀ i : grid12.Coords, EltTy.bits .f32 = 32 ∨ (Rect.block (s := S100000x128) S5000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x128.size a ≤ S1x128.size a
  hwx12_1 : ∀ i : grid12.Coords, EltTy.bits .f32 = 32 ∨ (Rect.block (s := S1x128) S1x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x128.size a ≤ S1x128.size a
  hwx12_4 : ∀ i : grid12.Coords, EltTy.bits .f32 = 32 ∨ (Rect.block (s := S1x128) S1x128.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x128.size a ≤ S1x128.size a
  hwx12_5 : ∀ i : grid12.Coords, EltTy.bits .f32 = 32 ∨ (Rect.block (s := S1x128) S1x128.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S5000x128.size a ≤ S100000x128.size a
  hwx12_6 : ∀ i : grid12.Coords, EltTy.bits .f32 = 32 ∨ (Rect.block (s := S100000x128) S5000x128.size (cc12_transform_6 i) (hinb12_6 i)).WholeWords (EltTy.packing .f32)
  hstage12_7 : ∀ j, (stage12_7 j).IsWhole
  nbuf12_7 : grid12.bufCount reads12_7 false = 2
  hreads12_7 : ∀ i i' : grid12.Coords, (∀ a, reads12_7 a = true → i a = i' a) → cc12_transform_7 i = cc12_transform_7 i'
  hinb12_7 : ∀ (i : grid12.Coords) a, (cc12_transform_7 i a + 1) * S5000x128.size a ≤ S100000x128.size a
  hwx12_7 : ∀ i : grid12.Coords, EltTy.bits .f32 = 32 ∨ (Rect.block (s := S100000x128) S5000x128.size (cc12_transform_7 i) (hinb12_7 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v45) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v45) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v46) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v48) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v30) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v49) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v61) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v71_0) S1x128.size cc5_transform_2 reads5_2 true true 1 stage5_2 sem5_2
    hrank5 hreads5_2 hinb5_2 nbuf5_2 (Memref.isWhole_whole _) hwx5_2 hstage5_2

abbrev win5_3 : Pipeline.Window sig grid5 :=
  Pipeline.Window.ofSpec (Memref.whole main_v71_1) S1x128.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v61) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v64) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v73) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v79) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v67) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v70) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v46) S5000x128.size cc6_transform_6 reads6_6 false false 2 stage6_6 sem6_6
    hrank6 hreads6_6 hinb6_6 nbuf6_6 (Memref.isWhole_whole _) hwx6_6 hstage6_6

abbrev win6_7 : Pipeline.Window sig grid6 :=
  Pipeline.Window.ofSpec (Memref.whole main_v80) S5000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v80) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v82) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v30) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v83) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v95) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v98) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v105_0) S1x128.size cc8_transform_2 reads8_2 true true 1 stage8_2 sem8_2
    hrank8 hreads8_2 hinb8_2 nbuf8_2 (Memref.isWhole_whole _) hwx8_2 hstage8_2

abbrev win8_3 : Pipeline.Window sig grid8 :=
  Pipeline.Window.ofSpec (Memref.whole main_v105_1) S1x128.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v95) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v98) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v107) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v113) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v101) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v104) S1x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v80) S5000x128.size cc9_transform_6 reads9_6 false false 2 stage9_6 sem9_6
    hrank9 hreads9_6 hinb9_6 nbuf9_6 (Memref.isWhole_whole _) hwx9_6 hstage9_6

abbrev win9_7 : Pipeline.Window sig grid9 :=
  Pipeline.Window.ofSpec (Memref.whole main_v114) S5000x128.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v114) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v116) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v30) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v117) S5000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v129) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v132) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v139_0) S1x128.size cc11_transform_2 reads11_2 true true 1 stage11_2 sem11_2
    hrank11 hreads11_2 hinb11_2 nbuf11_2 (Memref.isWhole_whole _) hwx11_2 hstage11_2

abbrev win11_3 : Pipeline.Window sig grid11 :=
  Pipeline.Window.ofSpec (Memref.whole main_v139_1) S1x128.size cc11_transform_3 reads11_3 true true 1 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v129) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v132) S1x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v141) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v147) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v135) S1x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v138) S1x128.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v114) S5000x128.size cc12_transform_6 reads12_6 false false 2 stage12_6 sem12_6
    hrank12 hreads12_6 hinb12_6 nbuf12_6 (Memref.isWhole_whole _) hwx12_6 hstage12_6

abbrev win12_7 : Pipeline.Window sig grid12 :=
  Pipeline.Window.ofSpec (Memref.whole main_v148) S5000x128.size cc12_transform_7 reads12_7 true false 2 stage12_7 sem12_7
    hrank12 hreads12_7 hinb12_7 nbuf12_7 (Memref.isWhole_whole _) hwx12_7 hstage12_7

abbrev win12 : Fin 8 → Pipeline.Window sig grid12 := fun | 0 => win12_0 | 1 => win12_1 | 2 => win12_2 | 3 => win12_3 | 4 => win12_4 | 5 => win12_5 | 6 => win12_6 | 7 => win12_7 | ⟨_ + 8, h⟩ => absurd h (Nat.not_lt.2 (Nat.le_add_left _ _))
abbrev spec12 : Fin 8 → Pipeline.WinSpec sig grid12.rank := fun w => (win12 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x128 : Shape := ⟨2, ![1, 128]⟩
abbrev S1x128x128 : Shape := ⟨3, ![1, 128, 128]⟩
abbrev S640000x128 : Shape := ⟨2, ![640000, 128]⟩
abbrev S64x128 : Shape := ⟨2, ![64, 128]⟩
abbrev S100000x1 : Shape := ⟨2, ![100000, 1]⟩
abbrev S64x64 : Shape := ⟨2, ![64, 64]⟩
abbrev S1x64 : Shape := ⟨2, ![1, 64]⟩
abbrev S1x32 : Shape := ⟨2, ![1, 32]⟩
abbrev S64x1 : Shape := ⟨2, ![64, 1]⟩
abbrev S1x1 : Shape := ⟨2, ![1, 1]⟩

abbrev nBuf : Space → Nat
  | .hbm => 362
  | .vmem => 0
  | .smem => 0
  | _ => 0

abbrev hbmTy0_0 (i : Nat) : BufTy := match i % 128 with
  | 0 => ⟨S100000x128, .f32⟩
  | 1 => ⟨S2x640000, .i32⟩
  | 2 => ⟨S100000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S3x128x128, .f32⟩
  | 10 => ⟨S3x128, .f32⟩
  | 11 => ⟨S3x128, .f32⟩
  | 12 => ⟨S3x128, .f32⟩
  | 13 => ⟨S128x64, .f32⟩
  | 14 => ⟨S64, .f32⟩
  | 15 => ⟨S64x32, .f32⟩
  | 16 => ⟨S32, .f32⟩
  | 17 => ⟨S32x1, .f32⟩
  | 18 => ⟨S1, .f32⟩
  | 19 => ⟨S1x640000, .i32⟩
  | 20 => ⟨S640000, .i32⟩
  | 21 => ⟨S1x640000, .i32⟩
  | 22 => ⟨S640000, .i32⟩
  | 23 => ⟨S_, .f32⟩
  | 24 => ⟨S640000, .f32⟩
  | 25 => ⟨S_, .f32⟩
  | 26 => ⟨S100000, .f32⟩
  | 27 => ⟨S640000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S640000, .i32⟩
  | 42 => ⟨S640000, .i1⟩
  | 43 => ⟨S_, .i32⟩
  | 44 => ⟨S640000, .i32⟩
  | 45 => ⟨S640000, .i32⟩
  | 46 => ⟨S640000, .i32⟩
  | 47 => ⟨S640000x1, .i32⟩
  | 48 => ⟨S640000, .f32⟩
  | 49 => ⟨S_, .i32⟩
  | 50 => ⟨S640000, .i32⟩
  | 51 => ⟨S640000, .i1⟩
  | 52 => ⟨S_, .i32⟩
  | 53 => ⟨S640000, .i32⟩
  | 54 => ⟨S640000, .i32⟩
  | 55 => ⟨S640000, .i32⟩
  | 56 => ⟨S640000x1, .i32⟩
  | 57 => ⟨S640000, .f32⟩
  | 58 => ⟨S640000, .f32⟩
  | 59 => ⟨S640000x1, .f32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S128, .f32⟩
  | 66 => ⟨S_, .f32⟩
  | 67 => ⟨S128, .f32⟩
  | 68 => ⟨S128, .f32⟩
  | 69 => ⟨S_, .i32⟩
  | 70 => ⟨S_, .f32⟩
  | 71 => ⟨S128, .f32⟩
  | 72 => ⟨S1x128, .f32⟩
  | 73 => ⟨S_, .f32⟩
  | 74 => ⟨S1x128, .f32⟩
  | 75 => ⟨S1x128, .f32⟩
  | 76 => ⟨S100000x128, .f32⟩
  | 77 => ⟨S100000x128, .f32⟩
  | 78 => ⟨S100000x128, .f32⟩
  | 79 => ⟨S_, .f32⟩
  | 80 => ⟨S_, .f32⟩
  | 81 => ⟨S_, .f32⟩
  | 82 => ⟨S_, .f32⟩
  | 83 => ⟨S128, .f32⟩
  | 84 => ⟨S128, .f32⟩
  | 85 => ⟨S128, .f32⟩
  | 86 => ⟨S_, .f32⟩
  | 87 => ⟨S_, .i1⟩
  | 88 => ⟨S_, .f32⟩
  | 89 => ⟨S_, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S_, .f32⟩
  | 96 => ⟨S128, .f32⟩
  | 97 => ⟨S128, .f32⟩
  | 98 => ⟨S128, .f32⟩
  | 99 => ⟨S1x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S1x128x128, .f32⟩
  | 116 => ⟨S128x128, .f32⟩
  | 117 => ⟨S100000x128, .f32⟩
  | 118 => ⟨S_, .i32⟩
  | 119 => ⟨S640000, .i32⟩
  | 120 => ⟨S640000, .i1⟩
  | 121 => ⟨S_, .i32⟩
  | 122 => ⟨S640000, .i32⟩
  | 123 => ⟨S640000, .i32⟩
  | 124 => ⟨S640000, .i32⟩
  | 125 => ⟨S640000x1, .i32⟩
  | 126 => ⟨S640000x128, .f32⟩
  | 127 => ⟨S640000x128, .f32⟩
  | _ => ⟨S100000x128, .f32⟩

abbrev hbmTy0_1 (i : Nat) : BufTy := match i % 128 with
  | 0 => ⟨S640000x128, .f32⟩
  | 1 => ⟨S_, .f32⟩
  | 2 => ⟨S100000x128, .f32⟩
  | 3 => ⟨S640000x1, .i32⟩
  | 4 => ⟨S100000x128, .f32⟩
  | 5 => ⟨S1x128, .f32⟩
  | 6 => ⟨S128, .f32⟩
  | 7 => ⟨S1x128, .f32⟩
  | 8 => ⟨S100000x128, .f32⟩
  | 9 => ⟨S100000x128, .f32⟩
  | 10 => ⟨S1x128, .f32⟩
  | 11 => ⟨S128, .f32⟩
  | 12 => ⟨S1x128, .f32⟩
  | 13 => ⟨S128, .f32⟩
  | 14 => ⟨S_, .f32⟩
  | 15 => ⟨S128, .f32⟩
  | 16 => ⟨S_, .f32⟩
  | 17 => ⟨S128, .f32⟩
  | 18 => ⟨S128, .f32⟩
  | 19 => ⟨S_, .i32⟩
  | 20 => ⟨S_, .f32⟩
  | 21 => ⟨S128, .f32⟩
  | 22 => ⟨S1x128, .f32⟩
  | 23 => ⟨S_, .f32⟩
  | 24 => ⟨S1x128, .f32⟩
  | 25 => ⟨S1x128, .f32⟩
  | 26 => ⟨S100000x128, .f32⟩
  | 27 => ⟨S100000x128, .f32⟩
  | 28 => ⟨S100000x128, .f32⟩
  | 29 => ⟨S_, .f32⟩
  | 30 => ⟨S_, .f32⟩
  | 31 => ⟨S_, .f32⟩
  | 32 => ⟨S_, .f32⟩
  | 33 => ⟨S128, .f32⟩
  | 34 => ⟨S128, .f32⟩
  | 35 => ⟨S128, .f32⟩
  | 36 => ⟨S_, .f32⟩
  | 37 => ⟨S_, .i1⟩
  | 38 => ⟨S_, .f32⟩
  | 39 => ⟨S_, .f32⟩
  | 40 => ⟨S128, .f32⟩
  | 41 => ⟨S128, .f32⟩
  | 42 => ⟨S1x128, .f32⟩
  | 43 => ⟨S100000x128, .f32⟩
  | 44 => ⟨S100000x128, .f32⟩
  | 45 => ⟨S_, .f32⟩
  | 46 => ⟨S128, .f32⟩
  | 47 => ⟨S128, .f32⟩
  | 48 => ⟨S128, .f32⟩
  | 49 => ⟨S1x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S_, .f32⟩
  | 59 => ⟨S100000x128, .f32⟩
  | 60 => ⟨S100000x128, .f32⟩
  | 61 => ⟨S100000x128, .f32⟩
  | 62 => ⟨S1x128x128, .f32⟩
  | 63 => ⟨S128x128, .f32⟩
  | 64 => ⟨S100000x128, .f32⟩
  | 65 => ⟨S_, .i32⟩
  | 66 => ⟨S640000, .i32⟩
  | 67 => ⟨S640000, .i1⟩
  | 68 => ⟨S_, .i32⟩
  | 69 => ⟨S640000, .i32⟩
  | 70 => ⟨S640000, .i32⟩
  | 71 => ⟨S640000, .i32⟩
  | 72 => ⟨S640000x1, .i32⟩
  | 73 => ⟨S640000x128, .f32⟩
  | 74 => ⟨S640000x128, .f32⟩
  | 75 => ⟨S640000x128, .f32⟩
  | 76 => ⟨S_, .f32⟩
  | 77 => ⟨S100000x128, .f32⟩
  | 78 => ⟨S640000x1, .i32⟩
  | 79 => ⟨S100000x128, .f32⟩
  | 80 => ⟨S1x128, .f32⟩
  | 81 => ⟨S128, .f32⟩
  | 82 => ⟨S1x128, .f32⟩
  | 83 => ⟨S100000x128, .f32⟩
  | 84 => ⟨S100000x128, .f32⟩
  | 85 => ⟨S1x128, .f32⟩
  | 86 => ⟨S128, .f32⟩
  | 87 => ⟨S1x128, .f32⟩
  | 88 => ⟨S128, .f32⟩
  | 89 => ⟨S_, .f32⟩
  | 90 => ⟨S128, .f32⟩
  | 91 => ⟨S_, .f32⟩
  | 92 => ⟨S128, .f32⟩
  | 93 => ⟨S128, .f32⟩
  | 94 => ⟨S_, .i32⟩
  | 95 => ⟨S_, .f32⟩
  | 96 => ⟨S128, .f32⟩
  | 97 => ⟨S1x128, .f32⟩
  | 98 => ⟨S_, .f32⟩
  | 99 => ⟨S1x128, .f32⟩
  | 100 => ⟨S1x128, .f32⟩
  | 101 => ⟨S100000x128, .f32⟩
  | 102 => ⟨S100000x128, .f32⟩
  | 103 => ⟨S100000x128, .f32⟩
  | 104 => ⟨S_, .f32⟩
  | 105 => ⟨S_, .f32⟩
  | 106 => ⟨S_, .f32⟩
  | 107 => ⟨S_, .f32⟩
  | 108 => ⟨S128, .f32⟩
  | 109 => ⟨S128, .f32⟩
  | 110 => ⟨S128, .f32⟩
  | 111 => ⟨S_, .f32⟩
  | 112 => ⟨S_, .i1⟩
  | 113 => ⟨S_, .f32⟩
  | 114 => ⟨S_, .f32⟩
  | 115 => ⟨S128, .f32⟩
  | 116 => ⟨S128, .f32⟩
  | 117 => ⟨S1x128, .f32⟩
  | 118 => ⟨S100000x128, .f32⟩
  | 119 => ⟨S100000x128, .f32⟩
  | 120 => ⟨S_, .f32⟩
  | 121 => ⟨S128, .f32⟩
  | 122 => ⟨S128, .f32⟩
  | 123 => ⟨S128, .f32⟩
  | 124 => ⟨S1x128, .f32⟩
  | 125 => ⟨S100000x128, .f32⟩
  | 126 => ⟨S100000x128, .f32⟩
  | 127 => ⟨S1x128, .f32⟩
  | _ => ⟨S100000x128, .f32⟩

abbrev hbmTy0_2 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S_, .f32⟩
  | 6 => ⟨S100000x128, .f32⟩
  | 7 => ⟨S100000x128, .f32⟩
  | 8 => ⟨S100000x128, .f32⟩
  | 9 => ⟨S1x128x128, .f32⟩
  | 10 => ⟨S128x128, .f32⟩
  | 11 => ⟨S100000x128, .f32⟩
  | 12 => ⟨S_, .i32⟩
  | 13 => ⟨S640000, .i32⟩
  | 14 => ⟨S640000, .i1⟩
  | 15 => ⟨S_, .i32⟩
  | 16 => ⟨S640000, .i32⟩
  | 17 => ⟨S640000, .i32⟩
  | 18 => ⟨S640000, .i32⟩
  | 19 => ⟨S640000x1, .i32⟩
  | 20 => ⟨S640000x128, .f32⟩
  | 21 => ⟨S640000x128, .f32⟩
  | 22 => ⟨S640000x128, .f32⟩
  | 23 => ⟨S_, .f32⟩
  | 24 => ⟨S100000x128, .f32⟩
  | 25 => ⟨S640000x1, .i32⟩
  | 26 => ⟨S100000x128, .f32⟩
  | 27 => ⟨S1x128, .f32⟩
  | 28 => ⟨S128, .f32⟩
  | 29 => ⟨S1x128, .f32⟩
  | 30 => ⟨S100000x128, .f32⟩
  | 31 => ⟨S100000x128, .f32⟩
  | 32 => ⟨S1x128, .f32⟩
  | 33 => ⟨S128, .f32⟩
  | 34 => ⟨S1x128, .f32⟩
  | 35 => ⟨S128, .f32⟩
  | 36 => ⟨S_, .f32⟩
  | 37 => ⟨S128, .f32⟩
  | 38 => ⟨S_, .f32⟩
  | 39 => ⟨S128, .f32⟩
  | 40 => ⟨S128, .f32⟩
  | 41 => ⟨S_, .i32⟩
  | 42 => ⟨S_, .f32⟩
  | 43 => ⟨S128, .f32⟩
  | 44 => ⟨S1x128, .f32⟩
  | 45 => ⟨S_, .f32⟩
  | 46 => ⟨S1x128, .f32⟩
  | 47 => ⟨S1x128, .f32⟩
  | 48 => ⟨S100000x128, .f32⟩
  | 49 => ⟨S100000x128, .f32⟩
  | 50 => ⟨S100000x128, .f32⟩
  | 51 => ⟨S_, .f32⟩
  | 52 => ⟨S_, .f32⟩
  | 53 => ⟨S_, .f32⟩
  | 54 => ⟨S_, .f32⟩
  | 55 => ⟨S128, .f32⟩
  | 56 => ⟨S128, .f32⟩
  | 57 => ⟨S128, .f32⟩
  | 58 => ⟨S_, .f32⟩
  | 59 => ⟨S_, .i1⟩
  | 60 => ⟨S_, .f32⟩
  | 61 => ⟨S_, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S_, .f32⟩
  | 68 => ⟨S128, .f32⟩
  | 69 => ⟨S128, .f32⟩
  | 70 => ⟨S128, .f32⟩
  | 71 => ⟨S1x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x128, .f32⟩
  | 84 => ⟨S_, .f32⟩
  | 85 => ⟨S64x128, .f32⟩
  | 86 => ⟨S100000x1, .i32⟩
  | 87 => ⟨S64x128, .f32⟩
  | 88 => ⟨S64x64, .f32⟩
  | 89 => ⟨S1x64, .f32⟩
  | 90 => ⟨S64x64, .f32⟩
  | 91 => ⟨S64x64, .f32⟩
  | 92 => ⟨S_, .f32⟩
  | 93 => ⟨S64x64, .f32⟩
  | 94 => ⟨S64x64, .f32⟩
  | 95 => ⟨S64x32, .f32⟩
  | 96 => ⟨S1x32, .f32⟩
  | 97 => ⟨S64x32, .f32⟩
  | 98 => ⟨S64x32, .f32⟩
  | 99 => ⟨S_, .f32⟩
  | 100 => ⟨S64x32, .f32⟩
  | 101 => ⟨S64x32, .f32⟩
  | 102 => ⟨S64x1, .f32⟩
  | 103 => ⟨S1x1, .f32⟩
  | 104 => ⟨S64x1, .f32⟩
  | 105 => ⟨S64x1, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v13 : Ref sig .tc := ⟨.hbm, 39, rfl⟩
abbrev main_c : Ref sig .tc := ⟨.hbm, 40, rfl⟩
abbrev main_v14 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_5 : Ref sig .tc := ⟨.hbm, 49, rfl⟩
abbrev main_v21 : Ref sig .tc := ⟨.hbm, 50, rfl⟩
abbrev main_v22 : Ref sig .tc := ⟨.hbm, 51, rfl⟩
abbrev main_c_6 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_7 : Ref sig .tc := ⟨.hbm, 64, rfl⟩
abbrev main_v34 : Ref sig .tc := ⟨.hbm, 65, rfl⟩
abbrev main_cst_8 : Ref sig .tc := ⟨.hbm, 66, rfl⟩
abbrev main_v35 : Ref sig .tc := ⟨.hbm, 67, rfl⟩
abbrev main_v36 : Ref sig .tc := ⟨.hbm, 68, rfl⟩
abbrev main_c_9 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_cst_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_cst_1 : Ref sig .tc := ⟨.hbm, 80, rfl⟩
abbrev main_call1_v8 : Ref sig .tc := ⟨.hbm, 81, rfl⟩
abbrev main_call1_cst_2 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_cst_3 : Ref sig .tc := ⟨.hbm, 86, rfl⟩
abbrev main_call1_v12 : Ref sig .tc := ⟨.hbm, 87, rfl⟩
abbrev main_call1_cst_4 : Ref sig .tc := ⟨.hbm, 88, rfl⟩
abbrev main_call1_call0_v0 : Ref sig .tc := ⟨.hbm, 89, rfl⟩
abbrev main_call1_call0_v1 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_cst_10 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_call2_cst : Ref sig .tc := ⟨.hbm, 108, rfl⟩
abbrev main_call2_v0 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_c_11 : Ref sig .tc := ⟨.hbm, 118, rfl⟩
abbrev main_v61 : Ref sig .tc := ⟨.hbm, 119, rfl⟩
abbrev main_v62 : Ref sig .tc := ⟨.hbm, 120, rfl⟩
abbrev main_c_12 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_cst_13 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_cst_14 : Ref sig .tc := ⟨.hbm, 142, rfl⟩
abbrev main_v82 : Ref sig .tc := ⟨.hbm, 143, rfl⟩
abbrev main_cst_15 : Ref sig .tc := ⟨.hbm, 144, rfl⟩
abbrev main_v83 : Ref sig .tc := ⟨.hbm, 145, rfl⟩
abbrev main_v84 : Ref sig .tc := ⟨.hbm, 146, rfl⟩
abbrev main_c_16 : Ref sig .tc := ⟨.hbm, 147, rfl⟩
abbrev main_call3_cst : Ref sig .tc := ⟨.hbm, 148, rfl⟩
abbrev main_call3_v0 : Ref sig .tc := ⟨.hbm, 149, rfl⟩
abbrev main_call3_v1 : Ref sig .tc := ⟨.hbm, 150, rfl⟩
abbrev main_call3_cst_0 : Ref sig .tc := ⟨.hbm, 151, rfl⟩
abbrev main_call3_v2 : Ref sig .tc := ⟨.hbm, 152, rfl⟩
abbrev main_call3_v3 : Ref sig .tc := ⟨.hbm, 153, rfl⟩
abbrev main_call3_v4 : Ref sig .tc := ⟨.hbm, 154, rfl⟩
abbrev main_call3_v5 : Ref sig .tc := ⟨.hbm, 155, rfl⟩
abbrev main_call3_v6 : Ref sig .tc := ⟨.hbm, 156, rfl⟩
abbrev main_call3_v7 : Ref sig .tc := ⟨.hbm, 157, rfl⟩
abbrev main_call3_cst_1 : Ref sig .tc := ⟨.hbm, 158, rfl⟩
abbrev main_call3_v8 : Ref sig .tc := ⟨.hbm, 159, rfl⟩
abbrev main_call3_cst_2 : Ref sig .tc := ⟨.hbm, 160, rfl⟩
abbrev main_call3_v9 : Ref sig .tc := ⟨.hbm, 161, rfl⟩
abbrev main_call3_v10 : Ref sig .tc := ⟨.hbm, 162, rfl⟩
abbrev main_call3_v11 : Ref sig .tc := ⟨.hbm, 163, rfl⟩
abbrev main_call3_cst_3 : Ref sig .tc := ⟨.hbm, 164, rfl⟩
abbrev main_call3_v12 : Ref sig .tc := ⟨.hbm, 165, rfl⟩
abbrev main_call3_cst_4 : Ref sig .tc := ⟨.hbm, 166, rfl⟩
abbrev main_call3_call0_v0 : Ref sig .tc := ⟨.hbm, 167, rfl⟩
abbrev main_call3_call0_v1 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_cst_17 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_call4_cst : Ref sig .tc := ⟨.hbm, 186, rfl⟩
abbrev main_call4_v0 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_c_18 : Ref sig .tc := ⟨.hbm, 193, rfl⟩
abbrev main_v106 : Ref sig .tc := ⟨.hbm, 194, rfl⟩
abbrev main_v107 : Ref sig .tc := ⟨.hbm, 195, rfl⟩
abbrev main_c_19 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_cst_20 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_cst_21 : Ref sig .tc := ⟨.hbm, 217, rfl⟩
abbrev main_v127 : Ref sig .tc := ⟨.hbm, 218, rfl⟩
abbrev main_cst_22 : Ref sig .tc := ⟨.hbm, 219, rfl⟩
abbrev main_v128 : Ref sig .tc := ⟨.hbm, 220, rfl⟩
abbrev main_v129 : Ref sig .tc := ⟨.hbm, 221, rfl⟩
abbrev main_c_23 : Ref sig .tc := ⟨.hbm, 222, rfl⟩
abbrev main_call5_cst : Ref sig .tc := ⟨.hbm, 223, rfl⟩
abbrev main_call5_v0 : Ref sig .tc := ⟨.hbm, 224, rfl⟩
abbrev main_call5_v1 : Ref sig .tc := ⟨.hbm, 225, rfl⟩
abbrev main_call5_cst_0 : Ref sig .tc := ⟨.hbm, 226, rfl⟩
abbrev main_call5_v2 : Ref sig .tc := ⟨.hbm, 227, rfl⟩
abbrev main_call5_v3 : Ref sig .tc := ⟨.hbm, 228, rfl⟩
abbrev main_call5_v4 : Ref sig .tc := ⟨.hbm, 229, rfl⟩
abbrev main_call5_v5 : Ref sig .tc := ⟨.hbm, 230, rfl⟩
abbrev main_call5_v6 : Ref sig .tc := ⟨.hbm, 231, rfl⟩
abbrev main_call5_v7 : Ref sig .tc := ⟨.hbm, 232, rfl⟩
abbrev main_call5_cst_1 : Ref sig .tc := ⟨.hbm, 233, rfl⟩
abbrev main_call5_v8 : Ref sig .tc := ⟨.hbm, 234, rfl⟩
abbrev main_call5_cst_2 : Ref sig .tc := ⟨.hbm, 235, rfl⟩
abbrev main_call5_v9 : Ref sig .tc := ⟨.hbm, 236, rfl⟩
abbrev main_call5_v10 : Ref sig .tc := ⟨.hbm, 237, rfl⟩
abbrev main_call5_v11 : Ref sig .tc := ⟨.hbm, 238, rfl⟩
abbrev main_call5_cst_3 : Ref sig .tc := ⟨.hbm, 239, rfl⟩
abbrev main_call5_v12 : Ref sig .tc := ⟨.hbm, 240, rfl⟩
abbrev main_call5_cst_4 : Ref sig .tc := ⟨.hbm, 241, rfl⟩
abbrev main_call5_call0_v0 : Ref sig .tc := ⟨.hbm, 242, rfl⟩
abbrev main_call5_call0_v1 : Ref sig .tc := ⟨.hbm, 243, rfl⟩
abbrev main_v130 : Ref sig .tc := ⟨.hbm, 244, rfl⟩
abbrev main_v131 : Ref sig .tc := ⟨.hbm, 245, rfl⟩
abbrev main_v132 : Ref sig .tc := ⟨.hbm, 246, rfl⟩
abbrev main_v133 : Ref sig .tc := ⟨.hbm, 247, rfl⟩
abbrev main_cst_24 : Ref sig .tc := ⟨.hbm, 248, rfl⟩
abbrev main_v134 : Ref sig .tc := ⟨.hbm, 249, rfl⟩
abbrev main_v135 : Ref sig .tc := ⟨.hbm, 250, rfl⟩
abbrev main_v136 : Ref sig .tc := ⟨.hbm, 251, rfl⟩
abbrev main_v137 : Ref sig .tc := ⟨.hbm, 252, rfl⟩
abbrev main_v138 : Ref sig .tc := ⟨.hbm, 253, rfl⟩
abbrev main_v139 : Ref sig .tc := ⟨.hbm, 254, rfl⟩
abbrev main_v140 : Ref sig .tc := ⟨.hbm, 255, rfl⟩
abbrev main_v141 : Ref sig .tc := ⟨.hbm, 256, rfl⟩
abbrev main_v142 : Ref sig .tc := ⟨.hbm, 257, rfl⟩
abbrev main_v143 : Ref sig .tc := ⟨.hbm, 258, rfl⟩
abbrev main_v144 : Ref sig .tc := ⟨.hbm, 259, rfl⟩
abbrev main_v145 : Ref sig .tc := ⟨.hbm, 260, rfl⟩
abbrev main_call6_cst : Ref sig .tc := ⟨.hbm, 261, rfl⟩
abbrev main_call6_v0 : Ref sig .tc := ⟨.hbm, 262, rfl⟩
abbrev main_v146 : Ref sig .tc := ⟨.hbm, 263, rfl⟩
abbrev main_v147 : Ref sig .tc := ⟨.hbm, 264, rfl⟩
abbrev main_v148 : Ref sig .tc := ⟨.hbm, 265, rfl⟩
abbrev main_v149 : Ref sig .tc := ⟨.hbm, 266, rfl⟩
abbrev main_v150 : Ref sig .tc := ⟨.hbm, 267, rfl⟩
abbrev main_c_25 : Ref sig .tc := ⟨.hbm, 268, rfl⟩
abbrev main_v151 : Ref sig .tc := ⟨.hbm, 269, rfl⟩
abbrev main_v152 : Ref sig .tc := ⟨.hbm, 270, rfl⟩
abbrev main_c_26 : Ref sig .tc := ⟨.hbm, 271, rfl⟩
abbrev main_v153 : Ref sig .tc := ⟨.hbm, 272, rfl⟩
abbrev main_v154 : Ref sig .tc := ⟨.hbm, 273, rfl⟩
abbrev main_v155 : Ref sig .tc := ⟨.hbm, 274, rfl⟩
abbrev main_v156 : Ref sig .tc := ⟨.hbm, 275, rfl⟩
abbrev main_v157 : Ref sig .tc := ⟨.hbm, 276, rfl⟩
abbrev main_v158 : Ref sig .tc := ⟨.hbm, 277, rfl⟩
abbrev main_v159 : Ref sig .tc := ⟨.hbm, 278, rfl⟩
abbrev main_cst_27 : Ref sig .tc := ⟨.hbm, 279, rfl⟩
abbrev main_v160 : Ref sig .tc := ⟨.hbm, 280, rfl⟩
abbrev main_v161 : Ref sig .tc := ⟨.hbm, 281, rfl⟩
abbrev main_v162 : Ref sig .tc := ⟨.hbm, 282, rfl⟩
abbrev main_v163 : Ref sig .tc := ⟨.hbm, 283, rfl⟩
abbrev main_v164 : Ref sig .tc := ⟨.hbm, 284, rfl⟩
abbrev main_v165 : Ref sig .tc := ⟨.hbm, 285, rfl⟩
abbrev main_v166 : Ref sig .tc := ⟨.hbm, 286, rfl⟩
abbrev main_v167 : Ref sig .tc := ⟨.hbm, 287, rfl⟩
abbrev main_v168 : Ref sig .tc := ⟨.hbm, 288, rfl⟩
abbrev main_v169 : Ref sig .tc := ⟨.hbm, 289, rfl⟩
abbrev main_v170 : Ref sig .tc := ⟨.hbm, 290, rfl⟩
abbrev main_v171 : Ref sig .tc := ⟨.hbm, 291, rfl⟩
abbrev main_cst_28 : Ref sig .tc := ⟨.hbm, 292, rfl⟩
abbrev main_v172 : Ref sig .tc := ⟨.hbm, 293, rfl⟩
abbrev main_cst_29 : Ref sig .tc := ⟨.hbm, 294, rfl⟩
abbrev main_v173 : Ref sig .tc := ⟨.hbm, 295, rfl⟩
abbrev main_v174 : Ref sig .tc := ⟨.hbm, 296, rfl⟩
abbrev main_c_30 : Ref sig .tc := ⟨.hbm, 297, rfl⟩
abbrev main_call7_cst : Ref sig .tc := ⟨.hbm, 298, rfl⟩
abbrev main_call7_v0 : Ref sig .tc := ⟨.hbm, 299, rfl⟩
abbrev main_call7_v1 : Ref sig .tc := ⟨.hbm, 300, rfl⟩
abbrev main_call7_cst_0 : Ref sig .tc := ⟨.hbm, 301, rfl⟩
abbrev main_call7_v2 : Ref sig .tc := ⟨.hbm, 302, rfl⟩
abbrev main_call7_v3 : Ref sig .tc := ⟨.hbm, 303, rfl⟩
abbrev main_call7_v4 : Ref sig .tc := ⟨.hbm, 304, rfl⟩
abbrev main_call7_v5 : Ref sig .tc := ⟨.hbm, 305, rfl⟩
abbrev main_call7_v6 : Ref sig .tc := ⟨.hbm, 306, rfl⟩
abbrev main_call7_v7 : Ref sig .tc := ⟨.hbm, 307, rfl⟩
abbrev main_call7_cst_1 : Ref sig .tc := ⟨.hbm, 308, rfl⟩
abbrev main_call7_v8 : Ref sig .tc := ⟨.hbm, 309, rfl⟩
abbrev main_call7_cst_2 : Ref sig .tc := ⟨.hbm, 310, rfl⟩
abbrev main_call7_v9 : Ref sig .tc := ⟨.hbm, 311, rfl⟩
abbrev main_call7_v10 : Ref sig .tc := ⟨.hbm, 312, rfl⟩
abbrev main_call7_v11 : Ref sig .tc := ⟨.hbm, 313, rfl⟩
abbrev main_call7_cst_3 : Ref sig .tc := ⟨.hbm, 314, rfl⟩
abbrev main_call7_v12 : Ref sig .tc := ⟨.hbm, 315, rfl⟩
abbrev main_call7_cst_4 : Ref sig .tc := ⟨.hbm, 316, rfl⟩
abbrev main_call7_call0_v0 : Ref sig .tc := ⟨.hbm, 317, rfl⟩
abbrev main_call7_call0_v1 : Ref sig .tc := ⟨.hbm, 318, rfl⟩
abbrev main_v175 : Ref sig .tc := ⟨.hbm, 319, rfl⟩
abbrev main_v176 : Ref sig .tc := ⟨.hbm, 320, rfl⟩
abbrev main_v177 : Ref sig .tc := ⟨.hbm, 321, rfl⟩
abbrev main_v178 : Ref sig .tc := ⟨.hbm, 322, rfl⟩
abbrev main_cst_31 : Ref sig .tc := ⟨.hbm, 323, rfl⟩
abbrev main_v179 : Ref sig .tc := ⟨.hbm, 324, rfl⟩
abbrev main_v180 : Ref sig .tc := ⟨.hbm, 325, rfl⟩
abbrev main_v181 : Ref sig .tc := ⟨.hbm, 326, rfl⟩
abbrev main_v182 : Ref sig .tc := ⟨.hbm, 327, rfl⟩
abbrev main_v183 : Ref sig .tc := ⟨.hbm, 328, rfl⟩
abbrev main_v184 : Ref sig .tc := ⟨.hbm, 329, rfl⟩
abbrev main_v185 : Ref sig .tc := ⟨.hbm, 330, rfl⟩
abbrev main_v186 : Ref sig .tc := ⟨.hbm, 331, rfl⟩
abbrev main_v187 : Ref sig .tc := ⟨.hbm, 332, rfl⟩
abbrev main_v188 : Ref sig .tc := ⟨.hbm, 333, rfl⟩
abbrev main_v189 : Ref sig .tc := ⟨.hbm, 334, rfl⟩
abbrev main_v190 : Ref sig .tc := ⟨.hbm, 335, rfl⟩
abbrev main_call8_cst : Ref sig .tc := ⟨.hbm, 336, rfl⟩
abbrev main_call8_v0 : Ref sig .tc := ⟨.hbm, 337, rfl⟩
abbrev main_v191 : Ref sig .tc := ⟨.hbm, 338, rfl⟩
abbrev main_v192 : Ref sig .tc := ⟨.hbm, 339, rfl⟩
abbrev main_cst_32 : Ref sig .tc := ⟨.hbm, 340, rfl⟩
abbrev main_v193 : Ref sig .tc := ⟨.hbm, 341, rfl⟩
abbrev main_v194 : Ref sig .tc := ⟨.hbm, 342, rfl⟩
abbrev main_v195 : Ref sig .tc := ⟨.hbm, 343, rfl⟩
abbrev main_v196 : Ref sig .tc := ⟨.hbm, 344, rfl⟩
abbrev main_v197 : Ref sig .tc := ⟨.hbm, 345, rfl⟩
abbrev main_v198 : Ref sig .tc := ⟨.hbm, 346, rfl⟩
abbrev main_v199 : Ref sig .tc := ⟨.hbm, 347, rfl⟩
abbrev main_call9_cst : Ref sig .tc := ⟨.hbm, 348, rfl⟩
abbrev main_call9_v0 : Ref sig .tc := ⟨.hbm, 349, rfl⟩
abbrev main_v200 : Ref sig .tc := ⟨.hbm, 350, rfl⟩
abbrev main_v201 : Ref sig .tc := ⟨.hbm, 351, rfl⟩
abbrev main_v202 : Ref sig .tc := ⟨.hbm, 352, rfl⟩
abbrev main_v203 : Ref sig .tc := ⟨.hbm, 353, rfl⟩
abbrev main_v204 : Ref sig .tc := ⟨.hbm, 354, rfl⟩
abbrev main_call10_cst : Ref sig .tc := ⟨.hbm, 355, rfl⟩
abbrev main_call10_v0 : Ref sig .tc := ⟨.hbm, 356, rfl⟩
abbrev main_v205 : Ref sig .tc := ⟨.hbm, 357, rfl⟩
abbrev main_v206 : Ref sig .tc := ⟨.hbm, 358, rfl⟩
abbrev main_v207 : Ref sig .tc := ⟨.hbm, 359, rfl⟩
abbrev main_v208 : Ref sig .tc := ⟨.hbm, 360, rfl⟩
abbrev main_v209 : Ref sig .tc := ⟨.hbm, 361, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  bcast_S640000x1_S640000x128_0_1 : S640000x1.BroadcastsInDim S640000x128 (![0, 1] : Fin 2 → Fin S640000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  dot_S100000x128_S128x128_S100000x128_1_0_0_1_n_n_wf : DotDims.WF S100000x128 S128x128 S100000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S64x128_S100000x1_S100000x128_1_0_0_1_wf : ScatterDims.WF S64x128 S100000x1 S100000x128 [1] [0] [0] 1
  dot_S64x128_S128x64_S64x64_1_0_0_1_n_n_wf : DotDims.WF S64x128 S128x64 S64x64 [1] [0] [0] [1] [] []
  dot_S64x64_S64x32_S64x32_1_0_0_1_n_n_wf : DotDims.WF S64x64 S64x32 S64x32 [1] [0] [0] [1] [] []
  dot_S64x32_S32x1_S64x1_1_0_0_1_n_n_wf : DotDims.WF S64x32 S32x1 S64x1 [1] [0] [0] [1] [] []

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

class Facts : Prop extends Facts₀ where

variable [Facts]
-- ==== Proof.KRun.lean ====
/-
  The idealized kernel program's run, with every buffer read at the end.
  The program is thirteen kernel regions among stretches of host operations. Its run is the library's launch theorem
  for such a sequence applied to the generated segments; the final thread state holds every unscoped buffer at the
  last boundary's contents, so every weakly fair execution ends with each such buffer — the result among them — at
  those contents. What those contents are, as functions of the arguments, is read boundary by boundary elsewhere.
-/
import proofs.«136606_j68719476736452_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in the final state every unscoped
    buffer of every core holds the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W31 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W31 m ρ c b)
    (hfin := fun c s' => by
      iintro ⟨⟨Hh, -⟩, HSI⟩
      unfold StableHlo.held
      imodintro
      iapply (pointsTo_read_all (Pipeline.ucRefs τ sig) (fun b => (((c : Thread nD τ)).1, b)) (W31 m ρ c) s')
      isplitl [Hh] <;> iassumption)
    (hQ := fun s h => h)

end Cert.KernelIdeal.ValueRun

end
-- ==== Proof.RefRun.lean ====
/-
  The run of the idealized reference program, read back as a list of operations.

  The reference is a graph convolution network written as one straight line of whole-array operations: the edge
  normalisation (the in-degree of every node by a scatter-add of ones, its inverse square root where the degree is
  positive, read at both ends of every edge and multiplied), an encoder (a linear map, a normalisation of every
  column by its mean and variance over the nodes, a clamp at zero, a second linear map), three graph-convolution
  layers (a linear map, a sum over the incoming edges of the normalised neighbours plus a bias row, the same
  column normalisation and clamp, added back to the layer's input), a sum of the nodes of every graph, and three
  small linear maps with clamps between them. The functions the program calls (the select against a constant,
  the two-pass variance, the clamps) are written out at their call sites over the buffers of that call.

  The operations are listed in order as eighteen consecutive segments, each ending right after a value the
  mathematics names (the table is in the docstrings below); `ops` is their concatenation. `main_eq` says the
  program is exactly that line, and `run_raw` that every weakly fair execution terminates with every buffer at
  the fold of the operations over the launch contents.
-/
import proofs.«136606_j68719476736452_2_alg».proof.Proof.Gen.ReferenceIdeal
import Idealize.ShloMosaic.Lib.StableHlo.Run
import Idealize.ShloMosaic.PureOps.Ideal

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Segment 0 (41 operations, main_v0 … main_v29): edge normalisation: src = main_v1, dst = main_v3, norm[:,None] = main_v29 (includes the @_where call, record main_call0). -/
abbrev seg0 : List (HloOp τ sig (Elt F)) :=
  [ StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.nullary main_cst (constant S_ .f32 0x3F800000#32),
    StableHlo.unary main_cst main_v4 (broadcastInDim S640000 ![] bcast_S_S640000 : (⟨S_, .f32⟩ : BufTy).Contents (Elt F) → (⟨S640000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S640000x1 ![0] bcast_S640000_S640000x1_0 : (⟨S640000, .i32⟩ : BufTy).Contents (Elt F) → (⟨S640000x1, .i32⟩ : BufTy).Contents (Elt F)),
    StableHlo.ternary main_v5 main_v6 main_v4 main_v7 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_1 (constant S_ .f32 0x00000000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v10 (broadcastInDim S100000 ![] bcast_S_S100000 : (⟨S_, .f32⟩ : BufTy).Contents (Elt F) → (⟨S100000, .f32⟩ : BufTy).Contents (Elt F)),
    StableHlo.binary main_v7 main_v10 main_v11 (maximumf : (⟨S100000, .f32⟩ : BufTy).Contents (Elt F) → (⟨S100000, .f32⟩ : BufTy).Contents (Elt F) → (⟨S100000, .f32⟩ : BufTy).Contents (Elt F)),
    StableHlo.unary main_v11 main_v12 (Host.rsqrt : (⟨S100000, .f32⟩ : BufTy).Contents (Elt F) → (⟨S100000, .f32⟩ : BufTy).Contents (Elt F)),
    StableHlo.nullary main_cst_3 (constant S_ .f32 0x00000000#32),
    StableHlo.TRef.unary (.of main_cst_3) main_call0.v0 id,
    StableHlo.TRef.unary main_call0.v0 main_call0.v1 (broadcastInDim S100000 ![] bcast_S_S100000),
    StableHlo.TRef.ternary (.of main_v9) (.of main_v12) main_call0.v1 main_call0.v2 select,
    StableHlo.nullary main_c (constantI S_ 32 0#32),
    StableHlo.unary main_c main_v14 (broadcastInDim S640000 ![] bcast_S_S640000 : (⟨S_, .i32⟩ : BufTy).Contents (Elt F) → (⟨S640000, .i32⟩ : BufTy).Contents (Elt F)),
    StableHlo.binary main_v1 main_v14 main_v15 (cmpi .slt : (⟨S640000, .i32⟩ : BufTy).Contents (Elt F) → (⟨S640000, .i32⟩ : BufTy).Contents (Elt F) → (⟨S640000, .i1⟩ : BufTy).Contents (Elt F)),
    StableHlo.nullary main_c_4 (constantI S_ 32 100000#32),
    StableHlo.unary main_c_4 main_v16 (broadcastInDim S640000 ![] bcast_S_S640000 : (⟨S_, .i32⟩ : BufTy).Contents (Elt F) → (⟨S640000, .i32⟩ : BufTy).Contents (Elt F)),
    StableHlo.binary main_v1 main_v16 main_v17 (addi : (⟨S640000, .i32⟩ : BufTy).Contents (Elt F) → (⟨S640000, .i32⟩ : BufTy).Contents (Elt F) → (⟨S640000, .i32⟩ : BufTy).Contents (Elt F)),
    StableHlo.ternary main_v15 main_v17 main_v1 main_v18 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v18 main_v19 (broadcastInDim S640000x1 ![0] bcast_S640000_S640000x1_0 : (⟨S640000, .i32⟩ : BufTy).Contents (Elt F) → (⟨S640000x1, .i32⟩ : BufTy).Contents (Elt F)),
    StableHlo.binary main_v13 main_v19 main_v20 ((fun x i => Host.gather gather_S100000_S640000x1_S640000_n_0_n_n_0_1_1 x i) : (⟨S100000, .f32⟩ : BufTy).Contents (Elt F) → (⟨S640000x1, .i32⟩ : BufTy).Contents (Elt F) → (⟨S640000, .f32⟩ : BufTy).Contents (Elt F)),
    StableHlo.nullary main_c_5 (constantI S_ 32 0#32),
    StableHlo.unary main_c_5 main_v21 (broadcastInDim S640000 ![] bcast_S_S640000 : (⟨S_, .i32⟩ : BufTy).Contents (Elt F) → (⟨S640000, .i32⟩ : BufTy).Contents (Elt F)),
    StableHlo.binary main_v3 main_v21 main_v22 (cmpi .slt : (⟨S640000, .i32⟩ : BufTy).Contents (Elt F) → (⟨S640000, .i32⟩ : BufTy).Contents (Elt F) → (⟨S640000, .i1⟩ : BufTy).Contents (Elt F)),
    StableHlo.nullary main_c_6 (constantI S_ 32 100000#32),
    StableHlo.unary main_c_6 main_v23 (broadcastInDim S640000 ![] bcast_S_S640000 : (⟨S_, .i32⟩ : BufTy).Contents (Elt F) → (⟨S640000, .i32⟩ : BufTy).Contents (Elt F)),
    StableHlo.binary main_v3 main_v23 main_v24 (addi : (⟨S640000, .i32⟩ : BufTy).Contents (Elt F) → (⟨S640000, .i32⟩ : BufTy).Contents (Elt F) → (⟨S640000, .i32⟩ : BufTy).Contents (Elt F)),
    StableHlo.ternary main_v22 main_v24 main_v3 main_v25 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v25 main_v26 (broadcastInDim S640000x1 ![0] bcast_S640000_S640000x1_0 : (⟨S640000, .i32⟩ : BufTy).Contents (Elt F) → (⟨S640000x1, .i32⟩ : BufTy).Contents (Elt F)),
    StableHlo.binary main_v13 main_v26 main_v27 ((fun x i => Host.gather gather_S100000_S640000x1_S640000_n_0_n_n_0_1_1 x i) : (⟨S100000, .f32⟩ : BufTy).Contents (Elt F) → (⟨S640000x1, .i32⟩ : BufTy).Contents (Elt F) → (⟨S640000, .f32⟩ : BufTy).Contents (Elt F)),
    StableHlo.binary main_v20 main_v27 main_v28 (mulf : (⟨S640000, .f32⟩ : BufTy).Contents (Elt F) → (⟨S640000, .f32⟩ : BufTy).Contents (Elt F) → (⟨S640000, .f32⟩ : BufTy).Contents (Elt F)),
    StableHlo.unary main_v28 main_v29 (broadcastInDim S640000x1 ![0] bcast_S640000_S640000x1_0 : (⟨S640000, .f32⟩ : BufTy).Contents (Elt F) → (⟨S640000x1, .f32⟩ : BufTy).Contents (Elt F)) ]

/-- Segment 1 (4 operations, main_v30 … main_v33): x @ enc_W1 + enc_b1 = main_v33. -/
abbrev seg1 : List (HloOp τ sig (Elt F)) :=
  [ StableHlo.binary main_arg0 main_arg3 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S100000x128 ![0, 1] bcast_S1x128_S100000x128_0_1 : (⟨S1x128, .f32⟩ : BufTy).Contents (Elt F) → (⟨S100000x128, .f32⟩ : BufTy).Contents (Elt F)),
    StableHlo.binary main_v30 main_v32 main_v33 (addf : (⟨S100000x128, .f32⟩ : BufTy).Contents (Elt F) → (⟨S100000x128, .f32⟩ : BufTy).Contents (Elt F) → (⟨S100000x128, .f32⟩ : BufTy).Contents (Elt F)) ]

/-- Segment 2 (28 operations, main_cst_7 … main_v37): encoder batch statistics: mean = main_v36, variance = main_v37 (the @_var call, record main_call1, with its @_where_0). -/
abbrev seg2 : List (HloOp τ sig (Elt F)) :=
  [ StableHlo.nullary main_cst_7 (constant S_ .f32 0x00000000#32),
    StableHlo.binary main_v33 main_cst_7 main_v34 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_8 (constant S_ .f32 0x47C35000#32),
    StableHlo.unary main_cst_8 main_v35 (broadcastInDim S128 ![] bcast_S_S128 : (⟨S_, .f32⟩ : BufTy).Contents (Elt F) → (⟨S128, .f32⟩ : BufTy).Contents (Elt F)),
    StableHlo.binary main_v34 main_v35 main_v36 (Host.divf : (⟨S128, .f32⟩ : BufTy).Contents (Elt F) → (⟨S128, .f32⟩ : BufTy).Contents (Elt F) → (⟨S128, .f32⟩ : BufTy).Contents (Elt F)),
    StableHlo.nullary main_c_9 (constantI S_ 32 0#32),
    StableHlo.TRef.nullary main_call1.cst (constant S_ .f32 0x00000000#32),
    StableHlo.TRef.binary (.of main_v33) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v33) main_call1.v4 main_call1.v5 subf,
    StableHlo.TRef.binary main_call1.v5 main_call1.v5 main_call1.v6 mulf,
    StableHlo.TRef.unary (.of main_c_9) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]

/-- Segment 3 (19 operations, main_v38 … main_v53): relu(normalised) = main_v53 (the @relu call, record main_call2). -/
abbrev seg3 : List (HloOp τ sig (Elt F)) :=
  [ StableHlo.unary main_v36 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v33 main_v39 main_v40 (subf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3727C5AC#32),
    StableHlo.unary main_cst_10 main_v41 (broadcastInDim S128 ![] bcast_S_S128 : (⟨S_, .f32⟩ : BufTy).Contents (Elt F) → (⟨S128, .f32⟩ : BufTy).Contents (Elt F)),
    StableHlo.binary main_v37 main_v41 main_v42 (addf : (⟨S128, .f32⟩ : BufTy).Contents (Elt F) → (⟨S128, .f32⟩ : BufTy).Contents (Elt F) → (⟨S128, .f32⟩ : BufTy).Contents (Elt F)),
    StableHlo.unary main_v42 main_v43 (Host.rsqrt : (⟨S128, .f32⟩ : BufTy).Contents (Elt F) → (⟨S128, .f32⟩ : BufTy).Contents (Elt F)),
    StableHlo.unary main_v43 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v45 main_v46 (mulf : (⟨S100000x128, .f32⟩ : BufTy).Contents (Elt F) → (⟨S100000x128, .f32⟩ : BufTy).Contents (Elt F) → (⟨S100000x128, .f32⟩ : BufTy).Contents (Elt F)),
    StableHlo.unary main_arg5 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S100000x128 ![0, 1] bcast_S1x128_S100000x128_0_1 : (⟨S1x128, .f32⟩ : BufTy).Contents (Elt F) → (⟨S100000x128, .f32⟩ : BufTy).Contents (Elt F)),
    StableHlo.binary main_v46 main_v48 main_v49 (mulf : (⟨S100000x128, .f32⟩ : BufTy).Contents (Elt F) → (⟨S100000x128, .f32⟩ : BufTy).Contents (Elt F) → (⟨S100000x128, .f32⟩ : BufTy).Contents (Elt F)),
    StableHlo.unary main_arg6 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S100000x128 ![0, 1] bcast_S1x128_S100000x128_0_1 : (⟨S1x128, .f32⟩ : BufTy).Contents (Elt F) → (⟨S100000x128, .f32⟩ : BufTy).Contents (Elt F)),
    StableHlo.binary main_v49 main_v51 main_v52 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v52) main_call2.v0 main_call2.v1 maximumf ]

/-- Segment 4 (4 operations, main_v54 … main_v57): h0 = h @ enc_W2 + enc_b2 = main_v57. -/
abbrev seg4 : List (HloOp τ sig (Elt F)) :=
  [ StableHlo.binary main_v53 main_arg7 main_v54 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v56 main_v57 (addf : (⟨S100000x128, .f32⟩ : BufTy).Contents (Elt F) → (⟨S100000x128, .f32⟩ : BufTy).Contents (Elt F) → (⟨S100000x128, .f32⟩ : BufTy).Contents (Elt F)) ]

/-- Segment 5 (3 operations, main_v58 … main_v60): layer 0: hw = h0 @ conv_W[0] = main_v60 (conv_W[0] = main_v59). -/
abbrev seg5 : List (HloOp τ sig (Elt F)) :=
  [ StableHlo.unary main_arg9 main_v58 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v58 main_v59 rfl shapeCasts_S1x128x128_S128x128,
    StableHlo.binary main_v57 main_v59 main_v60 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Segment 6 (24 operations, main_c_11 … main_v81): layer 0: agg + conv_b[0] = main_v77, bn_g[0] = main_v79, bn_b[0] = main_v81 (ends with the two slices). -/
abbrev seg6 : List (HloOp τ sig (Elt F)) :=
  [ StableHlo.nullary main_c_11 (constantI S_ 32 0#32),
    StableHlo.unary main_c_11 main_v61 (broadcastInDim S640000 ![] bcast_S_S640000 : (⟨S_, .i32⟩ : BufTy).Contents (Elt F) → (⟨S640000, .i32⟩ : BufTy).Contents (Elt F)),
    StableHlo.binary main_v1 main_v61 main_v62 (cmpi .slt : (⟨S640000, .i32⟩ : BufTy).Contents (Elt F) → (⟨S640000, .i32⟩ : BufTy).Contents (Elt F) → (⟨S640000, .i1⟩ : BufTy).Contents (Elt F)),
    StableHlo.nullary main_c_12 (constantI S_ 32 100000#32),
    StableHlo.unary main_c_12 main_v63 (broadcastInDim S640000 ![] bcast_S_S640000 : (⟨S_, .i32⟩ : BufTy).Contents (Elt F) → (⟨S640000, .i32⟩ : BufTy).Contents (Elt F)),
    StableHlo.binary main_v1 main_v63 main_v64 (addi : (⟨S640000, .i32⟩ : BufTy).Contents (Elt F) → (⟨S640000, .i32⟩ : BufTy).Contents (Elt F) → (⟨S640000, .i32⟩ : BufTy).Contents (Elt F)),
    StableHlo.ternary main_v62 main_v64 main_v1 main_v65 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v65 main_v66 (broadcastInDim S640000x1 ![0] bcast_S640000_S640000x1_0 : (⟨S640000, .i32⟩ : BufTy).Contents (Elt F) → (⟨S640000x1, .i32⟩ : BufTy).Contents (Elt F)),
    StableHlo.binary main_v60 main_v66 main_v67 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.unary main_v29 main_v68 (broadcastInDim S640000x128 ![0, 1] bcast_S640000x1_S640000x128_0_1 : (⟨S640000x1, .f32⟩ : BufTy).Contents (Elt F) → (⟨S640000x128, .f32⟩ : BufTy).Contents (Elt F)),
    StableHlo.binary main_v67 main_v68 main_v69 (mulf : (⟨S640000x128, .f32⟩ : BufTy).Contents (Elt F) → (⟨S640000x128, .f32⟩ : BufTy).Contents (Elt F) → (⟨S640000x128, .f32⟩ : BufTy).Contents (Elt F)),
    StableHlo.nullary main_cst_13 (constant S_ .f32 0x00000000#32),
    StableHlo.unary main_cst_13 main_v70 (broadcastInDim S100000x128 ![] bcast_S_S100000x128 : (⟨S_, .f32⟩ : BufTy).Contents (Elt F) → (⟨S100000x128, .f32⟩ : BufTy).Contents (Elt F)),
    StableHlo.unary main_v3 main_v71 (broadcastInDim S640000x1 ![0] bcast_S640000_S640000x1_0 : (⟨S640000, .i32⟩ : BufTy).Contents (Elt F) → (⟨S640000x1, .i32⟩ : BufTy).Contents (Elt F)),
    StableHlo.ternary main_v70 main_v71 main_v69 main_v72 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.unary main_arg10 main_v73 ((extractStridedSlice S1x128 ![0, 0] · slices_S3x128_S1x128_0_0) : (⟨S3x128, .f32⟩ : BufTy).Contents (Elt F) → (⟨S1x128, .f32⟩ : BufTy).Contents (Elt F)),
    StableHlo.reshape main_v73 main_v74 rfl shapeCasts_S1x128_S128,
    StableHlo.unary main_v74 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S100000x128 ![0, 1] bcast_S1x128_S100000x128_0_1 : (⟨S1x128, .f32⟩ : BufTy).Contents (Elt F) → (⟨S100000x128, .f32⟩ : BufTy).Contents (Elt F)),
    StableHlo.binary main_v72 main_v76 main_v77 (addf : (⟨S100000x128, .f32⟩ : BufTy).Contents (Elt F) → (⟨S100000x128, .f32⟩ : BufTy).Contents (Elt F) → (⟨S100000x128, .f32⟩ : BufTy).Contents (Elt F)),
    StableHlo.unary main_arg11 main_v78 ((extractStridedSlice S1x128 ![0, 0] · slices_S3x128_S1x128_0_0) : (⟨S3x128, .f32⟩ : BufTy).Contents (Elt F) → (⟨S1x128, .f32⟩ : BufTy).Contents (Elt F)),
    StableHlo.reshape main_v78 main_v79 rfl shapeCasts_S1x128_S128,
    StableHlo.unary main_arg12 main_v80 ((extractStridedSlice S1x128 ![0, 0] · slices_S3x128_S1x128_0_0) : (⟨S3x128, .f32⟩ : BufTy).Contents (Elt F) → (⟨S1x128, .f32⟩ : BufTy).Contents (Elt F)),
    StableHlo.reshape main_v80 main_v81 rfl shapeCasts_S1x128_S128 ]

/-- Segment 7 (28 operations, main_cst_14 … main_v85): layer 0 statistics: mean = main_v84, variance = main_v85 (@_var call, record main_call3). -/
abbrev seg7 : List (HloOp τ sig (Elt F)) :=
  [ StableHlo.nullary main_cst_14 (constant S_ .f32 0x00000000#32),
    StableHlo.binary main_v77 main_cst_14 main_v82 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_15 (constant S_ .f32 0x47C35000#32),
    StableHlo.unary main_cst_15 main_v83 (broadcastInDim S128 ![] bcast_S_S128 : (⟨S_, .f32⟩ : BufTy).Contents (Elt F) → (⟨S128, .f32⟩ : BufTy).Contents (Elt F)),
    StableHlo.binary main_v82 main_v83 main_v84 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call3.cst (constant S_ .f32 0x00000000#32),
    StableHlo.TRef.binary (.of main_v77) main_call3.cst main_call3.v0 (fun x v => Host.reduceAdd x v reducesTo_S100000x128_S128_d0 h_S_),
    StableHlo.TRef.unary main_call3.v0 main_call3.v1 (broadcastInDim S1x128 ![1] bcast_S128_S1x128_1),
    StableHlo.TRef.nullary main_call3.cst_0 (constant S_ .f32 0x47C35000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S100000x128 ![0, 1] bcast_S1x128_S100000x128_0_1),
    StableHlo.TRef.binary (.of main_v77) main_call3.v4 main_call3.v5 subf,
    StableHlo.TRef.binary main_call3.v5 main_call3.v5 main_call3.v6 mulf,
    StableHlo.TRef.unary (.of main_c_16) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b) ]

/-- Segment 8 (20 operations, main_v86 … main_v102): layer 0 result h1 = h0 + relu(normalised) = main_v102 (@relu call, record main_call4). -/
abbrev seg8 : List (HloOp τ sig (Elt F)) :=
  [ StableHlo.unary main_v84 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S100000x128 ![0, 1] bcast_S1x128_S100000x128_0_1 : (⟨S1x128, .f32⟩ : BufTy).Contents (Elt F) → (⟨S100000x128, .f32⟩ : BufTy).Contents (Elt F)),
    StableHlo.binary main_v77 main_v87 main_v88 (subf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x3727C5AC#32),
    StableHlo.unary main_cst_17 main_v89 (broadcastInDim S128 ![] bcast_S_S128 : (⟨S_, .f32⟩ : BufTy).Contents (Elt F) → (⟨S128, .f32⟩ : BufTy).Contents (Elt F)),
    StableHlo.binary main_v85 main_v89 main_v90 (addf : (⟨S128, .f32⟩ : BufTy).Contents (Elt F) → (⟨S128, .f32⟩ : BufTy).Contents (Elt F) → (⟨S128, .f32⟩ : BufTy).Contents (Elt F)),
    StableHlo.unary main_v90 main_v91 (Host.rsqrt : (⟨S128, .f32⟩ : BufTy).Contents (Elt F) → (⟨S128, .f32⟩ : BufTy).Contents (Elt F)),
    StableHlo.unary main_v91 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S100000x128 ![0, 1] bcast_S1x128_S100000x128_0_1 : (⟨S1x128, .f32⟩ : BufTy).Contents (Elt F) → (⟨S100000x128, .f32⟩ : BufTy).Contents (Elt F)),
    StableHlo.binary main_v88 main_v93 main_v94 (mulf : (⟨S100000x128, .f32⟩ : BufTy).Contents (Elt F) → (⟨S100000x128, .f32⟩ : BufTy).Contents (Elt F) → (⟨S100000x128, .f32⟩ : BufTy).Contents (Elt F)),
    StableHlo.unary main_v79 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S100000x128 ![0, 1] bcast_S1x128_S100000x128_0_1 : (⟨S1x128, .f32⟩ : BufTy).Contents (Elt F) → (⟨S100000x128, .f32⟩ : BufTy).Contents (Elt F)),
    StableHlo.binary main_v94 main_v96 main_v97 (mulf : (⟨S100000x128, .f32⟩ : BufTy).Contents (Elt F) → (⟨S100000x128, .f32⟩ : BufTy).Contents (Elt F) → (⟨S100000x128, .f32⟩ : BufTy).Contents (Elt F)),
    StableHlo.unary main_v81 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S100000x128 ![0, 1] bcast_S1x128_S100000x128_0_1 : (⟨S1x128, .f32⟩ : BufTy).Contents (Elt F) → (⟨S100000x128, .f32⟩ : BufTy).Contents (Elt F)),
    StableHlo.binary main_v97 main_v99 main_v100 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v100) main_call4.v0 main_call4.v1 maximumf,
    StableHlo.binary main_v57 main_v101 main_v102 (addf : (⟨S100000x128, .f32⟩ : BufTy).Contents (Elt F) → (⟨S100000x128, .f32⟩ : BufTy).Contents (Elt F) → (⟨S100000x128, .f32⟩ : BufTy).Contents (Elt F)) ]

/-- Segment 9 (3 operations, main_v103 … main_v105): layer 1: hw = h1 @ conv_W[1] = main_v105 (conv_W[1] = main_v104). -/
abbrev seg9 : List (HloOp τ sig (Elt F)) :=
  [ StableHlo.unary main_arg9 main_v103 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v103 main_v104 rfl shapeCasts_S1x128x128_S128x128,
    StableHlo.binary main_v102 main_v104 main_v105 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Segment 10 (24 operations, main_c_18 … main_v126): layer 1: agg + conv_b[1] = main_v122, bn_g[1] = main_v124, bn_b[1] = main_v126. -/
abbrev seg10 : List (HloOp τ sig (Elt F)) :=
  [ StableHlo.nullary main_c_18 (constantI S_ 32 0#32),
    StableHlo.unary main_c_18 main_v106 (broadcastInDim S640000 ![] bcast_S_S640000 : (⟨S_, .i32⟩ : BufTy).Contents (Elt F) → (⟨S640000, .i32⟩ : BufTy).Contents (Elt F)),
    StableHlo.binary main_v1 main_v106 main_v107 (cmpi .slt : (⟨S640000, .i32⟩ : BufTy).Contents (Elt F) → (⟨S640000, .i32⟩ : BufTy).Contents (Elt F) → (⟨S640000, .i1⟩ : BufTy).Contents (Elt F)),
    StableHlo.nullary main_c_19 (constantI S_ 32 100000#32),
    StableHlo.unary main_c_19 main_v108 (broadcastInDim S640000 ![] bcast_S_S640000 : (⟨S_, .i32⟩ : BufTy).Contents (Elt F) → (⟨S640000, .i32⟩ : BufTy).Contents (Elt F)),
    StableHlo.binary main_v1 main_v108 main_v109 (addi : (⟨S640000, .i32⟩ : BufTy).Contents (Elt F) → (⟨S640000, .i32⟩ : BufTy).Contents (Elt F) → (⟨S640000, .i32⟩ : BufTy).Contents (Elt F)),
    StableHlo.ternary main_v107 main_v109 main_v1 main_v110 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v110 main_v111 (broadcastInDim S640000x1 ![0] bcast_S640000_S640000x1_0 : (⟨S640000, .i32⟩ : BufTy).Contents (Elt F) → (⟨S640000x1, .i32⟩ : BufTy).Contents (Elt F)),
    StableHlo.binary main_v105 main_v111 main_v112 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.unary main_v29 main_v113 (broadcastInDim S640000x128 ![0, 1] bcast_S640000x1_S640000x128_0_1 : (⟨S640000x1, .f32⟩ : BufTy).Contents (Elt F) → (⟨S640000x128, .f32⟩ : BufTy).Contents (Elt F)),
    StableHlo.binary main_v112 main_v113 main_v114 (mulf : (⟨S640000x128, .f32⟩ : BufTy).Contents (Elt F) → (⟨S640000x128, .f32⟩ : BufTy).Contents (Elt F) → (⟨S640000x128, .f32⟩ : BufTy).Contents (Elt F)),
    StableHlo.nullary main_cst_20 (constant S_ .f32 0x00000000#32),
    StableHlo.unary main_cst_20 main_v115 (broadcastInDim S100000x128 ![] bcast_S_S100000x128 : (⟨S_, .f32⟩ : BufTy).Contents (Elt F) → (⟨S100000x128, .f32⟩ : BufTy).Contents (Elt F)),
    StableHlo.unary main_v3 main_v116 (broadcastInDim S640000x1 ![0] bcast_S640000_S640000x1_0 : (⟨S640000, .i32⟩ : BufTy).Contents (Elt F) → (⟨S640000x1, .i32⟩ : BufTy).Contents (Elt F)),
    StableHlo.ternary main_v115 main_v116 main_v114 main_v117 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.unary main_arg10 main_v118 ((extractStridedSlice S1x128 ![1, 0] · slices_S3x128_S1x128_1_0) : (⟨S3x128, .f32⟩ : BufTy).Contents (Elt F) → (⟨S1x128, .f32⟩ : BufTy).Contents (Elt F)),
    StableHlo.reshape main_v118 main_v119 rfl shapeCasts_S1x128_S128,
    StableHlo.unary main_v119 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S100000x128 ![0, 1] bcast_S1x128_S100000x128_0_1 : (⟨S1x128, .f32⟩ : BufTy).Contents (Elt F) → (⟨S100000x128, .f32⟩ : BufTy).Contents (Elt F)),
    StableHlo.binary main_v117 main_v121 main_v122 (addf : (⟨S100000x128, .f32⟩ : BufTy).Contents (Elt F) → (⟨S100000x128, .f32⟩ : BufTy).Contents (Elt F) → (⟨S100000x128, .f32⟩ : BufTy).Contents (Elt F)),
    StableHlo.unary main_arg11 main_v123 ((extractStridedSlice S1x128 ![1, 0] · slices_S3x128_S1x128_1_0) : (⟨S3x128, .f32⟩ : BufTy).Contents (Elt F) → (⟨S1x128, .f32⟩ : BufTy).Contents (Elt F)),
    StableHlo.reshape main_v123 main_v124 rfl shapeCasts_S1x128_S128,
    StableHlo.unary main_arg12 main_v125 ((extractStridedSlice S1x128 ![1, 0] · slices_S3x128_S1x128_1_0) : (⟨S3x128, .f32⟩ : BufTy).Contents (Elt F) → (⟨S1x128, .f32⟩ : BufTy).Contents (Elt F)),
    StableHlo.reshape main_v125 main_v126 rfl shapeCasts_S1x128_S128 ]

/-- Segment 11 (28 operations, main_cst_21 … main_v130): layer 1 statistics: mean = main_v129, variance = main_v130 (@_var call, record main_call5). -/
abbrev seg11 : List (HloOp τ sig (Elt F)) :=
  [ StableHlo.nullary main_cst_21 (constant S_ .f32 0x00000000#32),
    StableHlo.binary main_v122 main_cst_21 main_v127 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_22 (constant S_ .f32 0x47C35000#32),
    StableHlo.unary main_cst_22 main_v128 (broadcastInDim S128 ![] bcast_S_S128 : (⟨S_, .f32⟩ : BufTy).Contents (Elt F) → (⟨S128, .f32⟩ : BufTy).Contents (Elt F)),
    StableHlo.binary main_v127 main_v128 main_v129 (Host.divf : (⟨S128, .f32⟩ : BufTy).Contents (Elt F) → (⟨S128, .f32⟩ : BufTy).Contents (Elt F) → (⟨S128, .f32⟩ : BufTy).Contents (Elt F)),
    StableHlo.nullary main_c_23 (constantI S_ 32 0#32),
    StableHlo.TRef.nullary main_call5.cst (constant S_ .f32 0x00000000#32),
    StableHlo.TRef.binary (.of main_v122) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (.of main_v122) main_call5.v4 main_call5.v5 subf,
    StableHlo.TRef.binary main_call5.v5 main_call5.v5 main_call5.v6 mulf,
    StableHlo.TRef.unary (.of main_c_23) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b) ]

/-- Segment 12 (20 operations, main_v131 … main_v147): layer 1 result h2 = h1 + relu(normalised) = main_v147 (@relu call, record main_call6). -/
abbrev seg12 : List (HloOp τ sig (Elt F)) :=
  [ StableHlo.unary main_v129 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S100000x128 ![0, 1] bcast_S1x128_S100000x128_0_1 : (⟨S1x128, .f32⟩ : BufTy).Contents (Elt F) → (⟨S100000x128, .f32⟩ : BufTy).Contents (Elt F)),
    StableHlo.binary main_v122 main_v132 main_v133 (subf : (⟨S100000x128, .f32⟩ : BufTy).Contents (Elt F) → (⟨S100000x128, .f32⟩ : BufTy).Contents (Elt F) → (⟨S100000x128, .f32⟩ : BufTy).Contents (Elt F)),
    StableHlo.nullary main_cst_24 (constant S_ .f32 0x3727C5AC#32),
    StableHlo.unary main_cst_24 main_v134 (broadcastInDim S128 ![] bcast_S_S128 : (⟨S_, .f32⟩ : BufTy).Contents (Elt F) → (⟨S128, .f32⟩ : BufTy).Contents (Elt F)),
    StableHlo.binary main_v130 main_v134 main_v135 (addf : (⟨S128, .f32⟩ : BufTy).Contents (Elt F) → (⟨S128, .f32⟩ : BufTy).Contents (Elt F) → (⟨S128, .f32⟩ : BufTy).Contents (Elt F)),
    StableHlo.unary main_v135 main_v136 (Host.rsqrt : (⟨S128, .f32⟩ : BufTy).Contents (Elt F) → (⟨S128, .f32⟩ : BufTy).Contents (Elt F)),
    StableHlo.unary main_v136 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S100000x128 ![0, 1] bcast_S1x128_S100000x128_0_1 : (⟨S1x128, .f32⟩ : BufTy).Contents (Elt F) → (⟨S100000x128, .f32⟩ : BufTy).Contents (Elt F)),
    StableHlo.binary main_v133 main_v138 main_v139 (mulf : (⟨S100000x128, .f32⟩ : BufTy).Contents (Elt F) → (⟨S100000x128, .f32⟩ : BufTy).Contents (Elt F) → (⟨S100000x128, .f32⟩ : BufTy).Contents (Elt F)),
    StableHlo.unary main_v124 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S100000x128 ![0, 1] bcast_S1x128_S100000x128_0_1 : (⟨S1x128, .f32⟩ : BufTy).Contents (Elt F) → (⟨S100000x128, .f32⟩ : BufTy).Contents (Elt F)),
    StableHlo.binary main_v139 main_v141 main_v142 (mulf : (⟨S100000x128, .f32⟩ : BufTy).Contents (Elt F) → (⟨S100000x128, .f32⟩ : BufTy).Contents (Elt F) → (⟨S100000x128, .f32⟩ : BufTy).Contents (Elt F)),
    StableHlo.unary main_v126 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S100000x128 ![0, 1] bcast_S1x128_S100000x128_0_1 : (⟨S1x128, .f32⟩ : BufTy).Contents (Elt F) → (⟨S100000x128, .f32⟩ : BufTy).Contents (Elt F)),
    StableHlo.binary main_v142 main_v144 main_v145 (addf : (⟨S100000x128, .f32⟩ : BufTy).Contents (Elt F) → (⟨S100000x128, .f32⟩ : BufTy).Contents (Elt F) → (⟨S100000x128, .f32⟩ : BufTy).Contents (Elt F)),
    StableHlo.TRef.nullary main_call6.cst (constant S_ .f32 0x00000000#32),
    StableHlo.TRef.unary main_call6.cst main_call6.v0 (broadcastInDim S100000x128 ![] bcast_S_S100000x128),
    StableHlo.TRef.binary (.of main_v145) main_call6.v0 main_call6.v1 maximumf,
    StableHlo.binary main_v102 main_v146 main_v147 (addf : (⟨S100000x128, .f32⟩ : BufTy).Contents (Elt F) → (⟨S100000x128, .f32⟩ : BufTy).Contents (Elt F) → (⟨S100000x128, .f32⟩ : BufTy).Contents (Elt F)) ]

/-- Segment 13 (3 operations, main_v148 … main_v150): layer 2: hw = h2 @ conv_W[2] = main_v150 (conv_W[2] = main_v149). -/
abbrev seg13 : List (HloOp τ sig (Elt F)) :=
  [ StableHlo.unary main_arg9 main_v148 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v148 main_v149 rfl shapeCasts_S1x128x128_S128x128,
    StableHlo.binary main_v147 main_v149 main_v150 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Segment 14 (24 operations, main_c_25 … main_v171): layer 2: agg + conv_b[2] = main_v167, bn_g[2] = main_v169, bn_b[2] = main_v171. -/
abbrev seg14 : List (HloOp τ sig (Elt F)) :=
  [ StableHlo.nullary main_c_25 (constantI S_ 32 0#32),
    StableHlo.unary main_c_25 main_v151 (broadcastInDim S640000 ![] bcast_S_S640000 : (⟨S_, .i32⟩ : BufTy).Contents (Elt F) → (⟨S640000, .i32⟩ : BufTy).Contents (Elt F)),
    StableHlo.binary main_v1 main_v151 main_v152 (cmpi .slt : (⟨S640000, .i32⟩ : BufTy).Contents (Elt F) → (⟨S640000, .i32⟩ : BufTy).Contents (Elt F) → (⟨S640000, .i1⟩ : BufTy).Contents (Elt F)),
    StableHlo.nullary main_c_26 (constantI S_ 32 100000#32),
    StableHlo.unary main_c_26 main_v153 (broadcastInDim S640000 ![] bcast_S_S640000 : (⟨S_, .i32⟩ : BufTy).Contents (Elt F) → (⟨S640000, .i32⟩ : BufTy).Contents (Elt F)),
    StableHlo.binary main_v1 main_v153 main_v154 (addi : (⟨S640000, .i32⟩ : BufTy).Contents (Elt F) → (⟨S640000, .i32⟩ : BufTy).Contents (Elt F) → (⟨S640000, .i32⟩ : BufTy).Contents (Elt F)),
    StableHlo.ternary main_v152 main_v154 main_v1 main_v155 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v155 main_v156 (broadcastInDim S640000x1 ![0] bcast_S640000_S640000x1_0 : (⟨S640000, .i32⟩ : BufTy).Contents (Elt F) → (⟨S640000x1, .i32⟩ : BufTy).Contents (Elt F)),
    StableHlo.binary main_v150 main_v156 main_v157 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.unary main_v29 main_v158 (broadcastInDim S640000x128 ![0, 1] bcast_S640000x1_S640000x128_0_1 : (⟨S640000x1, .f32⟩ : BufTy).Contents (Elt F) → (⟨S640000x128, .f32⟩ : BufTy).Contents (Elt F)),
    StableHlo.binary main_v157 main_v158 main_v159 (mulf : (⟨S640000x128, .f32⟩ : BufTy).Contents (Elt F) → (⟨S640000x128, .f32⟩ : BufTy).Contents (Elt F) → (⟨S640000x128, .f32⟩ : BufTy).Contents (Elt F)),
    StableHlo.nullary main_cst_27 (constant S_ .f32 0x00000000#32),
    StableHlo.unary main_cst_27 main_v160 (broadcastInDim S100000x128 ![] bcast_S_S100000x128 : (⟨S_, .f32⟩ : BufTy).Contents (Elt F) → (⟨S100000x128, .f32⟩ : BufTy).Contents (Elt F)),
    StableHlo.unary main_v3 main_v161 (broadcastInDim S640000x1 ![0] bcast_S640000_S640000x1_0 : (⟨S640000, .i32⟩ : BufTy).Contents (Elt F) → (⟨S640000x1, .i32⟩ : BufTy).Contents (Elt F)),
    StableHlo.ternary main_v160 main_v161 main_v159 main_v162 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.unary main_arg10 main_v163 ((extractStridedSlice S1x128 ![2, 0] · slices_S3x128_S1x128_2_0) : (⟨S3x128, .f32⟩ : BufTy).Contents (Elt F) → (⟨S1x128, .f32⟩ : BufTy).Contents (Elt F)),
    StableHlo.reshape main_v163 main_v164 rfl shapeCasts_S1x128_S128,
    StableHlo.unary main_v164 main_v165 (broadcastInDim S1x128 ![1] bcast_S128_S1x128_1 : (⟨S128, .f32⟩ : BufTy).Contents (Elt F) → (⟨S1x128, .f32⟩ : BufTy).Contents (Elt F)),
    StableHlo.unary main_v165 main_v166 (broadcastInDim S100000x128 ![0, 1] bcast_S1x128_S100000x128_0_1 : (⟨S1x128, .f32⟩ : BufTy).Contents (Elt F) → (⟨S100000x128, .f32⟩ : BufTy).Contents (Elt F)),
    StableHlo.binary main_v162 main_v166 main_v167 (addf : (⟨S100000x128, .f32⟩ : BufTy).Contents (Elt F) → (⟨S100000x128, .f32⟩ : BufTy).Contents (Elt F) → (⟨S100000x128, .f32⟩ : BufTy).Contents (Elt F)),
    StableHlo.unary main_arg11 main_v168 ((extractStridedSlice S1x128 ![2, 0] · slices_S3x128_S1x128_2_0) : (⟨S3x128, .f32⟩ : BufTy).Contents (Elt F) → (⟨S1x128, .f32⟩ : BufTy).Contents (Elt F)),
    StableHlo.reshape main_v168 main_v169 rfl shapeCasts_S1x128_S128,
    StableHlo.unary main_arg12 main_v170 ((extractStridedSlice S1x128 ![2, 0] · slices_S3x128_S1x128_2_0) : (⟨S3x128, .f32⟩ : BufTy).Contents (Elt F) → (⟨S1x128, .f32⟩ : BufTy).Contents (Elt F)),
    StableHlo.reshape main_v170 main_v171 rfl shapeCasts_S1x128_S128 ]

/-- Segment 15 (28 operations, main_cst_28 … main_v175): layer 2 statistics: mean = main_v174, variance = main_v175 (@_var call, record main_call7). -/
abbrev seg15 : List (HloOp τ sig (Elt F)) :=
  [ StableHlo.nullary main_cst_28 (constant S_ .f32 0x00000000#32),
    StableHlo.binary main_v167 main_cst_28 main_v172 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_29 (constant S_ .f32 0x47C35000#32),
    StableHlo.unary main_cst_29 main_v173 (broadcastInDim S128 ![] bcast_S_S128 : (⟨S_, .f32⟩ : BufTy).Contents (Elt F) → (⟨S128, .f32⟩ : BufTy).Contents (Elt F)),
    StableHlo.binary main_v172 main_v173 main_v174 (Host.divf : (⟨S128, .f32⟩ : BufTy).Contents (Elt F) → (⟨S128, .f32⟩ : BufTy).Contents (Elt F) → (⟨S128, .f32⟩ : BufTy).Contents (Elt F)),
    StableHlo.nullary main_c_30 (constantI S_ 32 0#32),
    StableHlo.TRef.nullary main_call7.cst (constant S_ .f32 0x00000000#32),
    StableHlo.TRef.binary (.of main_v167) main_call7.cst main_call7.v0 (fun x v => Host.reduceAdd x v reducesTo_S100000x128_S128_d0 h_S_),
    StableHlo.TRef.unary main_call7.v0 main_call7.v1 (broadcastInDim S1x128 ![1] bcast_S128_S1x128_1),
    StableHlo.TRef.nullary main_call7.cst_0 (constant S_ .f32 0x47C35000#32),
    StableHlo.TRef.unary main_call7.cst_0 main_call7.v2 (broadcastInDim S1x128 ![] bcast_S_S1x128),
    StableHlo.TRef.binary main_call7.v1 main_call7.v2 main_call7.v3 Host.divf,
    StableHlo.TRef.unary main_call7.v3 main_call7.v4 (broadcastInDim S100000x128 ![0, 1] bcast_S1x128_S100000x128_0_1),
    StableHlo.TRef.binary (.of main_v167) main_call7.v4 main_call7.v5 subf,
    StableHlo.TRef.binary main_call7.v5 main_call7.v5 main_call7.v6 mulf,
    StableHlo.TRef.unary (.of main_c_30) main_call7.v7 (sitofp .f32),
    StableHlo.TRef.nullary main_call7.cst_1 (constant S_ .f32 0x47C35000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S100000x128_S128_d0 h_S_),
    StableHlo.TRef.unary main_call7.v8 main_call7.v10 (broadcastInDim S128 ![] bcast_S_S128),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S128 ![] bcast_S_S128),
    StableHlo.TRef.ternary main_call7.v12 main_call7.v11 main_call7.call0.v1 main_call7.call0.v2 (fun p a b => select (broadcastInDim S128 ![] bcast_S_S128 p) a b) ]

/-- Segment 16 (20 operations, main_v176 … main_v192): layer 2 result h3 = h2 + relu(normalised) = main_v192 (@relu call, record main_call8). -/
abbrev seg16 : List (HloOp τ sig (Elt F)) :=
  [ StableHlo.unary main_v174 main_v176 (broadcastInDim S1x128 ![1] bcast_S128_S1x128_1 : (⟨S128, .f32⟩ : BufTy).Contents (Elt F) → (⟨S1x128, .f32⟩ : BufTy).Contents (Elt F)),
    StableHlo.unary main_v176 main_v177 (broadcastInDim S100000x128 ![0, 1] bcast_S1x128_S100000x128_0_1 : (⟨S1x128, .f32⟩ : BufTy).Contents (Elt F) → (⟨S100000x128, .f32⟩ : BufTy).Contents (Elt F)),
    StableHlo.binary main_v167 main_v177 main_v178 (subf : (⟨S100000x128, .f32⟩ : BufTy).Contents (Elt F) → (⟨S100000x128, .f32⟩ : BufTy).Contents (Elt F) → (⟨S100000x128, .f32⟩ : BufTy).Contents (Elt F)),
    StableHlo.nullary main_cst_31 (constant S_ .f32 0x3727C5AC#32),
    StableHlo.unary main_cst_31 main_v179 (broadcastInDim S128 ![] bcast_S_S128 : (⟨S_, .f32⟩ : BufTy).Contents (Elt F) → (⟨S128, .f32⟩ : BufTy).Contents (Elt F)),
    StableHlo.binary main_v175 main_v179 main_v180 (addf : (⟨S128, .f32⟩ : BufTy).Contents (Elt F) → (⟨S128, .f32⟩ : BufTy).Contents (Elt F) → (⟨S128, .f32⟩ : BufTy).Contents (Elt F)),
    StableHlo.unary main_v180 main_v181 (Host.rsqrt : (⟨S128, .f32⟩ : BufTy).Contents (Elt F) → (⟨S128, .f32⟩ : BufTy).Contents (Elt F)),
    StableHlo.unary main_v181 main_v182 (broadcastInDim S1x128 ![1] bcast_S128_S1x128_1 : (⟨S128, .f32⟩ : BufTy).Contents (Elt F) → (⟨S1x128, .f32⟩ : BufTy).Contents (Elt F)),
    StableHlo.unary main_v182 main_v183 (broadcastInDim S100000x128 ![0, 1] bcast_S1x128_S100000x128_0_1 : (⟨S1x128, .f32⟩ : BufTy).Contents (Elt F) → (⟨S100000x128, .f32⟩ : BufTy).Contents (Elt F)),
    StableHlo.binary main_v178 main_v183 main_v184 (mulf : (⟨S100000x128, .f32⟩ : BufTy).Contents (Elt F) → (⟨S100000x128, .f32⟩ : BufTy).Contents (Elt F) → (⟨S100000x128, .f32⟩ : BufTy).Contents (Elt F)),
    StableHlo.unary main_v169 main_v185 (broadcastInDim S1x128 ![1] bcast_S128_S1x128_1 : (⟨S128, .f32⟩ : BufTy).Contents (Elt F) → (⟨S1x128, .f32⟩ : BufTy).Contents (Elt F)),
    StableHlo.unary main_v185 main_v186 (broadcastInDim S100000x128 ![0, 1] bcast_S1x128_S100000x128_0_1 : (⟨S1x128, .f32⟩ : BufTy).Contents (Elt F) → (⟨S100000x128, .f32⟩ : BufTy).Contents (Elt F)),
    StableHlo.binary main_v184 main_v186 main_v187 (mulf : (⟨S100000x128, .f32⟩ : BufTy).Contents (Elt F) → (⟨S100000x128, .f32⟩ : BufTy).Contents (Elt F) → (⟨S100000x128, .f32⟩ : BufTy).Contents (Elt F)),
    StableHlo.unary main_v171 main_v188 (broadcastInDim S1x128 ![1] bcast_S128_S1x128_1 : (⟨S128, .f32⟩ : BufTy).Contents (Elt F) → (⟨S1x128, .f32⟩ : BufTy).Contents (Elt F)),
    StableHlo.unary main_v188 main_v189 (broadcastInDim S100000x128 ![0, 1] bcast_S1x128_S100000x128_0_1 : (⟨S1x128, .f32⟩ : BufTy).Contents (Elt F) → (⟨S100000x128, .f32⟩ : BufTy).Contents (Elt F)),
    StableHlo.binary main_v187 main_v189 main_v190 (addf : (⟨S100000x128, .f32⟩ : BufTy).Contents (Elt F) → (⟨S100000x128, .f32⟩ : BufTy).Contents (Elt F) → (⟨S100000x128, .f32⟩ : BufTy).Contents (Elt F)),
    StableHlo.TRef.nullary main_call8.cst (constant S_ .f32 0x00000000#32),
    StableHlo.TRef.unary main_call8.cst main_call8.v0 (broadcastInDim S100000x128 ![] bcast_S_S100000x128),
    StableHlo.TRef.binary (.of main_v190) main_call8.v0 main_call8.v1 maximumf,
    StableHlo.binary main_v147 main_v191 main_v192 (addf : (⟨S100000x128, .f32⟩ : BufTy).Contents (Elt F) → (⟨S100000x128, .f32⟩ : BufTy).Contents (Elt F) → (⟨S100000x128, .f32⟩ : BufTy).Contents (Elt F)) ]

/-- Segment 17 (22 operations, main_cst_32 … main_v209): pooling and readout: hg = main_v195, result = main_v209 (@relu_1 record main_call9, @relu_2 record main_call10). -/
abbrev seg17 : List (HloOp τ sig (Elt F)) :=
  [ StableHlo.nullary main_cst_32 (constant S_ .f32 0x00000000#32),
    StableHlo.unary main_cst_32 main_v193 (broadcastInDim S64x128 ![] bcast_S_S64x128 : (⟨S_, .f32⟩ : BufTy).Contents (Elt F) → (⟨S64x128, .f32⟩ : BufTy).Contents (Elt F)),
    StableHlo.unary main_arg2 main_v194 (broadcastInDim S100000x1 ![0] bcast_S100000_S100000x1_0 : (⟨S100000, .i32⟩ : BufTy).Contents (Elt F) → (⟨S100000x1, .i32⟩ : BufTy).Contents (Elt F)),
    StableHlo.ternary main_v193 main_v194 main_v192 main_v195 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    StableHlo.binary main_v195 main_arg13 main_v196 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    StableHlo.unary main_arg14 main_v197 (broadcastInDim S1x64 ![1] bcast_S64_S1x64_1 : (⟨S64, .f32⟩ : BufTy).Contents (Elt F) → (⟨S1x64, .f32⟩ : BufTy).Contents (Elt F)),
    StableHlo.unary main_v197 main_v198 (broadcastInDim S64x64 ![0, 1] bcast_S1x64_S64x64_0_1 : (⟨S1x64, .f32⟩ : BufTy).Contents (Elt F) → (⟨S64x64, .f32⟩ : BufTy).Contents (Elt F)),
    StableHlo.binary main_v196 main_v198 main_v199 (addf : (⟨S64x64, .f32⟩ : BufTy).Contents (Elt F) → (⟨S64x64, .f32⟩ : BufTy).Contents (Elt F) → (⟨S64x64, .f32⟩ : BufTy).Contents (Elt F)),
    StableHlo.TRef.nullary main_call9.cst (constant S_ .f32 0x00000000#32),
    StableHlo.TRef.unary main_call9.cst main_call9.v0 (broadcastInDim S64x64 ![] bcast_S_S64x64),
    StableHlo.TRef.binary (.of main_v199) main_call9.v0 main_call9.v1 maximumf,
    StableHlo.binary main_v200 main_arg15 main_v201 ((fun l r => Host.dotGeneral dot_S64x64_S64x32_S64x32_1_0_0_1_n_n none l r) : (⟨S64x64, .f32⟩ : BufTy).Contents (Elt F) → (⟨S64x32, .f32⟩ : BufTy).Contents (Elt F) → (⟨S64x32, .f32⟩ : BufTy).Contents (Elt F)),
    StableHlo.unary main_arg16 main_v202 (broadcastInDim S1x32 ![1] bcast_S32_S1x32_1 : (⟨S32, .f32⟩ : BufTy).Contents (Elt F) → (⟨S1x32, .f32⟩ : BufTy).Contents (Elt F)),
    StableHlo.unary main_v202 main_v203 (broadcastInDim S64x32 ![0, 1] bcast_S1x32_S64x32_0_1 : (⟨S1x32, .f32⟩ : BufTy).Contents (Elt F) → (⟨S64x32, .f32⟩ : BufTy).Contents (Elt F)),
    StableHlo.binary main_v201 main_v203 main_v204 (addf : (⟨S64x32, .f32⟩ : BufTy).Contents (Elt F) → (⟨S64x32, .f32⟩ : BufTy).Contents (Elt F) → (⟨S64x32, .f32⟩ : BufTy).Contents (Elt F)),
    StableHlo.TRef.nullary main_call10.cst (constant S_ .f32 0x00000000#32),
    StableHlo.TRef.unary main_call10.cst main_call10.v0 (broadcastInDim S64x32 ![] bcast_S_S64x32),
    StableHlo.TRef.binary (.of main_v204) main_call10.v0 main_call10.v1 maximumf,
    StableHlo.binary main_v205 main_arg17 main_v206 ((fun l r => Host.dotGeneral dot_S64x32_S32x1_S64x1_1_0_0_1_n_n none l r) : (⟨S64x32, .f32⟩ : BufTy).Contents (Elt F) → (⟨S32x1, .f32⟩ : BufTy).Contents (Elt F) → (⟨S64x1, .f32⟩ : BufTy).Contents (Elt F)),
    StableHlo.unary main_arg18 main_v207 (broadcastInDim S1x1 ![1] bcast_S1_S1x1_1 : (⟨S1, .f32⟩ : BufTy).Contents (Elt F) → (⟨S1x1, .f32⟩ : BufTy).Contents (Elt F)),
    StableHlo.unary main_v207 main_v208 (broadcastInDim S64x1 ![0, 1] bcast_S1x1_S64x1_0_1 : (⟨S1x1, .f32⟩ : BufTy).Contents (Elt F) → (⟨S64x1, .f32⟩ : BufTy).Contents (Elt F)),
    StableHlo.binary main_v206 main_v208 main_v209 (addf : (⟨S64x1, .f32⟩ : BufTy).Contents (Elt F) → (⟨S64x1, .f32⟩ : BufTy).Contents (Elt F) → (⟨S64x1, .f32⟩ : BufTy).Contents (Elt F)) ]

/-- The first 10 operations of segment 3: those in the same printed window of the program as the segments before. -/
abbrev seg3a : List (HloOp τ sig (Elt F)) :=
  [ StableHlo.unary main_v36 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v33 main_v39 main_v40 (subf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3727C5AC#32),
    StableHlo.unary main_cst_10 main_v41 (broadcastInDim S128 ![] bcast_S_S128 : (⟨S_, .f32⟩ : BufTy).Contents (Elt F) → (⟨S128, .f32⟩ : BufTy).Contents (Elt F)),
    StableHlo.binary main_v37 main_v41 main_v42 (addf : (⟨S128, .f32⟩ : BufTy).Contents (Elt F) → (⟨S128, .f32⟩ : BufTy).Contents (Elt F) → (⟨S128, .f32⟩ : BufTy).Contents (Elt F)),
    StableHlo.unary main_v42 main_v43 (Host.rsqrt : (⟨S128, .f32⟩ : BufTy).Contents (Elt F) → (⟨S128, .f32⟩ : BufTy).Contents (Elt F)),
    StableHlo.unary main_v43 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v45 main_v46 (mulf : (⟨S100000x128, .f32⟩ : BufTy).Contents (Elt F) → (⟨S100000x128, .f32⟩ : BufTy).Contents (Elt F) → (⟨S100000x128, .f32⟩ : BufTy).Contents (Elt F)) ]

/-- The last 9 operations of segment 3: those in the next printed window. -/
abbrev seg3b : List (HloOp τ sig (Elt F)) :=
  [ StableHlo.unary main_arg5 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S100000x128 ![0, 1] bcast_S1x128_S100000x128_0_1 : (⟨S1x128, .f32⟩ : BufTy).Contents (Elt F) → (⟨S100000x128, .f32⟩ : BufTy).Contents (Elt F)),
    StableHlo.binary main_v46 main_v48 main_v49 (mulf : (⟨S100000x128, .f32⟩ : BufTy).Contents (Elt F) → (⟨S100000x128, .f32⟩ : BufTy).Contents (Elt F) → (⟨S100000x128, .f32⟩ : BufTy).Contents (Elt F)),
    StableHlo.unary main_arg6 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S100000x128 ![0, 1] bcast_S1x128_S100000x128_0_1 : (⟨S1x128, .f32⟩ : BufTy).Contents (Elt F) → (⟨S100000x128, .f32⟩ : BufTy).Contents (Elt F)),
    StableHlo.binary main_v49 main_v51 main_v52 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v52) main_call2.v0 main_call2.v1 maximumf ]

/-- The first 15 operations of segment 8: those in the same printed window of the program as the segments before. -/
abbrev seg8a : List (HloOp τ sig (Elt F)) :=
  [ StableHlo.unary main_v84 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S100000x128 ![0, 1] bcast_S1x128_S100000x128_0_1 : (⟨S1x128, .f32⟩ : BufTy).Contents (Elt F) → (⟨S100000x128, .f32⟩ : BufTy).Contents (Elt F)),
    StableHlo.binary main_v77 main_v87 main_v88 (subf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x3727C5AC#32),
    StableHlo.unary main_cst_17 main_v89 (broadcastInDim S128 ![] bcast_S_S128 : (⟨S_, .f32⟩ : BufTy).Contents (Elt F) → (⟨S128, .f32⟩ : BufTy).Contents (Elt F)),
    StableHlo.binary main_v85 main_v89 main_v90 (addf : (⟨S128, .f32⟩ : BufTy).Contents (Elt F) → (⟨S128, .f32⟩ : BufTy).Contents (Elt F) → (⟨S128, .f32⟩ : BufTy).Contents (Elt F)),
    StableHlo.unary main_v90 main_v91 (Host.rsqrt : (⟨S128, .f32⟩ : BufTy).Contents (Elt F) → (⟨S128, .f32⟩ : BufTy).Contents (Elt F)),
    StableHlo.unary main_v91 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S100000x128 ![0, 1] bcast_S1x128_S100000x128_0_1 : (⟨S1x128, .f32⟩ : BufTy).Contents (Elt F) → (⟨S100000x128, .f32⟩ : BufTy).Contents (Elt F)),
    StableHlo.binary main_v88 main_v93 main_v94 (mulf : (⟨S100000x128, .f32⟩ : BufTy).Contents (Elt F) → (⟨S100000x128, .f32⟩ : BufTy).Contents (Elt F) → (⟨S100000x128, .f32⟩ : BufTy).Contents (Elt F)),
    StableHlo.unary main_v79 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S100000x128 ![0, 1] bcast_S1x128_S100000x128_0_1 : (⟨S1x128, .f32⟩ : BufTy).Contents (Elt F) → (⟨S100000x128, .f32⟩ : BufTy).Contents (Elt F)),
    StableHlo.binary main_v94 main_v96 main_v97 (mulf : (⟨S100000x128, .f32⟩ : BufTy).Contents (Elt F) → (⟨S100000x128, .f32⟩ : BufTy).Contents (Elt F) → (⟨S100000x128, .f32⟩ : BufTy).Contents (Elt F)),
    StableHlo.unary main_v81 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S100000x128 ![0, 1] bcast_S1x128_S100000x128_0_1 : (⟨S1x128, .f32⟩ : BufTy).Contents (Elt F) → (⟨S100000x128, .f32⟩ : BufTy).Contents (Elt F)) ]

/-- The last 5 operations of segment 8: those in the next printed window. -/
abbrev seg8b : List (HloOp τ sig (Elt F)) :=
  [ StableHlo.binary main_v97 main_v99 main_v100 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v100) main_call4.v0 main_call4.v1 maximumf,
    StableHlo.binary main_v57 main_v101 main_v102 (addf : (⟨S100000x128, .f32⟩ : BufTy).Contents (Elt F) → (⟨S100000x128, .f32⟩ : BufTy).Contents (Elt F) → (⟨S100000x128, .f32⟩ : BufTy).Contents (Elt F)) ]

/-- The first 2 operations of segment 14: those in the same printed window of the program as the segments before. -/
abbrev seg14a : List (HloOp τ sig (Elt F)) :=
  [ StableHlo.nullary main_c_25 (constantI S_ 32 0#32),
    StableHlo.unary main_c_25 main_v151 (broadcastInDim S640000 ![] bcast_S_S640000 : (⟨S_, .i32⟩ : BufTy).Contents (Elt F) → (⟨S640000, .i32⟩ : BufTy).Contents (Elt F)) ]

/-- The last 22 operations of segment 14: those in the next printed window. -/
abbrev seg14b : List (HloOp τ sig (Elt F)) :=
  [ StableHlo.binary main_v1 main_v151 main_v152 (cmpi .slt : (⟨S640000, .i32⟩ : BufTy).Contents (Elt F) → (⟨S640000, .i32⟩ : BufTy).Contents (Elt F) → (⟨S640000, .i1⟩ : BufTy).Contents (Elt F)),
    StableHlo.nullary main_c_26 (constantI S_ 32 100000#32),
    StableHlo.unary main_c_26 main_v153 (broadcastInDim S640000 ![] bcast_S_S640000 : (⟨S_, .i32⟩ : BufTy).Contents (Elt F) → (⟨S640000, .i32⟩ : BufTy).Contents (Elt F)),
    StableHlo.binary main_v1 main_v153 main_v154 (addi : (⟨S640000, .i32⟩ : BufTy).Contents (Elt F) → (⟨S640000, .i32⟩ : BufTy).Contents (Elt F) → (⟨S640000, .i32⟩ : BufTy).Contents (Elt F)),
    StableHlo.ternary main_v152 main_v154 main_v1 main_v155 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v155 main_v156 (broadcastInDim S640000x1 ![0] bcast_S640000_S640000x1_0 : (⟨S640000, .i32⟩ : BufTy).Contents (Elt F) → (⟨S640000x1, .i32⟩ : BufTy).Contents (Elt F)),
    StableHlo.binary main_v150 main_v156 main_v157 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.unary main_v29 main_v158 (broadcastInDim S640000x128 ![0, 1] bcast_S640000x1_S640000x128_0_1 : (⟨S640000x1, .f32⟩ : BufTy).Contents (Elt F) → (⟨S640000x128, .f32⟩ : BufTy).Contents (Elt F)),
    StableHlo.binary main_v157 main_v158 main_v159 (mulf : (⟨S640000x128, .f32⟩ : BufTy).Contents (Elt F) → (⟨S640000x128, .f32⟩ : BufTy).Contents (Elt F) → (⟨S640000x128, .f32⟩ : BufTy).Contents (Elt F)),
    StableHlo.nullary main_cst_27 (constant S_ .f32 0x00000000#32),
    StableHlo.unary main_cst_27 main_v160 (broadcastInDim S100000x128 ![] bcast_S_S100000x128 : (⟨S_, .f32⟩ : BufTy).Contents (Elt F) → (⟨S100000x128, .f32⟩ : BufTy).Contents (Elt F)),
    StableHlo.unary main_v3 main_v161 (broadcastInDim S640000x1 ![0] bcast_S640000_S640000x1_0 : (⟨S640000, .i32⟩ : BufTy).Contents (Elt F) → (⟨S640000x1, .i32⟩ : BufTy).Contents (Elt F)),
    StableHlo.ternary main_v160 main_v161 main_v159 main_v162 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.unary main_arg10 main_v163 ((extractStridedSlice S1x128 ![2, 0] · slices_S3x128_S1x128_2_0) : (⟨S3x128, .f32⟩ : BufTy).Contents (Elt F) → (⟨S1x128, .f32⟩ : BufTy).Contents (Elt F)),
    StableHlo.reshape main_v163 main_v164 rfl shapeCasts_S1x128_S128,
    StableHlo.unary main_v164 main_v165 (broadcastInDim S1x128 ![1] bcast_S128_S1x128_1 : (⟨S128, .f32⟩ : BufTy).Contents (Elt F) → (⟨S1x128, .f32⟩ : BufTy).Contents (Elt F)),
    StableHlo.unary main_v165 main_v166 (broadcastInDim S100000x128 ![0, 1] bcast_S1x128_S100000x128_0_1 : (⟨S1x128, .f32⟩ : BufTy).Contents (Elt F) → (⟨S100000x128, .f32⟩ : BufTy).Contents (Elt F)),
    StableHlo.binary main_v162 main_v166 main_v167 (addf : (⟨S100000x128, .f32⟩ : BufTy).Contents (Elt F) → (⟨S100000x128, .f32⟩ : BufTy).Contents (Elt F) → (⟨S100000x128, .f32⟩ : BufTy).Contents (Elt F)),
    StableHlo.unary main_arg11 main_v168 ((extractStridedSlice S1x128 ![2, 0] · slices_S3x128_S1x128_2_0) : (⟨S3x128, .f32⟩ : BufTy).Contents (Elt F) → (⟨S1x128, .f32⟩ : BufTy).Contents (Elt F)),
    StableHlo.reshape main_v168 main_v169 rfl shapeCasts_S1x128_S128,
    StableHlo.unary main_arg12 main_v170 ((extractStridedSlice S1x128 ![2, 0] · slices_S3x128_S1x128_2_0) : (⟨S3x128, .f32⟩ : BufTy).Contents (Elt F) → (⟨S1x128, .f32⟩ : BufTy).Contents (Elt F)),
    StableHlo.reshape main_v170 main_v171 rfl shapeCasts_S1x128_S128 ]

/-- The first 15 operations of segment 17: those in the same printed window of the program as the segments before. -/
abbrev seg17a : List (HloOp τ sig (Elt F)) :=
  [ StableHlo.nullary main_cst_32 (constant S_ .f32 0x00000000#32),
    StableHlo.unary main_cst_32 main_v193 (broadcastInDim S64x128 ![] bcast_S_S64x128 : (⟨S_, .f32⟩ : BufTy).Contents (Elt F) → (⟨S64x128, .f32⟩ : BufTy).Contents (Elt F)),
    StableHlo.unary main_arg2 main_v194 (broadcastInDim S100000x1 ![0] bcast_S100000_S100000x1_0 : (⟨S100000, .i32⟩ : BufTy).Contents (Elt F) → (⟨S100000x1, .i32⟩ : BufTy).Contents (Elt F)),
    StableHlo.ternary main_v193 main_v194 main_v192 main_v195 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    StableHlo.binary main_v195 main_arg13 main_v196 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    StableHlo.unary main_arg14 main_v197 (broadcastInDim S1x64 ![1] bcast_S64_S1x64_1 : (⟨S64, .f32⟩ : BufTy).Contents (Elt F) → (⟨S1x64, .f32⟩ : BufTy).Contents (Elt F)),
    StableHlo.unary main_v197 main_v198 (broadcastInDim S64x64 ![0, 1] bcast_S1x64_S64x64_0_1 : (⟨S1x64, .f32⟩ : BufTy).Contents (Elt F) → (⟨S64x64, .f32⟩ : BufTy).Contents (Elt F)),
    StableHlo.binary main_v196 main_v198 main_v199 (addf : (⟨S64x64, .f32⟩ : BufTy).Contents (Elt F) → (⟨S64x64, .f32⟩ : BufTy).Contents (Elt F) → (⟨S64x64, .f32⟩ : BufTy).Contents (Elt F)),
    StableHlo.TRef.nullary main_call9.cst (constant S_ .f32 0x00000000#32),
    StableHlo.TRef.unary main_call9.cst main_call9.v0 (broadcastInDim S64x64 ![] bcast_S_S64x64),
    StableHlo.TRef.binary (.of main_v199) main_call9.v0 main_call9.v1 maximumf,
    StableHlo.binary main_v200 main_arg15 main_v201 ((fun l r => Host.dotGeneral dot_S64x64_S64x32_S64x32_1_0_0_1_n_n none l r) : (⟨S64x64, .f32⟩ : BufTy).Contents (Elt F) → (⟨S64x32, .f32⟩ : BufTy).Contents (Elt F) → (⟨S64x32, .f32⟩ : BufTy).Contents (Elt F)),
    StableHlo.unary main_arg16 main_v202 (broadcastInDim S1x32 ![1] bcast_S32_S1x32_1 : (⟨S32, .f32⟩ : BufTy).Contents (Elt F) → (⟨S1x32, .f32⟩ : BufTy).Contents (Elt F)),
    StableHlo.unary main_v202 main_v203 (broadcastInDim S64x32 ![0, 1] bcast_S1x32_S64x32_0_1 : (⟨S1x32, .f32⟩ : BufTy).Contents (Elt F) → (⟨S64x32, .f32⟩ : BufTy).Contents (Elt F)),
    StableHlo.binary main_v201 main_v203 main_v204 (addf : (⟨S64x32, .f32⟩ : BufTy).Contents (Elt F) → (⟨S64x32, .f32⟩ : BufTy).Contents (Elt F) → (⟨S64x32, .f32⟩ : BufTy).Contents (Elt F)) ]

/-- The last 7 operations of segment 17: those in the next printed window. -/
abbrev seg17b : List (HloOp τ sig (Elt F)) :=
  [ StableHlo.TRef.nullary main_call10.cst (constant S_ .f32 0x00000000#32),
    StableHlo.TRef.unary main_call10.cst main_call10.v0 (broadcastInDim S64x32 ![] bcast_S_S64x32),
    StableHlo.TRef.binary (.of main_v204) main_call10.v0 main_call10.v1 maximumf,
    StableHlo.binary main_v205 main_arg17 main_v206 ((fun l r => Host.dotGeneral dot_S64x32_S32x1_S64x1_1_0_0_1_n_n none l r) : (⟨S64x32, .f32⟩ : BufTy).Contents (Elt F) → (⟨S32x1, .f32⟩ : BufTy).Contents (Elt F) → (⟨S64x1, .f32⟩ : BufTy).Contents (Elt F)),
    StableHlo.unary main_arg18 main_v207 (broadcastInDim S1x1 ![1] bcast_S1_S1x1_1 : (⟨S1, .f32⟩ : BufTy).Contents (Elt F) → (⟨S1x1, .f32⟩ : BufTy).Contents (Elt F)),
    StableHlo.unary main_v207 main_v208 (broadcastInDim S64x1 ![0, 1] bcast_S1x1_S64x1_0_1 : (⟨S1x1, .f32⟩ : BufTy).Contents (Elt F) → (⟨S64x1, .f32⟩ : BufTy).Contents (Elt F)),
    StableHlo.binary main_v206 main_v208 main_v209 (addf : (⟨S64x1, .f32⟩ : BufTy).Contents (Elt F) → (⟨S64x1, .f32⟩ : BufTy).Contents (Elt F) → (⟨S64x1, .f32⟩ : BufTy).Contents (Elt F)) ]

/-- The whole program as one line: the eighteen segments in order. -/
abbrev ops : List (HloOp τ sig (Elt F)) :=
  seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17)))))))))))))))))

/-! ## The program is that line

The printed program runs five windows in order; four segments run across a window's end, so each of those is
also given as its two halves. Each window is the line of its own segments by computation (a called function's
body unfolds at its call), and the five lines appended are `ops`. -/

theorem seg3_split : (seg3 : List (HloOp τ sig (Elt F))) = seg3a ++ seg3b := rfl
theorem seg8_split : (seg8 : List (HloOp τ sig (Elt F))) = seg8a ++ seg8b := rfl
theorem seg14_split : (seg14 : List (HloOp τ sig (Elt F))) = seg14a ++ seg14b := rfl
theorem seg17_split : (seg17 : List (HloOp τ sig (Elt F))) = seg17a ++ seg17b := rfl

/-- The operations of the printed window 0. -/
abbrev win0 : List (HloOp τ sig (Elt F)) := seg0 ++ seg1 ++ seg2 ++ seg3a
/-- The operations of the printed window 1. -/
abbrev win1 : List (HloOp τ sig (Elt F)) := seg3b ++ seg4 ++ seg5 ++ seg6 ++ seg7 ++ seg8a
/-- The operations of the printed window 2. -/
abbrev win2 : List (HloOp τ sig (Elt F)) := seg8b ++ seg9 ++ seg10 ++ seg11 ++ seg12 ++ seg13 ++ seg14a
/-- The operations of the printed window 3. -/
abbrev win3 : List (HloOp τ sig (Elt F)) := seg14b ++ seg15 ++ seg16 ++ seg17a
/-- The operations of the printed window 4. -/
abbrev win4 : List (HloOp τ sig (Elt F)) := seg17b

set_option maxRecDepth 16384 in
set_option maxHeartbeats 4000000 in
theorem part0_eq (d : Dev nD) : main_part0 (F := F) d = seq win0 := rfl
set_option maxRecDepth 16384 in
set_option maxHeartbeats 4000000 in
theorem part1_eq (d : Dev nD) : main_part1 (F := F) d = seq win1 := rfl
set_option maxRecDepth 16384 in
set_option maxHeartbeats 4000000 in
theorem part2_eq (d : Dev nD) : main_part2 (F := F) d = seq win2 := rfl
set_option maxRecDepth 16384 in
set_option maxHeartbeats 4000000 in
theorem part3_eq (d : Dev nD) : main_part3 (F := F) d = seq win3 := rfl
set_option maxRecDepth 16384 in
set_option maxHeartbeats 4000000 in
theorem part4_eq (d : Dev nD) : main_part4 (F := F) d = seq win4 := rfl

theorem ops_wins : (ops : List (HloOp τ sig (Elt F))) = win0 ++ (win1 ++ (win2 ++ (win3 ++ win4))) := by
  simp only [ops, win0, win1, win2, win3, win4, seg3_split, seg8_split, seg14_split, seg17_split, List.append_assoc]

/-- The program is the line `ops`, on every device and for any float values. -/
theorem main_eq (d : Dev nD) : main (F := F) d = seq ops := by
  rw [ops_wins, seq_append win0, seq_append win1, seq_append win2, seq_append win3,
    ← part0_eq d, ← part1_eq d, ← part2_eq d, ← part3_eq d, ← part4_eq d]
  rfl

/-! ## The side conditions of the run

No buffer and no semaphore of the program is scoped; every operation touches only the program's own buffers
and determines its result. -/

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of the two appended. -/
theorem forall_append {α : Type} {P : α → Prop} {l₁ l₂ : List α} (h₁ : l₁.Forall P) (h₂ : l₂.Forall P) :
    (l₁ ++ l₂).Forall P :=
  List.forall_iff_forall_mem.mpr fun a ha =>
    (List.mem_append.mp ha).elim (List.forall_iff_forall_mem.mp h₁ a) (List.forall_iff_forall_mem.mp h₂ a)

set_option maxRecDepth 8192 in
theorem seg0_sub : (seg0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub ..⟩
set_option maxRecDepth 8192 in
theorem seg1_sub : (seg1 : List (HloOp τ sig (Elt F))).Forall fun op => op.bufs ⊆ tcRefs τ sig :=
  ⟨binary_bufs_sub .., unary_bufs_sub .., unary_bufs_sub .., binary_bufs_sub ..⟩
set_option maxRecDepth 8192 in
theorem seg2_sub : (seg2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem seg3_sub : (seg3 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem seg4_sub : (seg4 : List (HloOp τ sig (Elt F))).Forall fun op => op.bufs ⊆ tcRefs τ sig :=
  ⟨binary_bufs_sub .., unary_bufs_sub .., unary_bufs_sub .., binary_bufs_sub ..⟩
set_option maxRecDepth 8192 in
theorem seg5_sub : (seg5 : List (HloOp τ sig (Elt F))).Forall fun op => op.bufs ⊆ tcRefs τ sig :=
  ⟨unary_bufs_sub .., reshape_bufs_sub .., binary_bufs_sub ..⟩
set_option maxRecDepth 8192 in
theorem seg6_sub : (seg6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., reshape_bufs_sub .., unary_bufs_sub .., reshape_bufs_sub ..⟩
set_option maxRecDepth 8192 in
theorem seg7_sub : (seg7 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem seg8_sub : (seg8 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩
set_option maxRecDepth 8192 in
theorem seg9_sub : (seg9 : List (HloOp τ sig (Elt F))).Forall fun op => op.bufs ⊆ tcRefs τ sig :=
  ⟨unary_bufs_sub .., reshape_bufs_sub .., binary_bufs_sub ..⟩
set_option maxRecDepth 8192 in
theorem seg10_sub : (seg10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., reshape_bufs_sub .., unary_bufs_sub .., reshape_bufs_sub ..⟩
set_option maxRecDepth 8192 in
theorem seg11_sub : (seg11 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem seg12_sub : (seg12 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩
set_option maxRecDepth 8192 in
theorem seg13_sub : (seg13 : List (HloOp τ sig (Elt F))).Forall fun op => op.bufs ⊆ tcRefs τ sig :=
  ⟨unary_bufs_sub .., reshape_bufs_sub .., binary_bufs_sub ..⟩
set_option maxRecDepth 8192 in
theorem seg14_sub : (seg14 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., reshape_bufs_sub .., unary_bufs_sub .., reshape_bufs_sub ..⟩
set_option maxRecDepth 8192 in
theorem seg15_sub : (seg15 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem seg16_sub : (seg16 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩
set_option maxRecDepth 8192 in
theorem seg17_sub : (seg17 : List (HloOp τ sig (Elt F))).Forall fun op => op.bufs ⊆ tcRefs τ sig :=
  ⟨nullary_bufs_sub .., unary_bufs_sub .., unary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
theorem seg0_fresh : (seg0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem seg1_fresh : (seg1 : List (HloOp τ sig (Elt F))).Forall fun op => op.fresh = ∅ :=
  ⟨rfl, rfl, rfl, rfl⟩
set_option maxRecDepth 8192 in
theorem seg2_fresh : (seg2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem seg3_fresh : (seg3 : List (HloOp τ sig (Elt F))).Forall fun op => op.fresh = ∅ :=
  ⟨rfl, rfl, rfl, rfl, rfl, rfl, rfl, rfl, rfl, rfl, rfl, rfl, rfl, rfl, rfl, rfl, rfl, rfl, rfl⟩
set_option maxRecDepth 8192 in
theorem seg4_fresh : (seg4 : List (HloOp τ sig (Elt F))).Forall fun op => op.fresh = ∅ :=
  ⟨rfl, rfl, rfl, rfl⟩
set_option maxRecDepth 8192 in
theorem seg5_fresh : (seg5 : List (HloOp τ sig (Elt F))).Forall fun op => op.fresh = ∅ :=
  ⟨rfl, rfl, rfl⟩
set_option maxRecDepth 8192 in
theorem seg6_fresh : (seg6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
set_option maxRecDepth 8192 in
theorem seg7_fresh : (seg7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem seg8_fresh : (seg8 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
set_option maxRecDepth 8192 in
theorem seg9_fresh : (seg9 : List (HloOp τ sig (Elt F))).Forall fun op => op.fresh = ∅ :=
  ⟨rfl, rfl, rfl⟩
set_option maxRecDepth 8192 in
theorem seg10_fresh : (seg10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
set_option maxRecDepth 8192 in
theorem seg11_fresh : (seg11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem seg12_fresh : (seg12 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
set_option maxRecDepth 8192 in
theorem seg13_fresh : (seg13 : List (HloOp τ sig (Elt F))).Forall fun op => op.fresh = ∅ :=
  ⟨rfl, rfl, rfl⟩
set_option maxRecDepth 8192 in
theorem seg14_fresh : (seg14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
set_option maxRecDepth 8192 in
theorem seg15_fresh : (seg15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem seg16_fresh : (seg16 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
set_option maxRecDepth 8192 in
theorem seg17_fresh : (seg17 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  forall_append seg0_sub (forall_append seg1_sub (forall_append seg2_sub (forall_append seg3_sub (forall_append seg4_sub (forall_append seg5_sub (forall_append seg6_sub (forall_append seg7_sub (forall_append seg8_sub (forall_append seg9_sub (forall_append seg10_sub (forall_append seg11_sub (forall_append seg12_sub (forall_append seg13_sub (forall_append seg14_sub (forall_append seg15_sub (forall_append seg16_sub (seg17_sub)))))))))))))))))

theorem ops_fresh : (ops : List (HloOp τ sig (Elt F))).Forall fun op => op.fresh = ∅ :=
  forall_append seg0_fresh (forall_append seg1_fresh (forall_append seg2_fresh (forall_append seg3_fresh (forall_append seg4_fresh (forall_append seg5_fresh (forall_append seg6_fresh (forall_append seg7_fresh (forall_append seg8_fresh (forall_append seg9_fresh (forall_append seg10_fresh (forall_append seg11_fresh (forall_append seg12_fresh (forall_append seg13_fresh (forall_append seg14_fresh (forall_append seg15_fresh (forall_append seg16_fresh (seg17_fresh)))))))))))))))))

/-! ## The run -/

/-- From any memory with zero counters, every weakly fair execution of the reference terminates, and every
    buffer of every device ends at the fold of the operations, in order, over what the device held at launch. -/
theorem run_raw (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.mp ops_fresh)

end Cert.ReferenceIdeal.HandRun

end
-- ==== Proof.Spec.lean ====
/-
  A graph convolution network on 100000 nodes with 128 channels, as whole-array functions on the extended reals.
  Every layer is built from four pieces: a linear map of the node features (a 128×128 matrix product plus a bias row),
  the column sums of an array and of its square (the batch statistics), the normalisation of every entry by its
  column's mean and variance followed by a clamp at zero, and the same with the layer's input added back.
  The functions are stated at explicit coordinates (a node `r : Fin 100000`, a channel `c : Fin 128`) and then
  as arrays; nothing here mentions a program.
-/
import Idealize.ShloMosaic.PureOps.Ideal
import Idealize.ShloMosaic.Lib.ValueIdx

noncomputable section

open Idealize.ShloMosaic Idealize.ShloMosaic.ValueIdx
open scoped BigOperators

namespace Cert.Gcn

/-- node features: 100000 nodes by 128 channels -/
abbrev Snd : Shape := ⟨2, ![100000, 128]⟩
/-- a square weight matrix -/
abbrev Sdd : Shape := ⟨2, ![128, 128]⟩
/-- one row of 128 channels (a bias, a mean, a variance, a scale, a shift) -/
abbrev Srow : Shape := ⟨2, ![1, 128]⟩

/-- Every entry is a real number (neither infinity). -/
def AllReal {ι : Type} (f : ι → EReal) : Prop := ∀ i, ∃ r : ℝ, f i = (r : EReal)

/-- The variance offset, the single-precision word nearest to 1e-5, read exactly. -/
def eps : EReal := Ideal.ofBits .f32 0x3727C5AC#32

/-- Entry (r, c) of x·w + b: the sum over the 128 input channels, plus the bias of channel c. -/
def linearAt (x : Snd.Idx → EReal) (w : Sdd.Idx → EReal) (b : Srow.Idx → EReal) (r : Fin 100000) (c : Fin 128) : EReal :=
  (∑ k : Fin 128, x (ix2 r k) * w (ix2 k c)) + b (ix2 0 c)

/-- x·w + b as an array. -/
def linear (x : Snd.Idx → EReal) (w : Sdd.Idx → EReal) (b : Srow.Idx → EReal) : Snd.Idx → EReal :=
  fun i => linearAt x w b (i 0) (i 1)

/-- An array with a row added to each of its rows. -/
def addRow (a : Snd.Idx → EReal) (b : Srow.Idx → EReal) : Snd.Idx → EReal :=
  fun i => a i + b (ix2 0 (i 1))

/-- The sum of column c over all 100000 nodes. -/
def colSumAt (z : Snd.Idx → EReal) (c : Fin 128) : EReal := ∑ r : Fin 100000, z (ix2 r c)

/-- The column sums as a row. -/
def colSum (z : Snd.Idx → EReal) : Srow.Idx → EReal := fun j => colSumAt z (j 1)

/-- The column sums of the squares as a row. -/
def colSumSq (z : Snd.Idx → EReal) : Srow.Idx → EReal := fun j => colSumAt (fun i => z i * z i) (j 1)

/-- One entry normalised: (z − mean) · (var + eps)^(−1/2) · scale + shift. -/
def normAt (z mean var g be : EReal) : EReal := (z - mean) * Ideal.rsqrt (var + eps) * g + be

/-- Normalise a + b column by column and clamp at zero. -/
def bnRelu (a : Snd.Idx → EReal) (b mean var g be : Srow.Idx → EReal) : Snd.Idx → EReal :=
  fun i => max (normAt (a i + b (ix2 0 (i 1))) (mean (ix2 0 (i 1))) (var (ix2 0 (i 1))) (g (ix2 0 (i 1))) (be (ix2 0 (i 1)))) 0

/-- The same with the layer's input added back. -/
def bnReluRes (a : Snd.Idx → EReal) (b mean var g be : Srow.Idx → EReal) (resid : Snd.Idx → EReal) : Snd.Idx → EReal :=
  fun i => resid i + max (normAt (a i + b (ix2 0 (i 1))) (mean (ix2 0 (i 1))) (var (ix2 0 (i 1))) (g (ix2 0 (i 1))) (be (ix2 0 (i 1)))) 0

/-! ## Rows and vectors, and the batch statistics in the two forms the programs use -/

/-- a vector of 128 channels -/
abbrev Svec : Shape := ⟨1, ![128]⟩

/-- A vector of 128 channels laid out as one row. -/
def rowOf (b : Svec.Idx → EReal) : Srow.Idx → EReal := fun j => b (ix1 (j 1))

/-- The number of nodes, 100000, as the single-precision word the programs divide by. -/
def nNodes : EReal := Ideal.ofBits .f32 0x47C35000#32

/-- The mean of column c. -/
def meanAt (z : Snd.Idx → EReal) (c : Fin 128) : EReal := Ideal.div (colSumAt z c) nNodes

/-- The variance of column c in one pass: the mean of the squares minus the squared mean, clamped at zero. -/
def varOnePassAt (z : Snd.Idx → EReal) (c : Fin 128) : EReal :=
  max (Ideal.div (colSumAt (fun i => z i * z i) c) nNodes - meanAt z c * meanAt z c) 0

/-- The variance of column c in two passes: the mean of the squared deviations from the mean. -/
def varTwoPassAt (z : Snd.Idx → EReal) (c : Fin 128) : EReal :=
  Ideal.div (∑ r : Fin 100000, (z (ix2 r c) - meanAt z c) * (z (ix2 r c) - meanAt z c)) nNodes

/-- The means as a row. -/
def meanRow (z : Snd.Idx → EReal) : Srow.Idx → EReal := fun j => meanAt z (j 1)
/-- The one-pass variances as a row. -/
def varOnePassRow (z : Snd.Idx → EReal) : Srow.Idx → EReal := fun j => varOnePassAt z (j 1)
/-- The two-pass variances as a row. -/
def varTwoPassRow (z : Snd.Idx → EReal) : Srow.Idx → EReal := fun j => varTwoPassAt z (j 1)

end Cert.Gcn

end
-- ==== Proof.RealLaws.lean ====
/-
  The laws of real numbers inside the extended reals that the graph network's layers rest on.
  A batch variance can be written from the column sums of an array and of its square,
  max(S2/N − (S1/N)², 0), or as the mean of the squared deviations from the mean, Σ (z − S1/N)² / N.
  On the extended reals the two agree when every entry is a real number, so this module also shows
  that each piece of a layer (a linear map, a column sum, a scatter of rows, a normalisation) sends
  arrays of real numbers to arrays of real numbers.
-/
import proofs.«136606_j68719476736452_2_alg».proof.Proof.Spec
import Idealize.ShloMosaic.PureOps.Ideal.Laws
import Mathlib.Tactic

noncomputable section

open Idealize.ShloMosaic Idealize.ShloMosaic.ValueIdx
open scoped BigOperators

namespace Cert.Gcn

/-! ## Sums of real numbers inside the extended reals -/

/-- The inclusion of the reals commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An all-real family is the inclusion of a family of reals. -/
theorem AllReal.exists_eq {ι : Type} {f : ι → EReal} (hf : AllReal f) :
    ∃ g : ι → ℝ, f = fun i => (g i : EReal) := by
  choose g hg using hf
  exact ⟨g, funext hg⟩

/-- The textbook identity: the mean of the squares minus the square of the mean is the mean of the
    squared deviations from the mean. -/
theorem real_var_identity {n : ℕ} (f : Fin n → ℝ) (hn : 0 < n) :
    (∑ r, f r * f r) * (1 / (n : ℝ)) - (∑ r, f r) * (1 / (n : ℝ)) * ((∑ r, f r) * (1 / (n : ℝ)))
      = (∑ r, (f r - (∑ r, f r) * (1 / (n : ℝ))) * (f r - (∑ r, f r) * (1 / (n : ℝ)))) * (1 / (n : ℝ)) := by
  have hn' : (n : ℝ) ≠ 0 := by exact_mod_cast hn.ne'
  have key : ∀ μ : ℝ, ∑ r, (f r - μ) * (f r - μ)
      = (∑ r, f r * f r) - 2 * μ * (∑ r, f r) + (n : ℝ) * (μ * μ) := by
    intro μ
    have h1 : ∀ r, (f r - μ) * (f r - μ) = f r * f r - 2 * μ * f r + μ * μ := fun r => by ring
    simp only [h1, Finset.sum_add_distrib, Finset.sum_sub_distrib, ← Finset.mul_sum, Finset.sum_const,
      Finset.card_univ, Fintype.card_fin, nsmul_eq_mul]
    ring
  rw [key]
  field_simp
  ring

/-- The mean of the squared deviations of reals is not negative. -/
theorem real_var_nonneg {n : ℕ} (f : Fin n → ℝ) (μ : ℝ) :
    0 ≤ (∑ r, (f r - μ) * (f r - μ)) * (1 / (n : ℝ)) :=
  mul_nonneg (Finset.sum_nonneg fun r _ => mul_self_nonneg _) (by positivity)

/-! ## The two forms of the variance -/

/-- With every entry real, the sums, the mean and the centred mean of squares are the inclusions of
    the corresponding real expressions. -/
theorem var_forms_coe {n : Nat} (f : Fin n → ℝ) (hn : 0 < n) :
    Ideal.div (∑ r, (f r : EReal)) ((n : ℝ) : EReal) = (((∑ r, f r) * (1 / (n : ℝ)) : ℝ) : EReal)
    ∧ Ideal.div (∑ r, (f r : EReal) * (f r : EReal)) ((n : ℝ) : EReal)
        = (((∑ r, f r * f r) * (1 / (n : ℝ)) : ℝ) : EReal)
    ∧ Ideal.div (∑ r, ((f r : EReal) - Ideal.div (∑ r, (f r : EReal)) ((n : ℝ) : EReal))
          * ((f r : EReal) - Ideal.div (∑ r, (f r : EReal)) ((n : ℝ) : EReal))) ((n : ℝ) : EReal)
        = (((∑ r, (f r - (∑ r, f r) * (1 / (n : ℝ))) * (f r - (∑ r, f r) * (1 / (n : ℝ))))
              * (1 / (n : ℝ)) : ℝ) : EReal) := by
  have hn' : (n : ℝ) ≠ 0 := by exact_mod_cast hn.ne'
  have hmean : Ideal.div (∑ r, (f r : EReal)) ((n : ℝ) : EReal)
      = (((∑ r, f r) * (1 / (n : ℝ)) : ℝ) : EReal) := by
    rw [Ideal.div_coe hn', ← coe_finset_sum, ← EReal.coe_mul]
  refine ⟨hmean, ?_, ?_⟩
  · rw [Ideal.div_coe hn']
    simp only [← EReal.coe_mul, ← coe_finset_sum]
  · rw [hmean, Ideal.div_coe hn']
    simp only [← EReal.coe_sub, ← EReal.coe_mul, ← coe_finset_sum]

/-- The variance from the column sums, clamped at zero, is the mean of the squared deviations from the
    mean, for an all-real column of a positive number of entries. -/
theorem var_two_forms {n : Nat} (z : Fin n → EReal) (hz : AllReal z) (N : EReal) (hN : N = ((n : ℝ) : EReal))
    (hn : 0 < n) :
    max (Ideal.div (∑ r, z r * z r) N - Ideal.div (∑ r, z r) N * Ideal.div (∑ r, z r) N) 0
      = Ideal.div (∑ r, (z r - Ideal.div (∑ r, z r) N) * (z r - Ideal.div (∑ r, z r) N)) N := by
  obtain ⟨f, rfl⟩ := hz.exists_eq
  subst hN
  obtain ⟨h1, h2, h3⟩ := var_forms_coe f hn
  rw [h3, h1, h2, ← EReal.coe_mul, ← EReal.coe_sub, real_var_identity f hn]
  exact max_eq_left (EReal.coe_nonneg.2 (real_var_nonneg f _))

/-- The same with the divisor of the centred form written as N − 0. -/
theorem var_two_forms_sub_zero {n : Nat} (z : Fin n → EReal) (hz : AllReal z) (N : EReal)
    (hN : N = ((n : ℝ) : EReal)) (hn : 0 < n) :
    max (Ideal.div (∑ r, z r * z r) N - Ideal.div (∑ r, z r) N * Ideal.div (∑ r, z r) N) 0
      = Ideal.div (∑ r, (z r - Ideal.div (∑ r, z r) N) * (z r - Ideal.div (∑ r, z r) N)) (N - 0) := by
  rw [sub_zero]; exact var_two_forms z hz N hN hn

/-- The same with the divisor of the centred form written as N minus the real zero. -/
theorem var_two_forms_sub_coe_zero {n : Nat} (z : Fin n → EReal) (hz : AllReal z) (N : EReal)
    (hN : N = ((n : ℝ) : EReal)) (hn : 0 < n) :
    max (Ideal.div (∑ r, z r * z r) N - Ideal.div (∑ r, z r) N * Ideal.div (∑ r, z r) N) 0
      = Ideal.div (∑ r, (z r - Ideal.div (∑ r, z r) N) * (z r - Ideal.div (∑ r, z r) N))
          (N - ((0 : ℝ) : EReal)) := by
  rw [EReal.coe_zero, sub_zero]; exact var_two_forms z hz N hN hn

/-- The centred variance of an all-real column is a real number that is not negative. -/
theorem var_real_nonneg {n : Nat} (z : Fin n → EReal) (hz : AllReal z) (N : EReal) (hN : N = ((n : ℝ) : EReal))
    (hn : 0 < n) :
    ∃ v : ℝ, 0 ≤ v ∧
      Ideal.div (∑ r, (z r - Ideal.div (∑ r, z r) N) * (z r - Ideal.div (∑ r, z r) N)) N = (v : EReal) := by
  obtain ⟨f, rfl⟩ := hz.exists_eq
  subst hN
  exact ⟨_, real_var_nonneg f _, (var_forms_coe f hn).2.2⟩

/-- The mean of an all-real column is a real number. -/
theorem mean_real {n : Nat} (z : Fin n → EReal) (hz : AllReal z) (N : EReal) (hN : N = ((n : ℝ) : EReal))
    (hn : 0 < n) : ∃ μ : ℝ, Ideal.div (∑ r, z r) N = (μ : EReal) := by
  obtain ⟨f, rfl⟩ := hz.exists_eq
  subst hN
  exact ⟨_, (var_forms_coe f hn).1⟩

/-- The clamped variance from the column sums is likewise a real number that is not negative. -/
theorem var_sums_real_nonneg {n : Nat} (z : Fin n → EReal) (hz : AllReal z) (N : EReal)
    (hN : N = ((n : ℝ) : EReal)) (hn : 0 < n) :
    ∃ v : ℝ, 0 ≤ v ∧
      max (Ideal.div (∑ r, z r * z r) N - Ideal.div (∑ r, z r) N * Ideal.div (∑ r, z r) N) 0 = (v : EReal) := by
  rw [var_two_forms z hz N hN hn]; exact var_real_nonneg z hz N hN hn

/-! ## The two constants -/

/-- The single-precision word 0x47C35000 is the number of nodes, 100000 = (2^23 + 4411392) · 2^(−7). -/
theorem ofBits_N : Ideal.ofBits .f32 0x47C35000#32 = ((100000 : ℝ) : EReal) := by
  simp [Ideal.ofBits, Ideal.ieee, -EReal.coe_mul]; norm_num

/-- The variance offset is a positive real number, 10995116 · 2^(−40). -/
theorem eps_pos : ∃ e : ℝ, 0 < e ∧ eps = (e : EReal) := by
  refine ⟨(10995116 : ℝ) * (2 : ℝ) ^ (-40 : ℤ), by positivity, ?_⟩
  simp [eps, Ideal.ofBits, Ideal.ieee, -EReal.coe_mul]

/-! ## Arrays of real numbers are closed under the operations of a layer -/

/-- An extended real that is a real number. -/
abbrev IsReal (a : EReal) : Prop := ∃ r : ℝ, a = (r : EReal)

theorem allReal_iff {ι : Type} {f : ι → EReal} : AllReal f ↔ ∀ i, IsReal (f i) := Iff.rfl

theorem isReal_coe (r : ℝ) : IsReal (r : EReal) := ⟨r, rfl⟩

theorem isReal_zero : IsReal 0 := ⟨0, rfl⟩

theorem isReal_add {a b : EReal} (ha : IsReal a) (hb : IsReal b) : IsReal (a + b) := by
  obtain ⟨x, rfl⟩ := ha; obtain ⟨y, rfl⟩ := hb; exact ⟨x + y, (EReal.coe_add x y).symm⟩

theorem isReal_sub {a b : EReal} (ha : IsReal a) (hb : IsReal b) : IsReal (a - b) := by
  obtain ⟨x, rfl⟩ := ha; obtain ⟨y, rfl⟩ := hb; exact ⟨x - y, (EReal.coe_sub x y).symm⟩

theorem isReal_mul {a b : EReal} (ha : IsReal a) (hb : IsReal b) : IsReal (a * b) := by
  obtain ⟨x, rfl⟩ := ha; obtain ⟨y, rfl⟩ := hb; exact ⟨x * y, (EReal.coe_mul x y).symm⟩

/-- The clamp at zero of a real number is the real number max(x, 0). -/
theorem coe_max_zero (x : ℝ) : max (x : EReal) 0 = ((max x 0 : ℝ) : EReal) := by
  rcases le_total 0 x with h | h
  · rw [max_eq_left h, max_eq_left (EReal.coe_nonneg.2 h)]
  · rw [max_eq_right h, max_eq_right (by exact_mod_cast h : (x : EReal) ≤ 0)]; rfl

theorem isReal_max_zero {a : EReal} (ha : IsReal a) : IsReal (max a 0) := by
  obtain ⟨x, rfl⟩ := ha; exact ⟨max x 0, coe_max_zero x⟩

/-- The clamp at zero of a real number is not negative. -/
theorem isReal_max_zero_nonneg {a : EReal} (ha : IsReal a) : ∃ v : ℝ, 0 ≤ v ∧ max a 0 = (v : EReal) := by
  obtain ⟨x, rfl⟩ := ha; exact ⟨max x 0, le_max_right _ _, coe_max_zero x⟩

/-- A finite sum of real numbers is a real number. -/
theorem isReal_sum {ι : Type} (s : Finset ι) (f : ι → EReal) (hf : ∀ i ∈ s, IsReal (f i)) :
    IsReal (∑ i ∈ s, f i) := by
  classical
  induction s using Finset.induction_on with
  | empty => exact ⟨0, by simp⟩
  | insert a s ha ih =>
    rw [Finset.sum_insert ha]
    exact isReal_add (hf a (Finset.mem_insert_self a s)) (ih fun i hi => hf i (Finset.mem_insert_of_mem hi))

/-- A real number divided by a real number other than zero is a real number. -/
theorem isReal_div {a : EReal} (ha : IsReal a) {y : ℝ} (hy : y ≠ 0) : IsReal (Ideal.div a (y : EReal)) := by
  rw [Ideal.div_coe hy]; exact isReal_mul ha (isReal_coe _)

/-- The same with the divisor given as an extended real known to be such a real number. -/
theorem isReal_div_of_eq {a N : EReal} (ha : IsReal a) {y : ℝ} (hN : N = (y : EReal)) (hy : y ≠ 0) :
    IsReal (Ideal.div a N) := by
  subst hN; exact isReal_div ha hy

/-- The reciprocal square root of a positive real number is a real number. -/
theorem isReal_rsqrt_pos {x : ℝ} (hx : 0 < x) : IsReal (Ideal.rsqrt (x : EReal)) := by
  refine ⟨(Real.sqrt x)⁻¹, ?_⟩
  rw [Ideal.rsqrt_coe, if_neg (not_lt.2 hx.le), if_neg hx.ne']

/-- … and it is positive. -/
theorem rsqrt_pos_real {x : ℝ} (hx : 0 < x) :
    ∃ s : ℝ, 0 < s ∧ Ideal.rsqrt (x : EReal) = (s : EReal) := by
  refine ⟨(Real.sqrt x)⁻¹, inv_pos.2 (Real.sqrt_pos.2 hx), ?_⟩
  rw [Ideal.rsqrt_coe, if_neg (not_lt.2 hx.le), if_neg hx.ne']

theorem AllReal.comp {ι κ : Type} {f : ι → EReal} (hf : AllReal f) (g : κ → ι) :
    AllReal (fun k => f (g k)) := fun k => hf (g k)

theorem AllReal.add {ι : Type} {f g : ι → EReal} (hf : AllReal f) (hg : AllReal g) :
    AllReal (fun i => f i + g i) := fun i => isReal_add (hf i) (hg i)

theorem AllReal.sub {ι : Type} {f g : ι → EReal} (hf : AllReal f) (hg : AllReal g) :
    AllReal (fun i => f i - g i) := fun i => isReal_sub (hf i) (hg i)

theorem AllReal.mul {ι : Type} {f g : ι → EReal} (hf : AllReal f) (hg : AllReal g) :
    AllReal (fun i => f i * g i) := fun i => isReal_mul (hf i) (hg i)

theorem AllReal.max_zero {ι : Type} {f : ι → EReal} (hf : AllReal f) :
    AllReal (fun i => max (f i) 0) := fun i => isReal_max_zero (hf i)

theorem AllReal.sum {ι κ : Type} (s : Finset κ) {f : ι → κ → EReal} (hf : ∀ i, ∀ k ∈ s, IsReal (f i k)) :
    AllReal (fun i => ∑ k ∈ s, f i k) := fun i => isReal_sum s (f i) (hf i)

theorem AllReal.const {ι : Type} {a : EReal} (ha : IsReal a) : AllReal (fun _ : ι => a) := fun _ => ha

theorem AllReal.div_const {ι : Type} {f : ι → EReal} (hf : AllReal f) {N : EReal} {y : ℝ}
    (hN : N = (y : EReal)) (hy : y ≠ 0) : AllReal (fun i => Ideal.div (f i) N) :=
  fun i => isReal_div_of_eq (hf i) hN hy

/-- x·w + b of all-real arrays is all real. -/
theorem linear_allReal {x : Snd.Idx → EReal} {w : Sdd.Idx → EReal} {b : Srow.Idx → EReal}
    (hx : AllReal x) (hw : AllReal w) (hb : AllReal b) : AllReal (linear x w b) :=
  fun i => isReal_add (isReal_sum _ _ fun k _ => isReal_mul (hx _) (hw _)) (hb _)

theorem linearAt_isReal {x : Snd.Idx → EReal} {w : Sdd.Idx → EReal} {b : Srow.Idx → EReal}
    (hx : AllReal x) (hw : AllReal w) (hb : AllReal b) (r : Fin 100000) (c : Fin 128) :
    IsReal (linearAt x w b r c) :=
  isReal_add (isReal_sum _ _ fun k _ => isReal_mul (hx _) (hw _)) (hb _)

theorem addRow_allReal {a : Snd.Idx → EReal} {b : Srow.Idx → EReal} (ha : AllReal a) (hb : AllReal b) :
    AllReal (addRow a b) := fun i => isReal_add (ha i) (hb _)

theorem colSumAt_isReal {z : Snd.Idx → EReal} (hz : AllReal z) (c : Fin 128) : IsReal (colSumAt z c) :=
  isReal_sum _ _ fun r _ => hz _

theorem colSum_allReal {z : Snd.Idx → EReal} (hz : AllReal z) : AllReal (colSum z) :=
  fun j => colSumAt_isReal hz (j 1)

theorem colSumSq_allReal {z : Snd.Idx → EReal} (hz : AllReal z) : AllReal (colSumSq z) :=
  fun j => colSumAt_isReal (z := fun i => z i * z i) (fun i => isReal_mul (hz i) (hz i)) (j 1)

/-- A column of an all-real array, as a family over the nodes, is all real. -/
theorem column_allReal {z : Snd.Idx → EReal} (hz : AllReal z) (c : Fin 128) :
    AllReal (fun r : Fin 100000 => z (ix2 r c)) := fun r => hz _

/-- A scatter that adds all-real updates into an all-real array gives an all-real array. -/
theorem hostScatterAdd_allReal {s si su : Shape} (d : ScatterDims s si su) {w : Nat} (x : s.Idx → EReal)
    (idx : IVec si w) (upd : su.Idx → EReal) (hx : AllReal x) (hu : AllReal upd) :
    AllReal (Ideal.hostScatterAdd d x idx upd) :=
  fun i => isReal_add (hx i) (isReal_sum _ _ fun j _ => hu j)

/-- A sum reduction of an all-real array from a real initial value gives an all-real array. -/
theorem hostReduceAdd_allReal {s : Shape} {axes : List (Fin s.rank)} {t : Shape} (h : s.ReducesTo axes t)
    (x : s.Idx → EReal) (init : EReal) (hx : AllReal x) (hi : IsReal init) :
    AllReal (Ideal.hostReduceAdd h x init) :=
  fun _ => isReal_add hi (isReal_sum _ _ fun i _ => hx i)

theorem reduceAdd_allReal {s : Shape} {axes : List (Fin s.rank)} {t : Shape} (h : s.Reduces axes t)
    (x : s.Idx → EReal) (hx : AllReal x) : AllReal (Ideal.reduceAdd h x) :=
  fun _ => isReal_sum _ _ fun i _ => hx i

/-- A contraction of all-real operands onto an all-real accumulator is all real. -/
theorem matmul_allReal {sl sr so : Shape} (d : DotDims sl sr so) (lhs : sl.Idx → EReal) (rhs : sr.Idx → EReal)
    (acc : so.Idx → EReal) (hl : AllReal lhs) (hr : AllReal rhs) (ha : AllReal acc) :
    AllReal (Ideal.matmul d lhs rhs acc) :=
  fun j => isReal_add (ha j) (isReal_sum _ _ fun k _ => isReal_mul (hl _) (hr _))

theorem mxuPass_allReal {sl sr so : Shape} (d : DotDims sl sr so) (lhs : sl.Idx → EReal) (rhs : sr.Idx → EReal)
    (hl : AllReal lhs) (hr : AllReal rhs) : AllReal (Ideal.mxuPass d lhs rhs) :=
  fun j => isReal_sum _ _ fun k _ => isReal_mul (hl _) (hr _)

/-- The host's product of all-real operands is all real. -/
theorem dotGeneral_allReal {sl sr so : Shape} {φ₁ φ₂ : FTy} (d : DotDims sl sr so) (prec : Option ContractPrecision)
    (sched : HostSchedule) (lhs : FVec Ideal sl φ₁) (rhs : FVec Ideal sr φ₂) (hl : AllReal lhs) (hr : AllReal rhs) :
    AllReal (FloatOps.dotGeneral (F := Ideal) d prec sched lhs rhs) := by
  intro j
  rw [Ideal.dotGeneral_apply]
  exact isReal_sum _ _ fun k _ => isReal_mul (hl _) (hr _)

/-! ## A few more closure facts: negation, maxima, a choice between two reals, a reciprocal square root -/

theorem isReal_neg {a : EReal} (ha : IsReal a) : IsReal (-a) := by
  obtain ⟨x, rfl⟩ := ha; exact ⟨-x, (EReal.coe_neg x).symm⟩

theorem isReal_max {a b : EReal} (ha : IsReal a) (hb : IsReal b) : IsReal (max a b) := by
  rcases max_choice a b with h | h <;> rw [h] <;> assumption

theorem isReal_min {a b : EReal} (ha : IsReal a) (hb : IsReal b) : IsReal (min a b) := by
  rcases min_choice a b with h | h <;> rw [h] <;> assumption

theorem isReal_ite {p : Prop} [Decidable p] {a b : EReal} (ha : IsReal a) (hb : IsReal b) :
    IsReal (if p then a else b) := by
  split <;> assumption

theorem isReal_one : IsReal 1 := ⟨1, rfl⟩

/-- The reciprocal square root of a positive real number, given as an extended real. -/
theorem isReal_rsqrt_of_pos {a : EReal} (ha : IsReal a) (hpos : 0 < a) : IsReal (Ideal.rsqrt a) := by
  obtain ⟨x, rfl⟩ := ha; exact isReal_rsqrt_pos (EReal.coe_pos.1 hpos)

/-- A real number raised to at least one has a real reciprocal square root. -/
theorem isReal_rsqrt_max_one {a : EReal} (ha : IsReal a) : IsReal (Ideal.rsqrt (max a 1)) :=
  isReal_rsqrt_of_pos (isReal_max ha isReal_one) (lt_of_lt_of_le zero_lt_one (le_max_right a 1))

/-- The single-precision word 0x3F800000 is the number one. -/
theorem ofBits_one : Ideal.ofBits .f32 0x3F800000#32 = 1 := by
  simp [Ideal.ofBits, Ideal.ieee, -EReal.coe_mul]; norm_num

/-! ## The normalisation keeps arrays real -/

/-- One normalised entry is a real number when its inputs are and the variance is a real number that
    is not negative: the variance plus the offset is then positive, so its reciprocal square root is real. -/
theorem normAt_isReal {z mean var g be : EReal} (hz : IsReal z) (hm : IsReal mean)
    (hv : ∃ v : ℝ, 0 ≤ v ∧ var = (v : EReal)) (hg : IsReal g) (hbe : IsReal be) :
    IsReal (normAt z mean var g be) := by
  obtain ⟨v, hv0, rfl⟩ := hv
  obtain ⟨e, he0, he⟩ := eps_pos
  have hr : IsReal (Ideal.rsqrt ((v : EReal) + eps)) := by
    rw [he, ← EReal.coe_add]; exact isReal_rsqrt_pos (by linarith)
  exact isReal_add (isReal_mul (isReal_mul (isReal_sub hz hm) hr) hg) hbe

/-- The normalised and clamped layer output is all real. -/
theorem bnRelu_allReal {a : Snd.Idx → EReal} {b mean var g be : Srow.Idx → EReal}
    (ha : AllReal a) (hb : AllReal b) (hm : AllReal mean)
    (hv : ∀ j, ∃ v : ℝ, 0 ≤ v ∧ var j = (v : EReal)) (hg : AllReal g) (hbe : AllReal be) :
    AllReal (bnRelu a b mean var g be) :=
  fun i => isReal_max_zero (normAt_isReal (isReal_add (ha i) (hb _)) (hm _) (hv _) (hg _) (hbe _))

/-- The same with the layer's input added back. -/
theorem bnReluRes_allReal {a : Snd.Idx → EReal} {b mean var g be : Srow.Idx → EReal} {resid : Snd.Idx → EReal}
    (ha : AllReal a) (hb : AllReal b) (hm : AllReal mean)
    (hv : ∀ j, ∃ v : ℝ, 0 ≤ v ∧ var j = (v : EReal)) (hg : AllReal g) (hbe : AllReal be)
    (hr : AllReal resid) : AllReal (bnReluRes a b mean var g be resid) :=
  fun i => isReal_add (hr i)
    (isReal_max_zero (normAt_isReal (isReal_add (ha i) (hb _)) (hm _) (hv _) (hg _) (hbe _)))

/-! ## The variance of one column of the node features -/

/-- For an all-real array of node features, at each channel the clamped variance from the two column
    sums over the 100000 nodes is the mean of the squared deviations from the column's mean. -/
theorem var_two_forms_col (z : Snd.Idx → EReal) (hz : AllReal z) (N : EReal)
    (hN : N = ((100000 : ℝ) : EReal)) (c : Fin 128) :
    max (Ideal.div (colSumAt (fun i => z i * z i) c) N
          - Ideal.div (colSumAt z c) N * Ideal.div (colSumAt z c) N) 0
      = Ideal.div (∑ r : Fin 100000, (z (ix2 r c) - Ideal.div (colSumAt z c) N)
          * (z (ix2 r c) - Ideal.div (colSumAt z c) N)) N :=
  var_two_forms (fun r : Fin 100000 => z (ix2 r c)) (column_allReal hz c) N
    (by rw [hN]; norm_num) (by norm_num)

/-- The column's mean is a real number and its variance a real number that is not negative. -/
theorem col_mean_real (z : Snd.Idx → EReal) (hz : AllReal z) (N : EReal)
    (hN : N = ((100000 : ℝ) : EReal)) (c : Fin 128) : IsReal (Ideal.div (colSumAt z c) N) :=
  mean_real (fun r : Fin 100000 => z (ix2 r c)) (column_allReal hz c) N (by rw [hN]; norm_num) (by norm_num)

theorem col_var_real_nonneg (z : Snd.Idx → EReal) (hz : AllReal z) (N : EReal)
    (hN : N = ((100000 : ℝ) : EReal)) (c : Fin 128) :
    ∃ v : ℝ, 0 ≤ v ∧
      Ideal.div (∑ r : Fin 100000, (z (ix2 r c) - Ideal.div (colSumAt z c) N)
          * (z (ix2 r c) - Ideal.div (colSumAt z c) N)) N = (v : EReal) :=
  var_real_nonneg (fun r : Fin 100000 => z (ix2 r c)) (column_allReal hz c) N (by rw [hN]; norm_num) (by norm_num)

/-! ## The same facts for the rows of statistics -/

/-- At each entry of the statistics row, the clamped variance from the two column sums is the mean of
    the squared deviations from the column's mean. -/
theorem var_two_forms_row (z : Snd.Idx → EReal) (hz : AllReal z) (N : EReal)
    (hN : N = ((100000 : ℝ) : EReal)) (j : Srow.Idx) :
    max (Ideal.div (colSumSq z j) N - Ideal.div (colSum z j) N * Ideal.div (colSum z j) N) 0
      = Ideal.div (∑ r : Fin 100000, (z (ix2 r (j 1)) - Ideal.div (colSum z j) N)
          * (z (ix2 r (j 1)) - Ideal.div (colSum z j) N)) N :=
  var_two_forms_col z hz N hN (j 1)

/-- The row of means of an all-real array is all real. -/
theorem mean_row_allReal (z : Snd.Idx → EReal) (hz : AllReal z) (N : EReal)
    (hN : N = ((100000 : ℝ) : EReal)) : AllReal (fun j : Srow.Idx => Ideal.div (colSum z j) N) :=
  fun j => col_mean_real z hz N hN (j 1)

/-- The row of clamped variances of an all-real array is, entry by entry, a real number that is not negative. -/
theorem var_row_real_nonneg (z : Snd.Idx → EReal) (hz : AllReal z) (N : EReal)
    (hN : N = ((100000 : ℝ) : EReal)) (j : Srow.Idx) :
    ∃ v : ℝ, 0 ≤ v ∧
      max (Ideal.div (colSumSq z j) N - Ideal.div (colSum z j) N * Ideal.div (colSum z j) N) 0 = (v : EReal) := by
  rw [var_two_forms_row z hz N hN j]; exact col_var_real_nonneg z hz N hN (j 1)

/-! ## The batch statistics of the specification -/

/-- The divisor of the statistics is the real number 100000. -/
theorem nNodes_eq : nNodes = ((100000 : ℝ) : EReal) := ofBits_N

/-- For an all-real array the one-pass variance of a column is its two-pass variance. -/
theorem varOnePassAt_eq_twoPass (z : Snd.Idx → EReal) (hz : AllReal z) (c : Fin 128) :
    varOnePassAt z c = varTwoPassAt z c :=
  var_two_forms_col z hz nNodes nNodes_eq c

/-- The two-pass variance of a column of an all-real array is a real number that is not negative. -/
theorem varTwoPassAt_real_nonneg (z : Snd.Idx → EReal) (hz : AllReal z) (c : Fin 128) :
    ∃ v : ℝ, 0 ≤ v ∧ varTwoPassAt z c = (v : EReal) :=
  col_var_real_nonneg z hz nNodes nNodes_eq c

/-- … and so is the one-pass variance. -/
theorem varOnePassAt_real_nonneg (z : Snd.Idx → EReal) (hz : AllReal z) (c : Fin 128) :
    ∃ v : ℝ, 0 ≤ v ∧ varOnePassAt z c = (v : EReal) := by
  rw [varOnePassAt_eq_twoPass z hz c]; exact varTwoPassAt_real_nonneg z hz c

/-- The mean of a column of an all-real array is a real number. -/
theorem meanAt_real (z : Snd.Idx → EReal) (hz : AllReal z) (c : Fin 128) :
    ∃ μ : ℝ, meanAt z c = (μ : EReal) :=
  col_mean_real z hz nNodes nNodes_eq c

theorem meanRow_allReal {z : Snd.Idx → EReal} (hz : AllReal z) : AllReal (meanRow z) :=
  fun j => meanAt_real z hz (j 1)

theorem varOnePassRow_eq_twoPassRow (z : Snd.Idx → EReal) (hz : AllReal z) :
    varOnePassRow z = varTwoPassRow z :=
  funext fun j => varOnePassAt_eq_twoPass z hz (j 1)

theorem varOnePassRow_real_nonneg {z : Snd.Idx → EReal} (hz : AllReal z) (j : Srow.Idx) :
    ∃ v : ℝ, 0 ≤ v ∧ varOnePassRow z j = (v : EReal) :=
  varOnePassAt_real_nonneg z hz (j 1)

theorem varTwoPassRow_real_nonneg {z : Snd.Idx → EReal} (hz : AllReal z) (j : Srow.Idx) :
    ∃ v : ℝ, 0 ≤ v ∧ varTwoPassRow z j = (v : EReal) :=
  varTwoPassAt_real_nonneg z hz (j 1)

theorem rowOf_allReal {b : Svec.Idx → EReal} (hb : AllReal b) : AllReal (rowOf b) := fun _ => hb _

/-! ## The layer law: normalising with the one-pass statistics is normalising with the two-pass ones -/

/-- A layer normalised with the means and the one-pass variances of a + b is, entry by entry, the
    normalisation by the column's mean and two-pass variance, clamped at zero. -/
theorem bnRelu_stats_eq (a : Snd.Idx → EReal) (b g be : Srow.Idx → EReal) (ha : AllReal a) (hb : AllReal b) :
    bnRelu a b (meanRow (addRow a b)) (varOnePassRow (addRow a b)) g be
      = fun i => max (normAt (addRow a b i) (meanAt (addRow a b) (i 1)) (varTwoPassAt (addRow a b) (i 1))
          (g (ix2 0 (i 1))) (be (ix2 0 (i 1)))) 0 := by
  rw [varOnePassRow_eq_twoPassRow _ (addRow_allReal ha hb)]
  rfl

/-- The same with the layer's input added back. -/
theorem bnReluRes_stats_eq (a : Snd.Idx → EReal) (b g be : Srow.Idx → EReal) (resid : Snd.Idx → EReal)
    (ha : AllReal a) (hb : AllReal b) :
    bnReluRes a b (meanRow (addRow a b)) (varOnePassRow (addRow a b)) g be resid
      = fun i => resid i + max (normAt (addRow a b i) (meanAt (addRow a b) (i 1))
          (varTwoPassAt (addRow a b) (i 1)) (g (ix2 0 (i 1))) (be (ix2 0 (i 1)))) 0 := by
  rw [varOnePassRow_eq_twoPassRow _ (addRow_allReal ha hb)]
  rfl

/-- The output of such a layer is all real. -/
theorem bnRelu_stats_allReal {a : Snd.Idx → EReal} {b g be : Srow.Idx → EReal}
    (ha : AllReal a) (hb : AllReal b) (hg : AllReal g) (hbe : AllReal be) :
    AllReal (bnRelu a b (meanRow (addRow a b)) (varOnePassRow (addRow a b)) g be) :=
  bnRelu_allReal ha hb (meanRow_allReal (addRow_allReal ha hb))
    (varOnePassRow_real_nonneg (addRow_allReal ha hb)) hg hbe

theorem bnReluRes_stats_allReal {a : Snd.Idx → EReal} {b g be : Srow.Idx → EReal} {resid : Snd.Idx → EReal}
    (ha : AllReal a) (hb : AllReal b) (hg : AllReal g) (hbe : AllReal be) (hr : AllReal resid) :
    AllReal (bnReluRes a b (meanRow (addRow a b)) (varOnePassRow (addRow a b)) g be resid) :=
  bnReluRes_allReal ha hb (meanRow_allReal (addRow_allReal ha hb))
    (varOnePassRow_real_nonneg (addRow_allReal ha hb)) hg hbe hr

/-- The right-hand sides of the layer laws, the forms in which a two-pass program states a layer, are all real too. -/
theorem bnRelu_twoPass_allReal {a : Snd.Idx → EReal} {b g be : Srow.Idx → EReal}
    (ha : AllReal a) (hb : AllReal b) (hg : AllReal g) (hbe : AllReal be) :
    AllReal (fun i : Snd.Idx => max (normAt (addRow a b i) (meanAt (addRow a b) (i 1))
      (varTwoPassAt (addRow a b) (i 1)) (g (ix2 0 (i 1))) (be (ix2 0 (i 1)))) 0) := by
  rw [← bnRelu_stats_eq a b g be ha hb]; exact bnRelu_stats_allReal ha hb hg hbe

theorem bnReluRes_twoPass_allReal {a : Snd.Idx → EReal} {b g be : Srow.Idx → EReal} {resid : Snd.Idx → EReal}
    (ha : AllReal a) (hb : AllReal b) (hg : AllReal g) (hbe : AllReal be) (hr : AllReal resid) :
    AllReal (fun i : Snd.Idx => resid i + max (normAt (addRow a b i) (meanAt (addRow a b) (i 1))
      (varTwoPassAt (addRow a b) (i 1)) (g (ix2 0 (i 1))) (be (ix2 0 (i 1)))) 0) := by
  rw [← bnReluRes_stats_eq a b g be resid ha hb]; exact bnReluRes_stats_allReal ha hb hg hbe hr

end Cert.Gcn

end
-- ==== Proof.RefOps.lean ====
/-
  The operations of the reference program, composed as the program composes them and applied to
  arbitrary arrays, read as the functions of the specification: a dense layer is a linear map, a
  sum over the nodes divided by their number is a column's mean, and so on. Nothing here runs a
  program; every statement is an equation between arrays of extended reals.
-/
import proofs.«136606_j68719476736452_2_alg».proof.ReferenceIdeal
import proofs.«136606_j68719476736452_2_alg».proof.Proof.Spec
import proofs.«136606_j68719476736452_2_alg».proof.Proof.RealLaws
import Idealize.ShloMosaic.Lib.ValueIdx
import Idealize.ShloMosaic.Lib.ValueLayout
import Idealize.ShloMosaic.Lib.IdealHost
import Idealize.ShloMosaic.PureOps.Ideal.Laws
import Mathlib.Tactic

noncomputable section

open Idealize.ShloMosaic Idealize.ShloMosaic.ValueIdx
open scoped BigOperators

namespace Cert.ReferenceIdeal.OpsRead

open Cert.ReferenceIdeal Cert.ReferenceIdeal.Facts₀ Cert.ReferenceIdeal.Facts

variable [Facts]

/-! ## Broadcasts read at an index -/

/-- A vector of 128 channels laid out as one row reads, at a row index, the vector at the channel. -/
theorem bcast_vec_row_apply {α : Type} (b : S128.Idx → α) (j : S1x128.Idx) :
    broadcastInDim S1x128 ![1] bcast_S128_S1x128_1 b j = b (ix1 (j 1)) :=
  broadcastInDim_apply _ _ b j (ix1 (j 1)) (fun a => by
    match a with
    | ⟨0, _⟩ => exact (if_neg (show ¬ (128 : ℕ) = 1 by decide)).symm)

/-- A row repeated over the 100000 nodes reads, at (r, c), the row at channel c. -/
theorem bcast_row_nodes_apply {α : Type} (v : S1x128.Idx → α) (i : S100000x128.Idx) :
    broadcastInDim S100000x128 ![0, 1] bcast_S1x128_S100000x128_0_1 v i = v (ix2 0 (i 1)) :=
  broadcastInDim_apply _ _ v i (ix2 0 (i 1)) (fun a => by
    match a with
    | ⟨0, _⟩ => exact (if_pos rfl).symm
    | ⟨1, _⟩ => exact (if_neg (show ¬ (128 : ℕ) = 1 by decide)).symm)

/-- The two together: a vector of channels repeated over the nodes. -/
theorem bcast_vec_nodes_apply {α : Type} (b : S128.Idx → α) (i : S100000x128.Idx) :
    broadcastInDim S100000x128 ![0, 1] bcast_S1x128_S100000x128_0_1
      (broadcastInDim S1x128 ![1] bcast_S128_S1x128_1 b) i = b (ix1 (i 1)) := by
  rw [bcast_row_nodes_apply, bcast_vec_row_apply]

/-! ## The dense layer -/

/-- The product of node features with a square weight matrix, at (r, c): the sum over the 128 input channels. -/
theorem dot_apply (x : FVec Ideal S100000x128 .f32) (w : FVec Ideal S128x128 .f32) (i : S100000x128.Idx) :
    Host.dotGeneral (F := Ideal) dot_S100000x128_S128x128_S100000x128_1_0_0_1_n_n none x w i
      = ∑ k : Fin 128, x (ix2 (i 0) k) * w (ix2 k (i 1)) := by
  show FloatOps.dotGeneral (F := Ideal) dot_S100000x128_S128x128_S100000x128_1_0_0_1_n_n none .single x w i = _
  rw [Ideal.dotGeneral_apply]
  have hr : (dot_S100000x128_S128x128_S100000x128_1_0_0_1_n_n).contr.rank = 1 := rfl
  have hs : (dot_S100000x128_S128x128_S100000x128_1_0_0_1_n_n).contr.size ⟨0, by omega⟩ = 128 := rfl
  rw [← Equiv.sum_comp (contrEquiv1 dot_S100000x128_S128x128_S100000x128_1_0_0_1_n_n 128 hr hs).symm]
  refine Finset.sum_congr rfl fun k _ => ?_
  have hk := contrEquiv1_symm_val dot_S100000x128_S128x128_S100000x128_1_0_0_1_n_n 128 hr hs k
  have hl : (dot_S100000x128_S128x128_S100000x128_1_0_0_1_n_n).lhsIdx i
      ((contrEquiv1 dot_S100000x128_S128x128_S100000x128_1_0_0_1_n_n 128 hr hs).symm k) = ix2 (i 0) k := by
    funext a
    match a with
    | ⟨0, _⟩ => exact Fin.ext rfl
    | ⟨1, _⟩ => exact Fin.ext hk
  have hw : (dot_S100000x128_S128x128_S100000x128_1_0_0_1_n_n).rhsIdx i
      ((contrEquiv1 dot_S100000x128_S128x128_S100000x128_1_0_0_1_n_n 128 hr hs).symm k) = ix2 k (i 1) := by
    funext a
    match a with
    | ⟨0, _⟩ => exact Fin.ext hk
    | ⟨1, _⟩ => exact Fin.ext rfl
  rw [hl, hw]
  rfl

/-- A dense layer with a bias: the product plus the bias vector repeated over the nodes is the linear map
    with the bias laid out as a row. -/
theorem dense_bias_eq (x : FVec Ideal S100000x128 .f32) (w : FVec Ideal S128x128 .f32) (b : FVec Ideal S128 .f32) :
    addf (Host.dotGeneral (F := Ideal) dot_S100000x128_S128x128_S100000x128_1_0_0_1_n_n none x w)
        (broadcastInDim S100000x128 ![0, 1] bcast_S1x128_S100000x128_0_1
          (broadcastInDim S1x128 ![1] bcast_S128_S1x128_1 b))
      = Cert.Gcn.linear x w (Cert.Gcn.rowOf b) := by
  funext i
  rw [addf_apply, dot_apply, bcast_vec_nodes_apply]
  rfl

/-- A dense layer without a bias is the linear map with the zero row. -/
theorem dense_eq (x : FVec Ideal S100000x128 .f32) (w : FVec Ideal S128x128 .f32) :
    Host.dotGeneral (F := Ideal) dot_S100000x128_S128x128_S100000x128_1_0_0_1_n_n none x w
      = Cert.Gcn.linear x w (fun _ => 0) := by
  funext i
  rw [dot_apply]
  exact (add_zero _).symm

/-! ## The mean of a column -/

/-- The sum of an array over its nodes, from the zero constant, at a channel. -/
theorem reduce_nodes_apply (z : FVec Ideal S100000x128 .f32) (j : S128.Idx) :
    Host.reduceAdd (F := Ideal) z (constant S_ .f32 0x00000000#32) reducesTo_S100000x128_S128_d0 h_S_ j
      = Cert.Gcn.colSumAt z (j 0) := by
  rw [hostReduceAdd_apply, constant_apply, Ideal.ofBits_zero_f32,
    Ideal.hostReduceAdd_single reducesTo_S100000x128_S128_d0 (by decide), zero_add]
  refine Finset.sum_congr rfl fun r _ => congrArg z ?_
  funext a
  match a with
  | ⟨0, _⟩ => rfl
  | ⟨1, _⟩ => rfl

/-- The number of nodes repeated over the channels. -/
theorem bcast_nNodes_apply (j : S128.Idx) :
    broadcastInDim S128 ![] bcast_S_S128 (constant (F := Ideal) S_ .f32 0x47C35000#32) j = Cert.Gcn.nNodes := by
  rw [broadcastInDim_scalar_apply, constant_apply]; rfl

/-- The sum over the nodes divided by their number is the column's mean. -/
theorem mean_eq (z : FVec Ideal S100000x128 .f32) :
    Host.divf (Host.reduceAdd (F := Ideal) z (constant S_ .f32 0x00000000#32) reducesTo_S100000x128_S128_d0 h_S_)
        (broadcastInDim S128 ![] bcast_S_S128 (constant S_ .f32 0x47C35000#32))
      = fun j => Cert.Gcn.meanAt z (j 0) := by
  funext j
  rw [hostDivf_apply, reduce_nodes_apply, bcast_nNodes_apply]
  rfl

/-! ## The variance of a column, as the reference's variance function computes it -/

/-- The variance function's operations, composed in its order: the sum over the nodes and the mean as a row,
    the deviations and their squares, the divisor (the number of nodes minus a correction read from an
    integer scalar), the quotient, and the choice of the quotient where the divisor is positive. -/
def varOps (z : FVec Ideal S100000x128 .f32) (ddof : IVec S_ 32) : FVec Ideal S128 .f32 :=
  select (broadcastInDim S128 ![] bcast_S_S128 (cmpf .ogt (subf (constant (F := Ideal) S_ .f32 0x47C35000#32) (sitofp .f32 ddof)) (constant (F := Ideal) S_ .f32 0x00000000#32)))
    (Host.divf (Host.reduceAdd (F := Ideal) (mulf (subf z (broadcastInDim S100000x128 ![0, 1] bcast_S1x128_S100000x128_0_1 (Host.divf (broadcastInDim S1x128 ![1] bcast_S128_S1x128_1 (Host.reduceAdd (F := Ideal) z (constant (F := Ideal) S_ .f32 0x00000000#32) reducesTo_S100000x128_S128_d0 h_S_)) (broadcastInDim S1x128 ![] bcast_S_S1x128 (constant (F := Ideal) S_ .f32 0x47C35000#32))))) (subf z (broadcastInDim S100000x128 ![0, 1] bcast_S1x128_S100000x128_0_1 (Host.divf (broadcastInDim S1x128 ![1] bcast_S128_S1x128_1 (Host.reduceAdd (F := Ideal) z (constant (F := Ideal) S_ .f32 0x00000000#32) reducesTo_S100000x128_S128_d0 h_S_)) (broadcastInDim S1x128 ![] bcast_S_S1x128 (constant (F := Ideal) S_ .f32 0x47C35000#32)))))) (constant (F := Ideal) S_ .f32 0x00000000#32) reducesTo_S100000x128_S128_d0 h_S_) (broadcastInDim S128 ![] bcast_S_S128 (subf (constant (F := Ideal) S_ .f32 0x47C35000#32) (sitofp .f32 ddof))))
    (broadcastInDim S128 ![] bcast_S_S128 (id (constant (F := Ideal) S_ .f32 0x7FC00000#32)))

/-- The divisor with no correction is the number of nodes. -/
theorem divisor_apply (k : S_.Idx) :
    subf (constant (F := Ideal) S_ .f32 0x47C35000#32) (sitofp .f32 (constantI S_ 32 0#32)) k = Cert.Gcn.nNodes := by
  rw [subf_apply, constant_apply, sitofp_apply, constantI_apply]
  show Ideal.ofBits .f32 0x47C35000#32 - (((0#32 : BitVec 32).toInt : ℝ) : EReal) = Cert.Gcn.nNodes
  simp
  rfl

/-- The number of nodes is positive, so the comparison with zero answers one. -/
theorem nNodes_gt_zero : FloatOps.cmpf (F := Ideal) (φ := .f32) .ogt Cert.Gcn.nNodes 0 = 1#1 := by
  rw [Ideal.cmpf_def, Cert.Gcn.nNodes_eq]
  have h : (0 : EReal) < ((100000 : ℝ) : EReal) := by exact_mod_cast (by norm_num : (0 : ℝ) < 100000)
  simp [Ideal.cmp, h]

/-- With no correction, the variance function gives the two-pass variance of each column. -/
theorem varOps_eq (z : FVec Ideal S100000x128 .f32) :
    varOps z (constantI S_ 32 0#32) = fun j => Cert.Gcn.varTwoPassAt z (j 0) := by
  funext j
  unfold varOps
  rw [select_apply, broadcastInDim_scalar_apply, cmpf_apply, divisor_apply, constant_apply, Ideal.ofBits_zero_f32,
    nNodes_gt_zero, select_one, hostDivf_apply, broadcastInDim_scalar_apply, divisor_apply, reduce_nodes_apply]
  unfold Cert.Gcn.varTwoPassAt Cert.Gcn.colSumAt
  refine congrArg (fun s => Ideal.div s Cert.Gcn.nNodes) (Finset.sum_congr rfl fun r _ => ?_)
  rw [mulf_apply, subf_apply, bcast_row_nodes_apply, hostDivf_apply, bcast_vec_row_apply, reduce_nodes_apply,
    broadcastInDim_scalar_apply, constant_apply]
  rfl

/-! ## Slices of one layer out of a stack, and the casts that drop or add the unit axis -/

/-- A stack of matrices cut to its layer o reads, at (0, a, b), the stack at (o, a, b). -/
theorem slice3_layer_apply {α : Type} {n0 n1 n2 : Nat} (o : Nat) (X : (⟨3, ![n0, n1, n2]⟩ : Shape).Idx → α)
    (h : (⟨3, ![n0, n1, n2]⟩ : Shape).Slices ![o, 0, 0] ⟨3, ![1, n1, n2]⟩)
    (u : Fin 1) (a : Fin n1) (b : Fin n2) (k : Fin n0) (hk : k.val = o) :
    extractStridedSlice ⟨3, ![1, n1, n2]⟩ ![o, 0, 0] X h (ix3 u a b) = X (ix3 k a b) :=
  extractStridedSlice_apply _ _ _ _ _ (fun ax => by
    match ax with
    | ⟨0, _⟩ =>
      have hu : u.val = 0 := by omega
      show k.val = o + u.val
      rw [hk, hu, Nat.add_zero]
    | ⟨1, _⟩ => exact (Nat.zero_add _).symm
    | ⟨2, _⟩ => exact (Nat.zero_add _).symm)

/-- Layer o of a stack of matrices, as a matrix. -/
theorem layer_matrix_eq {α : Type} {n0 n1 n2 : Nat} (o : Nat) (X : (⟨3, ![n0, n1, n2]⟩ : Shape).Idx → α)
    (h : (⟨3, ![n0, n1, n2]⟩ : Shape).Slices ![o, 0, 0] ⟨3, ![1, n1, n2]⟩)
    (hc : (⟨3, ![1, n1, n2]⟩ : Shape).ShapeCasts ⟨2, ![n1, n2]⟩) (k : Fin n0) (hk : k.val = o) :
    shapeCast ⟨2, ![n1, n2]⟩ (extractStridedSlice ⟨3, ![1, n1, n2]⟩ ![o, 0, 0] X h) hc
      = fun i => X (ix3 k (i 0) (i 1)) := by
  funext i
  obtain ⟨a, b, rfl⟩ : ∃ a b, i = ix2 a b := ⟨i 0, i 1, eq_ix2 i⟩
  rw [shapeCast_1ab_ab_apply, slice3_layer_apply o X h 0 a b k hk]
  rfl

/-- Row o of a stack of vectors, as a vector. -/
theorem layer_vector_eq {α : Type} {n0 n1 : Nat} (o : Nat) (X : (⟨2, ![n0, n1]⟩ : Shape).Idx → α)
    (h : (⟨2, ![n0, n1]⟩ : Shape).Slices ![o, 0] ⟨2, ![1, n1]⟩)
    (hc : (⟨2, ![1, n1]⟩ : Shape).ShapeCasts ⟨1, ![n1]⟩) (k : Fin n0) (hk : k.val = o) :
    shapeCast ⟨1, ![n1]⟩ (extractStridedSlice ⟨2, ![1, n1]⟩ ![o, 0] X h) hc
      = fun j => X (ix2 k (j 0)) := by
  funext j
  obtain ⟨a, rfl⟩ : ∃ a, j = ix1 a := ⟨j 0, eq_ix1 j⟩
  rw [shapeCast_1a_a_apply, slice2_axis0_apply o X h 0 a k (by rw [hk]; rfl)]
  rfl

/-- A vector cast to one row reads, at (0, c), the vector at c. -/
theorem vector_row_eq {α : Type} {n : Nat} (x : (⟨1, ![n]⟩ : Shape).Idx → α)
    (h : (⟨1, ![n]⟩ : Shape).ShapeCasts ⟨2, ![1, n]⟩) :
    shapeCast ⟨2, ![1, n]⟩ x h = fun j => x (ix1 (j 1)) := by
  funext j
  obtain ⟨u, a, rfl⟩ : ∃ u a, j = ix2 u a := ⟨j 0, j 1, eq_ix2 j⟩
  rw [shapeCast_a_1a_apply]
  rfl

/-! ## Normalise, clamp at zero, add the layer's input back -/

/-- The normalisation as the reference composes it, at an entry. -/
theorem norm_apply (z : FVec Ideal S100000x128 .f32) (mean var g be : FVec Ideal S128 .f32) (i : S100000x128.Idx) :
    (addf (mulf (mulf (subf z (broadcastInDim S100000x128 ![0, 1] bcast_S1x128_S100000x128_0_1 (broadcastInDim S1x128 ![1] bcast_S128_S1x128_1 mean))) (broadcastInDim S100000x128 ![0, 1] bcast_S1x128_S100000x128_0_1 (broadcastInDim S1x128 ![1] bcast_S128_S1x128_1 (Host.rsqrt (addf var (broadcastInDim S128 ![] bcast_S_S128 (constant (F := Ideal) S_ .f32 0x3727C5AC#32))))))) (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 be))) i
      = Cert.Gcn.normAt (z i) (mean (ix1 (i 1))) (var (ix1 (i 1))) (g (ix1 (i 1))) (be (ix1 (i 1))) := by
  rw [addf_apply, mulf_apply, mulf_apply, subf_apply, bcast_vec_nodes_apply, bcast_vec_nodes_apply,
    bcast_vec_nodes_apply, bcast_vec_nodes_apply]
  rfl

/-- The encoder's form: normalise, then the maximum with the zero array. -/
theorem norm_relu_eq (z : FVec Ideal S100000x128 .f32) (mean var g be : FVec Ideal S128 .f32) :
    maximumf (addf (mulf (mulf (subf z (broadcastInDim S100000x128 ![0, 1] bcast_S1x128_S100000x128_0_1 (broadcastInDim S1x128 ![1] bcast_S128_S1x128_1 mean))) (broadcastInDim S100000x128 ![0, 1] bcast_S1x128_S100000x128_0_1 (broadcastInDim S1x128 ![1] bcast_S128_S1x128_1 (Host.rsqrt (addf var (broadcastInDim S128 ![] bcast_S_S128 (constant (F := Ideal) S_ .f32 0x3727C5AC#32))))))) (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 be)))
      (broadcastInDim S100000x128 ![] bcast_S_S100000x128 (constant (F := Ideal) S_ .f32 0x00000000#32))
      = fun i => max (Cert.Gcn.normAt (z i) (mean (ix1 (i 1))) (var (ix1 (i 1))) (g (ix1 (i 1))) (be (ix1 (i 1)))) 0 := by
  funext i
  rw [maximumf_apply, norm_apply, broadcastInDim_scalar_apply, constant_apply, Ideal.ofBits_zero_f32]

/-- A layer's form: the same added to the layer's input. -/
theorem norm_relu_res_eq (z h : FVec Ideal S100000x128 .f32) (mean var g be : FVec Ideal S128 .f32) :
    addf h (maximumf (addf (mulf (mulf (subf z (broadcastInDim S100000x128 ![0, 1] bcast_S1x128_S100000x128_0_1 (broadcastInDim S1x128 ![1] bcast_S128_S1x128_1 mean))) (broadcastInDim S100000x128 ![0, 1] bcast_S1x128_S100000x128_0_1 (broadcastInDim S1x128 ![1] bcast_S128_S1x128_1 (Host.rsqrt (addf var (broadcastInDim S128 ![] bcast_S_S128 (constant (F := Ideal) S_ .f32 0x3727C5AC#32))))))) (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 be)))
      (broadcastInDim S100000x128 ![] bcast_S_S100000x128 (constant (F := Ideal) S_ .f32 0x00000000#32)))
      = fun i => h i + max (Cert.Gcn.normAt (z i) (mean (ix1 (i 1))) (var (ix1 (i 1))) (g (ix1 (i 1))) (be (ix1 (i 1)))) 0 := by
  funext i
  rw [addf_apply, norm_relu_eq]

/-! ## A layer's bias add, and a layer's parameters out of their stacks -/

/-- Adding a bias vector repeated over the nodes is adding the bias laid out as a row. -/
theorem bias_add_eq (agg : FVec Ideal S100000x128 .f32) (bias : FVec Ideal S128 .f32) :
    addf agg (broadcastInDim S100000x128 ![0, 1] bcast_S1x128_S100000x128_0_1
        (broadcastInDim S1x128 ![1] bcast_S128_S1x128_1 bias))
      = Cert.Gcn.addRow agg (Cert.Gcn.rowOf bias) := by
  funext i
  rw [addf_apply, bcast_vec_nodes_apply]
  rfl

/-- Layer 0, 1, 2 of a stack of three vectors of channels. -/
theorem vec_layer0_eq {α : Type} (arg : S3x128.Idx → α) :
    shapeCast S128 (extractStridedSlice S1x128 ![0, 0] arg slices_S3x128_S1x128_0_0) shapeCasts_S1x128_S128
      = fun j => arg (ix2 0 (j 0)) := layer_vector_eq 0 arg _ _ 0 rfl
theorem vec_layer1_eq {α : Type} (arg : S3x128.Idx → α) :
    shapeCast S128 (extractStridedSlice S1x128 ![1, 0] arg slices_S3x128_S1x128_1_0) shapeCasts_S1x128_S128
      = fun j => arg (ix2 1 (j 0)) := layer_vector_eq 1 arg _ _ 1 rfl
theorem vec_layer2_eq {α : Type} (arg : S3x128.Idx → α) :
    shapeCast S128 (extractStridedSlice S1x128 ![2, 0] arg slices_S3x128_S1x128_2_0) shapeCasts_S1x128_S128
      = fun j => arg (ix2 2 (j 0)) := layer_vector_eq 2 arg _ _ 2 rfl

/-- Layer 0, 1, 2 of a stack of three weight matrices. -/
theorem mat_layer0_eq {α : Type} (w : S3x128x128.Idx → α) :
    shapeCast S128x128 (extractStridedSlice S1x128x128 ![0, 0, 0] w slices_S3x128x128_S1x128x128_0_0_0)
        shapeCasts_S1x128x128_S128x128
      = fun i => w (ix3 0 (i 0) (i 1)) := layer_matrix_eq 0 w _ _ 0 rfl
theorem mat_layer1_eq {α : Type} (w : S3x128x128.Idx → α) :
    shapeCast S128x128 (extractStridedSlice S1x128x128 ![1, 0, 0] w slices_S3x128x128_S1x128x128_1_0_0)
        shapeCasts_S1x128x128_S128x128
      = fun i => w (ix3 1 (i 0) (i 1)) := layer_matrix_eq 1 w _ _ 1 rfl
theorem mat_layer2_eq {α : Type} (w : S3x128x128.Idx → α) :
    shapeCast S128x128 (extractStridedSlice S1x128x128 ![2, 0, 0] w slices_S3x128x128_S1x128x128_2_0_0)
        shapeCasts_S1x128x128_S128x128
      = fun i => w (ix3 2 (i 0) (i 1)) := layer_matrix_eq 2 w _ _ 2 rfl

end Cert.ReferenceIdeal.OpsRead

end
-- ==== Proof.RefRead.lean ====
/-
  The fold of the reference's operations, read segment by segment.

  The run of the reference ends with every buffer at the fold of the operations over the launch contents. Here the
  fold is cut at the ends of the eighteen segments: `U k` is what the buffers hold after the first k segments, and
  for each value the mathematics names there is a lemma that reads it off its own segment alone, from any contents
  `W` before the segment, as a function of the buffers the segment reads. The linear maps, the column means and
  variances, and the normalise-clamp-add chains are stated with the functions of the shared specification; the
  gather and scatter chains and the readout are left as the operations the program prints.
-/
import proofs.«136606_j68719476736452_2_alg».proof.Proof.RefRun
import proofs.«136606_j68719476736452_2_alg».proof.Proof.Spec
import proofs.«136606_j68719476736452_2_alg».proof.Proof.RefOps
import Idealize.ShloMosaic.Lib.Pipeline.Frame
import Idealize.ShloMosaic.Lib.IdealHost
import Idealize.ShloMosaic.Lib.ValueIdx
import Idealize.ShloMosaic.Lib.ValueLayout

noncomputable section

namespace Cert.ReferenceIdeal.HandRun

open Cert.ReferenceIdeal Cert.ReferenceIdeal.Gen Idealize.ShloMosaic Idealize.ShloMosaic.TcCoe Idealize.SL.Sem Idealize.ShloMosaic.StableHlo

open Cert.Gcn Idealize.ShloMosaic.ValueIdx
open scoped BigOperators

/-- The contents of one device's buffers, at the ideal values. -/
abbrev Val : Type := Valuation τ sig (Elt Ideal)

/-- An array of node features named at its type, so that its entries are extended reals where they are added. -/
abbrev nd (x : FVec Ideal S100000x128 .f32) : Snd.Idx → EReal := x

/-! ## The contents at the segments' ends -/

/-- What the buffers hold before the first segment: the launch contents. -/
def U0 (V : Val) : Val := V
/-- What the buffers hold after segment 0. -/
def U1 (V : Val) : Val := after seg0 (U0 V)
/-- What the buffers hold after segment 1. -/
def U2 (V : Val) : Val := after seg1 (U1 V)
/-- What the buffers hold after segment 2. -/
def U3 (V : Val) : Val := after seg2 (U2 V)
/-- What the buffers hold after segment 3. -/
def U4 (V : Val) : Val := after seg3 (U3 V)
/-- What the buffers hold after segment 4. -/
def U5 (V : Val) : Val := after seg4 (U4 V)
/-- What the buffers hold after segment 5. -/
def U6 (V : Val) : Val := after seg5 (U5 V)
/-- What the buffers hold after segment 6. -/
def U7 (V : Val) : Val := after seg6 (U6 V)
/-- What the buffers hold after segment 7. -/
def U8 (V : Val) : Val := after seg7 (U7 V)
/-- What the buffers hold after segment 8. -/
def U9 (V : Val) : Val := after seg8 (U8 V)
/-- What the buffers hold after segment 9. -/
def U10 (V : Val) : Val := after seg9 (U9 V)
/-- What the buffers hold after segment 10. -/
def U11 (V : Val) : Val := after seg10 (U10 V)
/-- What the buffers hold after segment 11. -/
def U12 (V : Val) : Val := after seg11 (U11 V)
/-- What the buffers hold after segment 12. -/
def U13 (V : Val) : Val := after seg12 (U12 V)
/-- What the buffers hold after segment 13. -/
def U14 (V : Val) : Val := after seg13 (U13 V)
/-- What the buffers hold after segment 14. -/
def U15 (V : Val) : Val := after seg14 (U14 V)
/-- What the buffers hold after segment 15. -/
def U16 (V : Val) : Val := after seg15 (U15 V)
/-- What the buffers hold after segment 16. -/
def U17 (V : Val) : Val := after seg16 (U16 V)
/-- What the buffers hold after segment 17. -/
def U18 (V : Val) : Val := after seg17 (U17 V)

/-- The fold of the whole line is the fold of the segments one after the other. -/
theorem after_ops (V : Val) : after ops V = U18 V := by
  simp only [ops, after_append]
  rfl

/-! ## What a segment leaves alone

Each segment writes its own buffers (one per operation) and no other: a buffer that is not among them holds after
the segment what it held before. -/

/-- The buffers segment 0 writes. -/
abbrev seg0_W : List (Ref sig .tc) := [main_v0, main_v1, main_v2, main_v3, main_cst, main_v4, main_cst_0, main_v5, main_v6, main_v7, main_cst_1, main_v8, main_v9, main_cst_2, main_v10, main_v11, main_v12, main_cst_3, main_call0_v0, main_call0_v1, main_v13, main_c, main_v14, main_v15, main_c_4, main_v16, main_v17, main_v18, main_v19, main_v20, main_c_5, main_v21, main_v22, main_c_6, main_v23, main_v24, main_v25, main_v26, main_v27, main_v28, main_v29]
set_option maxRecDepth 8192 in
theorem seg0_writes : (seg0 : List (HloOp τ sig (Elt Ideal))).Forall fun op => op.writes ⊆ (seg0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 0 does not write keeps its contents through it. -/
theorem seg0_keep (W : Val) (r : Ref sig .tc) (h : r ∉ seg0_W) :
    after seg0 W (Proc.devRef .tc r) = W (Proc.devRef .tc r) :=
  after_of_writes_sub seg0 W seg0_writes h

/-- The buffers segment 1 writes. -/
abbrev seg1_W : List (Ref sig .tc) := [main_v30, main_v31, main_v32, main_v33]
set_option maxRecDepth 8192 in
theorem seg1_writes : (seg1 : List (HloOp τ sig (Elt Ideal))).Forall fun op => op.writes ⊆ (seg1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 1 does not write keeps its contents through it. -/
theorem seg1_keep (W : Val) (r : Ref sig .tc) (h : r ∉ seg1_W) :
    after seg1 W (Proc.devRef .tc r) = W (Proc.devRef .tc r) :=
  after_of_writes_sub seg1 W seg1_writes h

/-- The buffers segment 2 writes. -/
abbrev seg2_W : List (Ref sig .tc) := [main_cst_7, main_v34, main_cst_8, main_v35, main_v36, main_c_9, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v37]
set_option maxRecDepth 8192 in
theorem seg2_writes : (seg2 : List (HloOp τ sig (Elt Ideal))).Forall fun op => op.writes ⊆ (seg2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 2 does not write keeps its contents through it. -/
theorem seg2_keep (W : Val) (r : Ref sig .tc) (h : r ∉ seg2_W) :
    after seg2 W (Proc.devRef .tc r) = W (Proc.devRef .tc r) :=
  after_of_writes_sub seg2 W seg2_writes h

/-- The buffers segment 3 writes. -/
abbrev seg3_W : List (Ref sig .tc) := [main_v38, main_v39, main_v40, main_cst_10, main_v41, main_v42, main_v43, main_v44, main_v45, main_v46, main_v47, main_v48, main_v49, main_v50, main_v51, main_v52, main_call2_cst, main_call2_v0, main_v53]
set_option maxRecDepth 8192 in
theorem seg3_writes : (seg3 : List (HloOp τ sig (Elt Ideal))).Forall fun op => op.writes ⊆ (seg3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 3 does not write keeps its contents through it. -/
theorem seg3_keep (W : Val) (r : Ref sig .tc) (h : r ∉ seg3_W) :
    after seg3 W (Proc.devRef .tc r) = W (Proc.devRef .tc r) :=
  after_of_writes_sub seg3 W seg3_writes h

/-- The buffers segment 4 writes. -/
abbrev seg4_W : List (Ref sig .tc) := [main_v54, main_v55, main_v56, main_v57]
set_option maxRecDepth 8192 in
theorem seg4_writes : (seg4 : List (HloOp τ sig (Elt Ideal))).Forall fun op => op.writes ⊆ (seg4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 4 does not write keeps its contents through it. -/
theorem seg4_keep (W : Val) (r : Ref sig .tc) (h : r ∉ seg4_W) :
    after seg4 W (Proc.devRef .tc r) = W (Proc.devRef .tc r) :=
  after_of_writes_sub seg4 W seg4_writes h

/-- The buffers segment 5 writes. -/
abbrev seg5_W : List (Ref sig .tc) := [main_v58, main_v59, main_v60]
set_option maxRecDepth 8192 in
theorem seg5_writes : (seg5 : List (HloOp τ sig (Elt Ideal))).Forall fun op => op.writes ⊆ (seg5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 5 does not write keeps its contents through it. -/
theorem seg5_keep (W : Val) (r : Ref sig .tc) (h : r ∉ seg5_W) :
    after seg5 W (Proc.devRef .tc r) = W (Proc.devRef .tc r) :=
  after_of_writes_sub seg5 W seg5_writes h

/-- The buffers segment 6 writes. -/
abbrev seg6_W : List (Ref sig .tc) := [main_c_11, main_v61, main_v62, main_c_12, main_v63, main_v64, main_v65, main_v66, main_v67, main_v68, main_v69, main_cst_13, main_v70, main_v71, main_v72, main_v73, main_v74, main_v75, main_v76, main_v77, main_v78, main_v79, main_v80, main_v81]
set_option maxRecDepth 8192 in
theorem seg6_writes : (seg6 : List (HloOp τ sig (Elt Ideal))).Forall fun op => op.writes ⊆ (seg6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 6 does not write keeps its contents through it. -/
theorem seg6_keep (W : Val) (r : Ref sig .tc) (h : r ∉ seg6_W) :
    after seg6 W (Proc.devRef .tc r) = W (Proc.devRef .tc r) :=
  after_of_writes_sub seg6 W seg6_writes h

/-- The buffers segment 7 writes. -/
abbrev seg7_W : List (Ref sig .tc) := [main_cst_14, main_v82, main_cst_15, main_v83, main_v84, main_c_16, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v85]
set_option maxRecDepth 8192 in
theorem seg7_writes : (seg7 : List (HloOp τ sig (Elt Ideal))).Forall fun op => op.writes ⊆ (seg7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 7 does not write keeps its contents through it. -/
theorem seg7_keep (W : Val) (r : Ref sig .tc) (h : r ∉ seg7_W) :
    after seg7 W (Proc.devRef .tc r) = W (Proc.devRef .tc r) :=
  after_of_writes_sub seg7 W seg7_writes h

/-- The buffers segment 8 writes. -/
abbrev seg8_W : List (Ref sig .tc) := [main_v86, main_v87, main_v88, main_cst_17, main_v89, main_v90, main_v91, main_v92, main_v93, main_v94, main_v95, main_v96, main_v97, main_v98, main_v99, main_v100, main_call4_cst, main_call4_v0, main_v101, main_v102]
set_option maxRecDepth 8192 in
theorem seg8_writes : (seg8 : List (HloOp τ sig (Elt Ideal))).Forall fun op => op.writes ⊆ (seg8_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 8 does not write keeps its contents through it. -/
theorem seg8_keep (W : Val) (r : Ref sig .tc) (h : r ∉ seg8_W) :
    after seg8 W (Proc.devRef .tc r) = W (Proc.devRef .tc r) :=
  after_of_writes_sub seg8 W seg8_writes h

/-- The buffers segment 9 writes. -/
abbrev seg9_W : List (Ref sig .tc) := [main_v103, main_v104, main_v105]
set_option maxRecDepth 8192 in
theorem seg9_writes : (seg9 : List (HloOp τ sig (Elt Ideal))).Forall fun op => op.writes ⊆ (seg9_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 9 does not write keeps its contents through it. -/
theorem seg9_keep (W : Val) (r : Ref sig .tc) (h : r ∉ seg9_W) :
    after seg9 W (Proc.devRef .tc r) = W (Proc.devRef .tc r) :=
  after_of_writes_sub seg9 W seg9_writes h

/-- The buffers segment 10 writes. -/
abbrev seg10_W : List (Ref sig .tc) := [main_c_18, main_v106, main_v107, main_c_19, main_v108, main_v109, main_v110, main_v111, main_v112, main_v113, main_v114, main_cst_20, main_v115, main_v116, main_v117, main_v118, main_v119, main_v120, main_v121, main_v122, main_v123, main_v124, main_v125, main_v126]
set_option maxRecDepth 8192 in
theorem seg10_writes : (seg10 : List (HloOp τ sig (Elt Ideal))).Forall fun op => op.writes ⊆ (seg10_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 10 does not write keeps its contents through it. -/
theorem seg10_keep (W : Val) (r : Ref sig .tc) (h : r ∉ seg10_W) :
    after seg10 W (Proc.devRef .tc r) = W (Proc.devRef .tc r) :=
  after_of_writes_sub seg10 W seg10_writes h

/-- The buffers segment 11 writes. -/
abbrev seg11_W : List (Ref sig .tc) := [main_cst_21, main_v127, main_cst_22, main_v128, main_v129, main_c_23, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v130]
set_option maxRecDepth 8192 in
theorem seg11_writes : (seg11 : List (HloOp τ sig (Elt Ideal))).Forall fun op => op.writes ⊆ (seg11_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 11 does not write keeps its contents through it. -/
theorem seg11_keep (W : Val) (r : Ref sig .tc) (h : r ∉ seg11_W) :
    after seg11 W (Proc.devRef .tc r) = W (Proc.devRef .tc r) :=
  after_of_writes_sub seg11 W seg11_writes h

/-- The buffers segment 12 writes. -/
abbrev seg12_W : List (Ref sig .tc) := [main_v131, main_v132, main_v133, main_cst_24, main_v134, main_v135, main_v136, main_v137, main_v138, main_v139, main_v140, main_v141, main_v142, main_v143, main_v144, main_v145, main_call6_cst, main_call6_v0, main_v146, main_v147]
set_option maxRecDepth 8192 in
theorem seg12_writes : (seg12 : List (HloOp τ sig (Elt Ideal))).Forall fun op => op.writes ⊆ (seg12_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 12 does not write keeps its contents through it. -/
theorem seg12_keep (W : Val) (r : Ref sig .tc) (h : r ∉ seg12_W) :
    after seg12 W (Proc.devRef .tc r) = W (Proc.devRef .tc r) :=
  after_of_writes_sub seg12 W seg12_writes h

/-- The buffers segment 13 writes. -/
abbrev seg13_W : List (Ref sig .tc) := [main_v148, main_v149, main_v150]
set_option maxRecDepth 8192 in
theorem seg13_writes : (seg13 : List (HloOp τ sig (Elt Ideal))).Forall fun op => op.writes ⊆ (seg13_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 13 does not write keeps its contents through it. -/
theorem seg13_keep (W : Val) (r : Ref sig .tc) (h : r ∉ seg13_W) :
    after seg13 W (Proc.devRef .tc r) = W (Proc.devRef .tc r) :=
  after_of_writes_sub seg13 W seg13_writes h

/-- The buffers segment 14 writes. -/
abbrev seg14_W : List (Ref sig .tc) := [main_c_25, main_v151, main_v152, main_c_26, main_v153, main_v154, main_v155, main_v156, main_v157, main_v158, main_v159, main_cst_27, main_v160, main_v161, main_v162, main_v163, main_v164, main_v165, main_v166, main_v167, main_v168, main_v169, main_v170, main_v171]
set_option maxRecDepth 8192 in
theorem seg14_writes : (seg14 : List (HloOp τ sig (Elt Ideal))).Forall fun op => op.writes ⊆ (seg14_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 14 does not write keeps its contents through it. -/
theorem seg14_keep (W : Val) (r : Ref sig .tc) (h : r ∉ seg14_W) :
    after seg14 W (Proc.devRef .tc r) = W (Proc.devRef .tc r) :=
  after_of_writes_sub seg14 W seg14_writes h

/-- The buffers segment 15 writes. -/
abbrev seg15_W : List (Ref sig .tc) := [main_cst_28, main_v172, main_cst_29, main_v173, main_v174, main_c_30, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v175]
set_option maxRecDepth 8192 in
theorem seg15_writes : (seg15 : List (HloOp τ sig (Elt Ideal))).Forall fun op => op.writes ⊆ (seg15_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 15 does not write keeps its contents through it. -/
theorem seg15_keep (W : Val) (r : Ref sig .tc) (h : r ∉ seg15_W) :
    after seg15 W (Proc.devRef .tc r) = W (Proc.devRef .tc r) :=
  after_of_writes_sub seg15 W seg15_writes h

/-- The buffers segment 16 writes. -/
abbrev seg16_W : List (Ref sig .tc) := [main_v176, main_v177, main_v178, main_cst_31, main_v179, main_v180, main_v181, main_v182, main_v183, main_v184, main_v185, main_v186, main_v187, main_v188, main_v189, main_v190, main_call8_cst, main_call8_v0, main_v191, main_v192]
set_option maxRecDepth 8192 in
theorem seg16_writes : (seg16 : List (HloOp τ sig (Elt Ideal))).Forall fun op => op.writes ⊆ (seg16_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 16 does not write keeps its contents through it. -/
theorem seg16_keep (W : Val) (r : Ref sig .tc) (h : r ∉ seg16_W) :
    after seg16 W (Proc.devRef .tc r) = W (Proc.devRef .tc r) :=
  after_of_writes_sub seg16 W seg16_writes h

/-- The buffers segment 17 writes. -/
abbrev seg17_W : List (Ref sig .tc) := [main_cst_32, main_v193, main_v194, main_v195, main_v196, main_v197, main_v198, main_v199, main_call9_cst, main_call9_v0, main_v200, main_v201, main_v202, main_v203, main_v204, main_call10_cst, main_call10_v0, main_v205, main_v206, main_v207, main_v208, main_v209]
set_option maxRecDepth 8192 in
theorem seg17_writes : (seg17 : List (HloOp τ sig (Elt Ideal))).Forall fun op => op.writes ⊆ (seg17_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 17 does not write keeps its contents through it. -/
theorem seg17_keep (W : Val) (r : Ref sig .tc) (h : r ∉ seg17_W) :
    after seg17 W (Proc.devRef .tc r) = W (Proc.devRef .tc r) :=
  after_of_writes_sub seg17 W seg17_writes h

/-! ## Each named value read off its own segment, as the operations the program prints

From any contents `W` before the segment, the buffer holds the segment's operations composed, applied to what `W`
holds at the buffers the segment reads. The casts the called functions put around their values are the identity. -/

set_option maxRecDepth 8192 in
set_option maxHeartbeats 1000000 in
theorem seg0_v1_raw (W : Val) :
    after seg0 W (main_v1 : DevRef τ sig)
      = (shapeCast S640000 (extractStridedSlice S1x640000 ![0, 0] ((W (main_arg1 : DevRef τ sig) : IVec S2x640000 32)) slices_S2x640000_S1x640000_0_0) shapeCasts_S1x640000_S640000 : IVec S640000 32) := by
  simp only [seg0]
  after_results_simp
  all_goals rfl

set_option maxRecDepth 8192 in
set_option maxHeartbeats 1000000 in
theorem seg0_v3_raw (W : Val) :
    after seg0 W (main_v3 : DevRef τ sig)
      = (shapeCast S640000 (extractStridedSlice S1x640000 ![1, 0] ((W (main_arg1 : DevRef τ sig) : IVec S2x640000 32)) slices_S2x640000_S1x640000_1_0) shapeCasts_S1x640000_S640000 : IVec S640000 32) := by
  simp only [seg0]
  after_results_simp
  all_goals rfl

set_option maxRecDepth 8192 in
set_option maxHeartbeats 1000000 in
theorem seg1_v33_raw (W : Val) :
    after seg1 W (main_v33 : DevRef τ sig)
      = (addf (Host.dotGeneral (F := Ideal) (φ₁ := .f32) (φ₂ := .f32) dot_S100000x128_S128x128_S100000x128_1_0_0_1_n_n none ((W (main_arg0 : DevRef τ sig) : FVec Ideal S100000x128 .f32)) ((W (main_arg3 : DevRef τ sig) : FVec Ideal S128x128 .f32))) (broadcastInDim S100000x128 ![0, 1] bcast_S1x128_S100000x128_0_1 (broadcastInDim S1x128 ![1] bcast_S128_S1x128_1 ((W (main_arg4 : DevRef τ sig) : FVec Ideal S128 .f32)))) : FVec Ideal S100000x128 .f32) := by
  simp only [seg1]
  after_results_simp
  all_goals rfl

set_option maxRecDepth 8192 in
set_option maxHeartbeats 1000000 in
theorem seg2_v36_raw (W : Val) :
    after seg2 W (main_v36 : DevRef τ sig)
      = (Host.divf (Host.reduceAdd ((W (main_v33 : DevRef τ sig) : FVec Ideal S100000x128 .f32)) (constant (F := Ideal) S_ .f32 0x00000000#32) reducesTo_S100000x128_S128_d0 h_S_) (broadcastInDim S128 ![] bcast_S_S128 (constant (F := Ideal) S_ .f32 0x47C35000#32)) : FVec Ideal S128 .f32) := by
  simp only [seg2]
  after_results_simp
  all_goals rfl

set_option maxRecDepth 8192 in
set_option maxHeartbeats 1000000 in
theorem seg2_v37_raw (W : Val) :
    after seg2 W (main_v37 : DevRef τ sig)
      = (select (broadcastInDim S128 ![] bcast_S_S128 (cmpf .ogt (subf (constant (F := Ideal) S_ .f32 0x47C35000#32) (sitofp .f32 (constantI S_ 32 0#32))) (constant (F := Ideal) S_ .f32 0x00000000#32))) (Host.divf (Host.reduceAdd (mulf (subf ((W (main_v33 : DevRef τ sig) : FVec Ideal S100000x128 .f32)) (broadcastInDim S100000x128 ![0, 1] bcast_S1x128_S100000x128_0_1 (Host.divf (broadcastInDim S1x128 ![1] bcast_S128_S1x128_1 (Host.reduceAdd ((W (main_v33 : DevRef τ sig) : FVec Ideal S100000x128 .f32)) (constant (F := Ideal) S_ .f32 0x00000000#32) reducesTo_S100000x128_S128_d0 h_S_)) (broadcastInDim S1x128 ![] bcast_S_S1x128 (constant (F := Ideal) S_ .f32 0x47C35000#32))))) (subf ((W (main_v33 : DevRef τ sig) : FVec Ideal S100000x128 .f32)) (broadcastInDim S100000x128 ![0, 1] bcast_S1x128_S100000x128_0_1 (Host.divf (broadcastInDim S1x128 ![1] bcast_S128_S1x128_1 (Host.reduceAdd ((W (main_v33 : DevRef τ sig) : FVec Ideal S100000x128 .f32)) (constant (F := Ideal) S_ .f32 0x00000000#32) reducesTo_S100000x128_S128_d0 h_S_)) (broadcastInDim S1x128 ![] bcast_S_S1x128 (constant (F := Ideal) S_ .f32 0x47C35000#32)))))) (constant (F := Ideal) S_ .f32 0x00000000#32) reducesTo_S100000x128_S128_d0 h_S_) (broadcastInDim S128 ![] bcast_S_S128 (subf (constant (F := Ideal) S_ .f32 0x47C35000#32) (sitofp .f32 (constantI S_ 32 0#32))))) (broadcastInDim S128 ![] bcast_S_S128 (id (constant (F := Ideal) S_ .f32 0x7FC00000#32))) : FVec Ideal S128 .f32) := by
  simp only [seg2]
  after_results_simp
  all_goals rfl

set_option maxRecDepth 8192 in
set_option maxHeartbeats 1000000 in
theorem seg3_v53_raw (W : Val) :
    after seg3 W (main_v53 : DevRef τ sig)
      = (maximumf (addf (mulf (mulf (subf ((W (main_v33 : DevRef τ sig) : FVec Ideal S100000x128 .f32)) (broadcastInDim S100000x128 ![0, 1] bcast_S1x128_S100000x128_0_1 (broadcastInDim S1x128 ![1] bcast_S128_S1x128_1 ((W (main_v36 : DevRef τ sig) : FVec Ideal S128 .f32))))) (broadcastInDim S100000x128 ![0, 1] bcast_S1x128_S100000x128_0_1 (broadcastInDim S1x128 ![1] bcast_S128_S1x128_1 (Host.rsqrt (addf ((W (main_v37 : DevRef τ sig) : FVec Ideal S128 .f32)) (broadcastInDim S128 ![] bcast_S_S128 (constant (F := Ideal) S_ .f32 0x3727C5AC#32))))))) (broadcastInDim S100000x128 ![0, 1] bcast_S1x128_S100000x128_0_1 (broadcastInDim S1x128 ![1] bcast_S128_S1x128_1 ((W (main_arg5 : DevRef τ sig) : FVec Ideal S128 .f32))))) (broadcastInDim S100000x128 ![0, 1] bcast_S1x128_S100000x128_0_1 (broadcastInDim S1x128 ![1] bcast_S128_S1x128_1 ((W (main_arg6 : DevRef τ sig) : FVec Ideal S128 .f32))))) (broadcastInDim S100000x128 ![] bcast_S_S100000x128 (constant (F := Ideal) S_ .f32 0x00000000#32)) : FVec Ideal S100000x128 .f32) := by
  simp only [seg3]
  after_results_simp
  all_goals rfl

set_option maxRecDepth 8192 in
set_option maxHeartbeats 1000000 in
theorem seg4_v57_raw (W : Val) :
    after seg4 W (main_v57 : DevRef τ sig)
      = (addf (Host.dotGeneral (F := Ideal) (φ₁ := .f32) (φ₂ := .f32) dot_S100000x128_S128x128_S100000x128_1_0_0_1_n_n none ((W (main_v53 : DevRef τ sig) : FVec Ideal S100000x128 .f32)) ((W (main_arg7 : DevRef τ sig) : FVec Ideal S128x128 .f32))) (broadcastInDim S100000x128 ![0, 1] bcast_S1x128_S100000x128_0_1 (broadcastInDim S1x128 ![1] bcast_S128_S1x128_1 ((W (main_arg8 : DevRef τ sig) : FVec Ideal S128 .f32)))) : FVec Ideal S100000x128 .f32) := by
  simp only [seg4]
  after_results_simp
  all_goals rfl

set_option maxRecDepth 8192 in
set_option maxHeartbeats 1000000 in
theorem seg5_v59_raw (W : Val) :
    after seg5 W (main_v59 : DevRef τ sig)
      = (shapeCast S128x128 (extractStridedSlice S1x128x128 ![0, 0, 0] ((W (main_arg9 : DevRef τ sig) : FVec Ideal S3x128x128 .f32)) slices_S3x128x128_S1x128x128_0_0_0) shapeCasts_S1x128x128_S128x128 : FVec Ideal S128x128 .f32) := by
  simp only [seg5]
  after_results_simp
  all_goals rfl

set_option maxRecDepth 8192 in
set_option maxHeartbeats 1000000 in
theorem seg5_v60_raw (W : Val) :
    after seg5 W (main_v60 : DevRef τ sig)
      = (Host.dotGeneral (F := Ideal) (φ₁ := .f32) (φ₂ := .f32) dot_S100000x128_S128x128_S100000x128_1_0_0_1_n_n none ((W (main_v57 : DevRef τ sig) : FVec Ideal S100000x128 .f32)) (shapeCast S128x128 (extractStridedSlice S1x128x128 ![0, 0, 0] ((W (main_arg9 : DevRef τ sig) : FVec Ideal S3x128x128 .f32)) slices_S3x128x128_S1x128x128_0_0_0) shapeCasts_S1x128x128_S128x128) : FVec Ideal S100000x128 .f32) := by
  simp only [seg5]
  after_results_simp
  all_goals rfl

set_option maxRecDepth 8192 in
set_option maxHeartbeats 1000000 in
theorem seg6_v77_raw (W : Val) :
    after seg6 W (main_v77 : DevRef τ sig)
      = (addf (Host.scatterAdd scatter_S100000x128_S640000x1_S640000x128_1_0_0_1 (broadcastInDim S100000x128 ![] bcast_S_S100000x128 (constant (F := Ideal) S_ .f32 0x00000000#32)) (broadcastInDim S640000x1 ![0] bcast_S640000_S640000x1_0 ((W (main_v3 : DevRef τ sig) : IVec S640000 32))) (mulf (Host.gather gather_S100000x128_S640000x1_S640000x128_1_0_n_n_0_1_1128 ((W (main_v60 : DevRef τ sig) : FVec Ideal S100000x128 .f32)) (broadcastInDim S640000x1 ![0] bcast_S640000_S640000x1_0 (select (cmpi .slt ((W (main_v1 : DevRef τ sig) : IVec S640000 32)) (broadcastInDim S640000 ![] bcast_S_S640000 (constantI S_ 32 0#32))) (addi ((W (main_v1 : DevRef τ sig) : IVec S640000 32)) (broadcastInDim S640000 ![] bcast_S_S640000 (constantI S_ 32 100000#32))) ((W (main_v1 : DevRef τ sig) : IVec S640000 32))))) (broadcastInDim S640000x128 ![0, 1] bcast_S640000x1_S640000x128_0_1 ((W (main_v29 : DevRef τ sig) : FVec Ideal S640000x1 .f32))))) (broadcastInDim S100000x128 ![0, 1] bcast_S1x128_S100000x128_0_1 (broadcastInDim S1x128 ![1] bcast_S128_S1x128_1 (shapeCast S128 (extractStridedSlice S1x128 ![0, 0] ((W (main_arg10 : DevRef τ sig) : FVec Ideal S3x128 .f32)) slices_S3x128_S1x128_0_0) shapeCasts_S1x128_S128))) : FVec Ideal S100000x128 .f32) := by
  simp only [seg6]
  after_results_simp
  all_goals rfl

set_option maxRecDepth 8192 in
set_option maxHeartbeats 1000000 in
theorem seg6_v79_raw (W : Val) :
    after seg6 W (main_v79 : DevRef τ sig)
      = (shapeCast S128 (extractStridedSlice S1x128 ![0, 0] ((W (main_arg11 : DevRef τ sig) : FVec Ideal S3x128 .f32)) slices_S3x128_S1x128_0_0) shapeCasts_S1x128_S128 : FVec Ideal S128 .f32) := by
  simp only [seg6]
  after_results_simp
  all_goals rfl

set_option maxRecDepth 8192 in
set_option maxHeartbeats 1000000 in
theorem seg6_v81_raw (W : Val) :
    after seg6 W (main_v81 : DevRef τ sig)
      = (shapeCast S128 (extractStridedSlice S1x128 ![0, 0] ((W (main_arg12 : DevRef τ sig) : FVec Ideal S3x128 .f32)) slices_S3x128_S1x128_0_0) shapeCasts_S1x128_S128 : FVec Ideal S128 .f32) := by
  simp only [seg6]
  after_results_simp
  all_goals rfl

set_option maxRecDepth 8192 in
set_option maxHeartbeats 1000000 in
theorem seg7_v84_raw (W : Val) :
    after seg7 W (main_v84 : DevRef τ sig)
      = (Host.divf (Host.reduceAdd ((W (main_v77 : DevRef τ sig) : FVec Ideal S100000x128 .f32)) (constant (F := Ideal) S_ .f32 0x00000000#32) reducesTo_S100000x128_S128_d0 h_S_) (broadcastInDim S128 ![] bcast_S_S128 (constant (F := Ideal) S_ .f32 0x47C35000#32)) : FVec Ideal S128 .f32) := by
  simp only [seg7]
  after_results_simp
  all_goals rfl

set_option maxRecDepth 8192 in
set_option maxHeartbeats 1000000 in
theorem seg7_v85_raw (W : Val) :
    after seg7 W (main_v85 : DevRef τ sig)
      = (select (broadcastInDim S128 ![] bcast_S_S128 (cmpf .ogt (subf (constant (F := Ideal) S_ .f32 0x47C35000#32) (sitofp .f32 (constantI S_ 32 0#32))) (constant (F := Ideal) S_ .f32 0x00000000#32))) (Host.divf (Host.reduceAdd (mulf (subf ((W (main_v77 : DevRef τ sig) : FVec Ideal S100000x128 .f32)) (broadcastInDim S100000x128 ![0, 1] bcast_S1x128_S100000x128_0_1 (Host.divf (broadcastInDim S1x128 ![1] bcast_S128_S1x128_1 (Host.reduceAdd ((W (main_v77 : DevRef τ sig) : FVec Ideal S100000x128 .f32)) (constant (F := Ideal) S_ .f32 0x00000000#32) reducesTo_S100000x128_S128_d0 h_S_)) (broadcastInDim S1x128 ![] bcast_S_S1x128 (constant (F := Ideal) S_ .f32 0x47C35000#32))))) (subf ((W (main_v77 : DevRef τ sig) : FVec Ideal S100000x128 .f32)) (broadcastInDim S100000x128 ![0, 1] bcast_S1x128_S100000x128_0_1 (Host.divf (broadcastInDim S1x128 ![1] bcast_S128_S1x128_1 (Host.reduceAdd ((W (main_v77 : DevRef τ sig) : FVec Ideal S100000x128 .f32)) (constant (F := Ideal) S_ .f32 0x00000000#32) reducesTo_S100000x128_S128_d0 h_S_)) (broadcastInDim S1x128 ![] bcast_S_S1x128 (constant (F := Ideal) S_ .f32 0x47C35000#32)))))) (constant (F := Ideal) S_ .f32 0x00000000#32) reducesTo_S100000x128_S128_d0 h_S_) (broadcastInDim S128 ![] bcast_S_S128 (subf (constant (F := Ideal) S_ .f32 0x47C35000#32) (sitofp .f32 (constantI S_ 32 0#32))))) (broadcastInDim S128 ![] bcast_S_S128 (id (constant (F := Ideal) S_ .f32 0x7FC00000#32))) : FVec Ideal S128 .f32) := by
  simp only [seg7]
  after_results_simp
  all_goals rfl

set_option maxRecDepth 8192 in
set_option maxHeartbeats 1000000 in
theorem seg8_v102_raw (W : Val) :
    after seg8 W (main_v102 : DevRef τ sig)
      = (addf ((W (main_v57 : DevRef τ sig) : FVec Ideal S100000x128 .f32)) (maximumf (addf (mulf (mulf (subf ((W (main_v77 : DevRef τ sig) : FVec Ideal S100000x128 .f32)) (broadcastInDim S100000x128 ![0, 1] bcast_S1x128_S100000x128_0_1 (broadcastInDim S1x128 ![1] bcast_S128_S1x128_1 ((W (main_v84 : DevRef τ sig) : FVec Ideal S128 .f32))))) (broadcastInDim S100000x128 ![0, 1] bcast_S1x128_S100000x128_0_1 (broadcastInDim S1x128 ![1] bcast_S128_S1x128_1 (Host.rsqrt (addf ((W (main_v85 : DevRef τ sig) : FVec Ideal S128 .f32)) (broadcastInDim S128 ![] bcast_S_S128 (constant (F := Ideal) S_ .f32 0x3727C5AC#32))))))) (broadcastInDim S100000x128 ![0, 1] bcast_S1x128_S100000x128_0_1 (broadcastInDim S1x128 ![1] bcast_S128_S1x128_1 ((W (main_v79 : DevRef τ sig) : FVec Ideal S128 .f32))))) (broadcastInDim S100000x128 ![0, 1] bcast_S1x128_S100000x128_0_1 (broadcastInDim S1x128 ![1] bcast_S128_S1x128_1 ((W (main_v81 : DevRef τ sig) : FVec Ideal S128 .f32))))) (broadcastInDim S100000x128 ![] bcast_S_S100000x128 (constant (F := Ideal) S_ .f32 0x00000000#32))) : FVec Ideal S100000x128 .f32) := by
  simp only [seg8]
  after_results_simp
  all_goals rfl

set_option maxRecDepth 8192 in
set_option maxHeartbeats 1000000 in
theorem seg9_v104_raw (W : Val) :
    after seg9 W (main_v104 : DevRef τ sig)
      = (shapeCast S128x128 (extractStridedSlice S1x128x128 ![1, 0, 0] ((W (main_arg9 : DevRef τ sig) : FVec Ideal S3x128x128 .f32)) slices_S3x128x128_S1x128x128_1_0_0) shapeCasts_S1x128x128_S128x128 : FVec Ideal S128x128 .f32) := by
  simp only [seg9]
  after_results_simp
  all_goals rfl

set_option maxRecDepth 8192 in
set_option maxHeartbeats 1000000 in
theorem seg9_v105_raw (W : Val) :
    after seg9 W (main_v105 : DevRef τ sig)
      = (Host.dotGeneral (F := Ideal) (φ₁ := .f32) (φ₂ := .f32) dot_S100000x128_S128x128_S100000x128_1_0_0_1_n_n none ((W (main_v102 : DevRef τ sig) : FVec Ideal S100000x128 .f32)) (shapeCast S128x128 (extractStridedSlice S1x128x128 ![1, 0, 0] ((W (main_arg9 : DevRef τ sig) : FVec Ideal S3x128x128 .f32)) slices_S3x128x128_S1x128x128_1_0_0) shapeCasts_S1x128x128_S128x128) : FVec Ideal S100000x128 .f32) := by
  simp only [seg9]
  after_results_simp
  all_goals rfl

set_option maxRecDepth 8192 in
set_option maxHeartbeats 1000000 in
theorem seg10_v122_raw (W : Val) :
    after seg10 W (main_v122 : DevRef τ sig)
      = (addf (Host.scatterAdd scatter_S100000x128_S640000x1_S640000x128_1_0_0_1 (broadcastInDim S100000x128 ![] bcast_S_S100000x128 (constant (F := Ideal) S_ .f32 0x00000000#32)) (broadcastInDim S640000x1 ![0] bcast_S640000_S640000x1_0 ((W (main_v3 : DevRef τ sig) : IVec S640000 32))) (mulf (Host.gather gather_S100000x128_S640000x1_S640000x128_1_0_n_n_0_1_1128 ((W (main_v105 : DevRef τ sig) : FVec Ideal S100000x128 .f32)) (broadcastInDim S640000x1 ![0] bcast_S640000_S640000x1_0 (select (cmpi .slt ((W (main_v1 : DevRef τ sig) : IVec S640000 32)) (broadcastInDim S640000 ![] bcast_S_S640000 (constantI S_ 32 0#32))) (addi ((W (main_v1 : DevRef τ sig) : IVec S640000 32)) (broadcastInDim S640000 ![] bcast_S_S640000 (constantI S_ 32 100000#32))) ((W (main_v1 : DevRef τ sig) : IVec S640000 32))))) (broadcastInDim S640000x128 ![0, 1] bcast_S640000x1_S640000x128_0_1 ((W (main_v29 : DevRef τ sig) : FVec Ideal S640000x1 .f32))))) (broadcastInDim S100000x128 ![0, 1] bcast_S1x128_S100000x128_0_1 (broadcastInDim S1x128 ![1] bcast_S128_S1x128_1 (shapeCast S128 (extractStridedSlice S1x128 ![1, 0] ((W (main_arg10 : DevRef τ sig) : FVec Ideal S3x128 .f32)) slices_S3x128_S1x128_1_0) shapeCasts_S1x128_S128))) : FVec Ideal S100000x128 .f32) := by
  simp only [seg10]
  after_results_simp
  all_goals rfl

set_option maxRecDepth 8192 in
set_option maxHeartbeats 1000000 in
theorem seg10_v124_raw (W : Val) :
    after seg10 W (main_v124 : DevRef τ sig)
      = (shapeCast S128 (extractStridedSlice S1x128 ![1, 0] ((W (main_arg11 : DevRef τ sig) : FVec Ideal S3x128 .f32)) slices_S3x128_S1x128_1_0) shapeCasts_S1x128_S128 : FVec Ideal S128 .f32) := by
  simp only [seg10]
  after_results_simp
  all_goals rfl

set_option maxRecDepth 8192 in
set_option maxHeartbeats 1000000 in
theorem seg10_v126_raw (W : Val) :
    after seg10 W (main_v126 : DevRef τ sig)
      = (shapeCast S128 (extractStridedSlice S1x128 ![1, 0] ((W (main_arg12 : DevRef τ sig) : FVec Ideal S3x128 .f32)) slices_S3x128_S1x128_1_0) shapeCasts_S1x128_S128 : FVec Ideal S128 .f32) := by
  simp only [seg10]
  after_results_simp
  all_goals rfl

set_option maxRecDepth 8192 in
set_option maxHeartbeats 1000000 in
theorem seg11_v129_raw (W : Val) :
    after seg11 W (main_v129 : DevRef τ sig)
      = (Host.divf (Host.reduceAdd ((W (main_v122 : DevRef τ sig) : FVec Ideal S100000x128 .f32)) (constant (F := Ideal) S_ .f32 0x00000000#32) reducesTo_S100000x128_S128_d0 h_S_) (broadcastInDim S128 ![] bcast_S_S128 (constant (F := Ideal) S_ .f32 0x47C35000#32)) : FVec Ideal S128 .f32) := by
  simp only [seg11]
  after_results_simp
  all_goals rfl

set_option maxRecDepth 8192 in
set_option maxHeartbeats 1000000 in
theorem seg11_v130_raw (W : Val) :
    after seg11 W (main_v130 : DevRef τ sig)
      = (select (broadcastInDim S128 ![] bcast_S_S128 (cmpf .ogt (subf (constant (F := Ideal) S_ .f32 0x47C35000#32) (sitofp .f32 (constantI S_ 32 0#32))) (constant (F := Ideal) S_ .f32 0x00000000#32))) (Host.divf (Host.reduceAdd (mulf (subf ((W (main_v122 : DevRef τ sig) : FVec Ideal S100000x128 .f32)) (broadcastInDim S100000x128 ![0, 1] bcast_S1x128_S100000x128_0_1 (Host.divf (broadcastInDim S1x128 ![1] bcast_S128_S1x128_1 (Host.reduceAdd ((W (main_v122 : DevRef τ sig) : FVec Ideal S100000x128 .f32)) (constant (F := Ideal) S_ .f32 0x00000000#32) reducesTo_S100000x128_S128_d0 h_S_)) (broadcastInDim S1x128 ![] bcast_S_S1x128 (constant (F := Ideal) S_ .f32 0x47C35000#32))))) (subf ((W (main_v122 : DevRef τ sig) : FVec Ideal S100000x128 .f32)) (broadcastInDim S100000x128 ![0, 1] bcast_S1x128_S100000x128_0_1 (Host.divf (broadcastInDim S1x128 ![1] bcast_S128_S1x128_1 (Host.reduceAdd ((W (main_v122 : DevRef τ sig) : FVec Ideal S100000x128 .f32)) (constant (F := Ideal) S_ .f32 0x00000000#32) reducesTo_S100000x128_S128_d0 h_S_)) (broadcastInDim S1x128 ![] bcast_S_S1x128 (constant (F := Ideal) S_ .f32 0x47C35000#32)))))) (constant (F := Ideal) S_ .f32 0x00000000#32) reducesTo_S100000x128_S128_d0 h_S_) (broadcastInDim S128 ![] bcast_S_S128 (subf (constant (F := Ideal) S_ .f32 0x47C35000#32) (sitofp .f32 (constantI S_ 32 0#32))))) (broadcastInDim S128 ![] bcast_S_S128 (id (constant (F := Ideal) S_ .f32 0x7FC00000#32))) : FVec Ideal S128 .f32) := by
  simp only [seg11]
  after_results_simp
  all_goals rfl

set_option maxRecDepth 8192 in
set_option maxHeartbeats 1000000 in
theorem seg12_v147_raw (W : Val) :
    after seg12 W (main_v147 : DevRef τ sig)
      = (addf ((W (main_v102 : DevRef τ sig) : FVec Ideal S100000x128 .f32)) (maximumf (addf (mulf (mulf (subf ((W (main_v122 : DevRef τ sig) : FVec Ideal S100000x128 .f32)) (broadcastInDim S100000x128 ![0, 1] bcast_S1x128_S100000x128_0_1 (broadcastInDim S1x128 ![1] bcast_S128_S1x128_1 ((W (main_v129 : DevRef τ sig) : FVec Ideal S128 .f32))))) (broadcastInDim S100000x128 ![0, 1] bcast_S1x128_S100000x128_0_1 (broadcastInDim S1x128 ![1] bcast_S128_S1x128_1 (Host.rsqrt (addf ((W (main_v130 : DevRef τ sig) : FVec Ideal S128 .f32)) (broadcastInDim S128 ![] bcast_S_S128 (constant (F := Ideal) S_ .f32 0x3727C5AC#32))))))) (broadcastInDim S100000x128 ![0, 1] bcast_S1x128_S100000x128_0_1 (broadcastInDim S1x128 ![1] bcast_S128_S1x128_1 ((W (main_v124 : DevRef τ sig) : FVec Ideal S128 .f32))))) (broadcastInDim S100000x128 ![0, 1] bcast_S1x128_S100000x128_0_1 (broadcastInDim S1x128 ![1] bcast_S128_S1x128_1 ((W (main_v126 : DevRef τ sig) : FVec Ideal S128 .f32))))) (broadcastInDim S100000x128 ![] bcast_S_S100000x128 (constant (F := Ideal) S_ .f32 0x00000000#32))) : FVec Ideal S100000x128 .f32) := by
  simp only [seg12]
  after_results_simp
  all_goals rfl

set_option maxRecDepth 8192 in
set_option maxHeartbeats 1000000 in
theorem seg13_v149_raw (W : Val) :
    after seg13 W (main_v149 : DevRef τ sig)
      = (shapeCast S128x128 (extractStridedSlice S1x128x128 ![2, 0, 0] ((W (main_arg9 : DevRef τ sig) : FVec Ideal S3x128x128 .f32)) slices_S3x128x128_S1x128x128_2_0_0) shapeCasts_S1x128x128_S128x128 : FVec Ideal S128x128 .f32) := by
  simp only [seg13]
  after_results_simp
  all_goals rfl

set_option maxRecDepth 8192 in
set_option maxHeartbeats 1000000 in
theorem seg13_v150_raw (W : Val) :
    after seg13 W (main_v150 : DevRef τ sig)
      = (Host.dotGeneral (F := Ideal) (φ₁ := .f32) (φ₂ := .f32) dot_S100000x128_S128x128_S100000x128_1_0_0_1_n_n none ((W (main_v147 : DevRef τ sig) : FVec Ideal S100000x128 .f32)) (shapeCast S128x128 (extractStridedSlice S1x128x128 ![2, 0, 0] ((W (main_arg9 : DevRef τ sig) : FVec Ideal S3x128x128 .f32)) slices_S3x128x128_S1x128x128_2_0_0) shapeCasts_S1x128x128_S128x128) : FVec Ideal S100000x128 .f32) := by
  simp only [seg13]
  after_results_simp
  all_goals rfl

set_option maxRecDepth 8192 in
set_option maxHeartbeats 1000000 in
theorem seg14_v167_raw (W : Val) :
    after seg14 W (main_v167 : DevRef τ sig)
      = (addf (Host.scatterAdd scatter_S100000x128_S640000x1_S640000x128_1_0_0_1 (broadcastInDim S100000x128 ![] bcast_S_S100000x128 (constant (F := Ideal) S_ .f32 0x00000000#32)) (broadcastInDim S640000x1 ![0] bcast_S640000_S640000x1_0 ((W (main_v3 : DevRef τ sig) : IVec S640000 32))) (mulf (Host.gather gather_S100000x128_S640000x1_S640000x128_1_0_n_n_0_1_1128 ((W (main_v150 : DevRef τ sig) : FVec Ideal S100000x128 .f32)) (broadcastInDim S640000x1 ![0] bcast_S640000_S640000x1_0 (select (cmpi .slt ((W (main_v1 : DevRef τ sig) : IVec S640000 32)) (broadcastInDim S640000 ![] bcast_S_S640000 (constantI S_ 32 0#32))) (addi ((W (main_v1 : DevRef τ sig) : IVec S640000 32)) (broadcastInDim S640000 ![] bcast_S_S640000 (constantI S_ 32 100000#32))) ((W (main_v1 : DevRef τ sig) : IVec S640000 32))))) (broadcastInDim S640000x128 ![0, 1] bcast_S640000x1_S640000x128_0_1 ((W (main_v29 : DevRef τ sig) : FVec Ideal S640000x1 .f32))))) (broadcastInDim S100000x128 ![0, 1] bcast_S1x128_S100000x128_0_1 (broadcastInDim S1x128 ![1] bcast_S128_S1x128_1 (shapeCast S128 (extractStridedSlice S1x128 ![2, 0] ((W (main_arg10 : DevRef τ sig) : FVec Ideal S3x128 .f32)) slices_S3x128_S1x128_2_0) shapeCasts_S1x128_S128))) : FVec Ideal S100000x128 .f32) := by
  simp only [seg14]
  after_results_simp
  all_goals rfl

set_option maxRecDepth 8192 in
set_option maxHeartbeats 1000000 in
theorem seg14_v169_raw (W : Val) :
    after seg14 W (main_v169 : DevRef τ sig)
      = (shapeCast S128 (extractStridedSlice S1x128 ![2, 0] ((W (main_arg11 : DevRef τ sig) : FVec Ideal S3x128 .f32)) slices_S3x128_S1x128_2_0) shapeCasts_S1x128_S128 : FVec Ideal S128 .f32) := by
  simp only [seg14]
  after_results_simp
  all_goals rfl

set_option maxRecDepth 8192 in
set_option maxHeartbeats 1000000 in
theorem seg14_v171_raw (W : Val) :
    after seg14 W (main_v171 : DevRef τ sig)
      = (shapeCast S128 (extractStridedSlice S1x128 ![2, 0] ((W (main_arg12 : DevRef τ sig) : FVec Ideal S3x128 .f32)) slices_S3x128_S1x128_2_0) shapeCasts_S1x128_S128 : FVec Ideal S128 .f32) := by
  simp only [seg14]
  after_results_simp
  all_goals rfl

set_option maxRecDepth 8192 in
set_option maxHeartbeats 1000000 in
theorem seg15_v174_raw (W : Val) :
    after seg15 W (main_v174 : DevRef τ sig)
      = (Host.divf (Host.reduceAdd ((W (main_v167 : DevRef τ sig) : FVec Ideal S100000x128 .f32)) (constant (F := Ideal) S_ .f32 0x00000000#32) reducesTo_S100000x128_S128_d0 h_S_) (broadcastInDim S128 ![] bcast_S_S128 (constant (F := Ideal) S_ .f32 0x47C35000#32)) : FVec Ideal S128 .f32) := by
  simp only [seg15]
  after_results_simp
  all_goals rfl

set_option maxRecDepth 8192 in
set_option maxHeartbeats 1000000 in
theorem seg15_v175_raw (W : Val) :
    after seg15 W (main_v175 : DevRef τ sig)
      = (select (broadcastInDim S128 ![] bcast_S_S128 (cmpf .ogt (subf (constant (F := Ideal) S_ .f32 0x47C35000#32) (sitofp .f32 (constantI S_ 32 0#32))) (constant (F := Ideal) S_ .f32 0x00000000#32))) (Host.divf (Host.reduceAdd (mulf (subf ((W (main_v167 : DevRef τ sig) : FVec Ideal S100000x128 .f32)) (broadcastInDim S100000x128 ![0, 1] bcast_S1x128_S100000x128_0_1 (Host.divf (broadcastInDim S1x128 ![1] bcast_S128_S1x128_1 (Host.reduceAdd ((W (main_v167 : DevRef τ sig) : FVec Ideal S100000x128 .f32)) (constant (F := Ideal) S_ .f32 0x00000000#32) reducesTo_S100000x128_S128_d0 h_S_)) (broadcastInDim S1x128 ![] bcast_S_S1x128 (constant (F := Ideal) S_ .f32 0x47C35000#32))))) (subf ((W (main_v167 : DevRef τ sig) : FVec Ideal S100000x128 .f32)) (broadcastInDim S100000x128 ![0, 1] bcast_S1x128_S100000x128_0_1 (Host.divf (broadcastInDim S1x128 ![1] bcast_S128_S1x128_1 (Host.reduceAdd ((W (main_v167 : DevRef τ sig) : FVec Ideal S100000x128 .f32)) (constant (F := Ideal) S_ .f32 0x00000000#32) reducesTo_S100000x128_S128_d0 h_S_)) (broadcastInDim S1x128 ![] bcast_S_S1x128 (constant (F := Ideal) S_ .f32 0x47C35000#32)))))) (constant (F := Ideal) S_ .f32 0x00000000#32) reducesTo_S100000x128_S128_d0 h_S_) (broadcastInDim S128 ![] bcast_S_S128 (subf (constant (F := Ideal) S_ .f32 0x47C35000#32) (sitofp .f32 (constantI S_ 32 0#32))))) (broadcastInDim S128 ![] bcast_S_S128 (id (constant (F := Ideal) S_ .f32 0x7FC00000#32))) : FVec Ideal S128 .f32) := by
  simp only [seg15]
  after_results_simp
  all_goals rfl

set_option maxRecDepth 8192 in
set_option maxHeartbeats 1000000 in
theorem seg16_v192_raw (W : Val) :
    after seg16 W (main_v192 : DevRef τ sig)
      = (addf ((W (main_v147 : DevRef τ sig) : FVec Ideal S100000x128 .f32)) (maximumf (addf (mulf (mulf (subf ((W (main_v167 : DevRef τ sig) : FVec Ideal S100000x128 .f32)) (broadcastInDim S100000x128 ![0, 1] bcast_S1x128_S100000x128_0_1 (broadcastInDim S1x128 ![1] bcast_S128_S1x128_1 ((W (main_v174 : DevRef τ sig) : FVec Ideal S128 .f32))))) (broadcastInDim S100000x128 ![0, 1] bcast_S1x128_S100000x128_0_1 (broadcastInDim S1x128 ![1] bcast_S128_S1x128_1 (Host.rsqrt (addf ((W (main_v175 : DevRef τ sig) : FVec Ideal S128 .f32)) (broadcastInDim S128 ![] bcast_S_S128 (constant (F := Ideal) S_ .f32 0x3727C5AC#32))))))) (broadcastInDim S100000x128 ![0, 1] bcast_S1x128_S100000x128_0_1 (broadcastInDim S1x128 ![1] bcast_S128_S1x128_1 ((W (main_v169 : DevRef τ sig) : FVec Ideal S128 .f32))))) (broadcastInDim S100000x128 ![0, 1] bcast_S1x128_S100000x128_0_1 (broadcastInDim S1x128 ![1] bcast_S128_S1x128_1 ((W (main_v171 : DevRef τ sig) : FVec Ideal S128 .f32))))) (broadcastInDim S100000x128 ![] bcast_S_S100000x128 (constant (F := Ideal) S_ .f32 0x00000000#32))) : FVec Ideal S100000x128 .f32) := by
  simp only [seg16]
  after_results_simp
  all_goals rfl

set_option maxRecDepth 8192 in
set_option maxHeartbeats 1000000 in
theorem seg17_v195_raw (W : Val) :
    after seg17 W (main_v195 : DevRef τ sig)
      = (Host.scatterAdd scatter_S64x128_S100000x1_S100000x128_1_0_0_1 (broadcastInDim S64x128 ![] bcast_S_S64x128 (constant (F := Ideal) S_ .f32 0x00000000#32)) (broadcastInDim S100000x1 ![0] bcast_S100000_S100000x1_0 ((W (main_arg2 : DevRef τ sig) : IVec S100000 32))) ((W (main_v192 : DevRef τ sig) : FVec Ideal S100000x128 .f32)) : FVec Ideal S64x128 .f32) := by
  simp only [seg17]
  after_results_simp
  all_goals rfl

set_option maxRecDepth 8192 in
set_option maxHeartbeats 1000000 in
theorem seg17_v209_raw (W : Val) :
    after seg17 W (main_v209 : DevRef τ sig)
      = (addf (Host.dotGeneral (F := Ideal) (φ₁ := .f32) (φ₂ := .f32) dot_S64x32_S32x1_S64x1_1_0_0_1_n_n none (maximumf (addf (Host.dotGeneral (F := Ideal) (φ₁ := .f32) (φ₂ := .f32) dot_S64x64_S64x32_S64x32_1_0_0_1_n_n none (maximumf (addf (Host.dotGeneral (F := Ideal) (φ₁ := .f32) (φ₂ := .f32) dot_S64x128_S128x64_S64x64_1_0_0_1_n_n none (Host.scatterAdd scatter_S64x128_S100000x1_S100000x128_1_0_0_1 (broadcastInDim S64x128 ![] bcast_S_S64x128 (constant (F := Ideal) S_ .f32 0x00000000#32)) (broadcastInDim S100000x1 ![0] bcast_S100000_S100000x1_0 ((W (main_arg2 : DevRef τ sig) : IVec S100000 32))) ((W (main_v192 : DevRef τ sig) : FVec Ideal S100000x128 .f32))) ((W (main_arg13 : DevRef τ sig) : FVec Ideal S128x64 .f32))) (broadcastInDim S64x64 ![0, 1] bcast_S1x64_S64x64_0_1 (broadcastInDim S1x64 ![1] bcast_S64_S1x64_1 ((W (main_arg14 : DevRef τ sig) : FVec Ideal S64 .f32))))) (broadcastInDim S64x64 ![] bcast_S_S64x64 (constant (F := Ideal) S_ .f32 0x00000000#32))) ((W (main_arg15 : DevRef τ sig) : FVec Ideal S64x32 .f32))) (broadcastInDim S64x32 ![0, 1] bcast_S1x32_S64x32_0_1 (broadcastInDim S1x32 ![1] bcast_S32_S1x32_1 ((W (main_arg16 : DevRef τ sig) : FVec Ideal S32 .f32))))) (broadcastInDim S64x32 ![] bcast_S_S64x32 (constant (F := Ideal) S_ .f32 0x00000000#32))) ((W (main_arg17 : DevRef τ sig) : FVec Ideal S32x1 .f32))) (broadcastInDim S64x1 ![0, 1] bcast_S1x1_S64x1_0_1 (broadcastInDim S1x1 ![1] bcast_S1_S1x1_1 ((W (main_arg18 : DevRef τ sig) : FVec Ideal S1 .f32)))) : FVec Ideal S64x1 .f32) := by
  simp only [seg17]
  after_results_simp
  all_goals rfl

/-! # The same values with the functions of the specification -/

/-! ## The encoder -/

theorem seg1_v33 (W : Val) :
    after seg1 W (main_v33 : DevRef τ sig)
      = linear (W (main_arg0 : DevRef τ sig)) (W (main_arg3 : DevRef τ sig)) (rowOf (W (main_arg4 : DevRef τ sig))) :=
  (seg1_v33_raw W).trans (OpsRead.dense_bias_eq _ _ _)

theorem seg2_v36 (W : Val) :
    after seg2 W (main_v36 : DevRef τ sig) = fun j => meanAt (W (main_v33 : DevRef τ sig)) (j 0) :=
  (seg2_v36_raw W).trans (OpsRead.mean_eq _)
theorem seg2_v37 (W : Val) :
    after seg2 W (main_v37 : DevRef τ sig) = fun j => varTwoPassAt (W (main_v33 : DevRef τ sig)) (j 0) :=
  (seg2_v37_raw W).trans (OpsRead.varOps_eq _)

theorem seg3_v53 (W : Val) :
    after seg3 W (main_v53 : DevRef τ sig)
      = fun i => max (normAt ((W (main_v33 : DevRef τ sig)) i) ((W (main_v36 : DevRef τ sig)) (ix1 (i 1))) ((W (main_v37 : DevRef τ sig)) (ix1 (i 1)))
          ((W (main_arg5 : DevRef τ sig)) (ix1 (i 1))) ((W (main_arg6 : DevRef τ sig)) (ix1 (i 1)))) 0 :=
  (seg3_v53_raw W).trans (OpsRead.norm_relu_eq _ _ _ _ _)

theorem seg4_v57 (W : Val) :
    after seg4 W (main_v57 : DevRef τ sig)
      = linear (W (main_v53 : DevRef τ sig)) (W (main_arg7 : DevRef τ sig)) (rowOf (W (main_arg8 : DevRef τ sig))) :=
  (seg4_v57_raw W).trans (OpsRead.dense_bias_eq _ _ _)

/-! ## Layer 0 -/

theorem seg5_v60 (W : Val) :
    after seg5 W (main_v60 : DevRef τ sig)
      = linear (W (main_v57 : DevRef τ sig)) (fun i => (W (main_arg9 : DevRef τ sig)) (ix3 0 (i 0) (i 1))) (fun _ => 0) := by
  refine (seg5_v60_raw W).trans ?_
  rw [OpsRead.mat_layer0_eq]
  exact OpsRead.dense_eq _ _

theorem seg6_v79 (W : Val) :
    after seg6 W (main_v79 : DevRef τ sig) = fun j => (W (main_arg11 : DevRef τ sig)) (ix2 0 (j 0)) :=
  (seg6_v79_raw W).trans (OpsRead.vec_layer0_eq _)
theorem seg6_v81 (W : Val) :
    after seg6 W (main_v81 : DevRef τ sig) = fun j => (W (main_arg12 : DevRef τ sig)) (ix2 0 (j 0)) :=
  (seg6_v81_raw W).trans (OpsRead.vec_layer0_eq _)

theorem seg7_v84 (W : Val) :
    after seg7 W (main_v84 : DevRef τ sig) = fun j => meanAt (W (main_v77 : DevRef τ sig)) (j 0) :=
  (seg7_v84_raw W).trans (OpsRead.mean_eq _)
theorem seg7_v85 (W : Val) :
    after seg7 W (main_v85 : DevRef τ sig) = fun j => varTwoPassAt (W (main_v77 : DevRef τ sig)) (j 0) :=
  (seg7_v85_raw W).trans (OpsRead.varOps_eq _)

theorem seg8_v102 (W : Val) :
    after seg8 W (main_v102 : DevRef τ sig)
      = fun i => nd (W (main_v57 : DevRef τ sig)) i + max (normAt ((W (main_v77 : DevRef τ sig)) i) ((W (main_v84 : DevRef τ sig)) (ix1 (i 1))) ((W (main_v85 : DevRef τ sig)) (ix1 (i 1)))
          ((W (main_v79 : DevRef τ sig)) (ix1 (i 1))) ((W (main_v81 : DevRef τ sig)) (ix1 (i 1)))) 0 :=
  (seg8_v102_raw W).trans (OpsRead.norm_relu_res_eq _ _ _ _ _ _)

/-! ## Layer 1 -/

theorem seg9_v105 (W : Val) :
    after seg9 W (main_v105 : DevRef τ sig)
      = linear (W (main_v102 : DevRef τ sig)) (fun i => (W (main_arg9 : DevRef τ sig)) (ix3 1 (i 0) (i 1))) (fun _ => 0) := by
  refine (seg9_v105_raw W).trans ?_
  rw [OpsRead.mat_layer1_eq]
  exact OpsRead.dense_eq _ _

theorem seg10_v124 (W : Val) :
    after seg10 W (main_v124 : DevRef τ sig) = fun j => (W (main_arg11 : DevRef τ sig)) (ix2 1 (j 0)) :=
  (seg10_v124_raw W).trans (OpsRead.vec_layer1_eq _)
theorem seg10_v126 (W : Val) :
    after seg10 W (main_v126 : DevRef τ sig) = fun j => (W (main_arg12 : DevRef τ sig)) (ix2 1 (j 0)) :=
  (seg10_v126_raw W).trans (OpsRead.vec_layer1_eq _)

theorem seg11_v129 (W : Val) :
    after seg11 W (main_v129 : DevRef τ sig) = fun j => meanAt (W (main_v122 : DevRef τ sig)) (j 0) :=
  (seg11_v129_raw W).trans (OpsRead.mean_eq _)
theorem seg11_v130 (W : Val) :
    after seg11 W (main_v130 : DevRef τ sig) = fun j => varTwoPassAt (W (main_v122 : DevRef τ sig)) (j 0) :=
  (seg11_v130_raw W).trans (OpsRead.varOps_eq _)

theorem seg12_v147 (W : Val) :
    after seg12 W (main_v147 : DevRef τ sig)
      = fun i => nd (W (main_v102 : DevRef τ sig)) i + max (normAt ((W (main_v122 : DevRef τ sig)) i) ((W (main_v129 : DevRef τ sig)) (ix1 (i 1))) ((W (main_v130 : DevRef τ sig)) (ix1 (i 1)))
          ((W (main_v124 : DevRef τ sig)) (ix1 (i 1))) ((W (main_v126 : DevRef τ sig)) (ix1 (i 1)))) 0 :=
  (seg12_v147_raw W).trans (OpsRead.norm_relu_res_eq _ _ _ _ _ _)

/-! ## Layer 2 -/

theorem seg13_v150 (W : Val) :
    after seg13 W (main_v150 : DevRef τ sig)
      = linear (W (main_v147 : DevRef τ sig)) (fun i => (W (main_arg9 : DevRef τ sig)) (ix3 2 (i 0) (i 1))) (fun _ => 0) := by
  refine (seg13_v150_raw W).trans ?_
  rw [OpsRead.mat_layer2_eq]
  exact OpsRead.dense_eq _ _

theorem seg14_v169 (W : Val) :
    after seg14 W (main_v169 : DevRef τ sig) = fun j => (W (main_arg11 : DevRef τ sig)) (ix2 2 (j 0)) :=
  (seg14_v169_raw W).trans (OpsRead.vec_layer2_eq _)
theorem seg14_v171 (W : Val) :
    after seg14 W (main_v171 : DevRef τ sig) = fun j => (W (main_arg12 : DevRef τ sig)) (ix2 2 (j 0)) :=
  (seg14_v171_raw W).trans (OpsRead.vec_layer2_eq _)

theorem seg15_v174 (W : Val) :
    after seg15 W (main_v174 : DevRef τ sig) = fun j => meanAt (W (main_v167 : DevRef τ sig)) (j 0) :=
  (seg15_v174_raw W).trans (OpsRead.mean_eq _)
theorem seg15_v175 (W : Val) :
    after seg15 W (main_v175 : DevRef τ sig) = fun j => varTwoPassAt (W (main_v167 : DevRef τ sig)) (j 0) :=
  (seg15_v175_raw W).trans (OpsRead.varOps_eq _)

theorem seg16_v192 (W : Val) :
    after seg16 W (main_v192 : DevRef τ sig)
      = fun i => nd (W (main_v147 : DevRef τ sig)) i + max (normAt ((W (main_v167 : DevRef τ sig)) i) ((W (main_v174 : DevRef τ sig)) (ix1 (i 1))) ((W (main_v175 : DevRef τ sig)) (ix1 (i 1)))
          ((W (main_v169 : DevRef τ sig)) (ix1 (i 1))) ((W (main_v171 : DevRef τ sig)) (ix1 (i 1)))) 0 :=
  (seg16_v192_raw W).trans (OpsRead.norm_relu_res_eq _ _ _ _ _ _)

/-! ## Carrying a value to where it is read

A buffer written by an earlier segment (or an argument, written by none) still holds, at the end of any later
segment before which nothing rewrites it, what it held when it was written. One lemma per value and reading
segment: the contents at the start of the reading segment are the contents at the end of the writing one. -/

theorem carry1_arg0 (V : Val) : U1 V (main_arg0 : DevRef τ sig) = U0 V (main_arg0 : DevRef τ sig) :=
  seg0_keep (U0 V) main_arg0 (by decide)
theorem carry1_arg3 (V : Val) : U1 V (main_arg3 : DevRef τ sig) = U0 V (main_arg3 : DevRef τ sig) :=
  seg0_keep (U0 V) main_arg3 (by decide)
theorem carry1_arg4 (V : Val) : U1 V (main_arg4 : DevRef τ sig) = U0 V (main_arg4 : DevRef τ sig) :=
  seg0_keep (U0 V) main_arg4 (by decide)
theorem carry3_v33 (V : Val) : U3 V (main_v33 : DevRef τ sig) = U2 V (main_v33 : DevRef τ sig) :=
  seg2_keep (U2 V) main_v33 (by decide)
theorem carry3_arg5 (V : Val) : U3 V (main_arg5 : DevRef τ sig) = U0 V (main_arg5 : DevRef τ sig) :=
  (seg2_keep (U2 V) main_arg5 (by decide)).trans ((seg1_keep (U1 V) main_arg5 (by decide)).trans (seg0_keep (U0 V) main_arg5 (by decide)))
theorem carry3_arg6 (V : Val) : U3 V (main_arg6 : DevRef τ sig) = U0 V (main_arg6 : DevRef τ sig) :=
  (seg2_keep (U2 V) main_arg6 (by decide)).trans ((seg1_keep (U1 V) main_arg6 (by decide)).trans (seg0_keep (U0 V) main_arg6 (by decide)))
theorem carry4_arg7 (V : Val) : U4 V (main_arg7 : DevRef τ sig) = U0 V (main_arg7 : DevRef τ sig) :=
  (seg3_keep (U3 V) main_arg7 (by decide)).trans ((seg2_keep (U2 V) main_arg7 (by decide)).trans ((seg1_keep (U1 V) main_arg7 (by decide)).trans (seg0_keep (U0 V) main_arg7 (by decide))))
theorem carry4_arg8 (V : Val) : U4 V (main_arg8 : DevRef τ sig) = U0 V (main_arg8 : DevRef τ sig) :=
  (seg3_keep (U3 V) main_arg8 (by decide)).trans ((seg2_keep (U2 V) main_arg8 (by decide)).trans ((seg1_keep (U1 V) main_arg8 (by decide)).trans (seg0_keep (U0 V) main_arg8 (by decide))))
theorem carry5_arg9 (V : Val) : U5 V (main_arg9 : DevRef τ sig) = U0 V (main_arg9 : DevRef τ sig) :=
  (seg4_keep (U4 V) main_arg9 (by decide)).trans ((seg3_keep (U3 V) main_arg9 (by decide)).trans ((seg2_keep (U2 V) main_arg9 (by decide)).trans ((seg1_keep (U1 V) main_arg9 (by decide)).trans (seg0_keep (U0 V) main_arg9 (by decide)))))
theorem carry6_v1 (V : Val) : U6 V (main_v1 : DevRef τ sig) = U1 V (main_v1 : DevRef τ sig) :=
  (seg5_keep (U5 V) main_v1 (by decide)).trans ((seg4_keep (U4 V) main_v1 (by decide)).trans ((seg3_keep (U3 V) main_v1 (by decide)).trans ((seg2_keep (U2 V) main_v1 (by decide)).trans (seg1_keep (U1 V) main_v1 (by decide)))))
theorem carry6_v29 (V : Val) : U6 V (main_v29 : DevRef τ sig) = U1 V (main_v29 : DevRef τ sig) :=
  (seg5_keep (U5 V) main_v29 (by decide)).trans ((seg4_keep (U4 V) main_v29 (by decide)).trans ((seg3_keep (U3 V) main_v29 (by decide)).trans ((seg2_keep (U2 V) main_v29 (by decide)).trans (seg1_keep (U1 V) main_v29 (by decide)))))
theorem carry6_v3 (V : Val) : U6 V (main_v3 : DevRef τ sig) = U1 V (main_v3 : DevRef τ sig) :=
  (seg5_keep (U5 V) main_v3 (by decide)).trans ((seg4_keep (U4 V) main_v3 (by decide)).trans ((seg3_keep (U3 V) main_v3 (by decide)).trans ((seg2_keep (U2 V) main_v3 (by decide)).trans (seg1_keep (U1 V) main_v3 (by decide)))))
theorem carry6_arg10 (V : Val) : U6 V (main_arg10 : DevRef τ sig) = U0 V (main_arg10 : DevRef τ sig) :=
  (seg5_keep (U5 V) main_arg10 (by decide)).trans ((seg4_keep (U4 V) main_arg10 (by decide)).trans ((seg3_keep (U3 V) main_arg10 (by decide)).trans ((seg2_keep (U2 V) main_arg10 (by decide)).trans ((seg1_keep (U1 V) main_arg10 (by decide)).trans (seg0_keep (U0 V) main_arg10 (by decide))))))
theorem carry6_arg11 (V : Val) : U6 V (main_arg11 : DevRef τ sig) = U0 V (main_arg11 : DevRef τ sig) :=
  (seg5_keep (U5 V) main_arg11 (by decide)).trans ((seg4_keep (U4 V) main_arg11 (by decide)).trans ((seg3_keep (U3 V) main_arg11 (by decide)).trans ((seg2_keep (U2 V) main_arg11 (by decide)).trans ((seg1_keep (U1 V) main_arg11 (by decide)).trans (seg0_keep (U0 V) main_arg11 (by decide))))))
theorem carry6_arg12 (V : Val) : U6 V (main_arg12 : DevRef τ sig) = U0 V (main_arg12 : DevRef τ sig) :=
  (seg5_keep (U5 V) main_arg12 (by decide)).trans ((seg4_keep (U4 V) main_arg12 (by decide)).trans ((seg3_keep (U3 V) main_arg12 (by decide)).trans ((seg2_keep (U2 V) main_arg12 (by decide)).trans ((seg1_keep (U1 V) main_arg12 (by decide)).trans (seg0_keep (U0 V) main_arg12 (by decide))))))
theorem carry8_v77 (V : Val) : U8 V (main_v77 : DevRef τ sig) = U7 V (main_v77 : DevRef τ sig) :=
  seg7_keep (U7 V) main_v77 (by decide)
theorem carry8_v79 (V : Val) : U8 V (main_v79 : DevRef τ sig) = U7 V (main_v79 : DevRef τ sig) :=
  seg7_keep (U7 V) main_v79 (by decide)
theorem carry8_v81 (V : Val) : U8 V (main_v81 : DevRef τ sig) = U7 V (main_v81 : DevRef τ sig) :=
  seg7_keep (U7 V) main_v81 (by decide)
theorem carry8_v57 (V : Val) : U8 V (main_v57 : DevRef τ sig) = U5 V (main_v57 : DevRef τ sig) :=
  (seg7_keep (U7 V) main_v57 (by decide)).trans ((seg6_keep (U6 V) main_v57 (by decide)).trans (seg5_keep (U5 V) main_v57 (by decide)))
theorem carry9_arg9 (V : Val) : U9 V (main_arg9 : DevRef τ sig) = U0 V (main_arg9 : DevRef τ sig) :=
  (seg8_keep (U8 V) main_arg9 (by decide)).trans ((seg7_keep (U7 V) main_arg9 (by decide)).trans ((seg6_keep (U6 V) main_arg9 (by decide)).trans ((seg5_keep (U5 V) main_arg9 (by decide)).trans ((seg4_keep (U4 V) main_arg9 (by decide)).trans ((seg3_keep (U3 V) main_arg9 (by decide)).trans ((seg2_keep (U2 V) main_arg9 (by decide)).trans ((seg1_keep (U1 V) main_arg9 (by decide)).trans (seg0_keep (U0 V) main_arg9 (by decide)))))))))
theorem carry10_v1 (V : Val) : U10 V (main_v1 : DevRef τ sig) = U1 V (main_v1 : DevRef τ sig) :=
  (seg9_keep (U9 V) main_v1 (by decide)).trans ((seg8_keep (U8 V) main_v1 (by decide)).trans ((seg7_keep (U7 V) main_v1 (by decide)).trans ((seg6_keep (U6 V) main_v1 (by decide)).trans ((seg5_keep (U5 V) main_v1 (by decide)).trans ((seg4_keep (U4 V) main_v1 (by decide)).trans ((seg3_keep (U3 V) main_v1 (by decide)).trans ((seg2_keep (U2 V) main_v1 (by decide)).trans (seg1_keep (U1 V) main_v1 (by decide)))))))))
theorem carry10_v29 (V : Val) : U10 V (main_v29 : DevRef τ sig) = U1 V (main_v29 : DevRef τ sig) :=
  (seg9_keep (U9 V) main_v29 (by decide)).trans ((seg8_keep (U8 V) main_v29 (by decide)).trans ((seg7_keep (U7 V) main_v29 (by decide)).trans ((seg6_keep (U6 V) main_v29 (by decide)).trans ((seg5_keep (U5 V) main_v29 (by decide)).trans ((seg4_keep (U4 V) main_v29 (by decide)).trans ((seg3_keep (U3 V) main_v29 (by decide)).trans ((seg2_keep (U2 V) main_v29 (by decide)).trans (seg1_keep (U1 V) main_v29 (by decide)))))))))
theorem carry10_v3 (V : Val) : U10 V (main_v3 : DevRef τ sig) = U1 V (main_v3 : DevRef τ sig) :=
  (seg9_keep (U9 V) main_v3 (by decide)).trans ((seg8_keep (U8 V) main_v3 (by decide)).trans ((seg7_keep (U7 V) main_v3 (by decide)).trans ((seg6_keep (U6 V) main_v3 (by decide)).trans ((seg5_keep (U5 V) main_v3 (by decide)).trans ((seg4_keep (U4 V) main_v3 (by decide)).trans ((seg3_keep (U3 V) main_v3 (by decide)).trans ((seg2_keep (U2 V) main_v3 (by decide)).trans (seg1_keep (U1 V) main_v3 (by decide)))))))))
theorem carry10_arg10 (V : Val) : U10 V (main_arg10 : DevRef τ sig) = U0 V (main_arg10 : DevRef τ sig) :=
  (seg9_keep (U9 V) main_arg10 (by decide)).trans ((seg8_keep (U8 V) main_arg10 (by decide)).trans ((seg7_keep (U7 V) main_arg10 (by decide)).trans ((seg6_keep (U6 V) main_arg10 (by decide)).trans ((seg5_keep (U5 V) main_arg10 (by decide)).trans ((seg4_keep (U4 V) main_arg10 (by decide)).trans ((seg3_keep (U3 V) main_arg10 (by decide)).trans ((seg2_keep (U2 V) main_arg10 (by decide)).trans ((seg1_keep (U1 V) main_arg10 (by decide)).trans (seg0_keep (U0 V) main_arg10 (by decide))))))))))
theorem carry10_arg11 (V : Val) : U10 V (main_arg11 : DevRef τ sig) = U0 V (main_arg11 : DevRef τ sig) :=
  (seg9_keep (U9 V) main_arg11 (by decide)).trans ((seg8_keep (U8 V) main_arg11 (by decide)).trans ((seg7_keep (U7 V) main_arg11 (by decide)).trans ((seg6_keep (U6 V) main_arg11 (by decide)).trans ((seg5_keep (U5 V) main_arg11 (by decide)).trans ((seg4_keep (U4 V) main_arg11 (by decide)).trans ((seg3_keep (U3 V) main_arg11 (by decide)).trans ((seg2_keep (U2 V) main_arg11 (by decide)).trans ((seg1_keep (U1 V) main_arg11 (by decide)).trans (seg0_keep (U0 V) main_arg11 (by decide))))))))))
theorem carry10_arg12 (V : Val) : U10 V (main_arg12 : DevRef τ sig) = U0 V (main_arg12 : DevRef τ sig) :=
  (seg9_keep (U9 V) main_arg12 (by decide)).trans ((seg8_keep (U8 V) main_arg12 (by decide)).trans ((seg7_keep (U7 V) main_arg12 (by decide)).trans ((seg6_keep (U6 V) main_arg12 (by decide)).trans ((seg5_keep (U5 V) main_arg12 (by decide)).trans ((seg4_keep (U4 V) main_arg12 (by decide)).trans ((seg3_keep (U3 V) main_arg12 (by decide)).trans ((seg2_keep (U2 V) main_arg12 (by decide)).trans ((seg1_keep (U1 V) main_arg12 (by decide)).trans (seg0_keep (U0 V) main_arg12 (by decide))))))))))
theorem carry12_v122 (V : Val) : U12 V (main_v122 : DevRef τ sig) = U11 V (main_v122 : DevRef τ sig) :=
  seg11_keep (U11 V) main_v122 (by decide)
theorem carry12_v124 (V : Val) : U12 V (main_v124 : DevRef τ sig) = U11 V (main_v124 : DevRef τ sig) :=
  seg11_keep (U11 V) main_v124 (by decide)
theorem carry12_v126 (V : Val) : U12 V (main_v126 : DevRef τ sig) = U11 V (main_v126 : DevRef τ sig) :=
  seg11_keep (U11 V) main_v126 (by decide)
theorem carry12_v102 (V : Val) : U12 V (main_v102 : DevRef τ sig) = U9 V (main_v102 : DevRef τ sig) :=
  (seg11_keep (U11 V) main_v102 (by decide)).trans ((seg10_keep (U10 V) main_v102 (by decide)).trans (seg9_keep (U9 V) main_v102 (by decide)))
theorem carry13_arg9 (V : Val) : U13 V (main_arg9 : DevRef τ sig) = U0 V (main_arg9 : DevRef τ sig) :=
  (seg12_keep (U12 V) main_arg9 (by decide)).trans ((seg11_keep (U11 V) main_arg9 (by decide)).trans ((seg10_keep (U10 V) main_arg9 (by decide)).trans ((seg9_keep (U9 V) main_arg9 (by decide)).trans ((seg8_keep (U8 V) main_arg9 (by decide)).trans ((seg7_keep (U7 V) main_arg9 (by decide)).trans ((seg6_keep (U6 V) main_arg9 (by decide)).trans ((seg5_keep (U5 V) main_arg9 (by decide)).trans ((seg4_keep (U4 V) main_arg9 (by decide)).trans ((seg3_keep (U3 V) main_arg9 (by decide)).trans ((seg2_keep (U2 V) main_arg9 (by decide)).trans ((seg1_keep (U1 V) main_arg9 (by decide)).trans (seg0_keep (U0 V) main_arg9 (by decide)))))))))))))
theorem carry14_v1 (V : Val) : U14 V (main_v1 : DevRef τ sig) = U1 V (main_v1 : DevRef τ sig) :=
  (seg13_keep (U13 V) main_v1 (by decide)).trans ((seg12_keep (U12 V) main_v1 (by decide)).trans ((seg11_keep (U11 V) main_v1 (by decide)).trans ((seg10_keep (U10 V) main_v1 (by decide)).trans ((seg9_keep (U9 V) main_v1 (by decide)).trans ((seg8_keep (U8 V) main_v1 (by decide)).trans ((seg7_keep (U7 V) main_v1 (by decide)).trans ((seg6_keep (U6 V) main_v1 (by decide)).trans ((seg5_keep (U5 V) main_v1 (by decide)).trans ((seg4_keep (U4 V) main_v1 (by decide)).trans ((seg3_keep (U3 V) main_v1 (by decide)).trans ((seg2_keep (U2 V) main_v1 (by decide)).trans (seg1_keep (U1 V) main_v1 (by decide)))))))))))))
theorem carry14_v29 (V : Val) : U14 V (main_v29 : DevRef τ sig) = U1 V (main_v29 : DevRef τ sig) :=
  (seg13_keep (U13 V) main_v29 (by decide)).trans ((seg12_keep (U12 V) main_v29 (by decide)).trans ((seg11_keep (U11 V) main_v29 (by decide)).trans ((seg10_keep (U10 V) main_v29 (by decide)).trans ((seg9_keep (U9 V) main_v29 (by decide)).trans ((seg8_keep (U8 V) main_v29 (by decide)).trans ((seg7_keep (U7 V) main_v29 (by decide)).trans ((seg6_keep (U6 V) main_v29 (by decide)).trans ((seg5_keep (U5 V) main_v29 (by decide)).trans ((seg4_keep (U4 V) main_v29 (by decide)).trans ((seg3_keep (U3 V) main_v29 (by decide)).trans ((seg2_keep (U2 V) main_v29 (by decide)).trans (seg1_keep (U1 V) main_v29 (by decide)))))))))))))
theorem carry14_v3 (V : Val) : U14 V (main_v3 : DevRef τ sig) = U1 V (main_v3 : DevRef τ sig) :=
  (seg13_keep (U13 V) main_v3 (by decide)).trans ((seg12_keep (U12 V) main_v3 (by decide)).trans ((seg11_keep (U11 V) main_v3 (by decide)).trans ((seg10_keep (U10 V) main_v3 (by decide)).trans ((seg9_keep (U9 V) main_v3 (by decide)).trans ((seg8_keep (U8 V) main_v3 (by decide)).trans ((seg7_keep (U7 V) main_v3 (by decide)).trans ((seg6_keep (U6 V) main_v3 (by decide)).trans ((seg5_keep (U5 V) main_v3 (by decide)).trans ((seg4_keep (U4 V) main_v3 (by decide)).trans ((seg3_keep (U3 V) main_v3 (by decide)).trans ((seg2_keep (U2 V) main_v3 (by decide)).trans (seg1_keep (U1 V) main_v3 (by decide)))))))))))))
theorem carry14_arg10 (V : Val) : U14 V (main_arg10 : DevRef τ sig) = U0 V (main_arg10 : DevRef τ sig) :=
  (seg13_keep (U13 V) main_arg10 (by decide)).trans ((seg12_keep (U12 V) main_arg10 (by decide)).trans ((seg11_keep (U11 V) main_arg10 (by decide)).trans ((seg10_keep (U10 V) main_arg10 (by decide)).trans ((seg9_keep (U9 V) main_arg10 (by decide)).trans ((seg8_keep (U8 V) main_arg10 (by decide)).trans ((seg7_keep (U7 V) main_arg10 (by decide)).trans ((seg6_keep (U6 V) main_arg10 (by decide)).trans ((seg5_keep (U5 V) main_arg10 (by decide)).trans ((seg4_keep (U4 V) main_arg10 (by decide)).trans ((seg3_keep (U3 V) main_arg10 (by decide)).trans ((seg2_keep (U2 V) main_arg10 (by decide)).trans ((seg1_keep (U1 V) main_arg10 (by decide)).trans (seg0_keep (U0 V) main_arg10 (by decide))))))))))))))
theorem carry14_arg11 (V : Val) : U14 V (main_arg11 : DevRef τ sig) = U0 V (main_arg11 : DevRef τ sig) :=
  (seg13_keep (U13 V) main_arg11 (by decide)).trans ((seg12_keep (U12 V) main_arg11 (by decide)).trans ((seg11_keep (U11 V) main_arg11 (by decide)).trans ((seg10_keep (U10 V) main_arg11 (by decide)).trans ((seg9_keep (U9 V) main_arg11 (by decide)).trans ((seg8_keep (U8 V) main_arg11 (by decide)).trans ((seg7_keep (U7 V) main_arg11 (by decide)).trans ((seg6_keep (U6 V) main_arg11 (by decide)).trans ((seg5_keep (U5 V) main_arg11 (by decide)).trans ((seg4_keep (U4 V) main_arg11 (by decide)).trans ((seg3_keep (U3 V) main_arg11 (by decide)).trans ((seg2_keep (U2 V) main_arg11 (by decide)).trans ((seg1_keep (U1 V) main_arg11 (by decide)).trans (seg0_keep (U0 V) main_arg11 (by decide))))))))))))))
theorem carry14_arg12 (V : Val) : U14 V (main_arg12 : DevRef τ sig) = U0 V (main_arg12 : DevRef τ sig) :=
  (seg13_keep (U13 V) main_arg12 (by decide)).trans ((seg12_keep (U12 V) main_arg12 (by decide)).trans ((seg11_keep (U11 V) main_arg12 (by decide)).trans ((seg10_keep (U10 V) main_arg12 (by decide)).trans ((seg9_keep (U9 V) main_arg12 (by decide)).trans ((seg8_keep (U8 V) main_arg12 (by decide)).trans ((seg7_keep (U7 V) main_arg12 (by decide)).trans ((seg6_keep (U6 V) main_arg12 (by decide)).trans ((seg5_keep (U5 V) main_arg12 (by decide)).trans ((seg4_keep (U4 V) main_arg12 (by decide)).trans ((seg3_keep (U3 V) main_arg12 (by decide)).trans ((seg2_keep (U2 V) main_arg12 (by decide)).trans ((seg1_keep (U1 V) main_arg12 (by decide)).trans (seg0_keep (U0 V) main_arg12 (by decide))))))))))))))
theorem carry16_v167 (V : Val) : U16 V (main_v167 : DevRef τ sig) = U15 V (main_v167 : DevRef τ sig) :=
  seg15_keep (U15 V) main_v167 (by decide)
theorem carry16_v169 (V : Val) : U16 V (main_v169 : DevRef τ sig) = U15 V (main_v169 : DevRef τ sig) :=
  seg15_keep (U15 V) main_v169 (by decide)
theorem carry16_v171 (V : Val) : U16 V (main_v171 : DevRef τ sig) = U15 V (main_v171 : DevRef τ sig) :=
  seg15_keep (U15 V) main_v171 (by decide)
theorem carry16_v147 (V : Val) : U16 V (main_v147 : DevRef τ sig) = U13 V (main_v147 : DevRef τ sig) :=
  (seg15_keep (U15 V) main_v147 (by decide)).trans ((seg14_keep (U14 V) main_v147 (by decide)).trans (seg13_keep (U13 V) main_v147 (by decide)))
theorem carry17_arg2 (V : Val) : U17 V (main_arg2 : DevRef τ sig) = U0 V (main_arg2 : DevRef τ sig) :=
  (seg16_keep (U16 V) main_arg2 (by decide)).trans ((seg15_keep (U15 V) main_arg2 (by decide)).trans ((seg14_keep (U14 V) main_arg2 (by decide)).trans ((seg13_keep (U13 V) main_arg2 (by decide)).trans ((seg12_keep (U12 V) main_arg2 (by decide)).trans ((seg11_keep (U11 V) main_arg2 (by decide)).trans ((seg10_keep (U10 V) main_arg2 (by decide)).trans ((seg9_keep (U9 V) main_arg2 (by decide)).trans ((seg8_keep (U8 V) main_arg2 (by decide)).trans ((seg7_keep (U7 V) main_arg2 (by decide)).trans ((seg6_keep (U6 V) main_arg2 (by decide)).trans ((seg5_keep (U5 V) main_arg2 (by decide)).trans ((seg4_keep (U4 V) main_arg2 (by decide)).trans ((seg3_keep (U3 V) main_arg2 (by decide)).trans ((seg2_keep (U2 V) main_arg2 (by decide)).trans ((seg1_keep (U1 V) main_arg2 (by decide)).trans (seg0_keep (U0 V) main_arg2 (by decide)))))))))))))))))
theorem carry17_arg13 (V : Val) : U17 V (main_arg13 : DevRef τ sig) = U0 V (main_arg13 : DevRef τ sig) :=
  (seg16_keep (U16 V) main_arg13 (by decide)).trans ((seg15_keep (U15 V) main_arg13 (by decide)).trans ((seg14_keep (U14 V) main_arg13 (by decide)).trans ((seg13_keep (U13 V) main_arg13 (by decide)).trans ((seg12_keep (U12 V) main_arg13 (by decide)).trans ((seg11_keep (U11 V) main_arg13 (by decide)).trans ((seg10_keep (U10 V) main_arg13 (by decide)).trans ((seg9_keep (U9 V) main_arg13 (by decide)).trans ((seg8_keep (U8 V) main_arg13 (by decide)).trans ((seg7_keep (U7 V) main_arg13 (by decide)).trans ((seg6_keep (U6 V) main_arg13 (by decide)).trans ((seg5_keep (U5 V) main_arg13 (by decide)).trans ((seg4_keep (U4 V) main_arg13 (by decide)).trans ((seg3_keep (U3 V) main_arg13 (by decide)).trans ((seg2_keep (U2 V) main_arg13 (by decide)).trans ((seg1_keep (U1 V) main_arg13 (by decide)).trans (seg0_keep (U0 V) main_arg13 (by decide)))))))))))))))))
theorem carry17_arg14 (V : Val) : U17 V (main_arg14 : DevRef τ sig) = U0 V (main_arg14 : DevRef τ sig) :=
  (seg16_keep (U16 V) main_arg14 (by decide)).trans ((seg15_keep (U15 V) main_arg14 (by decide)).trans ((seg14_keep (U14 V) main_arg14 (by decide)).trans ((seg13_keep (U13 V) main_arg14 (by decide)).trans ((seg12_keep (U12 V) main_arg14 (by decide)).trans ((seg11_keep (U11 V) main_arg14 (by decide)).trans ((seg10_keep (U10 V) main_arg14 (by decide)).trans ((seg9_keep (U9 V) main_arg14 (by decide)).trans ((seg8_keep (U8 V) main_arg14 (by decide)).trans ((seg7_keep (U7 V) main_arg14 (by decide)).trans ((seg6_keep (U6 V) main_arg14 (by decide)).trans ((seg5_keep (U5 V) main_arg14 (by decide)).trans ((seg4_keep (U4 V) main_arg14 (by decide)).trans ((seg3_keep (U3 V) main_arg14 (by decide)).trans ((seg2_keep (U2 V) main_arg14 (by decide)).trans ((seg1_keep (U1 V) main_arg14 (by decide)).trans (seg0_keep (U0 V) main_arg14 (by decide)))))))))))))))))
theorem carry17_arg15 (V : Val) : U17 V (main_arg15 : DevRef τ sig) = U0 V (main_arg15 : DevRef τ sig) :=
  (seg16_keep (U16 V) main_arg15 (by decide)).trans ((seg15_keep (U15 V) main_arg15 (by decide)).trans ((seg14_keep (U14 V) main_arg15 (by decide)).trans ((seg13_keep (U13 V) main_arg15 (by decide)).trans ((seg12_keep (U12 V) main_arg15 (by decide)).trans ((seg11_keep (U11 V) main_arg15 (by decide)).trans ((seg10_keep (U10 V) main_arg15 (by decide)).trans ((seg9_keep (U9 V) main_arg15 (by decide)).trans ((seg8_keep (U8 V) main_arg15 (by decide)).trans ((seg7_keep (U7 V) main_arg15 (by decide)).trans ((seg6_keep (U6 V) main_arg15 (by decide)).trans ((seg5_keep (U5 V) main_arg15 (by decide)).trans ((seg4_keep (U4 V) main_arg15 (by decide)).trans ((seg3_keep (U3 V) main_arg15 (by decide)).trans ((seg2_keep (U2 V) main_arg15 (by decide)).trans ((seg1_keep (U1 V) main_arg15 (by decide)).trans (seg0_keep (U0 V) main_arg15 (by decide)))))))))))))))))
theorem carry17_arg16 (V : Val) : U17 V (main_arg16 : DevRef τ sig) = U0 V (main_arg16 : DevRef τ sig) :=
  (seg16_keep (U16 V) main_arg16 (by decide)).trans ((seg15_keep (U15 V) main_arg16 (by decide)).trans ((seg14_keep (U14 V) main_arg16 (by decide)).trans ((seg13_keep (U13 V) main_arg16 (by decide)).trans ((seg12_keep (U12 V) main_arg16 (by decide)).trans ((seg11_keep (U11 V) main_arg16 (by decide)).trans ((seg10_keep (U10 V) main_arg16 (by decide)).trans ((seg9_keep (U9 V) main_arg16 (by decide)).trans ((seg8_keep (U8 V) main_arg16 (by decide)).trans ((seg7_keep (U7 V) main_arg16 (by decide)).trans ((seg6_keep (U6 V) main_arg16 (by decide)).trans ((seg5_keep (U5 V) main_arg16 (by decide)).trans ((seg4_keep (U4 V) main_arg16 (by decide)).trans ((seg3_keep (U3 V) main_arg16 (by decide)).trans ((seg2_keep (U2 V) main_arg16 (by decide)).trans ((seg1_keep (U1 V) main_arg16 (by decide)).trans (seg0_keep (U0 V) main_arg16 (by decide)))))))))))))))))
theorem carry17_arg17 (V : Val) : U17 V (main_arg17 : DevRef τ sig) = U0 V (main_arg17 : DevRef τ sig) :=
  (seg16_keep (U16 V) main_arg17 (by decide)).trans ((seg15_keep (U15 V) main_arg17 (by decide)).trans ((seg14_keep (U14 V) main_arg17 (by decide)).trans ((seg13_keep (U13 V) main_arg17 (by decide)).trans ((seg12_keep (U12 V) main_arg17 (by decide)).trans ((seg11_keep (U11 V) main_arg17 (by decide)).trans ((seg10_keep (U10 V) main_arg17 (by decide)).trans ((seg9_keep (U9 V) main_arg17 (by decide)).trans ((seg8_keep (U8 V) main_arg17 (by decide)).trans ((seg7_keep (U7 V) main_arg17 (by decide)).trans ((seg6_keep (U6 V) main_arg17 (by decide)).trans ((seg5_keep (U5 V) main_arg17 (by decide)).trans ((seg4_keep (U4 V) main_arg17 (by decide)).trans ((seg3_keep (U3 V) main_arg17 (by decide)).trans ((seg2_keep (U2 V) main_arg17 (by decide)).trans ((seg1_keep (U1 V) main_arg17 (by decide)).trans (seg0_keep (U0 V) main_arg17 (by decide)))))))))))))))))
theorem carry17_arg18 (V : Val) : U17 V (main_arg18 : DevRef τ sig) = U0 V (main_arg18 : DevRef τ sig) :=
  (seg16_keep (U16 V) main_arg18 (by decide)).trans ((seg15_keep (U15 V) main_arg18 (by decide)).trans ((seg14_keep (U14 V) main_arg18 (by decide)).trans ((seg13_keep (U13 V) main_arg18 (by decide)).trans ((seg12_keep (U12 V) main_arg18 (by decide)).trans ((seg11_keep (U11 V) main_arg18 (by decide)).trans ((seg10_keep (U10 V) main_arg18 (by decide)).trans ((seg9_keep (U9 V) main_arg18 (by decide)).trans ((seg8_keep (U8 V) main_arg18 (by decide)).trans ((seg7_keep (U7 V) main_arg18 (by decide)).trans ((seg6_keep (U6 V) main_arg18 (by decide)).trans ((seg5_keep (U5 V) main_arg18 (by decide)).trans ((seg4_keep (U4 V) main_arg18 (by decide)).trans ((seg3_keep (U3 V) main_arg18 (by decide)).trans ((seg2_keep (U2 V) main_arg18 (by decide)).trans ((seg1_keep (U1 V) main_arg18 (by decide)).trans (seg0_keep (U0 V) main_arg18 (by decide)))))))))))))))))

/-! ## The edge arrays, named at the launch contents -/

theorem edges_v1 (V : Val) :
    U1 V (main_v1 : DevRef τ sig)
      = (shapeCast S640000 (extractStridedSlice S1x640000 ![0, 0] ((V (main_arg1 : DevRef τ sig) : IVec S2x640000 32)) slices_S2x640000_S1x640000_0_0) shapeCasts_S1x640000_S640000 : IVec S640000 32) :=
  seg0_v1_raw V
theorem edges_v3 (V : Val) :
    U1 V (main_v3 : DevRef τ sig)
      = (shapeCast S640000 (extractStridedSlice S1x640000 ![1, 0] ((V (main_arg1 : DevRef τ sig) : IVec S2x640000 32)) slices_S2x640000_S1x640000_1_0) shapeCasts_S1x640000_S640000 : IVec S640000 32) :=
  seg0_v3_raw V

/-! # The values named where they are written

The same readings with every operand taken at the end of the segment that wrote it (an argument at the launch
contents `V`, which no segment rewrites), and the column statistics written out. -/

/-! ## The encoder -/

theorem enc_v33 (V : Val) :
    U2 V (main_v33 : DevRef τ sig) = linear (V (main_arg0 : DevRef τ sig)) (V (main_arg3 : DevRef τ sig)) (rowOf (V (main_arg4 : DevRef τ sig))) := by
  refine (seg1_v33 (U1 V)).trans ?_
  rw [carry1_arg0, carry1_arg3, carry1_arg4]
  rfl

theorem enc_v36 (V : Val) : U3 V (main_v36 : DevRef τ sig) = fun j => meanAt (U2 V (main_v33 : DevRef τ sig)) (j 0) :=
  seg2_v36 (U2 V)
theorem enc_v37 (V : Val) : U3 V (main_v37 : DevRef τ sig) = fun j => varTwoPassAt (U2 V (main_v33 : DevRef τ sig)) (j 0) :=
  seg2_v37 (U2 V)

theorem enc_v53 (V : Val) :
    U4 V (main_v53 : DevRef τ sig)
      = fun i => max (normAt (U2 V (main_v33 : DevRef τ sig) i) (meanAt (U2 V (main_v33 : DevRef τ sig)) (i 1))
          (varTwoPassAt (U2 V (main_v33 : DevRef τ sig)) (i 1)) (V (main_arg5 : DevRef τ sig) (ix1 (i 1))) (V (main_arg6 : DevRef τ sig) (ix1 (i 1)))) 0 := by
  refine (seg3_v53 (U3 V)).trans ?_
  rw [carry3_v33, carry3_arg5, carry3_arg6, enc_v36, enc_v37]
  rfl

theorem enc_v57 (V : Val) :
    U5 V (main_v57 : DevRef τ sig) = linear (U4 V (main_v53 : DevRef τ sig)) (V (main_arg7 : DevRef τ sig)) (rowOf (V (main_arg8 : DevRef τ sig))) := by
  refine (seg4_v57 (U4 V)).trans ?_
  rw [carry4_arg7, carry4_arg8]
  rfl

/-! ## Layer 0, each value named where it is written -/

theorem l0_v60 (V : Val) :
    U6 V (main_v60 : DevRef τ sig) = linear (U5 V (main_v57 : DevRef τ sig)) (fun i => V (main_arg9 : DevRef τ sig) (ix3 0 (i 0) (i 1))) (fun _ => 0) := by
  refine (seg5_v60 (U5 V)).trans ?_
  rw [carry5_arg9]
  rfl

set_option maxRecDepth 8192 in
theorem l0_v77 (V : Val) :
    U7 V (main_v77 : DevRef τ sig)
      = (addf (Host.scatterAdd scatter_S100000x128_S640000x1_S640000x128_1_0_0_1 (broadcastInDim S100000x128 ![] bcast_S_S100000x128 (constant (F := Ideal) S_ .f32 0x00000000#32)) (broadcastInDim S640000x1 ![0] bcast_S640000_S640000x1_0 ((U1 V (main_v3 : DevRef τ sig) : IVec S640000 32))) (mulf (Host.gather gather_S100000x128_S640000x1_S640000x128_1_0_n_n_0_1_1128 ((U6 V (main_v60 : DevRef τ sig) : FVec Ideal S100000x128 .f32)) (broadcastInDim S640000x1 ![0] bcast_S640000_S640000x1_0 (select (cmpi .slt ((U1 V (main_v1 : DevRef τ sig) : IVec S640000 32)) (broadcastInDim S640000 ![] bcast_S_S640000 (constantI S_ 32 0#32))) (addi ((U1 V (main_v1 : DevRef τ sig) : IVec S640000 32)) (broadcastInDim S640000 ![] bcast_S_S640000 (constantI S_ 32 100000#32))) ((U1 V (main_v1 : DevRef τ sig) : IVec S640000 32))))) (broadcastInDim S640000x128 ![0, 1] bcast_S640000x1_S640000x128_0_1 ((U1 V (main_v29 : DevRef τ sig) : FVec Ideal S640000x1 .f32))))) (broadcastInDim S100000x128 ![0, 1] bcast_S1x128_S100000x128_0_1 (broadcastInDim S1x128 ![1] bcast_S128_S1x128_1 (shapeCast S128 (extractStridedSlice S1x128 ![0, 0] ((V (main_arg10 : DevRef τ sig) : FVec Ideal S3x128 .f32)) slices_S3x128_S1x128_0_0) shapeCasts_S1x128_S128))) : FVec Ideal S100000x128 .f32) := by
  refine (seg6_v77_raw (U6 V)).trans ?_
  rw [carry6_v1, carry6_v29, carry6_v3, carry6_arg10]
  rfl

theorem l0_v79 (V : Val) : U7 V (main_v79 : DevRef τ sig) = fun j => V (main_arg11 : DevRef τ sig) (ix2 0 (j 0)) := by
  refine (seg6_v79 (U6 V)).trans ?_
  rw [carry6_arg11]
  rfl
theorem l0_v81 (V : Val) : U7 V (main_v81 : DevRef τ sig) = fun j => V (main_arg12 : DevRef τ sig) (ix2 0 (j 0)) := by
  refine (seg6_v81 (U6 V)).trans ?_
  rw [carry6_arg12]
  rfl

theorem l0_v84 (V : Val) : U8 V (main_v84 : DevRef τ sig) = fun j => meanAt (U7 V (main_v77 : DevRef τ sig)) (j 0) :=
  seg7_v84 (U7 V)
theorem l0_v85 (V : Val) : U8 V (main_v85 : DevRef τ sig) = fun j => varTwoPassAt (U7 V (main_v77 : DevRef τ sig)) (j 0) :=
  seg7_v85 (U7 V)

theorem l0_v102 (V : Val) :
    U9 V (main_v102 : DevRef τ sig)
      = fun i => nd (U5 V (main_v57 : DevRef τ sig)) i + max (normAt (U7 V (main_v77 : DevRef τ sig) i) (meanAt (U7 V (main_v77 : DevRef τ sig)) (i 1))
          (varTwoPassAt (U7 V (main_v77 : DevRef τ sig)) (i 1)) (U7 V (main_v79 : DevRef τ sig) (ix1 (i 1))) (U7 V (main_v81 : DevRef τ sig) (ix1 (i 1)))) 0 := by
  refine (seg8_v102 (U8 V)).trans ?_
  rw [carry8_v57, carry8_v77, carry8_v79, carry8_v81, l0_v84, l0_v85]
  rfl

/-! ## Layer 1, each value named where it is written -/

theorem l1_v105 (V : Val) :
    U10 V (main_v105 : DevRef τ sig) = linear (U9 V (main_v102 : DevRef τ sig)) (fun i => V (main_arg9 : DevRef τ sig) (ix3 1 (i 0) (i 1))) (fun _ => 0) := by
  refine (seg9_v105 (U9 V)).trans ?_
  rw [carry9_arg9]
  rfl

set_option maxRecDepth 8192 in
theorem l1_v122 (V : Val) :
    U11 V (main_v122 : DevRef τ sig)
      = (addf (Host.scatterAdd scatter_S100000x128_S640000x1_S640000x128_1_0_0_1 (broadcastInDim S100000x128 ![] bcast_S_S100000x128 (constant (F := Ideal) S_ .f32 0x00000000#32)) (broadcastInDim S640000x1 ![0] bcast_S640000_S640000x1_0 ((U1 V (main_v3 : DevRef τ sig) : IVec S640000 32))) (mulf (Host.gather gather_S100000x128_S640000x1_S640000x128_1_0_n_n_0_1_1128 ((U10 V (main_v105 : DevRef τ sig) : FVec Ideal S100000x128 .f32)) (broadcastInDim S640000x1 ![0] bcast_S640000_S640000x1_0 (select (cmpi .slt ((U1 V (main_v1 : DevRef τ sig) : IVec S640000 32)) (broadcastInDim S640000 ![] bcast_S_S640000 (constantI S_ 32 0#32))) (addi ((U1 V (main_v1 : DevRef τ sig) : IVec S640000 32)) (broadcastInDim S640000 ![] bcast_S_S640000 (constantI S_ 32 100000#32))) ((U1 V (main_v1 : DevRef τ sig) : IVec S640000 32))))) (broadcastInDim S640000x128 ![0, 1] bcast_S640000x1_S640000x128_0_1 ((U1 V (main_v29 : DevRef τ sig) : FVec Ideal S640000x1 .f32))))) (broadcastInDim S100000x128 ![0, 1] bcast_S1x128_S100000x128_0_1 (broadcastInDim S1x128 ![1] bcast_S128_S1x128_1 (shapeCast S128 (extractStridedSlice S1x128 ![1, 0] ((V (main_arg10 : DevRef τ sig) : FVec Ideal S3x128 .f32)) slices_S3x128_S1x128_1_0) shapeCasts_S1x128_S128))) : FVec Ideal S100000x128 .f32) := by
  refine (seg10_v122_raw (U10 V)).trans ?_
  rw [carry10_v1, carry10_v29, carry10_v3, carry10_arg10]
  rfl

theorem l1_v124 (V : Val) : U11 V (main_v124 : DevRef τ sig) = fun j => V (main_arg11 : DevRef τ sig) (ix2 1 (j 0)) := by
  refine (seg10_v124 (U10 V)).trans ?_
  rw [carry10_arg11]
  rfl
theorem l1_v126 (V : Val) : U11 V (main_v126 : DevRef τ sig) = fun j => V (main_arg12 : DevRef τ sig) (ix2 1 (j 0)) := by
  refine (seg10_v126 (U10 V)).trans ?_
  rw [carry10_arg12]
  rfl

theorem l1_v129 (V : Val) : U12 V (main_v129 : DevRef τ sig) = fun j => meanAt (U11 V (main_v122 : DevRef τ sig)) (j 0) :=
  seg11_v129 (U11 V)
theorem l1_v130 (V : Val) : U12 V (main_v130 : DevRef τ sig) = fun j => varTwoPassAt (U11 V (main_v122 : DevRef τ sig)) (j 0) :=
  seg11_v130 (U11 V)

theorem l1_v147 (V : Val) :
    U13 V (main_v147 : DevRef τ sig)
      = fun i => nd (U9 V (main_v102 : DevRef τ sig)) i + max (normAt (U11 V (main_v122 : DevRef τ sig) i) (meanAt (U11 V (main_v122 : DevRef τ sig)) (i 1))
          (varTwoPassAt (U11 V (main_v122 : DevRef τ sig)) (i 1)) (U11 V (main_v124 : DevRef τ sig) (ix1 (i 1))) (U11 V (main_v126 : DevRef τ sig) (ix1 (i 1)))) 0 := by
  refine (seg12_v147 (U12 V)).trans ?_
  rw [carry12_v102, carry12_v122, carry12_v124, carry12_v126, l1_v129, l1_v130]
  rfl

/-! ## Layer 2, each value named where it is written -/

theorem l2_v150 (V : Val) :
    U14 V (main_v150 : DevRef τ sig) = linear (U13 V (main_v147 : DevRef τ sig)) (fun i => V (main_arg9 : DevRef τ sig) (ix3 2 (i 0) (i 1))) (fun _ => 0) := by
  refine (seg13_v150 (U13 V)).trans ?_
  rw [carry13_arg9]
  rfl

set_option maxRecDepth 8192 in
theorem l2_v167 (V : Val) :
    U15 V (main_v167 : DevRef τ sig)
      = (addf (Host.scatterAdd scatter_S100000x128_S640000x1_S640000x128_1_0_0_1 (broadcastInDim S100000x128 ![] bcast_S_S100000x128 (constant (F := Ideal) S_ .f32 0x00000000#32)) (broadcastInDim S640000x1 ![0] bcast_S640000_S640000x1_0 ((U1 V (main_v3 : DevRef τ sig) : IVec S640000 32))) (mulf (Host.gather gather_S100000x128_S640000x1_S640000x128_1_0_n_n_0_1_1128 ((U14 V (main_v150 : DevRef τ sig) : FVec Ideal S100000x128 .f32)) (broadcastInDim S640000x1 ![0] bcast_S640000_S640000x1_0 (select (cmpi .slt ((U1 V (main_v1 : DevRef τ sig) : IVec S640000 32)) (broadcastInDim S640000 ![] bcast_S_S640000 (constantI S_ 32 0#32))) (addi ((U1 V (main_v1 : DevRef τ sig) : IVec S640000 32)) (broadcastInDim S640000 ![] bcast_S_S640000 (constantI S_ 32 100000#32))) ((U1 V (main_v1 : DevRef τ sig) : IVec S640000 32))))) (broadcastInDim S640000x128 ![0, 1] bcast_S640000x1_S640000x128_0_1 ((U1 V (main_v29 : DevRef τ sig) : FVec Ideal S640000x1 .f32))))) (broadcastInDim S100000x128 ![0, 1] bcast_S1x128_S100000x128_0_1 (broadcastInDim S1x128 ![1] bcast_S128_S1x128_1 (shapeCast S128 (extractStridedSlice S1x128 ![2, 0] ((V (main_arg10 : DevRef τ sig) : FVec Ideal S3x128 .f32)) slices_S3x128_S1x128_2_0) shapeCasts_S1x128_S128))) : FVec Ideal S100000x128 .f32) := by
  refine (seg14_v167_raw (U14 V)).trans ?_
  rw [carry14_v1, carry14_v29, carry14_v3, carry14_arg10]
  rfl

theorem l2_v169 (V : Val) : U15 V (main_v169 : DevRef τ sig) = fun j => V (main_arg11 : DevRef τ sig) (ix2 2 (j 0)) := by
  refine (seg14_v169 (U14 V)).trans ?_
  rw [carry14_arg11]
  rfl
theorem l2_v171 (V : Val) : U15 V (main_v171 : DevRef τ sig) = fun j => V (main_arg12 : DevRef τ sig) (ix2 2 (j 0)) := by
  refine (seg14_v171 (U14 V)).trans ?_
  rw [carry14_arg12]
  rfl

theorem l2_v174 (V : Val) : U16 V (main_v174 : DevRef τ sig) = fun j => meanAt (U15 V (main_v167 : DevRef τ sig)) (j 0) :=
  seg15_v174 (U15 V)
theorem l2_v175 (V : Val) : U16 V (main_v175 : DevRef τ sig) = fun j => varTwoPassAt (U15 V (main_v167 : DevRef τ sig)) (j 0) :=
  seg15_v175 (U15 V)

theorem l2_v192 (V : Val) :
    U17 V (main_v192 : DevRef τ sig)
      = fun i => nd (U13 V (main_v147 : DevRef τ sig)) i + max (normAt (U15 V (main_v167 : DevRef τ sig) i) (meanAt (U15 V (main_v167 : DevRef τ sig)) (i 1))
          (varTwoPassAt (U15 V (main_v167 : DevRef τ sig)) (i 1)) (U15 V (main_v169 : DevRef τ sig) (ix1 (i 1))) (U15 V (main_v171 : DevRef τ sig) (ix1 (i 1)))) 0 := by
  refine (seg16_v192 (U16 V)).trans ?_
  rw [carry16_v147, carry16_v167, carry16_v169, carry16_v171, l2_v174, l2_v175]
  rfl

/-! ## The arguments are never rewritten -/

theorem arg_kept_0 (V : Val) : U18 V (Proc.devRef .tc main_arg0) = V (Proc.devRef .tc main_arg0) :=
  (seg17_keep (U17 V) main_arg0 (by decide)).trans ((seg16_keep (U16 V) main_arg0 (by decide)).trans ((seg15_keep (U15 V) main_arg0 (by decide)).trans ((seg14_keep (U14 V) main_arg0 (by decide)).trans ((seg13_keep (U13 V) main_arg0 (by decide)).trans ((seg12_keep (U12 V) main_arg0 (by decide)).trans ((seg11_keep (U11 V) main_arg0 (by decide)).trans ((seg10_keep (U10 V) main_arg0 (by decide)).trans ((seg9_keep (U9 V) main_arg0 (by decide)).trans ((seg8_keep (U8 V) main_arg0 (by decide)).trans ((seg7_keep (U7 V) main_arg0 (by decide)).trans ((seg6_keep (U6 V) main_arg0 (by decide)).trans ((seg5_keep (U5 V) main_arg0 (by decide)).trans ((seg4_keep (U4 V) main_arg0 (by decide)).trans ((seg3_keep (U3 V) main_arg0 (by decide)).trans ((seg2_keep (U2 V) main_arg0 (by decide)).trans ((seg1_keep (U1 V) main_arg0 (by decide)).trans (seg0_keep (U0 V) main_arg0 (by decide))))))))))))))))))
theorem arg_kept_1 (V : Val) : U18 V (Proc.devRef .tc main_arg1) = V (Proc.devRef .tc main_arg1) :=
  (seg17_keep (U17 V) main_arg1 (by decide)).trans ((seg16_keep (U16 V) main_arg1 (by decide)).trans ((seg15_keep (U15 V) main_arg1 (by decide)).trans ((seg14_keep (U14 V) main_arg1 (by decide)).trans ((seg13_keep (U13 V) main_arg1 (by decide)).trans ((seg12_keep (U12 V) main_arg1 (by decide)).trans ((seg11_keep (U11 V) main_arg1 (by decide)).trans ((seg10_keep (U10 V) main_arg1 (by decide)).trans ((seg9_keep (U9 V) main_arg1 (by decide)).trans ((seg8_keep (U8 V) main_arg1 (by decide)).trans ((seg7_keep (U7 V) main_arg1 (by decide)).trans ((seg6_keep (U6 V) main_arg1 (by decide)).trans ((seg5_keep (U5 V) main_arg1 (by decide)).trans ((seg4_keep (U4 V) main_arg1 (by decide)).trans ((seg3_keep (U3 V) main_arg1 (by decide)).trans ((seg2_keep (U2 V) main_arg1 (by decide)).trans ((seg1_keep (U1 V) main_arg1 (by decide)).trans (seg0_keep (U0 V) main_arg1 (by decide))))))))))))))))))
theorem arg_kept_2 (V : Val) : U18 V (Proc.devRef .tc main_arg2) = V (Proc.devRef .tc main_arg2) :=
  (seg17_keep (U17 V) main_arg2 (by decide)).trans ((seg16_keep (U16 V) main_arg2 (by decide)).trans ((seg15_keep (U15 V) main_arg2 (by decide)).trans ((seg14_keep (U14 V) main_arg2 (by decide)).trans ((seg13_keep (U13 V) main_arg2 (by decide)).trans ((seg12_keep (U12 V) main_arg2 (by decide)).trans ((seg11_keep (U11 V) main_arg2 (by decide)).trans ((seg10_keep (U10 V) main_arg2 (by decide)).trans ((seg9_keep (U9 V) main_arg2 (by decide)).trans ((seg8_keep (U8 V) main_arg2 (by decide)).trans ((seg7_keep (U7 V) main_arg2 (by decide)).trans ((seg6_keep (U6 V) main_arg2 (by decide)).trans ((seg5_keep (U5 V) main_arg2 (by decide)).trans ((seg4_keep (U4 V) main_arg2 (by decide)).trans ((seg3_keep (U3 V) main_arg2 (by decide)).trans ((seg2_keep (U2 V) main_arg2 (by decide)).trans ((seg1_keep (U1 V) main_arg2 (by decide)).trans (seg0_keep (U0 V) main_arg2 (by decide))))))))))))))))))
theorem arg_kept_3 (V : Val) : U18 V (Proc.devRef .tc main_arg3) = V (Proc.devRef .tc main_arg3) :=
  (seg17_keep (U17 V) main_arg3 (by decide)).trans ((seg16_keep (U16 V) main_arg3 (by decide)).trans ((seg15_keep (U15 V) main_arg3 (by decide)).trans ((seg14_keep (U14 V) main_arg3 (by decide)).trans ((seg13_keep (U13 V) main_arg3 (by decide)).trans ((seg12_keep (U12 V) main_arg3 (by decide)).trans ((seg11_keep (U11 V) main_arg3 (by decide)).trans ((seg10_keep (U10 V) main_arg3 (by decide)).trans ((seg9_keep (U9 V) main_arg3 (by decide)).trans ((seg8_keep (U8 V) main_arg3 (by decide)).trans ((seg7_keep (U7 V) main_arg3 (by decide)).trans ((seg6_keep (U6 V) main_arg3 (by decide)).trans ((seg5_keep (U5 V) main_arg3 (by decide)).trans ((seg4_keep (U4 V) main_arg3 (by decide)).trans ((seg3_keep (U3 V) main_arg3 (by decide)).trans ((seg2_keep (U2 V) main_arg3 (by decide)).trans ((seg1_keep (U1 V) main_arg3 (by decide)).trans (seg0_keep (U0 V) main_arg3 (by decide))))))))))))))))))
theorem arg_kept_4 (V : Val) : U18 V (Proc.devRef .tc main_arg4) = V (Proc.devRef .tc main_arg4) :=
  (seg17_keep (U17 V) main_arg4 (by decide)).trans ((seg16_keep (U16 V) main_arg4 (by decide)).trans ((seg15_keep (U15 V) main_arg4 (by decide)).trans ((seg14_keep (U14 V) main_arg4 (by decide)).trans ((seg13_keep (U13 V) main_arg4 (by decide)).trans ((seg12_keep (U12 V) main_arg4 (by decide)).trans ((seg11_keep (U11 V) main_arg4 (by decide)).trans ((seg10_keep (U10 V) main_arg4 (by decide)).trans ((seg9_keep (U9 V) main_arg4 (by decide)).trans ((seg8_keep (U8 V) main_arg4 (by decide)).trans ((seg7_keep (U7 V) main_arg4 (by decide)).trans ((seg6_keep (U6 V) main_arg4 (by decide)).trans ((seg5_keep (U5 V) main_arg4 (by decide)).trans ((seg4_keep (U4 V) main_arg4 (by decide)).trans ((seg3_keep (U3 V) main_arg4 (by decide)).trans ((seg2_keep (U2 V) main_arg4 (by decide)).trans ((seg1_keep (U1 V) main_arg4 (by decide)).trans (seg0_keep (U0 V) main_arg4 (by decide))))))))))))))))))
theorem arg_kept_5 (V : Val) : U18 V (Proc.devRef .tc main_arg5) = V (Proc.devRef .tc main_arg5) :=
  (seg17_keep (U17 V) main_arg5 (by decide)).trans ((seg16_keep (U16 V) main_arg5 (by decide)).trans ((seg15_keep (U15 V) main_arg5 (by decide)).trans ((seg14_keep (U14 V) main_arg5 (by decide)).trans ((seg13_keep (U13 V) main_arg5 (by decide)).trans ((seg12_keep (U12 V) main_arg5 (by decide)).trans ((seg11_keep (U11 V) main_arg5 (by decide)).trans ((seg10_keep (U10 V) main_arg5 (by decide)).trans ((seg9_keep (U9 V) main_arg5 (by decide)).trans ((seg8_keep (U8 V) main_arg5 (by decide)).trans ((seg7_keep (U7 V) main_arg5 (by decide)).trans ((seg6_keep (U6 V) main_arg5 (by decide)).trans ((seg5_keep (U5 V) main_arg5 (by decide)).trans ((seg4_keep (U4 V) main_arg5 (by decide)).trans ((seg3_keep (U3 V) main_arg5 (by decide)).trans ((seg2_keep (U2 V) main_arg5 (by decide)).trans ((seg1_keep (U1 V) main_arg5 (by decide)).trans (seg0_keep (U0 V) main_arg5 (by decide))))))))))))))))))
theorem arg_kept_6 (V : Val) : U18 V (Proc.devRef .tc main_arg6) = V (Proc.devRef .tc main_arg6) :=
  (seg17_keep (U17 V) main_arg6 (by decide)).trans ((seg16_keep (U16 V) main_arg6 (by decide)).trans ((seg15_keep (U15 V) main_arg6 (by decide)).trans ((seg14_keep (U14 V) main_arg6 (by decide)).trans ((seg13_keep (U13 V) main_arg6 (by decide)).trans ((seg12_keep (U12 V) main_arg6 (by decide)).trans ((seg11_keep (U11 V) main_arg6 (by decide)).trans ((seg10_keep (U10 V) main_arg6 (by decide)).trans ((seg9_keep (U9 V) main_arg6 (by decide)).trans ((seg8_keep (U8 V) main_arg6 (by decide)).trans ((seg7_keep (U7 V) main_arg6 (by decide)).trans ((seg6_keep (U6 V) main_arg6 (by decide)).trans ((seg5_keep (U5 V) main_arg6 (by decide)).trans ((seg4_keep (U4 V) main_arg6 (by decide)).trans ((seg3_keep (U3 V) main_arg6 (by decide)).trans ((seg2_keep (U2 V) main_arg6 (by decide)).trans ((seg1_keep (U1 V) main_arg6 (by decide)).trans (seg0_keep (U0 V) main_arg6 (by decide))))))))))))))))))
theorem arg_kept_7 (V : Val) : U18 V (Proc.devRef .tc main_arg7) = V (Proc.devRef .tc main_arg7) :=
  (seg17_keep (U17 V) main_arg7 (by decide)).trans ((seg16_keep (U16 V) main_arg7 (by decide)).trans ((seg15_keep (U15 V) main_arg7 (by decide)).trans ((seg14_keep (U14 V) main_arg7 (by decide)).trans ((seg13_keep (U13 V) main_arg7 (by decide)).trans ((seg12_keep (U12 V) main_arg7 (by decide)).trans ((seg11_keep (U11 V) main_arg7 (by decide)).trans ((seg10_keep (U10 V) main_arg7 (by decide)).trans ((seg9_keep (U9 V) main_arg7 (by decide)).trans ((seg8_keep (U8 V) main_arg7 (by decide)).trans ((seg7_keep (U7 V) main_arg7 (by decide)).trans ((seg6_keep (U6 V) main_arg7 (by decide)).trans ((seg5_keep (U5 V) main_arg7 (by decide)).trans ((seg4_keep (U4 V) main_arg7 (by decide)).trans ((seg3_keep (U3 V) main_arg7 (by decide)).trans ((seg2_keep (U2 V) main_arg7 (by decide)).trans ((seg1_keep (U1 V) main_arg7 (by decide)).trans (seg0_keep (U0 V) main_arg7 (by decide))))))))))))))))))
theorem arg_kept_8 (V : Val) : U18 V (Proc.devRef .tc main_arg8) = V (Proc.devRef .tc main_arg8) :=
  (seg17_keep (U17 V) main_arg8 (by decide)).trans ((seg16_keep (U16 V) main_arg8 (by decide)).trans ((seg15_keep (U15 V) main_arg8 (by decide)).trans ((seg14_keep (U14 V) main_arg8 (by decide)).trans ((seg13_keep (U13 V) main_arg8 (by decide)).trans ((seg12_keep (U12 V) main_arg8 (by decide)).trans ((seg11_keep (U11 V) main_arg8 (by decide)).trans ((seg10_keep (U10 V) main_arg8 (by decide)).trans ((seg9_keep (U9 V) main_arg8 (by decide)).trans ((seg8_keep (U8 V) main_arg8 (by decide)).trans ((seg7_keep (U7 V) main_arg8 (by decide)).trans ((seg6_keep (U6 V) main_arg8 (by decide)).trans ((seg5_keep (U5 V) main_arg8 (by decide)).trans ((seg4_keep (U4 V) main_arg8 (by decide)).trans ((seg3_keep (U3 V) main_arg8 (by decide)).trans ((seg2_keep (U2 V) main_arg8 (by decide)).trans ((seg1_keep (U1 V) main_arg8 (by decide)).trans (seg0_keep (U0 V) main_arg8 (by decide))))))))))))))))))
theorem arg_kept_9 (V : Val) : U18 V (Proc.devRef .tc main_arg9) = V (Proc.devRef .tc main_arg9) :=
  (seg17_keep (U17 V) main_arg9 (by decide)).trans ((seg16_keep (U16 V) main_arg9 (by decide)).trans ((seg15_keep (U15 V) main_arg9 (by decide)).trans ((seg14_keep (U14 V) main_arg9 (by decide)).trans ((seg13_keep (U13 V) main_arg9 (by decide)).trans ((seg12_keep (U12 V) main_arg9 (by decide)).trans ((seg11_keep (U11 V) main_arg9 (by decide)).trans ((seg10_keep (U10 V) main_arg9 (by decide)).trans ((seg9_keep (U9 V) main_arg9 (by decide)).trans ((seg8_keep (U8 V) main_arg9 (by decide)).trans ((seg7_keep (U7 V) main_arg9 (by decide)).trans ((seg6_keep (U6 V) main_arg9 (by decide)).trans ((seg5_keep (U5 V) main_arg9 (by decide)).trans ((seg4_keep (U4 V) main_arg9 (by decide)).trans ((seg3_keep (U3 V) main_arg9 (by decide)).trans ((seg2_keep (U2 V) main_arg9 (by decide)).trans ((seg1_keep (U1 V) main_arg9 (by decide)).trans (seg0_keep (U0 V) main_arg9 (by decide))))))))))))))))))
theorem arg_kept_10 (V : Val) : U18 V (Proc.devRef .tc main_arg10) = V (Proc.devRef .tc main_arg10) :=
  (seg17_keep (U17 V) main_arg10 (by decide)).trans ((seg16_keep (U16 V) main_arg10 (by decide)).trans ((seg15_keep (U15 V) main_arg10 (by decide)).trans ((seg14_keep (U14 V) main_arg10 (by decide)).trans ((seg13_keep (U13 V) main_arg10 (by decide)).trans ((seg12_keep (U12 V) main_arg10 (by decide)).trans ((seg11_keep (U11 V) main_arg10 (by decide)).trans ((seg10_keep (U10 V) main_arg10 (by decide)).trans ((seg9_keep (U9 V) main_arg10 (by decide)).trans ((seg8_keep (U8 V) main_arg10 (by decide)).trans ((seg7_keep (U7 V) main_arg10 (by decide)).trans ((seg6_keep (U6 V) main_arg10 (by decide)).trans ((seg5_keep (U5 V) main_arg10 (by decide)).trans ((seg4_keep (U4 V) main_arg10 (by decide)).trans ((seg3_keep (U3 V) main_arg10 (by decide)).trans ((seg2_keep (U2 V) main_arg10 (by decide)).trans ((seg1_keep (U1 V) main_arg10 (by decide)).trans (seg0_keep (U0 V) main_arg10 (by decide))))))))))))))))))
theorem arg_kept_11 (V : Val) : U18 V (Proc.devRef .tc main_arg11) = V (Proc.devRef .tc main_arg11) :=
  (seg17_keep (U17 V) main_arg11 (by decide)).trans ((seg16_keep (U16 V) main_arg11 (by decide)).trans ((seg15_keep (U15 V) main_arg11 (by decide)).trans ((seg14_keep (U14 V) main_arg11 (by decide)).trans ((seg13_keep (U13 V) main_arg11 (by decide)).trans ((seg12_keep (U12 V) main_arg11 (by decide)).trans ((seg11_keep (U11 V) main_arg11 (by decide)).trans ((seg10_keep (U10 V) main_arg11 (by decide)).trans ((seg9_keep (U9 V) main_arg11 (by decide)).trans ((seg8_keep (U8 V) main_arg11 (by decide)).trans ((seg7_keep (U7 V) main_arg11 (by decide)).trans ((seg6_keep (U6 V) main_arg11 (by decide)).trans ((seg5_keep (U5 V) main_arg11 (by decide)).trans ((seg4_keep (U4 V) main_arg11 (by decide)).trans ((seg3_keep (U3 V) main_arg11 (by decide)).trans ((seg2_keep (U2 V) main_arg11 (by decide)).trans ((seg1_keep (U1 V) main_arg11 (by decide)).trans (seg0_keep (U0 V) main_arg11 (by decide))))))))))))))))))
theorem arg_kept_12 (V : Val) : U18 V (Proc.devRef .tc main_arg12) = V (Proc.devRef .tc main_arg12) :=
  (seg17_keep (U17 V) main_arg12 (by decide)).trans ((seg16_keep (U16 V) main_arg12 (by decide)).trans ((seg15_keep (U15 V) main_arg12 (by decide)).trans ((seg14_keep (U14 V) main_arg12 (by decide)).trans ((seg13_keep (U13 V) main_arg12 (by decide)).trans ((seg12_keep (U12 V) main_arg12 (by decide)).trans ((seg11_keep (U11 V) main_arg12 (by decide)).trans ((seg10_keep (U10 V) main_arg12 (by decide)).trans ((seg9_keep (U9 V) main_arg12 (by decide)).trans ((seg8_keep (U8 V) main_arg12 (by decide)).trans ((seg7_keep (U7 V) main_arg12 (by decide)).trans ((seg6_keep (U6 V) main_arg12 (by decide)).trans ((seg5_keep (U5 V) main_arg12 (by decide)).trans ((seg4_keep (U4 V) main_arg12 (by decide)).trans ((seg3_keep (U3 V) main_arg12 (by decide)).trans ((seg2_keep (U2 V) main_arg12 (by decide)).trans ((seg1_keep (U1 V) main_arg12 (by decide)).trans (seg0_keep (U0 V) main_arg12 (by decide))))))))))))))))))
theorem arg_kept_13 (V : Val) : U18 V (Proc.devRef .tc main_arg13) = V (Proc.devRef .tc main_arg13) :=
  (seg17_keep (U17 V) main_arg13 (by decide)).trans ((seg16_keep (U16 V) main_arg13 (by decide)).trans ((seg15_keep (U15 V) main_arg13 (by decide)).trans ((seg14_keep (U14 V) main_arg13 (by decide)).trans ((seg13_keep (U13 V) main_arg13 (by decide)).trans ((seg12_keep (U12 V) main_arg13 (by decide)).trans ((seg11_keep (U11 V) main_arg13 (by decide)).trans ((seg10_keep (U10 V) main_arg13 (by decide)).trans ((seg9_keep (U9 V) main_arg13 (by decide)).trans ((seg8_keep (U8 V) main_arg13 (by decide)).trans ((seg7_keep (U7 V) main_arg13 (by decide)).trans ((seg6_keep (U6 V) main_arg13 (by decide)).trans ((seg5_keep (U5 V) main_arg13 (by decide)).trans ((seg4_keep (U4 V) main_arg13 (by decide)).trans ((seg3_keep (U3 V) main_arg13 (by decide)).trans ((seg2_keep (U2 V) main_arg13 (by decide)).trans ((seg1_keep (U1 V) main_arg13 (by decide)).trans (seg0_keep (U0 V) main_arg13 (by decide))))))))))))))))))
theorem arg_kept_14 (V : Val) : U18 V (Proc.devRef .tc main_arg14) = V (Proc.devRef .tc main_arg14) :=
  (seg17_keep (U17 V) main_arg14 (by decide)).trans ((seg16_keep (U16 V) main_arg14 (by decide)).trans ((seg15_keep (U15 V) main_arg14 (by decide)).trans ((seg14_keep (U14 V) main_arg14 (by decide)).trans ((seg13_keep (U13 V) main_arg14 (by decide)).trans ((seg12_keep (U12 V) main_arg14 (by decide)).trans ((seg11_keep (U11 V) main_arg14 (by decide)).trans ((seg10_keep (U10 V) main_arg14 (by decide)).trans ((seg9_keep (U9 V) main_arg14 (by decide)).trans ((seg8_keep (U8 V) main_arg14 (by decide)).trans ((seg7_keep (U7 V) main_arg14 (by decide)).trans ((seg6_keep (U6 V) main_arg14 (by decide)).trans ((seg5_keep (U5 V) main_arg14 (by decide)).trans ((seg4_keep (U4 V) main_arg14 (by decide)).trans ((seg3_keep (U3 V) main_arg14 (by decide)).trans ((seg2_keep (U2 V) main_arg14 (by decide)).trans ((seg1_keep (U1 V) main_arg14 (by decide)).trans (seg0_keep (U0 V) main_arg14 (by decide))))))))))))))))))
theorem arg_kept_15 (V : Val) : U18 V (Proc.devRef .tc main_arg15) = V (Proc.devRef .tc main_arg15) :=
  (seg17_keep (U17 V) main_arg15 (by decide)).trans ((seg16_keep (U16 V) main_arg15 (by decide)).trans ((seg15_keep (U15 V) main_arg15 (by decide)).trans ((seg14_keep (U14 V) main_arg15 (by decide)).trans ((seg13_keep (U13 V) main_arg15 (by decide)).trans ((seg12_keep (U12 V) main_arg15 (by decide)).trans ((seg11_keep (U11 V) main_arg15 (by decide)).trans ((seg10_keep (U10 V) main_arg15 (by decide)).trans ((seg9_keep (U9 V) main_arg15 (by decide)).trans ((seg8_keep (U8 V) main_arg15 (by decide)).trans ((seg7_keep (U7 V) main_arg15 (by decide)).trans ((seg6_keep (U6 V) main_arg15 (by decide)).trans ((seg5_keep (U5 V) main_arg15 (by decide)).trans ((seg4_keep (U4 V) main_arg15 (by decide)).trans ((seg3_keep (U3 V) main_arg15 (by decide)).trans ((seg2_keep (U2 V) main_arg15 (by decide)).trans ((seg1_keep (U1 V) main_arg15 (by decide)).trans (seg0_keep (U0 V) main_arg15 (by decide))))))))))))))))))
theorem arg_kept_16 (V : Val) : U18 V (Proc.devRef .tc main_arg16) = V (Proc.devRef .tc main_arg16) :=
  (seg17_keep (U17 V) main_arg16 (by decide)).trans ((seg16_keep (U16 V) main_arg16 (by decide)).trans ((seg15_keep (U15 V) main_arg16 (by decide)).trans ((seg14_keep (U14 V) main_arg16 (by decide)).trans ((seg13_keep (U13 V) main_arg16 (by decide)).trans ((seg12_keep (U12 V) main_arg16 (by decide)).trans ((seg11_keep (U11 V) main_arg16 (by decide)).trans ((seg10_keep (U10 V) main_arg16 (by decide)).trans ((seg9_keep (U9 V) main_arg16 (by decide)).trans ((seg8_keep (U8 V) main_arg16 (by decide)).trans ((seg7_keep (U7 V) main_arg16 (by decide)).trans ((seg6_keep (U6 V) main_arg16 (by decide)).trans ((seg5_keep (U5 V) main_arg16 (by decide)).trans ((seg4_keep (U4 V) main_arg16 (by decide)).trans ((seg3_keep (U3 V) main_arg16 (by decide)).trans ((seg2_keep (U2 V) main_arg16 (by decide)).trans ((seg1_keep (U1 V) main_arg16 (by decide)).trans (seg0_keep (U0 V) main_arg16 (by decide))))))))))))))))))
theorem arg_kept_17 (V : Val) : U18 V (Proc.devRef .tc main_arg17) = V (Proc.devRef .tc main_arg17) :=
  (seg17_keep (U17 V) main_arg17 (by decide)).trans ((seg16_keep (U16 V) main_arg17 (by decide)).trans ((seg15_keep (U15 V) main_arg17 (by decide)).trans ((seg14_keep (U14 V) main_arg17 (by decide)).trans ((seg13_keep (U13 V) main_arg17 (by decide)).trans ((seg12_keep (U12 V) main_arg17 (by decide)).trans ((seg11_keep (U11 V) main_arg17 (by decide)).trans ((seg10_keep (U10 V) main_arg17 (by decide)).trans ((seg9_keep (U9 V) main_arg17 (by decide)).trans ((seg8_keep (U8 V) main_arg17 (by decide)).trans ((seg7_keep (U7 V) main_arg17 (by decide)).trans ((seg6_keep (U6 V) main_arg17 (by decide)).trans ((seg5_keep (U5 V) main_arg17 (by decide)).trans ((seg4_keep (U4 V) main_arg17 (by decide)).trans ((seg3_keep (U3 V) main_arg17 (by decide)).trans ((seg2_keep (U2 V) main_arg17 (by decide)).trans ((seg1_keep (U1 V) main_arg17 (by decide)).trans (seg0_keep (U0 V) main_arg17 (by decide))))))))))))))))))
theorem arg_kept_18 (V : Val) : U18 V (Proc.devRef .tc main_arg18) = V (Proc.devRef .tc main_arg18) :=
  (seg17_keep (U17 V) main_arg18 (by decide)).trans ((seg16_keep (U16 V) main_arg18 (by decide)).trans ((seg15_keep (U15 V) main_arg18 (by decide)).trans ((seg14_keep (U14 V) main_arg18 (by decide)).trans ((seg13_keep (U13 V) main_arg18 (by decide)).trans ((seg12_keep (U12 V) main_arg18 (by decide)).trans ((seg11_keep (U11 V) main_arg18 (by decide)).trans ((seg10_keep (U10 V) main_arg18 (by decide)).trans ((seg9_keep (U9 V) main_arg18 (by decide)).trans ((seg8_keep (U8 V) main_arg18 (by decide)).trans ((seg7_keep (U7 V) main_arg18 (by decide)).trans ((seg6_keep (U6 V) main_arg18 (by decide)).trans ((seg5_keep (U5 V) main_arg18 (by decide)).trans ((seg4_keep (U4 V) main_arg18 (by decide)).trans ((seg3_keep (U3 V) main_arg18 (by decide)).trans ((seg2_keep (U2 V) main_arg18 (by decide)).trans ((seg1_keep (U1 V) main_arg18 (by decide)).trans (seg0_keep (U0 V) main_arg18 (by decide))))))))))))))))))

/-- The launch contents of a device's buffer are the memory's contents at the buffer's location on that device. -/
theorem launch_arg (m : (ℓ : Loc nD τ sig) → Buf (Elt Ideal) ℓ) (d : Dev nD) (b : Ref sig .tc) :
    launchContents m d (Proc.devRef .tc b) = m ((d.tc : Thread nD τ).loc b) := rfl

end Cert.ReferenceIdeal.HandRun

end
-- ==== Proof.KRaw.lean ====
/-
  Each host stretch of the kernel program read at one buffer: the stretch's operations, in order, applied to the
  contents it found. One equation per buffer that a later stage uses; the right-hand sides are the program's own
  operations composed, over the contents of the buffers the stretch does not itself write.
-/
import proofs.«136606_j68719476736452_2_alg».proof.Proof.Gen.KernelIdeal.Frame
import Idealize.ShloMosaic.Lib.StableHlo.Run

set_option maxRecDepth 16384

noncomputable section

namespace Cert.KernelIdeal.Raw

open Cert.KernelIdeal Cert.KernelIdeal.Gen
open Idealize.ShloMosaic Idealize.ShloMosaic.TcCoe

variable {F : FTy → Type} [FloatOps F]

/-- After the stretch, v1 holds the source node of every edge. -/
theorem hostOps0_v1 (U : Valuation τ sig (Elt F)) : StableHlo.after (hostOps0 (F := F)) U (Proc.devRef .tc main_v1)
    = (fun i => (rfl : main_v0.ty.elt = main_v1.ty.elt) ▸ shapeCast main_v1.ty.shape (((extractStridedSlice S1x640000 ![0, 0] · slices_S2x640000_S1x640000_0_0) : (⟨S2x640000, .i32⟩ : BufTy).Contents (Elt F) → (⟨S1x640000, .i32⟩ : BufTy).Contents (Elt F)) (U (Proc.devRef .tc main_arg1))) shapeCasts_S1x640000_S640000 i) := by
  after_results_simp
  all_goals rfl

/-- After the stretch, v3 holds the target node of every edge. -/
theorem hostOps0_v3 (U : Valuation τ sig (Elt F)) : StableHlo.after (hostOps0 (F := F)) U (Proc.devRef .tc main_v3)
    = (fun i => (rfl : main_v2.ty.elt = main_v3.ty.elt) ▸ shapeCast main_v3.ty.shape (((extractStridedSlice S1x640000 ![1, 0] · slices_S2x640000_S1x640000_1_0) : (⟨S2x640000, .i32⟩ : BufTy).Contents (Elt F) → (⟨S1x640000, .i32⟩ : BufTy).Contents (Elt F)) (U (Proc.devRef .tc main_arg1))) shapeCasts_S1x640000_S640000 i) := by
  after_results_simp
  all_goals rfl

/-- After the stretch, v12 holds the inverse square root of each node's degree clamped below at one. -/
theorem hostOps0_v12 (U : Valuation τ sig (Elt F)) : StableHlo.after (hostOps0 (F := F)) U (Proc.devRef .tc main_v12)
    = ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) (((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32)) ((broadcastInDim S640000x1 ![0] bcast_S640000_S640000x1_0 : (⟨S640000, .i32⟩ : BufTy).Contents (Elt F) → (⟨S640000x1, .i32⟩ : BufTy).Contents (Elt F)) (fun i => (rfl : main_v2.ty.elt = main_v3.ty.elt) ▸ shapeCast main_v3.ty.shape (((extractStridedSlice S1x640000 ![1, 0] · slices_S2x640000_S1x640000_1_0) : (⟨S2x640000, .i32⟩ : BufTy).Contents (Elt F) → (⟨S1x640000, .i32⟩ : BufTy).Contents (Elt F)) (U (Proc.devRef .tc main_arg1))) shapeCasts_S1x640000_S640000 i)) ((broadcastInDim S640000 ![] bcast_S_S640000 : (⟨S_, .f32⟩ : BufTy).Contents (Elt F) → (⟨S640000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0x3F800000#32)))) := by
  after_results_simp
  all_goals rfl

/-- After the stretch, cst_3 holds the constant zero. -/
theorem hostOps0_cst_3 (U : Valuation τ sig (Elt F)) : StableHlo.after (hostOps0 (F := F)) U (Proc.devRef .tc main_cst_3)
    = (constant S_ .f32 0x00000000#32) := by
  after_results_simp
  all_goals rfl

/-- After the stretch, v13 holds the degree normaliser: the inverse square root where the degree is positive, zero elsewhere. -/
theorem hostOps0_1_v13 (U : Valuation τ sig (Elt F)) : StableHlo.after (hostOps0_1 (F := F)) U (Proc.devRef .tc main_v13)
    = (select (U (Proc.devRef .tc main_v9)) (U (Proc.devRef .tc main_v12)) ((broadcastInDim S100000 ![] bcast_S_S100000) (id (U (Proc.devRef .tc main_cst_3))))) := by
  after_results
  all_goals rfl

/-- After the stretch, v29 holds the edge weights: the normalisers of an edge's two ends multiplied. -/
theorem hostOps0_2_v29 (U : Valuation τ sig (Elt F)) : StableHlo.after (hostOps0_2 (F := F)) U (Proc.devRef .tc main_v29)
    = ((broadcastInDim S640000x1 ![0] bcast_S640000_S640000x1_0 : (⟨S640000, .f32⟩ : BufTy).Contents (Elt F) → (⟨S640000x1, .f32⟩ : BufTy).Contents (Elt F)) ((mulf : (⟨S640000, .f32⟩ : BufTy).Contents (Elt F) → (⟨S640000, .f32⟩ : BufTy).Contents (Elt F) → (⟨S640000, .f32⟩ : BufTy).Contents (Elt F)) (((fun x i => Host.gather gather_S100000_S640000x1_S640000_n_0_n_n_0_1_1 x i) : (⟨S100000, .f32⟩ : BufTy).Contents (Elt F) → (⟨S640000x1, .i32⟩ : BufTy).Contents (Elt F) → (⟨S640000, .f32⟩ : BufTy).Contents (Elt F)) (U (Proc.devRef .tc main_v13)) ((broadcastInDim S640000x1 ![0] bcast_S640000_S640000x1_0 : (⟨S640000, .i32⟩ : BufTy).Contents (Elt F) → (⟨S640000x1, .i32⟩ : BufTy).Contents (Elt F)) ((select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)) ((cmpi .slt : (⟨S640000, .i32⟩ : BufTy).Contents (Elt F) → (⟨S640000, .i32⟩ : BufTy).Contents (Elt F) → (⟨S640000, .i1⟩ : BufTy).Contents (Elt F)) (U (Proc.devRef .tc main_v1)) ((broadcastInDim S640000 ![] bcast_S_S640000 : (⟨S_, .i32⟩ : BufTy).Contents (Elt F) → (⟨S640000, .i32⟩ : BufTy).Contents (Elt F)) (constantI S_ 32 0#32))) ((addi : (⟨S640000, .i32⟩ : BufTy).Contents (Elt F) → (⟨S640000, .i32⟩ : BufTy).Contents (Elt F) → (⟨S640000, .i32⟩ : BufTy).Contents (Elt F)) (U (Proc.devRef .tc main_v1)) ((broadcastInDim S640000 ![] bcast_S_S640000 : (⟨S_, .i32⟩ : BufTy).Contents (Elt F) → (⟨S640000, .i32⟩ : BufTy).Contents (Elt F)) (constantI S_ 32 100000#32))) (U (Proc.devRef .tc main_v1))))) (((fun x i => Host.gather gather_S100000_S640000x1_S640000_n_0_n_n_0_1_1 x i) : (⟨S100000, .f32⟩ : BufTy).Contents (Elt F) → (⟨S640000x1, .i32⟩ : BufTy).Contents (Elt F) → (⟨S640000, .f32⟩ : BufTy).Contents (Elt F)) (U (Proc.devRef .tc main_v13)) ((broadcastInDim S640000x1 ![0] bcast_S640000_S640000x1_0 : (⟨S640000, .i32⟩ : BufTy).Contents (Elt F) → (⟨S640000x1, .i32⟩ : BufTy).Contents (Elt F)) ((select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)) ((cmpi .slt : (⟨S640000, .i32⟩ : BufTy).Contents (Elt F) → (⟨S640000, .i32⟩ : BufTy).Contents (Elt F) → (⟨S640000, .i1⟩ : BufTy).Contents (Elt F)) (U (Proc.devRef .tc main_v3)) ((broadcastInDim S640000 ![] bcast_S_S640000 : (⟨S_, .i32⟩ : BufTy).Contents (Elt F) → (⟨S640000, .i32⟩ : BufTy).Contents (Elt F)) (constantI S_ 32 0#32))) ((addi : (⟨S640000, .i32⟩ : BufTy).Contents (Elt F) → (⟨S640000, .i32⟩ : BufTy).Contents (Elt F) → (⟨S640000, .i32⟩ : BufTy).Contents (Elt F)) (U (Proc.devRef .tc main_v3)) ((broadcastInDim S640000 ![] bcast_S_S640000 : (⟨S_, .i32⟩ : BufTy).Contents (Elt F) → (⟨S640000, .i32⟩ : BufTy).Contents (Elt F)) (constantI S_ 32 100000#32))) (U (Proc.devRef .tc main_v3))))))) := by
  after_results_simp
  all_goals rfl

/-- After the stretch, v30 holds the zero bias row. -/
theorem hostOps0_2_v30 (U : Valuation τ sig (Elt F)) : StableHlo.after (hostOps0_2 (F := F)) U (Proc.devRef .tc main_v30)
    = ((broadcastInDim S1x128 ![] bcast_S_S1x128 : (⟨S_, .f32⟩ : BufTy).Contents (Elt F) → (⟨S1x128, .f32⟩ : BufTy).Contents (Elt F)) (constant S_ .f32 0x00000000#32)) := by
  after_results_simp
  all_goals rfl

/-- After the stretch, v31 holds the first dense layer's bias as a row. -/
theorem hostOps0_2_v31 (U : Valuation τ sig (Elt F)) : StableHlo.after (hostOps0_2 (F := F)) U (Proc.devRef .tc main_v31)
    = (fun i => (rfl : main_arg4.ty.elt = main_v31.ty.elt) ▸ shapeCast main_v31.ty.shape (U (Proc.devRef .tc main_arg4)) shapeCasts_S128_S1x128 i) := by
  after_results_simp
  all_goals rfl

/-- After the stretch, v32 holds the encoder's scale as a row. -/
theorem hostOps0_2_v32 (U : Valuation τ sig (Elt F)) : StableHlo.after (hostOps0_2 (F := F)) U (Proc.devRef .tc main_v32)
    = (fun i => (rfl : main_arg5.ty.elt = main_v32.ty.elt) ▸ shapeCast main_v32.ty.shape (U (Proc.devRef .tc main_arg5)) shapeCasts_S128_S1x128 i) := by
  after_results_simp
  all_goals rfl

/-- After the stretch, v33 holds the encoder's shift as a row. -/
theorem hostOps0_2_v33 (U : Valuation τ sig (Elt F)) : StableHlo.after (hostOps0_2 (F := F)) U (Proc.devRef .tc main_v33)
    = (fun i => (rfl : main_arg6.ty.elt = main_v33.ty.elt) ▸ shapeCast main_v33.ty.shape (U (Proc.devRef .tc main_arg6)) shapeCasts_S128_S1x128 i) := by
  after_results_simp
  all_goals rfl

/-- After the stretch, v34 holds the second dense layer's bias as a row. -/
theorem hostOps0_2_v34 (U : Valuation τ sig (Elt F)) : StableHlo.after (hostOps0_2 (F := F)) U (Proc.devRef .tc main_v34)
    = (fun i => (rfl : main_arg8.ty.elt = main_v34.ty.elt) ▸ shapeCast main_v34.ty.shape (U (Proc.devRef .tc main_arg8)) shapeCasts_S128_S1x128 i) := by
  after_results_simp
  all_goals rfl

/-- After the stretch, v38 holds the column means. -/
theorem hostOps2_v38 (U : Valuation τ sig (Elt F)) : StableHlo.after (hostOps2 (F := F)) U (Proc.devRef .tc main_v38)
    = ((Host.divf : (⟨S1x128, .f32⟩ : BufTy).Contents (Elt F) → (⟨S1x128, .f32⟩ : BufTy).Contents (Elt F) → (⟨S1x128, .f32⟩ : BufTy).Contents (Elt F)) (U (Proc.devRef .tc main_v36_0)) ((broadcastInDim S1x128 ![] bcast_S_S1x128 : (⟨S_, .f32⟩ : BufTy).Contents (Elt F) → (⟨S1x128, .f32⟩ : BufTy).Contents (Elt F)) (constant S_ .f32 0x47C35000#32))) := by
  after_results
  all_goals rfl

/-- After the stretch, v44 holds the one-pass column variances. -/
theorem hostOps2_v44 (U : Valuation τ sig (Elt F)) : StableHlo.after (hostOps2 (F := F)) U (Proc.devRef .tc main_v44)
    = ((maximumf : (⟨S1x128, .f32⟩ : BufTy).Contents (Elt F) → (⟨S1x128, .f32⟩ : BufTy).Contents (Elt F) → (⟨S1x128, .f32⟩ : BufTy).Contents (Elt F)) ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (U (Proc.devRef .tc main_v36_1)) ((broadcastInDim S1x128 ![] bcast_S_S1x128 : (⟨S_, .f32⟩ : BufTy).Contents (Elt F) → (⟨S1x128, .f32⟩ : BufTy).Contents (Elt F)) (constant S_ .f32 0x47C35000#32))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (U (Proc.devRef .tc main_v36_0)) ((broadcastInDim S1x128 ![] bcast_S_S1x128 : (⟨S_, .f32⟩ : BufTy).Contents (Elt F) → (⟨S1x128, .f32⟩ : BufTy).Contents (Elt F)) (constant S_ .f32 0x47C35000#32))) ((Host.divf : (⟨S1x128, .f32⟩ : BufTy).Contents (Elt F) → (⟨S1x128, .f32⟩ : BufTy).Contents (Elt F) → (⟨S1x128, .f32⟩ : BufTy).Contents (Elt F)) (U (Proc.devRef .tc main_v36_0)) ((broadcastInDim S1x128 ![] bcast_S_S1x128 : (⟨S_, .f32⟩ : BufTy).Contents (Elt F) → (⟨S1x128, .f32⟩ : BufTy).Contents (Elt F)) (constant S_ .f32 0x47C35000#32))))) ((broadcastInDim S1x128 ![] bcast_S_S1x128 : (⟨S_, .f32⟩ : BufTy).Contents (Elt F) → (⟨S1x128, .f32⟩ : BufTy).Contents (Elt F)) (constant S_ .f32 0x00000000#32))) := by
  after_results
  all_goals rfl

/-- After the stretch, v73 holds the column means. -/
theorem hostOps6_v73 (U : Valuation τ sig (Elt F)) : StableHlo.after (hostOps6 (F := F)) U (Proc.devRef .tc main_v73)
    = ((Host.divf : (⟨S1x128, .f32⟩ : BufTy).Contents (Elt F) → (⟨S1x128, .f32⟩ : BufTy).Contents (Elt F) → (⟨S1x128, .f32⟩ : BufTy).Contents (Elt F)) (U (Proc.devRef .tc main_v71_0)) ((broadcastInDim S1x128 ![] bcast_S_S1x128 : (⟨S_, .f32⟩ : BufTy).Contents (Elt F) → (⟨S1x128, .f32⟩ : BufTy).Contents (Elt F)) (constant S_ .f32 0x47C35000#32))) := by
  after_results
  all_goals rfl

/-- After the stretch, v79 holds the one-pass column variances. -/
theorem hostOps6_v79 (U : Valuation τ sig (Elt F)) : StableHlo.after (hostOps6 (F := F)) U (Proc.devRef .tc main_v79)
    = ((maximumf : (⟨S1x128, .f32⟩ : BufTy).Contents (Elt F) → (⟨S1x128, .f32⟩ : BufTy).Contents (Elt F) → (⟨S1x128, .f32⟩ : BufTy).Contents (Elt F)) ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (U (Proc.devRef .tc main_v71_1)) ((broadcastInDim S1x128 ![] bcast_S_S1x128 : (⟨S_, .f32⟩ : BufTy).Contents (Elt F) → (⟨S1x128, .f32⟩ : BufTy).Contents (Elt F)) (constant S_ .f32 0x47C35000#32))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (U (Proc.devRef .tc main_v71_0)) ((broadcastInDim S1x128 ![] bcast_S_S1x128 : (⟨S_, .f32⟩ : BufTy).Contents (Elt F) → (⟨S1x128, .f32⟩ : BufTy).Contents (Elt F)) (constant S_ .f32 0x47C35000#32))) ((Host.divf : (⟨S1x128, .f32⟩ : BufTy).Contents (Elt F) → (⟨S1x128, .f32⟩ : BufTy).Contents (Elt F) → (⟨S1x128, .f32⟩ : BufTy).Contents (Elt F)) (U (Proc.devRef .tc main_v71_0)) ((broadcastInDim S1x128 ![] bcast_S_S1x128 : (⟨S_, .f32⟩ : BufTy).Contents (Elt F) → (⟨S1x128, .f32⟩ : BufTy).Contents (Elt F)) (constant S_ .f32 0x47C35000#32))))) ((broadcastInDim S1x128 ![] bcast_S_S1x128 : (⟨S_, .f32⟩ : BufTy).Contents (Elt F) → (⟨S1x128, .f32⟩ : BufTy).Contents (Elt F)) (constant S_ .f32 0x00000000#32))) := by
  after_results
  all_goals rfl

/-- After the stretch, v107 holds the column means. -/
theorem hostOps9_v107 (U : Valuation τ sig (Elt F)) : StableHlo.after (hostOps9 (F := F)) U (Proc.devRef .tc main_v107)
    = ((Host.divf : (⟨S1x128, .f32⟩ : BufTy).Contents (Elt F) → (⟨S1x128, .f32⟩ : BufTy).Contents (Elt F) → (⟨S1x128, .f32⟩ : BufTy).Contents (Elt F)) (U (Proc.devRef .tc main_v105_0)) ((broadcastInDim S1x128 ![] bcast_S_S1x128 : (⟨S_, .f32⟩ : BufTy).Contents (Elt F) → (⟨S1x128, .f32⟩ : BufTy).Contents (Elt F)) (constant S_ .f32 0x47C35000#32))) := by
  after_results
  all_goals rfl

/-- After the stretch, v113 holds the one-pass column variances. -/
theorem hostOps9_v113 (U : Valuation τ sig (Elt F)) : StableHlo.after (hostOps9 (F := F)) U (Proc.devRef .tc main_v113)
    = ((maximumf : (⟨S1x128, .f32⟩ : BufTy).Contents (Elt F) → (⟨S1x128, .f32⟩ : BufTy).Contents (Elt F) → (⟨S1x128, .f32⟩ : BufTy).Contents (Elt F)) ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (U (Proc.devRef .tc main_v105_1)) ((broadcastInDim S1x128 ![] bcast_S_S1x128 : (⟨S_, .f32⟩ : BufTy).Contents (Elt F) → (⟨S1x128, .f32⟩ : BufTy).Contents (Elt F)) (constant S_ .f32 0x47C35000#32))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (U (Proc.devRef .tc main_v105_0)) ((broadcastInDim S1x128 ![] bcast_S_S1x128 : (⟨S_, .f32⟩ : BufTy).Contents (Elt F) → (⟨S1x128, .f32⟩ : BufTy).Contents (Elt F)) (constant S_ .f32 0x47C35000#32))) ((Host.divf : (⟨S1x128, .f32⟩ : BufTy).Contents (Elt F) → (⟨S1x128, .f32⟩ : BufTy).Contents (Elt F) → (⟨S1x128, .f32⟩ : BufTy).Contents (Elt F)) (U (Proc.devRef .tc main_v105_0)) ((broadcastInDim S1x128 ![] bcast_S_S1x128 : (⟨S_, .f32⟩ : BufTy).Contents (Elt F) → (⟨S1x128, .f32⟩ : BufTy).Contents (Elt F)) (constant S_ .f32 0x47C35000#32))))) ((broadcastInDim S1x128 ![] bcast_S_S1x128 : (⟨S_, .f32⟩ : BufTy).Contents (Elt F) → (⟨S1x128, .f32⟩ : BufTy).Contents (Elt F)) (constant S_ .f32 0x00000000#32))) := by
  after_results
  all_goals rfl

/-- After the stretch, v141 holds the column means. -/
theorem hostOps12_v141 (U : Valuation τ sig (Elt F)) : StableHlo.after (hostOps12 (F := F)) U (Proc.devRef .tc main_v141)
    = ((Host.divf : (⟨S1x128, .f32⟩ : BufTy).Contents (Elt F) → (⟨S1x128, .f32⟩ : BufTy).Contents (Elt F) → (⟨S1x128, .f32⟩ : BufTy).Contents (Elt F)) (U (Proc.devRef .tc main_v139_0)) ((broadcastInDim S1x128 ![] bcast_S_S1x128 : (⟨S_, .f32⟩ : BufTy).Contents (Elt F) → (⟨S1x128, .f32⟩ : BufTy).Contents (Elt F)) (constant S_ .f32 0x47C35000#32))) := by
  after_results
  all_goals rfl

/-- After the stretch, v147 holds the one-pass column variances. -/
theorem hostOps12_v147 (U : Valuation τ sig (Elt F)) : StableHlo.after (hostOps12 (F := F)) U (Proc.devRef .tc main_v147)
    = ((maximumf : (⟨S1x128, .f32⟩ : BufTy).Contents (Elt F) → (⟨S1x128, .f32⟩ : BufTy).Contents (Elt F) → (⟨S1x128, .f32⟩ : BufTy).Contents (Elt F)) ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (U (Proc.devRef .tc main_v139_1)) ((broadcastInDim S1x128 ![] bcast_S_S1x128 : (⟨S_, .f32⟩ : BufTy).Contents (Elt F) → (⟨S1x128, .f32⟩ : BufTy).Contents (Elt F)) (constant S_ .f32 0x47C35000#32))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (U (Proc.devRef .tc main_v139_0)) ((broadcastInDim S1x128 ![] bcast_S_S1x128 : (⟨S_, .f32⟩ : BufTy).Contents (Elt F) → (⟨S1x128, .f32⟩ : BufTy).Contents (Elt F)) (constant S_ .f32 0x47C35000#32))) ((Host.divf : (⟨S1x128, .f32⟩ : BufTy).Contents (Elt F) → (⟨S1x128, .f32⟩ : BufTy).Contents (Elt F) → (⟨S1x128, .f32⟩ : BufTy).Contents (Elt F)) (U (Proc.devRef .tc main_v139_0)) ((broadcastInDim S1x128 ![] bcast_S_S1x128 : (⟨S_, .f32⟩ : BufTy).Contents (Elt F) → (⟨S1x128, .f32⟩ : BufTy).Contents (Elt F)) (constant S_ .f32 0x47C35000#32))))) ((broadcastInDim S1x128 ![] bcast_S_S1x128 : (⟨S_, .f32⟩ : BufTy).Contents (Elt F) → (⟨S1x128, .f32⟩ : BufTy).Contents (Elt F)) (constant S_ .f32 0x00000000#32))) := by
  after_results
  all_goals rfl

/-- After the stretch, v48 holds the first layer's weight matrix. -/
theorem hostOps4_v48 (U : Valuation τ sig (Elt F)) : StableHlo.after (hostOps4 (F := F)) U (Proc.devRef .tc main_v48)
    = (fun i => (rfl : main_v47.ty.elt = main_v48.ty.elt) ▸ shapeCast main_v48.ty.shape (((extractStridedSlice S1x128x128 ![0, 0, 0] · slices_S3x128x128_S1x128x128_0_0_0) : (⟨S3x128x128, .f32⟩ : BufTy).Contents (Elt F) → (⟨S1x128x128, .f32⟩ : BufTy).Contents (Elt F)) (U (Proc.devRef .tc main_arg9))) shapeCasts_S1x128x128_S128x128 i) := by
  after_results
  all_goals rfl

/-- After the stretch, v82 holds the second layer's weight matrix. -/
theorem hostOps7_v82 (U : Valuation τ sig (Elt F)) : StableHlo.after (hostOps7 (F := F)) U (Proc.devRef .tc main_v82)
    = (fun i => (rfl : main_v81.ty.elt = main_v82.ty.elt) ▸ shapeCast main_v82.ty.shape (((extractStridedSlice S1x128x128 ![1, 0, 0] · slices_S3x128x128_S1x128x128_1_0_0) : (⟨S3x128x128, .f32⟩ : BufTy).Contents (Elt F) → (⟨S1x128x128, .f32⟩ : BufTy).Contents (Elt F)) (U (Proc.devRef .tc main_arg9))) shapeCasts_S1x128x128_S128x128 i) := by
  after_results
  all_goals rfl

/-- After the stretch, v116 holds the third layer's weight matrix. -/
theorem hostOps10_v116 (U : Valuation τ sig (Elt F)) : StableHlo.after (hostOps10 (F := F)) U (Proc.devRef .tc main_v116)
    = (fun i => (rfl : main_v115.ty.elt = main_v116.ty.elt) ▸ shapeCast main_v116.ty.shape (((extractStridedSlice S1x128x128 ![2, 0, 0] · slices_S3x128x128_S1x128x128_2_0_0) : (⟨S3x128x128, .f32⟩ : BufTy).Contents (Elt F) → (⟨S1x128x128, .f32⟩ : BufTy).Contents (Elt F)) (U (Proc.devRef .tc main_arg9))) shapeCasts_S1x128x128_S128x128 i) := by
  after_results
  all_goals rfl

/-- After the stretch, v61 holds the aggregate over incoming edges. -/
theorem hostOps5_v61 (U : Valuation τ sig (Elt F)) : StableHlo.after (hostOps5 (F := F)) U (Proc.devRef .tc main_v61)
    = (((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32)) ((broadcastInDim S640000x1 ![0] bcast_S640000_S640000x1_0 : (⟨S640000, .i32⟩ : BufTy).Contents (Elt F) → (⟨S640000x1, .i32⟩ : BufTy).Contents (Elt F)) (U (Proc.devRef .tc main_v3))) ((mulf : (⟨S640000x128, .f32⟩ : BufTy).Contents (Elt F) → (⟨S640000x128, .f32⟩ : BufTy).Contents (Elt F) → (⟨S640000x128, .f32⟩ : BufTy).Contents (Elt F)) (((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)) (U (Proc.devRef .tc main_v49)) ((broadcastInDim S640000x1 ![0] bcast_S640000_S640000x1_0 : (⟨S640000, .i32⟩ : BufTy).Contents (Elt F) → (⟨S640000x1, .i32⟩ : BufTy).Contents (Elt F)) ((select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)) ((cmpi .slt : (⟨S640000, .i32⟩ : BufTy).Contents (Elt F) → (⟨S640000, .i32⟩ : BufTy).Contents (Elt F) → (⟨S640000, .i1⟩ : BufTy).Contents (Elt F)) (U (Proc.devRef .tc main_v1)) ((broadcastInDim S640000 ![] bcast_S_S640000 : (⟨S_, .i32⟩ : BufTy).Contents (Elt F) → (⟨S640000, .i32⟩ : BufTy).Contents (Elt F)) (constantI S_ 32 0#32))) ((addi : (⟨S640000, .i32⟩ : BufTy).Contents (Elt F) → (⟨S640000, .i32⟩ : BufTy).Contents (Elt F) → (⟨S640000, .i32⟩ : BufTy).Contents (Elt F)) (U (Proc.devRef .tc main_v1)) ((broadcastInDim S640000 ![] bcast_S_S640000 : (⟨S_, .i32⟩ : BufTy).Contents (Elt F) → (⟨S640000, .i32⟩ : BufTy).Contents (Elt F)) (constantI S_ 32 100000#32))) (U (Proc.devRef .tc main_v1))))) ((broadcastInDim S640000x128 ![0, 1] bcast_S640000x1_S640000x128_0_1 : (⟨S640000x1, .f32⟩ : BufTy).Contents (Elt F) → (⟨S640000x128, .f32⟩ : BufTy).Contents (Elt F)) (U (Proc.devRef .tc main_v29))))) := by
  after_results_simp
  all_goals rfl

/-- After the stretch, v64 holds the layer's bias row. -/
theorem hostOps5_v64 (U : Valuation τ sig (Elt F)) : StableHlo.after (hostOps5 (F := F)) U (Proc.devRef .tc main_v64)
    = (fun i => (rfl : main_v63.ty.elt = main_v64.ty.elt) ▸ shapeCast main_v64.ty.shape (fun i => (rfl : main_v62.ty.elt = main_v63.ty.elt) ▸ shapeCast main_v63.ty.shape (((extractStridedSlice S1x128 ![0, 0] · slices_S3x128_S1x128_0_0) : (⟨S3x128, .f32⟩ : BufTy).Contents (Elt F) → (⟨S1x128, .f32⟩ : BufTy).Contents (Elt F)) (U (Proc.devRef .tc main_arg10))) shapeCasts_S1x128_S128 i) shapeCasts_S128_S1x128 i) := by
  after_results_simp
  all_goals rfl

/-- After the stretch, v67 holds the layer's scale row. -/
theorem hostOps5_v67 (U : Valuation τ sig (Elt F)) : StableHlo.after (hostOps5 (F := F)) U (Proc.devRef .tc main_v67)
    = (fun i => (rfl : main_v66.ty.elt = main_v67.ty.elt) ▸ shapeCast main_v67.ty.shape (fun i => (rfl : main_v65.ty.elt = main_v66.ty.elt) ▸ shapeCast main_v66.ty.shape (((extractStridedSlice S1x128 ![0, 0] · slices_S3x128_S1x128_0_0) : (⟨S3x128, .f32⟩ : BufTy).Contents (Elt F) → (⟨S1x128, .f32⟩ : BufTy).Contents (Elt F)) (U (Proc.devRef .tc main_arg11))) shapeCasts_S1x128_S128 i) shapeCasts_S128_S1x128 i) := by
  after_results_simp
  all_goals rfl

/-- After the stretch, v70 holds the layer's shift row. -/
theorem hostOps5_v70 (U : Valuation τ sig (Elt F)) : StableHlo.after (hostOps5 (F := F)) U (Proc.devRef .tc main_v70)
    = (fun i => (rfl : main_v69.ty.elt = main_v70.ty.elt) ▸ shapeCast main_v70.ty.shape (fun i => (rfl : main_v68.ty.elt = main_v69.ty.elt) ▸ shapeCast main_v69.ty.shape (((extractStridedSlice S1x128 ![0, 0] · slices_S3x128_S1x128_0_0) : (⟨S3x128, .f32⟩ : BufTy).Contents (Elt F) → (⟨S1x128, .f32⟩ : BufTy).Contents (Elt F)) (U (Proc.devRef .tc main_arg12))) shapeCasts_S1x128_S128 i) shapeCasts_S128_S1x128 i) := by
  after_results_simp
  all_goals rfl

/-- After the stretch, v95 holds the aggregate over incoming edges. -/
theorem hostOps8_v95 (U : Valuation τ sig (Elt F)) : StableHlo.after (hostOps8 (F := F)) U (Proc.devRef .tc main_v95)
    = (((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32)) ((broadcastInDim S640000x1 ![0] bcast_S640000_S640000x1_0 : (⟨S640000, .i32⟩ : BufTy).Contents (Elt F) → (⟨S640000x1, .i32⟩ : BufTy).Contents (Elt F)) (U (Proc.devRef .tc main_v3))) ((mulf : (⟨S640000x128, .f32⟩ : BufTy).Contents (Elt F) → (⟨S640000x128, .f32⟩ : BufTy).Contents (Elt F) → (⟨S640000x128, .f32⟩ : BufTy).Contents (Elt F)) (((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)) (U (Proc.devRef .tc main_v83)) ((broadcastInDim S640000x1 ![0] bcast_S640000_S640000x1_0 : (⟨S640000, .i32⟩ : BufTy).Contents (Elt F) → (⟨S640000x1, .i32⟩ : BufTy).Contents (Elt F)) ((select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)) ((cmpi .slt : (⟨S640000, .i32⟩ : BufTy).Contents (Elt F) → (⟨S640000, .i32⟩ : BufTy).Contents (Elt F) → (⟨S640000, .i1⟩ : BufTy).Contents (Elt F)) (U (Proc.devRef .tc main_v1)) ((broadcastInDim S640000 ![] bcast_S_S640000 : (⟨S_, .i32⟩ : BufTy).Contents (Elt F) → (⟨S640000, .i32⟩ : BufTy).Contents (Elt F)) (constantI S_ 32 0#32))) ((addi : (⟨S640000, .i32⟩ : BufTy).Contents (Elt F) → (⟨S640000, .i32⟩ : BufTy).Contents (Elt F) → (⟨S640000, .i32⟩ : BufTy).Contents (Elt F)) (U (Proc.devRef .tc main_v1)) ((broadcastInDim S640000 ![] bcast_S_S640000 : (⟨S_, .i32⟩ : BufTy).Contents (Elt F) → (⟨S640000, .i32⟩ : BufTy).Contents (Elt F)) (constantI S_ 32 100000#32))) (U (Proc.devRef .tc main_v1))))) ((broadcastInDim S640000x128 ![0, 1] bcast_S640000x1_S640000x128_0_1 : (⟨S640000x1, .f32⟩ : BufTy).Contents (Elt F) → (⟨S640000x128, .f32⟩ : BufTy).Contents (Elt F)) (U (Proc.devRef .tc main_v29))))) := by
  after_results_simp
  all_goals rfl

/-- After the stretch, v98 holds the layer's bias row. -/
theorem hostOps8_v98 (U : Valuation τ sig (Elt F)) : StableHlo.after (hostOps8 (F := F)) U (Proc.devRef .tc main_v98)
    = (fun i => (rfl : main_v97.ty.elt = main_v98.ty.elt) ▸ shapeCast main_v98.ty.shape (fun i => (rfl : main_v96.ty.elt = main_v97.ty.elt) ▸ shapeCast main_v97.ty.shape (((extractStridedSlice S1x128 ![1, 0] · slices_S3x128_S1x128_1_0) : (⟨S3x128, .f32⟩ : BufTy).Contents (Elt F) → (⟨S1x128, .f32⟩ : BufTy).Contents (Elt F)) (U (Proc.devRef .tc main_arg10))) shapeCasts_S1x128_S128 i) shapeCasts_S128_S1x128 i) := by
  after_results_simp
  all_goals rfl

/-- After the stretch, v101 holds the layer's scale row. -/
theorem hostOps8_v101 (U : Valuation τ sig (Elt F)) : StableHlo.after (hostOps8 (F := F)) U (Proc.devRef .tc main_v101)
    = (fun i => (rfl : main_v100.ty.elt = main_v101.ty.elt) ▸ shapeCast main_v101.ty.shape (fun i => (rfl : main_v99.ty.elt = main_v100.ty.elt) ▸ shapeCast main_v100.ty.shape (((extractStridedSlice S1x128 ![1, 0] · slices_S3x128_S1x128_1_0) : (⟨S3x128, .f32⟩ : BufTy).Contents (Elt F) → (⟨S1x128, .f32⟩ : BufTy).Contents (Elt F)) (U (Proc.devRef .tc main_arg11))) shapeCasts_S1x128_S128 i) shapeCasts_S128_S1x128 i) := by
  after_results_simp
  all_goals rfl

/-- After the stretch, v104 holds the layer's shift row. -/
theorem hostOps8_v104 (U : Valuation τ sig (Elt F)) : StableHlo.after (hostOps8 (F := F)) U (Proc.devRef .tc main_v104)
    = (fun i => (rfl : main_v103.ty.elt = main_v104.ty.elt) ▸ shapeCast main_v104.ty.shape (fun i => (rfl : main_v102.ty.elt = main_v103.ty.elt) ▸ shapeCast main_v103.ty.shape (((extractStridedSlice S1x128 ![1, 0] · slices_S3x128_S1x128_1_0) : (⟨S3x128, .f32⟩ : BufTy).Contents (Elt F) → (⟨S1x128, .f32⟩ : BufTy).Contents (Elt F)) (U (Proc.devRef .tc main_arg12))) shapeCasts_S1x128_S128 i) shapeCasts_S128_S1x128 i) := by
  after_results_simp
  all_goals rfl

/-- After the stretch, v129 holds the aggregate over incoming edges. -/
theorem hostOps11_v129 (U : Valuation τ sig (Elt F)) : StableHlo.after (hostOps11 (F := F)) U (Proc.devRef .tc main_v129)
    = (((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32)) ((broadcastInDim S640000x1 ![0] bcast_S640000_S640000x1_0 : (⟨S640000, .i32⟩ : BufTy).Contents (Elt F) → (⟨S640000x1, .i32⟩ : BufTy).Contents (Elt F)) (U (Proc.devRef .tc main_v3))) ((mulf : (⟨S640000x128, .f32⟩ : BufTy).Contents (Elt F) → (⟨S640000x128, .f32⟩ : BufTy).Contents (Elt F) → (⟨S640000x128, .f32⟩ : BufTy).Contents (Elt F)) (((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)) (U (Proc.devRef .tc main_v117)) ((broadcastInDim S640000x1 ![0] bcast_S640000_S640000x1_0 : (⟨S640000, .i32⟩ : BufTy).Contents (Elt F) → (⟨S640000x1, .i32⟩ : BufTy).Contents (Elt F)) ((select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)) ((cmpi .slt : (⟨S640000, .i32⟩ : BufTy).Contents (Elt F) → (⟨S640000, .i32⟩ : BufTy).Contents (Elt F) → (⟨S640000, .i1⟩ : BufTy).Contents (Elt F)) (U (Proc.devRef .tc main_v1)) ((broadcastInDim S640000 ![] bcast_S_S640000 : (⟨S_, .i32⟩ : BufTy).Contents (Elt F) → (⟨S640000, .i32⟩ : BufTy).Contents (Elt F)) (constantI S_ 32 0#32))) ((addi : (⟨S640000, .i32⟩ : BufTy).Contents (Elt F) → (⟨S640000, .i32⟩ : BufTy).Contents (Elt F) → (⟨S640000, .i32⟩ : BufTy).Contents (Elt F)) (U (Proc.devRef .tc main_v1)) ((broadcastInDim S640000 ![] bcast_S_S640000 : (⟨S_, .i32⟩ : BufTy).Contents (Elt F) → (⟨S640000, .i32⟩ : BufTy).Contents (Elt F)) (constantI S_ 32 100000#32))) (U (Proc.devRef .tc main_v1))))) ((broadcastInDim S640000x128 ![0, 1] bcast_S640000x1_S640000x128_0_1 : (⟨S640000x1, .f32⟩ : BufTy).Contents (Elt F) → (⟨S640000x128, .f32⟩ : BufTy).Contents (Elt F)) (U (Proc.devRef .tc main_v29))))) := by
  after_results_simp
  all_goals rfl

/-- After the stretch, v132 holds the layer's bias row. -/
theorem hostOps11_v132 (U : Valuation τ sig (Elt F)) : StableHlo.after (hostOps11 (F := F)) U (Proc.devRef .tc main_v132)
    = (fun i => (rfl : main_v131.ty.elt = main_v132.ty.elt) ▸ shapeCast main_v132.ty.shape (fun i => (rfl : main_v130.ty.elt = main_v131.ty.elt) ▸ shapeCast main_v131.ty.shape (((extractStridedSlice S1x128 ![2, 0] · slices_S3x128_S1x128_2_0) : (⟨S3x128, .f32⟩ : BufTy).Contents (Elt F) → (⟨S1x128, .f32⟩ : BufTy).Contents (Elt F)) (U (Proc.devRef .tc main_arg10))) shapeCasts_S1x128_S128 i) shapeCasts_S128_S1x128 i) := by
  after_results_simp
  all_goals rfl

/-- After the stretch, v135 holds the layer's scale row. -/
theorem hostOps11_v135 (U : Valuation τ sig (Elt F)) : StableHlo.after (hostOps11 (F := F)) U (Proc.devRef .tc main_v135)
    = (fun i => (rfl : main_v134.ty.elt = main_v135.ty.elt) ▸ shapeCast main_v135.ty.shape (fun i => (rfl : main_v133.ty.elt = main_v134.ty.elt) ▸ shapeCast main_v134.ty.shape (((extractStridedSlice S1x128 ![2, 0] · slices_S3x128_S1x128_2_0) : (⟨S3x128, .f32⟩ : BufTy).Contents (Elt F) → (⟨S1x128, .f32⟩ : BufTy).Contents (Elt F)) (U (Proc.devRef .tc main_arg11))) shapeCasts_S1x128_S128 i) shapeCasts_S128_S1x128 i) := by
  after_results_simp
  all_goals rfl

/-- After the stretch, v138 holds the layer's shift row. -/
theorem hostOps11_v138 (U : Valuation τ sig (Elt F)) : StableHlo.after (hostOps11 (F := F)) U (Proc.devRef .tc main_v138)
    = (fun i => (rfl : main_v137.ty.elt = main_v138.ty.elt) ▸ shapeCast main_v138.ty.shape (fun i => (rfl : main_v136.ty.elt = main_v137.ty.elt) ▸ shapeCast main_v137.ty.shape (((extractStridedSlice S1x128 ![2, 0] · slices_S3x128_S1x128_2_0) : (⟨S3x128, .f32⟩ : BufTy).Contents (Elt F) → (⟨S1x128, .f32⟩ : BufTy).Contents (Elt F)) (U (Proc.devRef .tc main_arg12))) shapeCasts_S1x128_S128 i) shapeCasts_S128_S1x128 i) := by
  after_results_simp
  all_goals rfl

/-- After the stretch, v155 holds the pooled features through the first readout layer. -/
theorem hostOps13_v155 (U : Valuation τ sig (Elt F)) : StableHlo.after (hostOps13 (F := F)) U (Proc.devRef .tc main_v155)
    = ((addf : (⟨S64x64, .f32⟩ : BufTy).Contents (Elt F) → (⟨S64x64, .f32⟩ : BufTy).Contents (Elt F) → (⟨S64x64, .f32⟩ : BufTy).Contents (Elt F)) (((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)) (((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)) ((broadcastInDim S64x128 ![] bcast_S_S64x128 : (⟨S_, .f32⟩ : BufTy).Contents (Elt F) → (⟨S64x128, .f32⟩ : BufTy).Contents (Elt F)) (constant S_ .f32 0x00000000#32)) ((broadcastInDim S100000x1 ![0] bcast_S100000_S100000x1_0 : (⟨S100000, .i32⟩ : BufTy).Contents (Elt F) → (⟨S100000x1, .i32⟩ : BufTy).Contents (Elt F)) (U (Proc.devRef .tc main_arg2))) (U (Proc.devRef .tc main_v148))) (U (Proc.devRef .tc main_arg13))) ((broadcastInDim S64x64 ![0, 1] bcast_S1x64_S64x64_0_1 : (⟨S1x64, .f32⟩ : BufTy).Contents (Elt F) → (⟨S64x64, .f32⟩ : BufTy).Contents (Elt F)) ((broadcastInDim S1x64 ![1] bcast_S64_S1x64_1 : (⟨S64, .f32⟩ : BufTy).Contents (Elt F) → (⟨S1x64, .f32⟩ : BufTy).Contents (Elt F)) (U (Proc.devRef .tc main_arg14))))) := by
  after_results
  all_goals rfl

/-- After the stretch, v156 holds clamped at zero. -/
theorem hostOps13_1_v156 (U : Valuation τ sig (Elt F)) : StableHlo.after (hostOps13_1 (F := F)) U (Proc.devRef .tc main_v156)
    = (maximumf (U (Proc.devRef .tc main_v155)) ((broadcastInDim S64x64 ![] bcast_S_S64x64) (constant S_ .f32 0x00000000#32))) := by
  after_results
  all_goals rfl

/-- After the stretch, v160 holds the second readout layer. -/
theorem hostOps13_2_v160 (U : Valuation τ sig (Elt F)) : StableHlo.after (hostOps13_2 (F := F)) U (Proc.devRef .tc main_v160)
    = ((addf : (⟨S64x32, .f32⟩ : BufTy).Contents (Elt F) → (⟨S64x32, .f32⟩ : BufTy).Contents (Elt F) → (⟨S64x32, .f32⟩ : BufTy).Contents (Elt F)) (((fun l r => Host.dotGeneral dot_S64x64_S64x32_S64x32_1_0_0_1_n_n none l r) : (⟨S64x64, .f32⟩ : BufTy).Contents (Elt F) → (⟨S64x32, .f32⟩ : BufTy).Contents (Elt F) → (⟨S64x32, .f32⟩ : BufTy).Contents (Elt F)) (U (Proc.devRef .tc main_v156)) (U (Proc.devRef .tc main_arg15))) ((broadcastInDim S64x32 ![0, 1] bcast_S1x32_S64x32_0_1 : (⟨S1x32, .f32⟩ : BufTy).Contents (Elt F) → (⟨S64x32, .f32⟩ : BufTy).Contents (Elt F)) ((broadcastInDim S1x32 ![1] bcast_S32_S1x32_1 : (⟨S32, .f32⟩ : BufTy).Contents (Elt F) → (⟨S1x32, .f32⟩ : BufTy).Contents (Elt F)) (U (Proc.devRef .tc main_arg16))))) := by
  after_results
  all_goals rfl

/-- After the stretch, v161 holds clamped at zero. -/
theorem hostOps13_3_v161 (U : Valuation τ sig (Elt F)) : StableHlo.after (hostOps13_3 (F := F)) U (Proc.devRef .tc main_v161)
    = (maximumf (U (Proc.devRef .tc main_v160)) ((broadcastInDim S64x32 ![] bcast_S_S64x32) (constant S_ .f32 0x00000000#32))) := by
  after_results
  all_goals rfl

/-- After the stretch, v165 holds the result. -/
theorem hostOps13_4_v165 (U : Valuation τ sig (Elt F)) : StableHlo.after (hostOps13_4 (F := F)) U (Proc.devRef .tc main_v165)
    = ((addf : (⟨S64x1, .f32⟩ : BufTy).Contents (Elt F) → (⟨S64x1, .f32⟩ : BufTy).Contents (Elt F) → (⟨S64x1, .f32⟩ : BufTy).Contents (Elt F)) (((fun l r => Host.dotGeneral dot_S64x32_S32x1_S64x1_1_0_0_1_n_n none l r) : (⟨S64x32, .f32⟩ : BufTy).Contents (Elt F) → (⟨S32x1, .f32⟩ : BufTy).Contents (Elt F) → (⟨S64x1, .f32⟩ : BufTy).Contents (Elt F)) (U (Proc.devRef .tc main_v161)) (U (Proc.devRef .tc main_arg17))) ((broadcastInDim S64x1 ![0, 1] bcast_S1x1_S64x1_0_1 : (⟨S1x1, .f32⟩ : BufTy).Contents (Elt F) → (⟨S64x1, .f32⟩ : BufTy).Contents (Elt F)) ((broadcastInDim S1x1 ![1] bcast_S1_S1x1_1 : (⟨S1, .f32⟩ : BufTy).Contents (Elt F) → (⟨S1x1, .f32⟩ : BufTy).Contents (Elt F)) (U (Proc.devRef .tc main_arg18))))) := by
  after_results
  all_goals rfl

end Cert.KernelIdeal.Raw

end
-- ==== Proof.Agg.lean ====
/-
  The aggregation of a layer: every edge reads the features of its source node, scales them by the edge's
  weight, and adds them into the row of its target node. The operations are stated once, as a function of
  the edge list, the edge weights and the features, and shown to send real arrays to real arrays; the edge
  weights themselves are real whatever the edge list holds.
-/
import proofs.«136606_j68719476736452_2_alg».proof.KernelIdeal
import proofs.«136606_j68719476736452_2_alg».proof.Proof.Spec
import proofs.«136606_j68719476736452_2_alg».proof.Proof.RealLaws
import proofs.«136606_j68719476736452_2_alg».proof.Proof.KRaw
import Idealize.ShloMosaic.Lib.ValueIdx
import Idealize.ShloMosaic.Lib.ValueLayout
import Idealize.ShloMosaic.Lib.IdealHost
import Idealize.ShloMosaic.PureOps.Ideal.Laws
import Mathlib.Tactic

set_option maxRecDepth 16384

noncomputable section

open Idealize.ShloMosaic Idealize.ShloMosaic.ValueIdx Idealize.ShloMosaic.TcCoe
open scoped BigOperators

namespace Cert.KernelIdeal.Agg

open Cert.KernelIdeal Cert.KernelIdeal.Gen Cert.Gcn

/-! ## The aggregation as a function -/

/-- The aggregation: a negative source index wraps around, each edge gathers its source node's row of hw,
    multiplies it by the edge's weight repeated over the channels, and the products are added into the rows
    of an array of zeros at the edges' target nodes. -/
def aggOps (src dst : IVec S640000 32) (ew : FVec Ideal S640000x1 .f32) (hw : FVec Ideal S100000x128 .f32) :
    FVec Ideal S100000x128 .f32 :=
  Host.scatterAdd (F := Ideal) scatter_S100000x128_S640000x1_S640000x128_1_0_0_1
    (broadcastInDim S100000x128 ![] bcast_S_S100000x128 (constant (F := Ideal) S_ .f32 0x00000000#32))
    (broadcastInDim S640000x1 ![0] bcast_S640000_S640000x1_0 dst)
    (mulf
      (Host.gather gather_S100000x128_S640000x1_S640000x128_1_0_n_n_0_1_1128 hw
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 100000#32))) src)))
      (broadcastInDim S640000x128 ![0, 1] bcast_S640000x1_S640000x128_0_1 ew))

/-- The three layers' stretches, as the program composes them over the buffers they read, are this function. -/
theorem aggOps_raw (U : Valuation τ sig (Elt Ideal)) :
    (((fun x i u => Host.scatterAdd (F := Ideal) (φ := .f32) scatter_S100000x128_S640000x1_S640000x128_1_0_0_1 x i u) : (⟨S100000x128, .f32⟩ : BufTy).Contents (Elt Ideal) → (⟨S640000x1, .i32⟩ : BufTy).Contents (Elt Ideal) → (⟨S640000x128, .f32⟩ : BufTy).Contents (Elt Ideal) → (⟨S100000x128, .f32⟩ : BufTy).Contents (Elt Ideal)) ((broadcastInDim S100000x128 ![] bcast_S_S100000x128 : (⟨S_, .f32⟩ : BufTy).Contents (Elt Ideal) → (⟨S100000x128, .f32⟩ : BufTy).Contents (Elt Ideal)) (constant (F := Ideal) S_ .f32 0x00000000#32)) ((broadcastInDim S640000x1 ![0] bcast_S640000_S640000x1_0 : (⟨S640000, .i32⟩ : BufTy).Contents (Elt Ideal) → (⟨S640000x1, .i32⟩ : BufTy).Contents (Elt Ideal)) (U (Proc.devRef .tc main_v3))) ((mulf (F := Ideal) (φ := .f32) : (⟨S640000x128, .f32⟩ : BufTy).Contents (Elt Ideal) → (⟨S640000x128, .f32⟩ : BufTy).Contents (Elt Ideal) → (⟨S640000x128, .f32⟩ : BufTy).Contents (Elt Ideal)) (((fun x i => Host.gather gather_S100000x128_S640000x1_S640000x128_1_0_n_n_0_1_1128 x i) : (⟨S100000x128, .f32⟩ : BufTy).Contents (Elt Ideal) → (⟨S640000x1, .i32⟩ : BufTy).Contents (Elt Ideal) → (⟨S640000x128, .f32⟩ : BufTy).Contents (Elt Ideal)) (U (Proc.devRef .tc main_v49)) ((broadcastInDim S640000x1 ![0] bcast_S640000_S640000x1_0 : (⟨S640000, .i32⟩ : BufTy).Contents (Elt Ideal) → (⟨S640000x1, .i32⟩ : BufTy).Contents (Elt Ideal)) ((select : (⟨S640000, .i1⟩ : BufTy).Contents (Elt Ideal) → (⟨S640000, .i32⟩ : BufTy).Contents (Elt Ideal) → (⟨S640000, .i32⟩ : BufTy).Contents (Elt Ideal) → (⟨S640000, .i32⟩ : BufTy).Contents (Elt Ideal)) ((cmpi .slt : (⟨S640000, .i32⟩ : BufTy).Contents (Elt Ideal) → (⟨S640000, .i32⟩ : BufTy).Contents (Elt Ideal) → (⟨S640000, .i1⟩ : BufTy).Contents (Elt Ideal)) (U (Proc.devRef .tc main_v1)) ((broadcastInDim S640000 ![] bcast_S_S640000 : (⟨S_, .i32⟩ : BufTy).Contents (Elt Ideal) → (⟨S640000, .i32⟩ : BufTy).Contents (Elt Ideal)) (constantI S_ 32 0#32))) ((addi : (⟨S640000, .i32⟩ : BufTy).Contents (Elt Ideal) → (⟨S640000, .i32⟩ : BufTy).Contents (Elt Ideal) → (⟨S640000, .i32⟩ : BufTy).Contents (Elt Ideal)) (U (Proc.devRef .tc main_v1)) ((broadcastInDim S640000 ![] bcast_S_S640000 : (⟨S_, .i32⟩ : BufTy).Contents (Elt Ideal) → (⟨S640000, .i32⟩ : BufTy).Contents (Elt Ideal)) (constantI S_ 32 100000#32))) (U (Proc.devRef .tc main_v1))))) ((broadcastInDim S640000x128 ![0, 1] bcast_S640000x1_S640000x128_0_1 : (⟨S640000x1, .f32⟩ : BufTy).Contents (Elt Ideal) → (⟨S640000x128, .f32⟩ : BufTy).Contents (Elt Ideal)) (U (Proc.devRef .tc main_v29)))))
      = aggOps (U (Proc.devRef .tc main_v1)) (U (Proc.devRef .tc main_v3)) (U (Proc.devRef .tc main_v29))
          (U (Proc.devRef .tc main_v49)) := rfl

theorem aggOps_raw8 (U : Valuation τ sig (Elt Ideal)) :
    (((fun x i u => Host.scatterAdd (F := Ideal) (φ := .f32) scatter_S100000x128_S640000x1_S640000x128_1_0_0_1 x i u) : (⟨S100000x128, .f32⟩ : BufTy).Contents (Elt Ideal) → (⟨S640000x1, .i32⟩ : BufTy).Contents (Elt Ideal) → (⟨S640000x128, .f32⟩ : BufTy).Contents (Elt Ideal) → (⟨S100000x128, .f32⟩ : BufTy).Contents (Elt Ideal)) ((broadcastInDim S100000x128 ![] bcast_S_S100000x128 : (⟨S_, .f32⟩ : BufTy).Contents (Elt Ideal) → (⟨S100000x128, .f32⟩ : BufTy).Contents (Elt Ideal)) (constant (F := Ideal) S_ .f32 0x00000000#32)) ((broadcastInDim S640000x1 ![0] bcast_S640000_S640000x1_0 : (⟨S640000, .i32⟩ : BufTy).Contents (Elt Ideal) → (⟨S640000x1, .i32⟩ : BufTy).Contents (Elt Ideal)) (U (Proc.devRef .tc main_v3))) ((mulf (F := Ideal) (φ := .f32) : (⟨S640000x128, .f32⟩ : BufTy).Contents (Elt Ideal) → (⟨S640000x128, .f32⟩ : BufTy).Contents (Elt Ideal) → (⟨S640000x128, .f32⟩ : BufTy).Contents (Elt Ideal)) (((fun x i => Host.gather gather_S100000x128_S640000x1_S640000x128_1_0_n_n_0_1_1128 x i) : (⟨S100000x128, .f32⟩ : BufTy).Contents (Elt Ideal) → (⟨S640000x1, .i32⟩ : BufTy).Contents (Elt Ideal) → (⟨S640000x128, .f32⟩ : BufTy).Contents (Elt Ideal)) (U (Proc.devRef .tc main_v83)) ((broadcastInDim S640000x1 ![0] bcast_S640000_S640000x1_0 : (⟨S640000, .i32⟩ : BufTy).Contents (Elt Ideal) → (⟨S640000x1, .i32⟩ : BufTy).Contents (Elt Ideal)) ((select : (⟨S640000, .i1⟩ : BufTy).Contents (Elt Ideal) → (⟨S640000, .i32⟩ : BufTy).Contents (Elt Ideal) → (⟨S640000, .i32⟩ : BufTy).Contents (Elt Ideal) → (⟨S640000, .i32⟩ : BufTy).Contents (Elt Ideal)) ((cmpi .slt : (⟨S640000, .i32⟩ : BufTy).Contents (Elt Ideal) → (⟨S640000, .i32⟩ : BufTy).Contents (Elt Ideal) → (⟨S640000, .i1⟩ : BufTy).Contents (Elt Ideal)) (U (Proc.devRef .tc main_v1)) ((broadcastInDim S640000 ![] bcast_S_S640000 : (⟨S_, .i32⟩ : BufTy).Contents (Elt Ideal) → (⟨S640000, .i32⟩ : BufTy).Contents (Elt Ideal)) (constantI S_ 32 0#32))) ((addi : (⟨S640000, .i32⟩ : BufTy).Contents (Elt Ideal) → (⟨S640000, .i32⟩ : BufTy).Contents (Elt Ideal) → (⟨S640000, .i32⟩ : BufTy).Contents (Elt Ideal)) (U (Proc.devRef .tc main_v1)) ((broadcastInDim S640000 ![] bcast_S_S640000 : (⟨S_, .i32⟩ : BufTy).Contents (Elt Ideal) → (⟨S640000, .i32⟩ : BufTy).Contents (Elt Ideal)) (constantI S_ 32 100000#32))) (U (Proc.devRef .tc main_v1))))) ((broadcastInDim S640000x128 ![0, 1] bcast_S640000x1_S640000x128_0_1 : (⟨S640000x1, .f32⟩ : BufTy).Contents (Elt Ideal) → (⟨S640000x128, .f32⟩ : BufTy).Contents (Elt Ideal)) (U (Proc.devRef .tc main_v29)))))
      = aggOps (U (Proc.devRef .tc main_v1)) (U (Proc.devRef .tc main_v3)) (U (Proc.devRef .tc main_v29))
          (U (Proc.devRef .tc main_v83)) := rfl

theorem aggOps_raw11 (U : Valuation τ sig (Elt Ideal)) :
    (((fun x i u => Host.scatterAdd (F := Ideal) (φ := .f32) scatter_S100000x128_S640000x1_S640000x128_1_0_0_1 x i u) : (⟨S100000x128, .f32⟩ : BufTy).Contents (Elt Ideal) → (⟨S640000x1, .i32⟩ : BufTy).Contents (Elt Ideal) → (⟨S640000x128, .f32⟩ : BufTy).Contents (Elt Ideal) → (⟨S100000x128, .f32⟩ : BufTy).Contents (Elt Ideal)) ((broadcastInDim S100000x128 ![] bcast_S_S100000x128 : (⟨S_, .f32⟩ : BufTy).Contents (Elt Ideal) → (⟨S100000x128, .f32⟩ : BufTy).Contents (Elt Ideal)) (constant (F := Ideal) S_ .f32 0x00000000#32)) ((broadcastInDim S640000x1 ![0] bcast_S640000_S640000x1_0 : (⟨S640000, .i32⟩ : BufTy).Contents (Elt Ideal) → (⟨S640000x1, .i32⟩ : BufTy).Contents (Elt Ideal)) (U (Proc.devRef .tc main_v3))) ((mulf (F := Ideal) (φ := .f32) : (⟨S640000x128, .f32⟩ : BufTy).Contents (Elt Ideal) → (⟨S640000x128, .f32⟩ : BufTy).Contents (Elt Ideal) → (⟨S640000x128, .f32⟩ : BufTy).Contents (Elt Ideal)) (((fun x i => Host.gather gather_S100000x128_S640000x1_S640000x128_1_0_n_n_0_1_1128 x i) : (⟨S100000x128, .f32⟩ : BufTy).Contents (Elt Ideal) → (⟨S640000x1, .i32⟩ : BufTy).Contents (Elt Ideal) → (⟨S640000x128, .f32⟩ : BufTy).Contents (Elt Ideal)) (U (Proc.devRef .tc main_v117)) ((broadcastInDim S640000x1 ![0] bcast_S640000_S640000x1_0 : (⟨S640000, .i32⟩ : BufTy).Contents (Elt Ideal) → (⟨S640000x1, .i32⟩ : BufTy).Contents (Elt Ideal)) ((select : (⟨S640000, .i1⟩ : BufTy).Contents (Elt Ideal) → (⟨S640000, .i32⟩ : BufTy).Contents (Elt Ideal) → (⟨S640000, .i32⟩ : BufTy).Contents (Elt Ideal) → (⟨S640000, .i32⟩ : BufTy).Contents (Elt Ideal)) ((cmpi .slt : (⟨S640000, .i32⟩ : BufTy).Contents (Elt Ideal) → (⟨S640000, .i32⟩ : BufTy).Contents (Elt Ideal) → (⟨S640000, .i1⟩ : BufTy).Contents (Elt Ideal)) (U (Proc.devRef .tc main_v1)) ((broadcastInDim S640000 ![] bcast_S_S640000 : (⟨S_, .i32⟩ : BufTy).Contents (Elt Ideal) → (⟨S640000, .i32⟩ : BufTy).Contents (Elt Ideal)) (constantI S_ 32 0#32))) ((addi : (⟨S640000, .i32⟩ : BufTy).Contents (Elt Ideal) → (⟨S640000, .i32⟩ : BufTy).Contents (Elt Ideal) → (⟨S640000, .i32⟩ : BufTy).Contents (Elt Ideal)) (U (Proc.devRef .tc main_v1)) ((broadcastInDim S640000 ![] bcast_S_S640000 : (⟨S_, .i32⟩ : BufTy).Contents (Elt Ideal) → (⟨S640000, .i32⟩ : BufTy).Contents (Elt Ideal)) (constantI S_ 32 100000#32))) (U (Proc.devRef .tc main_v1))))) ((broadcastInDim S640000x128 ![0, 1] bcast_S640000x1_S640000x128_0_1 : (⟨S640000x1, .f32⟩ : BufTy).Contents (Elt Ideal) → (⟨S640000x128, .f32⟩ : BufTy).Contents (Elt Ideal)) (U (Proc.devRef .tc main_v29)))))
      = aggOps (U (Proc.devRef .tc main_v1)) (U (Proc.devRef .tc main_v3)) (U (Proc.devRef .tc main_v29))
          (U (Proc.devRef .tc main_v117)) := rfl

/-- So each stretch leaves the aggregation of what it read. -/
theorem hostOps5_v61_eq (U : Valuation τ sig (Elt Ideal)) :
    StableHlo.after (hostOps5 (F := Ideal)) U (Proc.devRef .tc main_v61)
      = aggOps (U (Proc.devRef .tc main_v1)) (U (Proc.devRef .tc main_v3)) (U (Proc.devRef .tc main_v29))
          (U (Proc.devRef .tc main_v49)) := (Raw.hostOps5_v61 U).trans (aggOps_raw U)
theorem hostOps8_v95_eq (U : Valuation τ sig (Elt Ideal)) :
    StableHlo.after (hostOps8 (F := Ideal)) U (Proc.devRef .tc main_v95)
      = aggOps (U (Proc.devRef .tc main_v1)) (U (Proc.devRef .tc main_v3)) (U (Proc.devRef .tc main_v29))
          (U (Proc.devRef .tc main_v83)) := (Raw.hostOps8_v95 U).trans (aggOps_raw8 U)
theorem hostOps11_v129_eq (U : Valuation τ sig (Elt Ideal)) :
    StableHlo.after (hostOps11 (F := Ideal)) U (Proc.devRef .tc main_v129)
      = aggOps (U (Proc.devRef .tc main_v1)) (U (Proc.devRef .tc main_v3)) (U (Proc.devRef .tc main_v29))
          (U (Proc.devRef .tc main_v117)) := (Raw.hostOps11_v129 U).trans (aggOps_raw11 U)

/-! ## The aggregation of real arrays is real -/

/-- A repetition of an array along new or unit axes reads entries of the array, so it is all real when the array is. -/
theorem bcast_allReal {s t : Shape} (dims : Fin s.rank → Fin t.rank) (h : s.BroadcastsInDim t dims)
    {x : s.Idx → EReal} (hx : AllReal x) : AllReal (broadcastInDim t dims h x) := by
  intro j; unfold broadcastInDim; exact hx _

/-- A gather reads entries of its operand. -/
theorem gather_allReal {s si t : Shape} {w : Nat} (d : GatherDims s si t) {x : s.Idx → EReal} (idx : IVec si w)
    (hx : AllReal x) : AllReal (Host.gather d x idx) := fun j => hx _

theorem aggOps_allReal {src dst : IVec S640000 32} {ew : FVec Ideal S640000x1 .f32}
    {hw : FVec Ideal S100000x128 .f32} (hew : AllReal ew) (hhw : AllReal hw) : AllReal (aggOps src dst ew hw) := by
  unfold aggOps
  refine hostScatterAdd_allReal _ _ _ _ ?_ ?_
  · intro i
    rw [broadcastInDim_scalar_apply, constant_apply, Ideal.ofBits_zero_f32]
    exact isReal_zero
  · intro j
    rw [mulf_apply]
    exact isReal_mul (gather_allReal _ _ hhw j) (bcast_allReal _ _ hew j)

/-! ## The edge weights are real whatever the edge list holds -/

/-- A constant repeated over a shape reads the constant everywhere. -/
theorem bcast_const_apply {T : Shape} (h : S_.BroadcastsInDim T ![]) (bits : BitVec 32) (j : T.Idx) :
    broadcastInDim T ![] h (constant (F := Ideal) S_ .f32 bits) j = Ideal.ofBits .f32 bits := by
  rw [broadcastInDim_scalar_apply, constant_apply]

/-- A choice between two all-real arrays, entry by entry, is all real. -/
theorem select_allReal {s : Shape} (c : IVec s 1) {a b : s.Idx → EReal} (ha : AllReal a) (hb : AllReal b) :
    AllReal (select c a b) := by
  intro i
  rw [select_apply]
  unfold Scalar.select
  exact isReal_ite (ha i) (hb i)

/-- The host's reciprocal square root and scatter-add at an index are the operations on extended reals. -/
theorem hostRsqrt_apply {s : Shape} {φ : FTy} (x : FVec Ideal s φ) (i : s.Idx) :
    Host.rsqrt x i = Ideal.rsqrt (x i) := rfl

theorem hostScatterAdd_apply {s si u : Shape} {φ : FTy} {w : Nat} (d : ScatterDims s si u) (x : FVec Ideal s φ)
    (idx : IVec si w) (upd : FVec Ideal u φ) (i : s.Idx) :
    Host.scatterAdd d x idx upd i = Ideal.hostScatterAdd d x idx upd i := rfl

/-- A real number raised to at least a number that is one has a real reciprocal square root. -/
theorem isReal_rsqrt_max_eq_one {a b : EReal} (ha : IsReal a) (hb : b = 1) : IsReal (Ideal.rsqrt (max a b)) := by
  subst hb; exact isReal_rsqrt_max_one ha

/-- The in-degree of every node, a sum of ones added into zeros, raised to at least one, has a real reciprocal
    square root, whatever the target indices are. -/
theorem deg_rsqrt_allReal (dstcol : IVec S640000x1 32) :
    AllReal (Host.rsqrt (F := Ideal) (φ := .f32) (maximumf (F := Ideal) (φ := .f32)
      (Host.scatterAdd (F := Ideal) (φ := .f32) scatter_S100000_S640000x1_S640000_n_0_0_1
        (broadcastInDim S100000 ![] bcast_S_S100000 (constant (F := Ideal) S_ .f32 0x00000000#32)) dstcol
        (broadcastInDim S640000 ![] bcast_S_S640000 (constant (F := Ideal) S_ .f32 0x3F800000#32)))
      (broadcastInDim S100000 ![] bcast_S_S100000 (constant (F := Ideal) S_ .f32 0x3F800000#32)))) := by
  intro i
  rw [hostRsqrt_apply, maximumf_apply, hostScatterAdd_apply]
  refine isReal_rsqrt_max_eq_one ?_ ?_
  · refine hostScatterAdd_allReal _ _ _ _ (fun j => ?_) (fun j => ?_) i
    · rw [bcast_const_apply, Ideal.ofBits_zero_f32]; exact isReal_zero
    · rw [bcast_const_apply, ofBits_one]; exact isReal_one
  · rw [bcast_const_apply, ofBits_one]

/-- The reciprocal square root of the in-degree raised to at least one is real, whatever the edge list holds. -/
theorem v12_allReal (U : Valuation τ sig (Elt Ideal)) :
    AllReal (ι := S100000.Idx) (StableHlo.after (hostOps0 (F := Ideal)) U (Proc.devRef .tc main_v12)) := by
  rw [Raw.hostOps0_v12]
  exact deg_rsqrt_allReal _

/-- The value chosen where a node has no incoming edge is zero. -/
theorem cst3_isReal (U : Valuation τ sig (Elt Ideal)) (k : S_.Idx) :
    IsReal (StableHlo.after (hostOps0 (F := Ideal)) U (Proc.devRef .tc main_cst_3) k) := by
  rw [Raw.hostOps0_cst_3, constant_apply, Ideal.ofBits_zero_f32]; exact isReal_zero

/-- The normalisation of every node: the root where the node has an incoming edge, zero elsewhere. -/
theorem v13_allReal (U : Valuation τ sig (Elt Ideal))
    (h12 : AllReal (ι := S100000.Idx) (U (Proc.devRef .tc main_v12)))
    (h3 : ∀ k : S_.Idx, IsReal (U (Proc.devRef .tc main_cst_3) k)) :
    AllReal (ι := S100000.Idx) (StableHlo.after (hostOps0_1 (F := Ideal)) U (Proc.devRef .tc main_v13)) := by
  rw [Raw.hostOps0_1_v13]
  refine select_allReal _ h12 (fun i => ?_)
  rw [broadcastInDim_scalar_apply]
  exact h3 _

/-- The weight of every edge: the product of the normalisations of its two ends. -/
theorem v29_allReal (U : Valuation τ sig (Elt Ideal))
    (h13 : AllReal (ι := S100000.Idx) (U (Proc.devRef .tc main_v13))) :
    AllReal (ι := S640000x1.Idx) (StableHlo.after (hostOps0_2 (F := Ideal)) U (Proc.devRef .tc main_v29)) := by
  rw [Raw.hostOps0_2_v29]
  refine bcast_allReal _ _ (fun j => ?_)
  rw [mulf_apply]
  exact isReal_mul (gather_allReal _ _ h13 j) (gather_allReal _ _ h13 j)

/-- The edge weights the three opening stretches leave are all real, whatever the launch contents. -/
theorem edgeWeights_allReal (V : Valuation τ sig (Elt Ideal)) :
    AllReal (ι := S640000x1.Idx) (StableHlo.after (hostOps0_2 (F := Ideal)) (StableHlo.after (hostOps0_1 (F := Ideal))
      (StableHlo.after (hostOps0 (F := Ideal)) V)) (Proc.devRef .tc main_v29)) :=
  v29_allReal _ (v13_allReal _ (v12_allReal V) (cst3_isReal V))

end Cert.KernelIdeal.Agg

end
-- ==== Proof.LayerLaw.lean ====
/-
  The layer laws, as statements about whole-array functions on the extended reals; nothing here mentions a program.

  A layer normalises an array z, column by column, by the column's mean and variance. One form computes the variance
  in one pass (the mean of the squares minus the squared mean, clamped at zero), the other in two (the mean of the
  squared deviations). On arrays of real numbers the two variances agree, so the two forms of a layer are the same
  function. Stated here for the two kinds of layer: the encoder (z = x·w1 + b1, no input added back) and a
  message-passing layer (z = the aggregation of h·w over the edges, plus a bias; the layer's input h added back), each
  with the fact that its output is again an array of real numbers, so the laws chain from one layer to the next.
-/
import proofs.«136606_j68719476736452_2_alg».proof.Proof.Spec
import proofs.«136606_j68719476736452_2_alg».proof.Proof.RealLaws
import proofs.«136606_j68719476736452_2_alg».proof.Proof.Agg

noncomputable section

open Idealize.ShloMosaic Idealize.ShloMosaic.ValueIdx
open scoped BigOperators

namespace Cert.Gcn

/-- Adding the zero row changes nothing. -/
theorem addRow_zeroRow (a : Snd.Idx → EReal) : addRow a (fun _ => 0) = a :=
  funext fun i => add_zero _

/-- The zero row is real. -/
theorem zeroRow_allReal : AllReal (fun _ : Srow.Idx => (0 : EReal)) := AllReal.const isReal_zero

/-! ## The dense maps are real -/

/-- x·w + b with a real bias vector laid out as a row is real. -/
theorem dense_allReal_row {h : Snd.Idx → EReal} {w : Sdd.Idx → EReal} {b : Svec.Idx → EReal}
    (hh : AllReal h) (hw : AllReal w) (hb : AllReal b) : AllReal (linear h w (rowOf b)) :=
  linear_allReal hh hw (rowOf_allReal hb)

/-- x·w with no bias (the zero row) is real. -/
theorem dense_allReal_zero {h : Snd.Idx → EReal} {w : Sdd.Idx → EReal}
    (hh : AllReal h) (hw : AllReal w) : AllReal (linear h w (fun _ => 0)) :=
  linear_allReal hh hw zeroRow_allReal

/-- Both at once. -/
theorem dense_allReal {h : Snd.Idx → EReal} {w : Sdd.Idx → EReal} {b : Svec.Idx → EReal}
    (hh : AllReal h) (hw : AllReal w) (hb : AllReal b) :
    AllReal (linear h w (rowOf b)) ∧ AllReal (linear h w (fun _ => 0)) :=
  ⟨dense_allReal_row hh hw hb, dense_allReal_zero hh hw⟩

/-! ## The encoder layer -/

/-- THE ENCODER LAYER. With z = x·w1 + b1, normalising z (plus the zero row) by its means and one-pass variances and
    clamping at zero is, entry by entry, the normalisation of z by its column's mean and two-pass variance, with the
    scale and shift of that channel, clamped at zero. -/
theorem enc_law (x : Snd.Idx → EReal) (w1 : Sdd.Idx → EReal) (b1 g be : Svec.Idx → EReal)
    (hx : AllReal x) (hw1 : AllReal w1) (hb1 : AllReal b1) :
    let z := linear x w1 (rowOf b1)
    bnRelu z (fun _ => 0) (meanRow (addRow z (fun _ => 0))) (varOnePassRow (addRow z (fun _ => 0))) (rowOf g) (rowOf be)
      = fun i => max (normAt (z i) (meanAt z (i 1)) (varTwoPassAt z (i 1)) (g (ix1 (i 1))) (be (ix1 (i 1)))) 0 := by
  intro z
  have hz : AllReal z := dense_allReal_row hx hw1 hb1
  rw [bnRelu_stats_eq z (fun _ => 0) (rowOf g) (rowOf be) hz zeroRow_allReal, addRow_zeroRow z]
  rfl

/-- The encoder layer's output is real. -/
theorem enc_allReal (x : Snd.Idx → EReal) (w1 : Sdd.Idx → EReal) (b1 g be : Svec.Idx → EReal)
    (hx : AllReal x) (hw1 : AllReal w1) (hb1 : AllReal b1) (hg : AllReal g) (hbe : AllReal be) :
    let z := linear x w1 (rowOf b1)
    AllReal (bnRelu z (fun _ => 0) (meanRow (addRow z (fun _ => 0))) (varOnePassRow (addRow z (fun _ => 0)))
      (rowOf g) (rowOf be)) := by
  intro z
  exact bnRelu_stats_allReal (dense_allReal_row hx hw1 hb1) zeroRow_allReal (rowOf_allReal hg) (rowOf_allReal hbe)

/-! ## A message-passing layer -/

/-- A MESSAGE-PASSING LAYER. With agg the aggregation of h·w over the edges and z = agg + bias, normalising z by its
    means and one-pass variances, clamping at zero and adding h back is, entry by entry, h plus the normalisation of z
    by its column's mean and two-pass variance, with the scale and shift of that channel, clamped at zero. -/
theorem layer_law (h : Snd.Idx → EReal) (w : Sdd.Idx → EReal) (src dst : IVec Cert.KernelIdeal.S640000 32)
    (ew : FVec Ideal Cert.KernelIdeal.S640000x1 .f32) (bias g be : Svec.Idx → EReal)
    (hh : AllReal h) (hw : AllReal w) (hew : AllReal ew) (hb : AllReal bias) :
    let agg := Cert.KernelIdeal.Agg.aggOps src dst ew (linear h w (fun _ => 0))
    let z := addRow agg (rowOf bias)
    bnReluRes agg (rowOf bias) (meanRow z) (varOnePassRow z) (rowOf g) (rowOf be) h
      = fun i => h i + max (normAt (z i) (meanAt z (i 1)) (varTwoPassAt z (i 1)) (g (ix1 (i 1))) (be (ix1 (i 1)))) 0 := by
  intro agg z
  have hagg : AllReal agg := Cert.KernelIdeal.Agg.aggOps_allReal hew (dense_allReal_zero hh hw)
  exact (bnReluRes_stats_eq agg (rowOf bias) (rowOf g) (rowOf be) h hagg (rowOf_allReal hb)).trans rfl

/-- A message-passing layer's output is real. -/
theorem layer_allReal (h : Snd.Idx → EReal) (w : Sdd.Idx → EReal) (src dst : IVec Cert.KernelIdeal.S640000 32)
    (ew : FVec Ideal Cert.KernelIdeal.S640000x1 .f32) (bias g be : Svec.Idx → EReal)
    (hh : AllReal h) (hw : AllReal w) (hew : AllReal ew) (hb : AllReal bias) (hg : AllReal g) (hbe : AllReal be) :
    let agg := Cert.KernelIdeal.Agg.aggOps src dst ew (linear h w (fun _ => 0))
    let z := addRow agg (rowOf bias)
    AllReal (bnReluRes agg (rowOf bias) (meanRow z) (varOnePassRow z) (rowOf g) (rowOf be) h) := by
  intro agg z
  have hagg : AllReal agg := Cert.KernelIdeal.Agg.aggOps_allReal hew (dense_allReal_zero hh hw)
  exact bnReluRes_stats_allReal hagg (rowOf_allReal hb) (rowOf_allReal hg) (rowOf_allReal hbe) hh

end Cert.Gcn

end
-- ==== Proof.Mm0.lean ====
/-
  The matrix product with bias, region by region of the program: the array the kernel leaves is x·w + b of the arrays it finds.
  The body's value at an index; each window's block as rows of its array; the blocks written back cover the array.
-/
import proofs.«136606_j68719476736452_2_alg».proof.Proof.Gen.KernelIdeal.Frame
import proofs.«136606_j68719476736452_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.MmValue0

open Cert.KernelIdeal Cert.KernelIdeal.Gen

/-- The contraction of the product: rows of the left factor against columns of the right. -/
theorem dot_apply (A : FVec Ideal S5000x128 .bf16) (B : FVec Ideal S128x128 .bf16) (p : Fin 5000) (q : Fin 128) :
    (∑ k : dot_S5000x128_S128x128_S5000x128_1_0_0_1_n_n.contr.Idx,
        A (dot_S5000x128_S128x128_S5000x128_1_0_0_1_n_n.lhsIdx (ix2 p q) k) * B (dot_S5000x128_S128x128_S5000x128_1_0_0_1_n_n.rhsIdx (ix2 p q) k))
      = ∑ k : Fin 128, A (ix2 p k) * B (ix2 k q) := by
  rw [← Equiv.sum_comp (contrEquiv1 dot_S5000x128_S128x128_S5000x128_1_0_0_1_n_n 128 rfl rfl).symm]
  refine Finset.sum_congr rfl fun c _ => ?_
  have c2 := contrEquiv1_symm_val dot_S5000x128_S128x128_S5000x128_1_0_0_1_n_n 128 rfl rfl c
  have l2 : dot_S5000x128_S128x128_S5000x128_1_0_0_1_n_n.lhsIdx (ix2 p q) ((contrEquiv1 _ 128 rfl rfl).symm c) = ix2 p c := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact c2
  have r2 : dot_S5000x128_S128x128_S5000x128_1_0_0_1_n_n.rhsIdx (ix2 p q) ((contrEquiv1 _ 128 rfl rfl).symm c) = ix2 c q := by
    funext ax; apply Fin.ext
    match ax with
    | ⟨0, _⟩ => simp [DotDims.rhsIdx, dot_S5000x128_S128x128_S5000x128_1_0_0_1_n_n]; exact c2
    | ⟨1, _⟩ => simp [DotDims.rhsIdx, dot_S5000x128_S128x128_S5000x128_1_0_0_1_n_n]; rfl
  rw [l2, r2]

/-- The body's value at row p, column q: the p-th row of the left block against the q-th column of the weights, plus the bias. -/
theorem pay_apply (x0 : Vec Ideal S5000x128 .f32) (x1 : Vec Ideal S128x128 .f32) (x2 : Vec Ideal S1x128 .f32)
    (p : Fin 5000) (q : Fin 128) :
    k0_pay1 (F := Ideal) x0 x1 x2 (ix2 p q) = (∑ k : Fin 128, x0 (ix2 p k) * x1 (ix2 k q)) + x2 (ix2 0 q) := by
  unfold k0_pay1
  refine (addf_apply _ _ _).trans ?_
  refine congrArg₂ (· + ·) ?_ ?_
  · refine (Ideal.matmul_constant_zero_apply dot_S5000x128_S128x128_S5000x128_1_0_0_1_n_n none _ _ (ix2 p q)).trans ?_
    exact dot_apply _ _ p q
  · refine (broadcastTo_1b_ab_apply _ _ p q).trans ?_
    rw [shapeCast_self]

theorem hz : (![0, 0] : Fin 2 → Nat) = fun _ => 0 := funext fun a => by fin_cases a <;> rfl

/-- The index maps over the grid: the row-blocked windows sit at block (t, 0) at point t, the whole operands at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the block at point t is row 5000·t + p of the array. -/
theorem read_blk0 (X : S100000x128.Idx → EReal) (t : Fin cfg0.N) (p : Fin 5000) (q : Fin 128) (r : Fin 100000)
    (hr : r.val = 5000 * t.val + p.val) :
    ((cfg0.win 0).blk t).view.read (Elt Ideal) X (ix2 p q) = X (ix2 r q) := by
  obtain ⟨e0, e1, -⟩ := idx_facts t
  show X (((cfg0.win 0).blk t).view.emb (ix2 p q)) = X (ix2 r q)
  refine congrArg X (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * q.val = q.val; rw [e1]; omega

theorem read_blk3 (X : S100000x128.Idx → EReal) (t : Fin cfg0.N) (p : Fin 5000) (q : Fin 128) (r : Fin 100000)
    (hr : r.val = 5000 * t.val + p.val) :
    ((cfg0.win 3).blk t).view.read (Elt Ideal) X (ix2 p q) = X (ix2 r q) := by
  obtain ⟨-, -, -, -, -, -, e0, e1⟩ := idx_facts t
  show X (((cfg0.win 3).blk t).view.emb (ix2 p q)) = X (ix2 r q)
  refine congrArg X (funext fun a => Fin.ext ?_)
  match a with
  | ⟨0, _⟩ => show win0_3.index t (0 : Fin 2) * 5000 + 1 * p.val = r.val; rw [e0, hr]; omega
  | ⟨1, _⟩ => show win0_3.index t (1 : Fin 2) * 128 + 1 * q.val = q.val; rw [e1]; omega

/-- The whole operands are read as they are. -/
theorem read_blk1 (X : S128x128.Idx → EReal) (t : Fin cfg0.N) :
    ((cfg0.win 1).blk t).view.read (Elt Ideal) X = X := by
  obtain ⟨-, -, e0, e1, -⟩ := idx_facts t
  funext j
  show X (((cfg0.win 1).blk t).view.emb j) = X j
  refine congrArg X (funext fun a => Fin.ext ?_)
  match a with
  | ⟨0, _⟩ => show win0_1.index t (0 : Fin 2) * 128 + 1 * (j 0).val = (j 0).val; rw [e0]; omega
  | ⟨1, _⟩ => show win0_1.index t (1 : Fin 2) * 128 + 1 * (j 1).val = (j 1).val; rw [e1]; omega

theorem read_blk2 (X : S1x128.Idx → EReal) (t : Fin cfg0.N) :
    ((cfg0.win 2).blk t).view.read (Elt Ideal) X = X := by
  obtain ⟨-, -, -, -, e0, e1, -⟩ := idx_facts t
  funext j
  show X (((cfg0.win 2).blk t).view.emb j) = X j
  refine congrArg X (funext fun a => Fin.ext ?_)
  match a with
  | ⟨0, _⟩ => show win0_2.index t (0 : Fin 2) * 1 + 1 * (j 0).val = (j 0).val; rw [e0]; omega
  | ⟨1, _⟩ => show win0_2.index t (1 : Fin 2) * 128 + 1 * (j 1).val = (j 1).val; rw [e1]; omega

/-- An index of the array is in point t's block iff each coordinate is in the block's range on its axis. -/
theorem mem_blk3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v35).slice (win0_3.rect t)).set ↔ _
  rw [View.set_slice_whole, Rect.mem_set_unit]
  exact Iff.rfl

/-- Row r of the array lies in the block of point r / 5000, which is written back. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by rw [hN]; omega
  refine ⟨⟨(i 0).val / 5000, ht⟩, flush0_3 _, ?_⟩
  rw [mem_blk3]
  obtain ⟨-, -, -, -, -, -, e0, e1⟩ := idx_facts ⟨(i 0).val / 5000, ht⟩
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e1]; omega

/-- Two arrays over a 5000×128 block are equal when they agree at every (row, column). -/
theorem ext_blk (Y Z : S5000x128.Idx → EReal) (h : ∀ (p : Fin 5000) (q : Fin 128), Y (ix2 p q) = Z (ix2 p q)) : Y = Z :=
  funext fun j => by rw [eq_ix2 j]; exact h _ _

variable (V : (c : Dev nD) → (b : Ref sig .tc) → Buf (Elt Ideal) ((c : Thread nD τ).loc b))

/-- What point t writes back is block t of x·w + b of the arrays the region finds. -/
theorem flushed_eq (c : Dev nD) (t : Fin cfg0.N) :
    (dat0 (F := Ideal) V c).flushed 3 t = ((cfg0.win 3).blk t).view.read (Elt Ideal)
      (Cert.Gcn.linear (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  have h1 : iblk0 V c 1 t = V c (Pipeline.arrRef spec0 1) := read_blk1 _ t
  have h2 : iblk0 V c 2 t = V c (Pipeline.arrRef spec0 2) := read_blk2 _ t
  rw [h1, h2]
  refine ext_blk _ _ fun p q => ?_
  have hN : cfg0.N = 20 := N_0
  have htl : t.val < 20 := hN ▸ t.isLt
  have hr : 5000 * t.val + p.val < 100000 := by have := p.isLt; omega
  refine (pay_apply _ _ _ p q).trans ?_
  refine Eq.trans ?_ (read_blk3 _ t p q ⟨5000 * t.val + p.val, hr⟩ rfl).symm
  show _ = Cert.Gcn.linearAt _ _ _ ⟨5000 * t.val + p.val, hr⟩ q
  unfold Cert.Gcn.linearAt
  refine congrArg₂ (· + ·) (Finset.sum_congr rfl fun k _ => congrArg₂ (· * ·) ?_ rfl) rfl
  exact read_blk0 _ t p k ⟨5000 * t.val + p.val, hr⟩ rfl

/-- The array after the region: x·w + b of the arrays the region finds. -/
theorem mm0 (c : Dev nD) :
    (Cert.KernelIdeal.Gen.dat0 (F := Ideal) V c).arrAt 3 cfg0.N
      = Cert.Gcn.linear (V c (Pipeline.arrRef spec0 0)) (V c (Pipeline.arrRef spec0 1)) (V c (Pipeline.arrRef spec0 2)) :=
  (dat0 (F := Ideal) V c).arrAt_eq_of_cover 3 _ (fun t _ => flushed_eq V c t) cover

end Cert.KernelIdeal.MmValue0

end
-- ==== Proof.Mm3.lean ====
/-
  The matrix product with bias, region by region of the program: the array the kernel leaves is x·w + b of the arrays it finds.
  The body's value at an index; each window's block as rows of its array; the blocks written back cover the array.
-/
import proofs.«136606_j68719476736452_2_alg».proof.Proof.Gen.KernelIdeal.Frame
import proofs.«136606_j68719476736452_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.MmValue3

open Cert.KernelIdeal Cert.KernelIdeal.Gen

/-- The contraction of the product: rows of the left factor against columns of the right. -/
theorem dot_apply (A : FVec Ideal S5000x128 .bf16) (B : FVec Ideal S128x128 .bf16) (p : Fin 5000) (q : Fin 128) :
    (∑ k : dot_S5000x128_S128x128_S5000x128_1_0_0_1_n_n.contr.Idx,
        A (dot_S5000x128_S128x128_S5000x128_1_0_0_1_n_n.lhsIdx (ix2 p q) k) * B (dot_S5000x128_S128x128_S5000x128_1_0_0_1_n_n.rhsIdx (ix2 p q) k))
      = ∑ k : Fin 128, A (ix2 p k) * B (ix2 k q) := by
  rw [← Equiv.sum_comp (contrEquiv1 dot_S5000x128_S128x128_S5000x128_1_0_0_1_n_n 128 rfl rfl).symm]
  refine Finset.sum_congr rfl fun c _ => ?_
  have c2 := contrEquiv1_symm_val dot_S5000x128_S128x128_S5000x128_1_0_0_1_n_n 128 rfl rfl c
  have l2 : dot_S5000x128_S128x128_S5000x128_1_0_0_1_n_n.lhsIdx (ix2 p q) ((contrEquiv1 _ 128 rfl rfl).symm c) = ix2 p c := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact c2
  have r2 : dot_S5000x128_S128x128_S5000x128_1_0_0_1_n_n.rhsIdx (ix2 p q) ((contrEquiv1 _ 128 rfl rfl).symm c) = ix2 c q := by
    funext ax; apply Fin.ext
    match ax with
    | ⟨0, _⟩ => simp [DotDims.rhsIdx, dot_S5000x128_S128x128_S5000x128_1_0_0_1_n_n]; exact c2
    | ⟨1, _⟩ => simp [DotDims.rhsIdx, dot_S5000x128_S128x128_S5000x128_1_0_0_1_n_n]; rfl
  rw [l2, r2]

/-- The body's value at row p, column q: the p-th row of the left block against the q-th column of the weights, plus the bias. -/
theorem pay_apply (x0 : Vec Ideal S5000x128 .f32) (x1 : Vec Ideal S128x128 .f32) (x2 : Vec Ideal S1x128 .f32)
    (p : Fin 5000) (q : Fin 128) :
    k3_pay1 (F := Ideal) x0 x1 x2 (ix2 p q) = (∑ k : Fin 128, x0 (ix2 p k) * x1 (ix2 k q)) + x2 (ix2 0 q) := by
  unfold k3_pay1
  refine (addf_apply _ _ _).trans ?_
  refine congrArg₂ (· + ·) ?_ ?_
  · refine (Ideal.matmul_constant_zero_apply dot_S5000x128_S128x128_S5000x128_1_0_0_1_n_n none _ _ (ix2 p q)).trans ?_
    refine (dot_apply _ _ p q).trans ?_
    refine Finset.sum_congr rfl fun k _ => congrArg₂ (· * ·) ?_ ?_
    · exact congrFun (shapeCast_self x0 _) _
    · exact rfl
  · refine (broadcastTo_1b_ab_apply _ _ p q).trans ?_
    rw [shapeCast_self]

theorem hz : (![0, 0] : Fin 2 → Nat) = fun _ => 0 := funext fun a => by fin_cases a <;> rfl

/-- The index maps over the grid: the row-blocked windows sit at block (t, 0) at point t, the whole operands at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row p of the block at point t is row 5000·t + p of the array. -/
theorem read_blk0 (X : S100000x128.Idx → EReal) (t : Fin cfg3.N) (p : Fin 5000) (q : Fin 128) (r : Fin 100000)
    (hr : r.val = 5000 * t.val + p.val) :
    ((cfg3.win 0).blk t).view.read (Elt Ideal) X (ix2 p q) = X (ix2 r q) := by
  obtain ⟨e0, e1, -⟩ := idx_facts t
  show X (((cfg3.win 0).blk t).view.emb (ix2 p q)) = X (ix2 r q)
  refine congrArg X (funext fun a => Fin.ext ?_)
  match a with
  | ⟨0, _⟩ => show win3_0.index t (0 : Fin 2) * 5000 + 1 * p.val = r.val; rw [e0, hr]; omega
  | ⟨1, _⟩ => show win3_0.index t (1 : Fin 2) * 128 + 1 * q.val = q.val; rw [e1]; omega

theorem read_blk3 (X : S100000x128.Idx → EReal) (t : Fin cfg3.N) (p : Fin 5000) (q : Fin 128) (r : Fin 100000)
    (hr : r.val = 5000 * t.val + p.val) :
    ((cfg3.win 3).blk t).view.read (Elt Ideal) X (ix2 p q) = X (ix2 r q) := by
  obtain ⟨-, -, -, -, -, -, e0, e1⟩ := idx_facts t
  show X (((cfg3.win 3).blk t).view.emb (ix2 p q)) = X (ix2 r q)
  refine congrArg X (funext fun a => Fin.ext ?_)
  match a with
  | ⟨0, _⟩ => show win3_3.index t (0 : Fin 2) * 5000 + 1 * p.val = r.val; rw [e0, hr]; omega
  | ⟨1, _⟩ => show win3_3.index t (1 : Fin 2) * 128 + 1 * q.val = q.val; rw [e1]; omega

/-- The whole operands are read as they are. -/
theorem read_blk1 (X : S128x128.Idx → EReal) (t : Fin cfg3.N) :
    ((cfg3.win 1).blk t).view.read (Elt Ideal) X = X := by
  obtain ⟨-, -, e0, e1, -⟩ := idx_facts t
  funext j
  show X (((cfg3.win 1).blk t).view.emb j) = X j
  refine congrArg X (funext fun a => Fin.ext ?_)
  match a with
  | ⟨0, _⟩ => show win3_1.index t (0 : Fin 2) * 128 + 1 * (j 0).val = (j 0).val; rw [e0]; omega
  | ⟨1, _⟩ => show win3_1.index t (1 : Fin 2) * 128 + 1 * (j 1).val = (j 1).val; rw [e1]; omega

theorem read_blk2 (X : S1x128.Idx → EReal) (t : Fin cfg3.N) :
    ((cfg3.win 2).blk t).view.read (Elt Ideal) X = X := by
  obtain ⟨-, -, -, -, e0, e1, -⟩ := idx_facts t
  funext j
  show X (((cfg3.win 2).blk t).view.emb j) = X j
  refine congrArg X (funext fun a => Fin.ext ?_)
  match a with
  | ⟨0, _⟩ => show win3_2.index t (0 : Fin 2) * 1 + 1 * (j 0).val = (j 0).val; rw [e0]; omega
  | ⟨1, _⟩ => show win3_2.index t (1 : Fin 2) * 128 + 1 * (j 1).val = (j 1).val; rw [e1]; omega

/-- An index of the array is in point t's block iff each coordinate is in the block's range on its axis. -/
theorem mem_blk3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v46).slice (win3_3.rect t)).set ↔ _
  rw [View.set_slice_whole, Rect.mem_set_unit]
  exact Iff.rfl

/-- Row r of the array lies in the block of point r / 5000, which is written back. -/
theorem cover (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  have ht : (i 0).val / 5000 < cfg3.N := by rw [hN]; omega
  refine ⟨⟨(i 0).val / 5000, ht⟩, flush3_3 _, ?_⟩
  rw [mem_blk3]
  obtain ⟨-, -, -, -, -, -, e0, e1⟩ := idx_facts ⟨(i 0).val / 5000, ht⟩
  intro a
  match a with
  | ⟨0, _⟩ =>
    show win3_3.index ⟨(i 0).val / 5000, ht⟩ (0 : Fin 2) * 5000 ≤ (i 0).val ∧ (i 0).val < win3_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_3.index ⟨(i 0).val / 5000, ht⟩ (1 : Fin 2) * 128 ≤ (i 1).val ∧ (i 1).val < win3_3.index ⟨(i 0).val / 5000, ht⟩ (1 : Fin 2) * 128 + 128
    rw [e1]; omega

/-- Two arrays over a 5000×128 block are equal when they agree at every (row, column). -/
theorem ext_blk (Y Z : S5000x128.Idx → EReal) (h : ∀ (p : Fin 5000) (q : Fin 128), Y (ix2 p q) = Z (ix2 p q)) : Y = Z :=
  funext fun j => by rw [eq_ix2 j]; exact h _ _

variable (V : (c : Dev nD) → (b : Ref sig .tc) → Buf (Elt Ideal) ((c : Thread nD τ).loc b))

/-- What point t writes back is block t of x·w + b of the arrays the region finds. -/
theorem flushed_eq (c : Dev nD) (t : Fin cfg3.N) :
    (dat3 (F := Ideal) V c).flushed 3 t = ((cfg3.win 3).blk t).view.read (Elt Ideal)
      (Cert.Gcn.linear (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x128) hz, View.ld_unit_zero (S := S1x128) hz]
  have h1 : iblk3 V c 1 t = V c (Pipeline.arrRef spec3 1) := read_blk1 _ t
  have h2 : iblk3 V c 2 t = V c (Pipeline.arrRef spec3 2) := read_blk2 _ t
  rw [h1, h2]
  refine ext_blk _ _ fun p q => ?_
  have hN : cfg3.N = 20 := N_3
  have htl : t.val < 20 := hN ▸ t.isLt
  have hr : 5000 * t.val + p.val < 100000 := by have := p.isLt; omega
  refine (pay_apply _ _ _ p q).trans ?_
  refine Eq.trans ?_ (read_blk3 _ t p q ⟨5000 * t.val + p.val, hr⟩ rfl).symm
  show _ = Cert.Gcn.linearAt _ _ _ ⟨5000 * t.val + p.val, hr⟩ q
  unfold Cert.Gcn.linearAt
  refine congrArg₂ (· + ·) (Finset.sum_congr rfl fun k _ => congrArg₂ (· * ·) ?_ rfl) rfl
  exact read_blk0 _ t p k ⟨5000 * t.val + p.val, hr⟩ rfl

/-- The array after the region: x·w + b of the arrays the region finds. -/
theorem mm3 (c : Dev nD) :
    (Cert.KernelIdeal.Gen.dat3 (F := Ideal) V c).arrAt 3 cfg3.N
      = Cert.Gcn.linear (V c (Pipeline.arrRef spec3 0)) (V c (Pipeline.arrRef spec3 1)) (V c (Pipeline.arrRef spec3 2)) :=
  (dat3 (F := Ideal) V c).arrAt_eq_of_cover 3 _ (fun t _ => flushed_eq V c t) cover

end Cert.KernelIdeal.MmValue3

end
-- ==== Proof.Stats1.lean ====
/-
  The batch-statistics region, read as a value. Over a grid of 20 points the region visits the 20 blocks of 5000
  rows of a 100000×128 array a, together with one 1×128 row b, and keeps two 1×128 accumulators: at the first point
  both are set to zero, and at every point the column sums of (a + b) over the block's rows are added to the first
  and the column sums of (a + b)² to the second. Both accumulators' block is block (0, 0) of their 1×128 array at
  every point, and it is written back once, after the last point.

  Proved here, over the extended reals: after the region the first array holds, at lane l, the sum over all 100000
  rows r of a(r, l) + b(0, l), and the second the sum of the squares.

  The steps: what each case of the body leaves in each accumulator is one covering store of an accumulating term
  (four short lemmas); that term read at a lane is "what was held, plus the sum over the block's 5000 rows" (a lane
  reduction is a sum over the reduced axis; the added row is broadcast over the rows); row r of block t is row
  5000·t + r of the array; so after point n an accumulator holds the sum over rows 0 … 5000·(n + 1) − 1, by
  induction on n (sums over initial segments of the naturals, split at 5000·(n + 1)); after point 19 that is the sum
  over all rows; and the last point's block covers the 1×128 array, so the array ends at what that point wrote back.
-/
import proofs.«136606_j68719476736452_2_alg».proof.Proof.Gen.KernelIdeal.Frame
import proofs.«136606_j68719476736452_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.StatsValue1

open Cert.KernelIdeal Cert.KernelIdeal.Gen

section Pieces
variable {F : FTy → Type} [FloatOps F]

theorem hz : (![0, 0] : Fin 2 → Nat) = fun _ => 0 := funext fun a => by fin_cases a <;> rfl

/-- At a later point the first output's buffer, holding xo2, is left at the accumulating payload of the two input
    blocks and xo2: the body's one covering store, its loads reading the whole buffers. -/
theorem out_B_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 xo2 xo3 : Vec F S1x128 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  rw [View.canon_unit_zero hz]
  simp only [View.readAt_eq_ld, h1.read_unread, h2.read_unread, h3.read_unread, View.ld_unit_zero (S := S5000x128) hz,
    View.ld_unit_zero (S := S1x128) hz]

/-- The same for the second output, holding xo3. -/
theorem out_B_3 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 xo2 xo3 : Vec F S1x128 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  rw [View.canon_unit_zero hz]
  simp only [View.readAt_eq_ld, h1.read_unread, h2.read_unread, h4.read_unread, View.ld_unit_zero (S := S5000x128) hz,
    View.ld_unit_zero (S := S1x128) hz]

/-- At the first point the body stores the zero block into the first output, reads it back, and leaves the
    accumulating payload over that zero block. -/
theorem out_A_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S1x128 .f32) :
    out1_A_2 c i a1 h1 a2 h2 a3 h3 a4 h4 hc x0 x1 = k1_pay4 x0 x1 (k1_pay1 (F := F)) := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S1x128) hz]

/-- The same for the second output. -/
theorem out_A_3 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S1x128 .f32) :
    out1_A_3 c i a1 h1 a2 h2 a3 h3 a4 h4 hc x0 x1 = k1_pay5 x0 x1 (k1_pay2 (F := F)) := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S1x128) hz]

end Pieces

/-- The zero word read as an extended real is zero. -/
theorem zero_word : (Scalar.ofBits (F := Ideal) .f32 0x00000000#32 : Ideal .f32) = (0 : EReal) := by
  show Ideal.ofBits .f32 0x00000000#32 = 0
  simp [Ideal.ofBits, Ideal.ieee]

/-- The reset block is zero everywhere. -/
theorem pay1_apply (j : S1x128.Idx) : (k1_pay1 (F := Ideal) : FVec Ideal S1x128 .f32) j = (0 : EReal) := by
  unfold k1_pay1
  exact zero_word

/-- The second output's reset block is zero everywhere. -/
theorem pay2_apply (j : S1x128.Idx) : (k1_pay2 (F := Ideal) : FVec Ideal S1x128 .f32) j = (0 : EReal) := by
  unfold k1_pay2
  exact zero_word

/-- Entry (r, l) of the block with the row added: x(r, l) + b(0, l). -/
theorem pay3_apply (x0 : Vec Ideal S5000x128 .f32) (x1 : Vec Ideal S1x128 .f32) (r : Fin 5000) (l : Fin 128) :
    (k1_pay3 x0 x1 : FVec Ideal S5000x128 .f32) (ix2 r l) = (x0 (ix2 r l) + x1 (ix2 (0 : Fin 1) l) : EReal) := by
  unfold k1_pay3
  rw [shapeCast_self, shapeCast_self]
  refine (addf_apply _ _ _).trans ?_
  exact congrArg (fun y : EReal => x0 (ix2 r l) + y) (broadcastTo_1b_ab_apply x1 broadcasts_S1x128_S5000x128 r l)

/-- A sum over the rows of a 5000×128 block, at lane l: the sum over r of the block at (r, l). -/
theorem red_apply (src : FVec Ideal S5000x128 .f32) (hφ : FKind.Formats .f32)
    (hacc : (0x00000000#32 : BitVec (FTy.bits .f32)) = FKind.add.neutral .f32 hφ) (l : Fin 128) :
    multiReduction .add [0] S128 src 0x00000000#32 reduces_S5000x128_S128 hφ hacc (ix1 l)
      = ∑ r : Fin 5000, (src (ix2 r l) : EReal) := by
  refine (Ideal.multiReduction_add_single src 0x00000000#32 reduces_S5000x128_S128 hφ hacc (ix1 l)).trans ?_
  show ∑ r : Fin 5000, src (reduces_S5000x128_S128.lift (ix1 l) r) = _
  refine Finset.sum_congr rfl fun r _ => congrArg src ?_
  funext a
  match a with
  | ⟨0, _⟩ => rfl
  | ⟨1, _⟩ => rfl

/-- The first output after a point: what it held, plus the column sums of the block with the row added. -/
theorem pay4_apply (x0 : Vec Ideal S5000x128 .f32) (x1 acc : Vec Ideal S1x128 .f32) (u : Fin 1) (l : Fin 128) :
    (k1_pay4 x0 x1 acc : FVec Ideal S1x128 .f32) (ix2 u l)
      = (acc (ix2 u l) + ∑ r : Fin 5000, (x0 (ix2 r l) + x1 (ix2 (0 : Fin 1) l)) : EReal) := by
  unfold k1_pay4
  rw [shapeCast_self]
  refine (addf_apply _ _ _).trans ?_
  refine congrArg (fun y : EReal => acc (ix2 u l) + y) ?_
  refine (shapeCast_a_1a_apply _ shapeCasts_S128_S1x128 u l).trans ?_
  refine (red_apply _ _ _ l).trans ?_
  exact Finset.sum_congr rfl fun r _ => pay3_apply x0 x1 r l

/-- The second output after a point: what it held, plus the column sums of the squares. -/
theorem pay5_apply (x0 : Vec Ideal S5000x128 .f32) (x1 acc : Vec Ideal S1x128 .f32) (u : Fin 1) (l : Fin 128) :
    (k1_pay5 x0 x1 acc : FVec Ideal S1x128 .f32) (ix2 u l)
      = (acc (ix2 u l) + ∑ r : Fin 5000, (x0 (ix2 r l) + x1 (ix2 (0 : Fin 1) l)) * (x0 (ix2 r l) + x1 (ix2 (0 : Fin 1) l)) : EReal) := by
  unfold k1_pay5
  rw [shapeCast_self]
  refine (addf_apply _ _ _).trans ?_
  refine congrArg (fun y : EReal => acc (ix2 u l) + y) ?_
  refine (shapeCast_a_1a_apply _ shapeCasts_S128_S1x128 u l).trans ?_
  refine (red_apply _ _ _ l).trans ?_
  refine Finset.sum_congr rfl fun r _ => ?_
  refine (mulf_apply _ _ _).trans ?_
  rw [pay3_apply x0 x1 r l]

/-- Column l of an array on 100000 rows as a function of a natural row number, zero past the last row. -/
def colN (z : (⟨2, ![100000, 128]⟩ : Shape).Idx → EReal) (l : Fin 128) (r : ℕ) : EReal :=
  if h : r < 100000 then z (ix2 ⟨r, h⟩ l) else 0

/-- The sum of a column over all rows is the sum of colN over the first 100000 naturals. -/
theorem sum_rows_eq_range (z : (⟨2, ![100000, 128]⟩ : Shape).Idx → EReal) (l : Fin 128) :
    ∑ r : Fin 100000, z (ix2 r l) = ∑ r ∈ Finset.range 100000, colN z l r := by
  rw [← Fin.sum_univ_eq_sum_range (colN z l) 100000]
  refine Finset.sum_congr rfl fun r _ => ?_
  unfold colN
  rw [dif_pos r.isLt]

/-- The rows of block n (rows 5000·n … 5000·n + 4999), summed: the sum of colN over that run of naturals. -/
theorem block_sum (z : (⟨2, ![100000, 128]⟩ : Shape).Idx → EReal) (l : Fin 128) (n : ℕ) (hn : n < 20) (g : Fin 5000 → EReal)
    (hg : ∀ r : Fin 5000, g r = z (ix2 (⟨5000 * n + r.val, by have := r.isLt; omega⟩ : Fin 100000) l)) :
    ∑ r : Fin 5000, g r = ∑ k ∈ Finset.range 5000, colN z l (5000 * n + k) := by
  rw [← Fin.sum_univ_eq_sum_range (fun k => colN z l (5000 * n + k)) 5000]
  refine Finset.sum_congr rfl fun r _ => ?_
  rw [hg r]
  unfold colN
  rw [dif_pos (by have := r.isLt; omega)]

/-- The running sum over the first n + 1 blocks, extended by block n + 1. -/
theorem run_succ (f : ℕ → EReal) (n : ℕ) :
    ∑ r ∈ Finset.range (5000 * (n + 1)), f r + ∑ k ∈ Finset.range 5000, f (5000 * (n + 1) + k)
      = ∑ r ∈ Finset.range (5000 * (n + 1 + 1)), f r := by
  rw [show 5000 * (n + 1 + 1) = 5000 * (n + 1) + 5000 from by ring, Finset.sum_range_add]

/-- The first block alone, from zero. -/
theorem run_zero (f : ℕ → EReal) :
    (0 : EReal) + ∑ k ∈ Finset.range 5000, f (5000 * 0 + k) = ∑ r ∈ Finset.range (5000 * (0 + 1)), f r := by
  rw [zero_add]
  refine Finset.sum_congr rfl fun k _ => ?_
  rw [Nat.mul_zero, Nat.zero_add]

section Blocks
variable (V : (c : Dev nD) → (b : Ref sig .tc) → Buf (Elt Ideal) ((c : Thread nD τ).loc b))

/-- The index maps over the grid: the first input's block index is (t, 0); the row's and both outputs' are (0, 0). -/
theorem idx_facts : ∀ t : Fin cfg1.N,
    (win1_0.index t 0 = t.val ∧ win1_0.index t 1 = 0) ∧ (win1_1.index t 0 = 0 ∧ win1_1.index t 1 = 0)
      ∧ (win1_2.index t 0 = 0 ∧ win1_2.index t 1 = 0) ∧ (win1_3.index t 0 = 0 ∧ win1_3.index t 1 = 0) :=
  (by decide +kernel : ∀ t : Fin grid1.N,
    (win1_0.index t 0 = t.val ∧ win1_0.index t 1 = 0) ∧ (win1_1.index t 0 = 0 ∧ win1_1.index t 1 = 0)
      ∧ (win1_2.index t 0 = 0 ∧ win1_2.index t 1 = 0) ∧ (win1_3.index t 0 = 0 ∧ win1_3.index t 1 = 0))

/-- Entry (r, l) of the first input's block at point t is the array's entry at row 5000·t + r, lane l. -/
theorem blk0_read (c : Dev nD) (t : Fin cfg1.N) (ht : t.val < 20) (r : Fin 5000) (l : Fin 128) :
    (iblk1 (F := Ideal) V c 0 t : Vec Ideal S5000x128 .f32) (ix2 r l)
      = (V c (Pipeline.arrRef spec1 0) : S100000x128.Idx → EReal) (ix2 (⟨5000 * t.val + r.val, by have := r.isLt; omega⟩ : Fin 100000) l) := by
  obtain ⟨⟨i0, i1⟩, -⟩ := idx_facts t
  unfold iblk1
  rw [View.read_apply]
  show V c (Pipeline.arrRef spec1 0) _ = V c (Pipeline.arrRef spec1 0) _
  refine congrArg (V c (Pipeline.arrRef spec1 0)) ?_
  funext a
  apply Fin.ext
  match a with
  | ⟨0, _⟩ => show win1_0.index t 0 * 5000 + 1 * r.val = 5000 * t.val + r.val; rw [i0]; omega
  | ⟨1, _⟩ => show win1_0.index t 1 * 128 + 1 * l.val = l.val; rw [i1]; omega

/-- Entry (0, l) of the second input's block at any point is the row's entry at lane l. -/
theorem blk1_read (c : Dev nD) (t : Fin cfg1.N) (l : Fin 128) :
    (iblk1 (F := Ideal) V c 1 t : Vec Ideal S1x128 .f32) (ix2 (0 : Fin 1) l)
      = (V c (Pipeline.arrRef spec1 1) : S1x128.Idx → EReal) (ix2 (0 : Fin 1) l) := by
  obtain ⟨-, ⟨i0, i1⟩, -⟩ := idx_facts t
  unfold iblk1
  rw [View.read_apply]
  show V c (Pipeline.arrRef spec1 1) _ = V c (Pipeline.arrRef spec1 1) _
  refine congrArg (V c (Pipeline.arrRef spec1 1)) ?_
  funext a
  apply Fin.ext
  match a with
  | ⟨0, _⟩ => show win1_1.index t 0 * 1 + 1 * 0 = 0; rw [i0]
  | ⟨1, _⟩ => show win1_1.index t 1 * 128 + 1 * l.val = l.val; rw [i1]; omega

end Blocks

section Run
variable (V : (c : Dev nD) → (b : Ref sig .tc) → Buf (Elt Ideal) ((c : Thread nD τ).loc b))

/-- The node features with the row added to every row: the array whose columns are summed. -/
abbrev Z (c : Dev nD) : Cert.Gcn.Snd.Idx → EReal :=
  Cert.Gcn.addRow (V c (Pipeline.arrRef spec1 0)) (V c (Pipeline.arrRef spec1 1))

/-- Its entrywise square. -/
abbrev Zsq (c : Dev nD) : Cert.Gcn.Snd.Idx → EReal := fun i => Z V c i * Z V c i

/-- The outputs after the first point of a run: the accumulating payloads over the zero blocks. -/
theorem outs_A (c : Dev nD) (t : Fin cfg1.N) (h0 : t.val % 20 = 0) :
    outsAt1 (F := Ideal) V c t.val t.isLt
      = (k1_pay4 (iblk1 V c 0 t) (iblk1 V c 1 t) (k1_pay1 (F := Ideal)), k1_pay5 (iblk1 V c 0 t) (iblk1 V c 1 t) (k1_pay2 (F := Ideal))) := by
  rw [outsAt1_A V c t h0]
  exact Prod.ext
    (out_A_2 (F := Ideal) c (grid1.coords t) (ms1_0 t) (hs1_0 t) (ms1_1 t) (hs1_1 t) (ms1_2 t) (hs1_2 t) (ms1_3 t) (hs1_3 t) ((hcond1_0 t).mpr h0) (iblk1 V c 0 t) (iblk1 V c 1 t))
    (out_A_3 (F := Ideal) c (grid1.coords t) (ms1_0 t) (hs1_0 t) (ms1_1 t) (hs1_1 t) (ms1_2 t) (hs1_2 t) (ms1_3 t) (hs1_3 t) ((hcond1_0 t).mpr h0) (iblk1 V c 0 t) (iblk1 V c 1 t))

/-- The outputs after a later point: the accumulating payloads over what the point before left. -/
theorem outs_B (c : Dev nD) (t : Fin cfg1.N) (h0 : ¬t.val % 20 = 0) :
    outsAt1 (F := Ideal) V c t.val t.isLt
      = (k1_pay4 (iblk1 V c 0 t) (iblk1 V c 1 t) (outsAt1 V c (t.val - 1) (Nat.lt_of_le_of_lt (Nat.sub_le _ _) t.isLt)).1,
         k1_pay5 (iblk1 V c 0 t) (iblk1 V c 1 t) (outsAt1 V c (t.val - 1) (Nat.lt_of_le_of_lt (Nat.sub_le _ _) t.isLt)).2) := by
  rw [outsAt1_B V c t h0]
  exact Prod.ext
    (out_B_2 (F := Ideal) c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t)
      (outsAt1 V c (t.val - 1) (Nat.lt_of_le_of_lt (Nat.sub_le _ _) t.isLt)).1 (outsAt1 V c (t.val - 1) (Nat.lt_of_le_of_lt (Nat.sub_le _ _) t.isLt)).2)
    (out_B_3 (F := Ideal) c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t)
      (outsAt1 V c (t.val - 1) (Nat.lt_of_le_of_lt (Nat.sub_le _ _) t.isLt)).1 (outsAt1 V c (t.val - 1) (Nat.lt_of_le_of_lt (Nat.sub_le _ _) t.isLt)).2)

/-- Entry (r, l) of block t of the array with the row added (the blocks as plain vectors x0, x1). -/
theorem blk_entry (c : Dev nD) (t : Fin cfg1.N) (ht : t.val < 20) (x0 : Vec Ideal S5000x128 .f32) (x1 : Vec Ideal S1x128 .f32)
    (e0 : x0 = iblk1 (F := Ideal) V c 0 t) (e1 : x1 = iblk1 (F := Ideal) V c 1 t) (r : Fin 5000) (l : Fin 128) :
    (x0 (ix2 r l) + x1 (ix2 (0 : Fin 1) l) : EReal)
      = Z V c (ix2 (⟨5000 * t.val + r.val, by have := r.isLt; omega⟩ : Fin 100000) l) := by
  subst e0 e1
  rw [blk0_read V c t ht r l, blk1_read V c t l]
  rfl

/-- One point's step on the first output, at lane l: what it held plus the rows of block t of column l. -/
theorem step2 (c : Dev nD) (t : Fin cfg1.N) (ht : t.val < 20) (acc : Vec Ideal S1x128 .f32) (u : Fin 1) (l : Fin 128) :
    (k1_pay4 (iblk1 (F := Ideal) V c 0 t) (iblk1 (F := Ideal) V c 1 t) acc : FVec Ideal S1x128 .f32) (ix2 u l)
      = (acc (ix2 u l) + ∑ k ∈ Finset.range 5000, colN (Z V c) l (5000 * t.val + k) : EReal) := by
  refine (pay4_apply (iblk1 (F := Ideal) V c 0 t) (iblk1 (F := Ideal) V c 1 t) acc u l).trans ?_
  exact congrArg (fun y : EReal => acc (ix2 u l) + y)
    (block_sum (Z V c) l t.val ht _ fun r => blk_entry V c t ht _ _ rfl rfl r l)

/-- One point's step on the second output, at lane l: what it held plus the squares of the rows of block t of column l. -/
theorem step3 (c : Dev nD) (t : Fin cfg1.N) (ht : t.val < 20) (acc : Vec Ideal S1x128 .f32) (u : Fin 1) (l : Fin 128) :
    (k1_pay5 (iblk1 (F := Ideal) V c 0 t) (iblk1 (F := Ideal) V c 1 t) acc : FVec Ideal S1x128 .f32) (ix2 u l)
      = (acc (ix2 u l) + ∑ k ∈ Finset.range 5000, colN (Zsq V c) l (5000 * t.val + k) : EReal) := by
  refine (pay5_apply (iblk1 (F := Ideal) V c 0 t) (iblk1 (F := Ideal) V c 1 t) acc u l).trans ?_
  exact congrArg (fun y : EReal => acc (ix2 u l) + y)
    (block_sum (Zsq V c) l t.val ht _ fun r =>
      congrArg₂ (fun a b : EReal => a * b) (blk_entry V c t ht _ _ rfl rfl r l) (blk_entry V c t ht _ _ rfl rfl r l))

/-- THE INVARIANT. After point n the first output holds, at lane l, the sum of column l of the array with the row
    added over the rows of blocks 0 … n, and the second the sum of the squares: by induction on the point. -/
theorem outsAt_eq (c : Dev nD) : ∀ (n : ℕ) (h : n < cfg1.N) (u : Fin 1) (l : Fin 128),
    ((outsAt1 (F := Ideal) V c n h).1 (ix2 u l) : EReal) = ∑ r ∈ Finset.range (5000 * (n + 1)), colN (Z V c) l r
      ∧ ((outsAt1 (F := Ideal) V c n h).2 (ix2 u l) : EReal) = ∑ r ∈ Finset.range (5000 * (n + 1)), colN (Zsq V c) l r
  | 0, h, u, l => by
    have hN : cfg1.N = 20 := N_1
    have hA := outs_A V c ⟨0, h⟩ (Nat.zero_mod 20)
    dsimp only at hA
    rw [hA]
    dsimp only
    constructor
    · rw [step2 V c ⟨0, h⟩ (show (0 : ℕ) < 20 by decide) _ u l, pay1_apply]
      exact run_zero _
    · rw [step3 V c ⟨0, h⟩ (show (0 : ℕ) < 20 by decide) _ u l, pay2_apply]
      exact run_zero _
  | n + 1, h, u, l => by
    have hN : cfg1.N = 20 := N_1
    have hn : n + 1 < 20 := by omega
    have hB := outs_B V c ⟨n + 1, h⟩ (by dsimp only; omega)
    dsimp only [Nat.add_sub_cancel] at hB
    rw [hB]
    dsimp only
    obtain ⟨ih2, ih3⟩ := outsAt_eq c n (Nat.lt_of_succ_lt h) u l
    constructor
    · rw [step2 V c ⟨n + 1, h⟩ hn _ u l]
      refine Eq.trans ?_ (run_succ (colN (Z V c) l) n)
      exact congrArg (fun y : EReal => y + ∑ k ∈ Finset.range 5000, colN (Z V c) l (5000 * (n + 1) + k)) ih2
    · rw [step3 V c ⟨n + 1, h⟩ hn _ u l]
      refine Eq.trans ?_ (run_succ (colN (Zsq V c) l) n)
      exact congrArg (fun y : EReal => y + ∑ k ∈ Finset.range 5000, colN (Zsq V c) l (5000 * (n + 1) + k)) ih3

end Run

section Final
variable (V : (c : Dev nD) → (b : Ref sig .tc) → Buf (Elt Ideal) ((c : Thread nD τ).loc b))

/-- The last point of the grid. -/
def tLast : Fin cfg1.N := ⟨19, by rw [show cfg1.N = 20 from N_1]; decide⟩

/-- After the last point the first output holds the column sums of the array with the row added. -/
theorem last_fst (c : Dev nD) (t : Fin cfg1.N) (h19 : t.val = 19) :
    ((outsAt1 (F := Ideal) V c t.val t.isLt).1 : S1x128.Idx → EReal) = Cert.Gcn.colSum (Z V c) := by
  funext j
  obtain ⟨n, hn⟩ := t
  dsimp only at h19
  subst h19
  rw [eq_ix2 j]
  refine ((outsAt_eq V c 19 hn (j 0) (j 1)).1).trans ?_
  show _ = Cert.Gcn.colSumAt (Z V c) (j 1)
  unfold Cert.Gcn.colSumAt
  exact (sum_rows_eq_range (Z V c) (j 1)).symm

/-- After the last point the second output holds the column sums of its squares. -/
theorem last_snd (c : Dev nD) (t : Fin cfg1.N) (h19 : t.val = 19) :
    ((outsAt1 (F := Ideal) V c t.val t.isLt).2 : S1x128.Idx → EReal) = Cert.Gcn.colSumSq (Z V c) := by
  funext j
  obtain ⟨n, hn⟩ := t
  dsimp only at h19
  subst h19
  rw [eq_ix2 j]
  refine ((outsAt_eq V c 19 hn (j 0) (j 1)).2).trans ?_
  show _ = Cert.Gcn.colSumAt (Zsq V c) (j 1)
  unfold Cert.Gcn.colSumAt
  exact (sum_rows_eq_range (Zsq V c) (j 1)).symm

/-- The one write-back of the first output, at the last point, writes the column sums: block (0, 0) of the 1×128
    array read through zero offsets is the array. -/
theorem flushed_eq2 (c : Dev nD) (t : Fin cfg1.N) (hf : (cfg1.win 2).flush t = true) :
    (dat1 (F := Ideal) V c).flushed 2 t = ((cfg1.win 2).blk t).view.read (Elt Ideal) (Cert.Gcn.colSum (Z V c)) := by
  have hN : cfg1.N = 20 := N_1
  have h19 : t.val = 19 := by have := (flush1_2 t).mp hf; have := t.isLt; omega
  obtain ⟨-, -, ⟨i0, i1⟩, -⟩ := idx_facts t
  show (cfg1.win 2).cut (grid1.coords t) ((dat1 (F := Ideal) V c).after 2 t) = _
  rw [after1_2, last_fst V c t h19]
  have hz' : (fun a => win1_2.index t a * (Pipeline.arrRef spec1 2).ty.shape.size a) = fun _ => 0 := funext fun a => by
    match a with
    | ⟨0, _⟩ => show win1_2.index t 0 * 1 = 0; rw [i0]
    | ⟨1, _⟩ => show win1_2.index t 1 * 128 = 0; rw [i1]
  exact (Memref.read_access_unit_zero (Elt Ideal) (Pipeline.arrRef spec1 2) hz' (fun a => by rw [congrFun hz' a]; simp) (Cert.Gcn.colSum (Z V c))).symm

/-- The one write-back of the second output, at the last point, writes the column sums of the squares. -/
theorem flushed_eq3 (c : Dev nD) (t : Fin cfg1.N) (hf : (cfg1.win 3).flush t = true) :
    (dat1 (F := Ideal) V c).flushed 3 t = ((cfg1.win 3).blk t).view.read (Elt Ideal) (Cert.Gcn.colSumSq (Z V c)) := by
  have hN : cfg1.N = 20 := N_1
  have h19 : t.val = 19 := by have := (flush1_3 t).mp hf; have := t.isLt; omega
  obtain ⟨-, -, -, ⟨i0, i1⟩⟩ := idx_facts t
  show (cfg1.win 3).cut (grid1.coords t) ((dat1 (F := Ideal) V c).after 3 t) = _
  rw [after1_3, last_snd V c t h19]
  have hz' : (fun a => win1_3.index t a * (Pipeline.arrRef spec1 3).ty.shape.size a) = fun _ => 0 := funext fun a => by
    match a with
    | ⟨0, _⟩ => show win1_3.index t 0 * 1 = 0; rw [i0]
    | ⟨1, _⟩ => show win1_3.index t 1 * 128 = 0; rw [i1]
  exact (Memref.read_access_unit_zero (Elt Ideal) (Pipeline.arrRef spec1 3) hz' (fun a => by rw [congrFun hz' a]; simp) (Cert.Gcn.colSumSq (Z V c))).symm

/-- THE FIRST OUTPUT after the region: the column sums of the first input with the second input's row added to every
    row. The last point's block is the whole 1×128 array, so what that point writes back is the array. -/
theorem sum1 (c : Dev nD) :
    (Cert.KernelIdeal.Gen.dat1 (F := Ideal) V c).arrAt 2 cfg1.N
      = Cert.Gcn.colSum (Cert.Gcn.addRow (V c (Pipeline.arrRef spec1 0)) (V c (Pipeline.arrRef spec1 1))) :=
  (dat1 (F := Ideal) V c).arrAt_eq_of_cover 2 (Cert.Gcn.colSum (Z V c)) (flushed_eq2 V c) fun i =>
    ⟨tLast, (flush1_2 tLast).mpr rfl, by
      obtain ⟨-, -, ⟨i0, i1⟩, -⟩ := idx_facts tLast
      show i ∈ ((View.whole (Pipeline.arrRef spec1 2)).slice (win1_2.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win1_2.index tLast 0 * 1 ≤ (i 0 : Nat) ∧ (i 0 : Nat) < win1_2.index tLast 0 * 1 + 1
        rw [i0]; omega
      | ⟨1, _⟩ =>
        show win1_2.index tLast 1 * 128 ≤ (i 1 : Nat) ∧ (i 1 : Nat) < win1_2.index tLast 1 * 128 + 128
        rw [i1]; omega⟩

/-- THE SECOND OUTPUT after the region: the column sums of the squares of the same array. -/
theorem sumsq1 (c : Dev nD) :
    (Cert.KernelIdeal.Gen.dat1 (F := Ideal) V c).arrAt 3 cfg1.N
      = Cert.Gcn.colSumSq (Cert.Gcn.addRow (V c (Pipeline.arrRef spec1 0)) (V c (Pipeline.arrRef spec1 1))) :=
  (dat1 (F := Ideal) V c).arrAt_eq_of_cover 3 (Cert.Gcn.colSumSq (Z V c)) (flushed_eq3 V c) fun i =>
    ⟨tLast, (flush1_3 tLast).mpr rfl, by
      obtain ⟨-, -, -, ⟨i0, i1⟩⟩ := idx_facts tLast
      show i ∈ ((View.whole (Pipeline.arrRef spec1 3)).slice (win1_3.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win1_3.index tLast 0 * 1 ≤ (i 0 : Nat) ∧ (i 0 : Nat) < win1_3.index tLast 0 * 1 + 1
        rw [i0]; omega
      | ⟨1, _⟩ =>
        show win1_3.index tLast 1 * 128 ≤ (i 1 : Nat) ∧ (i 1 : Nat) < win1_3.index tLast 1 * 128 + 128
        rw [i1]; omega⟩

end Final

end Cert.KernelIdeal.StatsValue1

end
-- ==== Proof.Bn2.lean ====
/-
  The normalisation with clamp, as the array the kernel leaves: every entry of a + b normalised by its column's mean and
  variance, scaled and shifted, and clamped at zero.
  The body's value at an index; each window's block as rows of its array; the blocks written back cover the array.
-/
import proofs.«136606_j68719476736452_2_alg».proof.Proof.Gen.KernelIdeal.Frame
import proofs.«136606_j68719476736452_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.BnValue2

open Cert.KernelIdeal Cert.KernelIdeal.Gen

/-- A row of 128 channels spread over the 5000 rows of a block reads, at (p, q), the row's entry q. -/
theorem row_apply (v : Vec Ideal S1x128 .f32) (p : Fin 5000) (q : Fin 128) :
    broadcastTo S5000x128 (shapeCast S1x128 v shapeCasts_S1x128_S1x128) broadcasts_S1x128_S5000x128 (ix2 p q) = v (ix2 0 q) :=
  (broadcastTo_1b_ab_apply _ _ p q).trans (congrFun (shapeCast_self v _) _)

/-- The body's value at row p, channel q: the entry plus its bias, centred, scaled by the inverse root of the variance
    plus the offset, by the channel's scale, shifted, and clamped below at zero. -/
theorem pay_apply (a : Vec Ideal S5000x128 .f32) (b mean var g be : Vec Ideal S1x128 .f32)
    (p : Fin 5000) (q : Fin 128) :
    k2_pay1 (F := Ideal) a b mean var g be (ix2 p q)
      = max (Cert.Gcn.normAt (a (ix2 p q) + b (ix2 0 q)) (mean (ix2 0 q)) (var (ix2 0 q)) (g (ix2 0 q)) (be (ix2 0 q))) 0 := by
  unfold k2_pay1 Cert.Gcn.normAt Cert.Gcn.eps
  refine (maximumf_apply _ _ _).trans ?_
  refine congrArg₂ max ?_ Ideal.ofBits_zero_f32
  refine (addf_apply _ _ _).trans ?_
  refine congrArg₂ (· + ·) ?_ (row_apply be p q)
  refine (mulf_apply _ _ _).trans ?_
  refine congrArg₂ (· * ·) ?_ (row_apply g p q)
  refine (mulf_apply _ _ _).trans ?_
  refine congrArg₂ (· * ·) ?_ ?_
  · refine (subf_apply _ _ _).trans ?_
    refine congrArg₂ (· - ·) ?_ (row_apply mean p q)
    refine (addf_apply _ _ _).trans ?_
    exact congrArg₂ (· + ·) (congrFun (shapeCast_self a _) _) (row_apply b p q)
  · refine (broadcastTo_1b_ab_apply _ _ p q).trans ?_
    show Ideal.rsqrt (shapeCast S1x128 var shapeCasts_S1x128_S1x128 (ix2 0 q) + Ideal.ofBits .f32 0x3727C5AC#32) = _
    rw [shapeCast_self]

theorem hz : (![0, 0] : Fin 2 → Nat) = fun _ => 0 := funext fun a => by fin_cases a <;> rfl

/-- The index maps over the grid: the row-blocked windows sit at block (t, 0) at point t, the rows of channels at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of a row-blocked window's block at point t is row 5000·t + p of its array. -/
theorem read_blk0 (X : S100000x128.Idx → EReal) (t : Fin cfg2.N) (p : Fin 5000) (q : Fin 128) (r : Fin 100000)
    (hr : r.val = 5000 * t.val + p.val) :
    ((cfg2.win 0).blk t).view.read (Elt Ideal) X (ix2 p q) = X (ix2 r q) := by
  obtain ⟨e0, e1, -⟩ := idx_facts t
  show X (((cfg2.win 0).blk t).view.emb (ix2 p q)) = X (ix2 r q)
  refine congrArg X (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * q.val = q.val; rw [e1]; omega

theorem read_blk6 (X : S100000x128.Idx → EReal) (t : Fin cfg2.N) (p : Fin 5000) (q : Fin 128) (r : Fin 100000)
    (hr : r.val = 5000 * t.val + p.val) :
    ((cfg2.win 6).blk t).view.read (Elt Ideal) X (ix2 p q) = X (ix2 r q) := by
  obtain ⟨-, -, -, -, -, -, -, -, -, -, -, -, e0, e1⟩ := idx_facts t
  show X (((cfg2.win 6).blk t).view.emb (ix2 p q)) = X (ix2 r q)
  refine congrArg X (funext fun a => Fin.ext ?_)
  match a with
  | ⟨0, _⟩ => show win2_6.index t (0 : Fin 2) * 5000 + 1 * p.val = r.val; rw [e0, hr]; omega
  | ⟨1, _⟩ => show win2_6.index t (1 : Fin 2) * 128 + 1 * q.val = q.val; rw [e1]; omega

/-- The rows of channels are read as they are. -/
theorem read_row1 (X : S1x128.Idx → EReal) (t : Fin cfg2.N) :
    ((cfg2.win 1).blk t).view.read (Elt Ideal) X = X := by
  obtain ⟨-, -, e0, e1, -⟩ := idx_facts t
  funext j
  show X (((cfg2.win 1).blk t).view.emb j) = X j
  refine congrArg X (funext fun a => Fin.ext ?_)
  match a with
  | ⟨0, _⟩ => show win2_1.index t (0 : Fin 2) * 1 + 1 * (j 0).val = (j 0).val; rw [e0]; omega
  | ⟨1, _⟩ => show win2_1.index t (1 : Fin 2) * 128 + 1 * (j 1).val = (j 1).val; rw [e1]; omega

theorem read_row2 (X : S1x128.Idx → EReal) (t : Fin cfg2.N) :
    ((cfg2.win 2).blk t).view.read (Elt Ideal) X = X := by
  obtain ⟨-, -, -, -, e0, e1, -⟩ := idx_facts t
  funext j
  show X (((cfg2.win 2).blk t).view.emb j) = X j
  refine congrArg X (funext fun a => Fin.ext ?_)
  match a with
  | ⟨0, _⟩ => show win2_2.index t (0 : Fin 2) * 1 + 1 * (j 0).val = (j 0).val; rw [e0]; omega
  | ⟨1, _⟩ => show win2_2.index t (1 : Fin 2) * 128 + 1 * (j 1).val = (j 1).val; rw [e1]; omega

theorem read_row3 (X : S1x128.Idx → EReal) (t : Fin cfg2.N) :
    ((cfg2.win 3).blk t).view.read (Elt Ideal) X = X := by
  obtain ⟨-, -, -, -, -, -, e0, e1, -⟩ := idx_facts t
  funext j
  show X (((cfg2.win 3).blk t).view.emb j) = X j
  refine congrArg X (funext fun a => Fin.ext ?_)
  match a with
  | ⟨0, _⟩ => show win2_3.index t (0 : Fin 2) * 1 + 1 * (j 0).val = (j 0).val; rw [e0]; omega
  | ⟨1, _⟩ => show win2_3.index t (1 : Fin 2) * 128 + 1 * (j 1).val = (j 1).val; rw [e1]; omega

theorem read_row4 (X : S1x128.Idx → EReal) (t : Fin cfg2.N) :
    ((cfg2.win 4).blk t).view.read (Elt Ideal) X = X := by
  obtain ⟨-, -, -, -, -, -, -, -, e0, e1, -⟩ := idx_facts t
  funext j
  show X (((cfg2.win 4).blk t).view.emb j) = X j
  refine congrArg X (funext fun a => Fin.ext ?_)
  match a with
  | ⟨0, _⟩ => show win2_4.index t (0 : Fin 2) * 1 + 1 * (j 0).val = (j 0).val; rw [e0]; omega
  | ⟨1, _⟩ => show win2_4.index t (1 : Fin 2) * 128 + 1 * (j 1).val = (j 1).val; rw [e1]; omega

theorem read_row5 (X : S1x128.Idx → EReal) (t : Fin cfg2.N) :
    ((cfg2.win 5).blk t).view.read (Elt Ideal) X = X := by
  obtain ⟨-, -, -, -, -, -, -, -, -, -, e0, e1, -⟩ := idx_facts t
  funext j
  show X (((cfg2.win 5).blk t).view.emb j) = X j
  refine congrArg X (funext fun a => Fin.ext ?_)
  match a with
  | ⟨0, _⟩ => show win2_5.index t (0 : Fin 2) * 1 + 1 * (j 0).val = (j 0).val; rw [e0]; omega
  | ⟨1, _⟩ => show win2_5.index t (1 : Fin 2) * 128 + 1 * (j 1).val = (j 1).val; rw [e1]; omega

/-- An index of the array is in point t's block iff each coordinate is in the block's range on its axis. -/
theorem mem_blk6 (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v45).slice (win2_6.rect t)).set ↔ _
  rw [View.set_slice_whole, Rect.mem_set_unit]
  exact Iff.rfl

/-- Row r of the array lies in the block of point r / 5000, which is written back. -/
theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 20 := N_2
  have ht : (i 0).val / 5000 < cfg2.N := by rw [hN]; omega
  refine ⟨⟨(i 0).val / 5000, ht⟩, flush2_6 _, ?_⟩
  rw [mem_blk6]
  obtain ⟨-, -, -, -, -, -, -, -, -, -, -, -, e0, e1⟩ := idx_facts ⟨(i 0).val / 5000, ht⟩
  intro a
  match a with
  | ⟨0, _⟩ =>
    show win2_6.index ⟨(i 0).val / 5000, ht⟩ (0 : Fin 2) * 5000 ≤ (i 0).val ∧ (i 0).val < win2_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_6.index ⟨(i 0).val / 5000, ht⟩ (1 : Fin 2) * 128 ≤ (i 1).val ∧ (i 1).val < win2_6.index ⟨(i 0).val / 5000, ht⟩ (1 : Fin 2) * 128 + 128
    rw [e1]; omega

/-- Two arrays over a 5000×128 block are equal when they agree at every (row, column). -/
theorem ext_blk (Y Z : S5000x128.Idx → EReal) (h : ∀ (p : Fin 5000) (q : Fin 128), Y (ix2 p q) = Z (ix2 p q)) : Y = Z :=
  funext fun j => by rw [eq_ix2 j]; exact h _ _

/-- The body's value on blocks that are rows of the arrays: the normalised, clamped entry at the array's row. -/
theorem blk_eq (x0 : Vec Ideal S5000x128 .f32) (x1 x2 x3 x4 x5 : Vec Ideal S1x128 .f32)
    (A : S100000x128.Idx → EReal) (B M Vr G Be : S1x128.Idx → EReal)
    (r : Fin 100000) (p : Fin 5000) (q : Fin 128)
    (h0 : x0 (ix2 p q) = A (ix2 r q))
    (h1 : x1 = B) (h2 : x2 = M) (h3 : x3 = Vr) (h4 : x4 = G) (h5 : x5 = Be) :
    k2_pay1 (F := Ideal) x0 x1 x2 x3 x4 x5 (ix2 p q) = Cert.Gcn.bnRelu A B M Vr G Be (ix2 r q) := by
  subst h1 h2 h3 h4 h5
  rw [pay_apply, h0]
  rfl

variable (V : (c : Dev nD) → (b : Ref sig .tc) → Buf (Elt Ideal) ((c : Thread nD τ).loc b))

/-- What point t writes back is block t of the normalised array of the arrays the region finds. -/
theorem flushed_eq (c : Dev nD) (t : Fin cfg2.N) :
    (dat2 (F := Ideal) V c).flushed 6 t = ((cfg2.win 6).blk t).view.read (Elt Ideal)
      (Cert.Gcn.bnRelu (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero hz]
  simp only [View.ld_unit_zero (S := S5000x128) hz, View.ld_unit_zero (S := S1x128) hz]
  refine ext_blk _ _ fun p q => ?_
  have hN : cfg2.N = 20 := N_2
  have htl : t.val < 20 := hN ▸ t.isLt
  have hr : 5000 * t.val + p.val < 100000 := by have := p.isLt; omega
  exact (blk_eq (iblk2 V c 0 t) (iblk2 V c 1 t) (iblk2 V c 2 t) (iblk2 V c 3 t) (iblk2 V c 4 t) (iblk2 V c 5 t)
    (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) ⟨5000 * t.val + p.val, hr⟩ p q
    (read_blk0 (V c (Pipeline.arrRef spec2 0)) t p q ⟨5000 * t.val + p.val, hr⟩ rfl)
    (read_row1 (V c (Pipeline.arrRef spec2 1)) t)
    (read_row2 (V c (Pipeline.arrRef spec2 2)) t)
    (read_row3 (V c (Pipeline.arrRef spec2 3)) t)
    (read_row4 (V c (Pipeline.arrRef spec2 4)) t)
    (read_row5 (V c (Pipeline.arrRef spec2 5)) t)).trans
    (read_blk6 _ t p q ⟨5000 * t.val + p.val, hr⟩ rfl).symm

/-- The array after the region: the normalised and clamped array, of the arrays the region finds. -/
theorem bn2 (c : Dev nD) :
    (Cert.KernelIdeal.Gen.dat2 (F := Ideal) V c).arrAt 6 cfg2.N
      = Cert.Gcn.bnRelu (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 (F := Ideal) V c).arrAt_eq_of_cover 6 _ (fun t _ => flushed_eq V c t) cover

end Cert.KernelIdeal.BnValue2

end
-- ==== Proof.KOps.lean ====
/-
  The host operations between the kernel program's regions, composed as the program composes them and
  applied to arbitrary arrays, read as the functions of the specification: the row of column sums divided
  by the number of nodes is the row of means, the clamped difference of the mean of squares and the
  squared mean is the row of one-pass variances, a vector cast to one row is that vector as a row, and a
  layer's parameters are cut out of their stacks. Every statement is an equation between arrays of
  extended reals; nothing here runs a program.
-/
import proofs.«136606_j68719476736452_2_alg».proof.KernelIdeal
import proofs.«136606_j68719476736452_2_alg».proof.Proof.Spec
import proofs.«136606_j68719476736452_2_alg».proof.Proof.RealLaws
import Idealize.ShloMosaic.Lib.ValueIdx
import Idealize.ShloMosaic.Lib.ValueLayout
import Idealize.ShloMosaic.Lib.IdealHost
import Idealize.ShloMosaic.PureOps.Ideal.Laws
import Mathlib.Tactic

noncomputable section

open Idealize.ShloMosaic Idealize.ShloMosaic.ValueIdx
open scoped BigOperators

namespace Cert.KernelIdeal.OpsRead

open Cert.KernelIdeal Cert.KernelIdeal.Facts₀ Cert.KernelIdeal.Facts

variable [Facts]

/-! ## Slices of one layer out of a stack, and the casts that drop or add the unit axis -/

/-- A stack of matrices cut to its layer o reads, at (0, a, b), the stack at (o, a, b). -/
theorem slice3_layer_apply {α : Type} {n0 n1 n2 : Nat} (o : Nat) (X : (⟨3, ![n0, n1, n2]⟩ : Shape).Idx → α)
    (h : (⟨3, ![n0, n1, n2]⟩ : Shape).Slices ![o, 0, 0] ⟨3, ![1, n1, n2]⟩)
    (u : Fin 1) (a : Fin n1) (b : Fin n2) (k : Fin n0) (hk : k.val = o) :
    extractStridedSlice ⟨3, ![1, n1, n2]⟩ ![o, 0, 0] X h (ix3 u a b) = X (ix3 k a b) :=
  extractStridedSlice_apply _ _ _ _ _ (fun ax => by
    match ax with
    | ⟨0, _⟩ =>
      have hu : u.val = 0 := by omega
      show k.val = o + u.val
      rw [hk, hu, Nat.add_zero]
    | ⟨1, _⟩ => exact (Nat.zero_add _).symm
    | ⟨2, _⟩ => exact (Nat.zero_add _).symm)

/-- Layer o of a stack of matrices, as a matrix. -/
theorem layer_matrix_eq {α : Type} {n0 n1 n2 : Nat} (o : Nat) (X : (⟨3, ![n0, n1, n2]⟩ : Shape).Idx → α)
    (h : (⟨3, ![n0, n1, n2]⟩ : Shape).Slices ![o, 0, 0] ⟨3, ![1, n1, n2]⟩)
    (hc : (⟨3, ![1, n1, n2]⟩ : Shape).ShapeCasts ⟨2, ![n1, n2]⟩) (k : Fin n0) (hk : k.val = o) :
    shapeCast ⟨2, ![n1, n2]⟩ (extractStridedSlice ⟨3, ![1, n1, n2]⟩ ![o, 0, 0] X h) hc
      = fun i => X (ix3 k (i 0) (i 1)) := by
  funext i
  obtain ⟨a, b, rfl⟩ : ∃ a b, i = ix2 a b := ⟨i 0, i 1, eq_ix2 i⟩
  rw [shapeCast_1ab_ab_apply, slice3_layer_apply o X h 0 a b k hk]
  rfl

/-- Row o of a stack of vectors, as a vector. -/
theorem layer_vector_eq {α : Type} {n0 n1 : Nat} (o : Nat) (X : (⟨2, ![n0, n1]⟩ : Shape).Idx → α)
    (h : (⟨2, ![n0, n1]⟩ : Shape).Slices ![o, 0] ⟨2, ![1, n1]⟩)
    (hc : (⟨2, ![1, n1]⟩ : Shape).ShapeCasts ⟨1, ![n1]⟩) (k : Fin n0) (hk : k.val = o) :
    shapeCast ⟨1, ![n1]⟩ (extractStridedSlice ⟨2, ![1, n1]⟩ ![o, 0] X h) hc
      = fun j => X (ix2 k (j 0)) := by
  funext j
  obtain ⟨a, rfl⟩ : ∃ a, j = ix1 a := ⟨j 0, eq_ix1 j⟩
  rw [shapeCast_1a_a_apply, slice2_axis0_apply o X h 0 a k (by rw [hk]; rfl)]
  rfl

/-- A vector cast to one row reads, at (0, c), the vector at c. -/
theorem vector_row_eq {α : Type} {n : Nat} (x : (⟨1, ![n]⟩ : Shape).Idx → α)
    (h : (⟨1, ![n]⟩ : Shape).ShapeCasts ⟨2, ![1, n]⟩) :
    shapeCast ⟨2, ![1, n]⟩ x h = fun j => x (ix1 (j 1)) := by
  funext j
  obtain ⟨u, a, rfl⟩ : ∃ u a, j = ix2 u a := ⟨j 0, j 1, eq_ix2 j⟩
  rw [shapeCast_a_1a_apply]
  rfl

/-! ## The statistics rows -/

/-- The number of nodes repeated along a row. -/
abbrev nRow : FVec Ideal S1x128 .f32 :=
  broadcastInDim S1x128 ![] bcast_S_S1x128 (constant (F := Ideal) S_ .f32 0x47C35000#32)

theorem nRow_apply (j : S1x128.Idx) : nRow j = Cert.Gcn.nNodes := by
  show broadcastInDim S1x128 ![] bcast_S_S1x128 (constant (F := Ideal) S_ .f32 0x47C35000#32) j = _
  rw [broadcastInDim_scalar_apply, constant_apply]; rfl

/-- The zero constant repeated along a row is the zero row. -/
theorem zero_row_eq :
    broadcastInDim S1x128 ![] bcast_S_S1x128 (constant (F := Ideal) S_ .f32 0x00000000#32) = fun _ => 0 := by
  funext j
  rw [broadcastInDim_scalar_apply, constant_apply, Ideal.ofBits_zero_f32]

/-- The row of column sums divided by the number of nodes is the row of means. -/
theorem mean_row_eq (z : Cert.Gcn.Snd.Idx → EReal) (S1 : FVec Ideal S1x128 .f32) (h1 : S1 = Cert.Gcn.colSum z) :
    Host.divf (F := Ideal) S1 nRow = Cert.Gcn.meanRow z := by
  subst h1
  funext j
  rw [hostDivf_apply, nRow_apply]
  rfl

/-- The mean of the squares minus the squared mean, clamped at zero, is the row of one-pass variances. -/
theorem var_row_eq (z : Cert.Gcn.Snd.Idx → EReal) (S1 S2 : FVec Ideal S1x128 .f32)
    (h1 : S1 = Cert.Gcn.colSum z) (h2 : S2 = Cert.Gcn.colSumSq z) :
    maximumf (subf (Host.divf (F := Ideal) S2 nRow)
        (mulf (Host.divf (F := Ideal) S1 nRow) (Host.divf (F := Ideal) S1 nRow)))
      (broadcastInDim S1x128 ![] bcast_S_S1x128 (constant (F := Ideal) S_ .f32 0x00000000#32))
      = Cert.Gcn.varOnePassRow z := by
  subst h1 h2
  funext j
  rw [maximumf_apply, subf_apply, mulf_apply, hostDivf_apply, hostDivf_apply, nRow_apply, zero_row_eq]
  rfl

/-! ## A vector as a row -/

/-- A vector of channels cast to one row is the vector laid out as a row. -/
theorem vec_row_eq (b : FVec Ideal S128 .f32) :
    shapeCast S1x128 b shapeCasts_S128_S1x128 = Cert.Gcn.rowOf b := by
  rw [vector_row_eq]
  rfl

/-- A cast along an identity of element types changes nothing. -/
theorem cast_elt_self {Val : EltTy → Type} {e : EltTy} (he : e = e) (x : Val e) : (he ▸ x : Val e) = x := rfl

/-- The same as the program's reshape states it, with the element type's identity cast in front. -/
theorem vec_row_cast_eq (b : (main_arg4 : Ref sig .tc).ty.Contents (Elt Ideal)) :
    ((fun i => (rfl : (main_arg4 : Ref sig .tc).ty.elt = (main_v31 : Ref sig .tc).ty.elt) ▸
        shapeCast (main_v31 : Ref sig .tc).ty.shape b shapeCasts_S128_S1x128 i) :
      (main_v31 : Ref sig .tc).ty.Contents (Elt Ideal))
      = Cert.Gcn.rowOf b := vec_row_eq b

/-! ## The zero bias -/

/-- A linear map with the zero bias row is the bare sum of products. -/
theorem linear_zero_bias_apply (x : Cert.Gcn.Snd.Idx → EReal) (w : Cert.Gcn.Sdd.Idx → EReal) (i : Cert.Gcn.Snd.Idx) :
    Cert.Gcn.linear x w (fun _ => 0) i = ∑ k : Fin 128, x (ix2 (i 0) k) * w (ix2 k (i 1)) :=
  add_zero _

/-- Adding the zero row changes nothing. -/
theorem addRow_zero (a : Cert.Gcn.Snd.Idx → EReal) : Cert.Gcn.addRow a (fun _ => 0) = a :=
  funext fun i => add_zero _

/-! ## A layer's parameters out of their stacks -/

/-- Layer l of a stack of three vectors, cut out, cast to a vector and back to one row, is that vector as a row. -/
theorem row_layer0_eq (arg : FVec Ideal S3x128 .f32) :
    shapeCast S1x128 (shapeCast S128 (extractStridedSlice S1x128 ![0, 0] arg slices_S3x128_S1x128_0_0)
        shapeCasts_S1x128_S128) shapeCasts_S128_S1x128
      = Cert.Gcn.rowOf (fun j => arg (ix2 0 (j 0))) := by
  rw [layer_vector_eq 0 arg _ _ 0 rfl]; exact vec_row_eq _
theorem row_layer1_eq (arg : FVec Ideal S3x128 .f32) :
    shapeCast S1x128 (shapeCast S128 (extractStridedSlice S1x128 ![1, 0] arg slices_S3x128_S1x128_1_0)
        shapeCasts_S1x128_S128) shapeCasts_S128_S1x128
      = Cert.Gcn.rowOf (fun j => arg (ix2 1 (j 0))) := by
  rw [layer_vector_eq 1 arg _ _ 1 rfl]; exact vec_row_eq _
theorem row_layer2_eq (arg : FVec Ideal S3x128 .f32) :
    shapeCast S1x128 (shapeCast S128 (extractStridedSlice S1x128 ![2, 0] arg slices_S3x128_S1x128_2_0)
        shapeCasts_S1x128_S128) shapeCasts_S128_S1x128
      = Cert.Gcn.rowOf (fun j => arg (ix2 2 (j 0))) := by
  rw [layer_vector_eq 2 arg _ _ 2 rfl]; exact vec_row_eq _

/-- Layer l of the stack of three weight matrices, cut out and cast to a matrix. -/
theorem mat_layer0_eq {α : Type} (w : S3x128x128.Idx → α) :
    shapeCast S128x128 (extractStridedSlice S1x128x128 ![0, 0, 0] w slices_S3x128x128_S1x128x128_0_0_0)
        shapeCasts_S1x128x128_S128x128
      = fun i => w (ix3 0 (i 0) (i 1)) := layer_matrix_eq 0 w _ _ 0 rfl
theorem mat_layer1_eq {α : Type} (w : S3x128x128.Idx → α) :
    shapeCast S128x128 (extractStridedSlice S1x128x128 ![1, 0, 0] w slices_S3x128x128_S1x128x128_1_0_0)
        shapeCasts_S1x128x128_S128x128
      = fun i => w (ix3 1 (i 0) (i 1)) := layer_matrix_eq 1 w _ _ 1 rfl
theorem mat_layer2_eq {α : Type} (w : S3x128x128.Idx → α) :
    shapeCast S128x128 (extractStridedSlice S1x128x128 ![2, 0, 0] w slices_S3x128x128_S1x128x128_2_0_0)
        shapeCasts_S1x128x128_S128x128
      = fun i => w (ix3 2 (i 0) (i 1)) := layer_matrix_eq 2 w _ _ 2 rfl

/-- The same as the program's reshape states it (layer 0), with the element type's identity cast in front. -/
theorem mat_layer0_cast_eq (w : FVec Ideal S3x128x128 .f32) :
    ((fun i => (rfl : (main_v47 : Ref sig .tc).ty.elt = (main_v48 : Ref sig .tc).ty.elt) ▸
        shapeCast (main_v48 : Ref sig .tc).ty.shape
          ((extractStridedSlice S1x128x128 ![0, 0, 0] · slices_S3x128x128_S1x128x128_0_0_0) w)
          shapeCasts_S1x128x128_S128x128 i) :
      (main_v48 : Ref sig .tc).ty.Contents (Elt Ideal))
      = fun i => w (ix3 0 (i 0) (i 1)) := mat_layer0_eq w

/-- The double reshape of a layer's vector as the program states it (layer 0 of the first stack), with the
    two identity casts in front: the cast-free statement closes it as it stands. -/
theorem row_layer0_cast_eq (arg : FVec Ideal S3x128 .f32) :
    ((fun i => (rfl : (main_v63 : Ref sig .tc).ty.elt = (main_v64 : Ref sig .tc).ty.elt) ▸
        shapeCast (main_v64 : Ref sig .tc).ty.shape
          ((fun i' => (rfl : (main_v62 : Ref sig .tc).ty.elt = (main_v63 : Ref sig .tc).ty.elt) ▸
              shapeCast (main_v63 : Ref sig .tc).ty.shape
                ((extractStridedSlice S1x128 ![0, 0] · slices_S3x128_S1x128_0_0) arg)
                shapeCasts_S1x128_S128 i') : (main_v63 : Ref sig .tc).ty.Contents (Elt Ideal))
          shapeCasts_S128_S1x128 i) :
      (main_v64 : Ref sig .tc).ty.Contents (Elt Ideal))
      = Cert.Gcn.rowOf (fun j => arg (ix2 0 (j 0))) := row_layer0_eq arg

end Cert.KernelIdeal.OpsRead

end
-- ==== Proof.KFoldEnc.lean ====
import proofs.«136606_j68719476736452_2_alg».proof.Proof.Gen.KernelIdeal.Frame
import proofs.«136606_j68719476736452_2_alg».proof.Proof.Spec
import Idealize.ShloMosaic.Lib.StableHlo.Run
import Idealize.ShloMosaic.Lib.ValueIdx
import Idealize.ShloMosaic.Lib.Pipeline.Value
import proofs.«136606_j68719476736452_2_alg».proof.Proof.Mm0
import proofs.«136606_j68719476736452_2_alg».proof.Proof.Mm3
import proofs.«136606_j68719476736452_2_alg».proof.Proof.Stats1
import proofs.«136606_j68719476736452_2_alg».proof.Proof.Bn2
import proofs.«136606_j68719476736452_2_alg».proof.Proof.KOps
import proofs.«136606_j68719476736452_2_alg».proof.Proof.KRaw
set_option maxRecDepth 16384

noncomputable section

namespace Cert.KernelIdeal.Fold

open Cert.KernelIdeal Cert.KernelIdeal.Gen Cert.Gcn
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- A buffer that no operation of a host stretch writes keeps its contents across the stretch. -/
macro "host_carry" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

open Cert.KernelIdeal.OpsRead

/-! # The kernel program's buffers through the encoder

The contents of the program's buffers at each boundary between a host stretch and a kernel region, read back to the
argument arrays. An argument array, and any buffer a later segment does not write, keeps its contents from
boundary to boundary; a region's output array is the region's whole-array function of its operand arrays; a host
stretch's result is its operations applied to the contents it found. The encoder is z = x·W1 + b1, the column
means and one-pass variances of z, the normalised and clamped h₁, and h = h₁·W2 + b2. -/

/-- the zero row: the statistics and the weight-only products are taken with no bias -/
abbrev zeroRow : Srow.Idx → EReal := fun _ => 0

/-- Argument 0 is untouched when the first region is entered. -/
theorem arg0_at3 : W3 (F := Ideal) m ρ c (Proc.devRef .tc main_arg0) = m ((c : Thread nD τ).loc main_arg0) :=
  calc W3 (F := Ideal) m ρ c (Proc.devRef .tc main_arg0)
    _ = W2 (F := Ideal) m ρ c (Proc.devRef .tc main_arg0) := by host_carry hostOps0_2
    _ = W1 (F := Ideal) m ρ c (Proc.devRef .tc main_arg0) := by host_carry hostOps0_1
    _ = W0 (F := Ideal) m ρ c (Proc.devRef .tc main_arg0) := by host_carry hostOps0
    _ = m ((c : Thread nD τ).loc main_arg0) := rfl

/-- Argument 3 is untouched when the first region is entered. -/
theorem arg3_at3 : W3 (F := Ideal) m ρ c (Proc.devRef .tc main_arg3) = m ((c : Thread nD τ).loc main_arg3) :=
  calc W3 (F := Ideal) m ρ c (Proc.devRef .tc main_arg3)
    _ = W2 (F := Ideal) m ρ c (Proc.devRef .tc main_arg3) := by host_carry hostOps0_2
    _ = W1 (F := Ideal) m ρ c (Proc.devRef .tc main_arg3) := by host_carry hostOps0_1
    _ = W0 (F := Ideal) m ρ c (Proc.devRef .tc main_arg3) := by host_carry hostOps0
    _ = m ((c : Thread nD τ).loc main_arg3) := rfl

/-- Argument 4 is untouched when the first region is entered. -/
theorem arg4_at3 : W3 (F := Ideal) m ρ c (Proc.devRef .tc main_arg4) = m ((c : Thread nD τ).loc main_arg4) :=
  calc W3 (F := Ideal) m ρ c (Proc.devRef .tc main_arg4)
    _ = W2 (F := Ideal) m ρ c (Proc.devRef .tc main_arg4) := by host_carry hostOps0_2
    _ = W1 (F := Ideal) m ρ c (Proc.devRef .tc main_arg4) := by host_carry hostOps0_1
    _ = W0 (F := Ideal) m ρ c (Proc.devRef .tc main_arg4) := by host_carry hostOps0
    _ = m ((c : Thread nD τ).loc main_arg4) := rfl

/-- Argument 5 is untouched when the first region is entered. -/
theorem arg5_at3 : W3 (F := Ideal) m ρ c (Proc.devRef .tc main_arg5) = m ((c : Thread nD τ).loc main_arg5) :=
  calc W3 (F := Ideal) m ρ c (Proc.devRef .tc main_arg5)
    _ = W2 (F := Ideal) m ρ c (Proc.devRef .tc main_arg5) := by host_carry hostOps0_2
    _ = W1 (F := Ideal) m ρ c (Proc.devRef .tc main_arg5) := by host_carry hostOps0_1
    _ = W0 (F := Ideal) m ρ c (Proc.devRef .tc main_arg5) := by host_carry hostOps0
    _ = m ((c : Thread nD τ).loc main_arg5) := rfl

/-- Argument 6 is untouched when the first region is entered. -/
theorem arg6_at3 : W3 (F := Ideal) m ρ c (Proc.devRef .tc main_arg6) = m ((c : Thread nD τ).loc main_arg6) :=
  calc W3 (F := Ideal) m ρ c (Proc.devRef .tc main_arg6)
    _ = W2 (F := Ideal) m ρ c (Proc.devRef .tc main_arg6) := by host_carry hostOps0_2
    _ = W1 (F := Ideal) m ρ c (Proc.devRef .tc main_arg6) := by host_carry hostOps0_1
    _ = W0 (F := Ideal) m ρ c (Proc.devRef .tc main_arg6) := by host_carry hostOps0
    _ = m ((c : Thread nD τ).loc main_arg6) := rfl

/-- Argument 7 is untouched when the first region is entered. -/
theorem arg7_at3 : W3 (F := Ideal) m ρ c (Proc.devRef .tc main_arg7) = m ((c : Thread nD τ).loc main_arg7) :=
  calc W3 (F := Ideal) m ρ c (Proc.devRef .tc main_arg7)
    _ = W2 (F := Ideal) m ρ c (Proc.devRef .tc main_arg7) := by host_carry hostOps0_2
    _ = W1 (F := Ideal) m ρ c (Proc.devRef .tc main_arg7) := by host_carry hostOps0_1
    _ = W0 (F := Ideal) m ρ c (Proc.devRef .tc main_arg7) := by host_carry hostOps0
    _ = m ((c : Thread nD τ).loc main_arg7) := rfl

/-- Argument 8 is untouched when the first region is entered. -/
theorem arg8_at3 : W3 (F := Ideal) m ρ c (Proc.devRef .tc main_arg8) = m ((c : Thread nD τ).loc main_arg8) :=
  calc W3 (F := Ideal) m ρ c (Proc.devRef .tc main_arg8)
    _ = W2 (F := Ideal) m ρ c (Proc.devRef .tc main_arg8) := by host_carry hostOps0_2
    _ = W1 (F := Ideal) m ρ c (Proc.devRef .tc main_arg8) := by host_carry hostOps0_1
    _ = W0 (F := Ideal) m ρ c (Proc.devRef .tc main_arg8) := by host_carry hostOps0
    _ = m ((c : Thread nD τ).loc main_arg8) := rfl

/-- Argument 4 before the last opening stretch. -/
theorem arg4_at2 : W2 (F := Ideal) m ρ c (Proc.devRef .tc main_arg4) = m ((c : Thread nD τ).loc main_arg4) :=
  calc W2 (F := Ideal) m ρ c (Proc.devRef .tc main_arg4)
    _ = W1 (F := Ideal) m ρ c (Proc.devRef .tc main_arg4) := by host_carry hostOps0_1
    _ = W0 (F := Ideal) m ρ c (Proc.devRef .tc main_arg4) := by host_carry hostOps0
    _ = m ((c : Thread nD τ).loc main_arg4) := rfl

/-- Argument 5 before the last opening stretch. -/
theorem arg5_at2 : W2 (F := Ideal) m ρ c (Proc.devRef .tc main_arg5) = m ((c : Thread nD τ).loc main_arg5) :=
  calc W2 (F := Ideal) m ρ c (Proc.devRef .tc main_arg5)
    _ = W1 (F := Ideal) m ρ c (Proc.devRef .tc main_arg5) := by host_carry hostOps0_1
    _ = W0 (F := Ideal) m ρ c (Proc.devRef .tc main_arg5) := by host_carry hostOps0
    _ = m ((c : Thread nD τ).loc main_arg5) := rfl

/-- Argument 6 before the last opening stretch. -/
theorem arg6_at2 : W2 (F := Ideal) m ρ c (Proc.devRef .tc main_arg6) = m ((c : Thread nD τ).loc main_arg6) :=
  calc W2 (F := Ideal) m ρ c (Proc.devRef .tc main_arg6)
    _ = W1 (F := Ideal) m ρ c (Proc.devRef .tc main_arg6) := by host_carry hostOps0_1
    _ = W0 (F := Ideal) m ρ c (Proc.devRef .tc main_arg6) := by host_carry hostOps0
    _ = m ((c : Thread nD τ).loc main_arg6) := rfl

/-- Argument 8 before the last opening stretch. -/
theorem arg8_at2 : W2 (F := Ideal) m ρ c (Proc.devRef .tc main_arg8) = m ((c : Thread nD τ).loc main_arg8) :=
  calc W2 (F := Ideal) m ρ c (Proc.devRef .tc main_arg8)
    _ = W1 (F := Ideal) m ρ c (Proc.devRef .tc main_arg8) := by host_carry hostOps0_1
    _ = W0 (F := Ideal) m ρ c (Proc.devRef .tc main_arg8) := by host_carry hostOps0
    _ = m ((c : Thread nD τ).loc main_arg8) := rfl

/-- The first dense layer's bias vector laid out as a row. -/
theorem bias1_at3 : W3 (F := Ideal) m ρ c (Proc.devRef .tc main_v31) = rowOf (m ((c : Thread nD τ).loc main_arg4)) :=
  (Raw.hostOps0_2_v31 (F := Ideal) (W2 (F := Ideal) m ρ c)).trans
    ((vec_row_eq _).trans (congrArg rowOf (arg4_at2 m ρ c)))

/-- The encoder's scale vector laid out as a row. -/
theorem scale_at3 : W3 (F := Ideal) m ρ c (Proc.devRef .tc main_v32) = rowOf (m ((c : Thread nD τ).loc main_arg5)) :=
  (Raw.hostOps0_2_v32 (F := Ideal) (W2 (F := Ideal) m ρ c)).trans
    ((vec_row_eq _).trans (congrArg rowOf (arg5_at2 m ρ c)))

/-- The encoder's shift vector laid out as a row. -/
theorem shift_at3 : W3 (F := Ideal) m ρ c (Proc.devRef .tc main_v33) = rowOf (m ((c : Thread nD τ).loc main_arg6)) :=
  (Raw.hostOps0_2_v33 (F := Ideal) (W2 (F := Ideal) m ρ c)).trans
    ((vec_row_eq _).trans (congrArg rowOf (arg6_at2 m ρ c)))

/-- The second dense layer's bias vector laid out as a row. -/
theorem bias2_at3 : W3 (F := Ideal) m ρ c (Proc.devRef .tc main_v34) = rowOf (m ((c : Thread nD τ).loc main_arg8)) :=
  (Raw.hostOps0_2_v34 (F := Ideal) (W2 (F := Ideal) m ρ c)).trans
    ((vec_row_eq _).trans (congrArg rowOf (arg8_at2 m ρ c)))

/-- The zero row. -/
theorem zero_at3 : W3 (F := Ideal) m ρ c (Proc.devRef .tc main_v30) = zeroRow :=
  (Raw.hostOps0_2_v30 (F := Ideal) (W2 (F := Ideal) m ρ c)).trans zero_row_eq

/-- z = x·W1 + b1, the first region's output. -/
abbrev encZ : Snd.Idx → EReal :=
  linear (m ((c : Thread nD τ).loc main_arg0)) (m ((c : Thread nD τ).loc main_arg3)) (rowOf (m ((c : Thread nD τ).loc main_arg4)))

theorem z_at4 : W4 (F := Ideal) m ρ c (Proc.devRef .tc main_v35) = encZ m c :=
  (W4_arr m ρ c 3).trans ((Cert.KernelIdeal.MmValue0.mm0 (V3 (F := Ideal) m ρ) c).trans
    (by
      have h0 : V3 (F := Ideal) m ρ c main_arg0 = m ((c : Thread nD τ).loc main_arg0) := arg0_at3 m ρ c
      have h1 : V3 (F := Ideal) m ρ c main_arg3 = m ((c : Thread nD τ).loc main_arg3) := arg3_at3 m ρ c
      have h2 : V3 (F := Ideal) m ρ c main_v31 = rowOf (m ((c : Thread nD τ).loc main_arg4)) := bias1_at3 m ρ c
      show linear (V3 (F := Ideal) m ρ c main_arg0) (V3 (F := Ideal) m ρ c main_arg3) (V3 (F := Ideal) m ρ c main_v31) = _
      rw [h0, h1, h2]))

/-- The zero row when the statistics region is entered. -/
theorem zero_at4 : W4 (F := Ideal) m ρ c (Proc.devRef .tc main_v30) = W3 (F := Ideal) m ρ c (Proc.devRef .tc main_v30) :=
  calc W4 (F := Ideal) m ρ c (Proc.devRef .tc main_v30)
    _ = W3 (F := Ideal) m ρ c (Proc.devRef .tc main_v30) := W4_of_ne m ρ c main_v30 (by decide)

/-- The column sums of z and of its square, the statistics region's two outputs. -/
theorem sum_at5 : W5 (F := Ideal) m ρ c (Proc.devRef .tc main_v36_0) = colSum (addRow (encZ m c) zeroRow) :=
  (W5_arr m ρ c 2).trans ((Cert.KernelIdeal.StatsValue1.sum1 (V4 (F := Ideal) m ρ) c).trans
    (by
      have h0 : V4 (F := Ideal) m ρ c main_v35 = encZ m c := z_at4 m ρ c
      have h1 : V4 (F := Ideal) m ρ c main_v30 = zeroRow := (zero_at4 m ρ c).trans (zero_at3 m ρ c)
      show colSum (addRow (V4 (F := Ideal) m ρ c main_v35) (V4 (F := Ideal) m ρ c main_v30)) = _
      rw [h0, h1]))

theorem sumsq_at5 : W5 (F := Ideal) m ρ c (Proc.devRef .tc main_v36_1) = colSumSq (addRow (encZ m c) zeroRow) :=
  (W5_arr m ρ c 3).trans ((Cert.KernelIdeal.StatsValue1.sumsq1 (V4 (F := Ideal) m ρ) c).trans
    (by
      have h0 : V4 (F := Ideal) m ρ c main_v35 = encZ m c := z_at4 m ρ c
      have h1 : V4 (F := Ideal) m ρ c main_v30 = zeroRow := (zero_at4 m ρ c).trans (zero_at3 m ρ c)
      show colSumSq (addRow (V4 (F := Ideal) m ρ c main_v35) (V4 (F := Ideal) m ρ c main_v30)) = _
      rw [h0, h1]))

/-- The column means and one-pass variances of z. -/
theorem mean_at6 : W6 (F := Ideal) m ρ c (Proc.devRef .tc main_v38) = meanRow (addRow (encZ m c) zeroRow) :=
  (Raw.hostOps2_v38 (F := Ideal) (W5 (F := Ideal) m ρ c)).trans (mean_row_eq _ _ (sum_at5 m ρ c))

theorem var_at6 : W6 (F := Ideal) m ρ c (Proc.devRef .tc main_v44) = varOnePassRow (addRow (encZ m c) zeroRow) :=
  (Raw.hostOps2_v44 (F := Ideal) (W5 (F := Ideal) m ρ c)).trans (var_row_eq _ _ _ (sum_at5 m ρ c) (sumsq_at5 m ρ c))

/-- z when the normalising region is entered. -/
theorem z_at6 : W6 (F := Ideal) m ρ c (Proc.devRef .tc main_v35) = W4 (F := Ideal) m ρ c (Proc.devRef .tc main_v35) :=
  calc W6 (F := Ideal) m ρ c (Proc.devRef .tc main_v35)
    _ = W5 (F := Ideal) m ρ c (Proc.devRef .tc main_v35) := by host_carry hostOps2
    _ = W4 (F := Ideal) m ρ c (Proc.devRef .tc main_v35) := (W5_arr m ρ c 0).trans (((dat1 (F := Ideal) (V4 (F := Ideal) m ρ) c).arrAt_in 0 rfl _).trans (A_eq1 (V4 (F := Ideal) m ρ) c 0))

/-- The zero row when the normalising region is entered. -/
theorem zero_at6 : W6 (F := Ideal) m ρ c (Proc.devRef .tc main_v30) = W3 (F := Ideal) m ρ c (Proc.devRef .tc main_v30) :=
  calc W6 (F := Ideal) m ρ c (Proc.devRef .tc main_v30)
    _ = W5 (F := Ideal) m ρ c (Proc.devRef .tc main_v30) := by host_carry hostOps2
    _ = W4 (F := Ideal) m ρ c (Proc.devRef .tc main_v30) := (W5_arr m ρ c 1).trans (((dat1 (F := Ideal) (V4 (F := Ideal) m ρ) c).arrAt_in 1 rfl _).trans (A_eq1 (V4 (F := Ideal) m ρ) c 1))
    _ = W3 (F := Ideal) m ρ c (Proc.devRef .tc main_v30) := W4_of_ne m ρ c main_v30 (by decide)

/-- The scale row when the normalising region is entered. -/
theorem scale_at6 : W6 (F := Ideal) m ρ c (Proc.devRef .tc main_v32) = W3 (F := Ideal) m ρ c (Proc.devRef .tc main_v32) :=
  calc W6 (F := Ideal) m ρ c (Proc.devRef .tc main_v32)
    _ = W5 (F := Ideal) m ρ c (Proc.devRef .tc main_v32) := by host_carry hostOps2
    _ = W4 (F := Ideal) m ρ c (Proc.devRef .tc main_v32) := W5_of_ne m ρ c main_v32 (by decide)
    _ = W3 (F := Ideal) m ρ c (Proc.devRef .tc main_v32) := W4_of_ne m ρ c main_v32 (by decide)

/-- The shift row when the normalising region is entered. -/
theorem shift_at6 : W6 (F := Ideal) m ρ c (Proc.devRef .tc main_v33) = W3 (F := Ideal) m ρ c (Proc.devRef .tc main_v33) :=
  calc W6 (F := Ideal) m ρ c (Proc.devRef .tc main_v33)
    _ = W5 (F := Ideal) m ρ c (Proc.devRef .tc main_v33) := by host_carry hostOps2
    _ = W4 (F := Ideal) m ρ c (Proc.devRef .tc main_v33) := W5_of_ne m ρ c main_v33 (by decide)
    _ = W3 (F := Ideal) m ρ c (Proc.devRef .tc main_v33) := W4_of_ne m ρ c main_v33 (by decide)

/-- h₁: z normalised column by column with the one-pass statistics, scaled, shifted and clamped at zero. -/
abbrev encH1 : Snd.Idx → EReal :=
  bnRelu (encZ m c) zeroRow (meanRow (addRow (encZ m c) zeroRow)) (varOnePassRow (addRow (encZ m c) zeroRow))
    (rowOf (m ((c : Thread nD τ).loc main_arg5))) (rowOf (m ((c : Thread nD τ).loc main_arg6)))

set_option maxHeartbeats 1000000 in
theorem h1_at7 : W7 (F := Ideal) m ρ c (Proc.devRef .tc main_v45) = encH1 m c :=
  (W7_arr m ρ c 6).trans ((Cert.KernelIdeal.BnValue2.bn2 (V6 (F := Ideal) m ρ) c).trans
    (by
      have h0 : V6 (F := Ideal) m ρ c main_v35 = encZ m c := (z_at6 m ρ c).trans (z_at4 m ρ c)
      have h1 : V6 (F := Ideal) m ρ c main_v30 = zeroRow := (zero_at6 m ρ c).trans (zero_at3 m ρ c)
      have h2 : V6 (F := Ideal) m ρ c main_v38 = _ := mean_at6 m ρ c
      have h3 : V6 (F := Ideal) m ρ c main_v44 = _ := var_at6 m ρ c
      have h4 : V6 (F := Ideal) m ρ c main_v32 = _ := (scale_at6 m ρ c).trans (scale_at3 m ρ c)
      have h5 : V6 (F := Ideal) m ρ c main_v33 = _ := (shift_at6 m ρ c).trans (shift_at3 m ρ c)
      show bnRelu (V6 (F := Ideal) m ρ c main_v35) (V6 (F := Ideal) m ρ c main_v30) (V6 (F := Ideal) m ρ c main_v38)
        (V6 (F := Ideal) m ρ c main_v44) (V6 (F := Ideal) m ρ c main_v32) (V6 (F := Ideal) m ρ c main_v33) = _
      rw [h0, h1, h2, h3, h4, h5]))

/-- Argument 7 when the second dense region is entered. -/
theorem arg7_at7 : W7 (F := Ideal) m ρ c (Proc.devRef .tc main_arg7) = m ((c : Thread nD τ).loc main_arg7) :=
  calc W7 (F := Ideal) m ρ c (Proc.devRef .tc main_arg7)
    _ = W6 (F := Ideal) m ρ c (Proc.devRef .tc main_arg7) := W7_of_ne m ρ c main_arg7 (by decide)
    _ = W5 (F := Ideal) m ρ c (Proc.devRef .tc main_arg7) := by host_carry hostOps2
    _ = W4 (F := Ideal) m ρ c (Proc.devRef .tc main_arg7) := W5_of_ne m ρ c main_arg7 (by decide)
    _ = W3 (F := Ideal) m ρ c (Proc.devRef .tc main_arg7) := W4_of_ne m ρ c main_arg7 (by decide)
    _ = W2 (F := Ideal) m ρ c (Proc.devRef .tc main_arg7) := by host_carry hostOps0_2
    _ = W1 (F := Ideal) m ρ c (Proc.devRef .tc main_arg7) := by host_carry hostOps0_1
    _ = W0 (F := Ideal) m ρ c (Proc.devRef .tc main_arg7) := by host_carry hostOps0
    _ = m ((c : Thread nD τ).loc main_arg7) := rfl

/-- The second bias row when the second dense region is entered. -/
theorem bias2_at7 : W7 (F := Ideal) m ρ c (Proc.devRef .tc main_v34) = W3 (F := Ideal) m ρ c (Proc.devRef .tc main_v34) :=
  calc W7 (F := Ideal) m ρ c (Proc.devRef .tc main_v34)
    _ = W6 (F := Ideal) m ρ c (Proc.devRef .tc main_v34) := W7_of_ne m ρ c main_v34 (by decide)
    _ = W5 (F := Ideal) m ρ c (Proc.devRef .tc main_v34) := by host_carry hostOps2
    _ = W4 (F := Ideal) m ρ c (Proc.devRef .tc main_v34) := W5_of_ne m ρ c main_v34 (by decide)
    _ = W3 (F := Ideal) m ρ c (Proc.devRef .tc main_v34) := W4_of_ne m ρ c main_v34 (by decide)

/-- h = h₁·W2 + b2, the encoder's output and the first layer's input. -/
abbrev encH : Snd.Idx → EReal :=
  linear (encH1 m c) (m ((c : Thread nD τ).loc main_arg7)) (rowOf (m ((c : Thread nD τ).loc main_arg8)))

set_option maxHeartbeats 1000000 in
theorem h_at8 : W8 (F := Ideal) m ρ c (Proc.devRef .tc main_v46) = encH m c :=
  (W8_arr m ρ c 3).trans ((Cert.KernelIdeal.MmValue3.mm3 (V7 (F := Ideal) m ρ) c).trans
    (by
      have h0 : V7 (F := Ideal) m ρ c main_v45 = encH1 m c := h1_at7 m ρ c
      have h1 : V7 (F := Ideal) m ρ c main_arg7 = _ := arg7_at7 m ρ c
      have h2 : V7 (F := Ideal) m ρ c main_v34 = _ := (bias2_at7 m ρ c).trans (bias2_at3 m ρ c)
      show linear (V7 (F := Ideal) m ρ c main_v45) (V7 (F := Ideal) m ρ c main_arg7) (V7 (F := Ideal) m ρ c main_v34) = _
      rw [h0, h1, h2]))

end Cert.KernelIdeal.Fold

end
-- ==== Proof.BridgeEnc.lean ====
/-
  The encoder of the two idealized programs, compared. The kernel program's encoder output h, read back to its
  argument arrays, is h = h₁·W2 + b2 with h₁ the array z = x·W1 + b1 normalised column by column with the ONE-pass
  statistics and clamped at zero; the reference's is the same with the TWO-pass statistics. On arrays of real
  numbers the two variances agree (the layer law), so on argument arrays that agree and are real the two programs
  hold the same array for h — and that array is again real, which the next layer's law needs.
-/
import proofs.«136606_j68719476736452_2_alg».proof.Proof.Spec
import proofs.«136606_j68719476736452_2_alg».proof.Proof.RealLaws
import proofs.«136606_j68719476736452_2_alg».proof.Proof.LayerLaw
import proofs.«136606_j68719476736452_2_alg».proof.Proof.KFoldEnc
import proofs.«136606_j68719476736452_2_alg».proof.Proof.RefRead

noncomputable section

open Idealize.ShloMosaic Idealize.ShloMosaic.TcCoe Idealize.ShloMosaic.ValueIdx Idealize.SL.Sem
open Cert.Gcn

namespace Cert.Bridge

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- THE ENCODERS AGREE, with the reference's three values as plain arrays. R33, R53, R57 are what the reference holds
    for z = x·W1 + b1, for z normalised with its two-pass statistics and clamped, and for h = h₁·W2 + b2, as functions
    of its own argument arrays a0 … a8; those arrays are the kernel program's; the first three are real. Then R57 is
    what the kernel program holds for h: the one-pass and the two-pass forms of the normalisation are one function on
    real arrays, and the second linear map is applied to equal arrays. -/
theorem enc_agree_of
    (a0 : Snd.Idx → EReal) (a3 : Sdd.Idx → EReal) (a4 a5 a6 : Svec.Idx → EReal) (a7 : Sdd.Idx → EReal) (a8 : Svec.Idx → EReal)
    (R33 R53 R57 : Snd.Idx → EReal)
    (r33 : R33 = linear a0 a3 (rowOf a4))
    (r53 : R53 = fun i => max (normAt (R33 i) (meanAt R33 (i 1)) (varTwoPassAt R33 (i 1)) (a5 (ix1 (i 1))) (a6 (ix1 (i 1)))) 0)
    (r57 : R57 = linear R53 a7 (rowOf a8))
    (h0 : a0 = (m ((c.tc : Thread Cert.KernelIdeal.nD Cert.KernelIdeal.τ).loc Cert.KernelIdeal.main_arg0))) (h3 : a3 = (m ((c.tc : Thread Cert.KernelIdeal.nD Cert.KernelIdeal.τ).loc Cert.KernelIdeal.main_arg3))) (h4 : a4 = (m ((c.tc : Thread Cert.KernelIdeal.nD Cert.KernelIdeal.τ).loc Cert.KernelIdeal.main_arg4)))
    (h5 : a5 = (m ((c.tc : Thread Cert.KernelIdeal.nD Cert.KernelIdeal.τ).loc Cert.KernelIdeal.main_arg5))) (h6 : a6 = (m ((c.tc : Thread Cert.KernelIdeal.nD Cert.KernelIdeal.τ).loc Cert.KernelIdeal.main_arg6))) (h7 : a7 = (m ((c.tc : Thread Cert.KernelIdeal.nD Cert.KernelIdeal.τ).loc Cert.KernelIdeal.main_arg7))) (h8 : a8 = (m ((c.tc : Thread Cert.KernelIdeal.nD Cert.KernelIdeal.τ).loc Cert.KernelIdeal.main_arg8)))
    (x0 : AllReal (m ((c.tc : Thread Cert.KernelIdeal.nD Cert.KernelIdeal.τ).loc Cert.KernelIdeal.main_arg0))) (x3 : AllReal (m ((c.tc : Thread Cert.KernelIdeal.nD Cert.KernelIdeal.τ).loc Cert.KernelIdeal.main_arg3))) (x4 : AllReal (m ((c.tc : Thread Cert.KernelIdeal.nD Cert.KernelIdeal.τ).loc Cert.KernelIdeal.main_arg4))) :
    R57 = Cert.KernelIdeal.Gen.W8 (F := Ideal) m ρ c (Proc.devRef .tc Cert.KernelIdeal.main_v46) := by
  subst h0 h3 h4 h5 h6 h7 h8
  refine Eq.trans ?_ (Cert.KernelIdeal.Fold.h_at8 m ρ c).symm
  rw [r57, r53, r33]
  have e := enc_law (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) x0 x3 x4
  exact congrArg (fun H : Snd.Idx → EReal => linear H (m ((c.tc : Thread Cert.KernelIdeal.nD Cert.KernelIdeal.τ).loc Cert.KernelIdeal.main_arg7)) (rowOf (m ((c.tc : Thread Cert.KernelIdeal.nD Cert.KernelIdeal.τ).loc Cert.KernelIdeal.main_arg8)))) e.symm

/-- THE ENCODER'S OUTPUT IS REAL: what the kernel program holds for h is an array of real numbers, when the seven
    argument arrays the encoder reads are. -/
theorem enc_real
    (x0 : AllReal (m ((c.tc : Thread Cert.KernelIdeal.nD Cert.KernelIdeal.τ).loc Cert.KernelIdeal.main_arg0))) (x3 : AllReal (m ((c.tc : Thread Cert.KernelIdeal.nD Cert.KernelIdeal.τ).loc Cert.KernelIdeal.main_arg3))) (x4 : AllReal (m ((c.tc : Thread Cert.KernelIdeal.nD Cert.KernelIdeal.τ).loc Cert.KernelIdeal.main_arg4))) (x5 : AllReal (m ((c.tc : Thread Cert.KernelIdeal.nD Cert.KernelIdeal.τ).loc Cert.KernelIdeal.main_arg5)))
    (x6 : AllReal (m ((c.tc : Thread Cert.KernelIdeal.nD Cert.KernelIdeal.τ).loc Cert.KernelIdeal.main_arg6))) (x7 : AllReal (m ((c.tc : Thread Cert.KernelIdeal.nD Cert.KernelIdeal.τ).loc Cert.KernelIdeal.main_arg7))) (x8 : AllReal (m ((c.tc : Thread Cert.KernelIdeal.nD Cert.KernelIdeal.τ).loc Cert.KernelIdeal.main_arg8))) :
    AllReal (ι := Snd.Idx) (Cert.KernelIdeal.Gen.W8 (F := Ideal) m ρ c (Proc.devRef .tc Cert.KernelIdeal.main_v46)) := by
  rw [Cert.KernelIdeal.Fold.h_at8 m ρ c]
  exact dense_allReal_row (enc_allReal (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) x0 x3 x4 x5 x6) x7 x8

/-- THE ENCODERS AGREE. On argument arrays that agree, what the reference holds for the encoder's output h after its
    first five segments is what the kernel program holds for it at its eighth boundary: the reference's reads of its
    own segments are functions of its argument arrays, those are the kernel program's, and the two forms of the
    normalisation are one function on real arrays. -/
theorem enc_agree
    (m' : (ℓ : Loc Cert.ReferenceIdeal.nD Cert.ReferenceIdeal.τ Cert.ReferenceIdeal.sig) → Buf (Elt Ideal) ℓ)
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (x0 : AllReal (m ((c.tc : Thread Cert.KernelIdeal.nD Cert.KernelIdeal.τ).loc Cert.KernelIdeal.main_arg0))) (x3 : AllReal (m ((c.tc : Thread Cert.KernelIdeal.nD Cert.KernelIdeal.τ).loc Cert.KernelIdeal.main_arg3))) (x4 : AllReal (m ((c.tc : Thread Cert.KernelIdeal.nD Cert.KernelIdeal.τ).loc Cert.KernelIdeal.main_arg4))) :
    Cert.ReferenceIdeal.HandRun.U5 (StableHlo.launchContents m' c) (Proc.devRef .tc Cert.ReferenceIdeal.main_v57)
      = Cert.KernelIdeal.Gen.W8 (F := Ideal) m ρ c (Proc.devRef .tc Cert.KernelIdeal.main_v46) :=
  enc_agree_of m ρ c (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (Cert.ReferenceIdeal.HandRun.U2 (StableHlo.launchContents m' c) (Proc.devRef .tc Cert.ReferenceIdeal.main_v33))
    (Cert.ReferenceIdeal.HandRun.U4 (StableHlo.launchContents m' c) (Proc.devRef .tc Cert.ReferenceIdeal.main_v53))
    (Cert.ReferenceIdeal.HandRun.U5 (StableHlo.launchContents m' c) (Proc.devRef .tc Cert.ReferenceIdeal.main_v57))
    (Cert.ReferenceIdeal.HandRun.enc_v33 (StableHlo.launchContents m' c))
    (Cert.ReferenceIdeal.HandRun.enc_v53 (StableHlo.launchContents m' c))
    (Cert.ReferenceIdeal.HandRun.enc_v57 (StableHlo.launchContents m' c))
    h0 h3 h4 h5 h6 h7 h8 x0 x3 x4

end Cert.Bridge

end
-- ==== Proof.Mm4.lean ====
/-
  The matrix product with bias, region by region of the program: the array the kernel leaves is x·w + b of the arrays it finds.
  The body's value at an index; each window's block as rows of its array; the blocks written back cover the array.
-/
import proofs.«136606_j68719476736452_2_alg».proof.Proof.Gen.KernelIdeal.Frame
import proofs.«136606_j68719476736452_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.MmValue4

open Cert.KernelIdeal Cert.KernelIdeal.Gen

/-- The contraction of the product: rows of the left factor against columns of the right. -/
theorem dot_apply (A : FVec Ideal S5000x128 .bf16) (B : FVec Ideal S128x128 .bf16) (p : Fin 5000) (q : Fin 128) :
    (∑ k : dot_S5000x128_S128x128_S5000x128_1_0_0_1_n_n.contr.Idx,
        A (dot_S5000x128_S128x128_S5000x128_1_0_0_1_n_n.lhsIdx (ix2 p q) k) * B (dot_S5000x128_S128x128_S5000x128_1_0_0_1_n_n.rhsIdx (ix2 p q) k))
      = ∑ k : Fin 128, A (ix2 p k) * B (ix2 k q) := by
  rw [← Equiv.sum_comp (contrEquiv1 dot_S5000x128_S128x128_S5000x128_1_0_0_1_n_n 128 rfl rfl).symm]
  refine Finset.sum_congr rfl fun c _ => ?_
  have c2 := contrEquiv1_symm_val dot_S5000x128_S128x128_S5000x128_1_0_0_1_n_n 128 rfl rfl c
  have l2 : dot_S5000x128_S128x128_S5000x128_1_0_0_1_n_n.lhsIdx (ix2 p q) ((contrEquiv1 _ 128 rfl rfl).symm c) = ix2 p c := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact c2
  have r2 : dot_S5000x128_S128x128_S5000x128_1_0_0_1_n_n.rhsIdx (ix2 p q) ((contrEquiv1 _ 128 rfl rfl).symm c) = ix2 c q := by
    funext ax; apply Fin.ext
    match ax with
    | ⟨0, _⟩ => simp [DotDims.rhsIdx, dot_S5000x128_S128x128_S5000x128_1_0_0_1_n_n]; exact c2
    | ⟨1, _⟩ => simp [DotDims.rhsIdx, dot_S5000x128_S128x128_S5000x128_1_0_0_1_n_n]; rfl
  rw [l2, r2]

/-- The body's value at row p, column q: the p-th row of the left block against the q-th column of the weights, plus the bias. -/
theorem pay_apply (x0 : Vec Ideal S5000x128 .f32) (x1 : Vec Ideal S128x128 .f32) (x2 : Vec Ideal S1x128 .f32)
    (p : Fin 5000) (q : Fin 128) :
    k4_pay1 (F := Ideal) x0 x1 x2 (ix2 p q) = (∑ k : Fin 128, x0 (ix2 p k) * x1 (ix2 k q)) + x2 (ix2 0 q) := by
  unfold k4_pay1
  refine (addf_apply _ _ _).trans ?_
  refine congrArg₂ (· + ·) ?_ ?_
  · refine (Ideal.matmul_constant_zero_apply dot_S5000x128_S128x128_S5000x128_1_0_0_1_n_n none _ _ (ix2 p q)).trans ?_
    refine (dot_apply _ _ p q).trans ?_
    refine Finset.sum_congr rfl fun k _ => congrArg₂ (· * ·) ?_ ?_
    · exact congrFun (shapeCast_self x0 _) _
    · exact congrFun (shapeCast_self x1 _) _
  · refine (broadcastTo_1b_ab_apply _ _ p q).trans ?_
    rw [shapeCast_self]

theorem hz : (![0, 0] : Fin 2 → Nat) = fun _ => 0 := funext fun a => by fin_cases a <;> rfl

/-- The index maps over the grid: the row-blocked windows sit at block (t, 0) at point t, the whole operands at block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row p of the block at point t is row 5000·t + p of the array. -/
theorem read_blk0 (X : S100000x128.Idx → EReal) (t : Fin cfg4.N) (p : Fin 5000) (q : Fin 128) (r : Fin 100000)
    (hr : r.val = 5000 * t.val + p.val) :
    ((cfg4.win 0).blk t).view.read (Elt Ideal) X (ix2 p q) = X (ix2 r q) := by
  obtain ⟨e0, e1, -⟩ := idx_facts t
  show X (((cfg4.win 0).blk t).view.emb (ix2 p q)) = X (ix2 r q)
  refine congrArg X (funext fun a => Fin.ext ?_)
  match a with
  | ⟨0, _⟩ => show win4_0.index t (0 : Fin 2) * 5000 + 1 * p.val = r.val; rw [e0, hr]; omega
  | ⟨1, _⟩ => show win4_0.index t (1 : Fin 2) * 128 + 1 * q.val = q.val; rw [e1]; omega

theorem read_blk3 (X : S100000x128.Idx → EReal) (t : Fin cfg4.N) (p : Fin 5000) (q : Fin 128) (r : Fin 100000)
    (hr : r.val = 5000 * t.val + p.val) :
    ((cfg4.win 3).blk t).view.read (Elt Ideal) X (ix2 p q) = X (ix2 r q) := by
  obtain ⟨-, -, -, -, -, -, e0, e1⟩ := idx_facts t
  show X (((cfg4.win 3).blk t).view.emb (ix2 p q)) = X (ix2 r q)
  refine congrArg X (funext fun a => Fin.ext ?_)
  match a with
  | ⟨0, _⟩ => show win4_3.index t (0 : Fin 2) * 5000 + 1 * p.val = r.val; rw [e0, hr]; omega
  | ⟨1, _⟩ => show win4_3.index t (1 : Fin 2) * 128 + 1 * q.val = q.val; rw [e1]; omega

/-- The whole operands are read as they are. -/
theorem read_blk1 (X : S128x128.Idx → EReal) (t : Fin cfg4.N) :
    ((cfg4.win 1).blk t).view.read (Elt Ideal) X = X := by
  obtain ⟨-, -, e0, e1, -⟩ := idx_facts t
  funext j
  show X (((cfg4.win 1).blk t).view.emb j) = X j
  refine congrArg X (funext fun a => Fin.ext ?_)
  match a with
  | ⟨0, _⟩ => show win4_1.index t (0 : Fin 2) * 128 + 1 * (j 0).val = (j 0).val; rw [e0]; omega
  | ⟨1, _⟩ => show win4_1.index t (1 : Fin 2) * 128 + 1 * (j 1).val = (j 1).val; rw [e1]; omega

theorem read_blk2 (X : S1x128.Idx → EReal) (t : Fin cfg4.N) :
    ((cfg4.win 2).blk t).view.read (Elt Ideal) X = X := by
  obtain ⟨-, -, -, -, e0, e1, -⟩ := idx_facts t
  funext j
  show X (((cfg4.win 2).blk t).view.emb j) = X j
  refine congrArg X (funext fun a => Fin.ext ?_)
  match a with
  | ⟨0, _⟩ => show win4_2.index t (0 : Fin 2) * 1 + 1 * (j 0).val = (j 0).val; rw [e0]; omega
  | ⟨1, _⟩ => show win4_2.index t (1 : Fin 2) * 128 + 1 * (j 1).val = (j 1).val; rw [e1]; omega

/-- An index of the array is in point t's block iff each coordinate is in the block's range on its axis. -/
theorem mem_blk3 (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v49).slice (win4_3.rect t)).set ↔ _
  rw [View.set_slice_whole, Rect.mem_set_unit]
  exact Iff.rfl

/-- Row r of the array lies in the block of point r / 5000, which is written back. -/
theorem cover (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 20 := N_4
  have ht : (i 0).val / 5000 < cfg4.N := by rw [hN]; omega
  refine ⟨⟨(i 0).val / 5000, ht⟩, flush4_3 _, ?_⟩
  rw [mem_blk3]
  obtain ⟨-, -, -, -, -, -, e0, e1⟩ := idx_facts ⟨(i 0).val / 5000, ht⟩
  intro a
  match a with
  | ⟨0, _⟩ =>
    show win4_3.index ⟨(i 0).val / 5000, ht⟩ (0 : Fin 2) * 5000 ≤ (i 0).val ∧ (i 0).val < win4_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_3.index ⟨(i 0).val / 5000, ht⟩ (1 : Fin 2) * 128 ≤ (i 1).val ∧ (i 1).val < win4_3.index ⟨(i 0).val / 5000, ht⟩ (1 : Fin 2) * 128 + 128
    rw [e1]; omega

/-- Two arrays over a 5000×128 block are equal when they agree at every (row, column). -/
theorem ext_blk (Y Z : S5000x128.Idx → EReal) (h : ∀ (p : Fin 5000) (q : Fin 128), Y (ix2 p q) = Z (ix2 p q)) : Y = Z :=
  funext fun j => by rw [eq_ix2 j]; exact h _ _

variable (V : (c : Dev nD) → (b : Ref sig .tc) → Buf (Elt Ideal) ((c : Thread nD τ).loc b))

/-- What point t writes back is block t of x·w + b of the arrays the region finds. -/
theorem flushed_eq (c : Dev nD) (t : Fin cfg4.N) :
    (dat4 (F := Ideal) V c).flushed 3 t = ((cfg4.win 3).blk t).view.read (Elt Ideal)
      (Cert.Gcn.linear (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x128) hz, View.ld_unit_zero (S := S1x128) hz]
  have h1 : iblk4 V c 1 t = V c (Pipeline.arrRef spec4 1) := read_blk1 _ t
  have h2 : iblk4 V c 2 t = V c (Pipeline.arrRef spec4 2) := read_blk2 _ t
  rw [h1, h2]
  refine ext_blk _ _ fun p q => ?_
  have hN : cfg4.N = 20 := N_4
  have htl : t.val < 20 := hN ▸ t.isLt
  have hr : 5000 * t.val + p.val < 100000 := by have := p.isLt; omega
  refine (pay_apply _ _ _ p q).trans ?_
  refine Eq.trans ?_ (read_blk3 _ t p q ⟨5000 * t.val + p.val, hr⟩ rfl).symm
  show _ = Cert.Gcn.linearAt _ _ _ ⟨5000 * t.val + p.val, hr⟩ q
  unfold Cert.Gcn.linearAt
  refine congrArg₂ (· + ·) (Finset.sum_congr rfl fun k _ => congrArg₂ (· * ·) ?_ rfl) rfl
  exact read_blk0 _ t p k ⟨5000 * t.val + p.val, hr⟩ rfl

/-- The array after the region: x·w + b of the arrays the region finds. -/
theorem mm4 (c : Dev nD) :
    (Cert.KernelIdeal.Gen.dat4 (F := Ideal) V c).arrAt 3 cfg4.N
      = Cert.Gcn.linear (V c (Pipeline.arrRef spec4 0)) (V c (Pipeline.arrRef spec4 1)) (V c (Pipeline.arrRef spec4 2)) :=
  (dat4 (F := Ideal) V c).arrAt_eq_of_cover 3 _ (fun t _ => flushed_eq V c t) cover

end Cert.KernelIdeal.MmValue4

end
-- ==== Proof.BnRes6.lean ====
/-
  The normalisation with clamp and residual, as the array the kernel leaves: every entry of a + b normalised by its column's
  mean and variance, scaled and shifted, clamped at zero, and added to the layer's input.
  The body's value at an index; each window's block as rows of its array; the blocks written back cover the array.
-/
import proofs.«136606_j68719476736452_2_alg».proof.Proof.Gen.KernelIdeal.Frame
import proofs.«136606_j68719476736452_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.BnResValue6

open Cert.KernelIdeal Cert.KernelIdeal.Gen

/-- A row of 128 channels spread over the 5000 rows of a block reads, at (p, q), the row's entry q. -/
theorem row_apply (v : Vec Ideal S1x128 .f32) (p : Fin 5000) (q : Fin 128) :
    broadcastTo S5000x128 (shapeCast S1x128 v shapeCasts_S1x128_S1x128) broadcasts_S1x128_S5000x128 (ix2 p q) = v (ix2 0 q) :=
  (broadcastTo_1b_ab_apply _ _ p q).trans (congrFun (shapeCast_self v _) _)

/-- The body's value at row p, channel q: the entry plus its bias, centred, scaled by the inverse root of the variance
    plus the offset, by the channel's scale, shifted, clamped below at zero, and added to the layer's input there. -/
theorem pay_apply (a : Vec Ideal S5000x128 .f32) (b mean var g be : Vec Ideal S1x128 .f32) (res : Vec Ideal S5000x128 .f32)
    (p : Fin 5000) (q : Fin 128) :
    k6_pay1 (F := Ideal) a b mean var g be res (ix2 p q)
      = res (ix2 p q) + max (Cert.Gcn.normAt (a (ix2 p q) + b (ix2 0 q)) (mean (ix2 0 q)) (var (ix2 0 q)) (g (ix2 0 q)) (be (ix2 0 q))) 0 := by
  unfold k6_pay1 Cert.Gcn.normAt Cert.Gcn.eps
  refine (addf_apply _ _ _).trans ?_
  refine congrArg₂ (· + ·) (congrFun (shapeCast_self res _) _) ?_
  refine (maximumf_apply _ _ _).trans ?_
  refine congrArg₂ max ?_ Ideal.ofBits_zero_f32
  refine (addf_apply _ _ _).trans ?_
  refine congrArg₂ (· + ·) ?_ (row_apply be p q)
  refine (mulf_apply _ _ _).trans ?_
  refine congrArg₂ (· * ·) ?_ (row_apply g p q)
  refine (mulf_apply _ _ _).trans ?_
  refine congrArg₂ (· * ·) ?_ ?_
  · refine (subf_apply _ _ _).trans ?_
    refine congrArg₂ (· - ·) ?_ (row_apply mean p q)
    refine (addf_apply _ _ _).trans ?_
    exact congrArg₂ (· + ·) (congrFun (shapeCast_self a _) _) (row_apply b p q)
  · refine (broadcastTo_1b_ab_apply _ _ p q).trans ?_
    show Ideal.rsqrt (shapeCast S1x128 var shapeCasts_S1x128_S1x128 (ix2 0 q) + Ideal.ofBits .f32 0x3727C5AC#32) = _
    rw [shapeCast_self]

theorem hz : (![0, 0] : Fin 2 → Nat) = fun _ => 0 := funext fun a => by fin_cases a <;> rfl

/-- The index maps over the grid: the row-blocked windows sit at block (t, 0) at point t, the rows of channels at block (0, 0). -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0
    ∧ win6_7.index t (0 : Fin 2) = t.val ∧ win6_7.index t (1 : Fin 2) = 0 :=
  (by decide +kernel : ∀ t : Fin grid6.N, _)

/-- Row p of a row-blocked window's block at point t is row 5000·t + p of its array. -/
theorem read_blk0 (X : S100000x128.Idx → EReal) (t : Fin cfg6.N) (p : Fin 5000) (q : Fin 128) (r : Fin 100000)
    (hr : r.val = 5000 * t.val + p.val) :
    ((cfg6.win 0).blk t).view.read (Elt Ideal) X (ix2 p q) = X (ix2 r q) := by
  obtain ⟨e0, e1, -⟩ := idx_facts t
  show X (((cfg6.win 0).blk t).view.emb (ix2 p q)) = X (ix2 r q)
  refine congrArg X (funext fun a => Fin.ext ?_)
  match a with
  | ⟨0, _⟩ => show win6_0.index t (0 : Fin 2) * 5000 + 1 * p.val = r.val; rw [e0, hr]; omega
  | ⟨1, _⟩ => show win6_0.index t (1 : Fin 2) * 128 + 1 * q.val = q.val; rw [e1]; omega

theorem read_blk6 (X : S100000x128.Idx → EReal) (t : Fin cfg6.N) (p : Fin 5000) (q : Fin 128) (r : Fin 100000)
    (hr : r.val = 5000 * t.val + p.val) :
    ((cfg6.win 6).blk t).view.read (Elt Ideal) X (ix2 p q) = X (ix2 r q) := by
  obtain ⟨-, -, -, -, -, -, -, -, -, -, -, -, e0, e1, -⟩ := idx_facts t
  show X (((cfg6.win 6).blk t).view.emb (ix2 p q)) = X (ix2 r q)
  refine congrArg X (funext fun a => Fin.ext ?_)
  match a with
  | ⟨0, _⟩ => show win6_6.index t (0 : Fin 2) * 5000 + 1 * p.val = r.val; rw [e0, hr]; omega
  | ⟨1, _⟩ => show win6_6.index t (1 : Fin 2) * 128 + 1 * q.val = q.val; rw [e1]; omega

theorem read_blk7 (X : S100000x128.Idx → EReal) (t : Fin cfg6.N) (p : Fin 5000) (q : Fin 128) (r : Fin 100000)
    (hr : r.val = 5000 * t.val + p.val) :
    ((cfg6.win 7).blk t).view.read (Elt Ideal) X (ix2 p q) = X (ix2 r q) := by
  obtain ⟨-, -, -, -, -, -, -, -, -, -, -, -, -, -, e0, e1⟩ := idx_facts t
  show X (((cfg6.win 7).blk t).view.emb (ix2 p q)) = X (ix2 r q)
  refine congrArg X (funext fun a => Fin.ext ?_)
  match a with
  | ⟨0, _⟩ => show win6_7.index t (0 : Fin 2) * 5000 + 1 * p.val = r.val; rw [e0, hr]; omega
  | ⟨1, _⟩ => show win6_7.index t (1 : Fin 2) * 128 + 1 * q.val = q.val; rw [e1]; omega

/-- The rows of channels are read as they are. -/
theorem read_row1 (X : S1x128.Idx → EReal) (t : Fin cfg6.N) :
    ((cfg6.win 1).blk t).view.read (Elt Ideal) X = X := by
  obtain ⟨-, -, e0, e1, -⟩ := idx_facts t
  funext j
  show X (((cfg6.win 1).blk t).view.emb j) = X j
  refine congrArg X (funext fun a => Fin.ext ?_)
  match a with
  | ⟨0, _⟩ => show win6_1.index t (0 : Fin 2) * 1 + 1 * (j 0).val = (j 0).val; rw [e0]; omega
  | ⟨1, _⟩ => show win6_1.index t (1 : Fin 2) * 128 + 1 * (j 1).val = (j 1).val; rw [e1]; omega

theorem read_row2 (X : S1x128.Idx → EReal) (t : Fin cfg6.N) :
    ((cfg6.win 2).blk t).view.read (Elt Ideal) X = X := by
  obtain ⟨-, -, -, -, e0, e1, -⟩ := idx_facts t
  funext j
  show X (((cfg6.win 2).blk t).view.emb j) = X j
  refine congrArg X (funext fun a => Fin.ext ?_)
  match a with
  | ⟨0, _⟩ => show win6_2.index t (0 : Fin 2) * 1 + 1 * (j 0).val = (j 0).val; rw [e0]; omega
  | ⟨1, _⟩ => show win6_2.index t (1 : Fin 2) * 128 + 1 * (j 1).val = (j 1).val; rw [e1]; omega

theorem read_row3 (X : S1x128.Idx → EReal) (t : Fin cfg6.N) :
    ((cfg6.win 3).blk t).view.read (Elt Ideal) X = X := by
  obtain ⟨-, -, -, -, -, -, e0, e1, -⟩ := idx_facts t
  funext j
  show X (((cfg6.win 3).blk t).view.emb j) = X j
  refine congrArg X (funext fun a => Fin.ext ?_)
  match a with
  | ⟨0, _⟩ => show win6_3.index t (0 : Fin 2) * 1 + 1 * (j 0).val = (j 0).val; rw [e0]; omega
  | ⟨1, _⟩ => show win6_3.index t (1 : Fin 2) * 128 + 1 * (j 1).val = (j 1).val; rw [e1]; omega

theorem read_row4 (X : S1x128.Idx → EReal) (t : Fin cfg6.N) :
    ((cfg6.win 4).blk t).view.read (Elt Ideal) X = X := by
  obtain ⟨-, -, -, -, -, -, -, -, e0, e1, -⟩ := idx_facts t
  funext j
  show X (((cfg6.win 4).blk t).view.emb j) = X j
  refine congrArg X (funext fun a => Fin.ext ?_)
  match a with
  | ⟨0, _⟩ => show win6_4.index t (0 : Fin 2) * 1 + 1 * (j 0).val = (j 0).val; rw [e0]; omega
  | ⟨1, _⟩ => show win6_4.index t (1 : Fin 2) * 128 + 1 * (j 1).val = (j 1).val; rw [e1]; omega

theorem read_row5 (X : S1x128.Idx → EReal) (t : Fin cfg6.N) :
    ((cfg6.win 5).blk t).view.read (Elt Ideal) X = X := by
  obtain ⟨-, -, -, -, -, -, -, -, -, -, e0, e1, -⟩ := idx_facts t
  funext j
  show X (((cfg6.win 5).blk t).view.emb j) = X j
  refine congrArg X (funext fun a => Fin.ext ?_)
  match a with
  | ⟨0, _⟩ => show win6_5.index t (0 : Fin 2) * 1 + 1 * (j 0).val = (j 0).val; rw [e0]; omega
  | ⟨1, _⟩ => show win6_5.index t (1 : Fin 2) * 128 + 1 * (j 1).val = (j 1).val; rw [e1]; omega

/-- An index of the array is in point t's block iff each coordinate is in the block's range on its axis. -/
theorem mem_blk7 (t : Fin cfg6.N) (i : S100000x128.Idx) :
    i ∈ ((cfg6.win 7).blk t).view.set ↔ ∀ a : Fin 2, win6_7.index t a * S5000x128.size a ≤ (i a).val ∧ (i a).val < win6_7.index t a * S5000x128.size a + S5000x128.size a := by
  show i ∈ ((View.whole main_v80).slice (win6_7.rect t)).set ↔ _
  rw [View.set_slice_whole, Rect.mem_set_unit]
  exact Iff.rfl

/-- Row r of the array lies in the block of point r / 5000, which is written back. -/
theorem cover (i : S100000x128.Idx) : ∃ t : Fin cfg6.N, (cfg6.win 7).flush t = true ∧ i ∈ ((cfg6.win 7).blk t).view.set := by
  have hi0 : (i 0).val < 100000 := (i 0).isLt
  have hi1 : (i 1).val < 128 := (i 1).isLt
  have hN : cfg6.N = 20 := N_6
  have ht : (i 0).val / 5000 < cfg6.N := by rw [hN]; omega
  refine ⟨⟨(i 0).val / 5000, ht⟩, flush6_7 _, ?_⟩
  rw [mem_blk7]
  obtain ⟨-, -, -, -, -, -, -, -, -, -, -, -, -, -, e0, e1⟩ := idx_facts ⟨(i 0).val / 5000, ht⟩
  intro a
  match a with
  | ⟨0, _⟩ =>
    show win6_7.index ⟨(i 0).val / 5000, ht⟩ (0 : Fin 2) * 5000 ≤ (i 0).val ∧ (i 0).val < win6_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win6_7.index ⟨(i 0).val / 5000, ht⟩ (1 : Fin 2) * 128 ≤ (i 1).val ∧ (i 1).val < win6_7.index ⟨(i 0).val / 5000, ht⟩ (1 : Fin 2) * 128 + 128
    rw [e1]; omega

/-- Two arrays over a 5000×128 block are equal when they agree at every (row, column). -/
theorem ext_blk (Y Z : S5000x128.Idx → EReal) (h : ∀ (p : Fin 5000) (q : Fin 128), Y (ix2 p q) = Z (ix2 p q)) : Y = Z :=
  funext fun j => by rw [eq_ix2 j]; exact h _ _

/-- The body's value on blocks that are rows of the arrays: the normalised, clamped entry added to the layer's input, at the array's row. -/
theorem blk_eq (x0 : Vec Ideal S5000x128 .f32) (x1 x2 x3 x4 x5 : Vec Ideal S1x128 .f32) (x6 : Vec Ideal S5000x128 .f32)
    (A : S100000x128.Idx → EReal) (B M Vr G Be : S1x128.Idx → EReal) (R : S100000x128.Idx → EReal)
    (r : Fin 100000) (p : Fin 5000) (q : Fin 128)
    (h0 : x0 (ix2 p q) = A (ix2 r q)) (h6 : x6 (ix2 p q) = R (ix2 r q))
    (h1 : x1 = B) (h2 : x2 = M) (h3 : x3 = Vr) (h4 : x4 = G) (h5 : x5 = Be) :
    k6_pay1 (F := Ideal) x0 x1 x2 x3 x4 x5 x6 (ix2 p q) = Cert.Gcn.bnReluRes A B M Vr G Be R (ix2 r q) := by
  subst h1 h2 h3 h4 h5
  rw [pay_apply, h0, h6]
  rfl

variable (V : (c : Dev nD) → (b : Ref sig .tc) → Buf (Elt Ideal) ((c : Thread nD τ).loc b))

set_option maxHeartbeats 1000000 in
/-- What point t writes back is block t of the normalised array of the arrays the region finds. -/
theorem flushed_eq (c : Dev nD) (t : Fin cfg6.N) :
    (dat6 (F := Ideal) V c).flushed 7 t = ((cfg6.win 7).blk t).view.read (Elt Ideal)
      (Cert.Gcn.bnReluRes (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))) := by
  show (cfg6.win 7).cut (grid6.coords t) ((dat6 V c).after 7 t) = _
  rw [after6_7]
  unfold out6_7
  rw [View.canon_unit_zero hz]
  simp only [View.ld_unit_zero (S := S5000x128) hz, View.ld_unit_zero (S := S1x128) hz]
  refine ext_blk _ _ fun p q => ?_
  have hN : cfg6.N = 20 := N_6
  have htl : t.val < 20 := hN ▸ t.isLt
  have hr : 5000 * t.val + p.val < 100000 := by have := p.isLt; omega
  exact (blk_eq (iblk6 V c 0 t) (iblk6 V c 1 t) (iblk6 V c 2 t) (iblk6 V c 3 t) (iblk6 V c 4 t) (iblk6 V c 5 t) (iblk6 V c 6 t)
    (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) ⟨5000 * t.val + p.val, hr⟩ p q
    (read_blk0 (V c (Pipeline.arrRef spec6 0)) t p q ⟨5000 * t.val + p.val, hr⟩ rfl)
    (read_blk6 (V c (Pipeline.arrRef spec6 6)) t p q ⟨5000 * t.val + p.val, hr⟩ rfl)
    (read_row1 (V c (Pipeline.arrRef spec6 1)) t)
    (read_row2 (V c (Pipeline.arrRef spec6 2)) t)
    (read_row3 (V c (Pipeline.arrRef spec6 3)) t)
    (read_row4 (V c (Pipeline.arrRef spec6 4)) t)
    (read_row5 (V c (Pipeline.arrRef spec6 5)) t)).trans
    (read_blk7 _ t p q ⟨5000 * t.val + p.val, hr⟩ rfl).symm

/-- The array after the region: the normalised, clamped array added to the layer's input, of the arrays the region finds. -/
theorem bnres6 (c : Dev nD) :
    (Cert.KernelIdeal.Gen.dat6 (F := Ideal) V c).arrAt 7 cfg6.N
      = Cert.Gcn.bnReluRes (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) :=
  (dat6 (F := Ideal) V c).arrAt_eq_of_cover 7 _ (fun t _ => flushed_eq V c t) cover

end Cert.KernelIdeal.BnResValue6

end
-- ==== Proof.Stats5.lean ====
/-
  The batch-statistics region, read as a value. Over a grid of 20 points the region visits the 20 blocks of 5000
  rows of a 100000×128 array a, together with one 1×128 row b, and keeps two 1×128 accumulators: at the first point
  both are set to zero, and at every point the column sums of (a + b) over the block's rows are added to the first
  and the column sums of (a + b)² to the second. Both accumulators' block is block (0, 0) of their 1×128 array at
  every point, and it is written back once, after the last point.

  Proved here, over the extended reals: after the region the first array holds, at lane l, the sum over all 100000
  rows r of a(r, l) + b(0, l), and the second the sum of the squares.

  The steps: what each case of the body leaves in each accumulator is one covering store of an accumulating term
  (four short lemmas); that term read at a lane is "what was held, plus the sum over the block's 5000 rows" (a lane
  reduction is a sum over the reduced axis; the added row is broadcast over the rows); row r of block t is row
  5000·t + r of the array; so after point n an accumulator holds the sum over rows 0 … 5000·(n + 1) − 1, by
  induction on n (sums over initial segments of the naturals, split at 5000·(n + 1)); after point 19 that is the sum
  over all rows; and the last point's block covers the 1×128 array, so the array ends at what that point wrote back.
-/
import proofs.«136606_j68719476736452_2_alg».proof.Proof.Gen.KernelIdeal.Frame
import proofs.«136606_j68719476736452_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.StatsValue5

open Cert.KernelIdeal Cert.KernelIdeal.Gen

section Pieces
variable {F : FTy → Type} [FloatOps F]

theorem hz : (![0, 0] : Fin 2 → Nat) = fun _ => 0 := funext fun a => by fin_cases a <;> rfl

/-- At a later point the first output's buffer, holding xo2, is left at the accumulating payload of the two input
    blocks and xo2: the body's one covering store, its loads reading the whole buffers. -/
theorem out_B_2 (c : Dev nD) (i : grid5.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond5_0 i)
    (x0 : Vec F S5000x128 .f32) (x1 xo2 xo3 : Vec F S1x128 .f32) :
    out5_B_2 c i a1 h1 a2 h2 a3 h3 a4 h4 hc x0 x1 xo2 xo3 = k5_pay4 x0 x1 xo2 := by
  unfold out5_B_2
  rw [View.read_writes_eq_canon _ _ _ (cover5_B_2 c i a1 h1 a2 h2 a3 h3 a4 h4 hc x0 x1 xo2 xo3)]
  unfold kernelRun5_B
  dsimp only
  rw [View.canon_unit_zero hz]
  simp only [View.readAt_eq_ld, h1.read_unread, h2.read_unread, h3.read_unread, View.ld_unit_zero (S := S5000x128) hz,
    View.ld_unit_zero (S := S1x128) hz]

/-- The same for the second output, holding xo3. -/
theorem out_B_3 (c : Dev nD) (i : grid5.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond5_0 i)
    (x0 : Vec F S5000x128 .f32) (x1 xo2 xo3 : Vec F S1x128 .f32) :
    out5_B_3 c i a1 h1 a2 h2 a3 h3 a4 h4 hc x0 x1 xo2 xo3 = k5_pay5 x0 x1 xo3 := by
  unfold out5_B_3
  rw [View.read_writes_eq_canon _ _ _ (cover5_B_3 c i a1 h1 a2 h2 a3 h3 a4 h4 hc x0 x1 xo2 xo3)]
  unfold kernelRun5_B
  dsimp only
  rw [View.canon_unit_zero hz]
  simp only [View.readAt_eq_ld, h1.read_unread, h2.read_unread, h4.read_unread, View.ld_unit_zero (S := S5000x128) hz,
    View.ld_unit_zero (S := S1x128) hz]

/-- At the first point the body stores the zero block into the first output, reads it back, and leaves the
    accumulating payload over that zero block. -/
theorem out_A_2 (c : Dev nD) (i : grid5.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond5_0 i)
    (x0 : Vec F S5000x128 .f32) (x1 : Vec F S1x128 .f32) :
    out5_A_2 c i a1 h1 a2 h2 a3 h3 a4 h4 hc x0 x1 = k5_pay4 x0 x1 (k5_pay1 (F := F)) := by
  unfold out5_A_2
  rw [View.read_writes_eq_canon _ _ _ (cover5_A_2 c i a1 h1 a2 h2 a3 h3 a4 h4 hc x0 x1)]
  unfold kernelRun5_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S1x128) hz]

/-- The same for the second output. -/
theorem out_A_3 (c : Dev nD) (i : grid5.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond5_0 i)
    (x0 : Vec F S5000x128 .f32) (x1 : Vec F S1x128 .f32) :
    out5_A_3 c i a1 h1 a2 h2 a3 h3 a4 h4 hc x0 x1 = k5_pay5 x0 x1 (k5_pay2 (F := F)) := by
  unfold out5_A_3
  rw [View.read_writes_eq_canon _ _ _ (cover5_A_3 c i a1 h1 a2 h2 a3 h3 a4 h4 hc x0 x1)]
  unfold kernelRun5_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S1x128) hz]

end Pieces

/-- The zero word read as an extended real is zero. -/
theorem zero_word : (Scalar.ofBits (F := Ideal) .f32 0x00000000#32 : Ideal .f32) = (0 : EReal) := by
  show Ideal.ofBits .f32 0x00000000#32 = 0
  simp [Ideal.ofBits, Ideal.ieee]

/-- The reset block is zero everywhere. -/
theorem pay1_apply (j : S1x128.Idx) : (k5_pay1 (F := Ideal) : FVec Ideal S1x128 .f32) j = (0 : EReal) := by
  unfold k5_pay1
  exact zero_word

/-- The second output's reset block is zero everywhere. -/
theorem pay2_apply (j : S1x128.Idx) : (k5_pay2 (F := Ideal) : FVec Ideal S1x128 .f32) j = (0 : EReal) := by
  unfold k5_pay2
  exact zero_word

/-- Entry (r, l) of the block with the row added: x(r, l) + b(0, l). -/
theorem pay3_apply (x0 : Vec Ideal S5000x128 .f32) (x1 : Vec Ideal S1x128 .f32) (r : Fin 5000) (l : Fin 128) :
    (k5_pay3 x0 x1 : FVec Ideal S5000x128 .f32) (ix2 r l) = (x0 (ix2 r l) + x1 (ix2 (0 : Fin 1) l) : EReal) := by
  unfold k5_pay3
  rw [shapeCast_self, shapeCast_self]
  refine (addf_apply _ _ _).trans ?_
  exact congrArg (fun y : EReal => x0 (ix2 r l) + y) (broadcastTo_1b_ab_apply x1 broadcasts_S1x128_S5000x128 r l)

/-- A sum over the rows of a 5000×128 block, at lane l: the sum over r of the block at (r, l). -/
theorem red_apply (src : FVec Ideal S5000x128 .f32) (hφ : FKind.Formats .f32)
    (hacc : (0x00000000#32 : BitVec (FTy.bits .f32)) = FKind.add.neutral .f32 hφ) (l : Fin 128) :
    multiReduction .add [0] S128 src 0x00000000#32 reduces_S5000x128_S128 hφ hacc (ix1 l)
      = ∑ r : Fin 5000, (src (ix2 r l) : EReal) := by
  refine (Ideal.multiReduction_add_single src 0x00000000#32 reduces_S5000x128_S128 hφ hacc (ix1 l)).trans ?_
  show ∑ r : Fin 5000, src (reduces_S5000x128_S128.lift (ix1 l) r) = _
  refine Finset.sum_congr rfl fun r _ => congrArg src ?_
  funext a
  match a with
  | ⟨0, _⟩ => rfl
  | ⟨1, _⟩ => rfl

/-- The first output after a point: what it held, plus the column sums of the block with the row added. -/
theorem pay4_apply (x0 : Vec Ideal S5000x128 .f32) (x1 acc : Vec Ideal S1x128 .f32) (u : Fin 1) (l : Fin 128) :
    (k5_pay4 x0 x1 acc : FVec Ideal S1x128 .f32) (ix2 u l)
      = (acc (ix2 u l) + ∑ r : Fin 5000, (x0 (ix2 r l) + x1 (ix2 (0 : Fin 1) l)) : EReal) := by
  unfold k5_pay4
  rw [shapeCast_self]
  refine (addf_apply _ _ _).trans ?_
  refine congrArg (fun y : EReal => acc (ix2 u l) + y) ?_
  refine (shapeCast_a_1a_apply _ shapeCasts_S128_S1x128 u l).trans ?_
  refine (red_apply _ _ _ l).trans ?_
  exact Finset.sum_congr rfl fun r _ => pay3_apply x0 x1 r l

/-- The second output after a point: what it held, plus the column sums of the squares. -/
theorem pay5_apply (x0 : Vec Ideal S5000x128 .f32) (x1 acc : Vec Ideal S1x128 .f32) (u : Fin 1) (l : Fin 128) :
    (k5_pay5 x0 x1 acc : FVec Ideal S1x128 .f32) (ix2 u l)
      = (acc (ix2 u l) + ∑ r : Fin 5000, (x0 (ix2 r l) + x1 (ix2 (0 : Fin 1) l)) * (x0 (ix2 r l) + x1 (ix2 (0 : Fin 1) l)) : EReal) := by
  unfold k5_pay5
  rw [shapeCast_self]
  refine (addf_apply _ _ _).trans ?_
  refine congrArg (fun y : EReal => acc (ix2 u l) + y) ?_
  refine (shapeCast_a_1a_apply _ shapeCasts_S128_S1x128 u l).trans ?_
  refine (red_apply _ _ _ l).trans ?_
  refine Finset.sum_congr rfl fun r _ => ?_
  refine (mulf_apply _ _ _).trans ?_
  rw [pay3_apply x0 x1 r l]

/-- Column l of an array on 100000 rows as a function of a natural row number, zero past the last row. -/
def colN (z : (⟨2, ![100000, 128]⟩ : Shape).Idx → EReal) (l : Fin 128) (r : ℕ) : EReal :=
  if h : r < 100000 then z (ix2 ⟨r, h⟩ l) else 0

/-- The sum of a column over all rows is the sum of colN over the first 100000 naturals. -/
theorem sum_rows_eq_range (z : (⟨2, ![100000, 128]⟩ : Shape).Idx → EReal) (l : Fin 128) :
    ∑ r : Fin 100000, z (ix2 r l) = ∑ r ∈ Finset.range 100000, colN z l r := by
  rw [← Fin.sum_univ_eq_sum_range (colN z l) 100000]
  refine Finset.sum_congr rfl fun r _ => ?_
  unfold colN
  rw [dif_pos r.isLt]

/-- The rows of block n (rows 5000·n … 5000·n + 4999), summed: the sum of colN over that run of naturals. -/
theorem block_sum (z : (⟨2, ![100000, 128]⟩ : Shape).Idx → EReal) (l : Fin 128) (n : ℕ) (hn : n < 20) (g : Fin 5000 → EReal)
    (hg : ∀ r : Fin 5000, g r = z (ix2 (⟨5000 * n + r.val, by have := r.isLt; omega⟩ : Fin 100000) l)) :
    ∑ r : Fin 5000, g r = ∑ k ∈ Finset.range 5000, colN z l (5000 * n + k) := by
  rw [← Fin.sum_univ_eq_sum_range (fun k => colN z l (5000 * n + k)) 5000]
  refine Finset.sum_congr rfl fun r _ => ?_
  rw [hg r]
  unfold colN
  rw [dif_pos (by have := r.isLt; omega)]

/-- The running sum over the first n + 1 blocks, extended by block n + 1. -/
theorem run_succ (f : ℕ → EReal) (n : ℕ) :
    ∑ r ∈ Finset.range (5000 * (n + 1)), f r + ∑ k ∈ Finset.range 5000, f (5000 * (n + 1) + k)
      = ∑ r ∈ Finset.range (5000 * (n + 1 + 1)), f r := by
  rw [show 5000 * (n + 1 + 1) = 5000 * (n + 1) + 5000 from by ring, Finset.sum_range_add]

/-- The first block alone, from zero. -/
theorem run_zero (f : ℕ → EReal) :
    (0 : EReal) + ∑ k ∈ Finset.range 5000, f (5000 * 0 + k) = ∑ r ∈ Finset.range (5000 * (0 + 1)), f r := by
  rw [zero_add]
  refine Finset.sum_congr rfl fun k _ => ?_
  rw [Nat.mul_zero, Nat.zero_add]

section Blocks
variable (V : (c : Dev nD) → (b : Ref sig .tc) → Buf (Elt Ideal) ((c : Thread nD τ).loc b))

/-- The index maps over the grid: the first input's block index is (t, 0); the row's and both outputs' are (0, 0). -/
theorem idx_facts : ∀ t : Fin cfg5.N,
    (win5_0.index t 0 = t.val ∧ win5_0.index t 1 = 0) ∧ (win5_1.index t 0 = 0 ∧ win5_1.index t 1 = 0)
      ∧ (win5_2.index t 0 = 0 ∧ win5_2.index t 1 = 0) ∧ (win5_3.index t 0 = 0 ∧ win5_3.index t 1 = 0) :=
  (by decide +kernel : ∀ t : Fin grid5.N,
    (win5_0.index t 0 = t.val ∧ win5_0.index t 1 = 0) ∧ (win5_1.index t 0 = 0 ∧ win5_1.index t 1 = 0)
      ∧ (win5_2.index t 0 = 0 ∧ win5_2.index t 1 = 0) ∧ (win5_3.index t 0 = 0 ∧ win5_3.index t 1 = 0))

/-- Entry (r, l) of the first input's block at point t is the array's entry at row 5000·t + r, lane l. -/
theorem blk0_read (c : Dev nD) (t : Fin cfg5.N) (ht : t.val < 20) (r : Fin 5000) (l : Fin 128) :
    (iblk5 (F := Ideal) V c 0 t : Vec Ideal S5000x128 .f32) (ix2 r l)
      = (V c (Pipeline.arrRef spec5 0) : S100000x128.Idx → EReal) (ix2 (⟨5000 * t.val + r.val, by have := r.isLt; omega⟩ : Fin 100000) l) := by
  obtain ⟨⟨i0, i1⟩, -⟩ := idx_facts t
  unfold iblk5
  rw [View.read_apply]
  show V c (Pipeline.arrRef spec5 0) _ = V c (Pipeline.arrRef spec5 0) _
  refine congrArg (V c (Pipeline.arrRef spec5 0)) ?_
  funext a
  apply Fin.ext
  match a with
  | ⟨0, _⟩ => show win5_0.index t 0 * 5000 + 1 * r.val = 5000 * t.val + r.val; rw [i0]; omega
  | ⟨1, _⟩ => show win5_0.index t 1 * 128 + 1 * l.val = l.val; rw [i1]; omega

/-- Entry (0, l) of the second input's block at any point is the row's entry at lane l. -/
theorem blk1_read (c : Dev nD) (t : Fin cfg5.N) (l : Fin 128) :
    (iblk5 (F := Ideal) V c 1 t : Vec Ideal S1x128 .f32) (ix2 (0 : Fin 1) l)
      = (V c (Pipeline.arrRef spec5 1) : S1x128.Idx → EReal) (ix2 (0 : Fin 1) l) := by
  obtain ⟨-, ⟨i0, i1⟩, -⟩ := idx_facts t
  unfold iblk5
  rw [View.read_apply]
  show V c (Pipeline.arrRef spec5 1) _ = V c (Pipeline.arrRef spec5 1) _
  refine congrArg (V c (Pipeline.arrRef spec5 1)) ?_
  funext a
  apply Fin.ext
  match a with
  | ⟨0, _⟩ => show win5_1.index t 0 * 1 + 1 * 0 = 0; rw [i0]
  | ⟨1, _⟩ => show win5_1.index t 1 * 128 + 1 * l.val = l.val; rw [i1]; omega

end Blocks

section Run
variable (V : (c : Dev nD) → (b : Ref sig .tc) → Buf (Elt Ideal) ((c : Thread nD τ).loc b))

/-- The node features with the row added to every row: the array whose columns are summed. -/
abbrev Z (c : Dev nD) : Cert.Gcn.Snd.Idx → EReal :=
  Cert.Gcn.addRow (V c (Pipeline.arrRef spec5 0)) (V c (Pipeline.arrRef spec5 1))

/-- Its entrywise square. -/
abbrev Zsq (c : Dev nD) : Cert.Gcn.Snd.Idx → EReal := fun i => Z V c i * Z V c i

/-- The outputs after the first point of a run: the accumulating payloads over the zero blocks. -/
theorem outs_A (c : Dev nD) (t : Fin cfg5.N) (h0 : t.val % 20 = 0) :
    outsAt5 (F := Ideal) V c t.val t.isLt
      = (k5_pay4 (iblk5 V c 0 t) (iblk5 V c 1 t) (k5_pay1 (F := Ideal)), k5_pay5 (iblk5 V c 0 t) (iblk5 V c 1 t) (k5_pay2 (F := Ideal))) := by
  rw [outsAt5_A V c t h0]
  exact Prod.ext
    (out_A_2 (F := Ideal) c (grid5.coords t) (ms5_0 t) (hs5_0 t) (ms5_1 t) (hs5_1 t) (ms5_2 t) (hs5_2 t) (ms5_3 t) (hs5_3 t) ((hcond5_0 t).mpr h0) (iblk5 V c 0 t) (iblk5 V c 1 t))
    (out_A_3 (F := Ideal) c (grid5.coords t) (ms5_0 t) (hs5_0 t) (ms5_1 t) (hs5_1 t) (ms5_2 t) (hs5_2 t) (ms5_3 t) (hs5_3 t) ((hcond5_0 t).mpr h0) (iblk5 V c 0 t) (iblk5 V c 1 t))

/-- The outputs after a later point: the accumulating payloads over what the point before left. -/
theorem outs_B (c : Dev nD) (t : Fin cfg5.N) (h0 : ¬t.val % 20 = 0) :
    outsAt5 (F := Ideal) V c t.val t.isLt
      = (k5_pay4 (iblk5 V c 0 t) (iblk5 V c 1 t) (outsAt5 V c (t.val - 1) (Nat.lt_of_le_of_lt (Nat.sub_le _ _) t.isLt)).1,
         k5_pay5 (iblk5 V c 0 t) (iblk5 V c 1 t) (outsAt5 V c (t.val - 1) (Nat.lt_of_le_of_lt (Nat.sub_le _ _) t.isLt)).2) := by
  rw [outsAt5_B V c t h0]
  exact Prod.ext
    (out_B_2 (F := Ideal) c (grid5.coords t) (ms5_0 t) (hs5_0 t) (ms5_1 t) (hs5_1 t) (ms5_2 t) (hs5_2 t) (ms5_3 t) (hs5_3 t) (fun h => h0 ((hcond5_0 t).mp h)) (iblk5 V c 0 t) (iblk5 V c 1 t)
      (outsAt5 V c (t.val - 1) (Nat.lt_of_le_of_lt (Nat.sub_le _ _) t.isLt)).1 (outsAt5 V c (t.val - 1) (Nat.lt_of_le_of_lt (Nat.sub_le _ _) t.isLt)).2)
    (out_B_3 (F := Ideal) c (grid5.coords t) (ms5_0 t) (hs5_0 t) (ms5_1 t) (hs5_1 t) (ms5_2 t) (hs5_2 t) (ms5_3 t) (hs5_3 t) (fun h => h0 ((hcond5_0 t).mp h)) (iblk5 V c 0 t) (iblk5 V c 1 t)
      (outsAt5 V c (t.val - 1) (Nat.lt_of_le_of_lt (Nat.sub_le _ _) t.isLt)).1 (outsAt5 V c (t.val - 1) (Nat.lt_of_le_of_lt (Nat.sub_le _ _) t.isLt)).2)

/-- Entry (r, l) of block t of the array with the row added (the blocks as plain vectors x0, x1). -/
theorem blk_entry (c : Dev nD) (t : Fin cfg5.N) (ht : t.val < 20) (x0 : Vec Ideal S5000x128 .f32) (x1 : Vec Ideal S1x128 .f32)
    (e0 : x0 = iblk5 (F := Ideal) V c 0 t) (e1 : x1 = iblk5 (F := Ideal) V c 1 t) (r : Fin 5000) (l : Fin 128) :
    (x0 (ix2 r l) + x1 (ix2 (0 : Fin 1) l) : EReal)
      = Z V c (ix2 (⟨5000 * t.val + r.val, by have := r.isLt; omega⟩ : Fin 100000) l) := by
  subst e0 e1
  rw [blk0_read V c t ht r l, blk1_read V c t l]
  rfl

/-- One point's step on the first output, at lane l: what it held plus the rows of block t of column l. -/
theorem step2 (c : Dev nD) (t : Fin cfg5.N) (ht : t.val < 20) (acc : Vec Ideal S1x128 .f32) (u : Fin 1) (l : Fin 128) :
    (k5_pay4 (iblk5 (F := Ideal) V c 0 t) (iblk5 (F := Ideal) V c 1 t) acc : FVec Ideal S1x128 .f32) (ix2 u l)
      = (acc (ix2 u l) + ∑ k ∈ Finset.range 5000, colN (Z V c) l (5000 * t.val + k) : EReal) := by
  refine (pay4_apply (iblk5 (F := Ideal) V c 0 t) (iblk5 (F := Ideal) V c 1 t) acc u l).trans ?_
  exact congrArg (fun y : EReal => acc (ix2 u l) + y)
    (block_sum (Z V c) l t.val ht _ fun r => blk_entry V c t ht _ _ rfl rfl r l)

/-- One point's step on the second output, at lane l: what it held plus the squares of the rows of block t of column l. -/
theorem step3 (c : Dev nD) (t : Fin cfg5.N) (ht : t.val < 20) (acc : Vec Ideal S1x128 .f32) (u : Fin 1) (l : Fin 128) :
    (k5_pay5 (iblk5 (F := Ideal) V c 0 t) (iblk5 (F := Ideal) V c 1 t) acc : FVec Ideal S1x128 .f32) (ix2 u l)
      = (acc (ix2 u l) + ∑ k ∈ Finset.range 5000, colN (Zsq V c) l (5000 * t.val + k) : EReal) := by
  refine (pay5_apply (iblk5 (F := Ideal) V c 0 t) (iblk5 (F := Ideal) V c 1 t) acc u l).trans ?_
  exact congrArg (fun y : EReal => acc (ix2 u l) + y)
    (block_sum (Zsq V c) l t.val ht _ fun r =>
      congrArg₂ (fun a b : EReal => a * b) (blk_entry V c t ht _ _ rfl rfl r l) (blk_entry V c t ht _ _ rfl rfl r l))

/-- THE INVARIANT. After point n the first output holds, at lane l, the sum of column l of the array with the row
    added over the rows of blocks 0 … n, and the second the sum of the squares: by induction on the point. -/
theorem outsAt_eq (c : Dev nD) : ∀ (n : ℕ) (h : n < cfg5.N) (u : Fin 1) (l : Fin 128),
    ((outsAt5 (F := Ideal) V c n h).1 (ix2 u l) : EReal) = ∑ r ∈ Finset.range (5000 * (n + 1)), colN (Z V c) l r
      ∧ ((outsAt5 (F := Ideal) V c n h).2 (ix2 u l) : EReal) = ∑ r ∈ Finset.range (5000 * (n + 1)), colN (Zsq V c) l r
  | 0, h, u, l => by
    have hN : cfg5.N = 20 := N_5
    have hA := outs_A V c ⟨0, h⟩ (Nat.zero_mod 20)
    dsimp only at hA
    rw [hA]
    dsimp only
    constructor
    · rw [step2 V c ⟨0, h⟩ (show (0 : ℕ) < 20 by decide) _ u l, pay1_apply]
      exact run_zero _
    · rw [step3 V c ⟨0, h⟩ (show (0 : ℕ) < 20 by decide) _ u l, pay2_apply]
      exact run_zero _
  | n + 1, h, u, l => by
    have hN : cfg5.N = 20 := N_5
    have hn : n + 1 < 20 := by omega
    have hB := outs_B V c ⟨n + 1, h⟩ (by dsimp only; omega)
    dsimp only [Nat.add_sub_cancel] at hB
    rw [hB]
    dsimp only
    obtain ⟨ih2, ih3⟩ := outsAt_eq c n (Nat.lt_of_succ_lt h) u l
    constructor
    · rw [step2 V c ⟨n + 1, h⟩ hn _ u l]
      refine Eq.trans ?_ (run_succ (colN (Z V c) l) n)
      exact congrArg (fun y : EReal => y + ∑ k ∈ Finset.range 5000, colN (Z V c) l (5000 * (n + 1) + k)) ih2
    · rw [step3 V c ⟨n + 1, h⟩ hn _ u l]
      refine Eq.trans ?_ (run_succ (colN (Zsq V c) l) n)
      exact congrArg (fun y : EReal => y + ∑ k ∈ Finset.range 5000, colN (Zsq V c) l (5000 * (n + 1) + k)) ih3

end Run

section Final
variable (V : (c : Dev nD) → (b : Ref sig .tc) → Buf (Elt Ideal) ((c : Thread nD τ).loc b))

/-- The last point of the grid. -/
def tLast : Fin cfg5.N := ⟨19, by rw [show cfg5.N = 20 from N_5]; decide⟩

/-- After the last point the first output holds the column sums of the array with the row added. -/
theorem last_fst (c : Dev nD) (t : Fin cfg5.N) (h19 : t.val = 19) :
    ((outsAt5 (F := Ideal) V c t.val t.isLt).1 : S1x128.Idx → EReal) = Cert.Gcn.colSum (Z V c) := by
  funext j
  obtain ⟨n, hn⟩ := t
  dsimp only at h19
  subst h19
  rw [eq_ix2 j]
  refine ((outsAt_eq V c 19 hn (j 0) (j 1)).1).trans ?_
  show _ = Cert.Gcn.colSumAt (Z V c) (j 1)
  unfold Cert.Gcn.colSumAt
  exact (sum_rows_eq_range (Z V c) (j 1)).symm

/-- After the last point the second output holds the column sums of its squares. -/
theorem last_snd (c : Dev nD) (t : Fin cfg5.N) (h19 : t.val = 19) :
    ((outsAt5 (F := Ideal) V c t.val t.isLt).2 : S1x128.Idx → EReal) = Cert.Gcn.colSumSq (Z V c) := by
  funext j
  obtain ⟨n, hn⟩ := t
  dsimp only at h19
  subst h19
  rw [eq_ix2 j]
  refine ((outsAt_eq V c 19 hn (j 0) (j 1)).2).trans ?_
  show _ = Cert.Gcn.colSumAt (Zsq V c) (j 1)
  unfold Cert.Gcn.colSumAt
  exact (sum_rows_eq_range (Zsq V c) (j 1)).symm

/-- The one write-back of the first output, at the last point, writes the column sums: block (0, 0) of the 1×128
    array read through zero offsets is the array. -/
theorem flushed_eq2 (c : Dev nD) (t : Fin cfg5.N) (hf : (cfg5.win 2).flush t = true) :
    (dat5 (F := Ideal) V c).flushed 2 t = ((cfg5.win 2).blk t).view.read (Elt Ideal) (Cert.Gcn.colSum (Z V c)) := by
  have hN : cfg5.N = 20 := N_5
  have h19 : t.val = 19 := by have := (flush5_2 t).mp hf; have := t.isLt; omega
  obtain ⟨-, -, ⟨i0, i1⟩, -⟩ := idx_facts t
  show (cfg5.win 2).cut (grid5.coords t) ((dat5 (F := Ideal) V c).after 2 t) = _
  rw [after5_2, last_fst V c t h19]
  have hz' : (fun a => win5_2.index t a * (Pipeline.arrRef spec5 2).ty.shape.size a) = fun _ => 0 := funext fun a => by
    match a with
    | ⟨0, _⟩ => show win5_2.index t 0 * 1 = 0; rw [i0]
    | ⟨1, _⟩ => show win5_2.index t 1 * 128 = 0; rw [i1]
  exact (Memref.read_access_unit_zero (Elt Ideal) (Pipeline.arrRef spec5 2) hz' (fun a => by rw [congrFun hz' a]; simp) (Cert.Gcn.colSum (Z V c))).symm

/-- The one write-back of the second output, at the last point, writes the column sums of the squares. -/
theorem flushed_eq3 (c : Dev nD) (t : Fin cfg5.N) (hf : (cfg5.win 3).flush t = true) :
    (dat5 (F := Ideal) V c).flushed 3 t = ((cfg5.win 3).blk t).view.read (Elt Ideal) (Cert.Gcn.colSumSq (Z V c)) := by
  have hN : cfg5.N = 20 := N_5
  have h19 : t.val = 19 := by have := (flush5_3 t).mp hf; have := t.isLt; omega
  obtain ⟨-, -, -, ⟨i0, i1⟩⟩ := idx_facts t
  show (cfg5.win 3).cut (grid5.coords t) ((dat5 (F := Ideal) V c).after 3 t) = _
  rw [after5_3, last_snd V c t h19]
  have hz' : (fun a => win5_3.index t a * (Pipeline.arrRef spec5 3).ty.shape.size a) = fun _ => 0 := funext fun a => by
    match a with
    | ⟨0, _⟩ => show win5_3.index t 0 * 1 = 0; rw [i0]
    | ⟨1, _⟩ => show win5_3.index t 1 * 128 = 0; rw [i1]
  exact (Memref.read_access_unit_zero (Elt Ideal) (Pipeline.arrRef spec5 3) hz' (fun a => by rw [congrFun hz' a]; simp) (Cert.Gcn.colSumSq (Z V c))).symm

/-- THE FIRST OUTPUT after the region: the column sums of the first input with the second input's row added to every
    row. The last point's block is the whole 1×128 array, so what that point writes back is the array. -/
theorem sum5 (c : Dev nD) :
    (Cert.KernelIdeal.Gen.dat5 (F := Ideal) V c).arrAt 2 cfg5.N
      = Cert.Gcn.colSum (Cert.Gcn.addRow (V c (Pipeline.arrRef spec5 0)) (V c (Pipeline.arrRef spec5 1))) :=
  (dat5 (F := Ideal) V c).arrAt_eq_of_cover 2 (Cert.Gcn.colSum (Z V c)) (flushed_eq2 V c) fun i =>
    ⟨tLast, (flush5_2 tLast).mpr rfl, by
      obtain ⟨-, -, ⟨i0, i1⟩, -⟩ := idx_facts tLast
      show i ∈ ((View.whole (Pipeline.arrRef spec5 2)).slice (win5_2.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win5_2.index tLast 0 * 1 ≤ (i 0 : Nat) ∧ (i 0 : Nat) < win5_2.index tLast 0 * 1 + 1
        rw [i0]; omega
      | ⟨1, _⟩ =>
        show win5_2.index tLast 1 * 128 ≤ (i 1 : Nat) ∧ (i 1 : Nat) < win5_2.index tLast 1 * 128 + 128
        rw [i1]; omega⟩

/-- THE SECOND OUTPUT after the region: the column sums of the squares of the same array. -/
theorem sumsq5 (c : Dev nD) :
    (Cert.KernelIdeal.Gen.dat5 (F := Ideal) V c).arrAt 3 cfg5.N
      = Cert.Gcn.colSumSq (Cert.Gcn.addRow (V c (Pipeline.arrRef spec5 0)) (V c (Pipeline.arrRef spec5 1))) :=
  (dat5 (F := Ideal) V c).arrAt_eq_of_cover 3 (Cert.Gcn.colSumSq (Z V c)) (flushed_eq3 V c) fun i =>
    ⟨tLast, (flush5_3 tLast).mpr rfl, by
      obtain ⟨-, -, -, ⟨i0, i1⟩⟩ := idx_facts tLast
      show i ∈ ((View.whole (Pipeline.arrRef spec5 3)).slice (win5_3.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win5_3.index tLast 0 * 1 ≤ (i 0 : Nat) ∧ (i 0 : Nat) < win5_3.index tLast 0 * 1 + 1
        rw [i0]; omega
      | ⟨1, _⟩ =>
        show win5_3.index tLast 1 * 128 ≤ (i 1 : Nat) ∧ (i 1 : Nat) < win5_3.index tLast 1 * 128 + 128
        rw [i1]; omega⟩

end Final

end Cert.KernelIdeal.StatsValue5

end
-- ==== Proof.KFoldL0.lean ====
/-
  The kernel program's buffers through the first graph-convolution layer, boundary by boundary: the weights cut out of
  their stacks, the linear map of the layer's input, the aggregate along the edges, its column statistics, and the
  normalised, clamped aggregate added to the layer's input. A buffer no segment writes keeps its contents from boundary
  to boundary; a region's output array is the region's whole-array function of its operand arrays.
-/
import proofs.«136606_j68719476736452_2_alg».proof.Proof.Gen.KernelIdeal.Frame
import proofs.«136606_j68719476736452_2_alg».proof.Proof.Spec
import proofs.«136606_j68719476736452_2_alg».proof.Proof.KRaw
import proofs.«136606_j68719476736452_2_alg».proof.Proof.KOps
import proofs.«136606_j68719476736452_2_alg».proof.Proof.Mm4
import proofs.«136606_j68719476736452_2_alg».proof.Proof.BnRes6
import proofs.«136606_j68719476736452_2_alg».proof.Proof.Stats5
import proofs.«136606_j68719476736452_2_alg».proof.Proof.Agg
import Idealize.ShloMosaic.Lib.StableHlo.Run
import Idealize.ShloMosaic.Lib.ValueIdx
import Idealize.ShloMosaic.Lib.Pipeline.Value
set_option maxRecDepth 16384

noncomputable section

namespace Cert.KernelIdeal.FoldL0

open Cert.KernelIdeal Cert.KernelIdeal.Gen Cert.Gcn
open Idealize.ShloMosaic Idealize.ShloMosaic.TcCoe Idealize.ShloMosaic.ValueIdx
open Idealize.SL.Sem

/-- Equal operands give equal linear maps. -/
theorem linear_congr {x x' : Snd.Idx → EReal} {w w' : Sdd.Idx → EReal} {b b' : Srow.Idx → EReal}
    (hx : x = x') (hw : w = w') (hb : b = b') : linear x w b = linear x' w' b' := by
  subst hx hw hb; rfl

/-- Equal operands give equal normalised arrays. -/
theorem bnReluRes_congr {a a' : Snd.Idx → EReal} {b b' mu mu' v v' g g' be be' : Srow.Idx → EReal} {r r' : Snd.Idx → EReal}
    (ha : a = a') (hb : b = b') (hmu : mu = mu') (hv : v = v') (hg : g = g') (hbe : be = be') (hr : r = r') :
    bnReluRes a b mu v g be r = bnReluRes a' b' mu' v' g' be' r' := by
  subst ha hb hmu hv hg hbe hr; rfl

/-- Equal edge lists and weights give equal aggregates. -/
theorem aggOps_congr {s s' d d' : IVec S640000 32} {e e' : FVec Ideal S640000x1 .f32} (x : FVec Ideal S100000x128 .f32)
    (hs : s = s') (hd : d = d') (he : e = e') : Cert.KernelIdeal.Agg.aggOps s d e x = Cert.KernelIdeal.Agg.aggOps s' d' e' x := by
  subst hs hd he; rfl

variable (m : (ℓ : Loc nD τ sig) → Buf (Elt Ideal) ℓ) (ρ : Dev nD → PrngReg) (c : Dev nD)

/-- A buffer that no operation of a host stretch writes keeps its contents across the stretch. -/
macro "host_carry_L0" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Buffers carried from boundary to boundary -/

/-- The layer's input is not touched by the stretch that cuts the layer's weights out of their stack. -/
theorem v46_9_8 : W9 (F := Ideal) m ρ c (Proc.devRef .tc main_v46) = W8 (F := Ideal) m ρ c (Proc.devRef .tc main_v46) :=
  calc W9 (F := Ideal) m ρ c (Proc.devRef .tc main_v46)
    _ = W8 (F := Ideal) m ρ c (Proc.devRef .tc main_v46) := by host_carry_L0 hostOps4

/-- The layer's input keeps its contents up to the normalisation. -/
theorem v46_13_8 : W13 (F := Ideal) m ρ c (Proc.devRef .tc main_v46) = W8 (F := Ideal) m ρ c (Proc.devRef .tc main_v46) :=
  calc W13 (F := Ideal) m ρ c (Proc.devRef .tc main_v46)
    _ = W12 (F := Ideal) m ρ c (Proc.devRef .tc main_v46) := by host_carry_L0 hostOps6
    _ = W11 (F := Ideal) m ρ c (Proc.devRef .tc main_v46) := W12_of_ne m ρ c main_v46 (by decide)
    _ = W10 (F := Ideal) m ρ c (Proc.devRef .tc main_v46) := by host_carry_L0 hostOps5
    _ = W9 (F := Ideal) m ρ c (Proc.devRef .tc main_v46) := (W10_arr m ρ c 0).trans (((dat4 (F := Ideal) (V9 (F := Ideal) m ρ) c).arrAt_in 0 rfl _).trans (A_eq4 (V9 (F := Ideal) m ρ) c 0))
    _ = W8 (F := Ideal) m ρ c (Proc.devRef .tc main_v46) := by host_carry_L0 hostOps4

/-- The stack of weight matrices is an argument no segment writes. -/
theorem arg9_8_0 : W8 (F := Ideal) m ρ c (Proc.devRef .tc main_arg9) = m ((c : Thread nD τ).loc main_arg9) :=
  calc W8 (F := Ideal) m ρ c (Proc.devRef .tc main_arg9)
    _ = W7 (F := Ideal) m ρ c (Proc.devRef .tc main_arg9) := W8_of_ne m ρ c main_arg9 (by decide)
    _ = W6 (F := Ideal) m ρ c (Proc.devRef .tc main_arg9) := W7_of_ne m ρ c main_arg9 (by decide)
    _ = W5 (F := Ideal) m ρ c (Proc.devRef .tc main_arg9) := by host_carry_L0 hostOps2
    _ = W4 (F := Ideal) m ρ c (Proc.devRef .tc main_arg9) := W5_of_ne m ρ c main_arg9 (by decide)
    _ = W3 (F := Ideal) m ρ c (Proc.devRef .tc main_arg9) := W4_of_ne m ρ c main_arg9 (by decide)
    _ = W2 (F := Ideal) m ρ c (Proc.devRef .tc main_arg9) := by host_carry_L0 hostOps0_2
    _ = W1 (F := Ideal) m ρ c (Proc.devRef .tc main_arg9) := by host_carry_L0 hostOps0_1
    _ = W0 (F := Ideal) m ρ c (Proc.devRef .tc main_arg9) := by host_carry_L0 hostOps0
    _ = m ((c : Thread nD τ).loc main_arg9) := rfl

/-- The zero row keeps its contents from the stretch that writes it. -/
theorem v30_9_3 : W9 (F := Ideal) m ρ c (Proc.devRef .tc main_v30) = W3 (F := Ideal) m ρ c (Proc.devRef .tc main_v30) :=
  calc W9 (F := Ideal) m ρ c (Proc.devRef .tc main_v30)
    _ = W8 (F := Ideal) m ρ c (Proc.devRef .tc main_v30) := by host_carry_L0 hostOps4
    _ = W7 (F := Ideal) m ρ c (Proc.devRef .tc main_v30) := W8_of_ne m ρ c main_v30 (by decide)
    _ = W6 (F := Ideal) m ρ c (Proc.devRef .tc main_v30) := (W7_arr m ρ c 1).trans (((dat2 (F := Ideal) (V6 (F := Ideal) m ρ) c).arrAt_in 1 rfl _).trans (A_eq2 (V6 (F := Ideal) m ρ) c 1))
    _ = W5 (F := Ideal) m ρ c (Proc.devRef .tc main_v30) := by host_carry_L0 hostOps2
    _ = W4 (F := Ideal) m ρ c (Proc.devRef .tc main_v30) := (W5_arr m ρ c 1).trans (((dat1 (F := Ideal) (V4 (F := Ideal) m ρ) c).arrAt_in 1 rfl _).trans (A_eq1 (V4 (F := Ideal) m ρ) c 1))
    _ = W3 (F := Ideal) m ρ c (Proc.devRef .tc main_v30) := W4_of_ne m ρ c main_v30 (by decide)

/-- The edges' source nodes keep their contents from the stretch that writes them. -/
theorem v1_10_3 : W10 (F := Ideal) m ρ c (Proc.devRef .tc main_v1) = W3 (F := Ideal) m ρ c (Proc.devRef .tc main_v1) :=
  calc W10 (F := Ideal) m ρ c (Proc.devRef .tc main_v1)
    _ = W9 (F := Ideal) m ρ c (Proc.devRef .tc main_v1) := W10_of_ne m ρ c main_v1 (by decide)
    _ = W8 (F := Ideal) m ρ c (Proc.devRef .tc main_v1) := by host_carry_L0 hostOps4
    _ = W7 (F := Ideal) m ρ c (Proc.devRef .tc main_v1) := W8_of_ne m ρ c main_v1 (by decide)
    _ = W6 (F := Ideal) m ρ c (Proc.devRef .tc main_v1) := W7_of_ne m ρ c main_v1 (by decide)
    _ = W5 (F := Ideal) m ρ c (Proc.devRef .tc main_v1) := by host_carry_L0 hostOps2
    _ = W4 (F := Ideal) m ρ c (Proc.devRef .tc main_v1) := W5_of_ne m ρ c main_v1 (by decide)
    _ = W3 (F := Ideal) m ρ c (Proc.devRef .tc main_v1) := W4_of_ne m ρ c main_v1 (by decide)

/-- The edges' target nodes keep their contents from the stretch that writes them. -/
theorem v3_10_3 : W10 (F := Ideal) m ρ c (Proc.devRef .tc main_v3) = W3 (F := Ideal) m ρ c (Proc.devRef .tc main_v3) :=
  calc W10 (F := Ideal) m ρ c (Proc.devRef .tc main_v3)
    _ = W9 (F := Ideal) m ρ c (Proc.devRef .tc main_v3) := W10_of_ne m ρ c main_v3 (by decide)
    _ = W8 (F := Ideal) m ρ c (Proc.devRef .tc main_v3) := by host_carry_L0 hostOps4
    _ = W7 (F := Ideal) m ρ c (Proc.devRef .tc main_v3) := W8_of_ne m ρ c main_v3 (by decide)
    _ = W6 (F := Ideal) m ρ c (Proc.devRef .tc main_v3) := W7_of_ne m ρ c main_v3 (by decide)
    _ = W5 (F := Ideal) m ρ c (Proc.devRef .tc main_v3) := by host_carry_L0 hostOps2
    _ = W4 (F := Ideal) m ρ c (Proc.devRef .tc main_v3) := W5_of_ne m ρ c main_v3 (by decide)
    _ = W3 (F := Ideal) m ρ c (Proc.devRef .tc main_v3) := W4_of_ne m ρ c main_v3 (by decide)

/-- The edge weights keep their contents from the stretch that writes them. -/
theorem v29_10_3 : W10 (F := Ideal) m ρ c (Proc.devRef .tc main_v29) = W3 (F := Ideal) m ρ c (Proc.devRef .tc main_v29) :=
  calc W10 (F := Ideal) m ρ c (Proc.devRef .tc main_v29)
    _ = W9 (F := Ideal) m ρ c (Proc.devRef .tc main_v29) := W10_of_ne m ρ c main_v29 (by decide)
    _ = W8 (F := Ideal) m ρ c (Proc.devRef .tc main_v29) := by host_carry_L0 hostOps4
    _ = W7 (F := Ideal) m ρ c (Proc.devRef .tc main_v29) := W8_of_ne m ρ c main_v29 (by decide)
    _ = W6 (F := Ideal) m ρ c (Proc.devRef .tc main_v29) := W7_of_ne m ρ c main_v29 (by decide)
    _ = W5 (F := Ideal) m ρ c (Proc.devRef .tc main_v29) := by host_carry_L0 hostOps2
    _ = W4 (F := Ideal) m ρ c (Proc.devRef .tc main_v29) := W5_of_ne m ρ c main_v29 (by decide)
    _ = W3 (F := Ideal) m ρ c (Proc.devRef .tc main_v29) := W4_of_ne m ρ c main_v29 (by decide)

/-- The stack of bias vectors is an argument no segment writes. -/
theorem arg10_10_0 : W10 (F := Ideal) m ρ c (Proc.devRef .tc main_arg10) = m ((c : Thread nD τ).loc main_arg10) :=
  calc W10 (F := Ideal) m ρ c (Proc.devRef .tc main_arg10)
    _ = W9 (F := Ideal) m ρ c (Proc.devRef .tc main_arg10) := W10_of_ne m ρ c main_arg10 (by decide)
    _ = W8 (F := Ideal) m ρ c (Proc.devRef .tc main_arg10) := by host_carry_L0 hostOps4
    _ = W7 (F := Ideal) m ρ c (Proc.devRef .tc main_arg10) := W8_of_ne m ρ c main_arg10 (by decide)
    _ = W6 (F := Ideal) m ρ c (Proc.devRef .tc main_arg10) := W7_of_ne m ρ c main_arg10 (by decide)
    _ = W5 (F := Ideal) m ρ c (Proc.devRef .tc main_arg10) := by host_carry_L0 hostOps2
    _ = W4 (F := Ideal) m ρ c (Proc.devRef .tc main_arg10) := W5_of_ne m ρ c main_arg10 (by decide)
    _ = W3 (F := Ideal) m ρ c (Proc.devRef .tc main_arg10) := W4_of_ne m ρ c main_arg10 (by decide)
    _ = W2 (F := Ideal) m ρ c (Proc.devRef .tc main_arg10) := by host_carry_L0 hostOps0_2
    _ = W1 (F := Ideal) m ρ c (Proc.devRef .tc main_arg10) := by host_carry_L0 hostOps0_1
    _ = W0 (F := Ideal) m ρ c (Proc.devRef .tc main_arg10) := by host_carry_L0 hostOps0
    _ = m ((c : Thread nD τ).loc main_arg10) := rfl

/-- The stack of scale vectors is an argument no segment writes. -/
theorem arg11_10_0 : W10 (F := Ideal) m ρ c (Proc.devRef .tc main_arg11) = m ((c : Thread nD τ).loc main_arg11) :=
  calc W10 (F := Ideal) m ρ c (Proc.devRef .tc main_arg11)
    _ = W9 (F := Ideal) m ρ c (Proc.devRef .tc main_arg11) := W10_of_ne m ρ c main_arg11 (by decide)
    _ = W8 (F := Ideal) m ρ c (Proc.devRef .tc main_arg11) := by host_carry_L0 hostOps4
    _ = W7 (F := Ideal) m ρ c (Proc.devRef .tc main_arg11) := W8_of_ne m ρ c main_arg11 (by decide)
    _ = W6 (F := Ideal) m ρ c (Proc.devRef .tc main_arg11) := W7_of_ne m ρ c main_arg11 (by decide)
    _ = W5 (F := Ideal) m ρ c (Proc.devRef .tc main_arg11) := by host_carry_L0 hostOps2
    _ = W4 (F := Ideal) m ρ c (Proc.devRef .tc main_arg11) := W5_of_ne m ρ c main_arg11 (by decide)
    _ = W3 (F := Ideal) m ρ c (Proc.devRef .tc main_arg11) := W4_of_ne m ρ c main_arg11 (by decide)
    _ = W2 (F := Ideal) m ρ c (Proc.devRef .tc main_arg11) := by host_carry_L0 hostOps0_2
    _ = W1 (F := Ideal) m ρ c (Proc.devRef .tc main_arg11) := by host_carry_L0 hostOps0_1
    _ = W0 (F := Ideal) m ρ c (Proc.devRef .tc main_arg11) := by host_carry_L0 hostOps0
    _ = m ((c : Thread nD τ).loc main_arg11) := rfl

/-- The stack of shift vectors is an argument no segment writes. -/
theorem arg12_10_0 : W10 (F := Ideal) m ρ c (Proc.devRef .tc main_arg12) = m ((c : Thread nD τ).loc main_arg12) :=
  calc W10 (F := Ideal) m ρ c (Proc.devRef .tc main_arg12)
    _ = W9 (F := Ideal) m ρ c (Proc.devRef .tc main_arg12) := W10_of_ne m ρ c main_arg12 (by decide)
    _ = W8 (F := Ideal) m ρ c (Proc.devRef .tc main_arg12) := by host_carry_L0 hostOps4
    _ = W7 (F := Ideal) m ρ c (Proc.devRef .tc main_arg12) := W8_of_ne m ρ c main_arg12 (by decide)
    _ = W6 (F := Ideal) m ρ c (Proc.devRef .tc main_arg12) := W7_of_ne m ρ c main_arg12 (by decide)
    _ = W5 (F := Ideal) m ρ c (Proc.devRef .tc main_arg12) := by host_carry_L0 hostOps2
    _ = W4 (F := Ideal) m ρ c (Proc.devRef .tc main_arg12) := W5_of_ne m ρ c main_arg12 (by decide)
    _ = W3 (F := Ideal) m ρ c (Proc.devRef .tc main_arg12) := W4_of_ne m ρ c main_arg12 (by decide)
    _ = W2 (F := Ideal) m ρ c (Proc.devRef .tc main_arg12) := by host_carry_L0 hostOps0_2
    _ = W1 (F := Ideal) m ρ c (Proc.devRef .tc main_arg12) := by host_carry_L0 hostOps0_1
    _ = W0 (F := Ideal) m ρ c (Proc.devRef .tc main_arg12) := by host_carry_L0 hostOps0
    _ = m ((c : Thread nD τ).loc main_arg12) := rfl

/-- The aggregate keeps its contents through the statistics. -/
theorem v61_13_11 : W13 (F := Ideal) m ρ c (Proc.devRef .tc main_v61) = W11 (F := Ideal) m ρ c (Proc.devRef .tc main_v61) :=
  calc W13 (F := Ideal) m ρ c (Proc.devRef .tc main_v61)
    _ = W12 (F := Ideal) m ρ c (Proc.devRef .tc main_v61) := by host_carry_L0 hostOps6
    _ = W11 (F := Ideal) m ρ c (Proc.devRef .tc main_v61) := (W12_arr m ρ c 0).trans (((dat5 (F := Ideal) (V11 (F := Ideal) m ρ) c).arrAt_in 0 rfl _).trans (A_eq5 (V11 (F := Ideal) m ρ) c 0))

/-- The bias row keeps its contents through the statistics. -/
theorem v64_13_11 : W13 (F := Ideal) m ρ c (Proc.devRef .tc main_v64) = W11 (F := Ideal) m ρ c (Proc.devRef .tc main_v64) :=
  calc W13 (F := Ideal) m ρ c (Proc.devRef .tc main_v64)
    _ = W12 (F := Ideal) m ρ c (Proc.devRef .tc main_v64) := by host_carry_L0 hostOps6
    _ = W11 (F := Ideal) m ρ c (Proc.devRef .tc main_v64) := (W12_arr m ρ c 1).trans (((dat5 (F := Ideal) (V11 (F := Ideal) m ρ) c).arrAt_in 1 rfl _).trans (A_eq5 (V11 (F := Ideal) m ρ) c 1))

/-- The scale row keeps its contents through the statistics. -/
theorem v67_13_11 : W13 (F := Ideal) m ρ c (Proc.devRef .tc main_v67) = W11 (F := Ideal) m ρ c (Proc.devRef .tc main_v67) :=
  calc W13 (F := Ideal) m ρ c (Proc.devRef .tc main_v67)
    _ = W12 (F := Ideal) m ρ c (Proc.devRef .tc main_v67) := by host_carry_L0 hostOps6
    _ = W11 (F := Ideal) m ρ c (Proc.devRef .tc main_v67) := W12_of_ne m ρ c main_v67 (by decide)

/-- The shift row keeps its contents through the statistics. -/
theorem v70_13_11 : W13 (F := Ideal) m ρ c (Proc.devRef .tc main_v70) = W11 (F := Ideal) m ρ c (Proc.devRef .tc main_v70) :=
  calc W13 (F := Ideal) m ρ c (Proc.devRef .tc main_v70)
    _ = W12 (F := Ideal) m ρ c (Proc.devRef .tc main_v70) := by host_carry_L0 hostOps6
    _ = W11 (F := Ideal) m ρ c (Proc.devRef .tc main_v70) := W12_of_ne m ρ c main_v70 (by decide)

/-! ## The linear map of the layer's input -/

/-- The layer's weight matrix, cut out of the stack. -/
theorem weight_at9 : W9 (F := Ideal) m ρ c (Proc.devRef .tc main_v48)
    = fun i => (m ((c : Thread nD τ).loc main_arg9) : S3x128x128.Idx → EReal) (ix3 0 (i 0) (i 1)) := by
  refine (Raw.hostOps4_v48 (F := Ideal) (W8 (F := Ideal) m ρ c)).trans ?_
  refine Eq.trans (OpsRead.mat_layer0_eq (W8 (F := Ideal) m ρ c (Proc.devRef .tc main_arg9))) ?_
  exact congrArg (fun (a : S3x128x128.Idx → EReal) => fun (i : Sdd.Idx) => a (ix3 0 (i 0) (i 1))) (arg9_8_0 m ρ c)

/-- The zero row the layer's linear map takes as its bias. -/
theorem zero_at9 : W9 (F := Ideal) m ρ c (Proc.devRef .tc main_v30) = (fun _ => 0 : Srow.Idx → EReal) :=
  (v30_9_3 m ρ c).trans ((Raw.hostOps0_2_v30 (F := Ideal) (W2 (F := Ideal) m ρ c)).trans OpsRead.zero_row_eq)

/-- The layer's input times the layer's weights. -/
theorem hw_at10 : W10 (F := Ideal) m ρ c (Proc.devRef .tc main_v49)
    = linear (W8 (F := Ideal) m ρ c (Proc.devRef .tc main_v46)) (fun i => (m ((c : Thread nD τ).loc main_arg9) : S3x128x128.Idx → EReal) (ix3 0 (i 0) (i 1))) (fun _ => 0) :=
  (W10_arr m ρ c 3).trans ((Cert.KernelIdeal.MmValue4.mm4 (V9 (F := Ideal) m ρ) c).trans
    (linear_congr (v46_9_8 m ρ c) (weight_at9 m ρ c) (zero_at9 m ρ c)))

/-! ## The aggregate and the layer's rows -/

/-- The aggregate: the transformed features gathered along the edges, weighted, and summed into their target nodes. -/
theorem agg_at11 : W11 (F := Ideal) m ρ c (Proc.devRef .tc main_v61)
    = Cert.KernelIdeal.Agg.aggOps (W3 (F := Ideal) m ρ c (Proc.devRef .tc main_v1)) (W3 (F := Ideal) m ρ c (Proc.devRef .tc main_v3)) (W3 (F := Ideal) m ρ c (Proc.devRef .tc main_v29)) (W10 (F := Ideal) m ρ c (Proc.devRef .tc main_v49)) :=
  (Cert.KernelIdeal.Agg.hostOps5_v61_eq (W10 (F := Ideal) m ρ c)).trans
    (aggOps_congr _ (v1_10_3 m ρ c) (v3_10_3 m ρ c) (v29_10_3 m ρ c))

/-- The layer's bias, cut out of its stack and laid out as a row. -/
theorem bias_at11 : W11 (F := Ideal) m ρ c (Proc.devRef .tc main_v64)
    = rowOf (fun j => (m ((c : Thread nD τ).loc main_arg10) : S3x128.Idx → EReal) (ix2 0 (j 0))) := by
  refine (Raw.hostOps5_v64 (F := Ideal) (W10 (F := Ideal) m ρ c)).trans ?_
  refine Eq.trans (OpsRead.row_layer0_eq (W10 (F := Ideal) m ρ c (Proc.devRef .tc main_arg10))) ?_
  exact congrArg (fun (a : S3x128.Idx → EReal) => rowOf (fun j => a (ix2 0 (j 0)))) (arg10_10_0 m ρ c)

/-- The layer's scale, cut out of its stack and laid out as a row. -/
theorem scale_at11 : W11 (F := Ideal) m ρ c (Proc.devRef .tc main_v67)
    = rowOf (fun j => (m ((c : Thread nD τ).loc main_arg11) : S3x128.Idx → EReal) (ix2 0 (j 0))) := by
  refine (Raw.hostOps5_v67 (F := Ideal) (W10 (F := Ideal) m ρ c)).trans ?_
  refine Eq.trans (OpsRead.row_layer0_eq (W10 (F := Ideal) m ρ c (Proc.devRef .tc main_arg11))) ?_
  exact congrArg (fun (a : S3x128.Idx → EReal) => rowOf (fun j => a (ix2 0 (j 0)))) (arg11_10_0 m ρ c)

/-- The layer's shift, cut out of its stack and laid out as a row. -/
theorem shift_at11 : W11 (F := Ideal) m ρ c (Proc.devRef .tc main_v70)
    = rowOf (fun j => (m ((c : Thread nD τ).loc main_arg12) : S3x128.Idx → EReal) (ix2 0 (j 0))) := by
  refine (Raw.hostOps5_v70 (F := Ideal) (W10 (F := Ideal) m ρ c)).trans ?_
  refine Eq.trans (OpsRead.row_layer0_eq (W10 (F := Ideal) m ρ c (Proc.devRef .tc main_arg12))) ?_
  exact congrArg (fun (a : S3x128.Idx → EReal) => rowOf (fun j => a (ix2 0 (j 0)))) (arg12_10_0 m ρ c)

/-! ## The statistics -/

/-- The column sums of the aggregate plus its bias, as the statistics region leaves them. -/
theorem sum_at12 : W12 (F := Ideal) m ρ c (Proc.devRef .tc main_v71_0) = colSum (addRow (W11 (F := Ideal) m ρ c (Proc.devRef .tc main_v61)) (W11 (F := Ideal) m ρ c (Proc.devRef .tc main_v64))) :=
  (W12_arr m ρ c 2).trans (Cert.KernelIdeal.StatsValue5.sum5 (V11 (F := Ideal) m ρ) c)

/-- The column sums of its square. -/
theorem sumsq_at12 : W12 (F := Ideal) m ρ c (Proc.devRef .tc main_v71_1) = colSumSq (addRow (W11 (F := Ideal) m ρ c (Proc.devRef .tc main_v61)) (W11 (F := Ideal) m ρ c (Proc.devRef .tc main_v64))) :=
  (W12_arr m ρ c 3).trans (Cert.KernelIdeal.StatsValue5.sumsq5 (V11 (F := Ideal) m ρ) c)

/-- The column means. -/
theorem mean_at13 : W13 (F := Ideal) m ρ c (Proc.devRef .tc main_v73) = meanRow (addRow (W11 (F := Ideal) m ρ c (Proc.devRef .tc main_v61)) (W11 (F := Ideal) m ρ c (Proc.devRef .tc main_v64))) :=
  (Raw.hostOps6_v73 (F := Ideal) (W12 (F := Ideal) m ρ c)).trans
    (OpsRead.mean_row_eq (addRow (W11 (F := Ideal) m ρ c (Proc.devRef .tc main_v61)) (W11 (F := Ideal) m ρ c (Proc.devRef .tc main_v64))) (W12 (F := Ideal) m ρ c (Proc.devRef .tc main_v71_0)) (sum_at12 m ρ c))

/-- The column variances, in one pass. -/
theorem var_at13 : W13 (F := Ideal) m ρ c (Proc.devRef .tc main_v79) = varOnePassRow (addRow (W11 (F := Ideal) m ρ c (Proc.devRef .tc main_v61)) (W11 (F := Ideal) m ρ c (Proc.devRef .tc main_v64))) :=
  (Raw.hostOps6_v79 (F := Ideal) (W12 (F := Ideal) m ρ c)).trans
    (OpsRead.var_row_eq (addRow (W11 (F := Ideal) m ρ c (Proc.devRef .tc main_v61)) (W11 (F := Ideal) m ρ c (Proc.devRef .tc main_v64))) (W12 (F := Ideal) m ρ c (Proc.devRef .tc main_v71_0)) (W12 (F := Ideal) m ρ c (Proc.devRef .tc main_v71_1)) (sum_at12 m ρ c) (sumsq_at12 m ρ c))

/-! ## The layer's output -/

/-- The aggregate plus its bias, normalised by its column statistics, scaled, shifted, clamped at zero, added to the layer's input. -/
theorem out_at14 : W14 (F := Ideal) m ρ c (Proc.devRef .tc main_v80)
    = bnReluRes (W11 (F := Ideal) m ρ c (Proc.devRef .tc main_v61)) (W11 (F := Ideal) m ρ c (Proc.devRef .tc main_v64)) (W13 (F := Ideal) m ρ c (Proc.devRef .tc main_v73)) (W13 (F := Ideal) m ρ c (Proc.devRef .tc main_v79))
        (W11 (F := Ideal) m ρ c (Proc.devRef .tc main_v67)) (W11 (F := Ideal) m ρ c (Proc.devRef .tc main_v70)) (W8 (F := Ideal) m ρ c (Proc.devRef .tc main_v46)) :=
  (W14_arr m ρ c 7).trans ((Cert.KernelIdeal.BnResValue6.bnres6 (V13 (F := Ideal) m ρ) c).trans
    (bnReluRes_congr (v61_13_11 m ρ c) (v64_13_11 m ρ c) rfl rfl (v67_13_11 m ρ c) (v70_13_11 m ρ c) (v46_13_8 m ρ c)))

end Cert.KernelIdeal.FoldL0

end
-- ==== Proof.Mm7.lean ====
/-
  The matrix product with bias, region by region of the program: the array the kernel leaves is x·w + b of the arrays it finds.
  The body's value at an index; each window's block as rows of its array; the blocks written back cover the array.
-/
import proofs.«136606_j68719476736452_2_alg».proof.Proof.Gen.KernelIdeal.Frame
import proofs.«136606_j68719476736452_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.MmValue7

open Cert.KernelIdeal Cert.KernelIdeal.Gen

/-- The contraction of the product: rows of the left factor against columns of the right. -/
theorem dot_apply (A : FVec Ideal S5000x128 .bf16) (B : FVec Ideal S128x128 .bf16) (p : Fin 5000) (q : Fin 128) :
    (∑ k : dot_S5000x128_S128x128_S5000x128_1_0_0_1_n_n.contr.Idx,
        A (dot_S5000x128_S128x128_S5000x128_1_0_0_1_n_n.lhsIdx (ix2 p q) k) * B (dot_S5000x128_S128x128_S5000x128_1_0_0_1_n_n.rhsIdx (ix2 p q) k))
      = ∑ k : Fin 128, A (ix2 p k) * B (ix2 k q) := by
  rw [← Equiv.sum_comp (contrEquiv1 dot_S5000x128_S128x128_S5000x128_1_0_0_1_n_n 128 rfl rfl).symm]
  refine Finset.sum_congr rfl fun c _ => ?_
  have c2 := contrEquiv1_symm_val dot_S5000x128_S128x128_S5000x128_1_0_0_1_n_n 128 rfl rfl c
  have l2 : dot_S5000x128_S128x128_S5000x128_1_0_0_1_n_n.lhsIdx (ix2 p q) ((contrEquiv1 _ 128 rfl rfl).symm c) = ix2 p c := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact c2
  have r2 : dot_S5000x128_S128x128_S5000x128_1_0_0_1_n_n.rhsIdx (ix2 p q) ((contrEquiv1 _ 128 rfl rfl).symm c) = ix2 c q := by
    funext ax; apply Fin.ext
    match ax with
    | ⟨0, _⟩ => simp [DotDims.rhsIdx, dot_S5000x128_S128x128_S5000x128_1_0_0_1_n_n]; exact c2
    | ⟨1, _⟩ => simp [DotDims.rhsIdx, dot_S5000x128_S128x128_S5000x128_1_0_0_1_n_n]; rfl
  rw [l2, r2]

/-- The body's value at row p, column q: the p-th row of the left block against the q-th column of the weights, plus the bias. -/
theorem pay_apply (x0 : Vec Ideal S5000x128 .f32) (x1 : Vec Ideal S128x128 .f32) (x2 : Vec Ideal S1x128 .f32)
    (p : Fin 5000) (q : Fin 128) :
    k7_pay1 (F := Ideal) x0 x1 x2 (ix2 p q) = (∑ k : Fin 128, x0 (ix2 p k) * x1 (ix2 k q)) + x2 (ix2 0 q) := by
  unfold k7_pay1
  refine (addf_apply _ _ _).trans ?_
  refine congrArg₂ (· + ·) ?_ ?_
  · refine (Ideal.matmul_constant_zero_apply dot_S5000x128_S128x128_S5000x128_1_0_0_1_n_n none _ _ (ix2 p q)).trans ?_
    refine (dot_apply _ _ p q).trans ?_
    refine Finset.sum_congr rfl fun k _ => congrArg₂ (· * ·) ?_ ?_
    · exact congrFun (shapeCast_self x0 _) _
    · exact congrFun (shapeCast_self x1 _) _
  · refine (broadcastTo_1b_ab_apply _ _ p q).trans ?_
    rw [shapeCast_self]

theorem hz : (![0, 0] : Fin 2 → Nat) = fun _ => 0 := funext fun a => by fin_cases a <;> rfl

/-- The index maps over the grid: the row-blocked windows sit at block (t, 0) at point t, the whole operands at block (0, 0). -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- Row p of the block at point t is row 5000·t + p of the array. -/
theorem read_blk0 (X : S100000x128.Idx → EReal) (t : Fin cfg7.N) (p : Fin 5000) (q : Fin 128) (r : Fin 100000)
    (hr : r.val = 5000 * t.val + p.val) :
    ((cfg7.win 0).blk t).view.read (Elt Ideal) X (ix2 p q) = X (ix2 r q) := by
  obtain ⟨e0, e1, -⟩ := idx_facts t
  show X (((cfg7.win 0).blk t).view.emb (ix2 p q)) = X (ix2 r q)
  refine congrArg X (funext fun a => Fin.ext ?_)
  match a with
  | ⟨0, _⟩ => show win7_0.index t (0 : Fin 2) * 5000 + 1 * p.val = r.val; rw [e0, hr]; omega
  | ⟨1, _⟩ => show win7_0.index t (1 : Fin 2) * 128 + 1 * q.val = q.val; rw [e1]; omega

theorem read_blk3 (X : S100000x128.Idx → EReal) (t : Fin cfg7.N) (p : Fin 5000) (q : Fin 128) (r : Fin 100000)
    (hr : r.val = 5000 * t.val + p.val) :
    ((cfg7.win 3).blk t).view.read (Elt Ideal) X (ix2 p q) = X (ix2 r q) := by
  obtain ⟨-, -, -, -, -, -, e0, e1⟩ := idx_facts t
  show X (((cfg7.win 3).blk t).view.emb (ix2 p q)) = X (ix2 r q)
  refine congrArg X (funext fun a => Fin.ext ?_)
  match a with
  | ⟨0, _⟩ => show win7_3.index t (0 : Fin 2) * 5000 + 1 * p.val = r.val; rw [e0, hr]; omega
  | ⟨1, _⟩ => show win7_3.index t (1 : Fin 2) * 128 + 1 * q.val = q.val; rw [e1]; omega

/-- The whole operands are read as they are. -/
theorem read_blk1 (X : S128x128.Idx → EReal) (t : Fin cfg7.N) :
    ((cfg7.win 1).blk t).view.read (Elt Ideal) X = X := by
  obtain ⟨-, -, e0, e1, -⟩ := idx_facts t
  funext j
  show X (((cfg7.win 1).blk t).view.emb j) = X j
  refine congrArg X (funext fun a => Fin.ext ?_)
  match a with
  | ⟨0, _⟩ => show win7_1.index t (0 : Fin 2) * 128 + 1 * (j 0).val = (j 0).val; rw [e0]; omega
  | ⟨1, _⟩ => show win7_1.index t (1 : Fin 2) * 128 + 1 * (j 1).val = (j 1).val; rw [e1]; omega

theorem read_blk2 (X : S1x128.Idx → EReal) (t : Fin cfg7.N) :
    ((cfg7.win 2).blk t).view.read (Elt Ideal) X = X := by
  obtain ⟨-, -, -, -, e0, e1, -⟩ := idx_facts t
  funext j
  show X (((cfg7.win 2).blk t).view.emb j) = X j
  refine congrArg X (funext fun a => Fin.ext ?_)
  match a with
  | ⟨0, _⟩ => show win7_2.index t (0 : Fin 2) * 1 + 1 * (j 0).val = (j 0).val; rw [e0]; omega
  | ⟨1, _⟩ => show win7_2.index t (1 : Fin 2) * 128 + 1 * (j 1).val = (j 1).val; rw [e1]; omega

/-- An index of the array is in point t's block iff each coordinate is in the block's range on its axis. -/
theorem mem_blk3 (t : Fin cfg7.N) (i : S100000x128.Idx) :
    i ∈ ((cfg7.win 3).blk t).view.set ↔ ∀ a : Fin 2, win7_3.index t a * S5000x128.size a ≤ (i a).val ∧ (i a).val < win7_3.index t a * S5000x128.size a + S5000x128.size a := by
  show i ∈ ((View.whole main_v83).slice (win7_3.rect t)).set ↔ _
  rw [View.set_slice_whole, Rect.mem_set_unit]
  exact Iff.rfl

/-- Row r of the array lies in the block of point r / 5000, which is written back. -/
theorem cover (i : S100000x128.Idx) : ∃ t : Fin cfg7.N, (cfg7.win 3).flush t = true ∧ i ∈ ((cfg7.win 3).blk t).view.set := by
  have hi0 : (i 0).val < 100000 := (i 0).isLt
  have hi1 : (i 1).val < 128 := (i 1).isLt
  have hN : cfg7.N = 20 := N_7
  have ht : (i 0).val / 5000 < cfg7.N := by rw [hN]; omega
  refine ⟨⟨(i 0).val / 5000, ht⟩, flush7_3 _, ?_⟩
  rw [mem_blk3]
  obtain ⟨-, -, -, -, -, -, e0, e1⟩ := idx_facts ⟨(i 0).val / 5000, ht⟩
  intro a
  match a with
  | ⟨0, _⟩ =>
    show win7_3.index ⟨(i 0).val / 5000, ht⟩ (0 : Fin 2) * 5000 ≤ (i 0).val ∧ (i 0).val < win7_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win7_3.index ⟨(i 0).val / 5000, ht⟩ (1 : Fin 2) * 128 ≤ (i 1).val ∧ (i 1).val < win7_3.index ⟨(i 0).val / 5000, ht⟩ (1 : Fin 2) * 128 + 128
    rw [e1]; omega

/-- Two arrays over a 5000×128 block are equal when they agree at every (row, column). -/
theorem ext_blk (Y Z : S5000x128.Idx → EReal) (h : ∀ (p : Fin 5000) (q : Fin 128), Y (ix2 p q) = Z (ix2 p q)) : Y = Z :=
  funext fun j => by rw [eq_ix2 j]; exact h _ _

variable (V : (c : Dev nD) → (b : Ref sig .tc) → Buf (Elt Ideal) ((c : Thread nD τ).loc b))

/-- What point t writes back is block t of x·w + b of the arrays the region finds. -/
theorem flushed_eq (c : Dev nD) (t : Fin cfg7.N) :
    (dat7 (F := Ideal) V c).flushed 3 t = ((cfg7.win 3).blk t).view.read (Elt Ideal)
      (Cert.Gcn.linear (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz]
  simp only [View.ld_unit_zero (S := S5000x128) hz, View.ld_unit_zero (S := S128x128) hz, View.ld_unit_zero (S := S1x128) hz]
  have h1 : iblk7 V c 1 t = V c (Pipeline.arrRef spec7 1) := read_blk1 _ t
  have h2 : iblk7 V c 2 t = V c (Pipeline.arrRef spec7 2) := read_blk2 _ t
  rw [h1, h2]
  refine ext_blk _ _ fun p q => ?_
  have hN : cfg7.N = 20 := N_7
  have htl : t.val < 20 := hN ▸ t.isLt
  have hr : 5000 * t.val + p.val < 100000 := by have := p.isLt; omega
  refine (pay_apply _ _ _ p q).trans ?_
  refine Eq.trans ?_ (read_blk3 _ t p q ⟨5000 * t.val + p.val, hr⟩ rfl).symm
  show _ = Cert.Gcn.linearAt _ _ _ ⟨5000 * t.val + p.val, hr⟩ q
  unfold Cert.Gcn.linearAt
  refine congrArg₂ (· + ·) (Finset.sum_congr rfl fun k _ => congrArg₂ (· * ·) ?_ rfl) rfl
  exact read_blk0 _ t p k ⟨5000 * t.val + p.val, hr⟩ rfl

/-- The array after the region: x·w + b of the arrays the region finds. -/
theorem mm7 (c : Dev nD) :
    (Cert.KernelIdeal.Gen.dat7 (F := Ideal) V c).arrAt 3 cfg7.N
      = Cert.Gcn.linear (V c (Pipeline.arrRef spec7 0)) (V c (Pipeline.arrRef spec7 1)) (V c (Pipeline.arrRef spec7 2)) :=
  (dat7 (F := Ideal) V c).arrAt_eq_of_cover 3 _ (fun t _ => flushed_eq V c t) cover

end Cert.KernelIdeal.MmValue7

end
-- ==== Proof.BnRes9.lean ====
/-
  The normalisation with clamp and residual, as the array the kernel leaves: every entry of a + b normalised by its column's
  mean and variance, scaled and shifted, clamped at zero, and added to the layer's input.
  The body's value at an index; each window's block as rows of its array; the blocks written back cover the array.
-/
import proofs.«136606_j68719476736452_2_alg».proof.Proof.Gen.KernelIdeal.Frame
import proofs.«136606_j68719476736452_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.BnResValue9

open Cert.KernelIdeal Cert.KernelIdeal.Gen

/-- A row of 128 channels spread over the 5000 rows of a block reads, at (p, q), the row's entry q. -/
theorem row_apply (v : Vec Ideal S1x128 .f32) (p : Fin 5000) (q : Fin 128) :
    broadcastTo S5000x128 (shapeCast S1x128 v shapeCasts_S1x128_S1x128) broadcasts_S1x128_S5000x128 (ix2 p q) = v (ix2 0 q) :=
  (broadcastTo_1b_ab_apply _ _ p q).trans (congrFun (shapeCast_self v _) _)

/-- The body's value at row p, channel q: the entry plus its bias, centred, scaled by the inverse root of the variance
    plus the offset, by the channel's scale, shifted, clamped below at zero, and added to the layer's input there. -/
theorem pay_apply (a : Vec Ideal S5000x128 .f32) (b mean var g be : Vec Ideal S1x128 .f32) (res : Vec Ideal S5000x128 .f32)
    (p : Fin 5000) (q : Fin 128) :
    k9_pay1 (F := Ideal) a b mean var g be res (ix2 p q)
      = res (ix2 p q) + max (Cert.Gcn.normAt (a (ix2 p q) + b (ix2 0 q)) (mean (ix2 0 q)) (var (ix2 0 q)) (g (ix2 0 q)) (be (ix2 0 q))) 0 := by
  unfold k9_pay1 Cert.Gcn.normAt Cert.Gcn.eps
  refine (addf_apply _ _ _).trans ?_
  refine congrArg₂ (· + ·) (congrFun (shapeCast_self res _) _) ?_
  refine (maximumf_apply _ _ _).trans ?_
  refine congrArg₂ max ?_ Ideal.ofBits_zero_f32
  refine (addf_apply _ _ _).trans ?_
  refine congrArg₂ (· + ·) ?_ (row_apply be p q)
  refine (mulf_apply _ _ _).trans ?_
  refine congrArg₂ (· * ·) ?_ (row_apply g p q)
  refine (mulf_apply _ _ _).trans ?_
  refine congrArg₂ (· * ·) ?_ ?_
  · refine (subf_apply _ _ _).trans ?_
    refine congrArg₂ (· - ·) ?_ (row_apply mean p q)
    refine (addf_apply _ _ _).trans ?_
    exact congrArg₂ (· + ·) (congrFun (shapeCast_self a _) _) (row_apply b p q)
  · refine (broadcastTo_1b_ab_apply _ _ p q).trans ?_
    show Ideal.rsqrt (shapeCast S1x128 var shapeCasts_S1x128_S1x128 (ix2 0 q) + Ideal.ofBits .f32 0x3727C5AC#32) = _
    rw [shapeCast_self]

theorem hz : (![0, 0] : Fin 2 → Nat) = fun _ => 0 := funext fun a => by fin_cases a <;> rfl

/-- The index maps over the grid: the row-blocked windows sit at block (t, 0) at point t, the rows of channels at block (0, 0). -/
theorem idx_facts : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = t.val ∧ win9_6.index t (1 : Fin 2) = 0
    ∧ win9_7.index t (0 : Fin 2) = t.val ∧ win9_7.index t (1 : Fin 2) = 0 :=
  (by decide +kernel : ∀ t : Fin grid9.N, _)

/-- Row p of a row-blocked window's block at point t is row 5000·t + p of its array. -/
theorem read_blk0 (X : S100000x128.Idx → EReal) (t : Fin cfg9.N) (p : Fin 5000) (q : Fin 128) (r : Fin 100000)
    (hr : r.val = 5000 * t.val + p.val) :
    ((cfg9.win 0).blk t).view.read (Elt Ideal) X (ix2 p q) = X (ix2 r q) := by
  obtain ⟨e0, e1, -⟩ := idx_facts t
  show X (((cfg9.win 0).blk t).view.emb (ix2 p q)) = X (ix2 r q)
  refine congrArg X (funext fun a => Fin.ext ?_)
  match a with
  | ⟨0, _⟩ => show win9_0.index t (0 : Fin 2) * 5000 + 1 * p.val = r.val; rw [e0, hr]; omega
  | ⟨1, _⟩ => show win9_0.index t (1 : Fin 2) * 128 + 1 * q.val = q.val; rw [e1]; omega

theorem read_blk6 (X : S100000x128.Idx → EReal) (t : Fin cfg9.N) (p : Fin 5000) (q : Fin 128) (r : Fin 100000)
    (hr : r.val = 5000 * t.val + p.val) :
    ((cfg9.win 6).blk t).view.read (Elt Ideal) X (ix2 p q) = X (ix2 r q) := by
  obtain ⟨-, -, -, -, -, -, -, -, -, -, -, -, e0, e1, -⟩ := idx_facts t
  show X (((cfg9.win 6).blk t).view.emb (ix2 p q)) = X (ix2 r q)
  refine congrArg X (funext fun a => Fin.ext ?_)
  match a with
  | ⟨0, _⟩ => show win9_6.index t (0 : Fin 2) * 5000 + 1 * p.val = r.val; rw [e0, hr]; omega
  | ⟨1, _⟩ => show win9_6.index t (1 : Fin 2) * 128 + 1 * q.val = q.val; rw [e1]; omega

theorem read_blk7 (X : S100000x128.Idx → EReal) (t : Fin cfg9.N) (p : Fin 5000) (q : Fin 128) (r : Fin 100000)
    (hr : r.val = 5000 * t.val + p.val) :
    ((cfg9.win 7).blk t).view.read (Elt Ideal) X (ix2 p q) = X (ix2 r q) := by
  obtain ⟨-, -, -, -, -, -, -, -, -, -, -, -, -, -, e0, e1⟩ := idx_facts t
  show X (((cfg9.win 7).blk t).view.emb (ix2 p q)) = X (ix2 r q)
  refine congrArg X (funext fun a => Fin.ext ?_)
  match a with
  | ⟨0, _⟩ => show win9_7.index t (0 : Fin 2) * 5000 + 1 * p.val = r.val; rw [e0, hr]; omega
  | ⟨1, _⟩ => show win9_7.index t (1 : Fin 2) * 128 + 1 * q.val = q.val; rw [e1]; omega

/-- The rows of channels are read as they are. -/
theorem read_row1 (X : S1x128.Idx → EReal) (t : Fin cfg9.N) :
    ((cfg9.win 1).blk t).view.read (Elt Ideal) X = X := by
  obtain ⟨-, -, e0, e1, -⟩ := idx_facts t
  funext j
  show X (((cfg9.win 1).blk t).view.emb j) = X j
  refine congrArg X (funext fun a => Fin.ext ?_)
  match a with
  | ⟨0, _⟩ => show win9_1.index t (0 : Fin 2) * 1 + 1 * (j 0).val = (j 0).val; rw [e0]; omega
  | ⟨1, _⟩ => show win9_1.index t (1 : Fin 2) * 128 + 1 * (j 1).val = (j 1).val; rw [e1]; omega

theorem read_row2 (X : S1x128.Idx → EReal) (t : Fin cfg9.N) :
    ((cfg9.win 2).blk t).view.read (Elt Ideal) X = X := by
  obtain ⟨-, -, -, -, e0, e1, -⟩ := idx_facts t
  funext j
  show X (((cfg9.win 2).blk t).view.emb j) = X j
  refine congrArg X (funext fun a => Fin.ext ?_)
  match a with
  | ⟨0, _⟩ => show win9_2.index t (0 : Fin 2) * 1 + 1 * (j 0).val = (j 0).val; rw [e0]; omega
  | ⟨1, _⟩ => show win9_2.index t (1 : Fin 2) * 128 + 1 * (j 1).val = (j 1).val; rw [e1]; omega

theorem read_row3 (X : S1x128.Idx → EReal) (t : Fin cfg9.N) :
    ((cfg9.win 3).blk t).view.read (Elt Ideal) X = X := by
  obtain ⟨-, -, -, -, -, -, e0, e1, -⟩ := idx_facts t
  funext j
  show X (((cfg9.win 3).blk t).view.emb j) = X j
  refine congrArg X (funext fun a => Fin.ext ?_)
  match a with
  | ⟨0, _⟩ => show win9_3.index t (0 : Fin 2) * 1 + 1 * (j 0).val = (j 0).val; rw [e0]; omega
  | ⟨1, _⟩ => show win9_3.index t (1 : Fin 2) * 128 + 1 * (j 1).val = (j 1).val; rw [e1]; omega

theorem read_row4 (X : S1x128.Idx → EReal) (t : Fin cfg9.N) :
    ((cfg9.win 4).blk t).view.read (Elt Ideal) X = X := by
  obtain ⟨-, -, -, -, -, -, -, -, e0, e1, -⟩ := idx_facts t
  funext j
  show X (((cfg9.win 4).blk t).view.emb j) = X j
  refine congrArg X (funext fun a => Fin.ext ?_)
  match a with
  | ⟨0, _⟩ => show win9_4.index t (0 : Fin 2) * 1 + 1 * (j 0).val = (j 0).val; rw [e0]; omega
  | ⟨1, _⟩ => show win9_4.index t (1 : Fin 2) * 128 + 1 * (j 1).val = (j 1).val; rw [e1]; omega

theorem read_row5 (X : S1x128.Idx → EReal) (t : Fin cfg9.N) :
    ((cfg9.win 5).blk t).view.read (Elt Ideal) X = X := by
  obtain ⟨-, -, -, -, -, -, -, -, -, -, e0, e1, -⟩ := idx_facts t
  funext j
  show X (((cfg9.win 5).blk t).view.emb j) = X j
  refine congrArg X (funext fun a => Fin.ext ?_)
  match a with
  | ⟨0, _⟩ => show win9_5.index t (0 : Fin 2) * 1 + 1 * (j 0).val = (j 0).val; rw [e0]; omega
  | ⟨1, _⟩ => show win9_5.index t (1 : Fin 2) * 128 + 1 * (j 1).val = (j 1).val; rw [e1]; omega

/-- An index of the array is in point t's block iff each coordinate is in the block's range on its axis. -/
theorem mem_blk7 (t : Fin cfg9.N) (i : S100000x128.Idx) :
    i ∈ ((cfg9.win 7).blk t).view.set ↔ ∀ a : Fin 2, win9_7.index t a * S5000x128.size a ≤ (i a).val ∧ (i a).val < win9_7.index t a * S5000x128.size a + S5000x128.size a := by
  show i ∈ ((View.whole main_v114).slice (win9_7.rect t)).set ↔ _
  rw [View.set_slice_whole, Rect.mem_set_unit]
  exact Iff.rfl

/-- Row r of the array lies in the block of point r / 5000, which is written back. -/
theorem cover (i : S100000x128.Idx) : ∃ t : Fin cfg9.N, (cfg9.win 7).flush t = true ∧ i ∈ ((cfg9.win 7).blk t).view.set := by
  have hi0 : (i 0).val < 100000 := (i 0).isLt
  have hi1 : (i 1).val < 128 := (i 1).isLt
  have hN : cfg9.N = 20 := N_9
  have ht : (i 0).val / 5000 < cfg9.N := by rw [hN]; omega
  refine ⟨⟨(i 0).val / 5000, ht⟩, flush9_7 _, ?_⟩
  rw [mem_blk7]
  obtain ⟨-, -, -, -, -, -, -, -, -, -, -, -, -, -, e0, e1⟩ := idx_facts ⟨(i 0).val / 5000, ht⟩
  intro a
  match a with
  | ⟨0, _⟩ =>
    show win9_7.index ⟨(i 0).val / 5000, ht⟩ (0 : Fin 2) * 5000 ≤ (i 0).val ∧ (i 0).val < win9_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win9_7.index ⟨(i 0).val / 5000, ht⟩ (1 : Fin 2) * 128 ≤ (i 1).val ∧ (i 1).val < win9_7.index ⟨(i 0).val / 5000, ht⟩ (1 : Fin 2) * 128 + 128
    rw [e1]; omega

/-- Two arrays over a 5000×128 block are equal when they agree at every (row, column). -/
theorem ext_blk (Y Z : S5000x128.Idx → EReal) (h : ∀ (p : Fin 5000) (q : Fin 128), Y (ix2 p q) = Z (ix2 p q)) : Y = Z :=
  funext fun j => by rw [eq_ix2 j]; exact h _ _

/-- The body's value on blocks that are rows of the arrays: the normalised, clamped entry added to the layer's input, at the array's row. -/
theorem blk_eq (x0 : Vec Ideal S5000x128 .f32) (x1 x2 x3 x4 x5 : Vec Ideal S1x128 .f32) (x6 : Vec Ideal S5000x128 .f32)
    (A : S100000x128.Idx → EReal) (B M Vr G Be : S1x128.Idx → EReal) (R : S100000x128.Idx → EReal)
    (r : Fin 100000) (p : Fin 5000) (q : Fin 128)
    (h0 : x0 (ix2 p q) = A (ix2 r q)) (h6 : x6 (ix2 p q) = R (ix2 r q))
    (h1 : x1 = B) (h2 : x2 = M) (h3 : x3 = Vr) (h4 : x4 = G) (h5 : x5 = Be) :
    k9_pay1 (F := Ideal) x0 x1 x2 x3 x4 x5 x6 (ix2 p q) = Cert.Gcn.bnReluRes A B M Vr G Be R (ix2 r q) := by
  subst h1 h2 h3 h4 h5
  rw [pay_apply, h0, h6]
  rfl

variable (V : (c : Dev nD) → (b : Ref sig .tc) → Buf (Elt Ideal) ((c : Thread nD τ).loc b))

set_option maxHeartbeats 1000000 in
/-- What point t writes back is block t of the normalised array of the arrays the region finds. -/
theorem flushed_eq (c : Dev nD) (t : Fin cfg9.N) :
    (dat9 (F := Ideal) V c).flushed 7 t = ((cfg9.win 7).blk t).view.read (Elt Ideal)
      (Cert.Gcn.bnReluRes (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6))) := by
  show (cfg9.win 7).cut (grid9.coords t) ((dat9 V c).after 7 t) = _
  rw [after9_7]
  unfold out9_7
  rw [View.canon_unit_zero hz]
  simp only [View.ld_unit_zero (S := S5000x128) hz, View.ld_unit_zero (S := S1x128) hz]
  refine ext_blk _ _ fun p q => ?_
  have hN : cfg9.N = 20 := N_9
  have htl : t.val < 20 := hN ▸ t.isLt
  have hr : 5000 * t.val + p.val < 100000 := by have := p.isLt; omega
  exact (blk_eq (iblk9 V c 0 t) (iblk9 V c 1 t) (iblk9 V c 2 t) (iblk9 V c 3 t) (iblk9 V c 4 t) (iblk9 V c 5 t) (iblk9 V c 6 t)
    (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) ⟨5000 * t.val + p.val, hr⟩ p q
    (read_blk0 (V c (Pipeline.arrRef spec9 0)) t p q ⟨5000 * t.val + p.val, hr⟩ rfl)
    (read_blk6 (V c (Pipeline.arrRef spec9 6)) t p q ⟨5000 * t.val + p.val, hr⟩ rfl)
    (read_row1 (V c (Pipeline.arrRef spec9 1)) t)
    (read_row2 (V c (Pipeline.arrRef spec9 2)) t)
    (read_row3 (V c (Pipeline.arrRef spec9 3)) t)
    (read_row4 (V c (Pipeline.arrRef spec9 4)) t)
    (read_row5 (V c (Pipeline.arrRef spec9 5)) t)).trans
    (read_blk7 _ t p q ⟨5000 * t.val + p.val, hr⟩ rfl).symm

/-- The array after the region: the normalised, clamped array added to the layer's input, of the arrays the region finds. -/
theorem bnres9 (c : Dev nD) :
    (Cert.KernelIdeal.Gen.dat9 (F := Ideal) V c).arrAt 7 cfg9.N
      = Cert.Gcn.bnReluRes (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) :=
  (dat9 (F := Ideal) V c).arrAt_eq_of_cover 7 _ (fun t _ => flushed_eq V c t) cover

end Cert.KernelIdeal.BnResValue9

end
-- ==== Proof.Stats8.lean ====
/-
  The batch-statistics region, read as a value. Over a grid of 20 points the region visits the 20 blocks of 5000
  rows of a 100000×128 array a, together with one 1×128 row b, and keeps two 1×128 accumulators: at the first point
  both are set to zero, and at every point the column sums of (a + b) over the block's rows are added to the first
  and the column sums of (a + b)² to the second. Both accumulators' block is block (0, 0) of their 1×128 array at
  every point, and it is written back once, after the last point.

  Proved here, over the extended reals: after the region the first array holds, at lane l, the sum over all 100000
  rows r of a(r, l) + b(0, l), and the second the sum of the squares.

  The steps: what each case of the body leaves in each accumulator is one covering store of an accumulating term
  (four short lemmas); that term read at a lane is "what was held, plus the sum over the block's 5000 rows" (a lane
  reduction is a sum over the reduced axis; the added row is broadcast over the rows); row r of block t is row
  5000·t + r of the array; so after point n an accumulator holds the sum over rows 0 … 5000·(n + 1) − 1, by
  induction on n (sums over initial segments of the naturals, split at 5000·(n + 1)); after point 19 that is the sum
  over all rows; and the last point's block covers the 1×128 array, so the array ends at what that point wrote back.
-/
import proofs.«136606_j68719476736452_2_alg».proof.Proof.Gen.KernelIdeal.Frame
import proofs.«136606_j68719476736452_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.StatsValue8

open Cert.KernelIdeal Cert.KernelIdeal.Gen

section Pieces
variable {F : FTy → Type} [FloatOps F]

theorem hz : (![0, 0] : Fin 2 → Nat) = fun _ => 0 := funext fun a => by fin_cases a <;> rfl

/-- At a later point the first output's buffer, holding xo2, is left at the accumulating payload of the two input
    blocks and xo2: the body's one covering store, its loads reading the whole buffers. -/
theorem out_B_2 (c : Dev nD) (i : grid8.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond8_0 i)
    (x0 : Vec F S5000x128 .f32) (x1 xo2 xo3 : Vec F S1x128 .f32) :
    out8_B_2 c i a1 h1 a2 h2 a3 h3 a4 h4 hc x0 x1 xo2 xo3 = k8_pay4 x0 x1 xo2 := by
  unfold out8_B_2
  rw [View.read_writes_eq_canon _ _ _ (cover8_B_2 c i a1 h1 a2 h2 a3 h3 a4 h4 hc x0 x1 xo2 xo3)]
  unfold kernelRun8_B
  dsimp only
  rw [View.canon_unit_zero hz]
  simp only [View.readAt_eq_ld, h1.read_unread, h2.read_unread, h3.read_unread, View.ld_unit_zero (S := S5000x128) hz,
    View.ld_unit_zero (S := S1x128) hz]

/-- The same for the second output, holding xo3. -/
theorem out_B_3 (c : Dev nD) (i : grid8.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond8_0 i)
    (x0 : Vec F S5000x128 .f32) (x1 xo2 xo3 : Vec F S1x128 .f32) :
    out8_B_3 c i a1 h1 a2 h2 a3 h3 a4 h4 hc x0 x1 xo2 xo3 = k8_pay5 x0 x1 xo3 := by
  unfold out8_B_3
  rw [View.read_writes_eq_canon _ _ _ (cover8_B_3 c i a1 h1 a2 h2 a3 h3 a4 h4 hc x0 x1 xo2 xo3)]
  unfold kernelRun8_B
  dsimp only
  rw [View.canon_unit_zero hz]
  simp only [View.readAt_eq_ld, h1.read_unread, h2.read_unread, h4.read_unread, View.ld_unit_zero (S := S5000x128) hz,
    View.ld_unit_zero (S := S1x128) hz]

/-- At the first point the body stores the zero block into the first output, reads it back, and leaves the
    accumulating payload over that zero block. -/
theorem out_A_2 (c : Dev nD) (i : grid8.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond8_0 i)
    (x0 : Vec F S5000x128 .f32) (x1 : Vec F S1x128 .f32) :
    out8_A_2 c i a1 h1 a2 h2 a3 h3 a4 h4 hc x0 x1 = k8_pay4 x0 x1 (k8_pay1 (F := F)) := by
  unfold out8_A_2
  rw [View.read_writes_eq_canon _ _ _ (cover8_A_2 c i a1 h1 a2 h2 a3 h3 a4 h4 hc x0 x1)]
  unfold kernelRun8_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S1x128) hz]

/-- The same for the second output. -/
theorem out_A_3 (c : Dev nD) (i : grid8.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond8_0 i)
    (x0 : Vec F S5000x128 .f32) (x1 : Vec F S1x128 .f32) :
    out8_A_3 c i a1 h1 a2 h2 a3 h3 a4 h4 hc x0 x1 = k8_pay5 x0 x1 (k8_pay2 (F := F)) := by
  unfold out8_A_3
  rw [View.read_writes_eq_canon _ _ _ (cover8_A_3 c i a1 h1 a2 h2 a3 h3 a4 h4 hc x0 x1)]
  unfold kernelRun8_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S1x128) hz]

end Pieces

/-- The zero word read as an extended real is zero. -/
theorem zero_word : (Scalar.ofBits (F := Ideal) .f32 0x00000000#32 : Ideal .f32) = (0 : EReal) := by
  show Ideal.ofBits .f32 0x00000000#32 = 0
  simp [Ideal.ofBits, Ideal.ieee]

/-- The reset block is zero everywhere. -/
theorem pay1_apply (j : S1x128.Idx) : (k8_pay1 (F := Ideal) : FVec Ideal S1x128 .f32) j = (0 : EReal) := by
  unfold k8_pay1
  exact zero_word

/-- The second output's reset block is zero everywhere. -/
theorem pay2_apply (j : S1x128.Idx) : (k8_pay2 (F := Ideal) : FVec Ideal S1x128 .f32) j = (0 : EReal) := by
  unfold k8_pay2
  exact zero_word

/-- Entry (r, l) of the block with the row added: x(r, l) + b(0, l). -/
theorem pay3_apply (x0 : Vec Ideal S5000x128 .f32) (x1 : Vec Ideal S1x128 .f32) (r : Fin 5000) (l : Fin 128) :
    (k8_pay3 x0 x1 : FVec Ideal S5000x128 .f32) (ix2 r l) = (x0 (ix2 r l) + x1 (ix2 (0 : Fin 1) l) : EReal) := by
  unfold k8_pay3
  rw [shapeCast_self, shapeCast_self]
  refine (addf_apply _ _ _).trans ?_
  exact congrArg (fun y : EReal => x0 (ix2 r l) + y) (broadcastTo_1b_ab_apply x1 broadcasts_S1x128_S5000x128 r l)

/-- A sum over the rows of a 5000×128 block, at lane l: the sum over r of the block at (r, l). -/
theorem red_apply (src : FVec Ideal S5000x128 .f32) (hφ : FKind.Formats .f32)
    (hacc : (0x00000000#32 : BitVec (FTy.bits .f32)) = FKind.add.neutral .f32 hφ) (l : Fin 128) :
    multiReduction .add [0] S128 src 0x00000000#32 reduces_S5000x128_S128 hφ hacc (ix1 l)
      = ∑ r : Fin 5000, (src (ix2 r l) : EReal) := by
  refine (Ideal.multiReduction_add_single src 0x00000000#32 reduces_S5000x128_S128 hφ hacc (ix1 l)).trans ?_
  show ∑ r : Fin 5000, src (reduces_S5000x128_S128.lift (ix1 l) r) = _
  refine Finset.sum_congr rfl fun r _ => congrArg src ?_
  funext a
  match a with
  | ⟨0, _⟩ => rfl
  | ⟨1, _⟩ => rfl

/-- The first output after a point: what it held, plus the column sums of the block with the row added. -/
theorem pay4_apply (x0 : Vec Ideal S5000x128 .f32) (x1 acc : Vec Ideal S1x128 .f32) (u : Fin 1) (l : Fin 128) :
    (k8_pay4 x0 x1 acc : FVec Ideal S1x128 .f32) (ix2 u l)
      = (acc (ix2 u l) + ∑ r : Fin 5000, (x0 (ix2 r l) + x1 (ix2 (0 : Fin 1) l)) : EReal) := by
  unfold k8_pay4
  rw [shapeCast_self]
  refine (addf_apply _ _ _).trans ?_
  refine congrArg (fun y : EReal => acc (ix2 u l) + y) ?_
  refine (shapeCast_a_1a_apply _ shapeCasts_S128_S1x128 u l).trans ?_
  refine (red_apply _ _ _ l).trans ?_
  exact Finset.sum_congr rfl fun r _ => pay3_apply x0 x1 r l

/-- The second output after a point: what it held, plus the column sums of the squares. -/
theorem pay5_apply (x0 : Vec Ideal S5000x128 .f32) (x1 acc : Vec Ideal S1x128 .f32) (u : Fin 1) (l : Fin 128) :
    (k8_pay5 x0 x1 acc : FVec Ideal S1x128 .f32) (ix2 u l)
      = (acc (ix2 u l) + ∑ r : Fin 5000, (x0 (ix2 r l) + x1 (ix2 (0 : Fin 1) l)) * (x0 (ix2 r l) + x1 (ix2 (0 : Fin 1) l)) : EReal) := by
  unfold k8_pay5
  rw [shapeCast_self]
  refine (addf_apply _ _ _).trans ?_
  refine congrArg (fun y : EReal => acc (ix2 u l) + y) ?_
  refine (shapeCast_a_1a_apply _ shapeCasts_S128_S1x128 u l).trans ?_
  refine (red_apply _ _ _ l).trans ?_
  refine Finset.sum_congr rfl fun r _ => ?_
  refine (mulf_apply _ _ _).trans ?_
  rw [pay3_apply x0 x1 r l]

/-- Column l of an array on 100000 rows as a function of a natural row number, zero past the last row. -/
def colN (z : (⟨2, ![100000, 128]⟩ : Shape).Idx → EReal) (l : Fin 128) (r : ℕ) : EReal :=
  if h : r < 100000 then z (ix2 ⟨r, h⟩ l) else 0

/-- The sum of a column over all rows is the sum of colN over the first 100000 naturals. -/
theorem sum_rows_eq_range (z : (⟨2, ![100000, 128]⟩ : Shape).Idx → EReal) (l : Fin 128) :
    ∑ r : Fin 100000, z (ix2 r l) = ∑ r ∈ Finset.range 100000, colN z l r := by
  rw [← Fin.sum_univ_eq_sum_range (colN z l) 100000]
  refine Finset.sum_congr rfl fun r _ => ?_
  unfold colN
  rw [dif_pos r.isLt]

/-- The rows of block n (rows 5000·n … 5000·n + 4999), summed: the sum of colN over that run of naturals. -/
theorem block_sum (z : (⟨2, ![100000, 128]⟩ : Shape).Idx → EReal) (l : Fin 128) (n : ℕ) (hn : n < 20) (g : Fin 5000 → EReal)
    (hg : ∀ r : Fin 5000, g r = z (ix2 (⟨5000 * n + r.val, by have := r.isLt; omega⟩ : Fin 100000) l)) :
    ∑ r : Fin 5000, g r = ∑ k ∈ Finset.range 5000, colN z l (5000 * n + k) := by
  rw [← Fin.sum_univ_eq_sum_range (fun k => colN z l (5000 * n + k)) 5000]
  refine Finset.sum_congr rfl fun r _ => ?_
  rw [hg r]
  unfold colN
  rw [dif_pos (by have := r.isLt; omega)]

/-- The running sum over the first n + 1 blocks, extended by block n + 1. -/
theorem run_succ (f : ℕ → EReal) (n : ℕ) :
    ∑ r ∈ Finset.range (5000 * (n + 1)), f r + ∑ k ∈ Finset.range 5000, f (5000 * (n + 1) + k)
      = ∑ r ∈ Finset.range (5000 * (n + 1 + 1)), f r := by
  rw [show 5000 * (n + 1 + 1) = 5000 * (n + 1) + 5000 from by ring, Finset.sum_range_add]

/-- The first block alone, from zero. -/
theorem run_zero (f : ℕ → EReal) :
    (0 : EReal) + ∑ k ∈ Finset.range 5000, f (5000 * 0 + k) = ∑ r ∈ Finset.range (5000 * (0 + 1)), f r := by
  rw [zero_add]
  refine Finset.sum_congr rfl fun k _ => ?_
  rw [Nat.mul_zero, Nat.zero_add]

section Blocks
variable (V : (c : Dev nD) → (b : Ref sig .tc) → Buf (Elt Ideal) ((c : Thread nD τ).loc b))

/-- The index maps over the grid: the first input's block index is (t, 0); the row's and both outputs' are (0, 0). -/
theorem idx_facts : ∀ t : Fin cfg8.N,
    (win8_0.index t 0 = t.val ∧ win8_0.index t 1 = 0) ∧ (win8_1.index t 0 = 0 ∧ win8_1.index t 1 = 0)
      ∧ (win8_2.index t 0 = 0 ∧ win8_2.index t 1 = 0) ∧ (win8_3.index t 0 = 0 ∧ win8_3.index t 1 = 0) :=
  (by decide +kernel : ∀ t : Fin grid8.N,
    (win8_0.index t 0 = t.val ∧ win8_0.index t 1 = 0) ∧ (win8_1.index t 0 = 0 ∧ win8_1.index t 1 = 0)
      ∧ (win8_2.index t 0 = 0 ∧ win8_2.index t 1 = 0) ∧ (win8_3.index t 0 = 0 ∧ win8_3.index t 1 = 0))

/-- Entry (r, l) of the first input's block at point t is the array's entry at row 5000·t + r, lane l. -/
theorem blk0_read (c : Dev nD) (t : Fin cfg8.N) (ht : t.val < 20) (r : Fin 5000) (l : Fin 128) :
    (iblk8 (F := Ideal) V c 0 t : Vec Ideal S5000x128 .f32) (ix2 r l)
      = (V c (Pipeline.arrRef spec8 0) : S100000x128.Idx → EReal) (ix2 (⟨5000 * t.val + r.val, by have := r.isLt; omega⟩ : Fin 100000) l) := by
  obtain ⟨⟨i0, i1⟩, -⟩ := idx_facts t
  unfold iblk8
  rw [View.read_apply]
  show V c (Pipeline.arrRef spec8 0) _ = V c (Pipeline.arrRef spec8 0) _
  refine congrArg (V c (Pipeline.arrRef spec8 0)) ?_
  funext a
  apply Fin.ext
  match a with
  | ⟨0, _⟩ => show win8_0.index t 0 * 5000 + 1 * r.val = 5000 * t.val + r.val; rw [i0]; omega
  | ⟨1, _⟩ => show win8_0.index t 1 * 128 + 1 * l.val = l.val; rw [i1]; omega

/-- Entry (0, l) of the second input's block at any point is the row's entry at lane l. -/
theorem blk1_read (c : Dev nD) (t : Fin cfg8.N) (l : Fin 128) :
    (iblk8 (F := Ideal) V c 1 t : Vec Ideal S1x128 .f32) (ix2 (0 : Fin 1) l)
      = (V c (Pipeline.arrRef spec8 1) : S1x128.Idx → EReal) (ix2 (0 : Fin 1) l) := by
  obtain ⟨-, ⟨i0, i1⟩, -⟩ := idx_facts t
  unfold iblk8
  rw [View.read_apply]
  show V c (Pipeline.arrRef spec8 1) _ = V c (Pipeline.arrRef spec8 1) _
  refine congrArg (V c (Pipeline.arrRef spec8 1)) ?_
  funext a
  apply Fin.ext
  match a with
  | ⟨0, _⟩ => show win8_1.index t 0 * 1 + 1 * 0 = 0; rw [i0]
  | ⟨1, _⟩ => show win8_1.index t 1 * 128 + 1 * l.val = l.val; rw [i1]; omega

end Blocks

section Run
variable (V : (c : Dev nD) → (b : Ref sig .tc) → Buf (Elt Ideal) ((c : Thread nD τ).loc b))

/-- The node features with the row added to every row: the array whose columns are summed. -/
abbrev Z (c : Dev nD) : Cert.Gcn.Snd.Idx → EReal :=
  Cert.Gcn.addRow (V c (Pipeline.arrRef spec8 0)) (V c (Pipeline.arrRef spec8 1))

/-- Its entrywise square. -/
abbrev Zsq (c : Dev nD) : Cert.Gcn.Snd.Idx → EReal := fun i => Z V c i * Z V c i

/-- The outputs after the first point of a run: the accumulating payloads over the zero blocks. -/
theorem outs_A (c : Dev nD) (t : Fin cfg8.N) (h0 : t.val % 20 = 0) :
    outsAt8 (F := Ideal) V c t.val t.isLt
      = (k8_pay4 (iblk8 V c 0 t) (iblk8 V c 1 t) (k8_pay1 (F := Ideal)), k8_pay5 (iblk8 V c 0 t) (iblk8 V c 1 t) (k8_pay2 (F := Ideal))) := by
  rw [outsAt8_A V c t h0]
  exact Prod.ext
    (out_A_2 (F := Ideal) c (grid8.coords t) (ms8_0 t) (hs8_0 t) (ms8_1 t) (hs8_1 t) (ms8_2 t) (hs8_2 t) (ms8_3 t) (hs8_3 t) ((hcond8_0 t).mpr h0) (iblk8 V c 0 t) (iblk8 V c 1 t))
    (out_A_3 (F := Ideal) c (grid8.coords t) (ms8_0 t) (hs8_0 t) (ms8_1 t) (hs8_1 t) (ms8_2 t) (hs8_2 t) (ms8_3 t) (hs8_3 t) ((hcond8_0 t).mpr h0) (iblk8 V c 0 t) (iblk8 V c 1 t))

/-- The outputs after a later point: the accumulating payloads over what the point before left. -/
theorem outs_B (c : Dev nD) (t : Fin cfg8.N) (h0 : ¬t.val % 20 = 0) :
    outsAt8 (F := Ideal) V c t.val t.isLt
      = (k8_pay4 (iblk8 V c 0 t) (iblk8 V c 1 t) (outsAt8 V c (t.val - 1) (Nat.lt_of_le_of_lt (Nat.sub_le _ _) t.isLt)).1,
         k8_pay5 (iblk8 V c 0 t) (iblk8 V c 1 t) (outsAt8 V c (t.val - 1) (Nat.lt_of_le_of_lt (Nat.sub_le _ _) t.isLt)).2) := by
  rw [outsAt8_B V c t h0]
  exact Prod.ext
    (out_B_2 (F := Ideal) c (grid8.coords t) (ms8_0 t) (hs8_0 t) (ms8_1 t) (hs8_1 t) (ms8_2 t) (hs8_2 t) (ms8_3 t) (hs8_3 t) (fun h => h0 ((hcond8_0 t).mp h)) (iblk8 V c 0 t) (iblk8 V c 1 t)
      (outsAt8 V c (t.val - 1) (Nat.lt_of_le_of_lt (Nat.sub_le _ _) t.isLt)).1 (outsAt8 V c (t.val - 1) (Nat.lt_of_le_of_lt (Nat.sub_le _ _) t.isLt)).2)
    (out_B_3 (F := Ideal) c (grid8.coords t) (ms8_0 t) (hs8_0 t) (ms8_1 t) (hs8_1 t) (ms8_2 t) (hs8_2 t) (ms8_3 t) (hs8_3 t) (fun h => h0 ((hcond8_0 t).mp h)) (iblk8 V c 0 t) (iblk8 V c 1 t)
      (outsAt8 V c (t.val - 1) (Nat.lt_of_le_of_lt (Nat.sub_le _ _) t.isLt)).1 (outsAt8 V c (t.val - 1) (Nat.lt_of_le_of_lt (Nat.sub_le _ _) t.isLt)).2)

/-- Entry (r, l) of block t of the array with the row added (the blocks as plain vectors x0, x1). -/
theorem blk_entry (c : Dev nD) (t : Fin cfg8.N) (ht : t.val < 20) (x0 : Vec Ideal S5000x128 .f32) (x1 : Vec Ideal S1x128 .f32)
    (e0 : x0 = iblk8 (F := Ideal) V c 0 t) (e1 : x1 = iblk8 (F := Ideal) V c 1 t) (r : Fin 5000) (l : Fin 128) :
    (x0 (ix2 r l) + x1 (ix2 (0 : Fin 1) l) : EReal)
      = Z V c (ix2 (⟨5000 * t.val + r.val, by have := r.isLt; omega⟩ : Fin 100000) l) := by
  subst e0 e1
  rw [blk0_read V c t ht r l, blk1_read V c t l]
  rfl

/-- One point's step on the first output, at lane l: what it held plus the rows of block t of column l. -/
theorem step2 (c : Dev nD) (t : Fin cfg8.N) (ht : t.val < 20) (acc : Vec Ideal S1x128 .f32) (u : Fin 1) (l : Fin 128) :
    (k8_pay4 (iblk8 (F := Ideal) V c 0 t) (iblk8 (F := Ideal) V c 1 t) acc : FVec Ideal S1x128 .f32) (ix2 u l)
      = (acc (ix2 u l) + ∑ k ∈ Finset.range 5000, colN (Z V c) l (5000 * t.val + k) : EReal) := by
  refine (pay4_apply (iblk8 (F := Ideal) V c 0 t) (iblk8 (F := Ideal) V c 1 t) acc u l).trans ?_
  exact congrArg (fun y : EReal => acc (ix2 u l) + y)
    (block_sum (Z V c) l t.val ht _ fun r => blk_entry V c t ht _ _ rfl rfl r l)

/-- One point's step on the second output, at lane l: what it held plus the squares of the rows of block t of column l. -/
theorem step3 (c : Dev nD) (t : Fin cfg8.N) (ht : t.val < 20) (acc : Vec Ideal S1x128 .f32) (u : Fin 1) (l : Fin 128) :
    (k8_pay5 (iblk8 (F := Ideal) V c 0 t) (iblk8 (F := Ideal) V c 1 t) acc : FVec Ideal S1x128 .f32) (ix2 u l)
      = (acc (ix2 u l) + ∑ k ∈ Finset.range 5000, colN (Zsq V c) l (5000 * t.val + k) : EReal) := by
  refine (pay5_apply (iblk8 (F := Ideal) V c 0 t) (iblk8 (F := Ideal) V c 1 t) acc u l).trans ?_
  exact congrArg (fun y : EReal => acc (ix2 u l) + y)
    (block_sum (Zsq V c) l t.val ht _ fun r =>
      congrArg₂ (fun a b : EReal => a * b) (blk_entry V c t ht _ _ rfl rfl r l) (blk_entry V c t ht _ _ rfl rfl r l))

/-- THE INVARIANT. After point n the first output holds, at lane l, the sum of column l of the array with the row
    added over the rows of blocks 0 … n, and the second the sum of the squares: by induction on the point. -/
theorem outsAt_eq (c : Dev nD) : ∀ (n : ℕ) (h : n < cfg8.N) (u : Fin 1) (l : Fin 128),
    ((outsAt8 (F := Ideal) V c n h).1 (ix2 u l) : EReal) = ∑ r ∈ Finset.range (5000 * (n + 1)), colN (Z V c) l r
      ∧ ((outsAt8 (F := Ideal) V c n h).2 (ix2 u l) : EReal) = ∑ r ∈ Finset.range (5000 * (n + 1)), colN (Zsq V c) l r
  | 0, h, u, l => by
    have hN : cfg8.N = 20 := N_8
    have hA := outs_A V c ⟨0, h⟩ (Nat.zero_mod 20)
    dsimp only at hA
    rw [hA]
    dsimp only
    constructor
    · rw [step2 V c ⟨0, h⟩ (show (0 : ℕ) < 20 by decide) _ u l, pay1_apply]
      exact run_zero _
    · rw [step3 V c ⟨0, h⟩ (show (0 : ℕ) < 20 by decide) _ u l, pay2_apply]
      exact run_zero _
  | n + 1, h, u, l => by
    have hN : cfg8.N = 20 := N_8
    have hn : n + 1 < 20 := by omega
    have hB := outs_B V c ⟨n + 1, h⟩ (by dsimp only; omega)
    dsimp only [Nat.add_sub_cancel] at hB
    rw [hB]
    dsimp only
    obtain ⟨ih2, ih3⟩ := outsAt_eq c n (Nat.lt_of_succ_lt h) u l
    constructor
    · rw [step2 V c ⟨n + 1, h⟩ hn _ u l]
      refine Eq.trans ?_ (run_succ (colN (Z V c) l) n)
      exact congrArg (fun y : EReal => y + ∑ k ∈ Finset.range 5000, colN (Z V c) l (5000 * (n + 1) + k)) ih2
    · rw [step3 V c ⟨n + 1, h⟩ hn _ u l]
      refine Eq.trans ?_ (run_succ (colN (Zsq V c) l) n)
      exact congrArg (fun y : EReal => y + ∑ k ∈ Finset.range 5000, colN (Zsq V c) l (5000 * (n + 1) + k)) ih3

end Run

section Final
variable (V : (c : Dev nD) → (b : Ref sig .tc) → Buf (Elt Ideal) ((c : Thread nD τ).loc b))

/-- The last point of the grid. -/
def tLast : Fin cfg8.N := ⟨19, by rw [show cfg8.N = 20 from N_8]; decide⟩

/-- After the last point the first output holds the column sums of the array with the row added. -/
theorem last_fst (c : Dev nD) (t : Fin cfg8.N) (h19 : t.val = 19) :
    ((outsAt8 (F := Ideal) V c t.val t.isLt).1 : S1x128.Idx → EReal) = Cert.Gcn.colSum (Z V c) := by
  funext j
  obtain ⟨n, hn⟩ := t
  dsimp only at h19
  subst h19
  rw [eq_ix2 j]
  refine ((outsAt_eq V c 19 hn (j 0) (j 1)).1).trans ?_
  show _ = Cert.Gcn.colSumAt (Z V c) (j 1)
  unfold Cert.Gcn.colSumAt
  exact (sum_rows_eq_range (Z V c) (j 1)).symm

/-- After the last point the second output holds the column sums of its squares. -/
theorem last_snd (c : Dev nD) (t : Fin cfg8.N) (h19 : t.val = 19) :
    ((outsAt8 (F := Ideal) V c t.val t.isLt).2 : S1x128.Idx → EReal) = Cert.Gcn.colSumSq (Z V c) := by
  funext j
  obtain ⟨n, hn⟩ := t
  dsimp only at h19
  subst h19
  rw [eq_ix2 j]
  refine ((outsAt_eq V c 19 hn (j 0) (j 1)).2).trans ?_
  show _ = Cert.Gcn.colSumAt (Zsq V c) (j 1)
  unfold Cert.Gcn.colSumAt
  exact (sum_rows_eq_range (Zsq V c) (j 1)).symm

/-- The one write-back of the first output, at the last point, writes the column sums: block (0, 0) of the 1×128
    array read through zero offsets is the array. -/
theorem flushed_eq2 (c : Dev nD) (t : Fin cfg8.N) (hf : (cfg8.win 2).flush t = true) :
    (dat8 (F := Ideal) V c).flushed 2 t = ((cfg8.win 2).blk t).view.read (Elt Ideal) (Cert.Gcn.colSum (Z V c)) := by
  have hN : cfg8.N = 20 := N_8
  have h19 : t.val = 19 := by have := (flush8_2 t).mp hf; have := t.isLt; omega
  obtain ⟨-, -, ⟨i0, i1⟩, -⟩ := idx_facts t
  show (cfg8.win 2).cut (grid8.coords t) ((dat8 (F := Ideal) V c).after 2 t) = _
  rw [after8_2, last_fst V c t h19]
  have hz' : (fun a => win8_2.index t a * (Pipeline.arrRef spec8 2).ty.shape.size a) = fun _ => 0 := funext fun a => by
    match a with
    | ⟨0, _⟩ => show win8_2.index t 0 * 1 = 0; rw [i0]
    | ⟨1, _⟩ => show win8_2.index t 1 * 128 = 0; rw [i1]
  exact (Memref.read_access_unit_zero (Elt Ideal) (Pipeline.arrRef spec8 2) hz' (fun a => by rw [congrFun hz' a]; simp) (Cert.Gcn.colSum (Z V c))).symm

/-- The one write-back of the second output, at the last point, writes the column sums of the squares. -/
theorem flushed_eq3 (c : Dev nD) (t : Fin cfg8.N) (hf : (cfg8.win 3).flush t = true) :
    (dat8 (F := Ideal) V c).flushed 3 t = ((cfg8.win 3).blk t).view.read (Elt Ideal) (Cert.Gcn.colSumSq (Z V c)) := by
  have hN : cfg8.N = 20 := N_8
  have h19 : t.val = 19 := by have := (flush8_3 t).mp hf; have := t.isLt; omega
  obtain ⟨-, -, -, ⟨i0, i1⟩⟩ := idx_facts t
  show (cfg8.win 3).cut (grid8.coords t) ((dat8 (F := Ideal) V c).after 3 t) = _
  rw [after8_3, last_snd V c t h19]
  have hz' : (fun a => win8_3.index t a * (Pipeline.arrRef spec8 3).ty.shape.size a) = fun _ => 0 := funext fun a => by
    match a with
    | ⟨0, _⟩ => show win8_3.index t 0 * 1 = 0; rw [i0]
    | ⟨1, _⟩ => show win8_3.index t 1 * 128 = 0; rw [i1]
  exact (Memref.read_access_unit_zero (Elt Ideal) (Pipeline.arrRef spec8 3) hz' (fun a => by rw [congrFun hz' a]; simp) (Cert.Gcn.colSumSq (Z V c))).symm

/-- THE FIRST OUTPUT after the region: the column sums of the first input with the second input's row added to every
    row. The last point's block is the whole 1×128 array, so what that point writes back is the array. -/
theorem sum8 (c : Dev nD) :
    (Cert.KernelIdeal.Gen.dat8 (F := Ideal) V c).arrAt 2 cfg8.N
      = Cert.Gcn.colSum (Cert.Gcn.addRow (V c (Pipeline.arrRef spec8 0)) (V c (Pipeline.arrRef spec8 1))) :=
  (dat8 (F := Ideal) V c).arrAt_eq_of_cover 2 (Cert.Gcn.colSum (Z V c)) (flushed_eq2 V c) fun i =>
    ⟨tLast, (flush8_2 tLast).mpr rfl, by
      obtain ⟨-, -, ⟨i0, i1⟩, -⟩ := idx_facts tLast
      show i ∈ ((View.whole (Pipeline.arrRef spec8 2)).slice (win8_2.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win8_2.index tLast 0 * 1 ≤ (i 0 : Nat) ∧ (i 0 : Nat) < win8_2.index tLast 0 * 1 + 1
        rw [i0]; omega
      | ⟨1, _⟩ =>
        show win8_2.index tLast 1 * 128 ≤ (i 1 : Nat) ∧ (i 1 : Nat) < win8_2.index tLast 1 * 128 + 128
        rw [i1]; omega⟩

/-- THE SECOND OUTPUT after the region: the column sums of the squares of the same array. -/
theorem sumsq8 (c : Dev nD) :
    (Cert.KernelIdeal.Gen.dat8 (F := Ideal) V c).arrAt 3 cfg8.N
      = Cert.Gcn.colSumSq (Cert.Gcn.addRow (V c (Pipeline.arrRef spec8 0)) (V c (Pipeline.arrRef spec8 1))) :=
  (dat8 (F := Ideal) V c).arrAt_eq_of_cover 3 (Cert.Gcn.colSumSq (Z V c)) (flushed_eq3 V c) fun i =>
    ⟨tLast, (flush8_3 tLast).mpr rfl, by
      obtain ⟨-, -, -, ⟨i0, i1⟩⟩ := idx_facts tLast
      show i ∈ ((View.whole (Pipeline.arrRef spec8 3)).slice (win8_3.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win8_3.index tLast 0 * 1 ≤ (i 0 : Nat) ∧ (i 0 : Nat) < win8_3.index tLast 0 * 1 + 1
        rw [i0]; omega
      | ⟨1, _⟩ =>
        show win8_3.index tLast 1 * 128 ≤ (i 1 : Nat) ∧ (i 1 : Nat) < win8_3.index tLast 1 * 128 + 128
        rw [i1]; omega⟩

end Final

end Cert.KernelIdeal.StatsValue8

end
-- ==== Proof.KFoldL1.lean ====
/-
  The kernel program's buffers through the second graph-convolution layer, boundary by boundary: the weights cut out of
  their stacks, the linear map of the layer's input, the aggregate along the edges, its column statistics, and the
  normalised, clamped aggregate added to the layer's input. A buffer no segment writes keeps its contents from boundary
  to boundary; a region's output array is the region's whole-array function of its operand arrays.
-/
import proofs.«136606_j68719476736452_2_alg».proof.Proof.Gen.KernelIdeal.Frame
import proofs.«136606_j68719476736452_2_alg».proof.Proof.Spec
import proofs.«136606_j68719476736452_2_alg».proof.Proof.KRaw
import proofs.«136606_j68719476736452_2_alg».proof.Proof.KOps
import proofs.«136606_j68719476736452_2_alg».proof.Proof.Mm7
import proofs.«136606_j68719476736452_2_alg».proof.Proof.BnRes9
import proofs.«136606_j68719476736452_2_alg».proof.Proof.Stats8
import proofs.«136606_j68719476736452_2_alg».proof.Proof.Agg
import Idealize.ShloMosaic.Lib.StableHlo.Run
import Idealize.ShloMosaic.Lib.ValueIdx
import Idealize.ShloMosaic.Lib.Pipeline.Value
set_option maxRecDepth 16384

noncomputable section

namespace Cert.KernelIdeal.FoldL1

open Cert.KernelIdeal Cert.KernelIdeal.Gen Cert.Gcn
open Idealize.ShloMosaic Idealize.ShloMosaic.TcCoe Idealize.ShloMosaic.ValueIdx
open Idealize.SL.Sem

/-- Equal operands give equal linear maps. -/
theorem linear_congr {x x' : Snd.Idx → EReal} {w w' : Sdd.Idx → EReal} {b b' : Srow.Idx → EReal}
    (hx : x = x') (hw : w = w') (hb : b = b') : linear x w b = linear x' w' b' := by
  subst hx hw hb; rfl

/-- Equal operands give equal normalised arrays. -/
theorem bnReluRes_congr {a a' : Snd.Idx → EReal} {b b' mu mu' v v' g g' be be' : Srow.Idx → EReal} {r r' : Snd.Idx → EReal}
    (ha : a = a') (hb : b = b') (hmu : mu = mu') (hv : v = v') (hg : g = g') (hbe : be = be') (hr : r = r') :
    bnReluRes a b mu v g be r = bnReluRes a' b' mu' v' g' be' r' := by
  subst ha hb hmu hv hg hbe hr; rfl

/-- Equal edge lists and weights give equal aggregates. -/
theorem aggOps_congr {s s' d d' : IVec S640000 32} {e e' : FVec Ideal S640000x1 .f32} (x : FVec Ideal S100000x128 .f32)
    (hs : s = s') (hd : d = d') (he : e = e') : Cert.KernelIdeal.Agg.aggOps s d e x = Cert.KernelIdeal.Agg.aggOps s' d' e' x := by
  subst hs hd he; rfl

variable (m : (ℓ : Loc nD τ sig) → Buf (Elt Ideal) ℓ) (ρ : Dev nD → PrngReg) (c : Dev nD)

/-- A buffer that no operation of a host stretch writes keeps its contents across the stretch. -/
macro "host_carry_L1" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Buffers carried from boundary to boundary -/

/-- The layer's input is not touched by the stretch that cuts the layer's weights out of their stack. -/
theorem v80_15_14 : W15 (F := Ideal) m ρ c (Proc.devRef .tc main_v80) = W14 (F := Ideal) m ρ c (Proc.devRef .tc main_v80) :=
  calc W15 (F := Ideal) m ρ c (Proc.devRef .tc main_v80)
    _ = W14 (F := Ideal) m ρ c (Proc.devRef .tc main_v80) := by host_carry_L1 hostOps7

/-- The layer's input keeps its contents up to the normalisation. -/
theorem v80_19_14 : W19 (F := Ideal) m ρ c (Proc.devRef .tc main_v80) = W14 (F := Ideal) m ρ c (Proc.devRef .tc main_v80) :=
  calc W19 (F := Ideal) m ρ c (Proc.devRef .tc main_v80)
    _ = W18 (F := Ideal) m ρ c (Proc.devRef .tc main_v80) := by host_carry_L1 hostOps9
    _ = W17 (F := Ideal) m ρ c (Proc.devRef .tc main_v80) := W18_of_ne m ρ c main_v80 (by decide)
    _ = W16 (F := Ideal) m ρ c (Proc.devRef .tc main_v80) := by host_carry_L1 hostOps8
    _ = W15 (F := Ideal) m ρ c (Proc.devRef .tc main_v80) := (W16_arr m ρ c 0).trans (((dat7 (F := Ideal) (V15 (F := Ideal) m ρ) c).arrAt_in 0 rfl _).trans (A_eq7 (V15 (F := Ideal) m ρ) c 0))
    _ = W14 (F := Ideal) m ρ c (Proc.devRef .tc main_v80) := by host_carry_L1 hostOps7

/-- The stack of weight matrices is an argument no segment writes. -/
theorem arg9_14_0 : W14 (F := Ideal) m ρ c (Proc.devRef .tc main_arg9) = m ((c : Thread nD τ).loc main_arg9) :=
  calc W14 (F := Ideal) m ρ c (Proc.devRef .tc main_arg9)
    _ = W13 (F := Ideal) m ρ c (Proc.devRef .tc main_arg9) := W14_of_ne m ρ c main_arg9 (by decide)
    _ = W12 (F := Ideal) m ρ c (Proc.devRef .tc main_arg9) := by host_carry_L1 hostOps6
    _ = W11 (F := Ideal) m ρ c (Proc.devRef .tc main_arg9) := W12_of_ne m ρ c main_arg9 (by decide)
    _ = W10 (F := Ideal) m ρ c (Proc.devRef .tc main_arg9) := by host_carry_L1 hostOps5
    _ = W9 (F := Ideal) m ρ c (Proc.devRef .tc main_arg9) := W10_of_ne m ρ c main_arg9 (by decide)
    _ = W8 (F := Ideal) m ρ c (Proc.devRef .tc main_arg9) := by host_carry_L1 hostOps4
    _ = W7 (F := Ideal) m ρ c (Proc.devRef .tc main_arg9) := W8_of_ne m ρ c main_arg9 (by decide)
    _ = W6 (F := Ideal) m ρ c (Proc.devRef .tc main_arg9) := W7_of_ne m ρ c main_arg9 (by decide)
    _ = W5 (F := Ideal) m ρ c (Proc.devRef .tc main_arg9) := by host_carry_L1 hostOps2
    _ = W4 (F := Ideal) m ρ c (Proc.devRef .tc main_arg9) := W5_of_ne m ρ c main_arg9 (by decide)
    _ = W3 (F := Ideal) m ρ c (Proc.devRef .tc main_arg9) := W4_of_ne m ρ c main_arg9 (by decide)
    _ = W2 (F := Ideal) m ρ c (Proc.devRef .tc main_arg9) := by host_carry_L1 hostOps0_2
    _ = W1 (F := Ideal) m ρ c (Proc.devRef .tc main_arg9) := by host_carry_L1 hostOps0_1
    _ = W0 (F := Ideal) m ρ c (Proc.devRef .tc main_arg9) := by host_carry_L1 hostOps0
    _ = m ((c : Thread nD τ).loc main_arg9) := rfl

/-- The zero row keeps its contents from the stretch that writes it. -/
theorem v30_15_3 : W15 (F := Ideal) m ρ c (Proc.devRef .tc main_v30) = W3 (F := Ideal) m ρ c (Proc.devRef .tc main_v30) :=
  calc W15 (F := Ideal) m ρ c (Proc.devRef .tc main_v30)
    _ = W14 (F := Ideal) m ρ c (Proc.devRef .tc main_v30) := by host_carry_L1 hostOps7
    _ = W13 (F := Ideal) m ρ c (Proc.devRef .tc main_v30) := W14_of_ne m ρ c main_v30 (by decide)
    _ = W12 (F := Ideal) m ρ c (Proc.devRef .tc main_v30) := by host_carry_L1 hostOps6
    _ = W11 (F := Ideal) m ρ c (Proc.devRef .tc main_v30) := W12_of_ne m ρ c main_v30 (by decide)
    _ = W10 (F := Ideal) m ρ c (Proc.devRef .tc main_v30) := by host_carry_L1 hostOps5
    _ = W9 (F := Ideal) m ρ c (Proc.devRef .tc main_v30) := (W10_arr m ρ c 2).trans (((dat4 (F := Ideal) (V9 (F := Ideal) m ρ) c).arrAt_in 2 rfl _).trans (A_eq4 (V9 (F := Ideal) m ρ) c 2))
    _ = W8 (F := Ideal) m ρ c (Proc.devRef .tc main_v30) := by host_carry_L1 hostOps4
    _ = W7 (F := Ideal) m ρ c (Proc.devRef .tc main_v30) := W8_of_ne m ρ c main_v30 (by decide)
    _ = W6 (F := Ideal) m ρ c (Proc.devRef .tc main_v30) := (W7_arr m ρ c 1).trans (((dat2 (F := Ideal) (V6 (F := Ideal) m ρ) c).arrAt_in 1 rfl _).trans (A_eq2 (V6 (F := Ideal) m ρ) c 1))
    _ = W5 (F := Ideal) m ρ c (Proc.devRef .tc main_v30) := by host_carry_L1 hostOps2
    _ = W4 (F := Ideal) m ρ c (Proc.devRef .tc main_v30) := (W5_arr m ρ c 1).trans (((dat1 (F := Ideal) (V4 (F := Ideal) m ρ) c).arrAt_in 1 rfl _).trans (A_eq1 (V4 (F := Ideal) m ρ) c 1))
    _ = W3 (F := Ideal) m ρ c (Proc.devRef .tc main_v30) := W4_of_ne m ρ c main_v30 (by decide)

/-- The edges' source nodes keep their contents from the stretch that writes them. -/
theorem v1_16_3 : W16 (F := Ideal) m ρ c (Proc.devRef .tc main_v1) = W3 (F := Ideal) m ρ c (Proc.devRef .tc main_v1) :=
  calc W16 (F := Ideal) m ρ c (Proc.devRef .tc main_v1)
    _ = W15 (F := Ideal) m ρ c (Proc.devRef .tc main_v1) := W16_of_ne m ρ c main_v1 (by decide)
    _ = W14 (F := Ideal) m ρ c (Proc.devRef .tc main_v1) := by host_carry_L1 hostOps7
    _ = W13 (F := Ideal) m ρ c (Proc.devRef .tc main_v1) := W14_of_ne m ρ c main_v1 (by decide)
    _ = W12 (F := Ideal) m ρ c (Proc.devRef .tc main_v1) := by host_carry_L1 hostOps6
    _ = W11 (F := Ideal) m ρ c (Proc.devRef .tc main_v1) := W12_of_ne m ρ c main_v1 (by decide)
    _ = W10 (F := Ideal) m ρ c (Proc.devRef .tc main_v1) := by host_carry_L1 hostOps5
    _ = W9 (F := Ideal) m ρ c (Proc.devRef .tc main_v1) := W10_of_ne m ρ c main_v1 (by decide)
    _ = W8 (F := Ideal) m ρ c (Proc.devRef .tc main_v1) := by host_carry_L1 hostOps4
    _ = W7 (F := Ideal) m ρ c (Proc.devRef .tc main_v1) := W8_of_ne m ρ c main_v1 (by decide)
    _ = W6 (F := Ideal) m ρ c (Proc.devRef .tc main_v1) := W7_of_ne m ρ c main_v1 (by decide)
    _ = W5 (F := Ideal) m ρ c (Proc.devRef .tc main_v1) := by host_carry_L1 hostOps2
    _ = W4 (F := Ideal) m ρ c (Proc.devRef .tc main_v1) := W5_of_ne m ρ c main_v1 (by decide)
    _ = W3 (F := Ideal) m ρ c (Proc.devRef .tc main_v1) := W4_of_ne m ρ c main_v1 (by decide)

/-- The edges' target nodes keep their contents from the stretch that writes them. -/
theorem v3_16_3 : W16 (F := Ideal) m ρ c (Proc.devRef .tc main_v3) = W3 (F := Ideal) m ρ c (Proc.devRef .tc main_v3) :=
  calc W16 (F := Ideal) m ρ c (Proc.devRef .tc main_v3)
    _ = W15 (F := Ideal) m ρ c (Proc.devRef .tc main_v3) := W16_of_ne m ρ c main_v3 (by decide)
    _ = W14 (F := Ideal) m ρ c (Proc.devRef .tc main_v3) := by host_carry_L1 hostOps7
    _ = W13 (F := Ideal) m ρ c (Proc.devRef .tc main_v3) := W14_of_ne m ρ c main_v3 (by decide)
    _ = W12 (F := Ideal) m ρ c (Proc.devRef .tc main_v3) := by host_carry_L1 hostOps6
    _ = W11 (F := Ideal) m ρ c (Proc.devRef .tc main_v3) := W12_of_ne m ρ c main_v3 (by decide)
    _ = W10 (F := Ideal) m ρ c (Proc.devRef .tc main_v3) := by host_carry_L1 hostOps5
    _ = W9 (F := Ideal) m ρ c (Proc.devRef .tc main_v3) := W10_of_ne m ρ c main_v3 (by decide)
    _ = W8 (F := Ideal) m ρ c (Proc.devRef .tc main_v3) := by host_carry_L1 hostOps4
    _ = W7 (F := Ideal) m ρ c (Proc.devRef .tc main_v3) := W8_of_ne m ρ c main_v3 (by decide)
    _ = W6 (F := Ideal) m ρ c (Proc.devRef .tc main_v3) := W7_of_ne m ρ c main_v3 (by decide)
    _ = W5 (F := Ideal) m ρ c (Proc.devRef .tc main_v3) := by host_carry_L1 hostOps2
    _ = W4 (F := Ideal) m ρ c (Proc.devRef .tc main_v3) := W5_of_ne m ρ c main_v3 (by decide)
    _ = W3 (F := Ideal) m ρ c (Proc.devRef .tc main_v3) := W4_of_ne m ρ c main_v3 (by decide)

/-- The edge weights keep their contents from the stretch that writes them. -/
theorem v29_16_3 : W16 (F := Ideal) m ρ c (Proc.devRef .tc main_v29) = W3 (F := Ideal) m ρ c (Proc.devRef .tc main_v29) :=
  calc W16 (F := Ideal) m ρ c (Proc.devRef .tc main_v29)
    _ = W15 (F := Ideal) m ρ c (Proc.devRef .tc main_v29) := W16_of_ne m ρ c main_v29 (by decide)
    _ = W14 (F := Ideal) m ρ c (Proc.devRef .tc main_v29) := by host_carry_L1 hostOps7
    _ = W13 (F := Ideal) m ρ c (Proc.devRef .tc main_v29) := W14_of_ne m ρ c main_v29 (by decide)
    _ = W12 (F := Ideal) m ρ c (Proc.devRef .tc main_v29) := by host_carry_L1 hostOps6
    _ = W11 (F := Ideal) m ρ c (Proc.devRef .tc main_v29) := W12_of_ne m ρ c main_v29 (by decide)
    _ = W10 (F := Ideal) m ρ c (Proc.devRef .tc main_v29) := by host_carry_L1 hostOps5
    _ = W9 (F := Ideal) m ρ c (Proc.devRef .tc main_v29) := W10_of_ne m ρ c main_v29 (by decide)
    _ = W8 (F := Ideal) m ρ c (Proc.devRef .tc main_v29) := by host_carry_L1 hostOps4
    _ = W7 (F := Ideal) m ρ c (Proc.devRef .tc main_v29) := W8_of_ne m ρ c main_v29 (by decide)
    _ = W6 (F := Ideal) m ρ c (Proc.devRef .tc main_v29) := W7_of_ne m ρ c main_v29 (by decide)
    _ = W5 (F := Ideal) m ρ c (Proc.devRef .tc main_v29) := by host_carry_L1 hostOps2
    _ = W4 (F := Ideal) m ρ c (Proc.devRef .tc main_v29) := W5_of_ne m ρ c main_v29 (by decide)
    _ = W3 (F := Ideal) m ρ c (Proc.devRef .tc main_v29) := W4_of_ne m ρ c main_v29 (by decide)

/-- The stack of bias vectors is an argument no segment writes. -/
theorem arg10_16_0 : W16 (F := Ideal) m ρ c (Proc.devRef .tc main_arg10) = m ((c : Thread nD τ).loc main_arg10) :=
  calc W16 (F := Ideal) m ρ c (Proc.devRef .tc main_arg10)
    _ = W15 (F := Ideal) m ρ c (Proc.devRef .tc main_arg10) := W16_of_ne m ρ c main_arg10 (by decide)
    _ = W14 (F := Ideal) m ρ c (Proc.devRef .tc main_arg10) := by host_carry_L1 hostOps7
    _ = W13 (F := Ideal) m ρ c (Proc.devRef .tc main_arg10) := W14_of_ne m ρ c main_arg10 (by decide)
    _ = W12 (F := Ideal) m ρ c (Proc.devRef .tc main_arg10) := by host_carry_L1 hostOps6
    _ = W11 (F := Ideal) m ρ c (Proc.devRef .tc main_arg10) := W12_of_ne m ρ c main_arg10 (by decide)
    _ = W10 (F := Ideal) m ρ c (Proc.devRef .tc main_arg10) := by host_carry_L1 hostOps5
    _ = W9 (F := Ideal) m ρ c (Proc.devRef .tc main_arg10) := W10_of_ne m ρ c main_arg10 (by decide)
    _ = W8 (F := Ideal) m ρ c (Proc.devRef .tc main_arg10) := by host_carry_L1 hostOps4
    _ = W7 (F := Ideal) m ρ c (Proc.devRef .tc main_arg10) := W8_of_ne m ρ c main_arg10 (by decide)
    _ = W6 (F := Ideal) m ρ c (Proc.devRef .tc main_arg10) := W7_of_ne m ρ c main_arg10 (by decide)
    _ = W5 (F := Ideal) m ρ c (Proc.devRef .tc main_arg10) := by host_carry_L1 hostOps2
    _ = W4 (F := Ideal) m ρ c (Proc.devRef .tc main_arg10) := W5_of_ne m ρ c main_arg10 (by decide)
    _ = W3 (F := Ideal) m ρ c (Proc.devRef .tc main_arg10) := W4_of_ne m ρ c main_arg10 (by decide)
    _ = W2 (F := Ideal) m ρ c (Proc.devRef .tc main_arg10) := by host_carry_L1 hostOps0_2
    _ = W1 (F := Ideal) m ρ c (Proc.devRef .tc main_arg10) := by host_carry_L1 hostOps0_1
    _ = W0 (F := Ideal) m ρ c (Proc.devRef .tc main_arg10) := by host_carry_L1 hostOps0
    _ = m ((c : Thread nD τ).loc main_arg10) := rfl

/-- The stack of scale vectors is an argument no segment writes. -/
theorem arg11_16_0 : W16 (F := Ideal) m ρ c (Proc.devRef .tc main_arg11) = m ((c : Thread nD τ).loc main_arg11) :=
  calc W16 (F := Ideal) m ρ c (Proc.devRef .tc main_arg11)
    _ = W15 (F := Ideal) m ρ c (Proc.devRef .tc main_arg11) := W16_of_ne m ρ c main_arg11 (by decide)
    _ = W14 (F := Ideal) m ρ c (Proc.devRef .tc main_arg11) := by host_carry_L1 hostOps7
    _ = W13 (F := Ideal) m ρ c (Proc.devRef .tc main_arg11) := W14_of_ne m ρ c main_arg11 (by decide)
    _ = W12 (F := Ideal) m ρ c (Proc.devRef .tc main_arg11) := by host_carry_L1 hostOps6
    _ = W11 (F := Ideal) m ρ c (Proc.devRef .tc main_arg11) := W12_of_ne m ρ c main_arg11 (by decide)
    _ = W10 (F := Ideal) m ρ c (Proc.devRef .tc main_arg11) := by host_carry_L1 hostOps5
    _ = W9 (F := Ideal) m ρ c (Proc.devRef .tc main_arg11) := W10_of_ne m ρ c main_arg11 (by decide)
    _ = W8 (F := Ideal) m ρ c (Proc.devRef .tc main_arg11) := by host_carry_L1 hostOps4
    _ = W7 (F := Ideal) m ρ c (Proc.devRef .tc main_arg11) := W8_of_ne m ρ c main_arg11 (by decide)
    _ = W6 (F := Ideal) m ρ c (Proc.devRef .tc main_arg11) := W7_of_ne m ρ c main_arg11 (by decide)
    _ = W5 (F := Ideal) m ρ c (Proc.devRef .tc main_arg11) := by host_carry_L1 hostOps2
    _ = W4 (F := Ideal) m ρ c (Proc.devRef .tc main_arg11) := W5_of_ne m ρ c main_arg11 (by decide)
    _ = W3 (F := Ideal) m ρ c (Proc.devRef .tc main_arg11) := W4_of_ne m ρ c main_arg11 (by decide)
    _ = W2 (F := Ideal) m ρ c (Proc.devRef .tc main_arg11) := by host_carry_L1 hostOps0_2
    _ = W1 (F := Ideal) m ρ c (Proc.devRef .tc main_arg11) := by host_carry_L1 hostOps0_1
    _ = W0 (F := Ideal) m ρ c (Proc.devRef .tc main_arg11) := by host_carry_L1 hostOps0
    _ = m ((c : Thread nD τ).loc main_arg11) := rfl

/-- The stack of shift vectors is an argument no segment writes. -/
theorem arg12_16_0 : W16 (F := Ideal) m ρ c (Proc.devRef .tc main_arg12) = m ((c : Thread nD τ).loc main_arg12) :=
  calc W16 (F := Ideal) m ρ c (Proc.devRef .tc main_arg12)
    _ = W15 (F := Ideal) m ρ c (Proc.devRef .tc main_arg12) := W16_of_ne m ρ c main_arg12 (by decide)
    _ = W14 (F := Ideal) m ρ c (Proc.devRef .tc main_arg12) := by host_carry_L1 hostOps7
    _ = W13 (F := Ideal) m ρ c (Proc.devRef .tc main_arg12) := W14_of_ne m ρ c main_arg12 (by decide)
    _ = W12 (F := Ideal) m ρ c (Proc.devRef .tc main_arg12) := by host_carry_L1 hostOps6
    _ = W11 (F := Ideal) m ρ c (Proc.devRef .tc main_arg12) := W12_of_ne m ρ c main_arg12 (by decide)
    _ = W10 (F := Ideal) m ρ c (Proc.devRef .tc main_arg12) := by host_carry_L1 hostOps5
    _ = W9 (F := Ideal) m ρ c (Proc.devRef .tc main_arg12) := W10_of_ne m ρ c main_arg12 (by decide)
    _ = W8 (F := Ideal) m ρ c (Proc.devRef .tc main_arg12) := by host_carry_L1 hostOps4
    _ = W7 (F := Ideal) m ρ c (Proc.devRef .tc main_arg12) := W8_of_ne m ρ c main_arg12 (by decide)
    _ = W6 (F := Ideal) m ρ c (Proc.devRef .tc main_arg12) := W7_of_ne m ρ c main_arg12 (by decide)
    _ = W5 (F := Ideal) m ρ c (Proc.devRef .tc main_arg12) := by host_carry_L1 hostOps2
    _ = W4 (F := Ideal) m ρ c (Proc.devRef .tc main_arg12) := W5_of_ne m ρ c main_arg12 (by decide)
    _ = W3 (F := Ideal) m ρ c (Proc.devRef .tc main_arg12) := W4_of_ne m ρ c main_arg12 (by decide)
    _ = W2 (F := Ideal) m ρ c (Proc.devRef .tc main_arg12) := by host_carry_L1 hostOps0_2
    _ = W1 (F := Ideal) m ρ c (Proc.devRef .tc main_arg12) := by host_carry_L1 hostOps0_1
    _ = W0 (F := Ideal) m ρ c (Proc.devRef .tc main_arg12) := by host_carry_L1 hostOps0
    _ = m ((c : Thread nD τ).loc main_arg12) := rfl

/-- The aggregate keeps its contents through the statistics. -/
theorem v95_19_17 : W19 (F := Ideal) m ρ c (Proc.devRef .tc main_v95) = W17 (F := Ideal) m ρ c (Proc.devRef .tc main_v95) :=
  calc W19 (F := Ideal) m ρ c (Proc.devRef .tc main_v95)
    _ = W18 (F := Ideal) m ρ c (Proc.devRef .tc main_v95) := by host_carry_L1 hostOps9
    _ = W17 (F := Ideal) m ρ c (Proc.devRef .tc main_v95) := (W18_arr m ρ c 0).trans (((dat8 (F := Ideal) (V17 (F := Ideal) m ρ) c).arrAt_in 0 rfl _).trans (A_eq8 (V17 (F := Ideal) m ρ) c 0))

/-- The bias row keeps its contents through the statistics. -/
theorem v98_19_17 : W19 (F := Ideal) m ρ c (Proc.devRef .tc main_v98) = W17 (F := Ideal) m ρ c (Proc.devRef .tc main_v98) :=
  calc W19 (F := Ideal) m ρ c (Proc.devRef .tc main_v98)
    _ = W18 (F := Ideal) m ρ c (Proc.devRef .tc main_v98) := by host_carry_L1 hostOps9
    _ = W17 (F := Ideal) m ρ c (Proc.devRef .tc main_v98) := (W18_arr m ρ c 1).trans (((dat8 (F := Ideal) (V17 (F := Ideal) m ρ) c).arrAt_in 1 rfl _).trans (A_eq8 (V17 (F := Ideal) m ρ) c 1))

/-- The scale row keeps its contents through the statistics. -/
theorem v101_19_17 : W19 (F := Ideal) m ρ c (Proc.devRef .tc main_v101) = W17 (F := Ideal) m ρ c (Proc.devRef .tc main_v101) :=
  calc W19 (F := Ideal) m ρ c (Proc.devRef .tc main_v101)
    _ = W18 (F := Ideal) m ρ c (Proc.devRef .tc main_v101) := by host_carry_L1 hostOps9
    _ = W17 (F := Ideal) m ρ c (Proc.devRef .tc main_v101) := W18_of_ne m ρ c main_v101 (by decide)

/-- The shift row keeps its contents through the statistics. -/
theorem v104_19_17 : W19 (F := Ideal) m ρ c (Proc.devRef .tc main_v104) = W17 (F := Ideal) m ρ c (Proc.devRef .tc main_v104) :=
  calc W19 (F := Ideal) m ρ c (Proc.devRef .tc main_v104)
    _ = W18 (F := Ideal) m ρ c (Proc.devRef .tc main_v104) := by host_carry_L1 hostOps9
    _ = W17 (F := Ideal) m ρ c (Proc.devRef .tc main_v104) := W18_of_ne m ρ c main_v104 (by decide)

/-! ## The linear map of the layer's input -/

/-- The layer's weight matrix, cut out of the stack. -/
theorem weight_at15 : W15 (F := Ideal) m ρ c (Proc.devRef .tc main_v82)
    = fun i => (m ((c : Thread nD τ).loc main_arg9) : S3x128x128.Idx → EReal) (ix3 1 (i 0) (i 1)) := by
  refine (Raw.hostOps7_v82 (F := Ideal) (W14 (F := Ideal) m ρ c)).trans ?_
  refine Eq.trans (OpsRead.mat_layer1_eq (W14 (F := Ideal) m ρ c (Proc.devRef .tc main_arg9))) ?_
  exact congrArg (fun (a : S3x128x128.Idx → EReal) => fun (i : Sdd.Idx) => a (ix3 1 (i 0) (i 1))) (arg9_14_0 m ρ c)

/-- The zero row the layer's linear map takes as its bias. -/
theorem zero_at15 : W15 (F := Ideal) m ρ c (Proc.devRef .tc main_v30) = (fun _ => 0 : Srow.Idx → EReal) :=
  (v30_15_3 m ρ c).trans ((Raw.hostOps0_2_v30 (F := Ideal) (W2 (F := Ideal) m ρ c)).trans OpsRead.zero_row_eq)

/-- The layer's input times the layer's weights. -/
theorem hw_at16 : W16 (F := Ideal) m ρ c (Proc.devRef .tc main_v83)
    = linear (W14 (F := Ideal) m ρ c (Proc.devRef .tc main_v80)) (fun i => (m ((c : Thread nD τ).loc main_arg9) : S3x128x128.Idx → EReal) (ix3 1 (i 0) (i 1))) (fun _ => 0) :=
  (W16_arr m ρ c 3).trans ((Cert.KernelIdeal.MmValue7.mm7 (V15 (F := Ideal) m ρ) c).trans
    (linear_congr (v80_15_14 m ρ c) (weight_at15 m ρ c) (zero_at15 m ρ c)))

/-! ## The aggregate and the layer's rows -/

/-- The aggregate: the transformed features gathered along the edges, weighted, and summed into their target nodes. -/
theorem agg_at17 : W17 (F := Ideal) m ρ c (Proc.devRef .tc main_v95)
    = Cert.KernelIdeal.Agg.aggOps (W3 (F := Ideal) m ρ c (Proc.devRef .tc main_v1)) (W3 (F := Ideal) m ρ c (Proc.devRef .tc main_v3)) (W3 (F := Ideal) m ρ c (Proc.devRef .tc main_v29)) (W16 (F := Ideal) m ρ c (Proc.devRef .tc main_v83)) :=
  (Cert.KernelIdeal.Agg.hostOps8_v95_eq (W16 (F := Ideal) m ρ c)).trans
    (aggOps_congr _ (v1_16_3 m ρ c) (v3_16_3 m ρ c) (v29_16_3 m ρ c))

/-- The layer's bias, cut out of its stack and laid out as a row. -/
theorem bias_at17 : W17 (F := Ideal) m ρ c (Proc.devRef .tc main_v98)
    = rowOf (fun j => (m ((c : Thread nD τ).loc main_arg10) : S3x128.Idx → EReal) (ix2 1 (j 0))) := by
  refine (Raw.hostOps8_v98 (F := Ideal) (W16 (F := Ideal) m ρ c)).trans ?_
  refine Eq.trans (OpsRead.row_layer1_eq (W16 (F := Ideal) m ρ c (Proc.devRef .tc main_arg10))) ?_
  exact congrArg (fun (a : S3x128.Idx → EReal) => rowOf (fun j => a (ix2 1 (j 0)))) (arg10_16_0 m ρ c)

/-- The layer's scale, cut out of its stack and laid out as a row. -/
theorem scale_at17 : W17 (F := Ideal) m ρ c (Proc.devRef .tc main_v101)
    = rowOf (fun j => (m ((c : Thread nD τ).loc main_arg11) : S3x128.Idx → EReal) (ix2 1 (j 0))) := by
  refine (Raw.hostOps8_v101 (F := Ideal) (W16 (F := Ideal) m ρ c)).trans ?_
  refine Eq.trans (OpsRead.row_layer1_eq (W16 (F := Ideal) m ρ c (Proc.devRef .tc main_arg11))) ?_
  exact congrArg (fun (a : S3x128.Idx → EReal) => rowOf (fun j => a (ix2 1 (j 0)))) (arg11_16_0 m ρ c)

/-- The layer's shift, cut out of its stack and laid out as a row. -/
theorem shift_at17 : W17 (F := Ideal) m ρ c (Proc.devRef .tc main_v104)
    = rowOf (fun j => (m ((c : Thread nD τ).loc main_arg12) : S3x128.Idx → EReal) (ix2 1 (j 0))) := by
  refine (Raw.hostOps8_v104 (F := Ideal) (W16 (F := Ideal) m ρ c)).trans ?_
  refine Eq.trans (OpsRead.row_layer1_eq (W16 (F := Ideal) m ρ c (Proc.devRef .tc main_arg12))) ?_
  exact congrArg (fun (a : S3x128.Idx → EReal) => rowOf (fun j => a (ix2 1 (j 0)))) (arg12_16_0 m ρ c)

/-! ## The statistics -/

/-- The column sums of the aggregate plus its bias, as the statistics region leaves them. -/
theorem sum_at18 : W18 (F := Ideal) m ρ c (Proc.devRef .tc main_v105_0) = colSum (addRow (W17 (F := Ideal) m ρ c (Proc.devRef .tc main_v95)) (W17 (F := Ideal) m ρ c (Proc.devRef .tc main_v98))) :=
  (W18_arr m ρ c 2).trans (Cert.KernelIdeal.StatsValue8.sum8 (V17 (F := Ideal) m ρ) c)

/-- The column sums of its square. -/
theorem sumsq_at18 : W18 (F := Ideal) m ρ c (Proc.devRef .tc main_v105_1) = colSumSq (addRow (W17 (F := Ideal) m ρ c (Proc.devRef .tc main_v95)) (W17 (F := Ideal) m ρ c (Proc.devRef .tc main_v98))) :=
  (W18_arr m ρ c 3).trans (Cert.KernelIdeal.StatsValue8.sumsq8 (V17 (F := Ideal) m ρ) c)

/-- The column means. -/
theorem mean_at19 : W19 (F := Ideal) m ρ c (Proc.devRef .tc main_v107) = meanRow (addRow (W17 (F := Ideal) m ρ c (Proc.devRef .tc main_v95)) (W17 (F := Ideal) m ρ c (Proc.devRef .tc main_v98))) :=
  (Raw.hostOps9_v107 (F := Ideal) (W18 (F := Ideal) m ρ c)).trans
    (OpsRead.mean_row_eq (addRow (W17 (F := Ideal) m ρ c (Proc.devRef .tc main_v95)) (W17 (F := Ideal) m ρ c (Proc.devRef .tc main_v98))) (W18 (F := Ideal) m ρ c (Proc.devRef .tc main_v105_0)) (sum_at18 m ρ c))

/-- The column variances, in one pass. -/
theorem var_at19 : W19 (F := Ideal) m ρ c (Proc.devRef .tc main_v113) = varOnePassRow (addRow (W17 (F := Ideal) m ρ c (Proc.devRef .tc main_v95)) (W17 (F := Ideal) m ρ c (Proc.devRef .tc main_v98))) :=
  (Raw.hostOps9_v113 (F := Ideal) (W18 (F := Ideal) m ρ c)).trans
    (OpsRead.var_row_eq (addRow (W17 (F := Ideal) m ρ c (Proc.devRef .tc main_v95)) (W17 (F := Ideal) m ρ c (Proc.devRef .tc main_v98))) (W18 (F := Ideal) m ρ c (Proc.devRef .tc main_v105_0)) (W18 (F := Ideal) m ρ c (Proc.devRef .tc main_v105_1)) (sum_at18 m ρ c) (sumsq_at18 m ρ c))

/-! ## The layer's output -/

/-- The aggregate plus its bias, normalised by its column statistics, scaled, shifted, clamped at zero, added to the layer's input. -/
theorem out_at20 : W20 (F := Ideal) m ρ c (Proc.devRef .tc main_v114)
    = bnReluRes (W17 (F := Ideal) m ρ c (Proc.devRef .tc main_v95)) (W17 (F := Ideal) m ρ c (Proc.devRef .tc main_v98)) (W19 (F := Ideal) m ρ c (Proc.devRef .tc main_v107)) (W19 (F := Ideal) m ρ c (Proc.devRef .tc main_v113))
        (W17 (F := Ideal) m ρ c (Proc.devRef .tc main_v101)) (W17 (F := Ideal) m ρ c (Proc.devRef .tc main_v104)) (W14 (F := Ideal) m ρ c (Proc.devRef .tc main_v80)) :=
  (W20_arr m ρ c 7).trans ((Cert.KernelIdeal.BnResValue9.bnres9 (V19 (F := Ideal) m ρ) c).trans
    (bnReluRes_congr (v95_19_17 m ρ c) (v98_19_17 m ρ c) rfl rfl (v101_19_17 m ρ c) (v104_19_17 m ρ c) (v80_19_14 m ρ c)))

end Cert.KernelIdeal.FoldL1

end
-- ==== Proof.Mm10.lean ====
/-
  The matrix product with bias, region by region of the program: the array the kernel leaves is x·w + b of the arrays it finds.
  The body's value at an index; each window's block as rows of its array; the blocks written back cover the array.
-/
import proofs.«136606_j68719476736452_2_alg».proof.Proof.Gen.KernelIdeal.Frame
import proofs.«136606_j68719476736452_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.MmValue10

open Cert.KernelIdeal Cert.KernelIdeal.Gen

/-- The contraction of the product: rows of the left factor against columns of the right. -/
theorem dot_apply (A : FVec Ideal S5000x128 .bf16) (B : FVec Ideal S128x128 .bf16) (p : Fin 5000) (q : Fin 128) :
    (∑ k : dot_S5000x128_S128x128_S5000x128_1_0_0_1_n_n.contr.Idx,
        A (dot_S5000x128_S128x128_S5000x128_1_0_0_1_n_n.lhsIdx (ix2 p q) k) * B (dot_S5000x128_S128x128_S5000x128_1_0_0_1_n_n.rhsIdx (ix2 p q) k))
      = ∑ k : Fin 128, A (ix2 p k) * B (ix2 k q) := by
  rw [← Equiv.sum_comp (contrEquiv1 dot_S5000x128_S128x128_S5000x128_1_0_0_1_n_n 128 rfl rfl).symm]
  refine Finset.sum_congr rfl fun c _ => ?_
  have c2 := contrEquiv1_symm_val dot_S5000x128_S128x128_S5000x128_1_0_0_1_n_n 128 rfl rfl c
  have l2 : dot_S5000x128_S128x128_S5000x128_1_0_0_1_n_n.lhsIdx (ix2 p q) ((contrEquiv1 _ 128 rfl rfl).symm c) = ix2 p c := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact c2
  have r2 : dot_S5000x128_S128x128_S5000x128_1_0_0_1_n_n.rhsIdx (ix2 p q) ((contrEquiv1 _ 128 rfl rfl).symm c) = ix2 c q := by
    funext ax; apply Fin.ext
    match ax with
    | ⟨0, _⟩ => simp [DotDims.rhsIdx, dot_S5000x128_S128x128_S5000x128_1_0_0_1_n_n]; exact c2
    | ⟨1, _⟩ => simp [DotDims.rhsIdx, dot_S5000x128_S128x128_S5000x128_1_0_0_1_n_n]; rfl
  rw [l2, r2]

/-- The body's value at row p, column q: the p-th row of the left block against the q-th column of the weights, plus the bias. -/
theorem pay_apply (x0 : Vec Ideal S5000x128 .f32) (x1 : Vec Ideal S128x128 .f32) (x2 : Vec Ideal S1x128 .f32)
    (p : Fin 5000) (q : Fin 128) :
    k10_pay1 (F := Ideal) x0 x1 x2 (ix2 p q) = (∑ k : Fin 128, x0 (ix2 p k) * x1 (ix2 k q)) + x2 (ix2 0 q) := by
  unfold k10_pay1
  refine (addf_apply _ _ _).trans ?_
  refine congrArg₂ (· + ·) ?_ ?_
  · refine (Ideal.matmul_constant_zero_apply dot_S5000x128_S128x128_S5000x128_1_0_0_1_n_n none _ _ (ix2 p q)).trans ?_
    refine (dot_apply _ _ p q).trans ?_
    refine Finset.sum_congr rfl fun k _ => congrArg₂ (· * ·) ?_ ?_
    · exact congrFun (shapeCast_self x0 _) _
    · exact congrFun (shapeCast_self x1 _) _
  · refine (broadcastTo_1b_ab_apply _ _ p q).trans ?_
    rw [shapeCast_self]

theorem hz : (![0, 0] : Fin 2 → Nat) = fun _ => 0 := funext fun a => by fin_cases a <;> rfl

/-- The index maps over the grid: the row-blocked windows sit at block (t, 0) at point t, the whole operands at block (0, 0). -/
theorem idx_facts : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- Row p of the block at point t is row 5000·t + p of the array. -/
theorem read_blk0 (X : S100000x128.Idx → EReal) (t : Fin cfg10.N) (p : Fin 5000) (q : Fin 128) (r : Fin 100000)
    (hr : r.val = 5000 * t.val + p.val) :
    ((cfg10.win 0).blk t).view.read (Elt Ideal) X (ix2 p q) = X (ix2 r q) := by
  obtain ⟨e0, e1, -⟩ := idx_facts t
  show X (((cfg10.win 0).blk t).view.emb (ix2 p q)) = X (ix2 r q)
  refine congrArg X (funext fun a => Fin.ext ?_)
  match a with
  | ⟨0, _⟩ => show win10_0.index t (0 : Fin 2) * 5000 + 1 * p.val = r.val; rw [e0, hr]; omega
  | ⟨1, _⟩ => show win10_0.index t (1 : Fin 2) * 128 + 1 * q.val = q.val; rw [e1]; omega

theorem read_blk3 (X : S100000x128.Idx → EReal) (t : Fin cfg10.N) (p : Fin 5000) (q : Fin 128) (r : Fin 100000)
    (hr : r.val = 5000 * t.val + p.val) :
    ((cfg10.win 3).blk t).view.read (Elt Ideal) X (ix2 p q) = X (ix2 r q) := by
  obtain ⟨-, -, -, -, -, -, e0, e1⟩ := idx_facts t
  show X (((cfg10.win 3).blk t).view.emb (ix2 p q)) = X (ix2 r q)
  refine congrArg X (funext fun a => Fin.ext ?_)
  match a with
  | ⟨0, _⟩ => show win10_3.index t (0 : Fin 2) * 5000 + 1 * p.val = r.val; rw [e0, hr]; omega
  | ⟨1, _⟩ => show win10_3.index t (1 : Fin 2) * 128 + 1 * q.val = q.val; rw [e1]; omega

/-- The whole operands are read as they are. -/
theorem read_blk1 (X : S128x128.Idx → EReal) (t : Fin cfg10.N) :
    ((cfg10.win 1).blk t).view.read (Elt Ideal) X = X := by
  obtain ⟨-, -, e0, e1, -⟩ := idx_facts t
  funext j
  show X (((cfg10.win 1).blk t).view.emb j) = X j
  refine congrArg X (funext fun a => Fin.ext ?_)
  match a with
  | ⟨0, _⟩ => show win10_1.index t (0 : Fin 2) * 128 + 1 * (j 0).val = (j 0).val; rw [e0]; omega
  | ⟨1, _⟩ => show win10_1.index t (1 : Fin 2) * 128 + 1 * (j 1).val = (j 1).val; rw [e1]; omega

theorem read_blk2 (X : S1x128.Idx → EReal) (t : Fin cfg10.N) :
    ((cfg10.win 2).blk t).view.read (Elt Ideal) X = X := by
  obtain ⟨-, -, -, -, e0, e1, -⟩ := idx_facts t
  funext j
  show X (((cfg10.win 2).blk t).view.emb j) = X j
  refine congrArg X (funext fun a => Fin.ext ?_)
  match a with
  | ⟨0, _⟩ => show win10_2.index t (0 : Fin 2) * 1 + 1 * (j 0).val = (j 0).val; rw [e0]; omega
  | ⟨1, _⟩ => show win10_2.index t (1 : Fin 2) * 128 + 1 * (j 1).val = (j 1).val; rw [e1]; omega

/-- An index of the array is in point t's block iff each coordinate is in the block's range on its axis. -/
theorem mem_blk3 (t : Fin cfg10.N) (i : S100000x128.Idx) :
    i ∈ ((cfg10.win 3).blk t).view.set ↔ ∀ a : Fin 2, win10_3.index t a * S5000x128.size a ≤ (i a).val ∧ (i a).val < win10_3.index t a * S5000x128.size a + S5000x128.size a := by
  show i ∈ ((View.whole main_v117).slice (win10_3.rect t)).set ↔ _
  rw [View.set_slice_whole, Rect.mem_set_unit]
  exact Iff.rfl

/-- Row r of the array lies in the block of point r / 5000, which is written back. -/
theorem cover (i : S100000x128.Idx) : ∃ t : Fin cfg10.N, (cfg10.win 3).flush t = true ∧ i ∈ ((cfg10.win 3).blk t).view.set := by
  have hi0 : (i 0).val < 100000 := (i 0).isLt
  have hi1 : (i 1).val < 128 := (i 1).isLt
  have hN : cfg10.N = 20 := N_10
  have ht : (i 0).val / 5000 < cfg10.N := by rw [hN]; omega
  refine ⟨⟨(i 0).val / 5000, ht⟩, flush10_3 _, ?_⟩
  rw [mem_blk3]
  obtain ⟨-, -, -, -, -, -, e0, e1⟩ := idx_facts ⟨(i 0).val / 5000, ht⟩
  intro a
  match a with
  | ⟨0, _⟩ =>
    show win10_3.index ⟨(i 0).val / 5000, ht⟩ (0 : Fin 2) * 5000 ≤ (i 0).val ∧ (i 0).val < win10_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win10_3.index ⟨(i 0).val / 5000, ht⟩ (1 : Fin 2) * 128 ≤ (i 1).val ∧ (i 1).val < win10_3.index ⟨(i 0).val / 5000, ht⟩ (1 : Fin 2) * 128 + 128
    rw [e1]; omega

/-- Two arrays over a 5000×128 block are equal when they agree at every (row, column). -/
theorem ext_blk (Y Z : S5000x128.Idx → EReal) (h : ∀ (p : Fin 5000) (q : Fin 128), Y (ix2 p q) = Z (ix2 p q)) : Y = Z :=
  funext fun j => by rw [eq_ix2 j]; exact h _ _

variable (V : (c : Dev nD) → (b : Ref sig .tc) → Buf (Elt Ideal) ((c : Thread nD τ).loc b))

/-- What point t writes back is block t of x·w + b of the arrays the region finds. -/
theorem flushed_eq (c : Dev nD) (t : Fin cfg10.N) :
    (dat10 (F := Ideal) V c).flushed 3 t = ((cfg10.win 3).blk t).view.read (Elt Ideal)
      (Cert.Gcn.linear (V c (Pipeline.arrRef spec10 0)) (V c (Pipeline.arrRef spec10 1)) (V c (Pipeline.arrRef spec10 2))) := by
  show (cfg10.win 3).cut (grid10.coords t) ((dat10 V c).after 3 t) = _
  rw [after10_3]
  unfold out10_3
  rw [View.canon_unit_zero hz]
  simp only [View.ld_unit_zero (S := S5000x128) hz, View.ld_unit_zero (S := S128x128) hz, View.ld_unit_zero (S := S1x128) hz]
  have h1 : iblk10 V c 1 t = V c (Pipeline.arrRef spec10 1) := read_blk1 _ t
  have h2 : iblk10 V c 2 t = V c (Pipeline.arrRef spec10 2) := read_blk2 _ t
  rw [h1, h2]
  refine ext_blk _ _ fun p q => ?_
  have hN : cfg10.N = 20 := N_10
  have htl : t.val < 20 := hN ▸ t.isLt
  have hr : 5000 * t.val + p.val < 100000 := by have := p.isLt; omega
  refine (pay_apply _ _ _ p q).trans ?_
  refine Eq.trans ?_ (read_blk3 _ t p q ⟨5000 * t.val + p.val, hr⟩ rfl).symm
  show _ = Cert.Gcn.linearAt _ _ _ ⟨5000 * t.val + p.val, hr⟩ q
  unfold Cert.Gcn.linearAt
  refine congrArg₂ (· + ·) (Finset.sum_congr rfl fun k _ => congrArg₂ (· * ·) ?_ rfl) rfl
  exact read_blk0 _ t p k ⟨5000 * t.val + p.val, hr⟩ rfl

/-- The array after the region: x·w + b of the arrays the region finds. -/
theorem mm10 (c : Dev nD) :
    (Cert.KernelIdeal.Gen.dat10 (F := Ideal) V c).arrAt 3 cfg10.N
      = Cert.Gcn.linear (V c (Pipeline.arrRef spec10 0)) (V c (Pipeline.arrRef spec10 1)) (V c (Pipeline.arrRef spec10 2)) :=
  (dat10 (F := Ideal) V c).arrAt_eq_of_cover 3 _ (fun t _ => flushed_eq V c t) cover

end Cert.KernelIdeal.MmValue10

end
-- ==== Proof.BnRes12.lean ====
/-
  The normalisation with clamp and residual, as the array the kernel leaves: every entry of a + b normalised by its column's
  mean and variance, scaled and shifted, clamped at zero, and added to the layer's input.
  The body's value at an index; each window's block as rows of its array; the blocks written back cover the array.
-/
import proofs.«136606_j68719476736452_2_alg».proof.Proof.Gen.KernelIdeal.Frame
import proofs.«136606_j68719476736452_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.BnResValue12

open Cert.KernelIdeal Cert.KernelIdeal.Gen

/-- A row of 128 channels spread over the 5000 rows of a block reads, at (p, q), the row's entry q. -/
theorem row_apply (v : Vec Ideal S1x128 .f32) (p : Fin 5000) (q : Fin 128) :
    broadcastTo S5000x128 (shapeCast S1x128 v shapeCasts_S1x128_S1x128) broadcasts_S1x128_S5000x128 (ix2 p q) = v (ix2 0 q) :=
  (broadcastTo_1b_ab_apply _ _ p q).trans (congrFun (shapeCast_self v _) _)

/-- The body's value at row p, channel q: the entry plus its bias, centred, scaled by the inverse root of the variance
    plus the offset, by the channel's scale, shifted, clamped below at zero, and added to the layer's input there. -/
theorem pay_apply (a : Vec Ideal S5000x128 .f32) (b mean var g be : Vec Ideal S1x128 .f32) (res : Vec Ideal S5000x128 .f32)
    (p : Fin 5000) (q : Fin 128) :
    k12_pay1 (F := Ideal) a b mean var g be res (ix2 p q)
      = res (ix2 p q) + max (Cert.Gcn.normAt (a (ix2 p q) + b (ix2 0 q)) (mean (ix2 0 q)) (var (ix2 0 q)) (g (ix2 0 q)) (be (ix2 0 q))) 0 := by
  unfold k12_pay1 Cert.Gcn.normAt Cert.Gcn.eps
  refine (addf_apply _ _ _).trans ?_
  refine congrArg₂ (· + ·) (congrFun (shapeCast_self res _) _) ?_
  refine (maximumf_apply _ _ _).trans ?_
  refine congrArg₂ max ?_ Ideal.ofBits_zero_f32
  refine (addf_apply _ _ _).trans ?_
  refine congrArg₂ (· + ·) ?_ (row_apply be p q)
  refine (mulf_apply _ _ _).trans ?_
  refine congrArg₂ (· * ·) ?_ (row_apply g p q)
  refine (mulf_apply _ _ _).trans ?_
  refine congrArg₂ (· * ·) ?_ ?_
  · refine (subf_apply _ _ _).trans ?_
    refine congrArg₂ (· - ·) ?_ (row_apply mean p q)
    refine (addf_apply _ _ _).trans ?_
    exact congrArg₂ (· + ·) (congrFun (shapeCast_self a _) _) (row_apply b p q)
  · refine (broadcastTo_1b_ab_apply _ _ p q).trans ?_
    show Ideal.rsqrt (shapeCast S1x128 var shapeCasts_S1x128_S1x128 (ix2 0 q) + Ideal.ofBits .f32 0x3727C5AC#32) = _
    rw [shapeCast_self]

theorem hz : (![0, 0] : Fin 2 → Nat) = fun _ => 0 := funext fun a => by fin_cases a <;> rfl

/-- The index maps over the grid: the row-blocked windows sit at block (t, 0) at point t, the rows of channels at block (0, 0). -/
theorem idx_facts : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = 0 ∧ win12_5.index t (1 : Fin 2) = 0
    ∧ win12_6.index t (0 : Fin 2) = t.val ∧ win12_6.index t (1 : Fin 2) = 0
    ∧ win12_7.index t (0 : Fin 2) = t.val ∧ win12_7.index t (1 : Fin 2) = 0 :=
  (by decide +kernel : ∀ t : Fin grid12.N, _)

/-- Row p of a row-blocked window's block at point t is row 5000·t + p of its array. -/
theorem read_blk0 (X : S100000x128.Idx → EReal) (t : Fin cfg12.N) (p : Fin 5000) (q : Fin 128) (r : Fin 100000)
    (hr : r.val = 5000 * t.val + p.val) :
    ((cfg12.win 0).blk t).view.read (Elt Ideal) X (ix2 p q) = X (ix2 r q) := by
  obtain ⟨e0, e1, -⟩ := idx_facts t
  show X (((cfg12.win 0).blk t).view.emb (ix2 p q)) = X (ix2 r q)
  refine congrArg X (funext fun a => Fin.ext ?_)
  match a with
  | ⟨0, _⟩ => show win12_0.index t (0 : Fin 2) * 5000 + 1 * p.val = r.val; rw [e0, hr]; omega
  | ⟨1, _⟩ => show win12_0.index t (1 : Fin 2) * 128 + 1 * q.val = q.val; rw [e1]; omega

theorem read_blk6 (X : S100000x128.Idx → EReal) (t : Fin cfg12.N) (p : Fin 5000) (q : Fin 128) (r : Fin 100000)
    (hr : r.val = 5000 * t.val + p.val) :
    ((cfg12.win 6).blk t).view.read (Elt Ideal) X (ix2 p q) = X (ix2 r q) := by
  obtain ⟨-, -, -, -, -, -, -, -, -, -, -, -, e0, e1, -⟩ := idx_facts t
  show X (((cfg12.win 6).blk t).view.emb (ix2 p q)) = X (ix2 r q)
  refine congrArg X (funext fun a => Fin.ext ?_)
  match a with
  | ⟨0, _⟩ => show win12_6.index t (0 : Fin 2) * 5000 + 1 * p.val = r.val; rw [e0, hr]; omega
  | ⟨1, _⟩ => show win12_6.index t (1 : Fin 2) * 128 + 1 * q.val = q.val; rw [e1]; omega

theorem read_blk7 (X : S100000x128.Idx → EReal) (t : Fin cfg12.N) (p : Fin 5000) (q : Fin 128) (r : Fin 100000)
    (hr : r.val = 5000 * t.val + p.val) :
    ((cfg12.win 7).blk t).view.read (Elt Ideal) X (ix2 p q) = X (ix2 r q) := by
  obtain ⟨-, -, -, -, -, -, -, -, -, -, -, -, -, -, e0, e1⟩ := idx_facts t
  show X (((cfg12.win 7).blk t).view.emb (ix2 p q)) = X (ix2 r q)
  refine congrArg X (funext fun a => Fin.ext ?_)
  match a with
  | ⟨0, _⟩ => show win12_7.index t (0 : Fin 2) * 5000 + 1 * p.val = r.val; rw [e0, hr]; omega
  | ⟨1, _⟩ => show win12_7.index t (1 : Fin 2) * 128 + 1 * q.val = q.val; rw [e1]; omega

/-- The rows of channels are read as they are. -/
theorem read_row1 (X : S1x128.Idx → EReal) (t : Fin cfg12.N) :
    ((cfg12.win 1).blk t).view.read (Elt Ideal) X = X := by
  obtain ⟨-, -, e0, e1, -⟩ := idx_facts t
  funext j
  show X (((cfg12.win 1).blk t).view.emb j) = X j
  refine congrArg X (funext fun a => Fin.ext ?_)
  match a with
  | ⟨0, _⟩ => show win12_1.index t (0 : Fin 2) * 1 + 1 * (j 0).val = (j 0).val; rw [e0]; omega
  | ⟨1, _⟩ => show win12_1.index t (1 : Fin 2) * 128 + 1 * (j 1).val = (j 1).val; rw [e1]; omega

theorem read_row2 (X : S1x128.Idx → EReal) (t : Fin cfg12.N) :
    ((cfg12.win 2).blk t).view.read (Elt Ideal) X = X := by
  obtain ⟨-, -, -, -, e0, e1, -⟩ := idx_facts t
  funext j
  show X (((cfg12.win 2).blk t).view.emb j) = X j
  refine congrArg X (funext fun a => Fin.ext ?_)
  match a with
  | ⟨0, _⟩ => show win12_2.index t (0 : Fin 2) * 1 + 1 * (j 0).val = (j 0).val; rw [e0]; omega
  | ⟨1, _⟩ => show win12_2.index t (1 : Fin 2) * 128 + 1 * (j 1).val = (j 1).val; rw [e1]; omega

theorem read_row3 (X : S1x128.Idx → EReal) (t : Fin cfg12.N) :
    ((cfg12.win 3).blk t).view.read (Elt Ideal) X = X := by
  obtain ⟨-, -, -, -, -, -, e0, e1, -⟩ := idx_facts t
  funext j
  show X (((cfg12.win 3).blk t).view.emb j) = X j
  refine congrArg X (funext fun a => Fin.ext ?_)
  match a with
  | ⟨0, _⟩ => show win12_3.index t (0 : Fin 2) * 1 + 1 * (j 0).val = (j 0).val; rw [e0]; omega
  | ⟨1, _⟩ => show win12_3.index t (1 : Fin 2) * 128 + 1 * (j 1).val = (j 1).val; rw [e1]; omega

theorem read_row4 (X : S1x128.Idx → EReal) (t : Fin cfg12.N) :
    ((cfg12.win 4).blk t).view.read (Elt Ideal) X = X := by
  obtain ⟨-, -, -, -, -, -, -, -, e0, e1, -⟩ := idx_facts t
  funext j
  show X (((cfg12.win 4).blk t).view.emb j) = X j
  refine congrArg X (funext fun a => Fin.ext ?_)
  match a with
  | ⟨0, _⟩ => show win12_4.index t (0 : Fin 2) * 1 + 1 * (j 0).val = (j 0).val; rw [e0]; omega
  | ⟨1, _⟩ => show win12_4.index t (1 : Fin 2) * 128 + 1 * (j 1).val = (j 1).val; rw [e1]; omega

theorem read_row5 (X : S1x128.Idx → EReal) (t : Fin cfg12.N) :
    ((cfg12.win 5).blk t).view.read (Elt Ideal) X = X := by
  obtain ⟨-, -, -, -, -, -, -, -, -, -, e0, e1, -⟩ := idx_facts t
  funext j
  show X (((cfg12.win 5).blk t).view.emb j) = X j
  refine congrArg X (funext fun a => Fin.ext ?_)
  match a with
  | ⟨0, _⟩ => show win12_5.index t (0 : Fin 2) * 1 + 1 * (j 0).val = (j 0).val; rw [e0]; omega
  | ⟨1, _⟩ => show win12_5.index t (1 : Fin 2) * 128 + 1 * (j 1).val = (j 1).val; rw [e1]; omega

/-- An index of the array is in point t's block iff each coordinate is in the block's range on its axis. -/
theorem mem_blk7 (t : Fin cfg12.N) (i : S100000x128.Idx) :
    i ∈ ((cfg12.win 7).blk t).view.set ↔ ∀ a : Fin 2, win12_7.index t a * S5000x128.size a ≤ (i a).val ∧ (i a).val < win12_7.index t a * S5000x128.size a + S5000x128.size a := by
  show i ∈ ((View.whole main_v148).slice (win12_7.rect t)).set ↔ _
  rw [View.set_slice_whole, Rect.mem_set_unit]
  exact Iff.rfl

/-- Row r of the array lies in the block of point r / 5000, which is written back. -/
theorem cover (i : S100000x128.Idx) : ∃ t : Fin cfg12.N, (cfg12.win 7).flush t = true ∧ i ∈ ((cfg12.win 7).blk t).view.set := by
  have hi0 : (i 0).val < 100000 := (i 0).isLt
  have hi1 : (i 1).val < 128 := (i 1).isLt
  have hN : cfg12.N = 20 := N_12
  have ht : (i 0).val / 5000 < cfg12.N := by rw [hN]; omega
  refine ⟨⟨(i 0).val / 5000, ht⟩, flush12_7 _, ?_⟩
  rw [mem_blk7]
  obtain ⟨-, -, -, -, -, -, -, -, -, -, -, -, -, -, e0, e1⟩ := idx_facts ⟨(i 0).val / 5000, ht⟩
  intro a
  match a with
  | ⟨0, _⟩ =>
    show win12_7.index ⟨(i 0).val / 5000, ht⟩ (0 : Fin 2) * 5000 ≤ (i 0).val ∧ (i 0).val < win12_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win12_7.index ⟨(i 0).val / 5000, ht⟩ (1 : Fin 2) * 128 ≤ (i 1).val ∧ (i 1).val < win12_7.index ⟨(i 0).val / 5000, ht⟩ (1 : Fin 2) * 128 + 128
    rw [e1]; omega

/-- Two arrays over a 5000×128 block are equal when they agree at every (row, column). -/
theorem ext_blk (Y Z : S5000x128.Idx → EReal) (h : ∀ (p : Fin 5000) (q : Fin 128), Y (ix2 p q) = Z (ix2 p q)) : Y = Z :=
  funext fun j => by rw [eq_ix2 j]; exact h _ _

/-- The body's value on blocks that are rows of the arrays: the normalised, clamped entry added to the layer's input, at the array's row. -/
theorem blk_eq (x0 : Vec Ideal S5000x128 .f32) (x1 x2 x3 x4 x5 : Vec Ideal S1x128 .f32) (x6 : Vec Ideal S5000x128 .f32)
    (A : S100000x128.Idx → EReal) (B M Vr G Be : S1x128.Idx → EReal) (R : S100000x128.Idx → EReal)
    (r : Fin 100000) (p : Fin 5000) (q : Fin 128)
    (h0 : x0 (ix2 p q) = A (ix2 r q)) (h6 : x6 (ix2 p q) = R (ix2 r q))
    (h1 : x1 = B) (h2 : x2 = M) (h3 : x3 = Vr) (h4 : x4 = G) (h5 : x5 = Be) :
    k12_pay1 (F := Ideal) x0 x1 x2 x3 x4 x5 x6 (ix2 p q) = Cert.Gcn.bnReluRes A B M Vr G Be R (ix2 r q) := by
  subst h1 h2 h3 h4 h5
  rw [pay_apply, h0, h6]
  rfl

variable (V : (c : Dev nD) → (b : Ref sig .tc) → Buf (Elt Ideal) ((c : Thread nD τ).loc b))

set_option maxHeartbeats 1000000 in
/-- What point t writes back is block t of the normalised array of the arrays the region finds. -/
theorem flushed_eq (c : Dev nD) (t : Fin cfg12.N) :
    (dat12 (F := Ideal) V c).flushed 7 t = ((cfg12.win 7).blk t).view.read (Elt Ideal)
      (Cert.Gcn.bnReluRes (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) (V c (Pipeline.arrRef spec12 6))) := by
  show (cfg12.win 7).cut (grid12.coords t) ((dat12 V c).after 7 t) = _
  rw [after12_7]
  unfold out12_7
  rw [View.canon_unit_zero hz]
  simp only [View.ld_unit_zero (S := S5000x128) hz, View.ld_unit_zero (S := S1x128) hz]
  refine ext_blk _ _ fun p q => ?_
  have hN : cfg12.N = 20 := N_12
  have htl : t.val < 20 := hN ▸ t.isLt
  have hr : 5000 * t.val + p.val < 100000 := by have := p.isLt; omega
  exact (blk_eq (iblk12 V c 0 t) (iblk12 V c 1 t) (iblk12 V c 2 t) (iblk12 V c 3 t) (iblk12 V c 4 t) (iblk12 V c 5 t) (iblk12 V c 6 t)
    (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) (V c (Pipeline.arrRef spec12 6)) ⟨5000 * t.val + p.val, hr⟩ p q
    (read_blk0 (V c (Pipeline.arrRef spec12 0)) t p q ⟨5000 * t.val + p.val, hr⟩ rfl)
    (read_blk6 (V c (Pipeline.arrRef spec12 6)) t p q ⟨5000 * t.val + p.val, hr⟩ rfl)
    (read_row1 (V c (Pipeline.arrRef spec12 1)) t)
    (read_row2 (V c (Pipeline.arrRef spec12 2)) t)
    (read_row3 (V c (Pipeline.arrRef spec12 3)) t)
    (read_row4 (V c (Pipeline.arrRef spec12 4)) t)
    (read_row5 (V c (Pipeline.arrRef spec12 5)) t)).trans
    (read_blk7 _ t p q ⟨5000 * t.val + p.val, hr⟩ rfl).symm

/-- The array after the region: the normalised, clamped array added to the layer's input, of the arrays the region finds. -/
theorem bnres12 (c : Dev nD) :
    (Cert.KernelIdeal.Gen.dat12 (F := Ideal) V c).arrAt 7 cfg12.N
      = Cert.Gcn.bnReluRes (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) (V c (Pipeline.arrRef spec12 6)) :=
  (dat12 (F := Ideal) V c).arrAt_eq_of_cover 7 _ (fun t _ => flushed_eq V c t) cover

end Cert.KernelIdeal.BnResValue12

end
-- ==== Proof.Stats11.lean ====
/-
  The batch-statistics region, read as a value. Over a grid of 20 points the region visits the 20 blocks of 5000
  rows of a 100000×128 array a, together with one 1×128 row b, and keeps two 1×128 accumulators: at the first point
  both are set to zero, and at every point the column sums of (a + b) over the block's rows are added to the first
  and the column sums of (a + b)² to the second. Both accumulators' block is block (0, 0) of their 1×128 array at
  every point, and it is written back once, after the last point.

  Proved here, over the extended reals: after the region the first array holds, at lane l, the sum over all 100000
  rows r of a(r, l) + b(0, l), and the second the sum of the squares.

  The steps: what each case of the body leaves in each accumulator is one covering store of an accumulating term
  (four short lemmas); that term read at a lane is "what was held, plus the sum over the block's 5000 rows" (a lane
  reduction is a sum over the reduced axis; the added row is broadcast over the rows); row r of block t is row
  5000·t + r of the array; so after point n an accumulator holds the sum over rows 0 … 5000·(n + 1) − 1, by
  induction on n (sums over initial segments of the naturals, split at 5000·(n + 1)); after point 19 that is the sum
  over all rows; and the last point's block covers the 1×128 array, so the array ends at what that point wrote back.
-/
import proofs.«136606_j68719476736452_2_alg».proof.Proof.Gen.KernelIdeal.Frame
import proofs.«136606_j68719476736452_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.StatsValue11

open Cert.KernelIdeal Cert.KernelIdeal.Gen

section Pieces
variable {F : FTy → Type} [FloatOps F]

theorem hz : (![0, 0] : Fin 2 → Nat) = fun _ => 0 := funext fun a => by fin_cases a <;> rfl

/-- At a later point the first output's buffer, holding xo2, is left at the accumulating payload of the two input
    blocks and xo2: the body's one covering store, its loads reading the whole buffers. -/
theorem out_B_2 (c : Dev nD) (i : grid11.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond11_0 i)
    (x0 : Vec F S5000x128 .f32) (x1 xo2 xo3 : Vec F S1x128 .f32) :
    out11_B_2 c i a1 h1 a2 h2 a3 h3 a4 h4 hc x0 x1 xo2 xo3 = k11_pay4 x0 x1 xo2 := by
  unfold out11_B_2
  rw [View.read_writes_eq_canon _ _ _ (cover11_B_2 c i a1 h1 a2 h2 a3 h3 a4 h4 hc x0 x1 xo2 xo3)]
  unfold kernelRun11_B
  dsimp only
  rw [View.canon_unit_zero hz]
  simp only [View.readAt_eq_ld, h1.read_unread, h2.read_unread, h3.read_unread, View.ld_unit_zero (S := S5000x128) hz,
    View.ld_unit_zero (S := S1x128) hz]

/-- The same for the second output, holding xo3. -/
theorem out_B_3 (c : Dev nD) (i : grid11.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond11_0 i)
    (x0 : Vec F S5000x128 .f32) (x1 xo2 xo3 : Vec F S1x128 .f32) :
    out11_B_3 c i a1 h1 a2 h2 a3 h3 a4 h4 hc x0 x1 xo2 xo3 = k11_pay5 x0 x1 xo3 := by
  unfold out11_B_3
  rw [View.read_writes_eq_canon _ _ _ (cover11_B_3 c i a1 h1 a2 h2 a3 h3 a4 h4 hc x0 x1 xo2 xo3)]
  unfold kernelRun11_B
  dsimp only
  rw [View.canon_unit_zero hz]
  simp only [View.readAt_eq_ld, h1.read_unread, h2.read_unread, h4.read_unread, View.ld_unit_zero (S := S5000x128) hz,
    View.ld_unit_zero (S := S1x128) hz]

/-- At the first point the body stores the zero block into the first output, reads it back, and leaves the
    accumulating payload over that zero block. -/
theorem out_A_2 (c : Dev nD) (i : grid11.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond11_0 i)
    (x0 : Vec F S5000x128 .f32) (x1 : Vec F S1x128 .f32) :
    out11_A_2 c i a1 h1 a2 h2 a3 h3 a4 h4 hc x0 x1 = k11_pay4 x0 x1 (k11_pay1 (F := F)) := by
  unfold out11_A_2
  rw [View.read_writes_eq_canon _ _ _ (cover11_A_2 c i a1 h1 a2 h2 a3 h3 a4 h4 hc x0 x1)]
  unfold kernelRun11_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S1x128) hz]

/-- The same for the second output. -/
theorem out_A_3 (c : Dev nD) (i : grid11.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond11_0 i)
    (x0 : Vec F S5000x128 .f32) (x1 : Vec F S1x128 .f32) :
    out11_A_3 c i a1 h1 a2 h2 a3 h3 a4 h4 hc x0 x1 = k11_pay5 x0 x1 (k11_pay2 (F := F)) := by
  unfold out11_A_3
  rw [View.read_writes_eq_canon _ _ _ (cover11_A_3 c i a1 h1 a2 h2 a3 h3 a4 h4 hc x0 x1)]
  unfold kernelRun11_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S1x128) hz]

end Pieces

/-- The zero word read as an extended real is zero. -/
theorem zero_word : (Scalar.ofBits (F := Ideal) .f32 0x00000000#32 : Ideal .f32) = (0 : EReal) := by
  show Ideal.ofBits .f32 0x00000000#32 = 0
  simp [Ideal.ofBits, Ideal.ieee]

/-- The reset block is zero everywhere. -/
theorem pay1_apply (j : S1x128.Idx) : (k11_pay1 (F := Ideal) : FVec Ideal S1x128 .f32) j = (0 : EReal) := by
  unfold k11_pay1
  exact zero_word

/-- The second output's reset block is zero everywhere. -/
theorem pay2_apply (j : S1x128.Idx) : (k11_pay2 (F := Ideal) : FVec Ideal S1x128 .f32) j = (0 : EReal) := by
  unfold k11_pay2
  exact zero_word

/-- Entry (r, l) of the block with the row added: x(r, l) + b(0, l). -/
theorem pay3_apply (x0 : Vec Ideal S5000x128 .f32) (x1 : Vec Ideal S1x128 .f32) (r : Fin 5000) (l : Fin 128) :
    (k11_pay3 x0 x1 : FVec Ideal S5000x128 .f32) (ix2 r l) = (x0 (ix2 r l) + x1 (ix2 (0 : Fin 1) l) : EReal) := by
  unfold k11_pay3
  rw [shapeCast_self, shapeCast_self]
  refine (addf_apply _ _ _).trans ?_
  exact congrArg (fun y : EReal => x0 (ix2 r l) + y) (broadcastTo_1b_ab_apply x1 broadcasts_S1x128_S5000x128 r l)

/-- A sum over the rows of a 5000×128 block, at lane l: the sum over r of the block at (r, l). -/
theorem red_apply (src : FVec Ideal S5000x128 .f32) (hφ : FKind.Formats .f32)
    (hacc : (0x00000000#32 : BitVec (FTy.bits .f32)) = FKind.add.neutral .f32 hφ) (l : Fin 128) :
    multiReduction .add [0] S128 src 0x00000000#32 reduces_S5000x128_S128 hφ hacc (ix1 l)
      = ∑ r : Fin 5000, (src (ix2 r l) : EReal) := by
  refine (Ideal.multiReduction_add_single src 0x00000000#32 reduces_S5000x128_S128 hφ hacc (ix1 l)).trans ?_
  show ∑ r : Fin 5000, src (reduces_S5000x128_S128.lift (ix1 l) r) = _
  refine Finset.sum_congr rfl fun r _ => congrArg src ?_
  funext a
  match a with
  | ⟨0, _⟩ => rfl
  | ⟨1, _⟩ => rfl

/-- The first output after a point: what it held, plus the column sums of the block with the row added. -/
theorem pay4_apply (x0 : Vec Ideal S5000x128 .f32) (x1 acc : Vec Ideal S1x128 .f32) (u : Fin 1) (l : Fin 128) :
    (k11_pay4 x0 x1 acc : FVec Ideal S1x128 .f32) (ix2 u l)
      = (acc (ix2 u l) + ∑ r : Fin 5000, (x0 (ix2 r l) + x1 (ix2 (0 : Fin 1) l)) : EReal) := by
  unfold k11_pay4
  rw [shapeCast_self]
  refine (addf_apply _ _ _).trans ?_
  refine congrArg (fun y : EReal => acc (ix2 u l) + y) ?_
  refine (shapeCast_a_1a_apply _ shapeCasts_S128_S1x128 u l).trans ?_
  refine (red_apply _ _ _ l).trans ?_
  exact Finset.sum_congr rfl fun r _ => pay3_apply x0 x1 r l

/-- The second output after a point: what it held, plus the column sums of the squares. -/
theorem pay5_apply (x0 : Vec Ideal S5000x128 .f32) (x1 acc : Vec Ideal S1x128 .f32) (u : Fin 1) (l : Fin 128) :
    (k11_pay5 x0 x1 acc : FVec Ideal S1x128 .f32) (ix2 u l)
      = (acc (ix2 u l) + ∑ r : Fin 5000, (x0 (ix2 r l) + x1 (ix2 (0 : Fin 1) l)) * (x0 (ix2 r l) + x1 (ix2 (0 : Fin 1) l)) : EReal) := by
  unfold k11_pay5
  rw [shapeCast_self]
  refine (addf_apply _ _ _).trans ?_
  refine congrArg (fun y : EReal => acc (ix2 u l) + y) ?_
  refine (shapeCast_a_1a_apply _ shapeCasts_S128_S1x128 u l).trans ?_
  refine (red_apply _ _ _ l).trans ?_
  refine Finset.sum_congr rfl fun r _ => ?_
  refine (mulf_apply _ _ _).trans ?_
  rw [pay3_apply x0 x1 r l]

/-- Column l of an array on 100000 rows as a function of a natural row number, zero past the last row. -/
def colN (z : (⟨2, ![100000, 128]⟩ : Shape).Idx → EReal) (l : Fin 128) (r : ℕ) : EReal :=
  if h : r < 100000 then z (ix2 ⟨r, h⟩ l) else 0

/-- The sum of a column over all rows is the sum of colN over the first 100000 naturals. -/
theorem sum_rows_eq_range (z : (⟨2, ![100000, 128]⟩ : Shape).Idx → EReal) (l : Fin 128) :
    ∑ r : Fin 100000, z (ix2 r l) = ∑ r ∈ Finset.range 100000, colN z l r := by
  rw [← Fin.sum_univ_eq_sum_range (colN z l) 100000]
  refine Finset.sum_congr rfl fun r _ => ?_
  unfold colN
  rw [dif_pos r.isLt]

/-- The rows of block n (rows 5000·n … 5000·n + 4999), summed: the sum of colN over that run of naturals. -/
theorem block_sum (z : (⟨2, ![100000, 128]⟩ : Shape).Idx → EReal) (l : Fin 128) (n : ℕ) (hn : n < 20) (g : Fin 5000 → EReal)
    (hg : ∀ r : Fin 5000, g r = z (ix2 (⟨5000 * n + r.val, by have := r.isLt; omega⟩ : Fin 100000) l)) :
    ∑ r : Fin 5000, g r = ∑ k ∈ Finset.range 5000, colN z l (5000 * n + k) := by
  rw [← Fin.sum_univ_eq_sum_range (fun k => colN z l (5000 * n + k)) 5000]
  refine Finset.sum_congr rfl fun r _ => ?_
  rw [hg r]
  unfold colN
  rw [dif_pos (by have := r.isLt; omega)]

/-- The running sum over the first n + 1 blocks, extended by block n + 1. -/
theorem run_succ (f : ℕ → EReal) (n : ℕ) :
    ∑ r ∈ Finset.range (5000 * (n + 1)), f r + ∑ k ∈ Finset.range 5000, f (5000 * (n + 1) + k)
      = ∑ r ∈ Finset.range (5000 * (n + 1 + 1)), f r := by
  rw [show 5000 * (n + 1 + 1) = 5000 * (n + 1) + 5000 from by ring, Finset.sum_range_add]

/-- The first block alone, from zero. -/
theorem run_zero (f : ℕ → EReal) :
    (0 : EReal) + ∑ k ∈ Finset.range 5000, f (5000 * 0 + k) = ∑ r ∈ Finset.range (5000 * (0 + 1)), f r := by
  rw [zero_add]
  refine Finset.sum_congr rfl fun k _ => ?_
  rw [Nat.mul_zero, Nat.zero_add]

section Blocks
variable (V : (c : Dev nD) → (b : Ref sig .tc) → Buf (Elt Ideal) ((c : Thread nD τ).loc b))

/-- The index maps over the grid: the first input's block index is (t, 0); the row's and both outputs' are (0, 0). -/
theorem idx_facts : ∀ t : Fin cfg11.N,
    (win11_0.index t 0 = t.val ∧ win11_0.index t 1 = 0) ∧ (win11_1.index t 0 = 0 ∧ win11_1.index t 1 = 0)
      ∧ (win11_2.index t 0 = 0 ∧ win11_2.index t 1 = 0) ∧ (win11_3.index t 0 = 0 ∧ win11_3.index t 1 = 0) :=
  (by decide +kernel : ∀ t : Fin grid11.N,
    (win11_0.index t 0 = t.val ∧ win11_0.index t 1 = 0) ∧ (win11_1.index t 0 = 0 ∧ win11_1.index t 1 = 0)
      ∧ (win11_2.index t 0 = 0 ∧ win11_2.index t 1 = 0) ∧ (win11_3.index t 0 = 0 ∧ win11_3.index t 1 = 0))

/-- Entry (r, l) of the first input's block at point t is the array's entry at row 5000·t + r, lane l. -/
theorem blk0_read (c : Dev nD) (t : Fin cfg11.N) (ht : t.val < 20) (r : Fin 5000) (l : Fin 128) :
    (iblk11 (F := Ideal) V c 0 t : Vec Ideal S5000x128 .f32) (ix2 r l)
      = (V c (Pipeline.arrRef spec11 0) : S100000x128.Idx → EReal) (ix2 (⟨5000 * t.val + r.val, by have := r.isLt; omega⟩ : Fin 100000) l) := by
  obtain ⟨⟨i0, i1⟩, -⟩ := idx_facts t
  unfold iblk11
  rw [View.read_apply]
  show V c (Pipeline.arrRef spec11 0) _ = V c (Pipeline.arrRef spec11 0) _
  refine congrArg (V c (Pipeline.arrRef spec11 0)) ?_
  funext a
  apply Fin.ext
  match a with
  | ⟨0, _⟩ => show win11_0.index t 0 * 5000 + 1 * r.val = 5000 * t.val + r.val; rw [i0]; omega
  | ⟨1, _⟩ => show win11_0.index t 1 * 128 + 1 * l.val = l.val; rw [i1]; omega

/-- Entry (0, l) of the second input's block at any point is the row's entry at lane l. -/
theorem blk1_read (c : Dev nD) (t : Fin cfg11.N) (l : Fin 128) :
    (iblk11 (F := Ideal) V c 1 t : Vec Ideal S1x128 .f32) (ix2 (0 : Fin 1) l)
      = (V c (Pipeline.arrRef spec11 1) : S1x128.Idx → EReal) (ix2 (0 : Fin 1) l) := by
  obtain ⟨-, ⟨i0, i1⟩, -⟩ := idx_facts t
  unfold iblk11
  rw [View.read_apply]
  show V c (Pipeline.arrRef spec11 1) _ = V c (Pipeline.arrRef spec11 1) _
  refine congrArg (V c (Pipeline.arrRef spec11 1)) ?_
  funext a
  apply Fin.ext
  match a with
  | ⟨0, _⟩ => show win11_1.index t 0 * 1 + 1 * 0 = 0; rw [i0]
  | ⟨1, _⟩ => show win11_1.index t 1 * 128 + 1 * l.val = l.val; rw [i1]; omega

end Blocks

section Run
variable (V : (c : Dev nD) → (b : Ref sig .tc) → Buf (Elt Ideal) ((c : Thread nD τ).loc b))

/-- The node features with the row added to every row: the array whose columns are summed. -/
abbrev Z (c : Dev nD) : Cert.Gcn.Snd.Idx → EReal :=
  Cert.Gcn.addRow (V c (Pipeline.arrRef spec11 0)) (V c (Pipeline.arrRef spec11 1))

/-- Its entrywise square. -/
abbrev Zsq (c : Dev nD) : Cert.Gcn.Snd.Idx → EReal := fun i => Z V c i * Z V c i

/-- The outputs after the first point of a run: the accumulating payloads over the zero blocks. -/
theorem outs_A (c : Dev nD) (t : Fin cfg11.N) (h0 : t.val % 20 = 0) :
    outsAt11 (F := Ideal) V c t.val t.isLt
      = (k11_pay4 (iblk11 V c 0 t) (iblk11 V c 1 t) (k11_pay1 (F := Ideal)), k11_pay5 (iblk11 V c 0 t) (iblk11 V c 1 t) (k11_pay2 (F := Ideal))) := by
  rw [outsAt11_A V c t h0]
  exact Prod.ext
    (out_A_2 (F := Ideal) c (grid11.coords t) (ms11_0 t) (hs11_0 t) (ms11_1 t) (hs11_1 t) (ms11_2 t) (hs11_2 t) (ms11_3 t) (hs11_3 t) ((hcond11_0 t).mpr h0) (iblk11 V c 0 t) (iblk11 V c 1 t))
    (out_A_3 (F := Ideal) c (grid11.coords t) (ms11_0 t) (hs11_0 t) (ms11_1 t) (hs11_1 t) (ms11_2 t) (hs11_2 t) (ms11_3 t) (hs11_3 t) ((hcond11_0 t).mpr h0) (iblk11 V c 0 t) (iblk11 V c 1 t))

/-- The outputs after a later point: the accumulating payloads over what the point before left. -/
theorem outs_B (c : Dev nD) (t : Fin cfg11.N) (h0 : ¬t.val % 20 = 0) :
    outsAt11 (F := Ideal) V c t.val t.isLt
      = (k11_pay4 (iblk11 V c 0 t) (iblk11 V c 1 t) (outsAt11 V c (t.val - 1) (Nat.lt_of_le_of_lt (Nat.sub_le _ _) t.isLt)).1,
         k11_pay5 (iblk11 V c 0 t) (iblk11 V c 1 t) (outsAt11 V c (t.val - 1) (Nat.lt_of_le_of_lt (Nat.sub_le _ _) t.isLt)).2) := by
  rw [outsAt11_B V c t h0]
  exact Prod.ext
    (out_B_2 (F := Ideal) c (grid11.coords t) (ms11_0 t) (hs11_0 t) (ms11_1 t) (hs11_1 t) (ms11_2 t) (hs11_2 t) (ms11_3 t) (hs11_3 t) (fun h => h0 ((hcond11_0 t).mp h)) (iblk11 V c 0 t) (iblk11 V c 1 t)
      (outsAt11 V c (t.val - 1) (Nat.lt_of_le_of_lt (Nat.sub_le _ _) t.isLt)).1 (outsAt11 V c (t.val - 1) (Nat.lt_of_le_of_lt (Nat.sub_le _ _) t.isLt)).2)
    (out_B_3 (F := Ideal) c (grid11.coords t) (ms11_0 t) (hs11_0 t) (ms11_1 t) (hs11_1 t) (ms11_2 t) (hs11_2 t) (ms11_3 t) (hs11_3 t) (fun h => h0 ((hcond11_0 t).mp h)) (iblk11 V c 0 t) (iblk11 V c 1 t)
      (outsAt11 V c (t.val - 1) (Nat.lt_of_le_of_lt (Nat.sub_le _ _) t.isLt)).1 (outsAt11 V c (t.val - 1) (Nat.lt_of_le_of_lt (Nat.sub_le _ _) t.isLt)).2)

/-- Entry (r, l) of block t of the array with the row added (the blocks as plain vectors x0, x1). -/
theorem blk_entry (c : Dev nD) (t : Fin cfg11.N) (ht : t.val < 20) (x0 : Vec Ideal S5000x128 .f32) (x1 : Vec Ideal S1x128 .f32)
    (e0 : x0 = iblk11 (F := Ideal) V c 0 t) (e1 : x1 = iblk11 (F := Ideal) V c 1 t) (r : Fin 5000) (l : Fin 128) :
    (x0 (ix2 r l) + x1 (ix2 (0 : Fin 1) l) : EReal)
      = Z V c (ix2 (⟨5000 * t.val + r.val, by have := r.isLt; omega⟩ : Fin 100000) l) := by
  subst e0 e1
  rw [blk0_read V c t ht r l, blk1_read V c t l]
  rfl

/-- One point's step on the first output, at lane l: what it held plus the rows of block t of column l. -/
theorem step2 (c : Dev nD) (t : Fin cfg11.N) (ht : t.val < 20) (acc : Vec Ideal S1x128 .f32) (u : Fin 1) (l : Fin 128) :
    (k11_pay4 (iblk11 (F := Ideal) V c 0 t) (iblk11 (F := Ideal) V c 1 t) acc : FVec Ideal S1x128 .f32) (ix2 u l)
      = (acc (ix2 u l) + ∑ k ∈ Finset.range 5000, colN (Z V c) l (5000 * t.val + k) : EReal) := by
  refine (pay4_apply (iblk11 (F := Ideal) V c 0 t) (iblk11 (F := Ideal) V c 1 t) acc u l).trans ?_
  exact congrArg (fun y : EReal => acc (ix2 u l) + y)
    (block_sum (Z V c) l t.val ht _ fun r => blk_entry V c t ht _ _ rfl rfl r l)

/-- One point's step on the second output, at lane l: what it held plus the squares of the rows of block t of column l. -/
theorem step3 (c : Dev nD) (t : Fin cfg11.N) (ht : t.val < 20) (acc : Vec Ideal S1x128 .f32) (u : Fin 1) (l : Fin 128) :
    (k11_pay5 (iblk11 (F := Ideal) V c 0 t) (iblk11 (F := Ideal) V c 1 t) acc : FVec Ideal S1x128 .f32) (ix2 u l)
      = (acc (ix2 u l) + ∑ k ∈ Finset.range 5000, colN (Zsq V c) l (5000 * t.val + k) : EReal) := by
  refine (pay5_apply (iblk11 (F := Ideal) V c 0 t) (iblk11 (F := Ideal) V c 1 t) acc u l).trans ?_
  exact congrArg (fun y : EReal => acc (ix2 u l) + y)
    (block_sum (Zsq V c) l t.val ht _ fun r =>
      congrArg₂ (fun a b : EReal => a * b) (blk_entry V c t ht _ _ rfl rfl r l) (blk_entry V c t ht _ _ rfl rfl r l))

/-- THE INVARIANT. After point n the first output holds, at lane l, the sum of column l of the array with the row
    added over the rows of blocks 0 … n, and the second the sum of the squares: by induction on the point. -/
theorem outsAt_eq (c : Dev nD) : ∀ (n : ℕ) (h : n < cfg11.N) (u : Fin 1) (l : Fin 128),
    ((outsAt11 (F := Ideal) V c n h).1 (ix2 u l) : EReal) = ∑ r ∈ Finset.range (5000 * (n + 1)), colN (Z V c) l r
      ∧ ((outsAt11 (F := Ideal) V c n h).2 (ix2 u l) : EReal) = ∑ r ∈ Finset.range (5000 * (n + 1)), colN (Zsq V c) l r
  | 0, h, u, l => by
    have hN : cfg11.N = 20 := N_11
    have hA := outs_A V c ⟨0, h⟩ (Nat.zero_mod 20)
    dsimp only at hA
    rw [hA]
    dsimp only
    constructor
    · rw [step2 V c ⟨0, h⟩ (show (0 : ℕ) < 20 by decide) _ u l, pay1_apply]
      exact run_zero _
    · rw [step3 V c ⟨0, h⟩ (show (0 : ℕ) < 20 by decide) _ u l, pay2_apply]
      exact run_zero _
  | n + 1, h, u, l => by
    have hN : cfg11.N = 20 := N_11
    have hn : n + 1 < 20 := by omega
    have hB := outs_B V c ⟨n + 1, h⟩ (by dsimp only; omega)
    dsimp only [Nat.add_sub_cancel] at hB
    rw [hB]
    dsimp only
    obtain ⟨ih2, ih3⟩ := outsAt_eq c n (Nat.lt_of_succ_lt h) u l
    constructor
    · rw [step2 V c ⟨n + 1, h⟩ hn _ u l]
      refine Eq.trans ?_ (run_succ (colN (Z V c) l) n)
      exact congrArg (fun y : EReal => y + ∑ k ∈ Finset.range 5000, colN (Z V c) l (5000 * (n + 1) + k)) ih2
    · rw [step3 V c ⟨n + 1, h⟩ hn _ u l]
      refine Eq.trans ?_ (run_succ (colN (Zsq V c) l) n)
      exact congrArg (fun y : EReal => y + ∑ k ∈ Finset.range 5000, colN (Zsq V c) l (5000 * (n + 1) + k)) ih3

end Run

section Final
variable (V : (c : Dev nD) → (b : Ref sig .tc) → Buf (Elt Ideal) ((c : Thread nD τ).loc b))

/-- The last point of the grid. -/
def tLast : Fin cfg11.N := ⟨19, by rw [show cfg11.N = 20 from N_11]; decide⟩

/-- After the last point the first output holds the column sums of the array with the row added. -/
theorem last_fst (c : Dev nD) (t : Fin cfg11.N) (h19 : t.val = 19) :
    ((outsAt11 (F := Ideal) V c t.val t.isLt).1 : S1x128.Idx → EReal) = Cert.Gcn.colSum (Z V c) := by
  funext j
  obtain ⟨n, hn⟩ := t
  dsimp only at h19
  subst h19
  rw [eq_ix2 j]
  refine ((outsAt_eq V c 19 hn (j 0) (j 1)).1).trans ?_
  show _ = Cert.Gcn.colSumAt (Z V c) (j 1)
  unfold Cert.Gcn.colSumAt
  exact (sum_rows_eq_range (Z V c) (j 1)).symm

/-- After the last point the second output holds the column sums of its squares. -/
theorem last_snd (c : Dev nD) (t : Fin cfg11.N) (h19 : t.val = 19) :
    ((outsAt11 (F := Ideal) V c t.val t.isLt).2 : S1x128.Idx → EReal) = Cert.Gcn.colSumSq (Z V c) := by
  funext j
  obtain ⟨n, hn⟩ := t
  dsimp only at h19
  subst h19
  rw [eq_ix2 j]
  refine ((outsAt_eq V c 19 hn (j 0) (j 1)).2).trans ?_
  show _ = Cert.Gcn.colSumAt (Zsq V c) (j 1)
  unfold Cert.Gcn.colSumAt
  exact (sum_rows_eq_range (Zsq V c) (j 1)).symm

/-- The one write-back of the first output, at the last point, writes the column sums: block (0, 0) of the 1×128
    array read through zero offsets is the array. -/
theorem flushed_eq2 (c : Dev nD) (t : Fin cfg11.N) (hf : (cfg11.win 2).flush t = true) :
    (dat11 (F := Ideal) V c).flushed 2 t = ((cfg11.win 2).blk t).view.read (Elt Ideal) (Cert.Gcn.colSum (Z V c)) := by
  have hN : cfg11.N = 20 := N_11
  have h19 : t.val = 19 := by have := (flush11_2 t).mp hf; have := t.isLt; omega
  obtain ⟨-, -, ⟨i0, i1⟩, -⟩ := idx_facts t
  show (cfg11.win 2).cut (grid11.coords t) ((dat11 (F := Ideal) V c).after 2 t) = _
  rw [after11_2, last_fst V c t h19]
  have hz' : (fun a => win11_2.index t a * (Pipeline.arrRef spec11 2).ty.shape.size a) = fun _ => 0 := funext fun a => by
    match a with
    | ⟨0, _⟩ => show win11_2.index t 0 * 1 = 0; rw [i0]
    | ⟨1, _⟩ => show win11_2.index t 1 * 128 = 0; rw [i1]
  exact (Memref.read_access_unit_zero (Elt Ideal) (Pipeline.arrRef spec11 2) hz' (fun a => by rw [congrFun hz' a]; simp) (Cert.Gcn.colSum (Z V c))).symm

/-- The one write-back of the second output, at the last point, writes the column sums of the squares. -/
theorem flushed_eq3 (c : Dev nD) (t : Fin cfg11.N) (hf : (cfg11.win 3).flush t = true) :
    (dat11 (F := Ideal) V c).flushed 3 t = ((cfg11.win 3).blk t).view.read (Elt Ideal) (Cert.Gcn.colSumSq (Z V c)) := by
  have hN : cfg11.N = 20 := N_11
  have h19 : t.val = 19 := by have := (flush11_3 t).mp hf; have := t.isLt; omega
  obtain ⟨-, -, -, ⟨i0, i1⟩⟩ := idx_facts t
  show (cfg11.win 3).cut (grid11.coords t) ((dat11 (F := Ideal) V c).after 3 t) = _
  rw [after11_3, last_snd V c t h19]
  have hz' : (fun a => win11_3.index t a * (Pipeline.arrRef spec11 3).ty.shape.size a) = fun _ => 0 := funext fun a => by
    match a with
    | ⟨0, _⟩ => show win11_3.index t 0 * 1 = 0; rw [i0]
    | ⟨1, _⟩ => show win11_3.index t 1 * 128 = 0; rw [i1]
  exact (Memref.read_access_unit_zero (Elt Ideal) (Pipeline.arrRef spec11 3) hz' (fun a => by rw [congrFun hz' a]; simp) (Cert.Gcn.colSumSq (Z V c))).symm

/-- THE FIRST OUTPUT after the region: the column sums of the first input with the second input's row added to every
    row. The last point's block is the whole 1×128 array, so what that point writes back is the array. -/
theorem sum11 (c : Dev nD) :
    (Cert.KernelIdeal.Gen.dat11 (F := Ideal) V c).arrAt 2 cfg11.N
      = Cert.Gcn.colSum (Cert.Gcn.addRow (V c (Pipeline.arrRef spec11 0)) (V c (Pipeline.arrRef spec11 1))) :=
  (dat11 (F := Ideal) V c).arrAt_eq_of_cover 2 (Cert.Gcn.colSum (Z V c)) (flushed_eq2 V c) fun i =>
    ⟨tLast, (flush11_2 tLast).mpr rfl, by
      obtain ⟨-, -, ⟨i0, i1⟩, -⟩ := idx_facts tLast
      show i ∈ ((View.whole (Pipeline.arrRef spec11 2)).slice (win11_2.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win11_2.index tLast 0 * 1 ≤ (i 0 : Nat) ∧ (i 0 : Nat) < win11_2.index tLast 0 * 1 + 1
        rw [i0]; omega
      | ⟨1, _⟩ =>
        show win11_2.index tLast 1 * 128 ≤ (i 1 : Nat) ∧ (i 1 : Nat) < win11_2.index tLast 1 * 128 + 128
        rw [i1]; omega⟩

/-- THE SECOND OUTPUT after the region: the column sums of the squares of the same array. -/
theorem sumsq11 (c : Dev nD) :
    (Cert.KernelIdeal.Gen.dat11 (F := Ideal) V c).arrAt 3 cfg11.N
      = Cert.Gcn.colSumSq (Cert.Gcn.addRow (V c (Pipeline.arrRef spec11 0)) (V c (Pipeline.arrRef spec11 1))) :=
  (dat11 (F := Ideal) V c).arrAt_eq_of_cover 3 (Cert.Gcn.colSumSq (Z V c)) (flushed_eq3 V c) fun i =>
    ⟨tLast, (flush11_3 tLast).mpr rfl, by
      obtain ⟨-, -, -, ⟨i0, i1⟩⟩ := idx_facts tLast
      show i ∈ ((View.whole (Pipeline.arrRef spec11 3)).slice (win11_3.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win11_3.index tLast 0 * 1 ≤ (i 0 : Nat) ∧ (i 0 : Nat) < win11_3.index tLast 0 * 1 + 1
        rw [i0]; omega
      | ⟨1, _⟩ =>
        show win11_3.index tLast 1 * 128 ≤ (i 1 : Nat) ∧ (i 1 : Nat) < win11_3.index tLast 1 * 128 + 128
        rw [i1]; omega⟩

end Final

end Cert.KernelIdeal.StatsValue11

end
-- ==== Proof.KFoldL2.lean ====
/-
  The kernel program's buffers through the third graph-convolution layer, boundary by boundary: the weights cut out of
  their stacks, the linear map of the layer's input, the aggregate along the edges, its column statistics, and the
  normalised, clamped aggregate added to the layer's input. A buffer no segment writes keeps its contents from boundary
  to boundary; a region's output array is the region's whole-array function of its operand arrays.
-/
import proofs.«136606_j68719476736452_2_alg».proof.Proof.Gen.KernelIdeal.Frame
import proofs.«136606_j68719476736452_2_alg».proof.Proof.Spec
import proofs.«136606_j68719476736452_2_alg».proof.Proof.KRaw
import proofs.«136606_j68719476736452_2_alg».proof.Proof.KOps
import proofs.«136606_j68719476736452_2_alg».proof.Proof.Mm10
import proofs.«136606_j68719476736452_2_alg».proof.Proof.BnRes12
import proofs.«136606_j68719476736452_2_alg».proof.Proof.Stats11
import proofs.«136606_j68719476736452_2_alg».proof.Proof.Agg
import Idealize.ShloMosaic.Lib.StableHlo.Run
import Idealize.ShloMosaic.Lib.ValueIdx
import Idealize.ShloMosaic.Lib.Pipeline.Value
set_option maxRecDepth 16384

noncomputable section

namespace Cert.KernelIdeal.FoldL2

open Cert.KernelIdeal Cert.KernelIdeal.Gen Cert.Gcn
open Idealize.ShloMosaic Idealize.ShloMosaic.TcCoe Idealize.ShloMosaic.ValueIdx
open Idealize.SL.Sem

/-- Equal operands give equal linear maps. -/
theorem linear_congr {x x' : Snd.Idx → EReal} {w w' : Sdd.Idx → EReal} {b b' : Srow.Idx → EReal}
    (hx : x = x') (hw : w = w') (hb : b = b') : linear x w b = linear x' w' b' := by
  subst hx hw hb; rfl

/-- Equal operands give equal normalised arrays. -/
theorem bnReluRes_congr {a a' : Snd.Idx → EReal} {b b' mu mu' v v' g g' be be' : Srow.Idx → EReal} {r r' : Snd.Idx → EReal}
    (ha : a = a') (hb : b = b') (hmu : mu = mu') (hv : v = v') (hg : g = g') (hbe : be = be') (hr : r = r') :
    bnReluRes a b mu v g be r = bnReluRes a' b' mu' v' g' be' r' := by
  subst ha hb hmu hv hg hbe hr; rfl

/-- Equal edge lists and weights give equal aggregates. -/
theorem aggOps_congr {s s' d d' : IVec S640000 32} {e e' : FVec Ideal S640000x1 .f32} (x : FVec Ideal S100000x128 .f32)
    (hs : s = s') (hd : d = d') (he : e = e') : Cert.KernelIdeal.Agg.aggOps s d e x = Cert.KernelIdeal.Agg.aggOps s' d' e' x := by
  subst hs hd he; rfl

variable (m : (ℓ : Loc nD τ sig) → Buf (Elt Ideal) ℓ) (ρ : Dev nD → PrngReg) (c : Dev nD)

/-- A buffer that no operation of a host stretch writes keeps its contents across the stretch. -/
macro "host_carry_L2" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Buffers carried from boundary to boundary -/

/-- The layer's input is not touched by the stretch that cuts the layer's weights out of their stack. -/
theorem v114_21_20 : W21 (F := Ideal) m ρ c (Proc.devRef .tc main_v114) = W20 (F := Ideal) m ρ c (Proc.devRef .tc main_v114) :=
  calc W21 (F := Ideal) m ρ c (Proc.devRef .tc main_v114)
    _ = W20 (F := Ideal) m ρ c (Proc.devRef .tc main_v114) := by host_carry_L2 hostOps10

/-- The layer's input keeps its contents up to the normalisation. -/
theorem v114_25_20 : W25 (F := Ideal) m ρ c (Proc.devRef .tc main_v114) = W20 (F := Ideal) m ρ c (Proc.devRef .tc main_v114) :=
  calc W25 (F := Ideal) m ρ c (Proc.devRef .tc main_v114)
    _ = W24 (F := Ideal) m ρ c (Proc.devRef .tc main_v114) := by host_carry_L2 hostOps12
    _ = W23 (F := Ideal) m ρ c (Proc.devRef .tc main_v114) := W24_of_ne m ρ c main_v114 (by decide)
    _ = W22 (F := Ideal) m ρ c (Proc.devRef .tc main_v114) := by host_carry_L2 hostOps11
    _ = W21 (F := Ideal) m ρ c (Proc.devRef .tc main_v114) := (W22_arr m ρ c 0).trans (((dat10 (F := Ideal) (V21 (F := Ideal) m ρ) c).arrAt_in 0 rfl _).trans (A_eq10 (V21 (F := Ideal) m ρ) c 0))
    _ = W20 (F := Ideal) m ρ c (Proc.devRef .tc main_v114) := by host_carry_L2 hostOps10

/-- The stack of weight matrices is an argument no segment writes. -/
theorem arg9_20_0 : W20 (F := Ideal) m ρ c (Proc.devRef .tc main_arg9) = m ((c : Thread nD τ).loc main_arg9) :=
  calc W20 (F := Ideal) m ρ c (Proc.devRef .tc main_arg9)
    _ = W19 (F := Ideal) m ρ c (Proc.devRef .tc main_arg9) := W20_of_ne m ρ c main_arg9 (by decide)
    _ = W18 (F := Ideal) m ρ c (Proc.devRef .tc main_arg9) := by host_carry_L2 hostOps9
    _ = W17 (F := Ideal) m ρ c (Proc.devRef .tc main_arg9) := W18_of_ne m ρ c main_arg9 (by decide)
    _ = W16 (F := Ideal) m ρ c (Proc.devRef .tc main_arg9) := by host_carry_L2 hostOps8
    _ = W15 (F := Ideal) m ρ c (Proc.devRef .tc main_arg9) := W16_of_ne m ρ c main_arg9 (by decide)
    _ = W14 (F := Ideal) m ρ c (Proc.devRef .tc main_arg9) := by host_carry_L2 hostOps7
    _ = W13 (F := Ideal) m ρ c (Proc.devRef .tc main_arg9) := W14_of_ne m ρ c main_arg9 (by decide)
    _ = W12 (F := Ideal) m ρ c (Proc.devRef .tc main_arg9) := by host_carry_L2 hostOps6
    _ = W11 (F := Ideal) m ρ c (Proc.devRef .tc main_arg9) := W12_of_ne m ρ c main_arg9 (by decide)
    _ = W10 (F := Ideal) m ρ c (Proc.devRef .tc main_arg9) := by host_carry_L2 hostOps5
    _ = W9 (F := Ideal) m ρ c (Proc.devRef .tc main_arg9) := W10_of_ne m ρ c main_arg9 (by decide)
    _ = W8 (F := Ideal) m ρ c (Proc.devRef .tc main_arg9) := by host_carry_L2 hostOps4
    _ = W7 (F := Ideal) m ρ c (Proc.devRef .tc main_arg9) := W8_of_ne m ρ c main_arg9 (by decide)
    _ = W6 (F := Ideal) m ρ c (Proc.devRef .tc main_arg9) := W7_of_ne m ρ c main_arg9 (by decide)
    _ = W5 (F := Ideal) m ρ c (Proc.devRef .tc main_arg9) := by host_carry_L2 hostOps2
    _ = W4 (F := Ideal) m ρ c (Proc.devRef .tc main_arg9) := W5_of_ne m ρ c main_arg9 (by decide)
    _ = W3 (F := Ideal) m ρ c (Proc.devRef .tc main_arg9) := W4_of_ne m ρ c main_arg9 (by decide)
    _ = W2 (F := Ideal) m ρ c (Proc.devRef .tc main_arg9) := by host_carry_L2 hostOps0_2
    _ = W1 (F := Ideal) m ρ c (Proc.devRef .tc main_arg9) := by host_carry_L2 hostOps0_1
    _ = W0 (F := Ideal) m ρ c (Proc.devRef .tc main_arg9) := by host_carry_L2 hostOps0
    _ = m ((c : Thread nD τ).loc main_arg9) := rfl

/-- The zero row keeps its contents from the stretch that writes it. -/
theorem v30_21_3 : W21 (F := Ideal) m ρ c (Proc.devRef .tc main_v30) = W3 (F := Ideal) m ρ c (Proc.devRef .tc main_v30) :=
  calc W21 (F := Ideal) m ρ c (Proc.devRef .tc main_v30)
    _ = W20 (F := Ideal) m ρ c (Proc.devRef .tc main_v30) := by host_carry_L2 hostOps10
    _ = W19 (F := Ideal) m ρ c (Proc.devRef .tc main_v30) := W20_of_ne m ρ c main_v30 (by decide)
    _ = W18 (F := Ideal) m ρ c (Proc.devRef .tc main_v30) := by host_carry_L2 hostOps9
    _ = W17 (F := Ideal) m ρ c (Proc.devRef .tc main_v30) := W18_of_ne m ρ c main_v30 (by decide)
    _ = W16 (F := Ideal) m ρ c (Proc.devRef .tc main_v30) := by host_carry_L2 hostOps8
    _ = W15 (F := Ideal) m ρ c (Proc.devRef .tc main_v30) := (W16_arr m ρ c 2).trans (((dat7 (F := Ideal) (V15 (F := Ideal) m ρ) c).arrAt_in 2 rfl _).trans (A_eq7 (V15 (F := Ideal) m ρ) c 2))
    _ = W14 (F := Ideal) m ρ c (Proc.devRef .tc main_v30) := by host_carry_L2 hostOps7
    _ = W13 (F := Ideal) m ρ c (Proc.devRef .tc main_v30) := W14_of_ne m ρ c main_v30 (by decide)
    _ = W12 (F := Ideal) m ρ c (Proc.devRef .tc main_v30) := by host_carry_L2 hostOps6
    _ = W11 (F := Ideal) m ρ c (Proc.devRef .tc main_v30) := W12_of_ne m ρ c main_v30 (by decide)
    _ = W10 (F := Ideal) m ρ c (Proc.devRef .tc main_v30) := by host_carry_L2 hostOps5
    _ = W9 (F := Ideal) m ρ c (Proc.devRef .tc main_v30) := (W10_arr m ρ c 2).trans (((dat4 (F := Ideal) (V9 (F := Ideal) m ρ) c).arrAt_in 2 rfl _).trans (A_eq4 (V9 (F := Ideal) m ρ) c 2))
    _ = W8 (F := Ideal) m ρ c (Proc.devRef .tc main_v30) := by host_carry_L2 hostOps4
    _ = W7 (F := Ideal) m ρ c (Proc.devRef .tc main_v30) := W8_of_ne m ρ c main_v30 (by decide)
    _ = W6 (F := Ideal) m ρ c (Proc.devRef .tc main_v30) := (W7_arr m ρ c 1).trans (((dat2 (F := Ideal) (V6 (F := Ideal) m ρ) c).arrAt_in 1 rfl _).trans (A_eq2 (V6 (F := Ideal) m ρ) c 1))
    _ = W5 (F := Ideal) m ρ c (Proc.devRef .tc main_v30) := by host_carry_L2 hostOps2
    _ = W4 (F := Ideal) m ρ c (Proc.devRef .tc main_v30) := (W5_arr m ρ c 1).trans (((dat1 (F := Ideal) (V4 (F := Ideal) m ρ) c).arrAt_in 1 rfl _).trans (A_eq1 (V4 (F := Ideal) m ρ) c 1))
    _ = W3 (F := Ideal) m ρ c (Proc.devRef .tc main_v30) := W4_of_ne m ρ c main_v30 (by decide)

/-- The edges' source nodes keep their contents from the stretch that writes them. -/
theorem v1_22_3 : W22 (F := Ideal) m ρ c (Proc.devRef .tc main_v1) = W3 (F := Ideal) m ρ c (Proc.devRef .tc main_v1) :=
  calc W22 (F := Ideal) m ρ c (Proc.devRef .tc main_v1)
    _ = W21 (F := Ideal) m ρ c (Proc.devRef .tc main_v1) := W22_of_ne m ρ c main_v1 (by decide)
    _ = W20 (F := Ideal) m ρ c (Proc.devRef .tc main_v1) := by host_carry_L2 hostOps10
    _ = W19 (F := Ideal) m ρ c (Proc.devRef .tc main_v1) := W20_of_ne m ρ c main_v1 (by decide)
    _ = W18 (F := Ideal) m ρ c (Proc.devRef .tc main_v1) := by host_carry_L2 hostOps9
    _ = W17 (F := Ideal) m ρ c (Proc.devRef .tc main_v1) := W18_of_ne m ρ c main_v1 (by decide)
    _ = W16 (F := Ideal) m ρ c (Proc.devRef .tc main_v1) := by host_carry_L2 hostOps8
    _ = W15 (F := Ideal) m ρ c (Proc.devRef .tc main_v1) := W16_of_ne m ρ c main_v1 (by decide)
    _ = W14 (F := Ideal) m ρ c (Proc.devRef .tc main_v1) := by host_carry_L2 hostOps7
    _ = W13 (F := Ideal) m ρ c (Proc.devRef .tc main_v1) := W14_of_ne m ρ c main_v1 (by decide)
    _ = W12 (F := Ideal) m ρ c (Proc.devRef .tc main_v1) := by host_carry_L2 hostOps6
    _ = W11 (F := Ideal) m ρ c (Proc.devRef .tc main_v1) := W12_of_ne m ρ c main_v1 (by decide)
    _ = W10 (F := Ideal) m ρ c (Proc.devRef .tc main_v1) := by host_carry_L2 hostOps5
    _ = W9 (F := Ideal) m ρ c (Proc.devRef .tc main_v1) := W10_of_ne m ρ c main_v1 (by decide)
    _ = W8 (F := Ideal) m ρ c (Proc.devRef .tc main_v1) := by host_carry_L2 hostOps4
    _ = W7 (F := Ideal) m ρ c (Proc.devRef .tc main_v1) := W8_of_ne m ρ c main_v1 (by decide)
    _ = W6 (F := Ideal) m ρ c (Proc.devRef .tc main_v1) := W7_of_ne m ρ c main_v1 (by decide)
    _ = W5 (F := Ideal) m ρ c (Proc.devRef .tc main_v1) := by host_carry_L2 hostOps2
    _ = W4 (F := Ideal) m ρ c (Proc.devRef .tc main_v1) := W5_of_ne m ρ c main_v1 (by decide)
    _ = W3 (F := Ideal) m ρ c (Proc.devRef .tc main_v1) := W4_of_ne m ρ c main_v1 (by decide)

/-- The edges' target nodes keep their contents from the stretch that writes them. -/
theorem v3_22_3 : W22 (F := Ideal) m ρ c (Proc.devRef .tc main_v3) = W3 (F := Ideal) m ρ c (Proc.devRef .tc main_v3) :=
  calc W22 (F := Ideal) m ρ c (Proc.devRef .tc main_v3)
    _ = W21 (F := Ideal) m ρ c (Proc.devRef .tc main_v3) := W22_of_ne m ρ c main_v3 (by decide)
    _ = W20 (F := Ideal) m ρ c (Proc.devRef .tc main_v3) := by host_carry_L2 hostOps10
    _ = W19 (F := Ideal) m ρ c (Proc.devRef .tc main_v3) := W20_of_ne m ρ c main_v3 (by decide)
    _ = W18 (F := Ideal) m ρ c (Proc.devRef .tc main_v3) := by host_carry_L2 hostOps9
    _ = W17 (F := Ideal) m ρ c (Proc.devRef .tc main_v3) := W18_of_ne m ρ c main_v3 (by decide)
    _ = W16 (F := Ideal) m ρ c (Proc.devRef .tc main_v3) := by host_carry_L2 hostOps8
    _ = W15 (F := Ideal) m ρ c (Proc.devRef .tc main_v3) := W16_of_ne m ρ c main_v3 (by decide)
    _ = W14 (F := Ideal) m ρ c (Proc.devRef .tc main_v3) := by host_carry_L2 hostOps7
    _ = W13 (F := Ideal) m ρ c (Proc.devRef .tc main_v3) := W14_of_ne m ρ c main_v3 (by decide)
    _ = W12 (F := Ideal) m ρ c (Proc.devRef .tc main_v3) := by host_carry_L2 hostOps6
    _ = W11 (F := Ideal) m ρ c (Proc.devRef .tc main_v3) := W12_of_ne m ρ c main_v3 (by decide)
    _ = W10 (F := Ideal) m ρ c (Proc.devRef .tc main_v3) := by host_carry_L2 hostOps5
    _ = W9 (F := Ideal) m ρ c (Proc.devRef .tc main_v3) := W10_of_ne m ρ c main_v3 (by decide)
    _ = W8 (F := Ideal) m ρ c (Proc.devRef .tc main_v3) := by host_carry_L2 hostOps4
    _ = W7 (F := Ideal) m ρ c (Proc.devRef .tc main_v3) := W8_of_ne m ρ c main_v3 (by decide)
    _ = W6 (F := Ideal) m ρ c (Proc.devRef .tc main_v3) := W7_of_ne m ρ c main_v3 (by decide)
    _ = W5 (F := Ideal) m ρ c (Proc.devRef .tc main_v3) := by host_carry_L2 hostOps2
    _ = W4 (F := Ideal) m ρ c (Proc.devRef .tc main_v3) := W5_of_ne m ρ c main_v3 (by decide)
    _ = W3 (F := Ideal) m ρ c (Proc.devRef .tc main_v3) := W4_of_ne m ρ c main_v3 (by decide)

/-- The edge weights keep their contents from the stretch that writes them. -/
theorem v29_22_3 : W22 (F := Ideal) m ρ c (Proc.devRef .tc main_v29) = W3 (F := Ideal) m ρ c (Proc.devRef .tc main_v29) :=
  calc W22 (F := Ideal) m ρ c (Proc.devRef .tc main_v29)
    _ = W21 (F := Ideal) m ρ c (Proc.devRef .tc main_v29) := W22_of_ne m ρ c main_v29 (by decide)
    _ = W20 (F := Ideal) m ρ c (Proc.devRef .tc main_v29) := by host_carry_L2 hostOps10
    _ = W19 (F := Ideal) m ρ c (Proc.devRef .tc main_v29) := W20_of_ne m ρ c main_v29 (by decide)
    _ = W18 (F := Ideal) m ρ c (Proc.devRef .tc main_v29) := by host_carry_L2 hostOps9
    _ = W17 (F := Ideal) m ρ c (Proc.devRef .tc main_v29) := W18_of_ne m ρ c main_v29 (by decide)
    _ = W16 (F := Ideal) m ρ c (Proc.devRef .tc main_v29) := by host_carry_L2 hostOps8
    _ = W15 (F := Ideal) m ρ c (Proc.devRef .tc main_v29) := W16_of_ne m ρ c main_v29 (by decide)
    _ = W14 (F := Ideal) m ρ c (Proc.devRef .tc main_v29) := by host_carry_L2 hostOps7
    _ = W13 (F := Ideal) m ρ c (Proc.devRef .tc main_v29) := W14_of_ne m ρ c main_v29 (by decide)
    _ = W12 (F := Ideal) m ρ c (Proc.devRef .tc main_v29) := by host_carry_L2 hostOps6
    _ = W11 (F := Ideal) m ρ c (Proc.devRef .tc main_v29) := W12_of_ne m ρ c main_v29 (by decide)
    _ = W10 (F := Ideal) m ρ c (Proc.devRef .tc main_v29) := by host_carry_L2 hostOps5
    _ = W9 (F := Ideal) m ρ c (Proc.devRef .tc main_v29) := W10_of_ne m ρ c main_v29 (by decide)
    _ = W8 (F := Ideal) m ρ c (Proc.devRef .tc main_v29) := by host_carry_L2 hostOps4
    _ = W7 (F := Ideal) m ρ c (Proc.devRef .tc main_v29) := W8_of_ne m ρ c main_v29 (by decide)
    _ = W6 (F := Ideal) m ρ c (Proc.devRef .tc main_v29) := W7_of_ne m ρ c main_v29 (by decide)
    _ = W5 (F := Ideal) m ρ c (Proc.devRef .tc main_v29) := by host_carry_L2 hostOps2
    _ = W4 (F := Ideal) m ρ c (Proc.devRef .tc main_v29) := W5_of_ne m ρ c main_v29 (by decide)
    _ = W3 (F := Ideal) m ρ c (Proc.devRef .tc main_v29) := W4_of_ne m ρ c main_v29 (by decide)

/-- The stack of bias vectors is an argument no segment writes. -/
theorem arg10_22_0 : W22 (F := Ideal) m ρ c (Proc.devRef .tc main_arg10) = m ((c : Thread nD τ).loc main_arg10) :=
  calc W22 (F := Ideal) m ρ c (Proc.devRef .tc main_arg10)
    _ = W21 (F := Ideal) m ρ c (Proc.devRef .tc main_arg10) := W22_of_ne m ρ c main_arg10 (by decide)
    _ = W20 (F := Ideal) m ρ c (Proc.devRef .tc main_arg10) := by host_carry_L2 hostOps10
    _ = W19 (F := Ideal) m ρ c (Proc.devRef .tc main_arg10) := W20_of_ne m ρ c main_arg10 (by decide)
    _ = W18 (F := Ideal) m ρ c (Proc.devRef .tc main_arg10) := by host_carry_L2 hostOps9
    _ = W17 (F := Ideal) m ρ c (Proc.devRef .tc main_arg10) := W18_of_ne m ρ c main_arg10 (by decide)
    _ = W16 (F := Ideal) m ρ c (Proc.devRef .tc main_arg10) := by host_carry_L2 hostOps8
    _ = W15 (F := Ideal) m ρ c (Proc.devRef .tc main_arg10) := W16_of_ne m ρ c main_arg10 (by decide)
    _ = W14 (F := Ideal) m ρ c (Proc.devRef .tc main_arg10) := by host_carry_L2 hostOps7
    _ = W13 (F := Ideal) m ρ c (Proc.devRef .tc main_arg10) := W14_of_ne m ρ c main_arg10 (by decide)
    _ = W12 (F := Ideal) m ρ c (Proc.devRef .tc main_arg10) := by host_carry_L2 hostOps6
    _ = W11 (F := Ideal) m ρ c (Proc.devRef .tc main_arg10) := W12_of_ne m ρ c main_arg10 (by decide)
    _ = W10 (F := Ideal) m ρ c (Proc.devRef .tc main_arg10) := by host_carry_L2 hostOps5
    _ = W9 (F := Ideal) m ρ c (Proc.devRef .tc main_arg10) := W10_of_ne m ρ c main_arg10 (by decide)
    _ = W8 (F := Ideal) m ρ c (Proc.devRef .tc main_arg10) := by host_carry_L2 hostOps4
    _ = W7 (F := Ideal) m ρ c (Proc.devRef .tc main_arg10) := W8_of_ne m ρ c main_arg10 (by decide)
    _ = W6 (F := Ideal) m ρ c (Proc.devRef .tc main_arg10) := W7_of_ne m ρ c main_arg10 (by decide)
    _ = W5 (F := Ideal) m ρ c (Proc.devRef .tc main_arg10) := by host_carry_L2 hostOps2
    _ = W4 (F := Ideal) m ρ c (Proc.devRef .tc main_arg10) := W5_of_ne m ρ c main_arg10 (by decide)
    _ = W3 (F := Ideal) m ρ c (Proc.devRef .tc main_arg10) := W4_of_ne m ρ c main_arg10 (by decide)
    _ = W2 (F := Ideal) m ρ c (Proc.devRef .tc main_arg10) := by host_carry_L2 hostOps0_2
    _ = W1 (F := Ideal) m ρ c (Proc.devRef .tc main_arg10) := by host_carry_L2 hostOps0_1
    _ = W0 (F := Ideal) m ρ c (Proc.devRef .tc main_arg10) := by host_carry_L2 hostOps0
    _ = m ((c : Thread nD τ).loc main_arg10) := rfl

/-- The stack of scale vectors is an argument no segment writes. -/
theorem arg11_22_0 : W22 (F := Ideal) m ρ c (Proc.devRef .tc main_arg11) = m ((c : Thread nD τ).loc main_arg11) :=
  calc W22 (F := Ideal) m ρ c (Proc.devRef .tc main_arg11)
    _ = W21 (F := Ideal) m ρ c (Proc.devRef .tc main_arg11) := W22_of_ne m ρ c main_arg11 (by decide)
    _ = W20 (F := Ideal) m ρ c (Proc.devRef .tc main_arg11) := by host_carry_L2 hostOps10
    _ = W19 (F := Ideal) m ρ c (Proc.devRef .tc main_arg11) := W20_of_ne m ρ c main_arg11 (by decide)
    _ = W18 (F := Ideal) m ρ c (Proc.devRef .tc main_arg11) := by host_carry_L2 hostOps9
    _ = W17 (F := Ideal) m ρ c (Proc.devRef .tc main_arg11) := W18_of_ne m ρ c main_arg11 (by decide)
    _ = W16 (F := Ideal) m ρ c (Proc.devRef .tc main_arg11) := by host_carry_L2 hostOps8
    _ = W15 (F := Ideal) m ρ c (Proc.devRef .tc main_arg11) := W16_of_ne m ρ c main_arg11 (by decide)
    _ = W14 (F := Ideal) m ρ c (Proc.devRef .tc main_arg11) := by host_carry_L2 hostOps7
    _ = W13 (F := Ideal) m ρ c (Proc.devRef .tc main_arg11) := W14_of_ne m ρ c main_arg11 (by decide)
    _ = W12 (F := Ideal) m ρ c (Proc.devRef .tc main_arg11) := by host_carry_L2 hostOps6
    _ = W11 (F := Ideal) m ρ c (Proc.devRef .tc main_arg11) := W12_of_ne m ρ c main_arg11 (by decide)
    _ = W10 (F := Ideal) m ρ c (Proc.devRef .tc main_arg11) := by host_carry_L2 hostOps5
    _ = W9 (F := Ideal) m ρ c (Proc.devRef .tc main_arg11) := W10_of_ne m ρ c main_arg11 (by decide)
    _ = W8 (F := Ideal) m ρ c (Proc.devRef .tc main_arg11) := by host_carry_L2 hostOps4
    _ = W7 (F := Ideal) m ρ c (Proc.devRef .tc main_arg11) := W8_of_ne m ρ c main_arg11 (by decide)
    _ = W6 (F := Ideal) m ρ c (Proc.devRef .tc main_arg11) := W7_of_ne m ρ c main_arg11 (by decide)
    _ = W5 (F := Ideal) m ρ c (Proc.devRef .tc main_arg11) := by host_carry_L2 hostOps2
    _ = W4 (F := Ideal) m ρ c (Proc.devRef .tc main_arg11) := W5_of_ne m ρ c main_arg11 (by decide)
    _ = W3 (F := Ideal) m ρ c (Proc.devRef .tc main_arg11) := W4_of_ne m ρ c main_arg11 (by decide)
    _ = W2 (F := Ideal) m ρ c (Proc.devRef .tc main_arg11) := by host_carry_L2 hostOps0_2
    _ = W1 (F := Ideal) m ρ c (Proc.devRef .tc main_arg11) := by host_carry_L2 hostOps0_1
    _ = W0 (F := Ideal) m ρ c (Proc.devRef .tc main_arg11) := by host_carry_L2 hostOps0
    _ = m ((c : Thread nD τ).loc main_arg11) := rfl

/-- The stack of shift vectors is an argument no segment writes. -/
theorem arg12_22_0 : W22 (F := Ideal) m ρ c (Proc.devRef .tc main_arg12) = m ((c : Thread nD τ).loc main_arg12) :=
  calc W22 (F := Ideal) m ρ c (Proc.devRef .tc main_arg12)
    _ = W21 (F := Ideal) m ρ c (Proc.devRef .tc main_arg12) := W22_of_ne m ρ c main_arg12 (by decide)
    _ = W20 (F := Ideal) m ρ c (Proc.devRef .tc main_arg12) := by host_carry_L2 hostOps10
    _ = W19 (F := Ideal) m ρ c (Proc.devRef .tc main_arg12) := W20_of_ne m ρ c main_arg12 (by decide)
    _ = W18 (F := Ideal) m ρ c (Proc.devRef .tc main_arg12) := by host_carry_L2 hostOps9
    _ = W17 (F := Ideal) m ρ c (Proc.devRef .tc main_arg12) := W18_of_ne m ρ c main_arg12 (by decide)
    _ = W16 (F := Ideal) m ρ c (Proc.devRef .tc main_arg12) := by host_carry_L2 hostOps8
    _ = W15 (F := Ideal) m ρ c (Proc.devRef .tc main_arg12) := W16_of_ne m ρ c main_arg12 (by decide)
    _ = W14 (F := Ideal) m ρ c (Proc.devRef .tc main_arg12) := by host_carry_L2 hostOps7
    _ = W13 (F := Ideal) m ρ c (Proc.devRef .tc main_arg12) := W14_of_ne m ρ c main_arg12 (by decide)
    _ = W12 (F := Ideal) m ρ c (Proc.devRef .tc main_arg12) := by host_carry_L2 hostOps6
    _ = W11 (F := Ideal) m ρ c (Proc.devRef .tc main_arg12) := W12_of_ne m ρ c main_arg12 (by decide)
    _ = W10 (F := Ideal) m ρ c (Proc.devRef .tc main_arg12) := by host_carry_L2 hostOps5
    _ = W9 (F := Ideal) m ρ c (Proc.devRef .tc main_arg12) := W10_of_ne m ρ c main_arg12 (by decide)
    _ = W8 (F := Ideal) m ρ c (Proc.devRef .tc main_arg12) := by host_carry_L2 hostOps4
    _ = W7 (F := Ideal) m ρ c (Proc.devRef .tc main_arg12) := W8_of_ne m ρ c main_arg12 (by decide)
    _ = W6 (F := Ideal) m ρ c (Proc.devRef .tc main_arg12) := W7_of_ne m ρ c main_arg12 (by decide)
    _ = W5 (F := Ideal) m ρ c (Proc.devRef .tc main_arg12) := by host_carry_L2 hostOps2
    _ = W4 (F := Ideal) m ρ c (Proc.devRef .tc main_arg12) := W5_of_ne m ρ c main_arg12 (by decide)
    _ = W3 (F := Ideal) m ρ c (Proc.devRef .tc main_arg12) := W4_of_ne m ρ c main_arg12 (by decide)
    _ = W2 (F := Ideal) m ρ c (Proc.devRef .tc main_arg12) := by host_carry_L2 hostOps0_2
    _ = W1 (F := Ideal) m ρ c (Proc.devRef .tc main_arg12) := by host_carry_L2 hostOps0_1
    _ = W0 (F := Ideal) m ρ c (Proc.devRef .tc main_arg12) := by host_carry_L2 hostOps0
    _ = m ((c : Thread nD τ).loc main_arg12) := rfl

/-- The aggregate keeps its contents through the statistics. -/
theorem v129_25_23 : W25 (F := Ideal) m ρ c (Proc.devRef .tc main_v129) = W23 (F := Ideal) m ρ c (Proc.devRef .tc main_v129) :=
  calc W25 (F := Ideal) m ρ c (Proc.devRef .tc main_v129)
    _ = W24 (F := Ideal) m ρ c (Proc.devRef .tc main_v129) := by host_carry_L2 hostOps12
    _ = W23 (F := Ideal) m ρ c (Proc.devRef .tc main_v129) := (W24_arr m ρ c 0).trans (((dat11 (F := Ideal) (V23 (F := Ideal) m ρ) c).arrAt_in 0 rfl _).trans (A_eq11 (V23 (F := Ideal) m ρ) c 0))

/-- The bias row keeps its contents through the statistics. -/
theorem v132_25_23 : W25 (F := Ideal) m ρ c (Proc.devRef .tc main_v132) = W23 (F := Ideal) m ρ c (Proc.devRef .tc main_v132) :=
  calc W25 (F := Ideal) m ρ c (Proc.devRef .tc main_v132)
    _ = W24 (F := Ideal) m ρ c (Proc.devRef .tc main_v132) := by host_carry_L2 hostOps12
    _ = W23 (F := Ideal) m ρ c (Proc.devRef .tc main_v132) := (W24_arr m ρ c 1).trans (((dat11 (F := Ideal) (V23 (F := Ideal) m ρ) c).arrAt_in 1 rfl _).trans (A_eq11 (V23 (F := Ideal) m ρ) c 1))

/-- The scale row keeps its contents through the statistics. -/
theorem v135_25_23 : W25 (F := Ideal) m ρ c (Proc.devRef .tc main_v135) = W23 (F := Ideal) m ρ c (Proc.devRef .tc main_v135) :=
  calc W25 (F := Ideal) m ρ c (Proc.devRef .tc main_v135)
    _ = W24 (F := Ideal) m ρ c (Proc.devRef .tc main_v135) := by host_carry_L2 hostOps12
    _ = W23 (F := Ideal) m ρ c (Proc.devRef .tc main_v135) := W24_of_ne m ρ c main_v135 (by decide)

/-- The shift row keeps its contents through the statistics. -/
theorem v138_25_23 : W25 (F := Ideal) m ρ c (Proc.devRef .tc main_v138) = W23 (F := Ideal) m ρ c (Proc.devRef .tc main_v138) :=
  calc W25 (F := Ideal) m ρ c (Proc.devRef .tc main_v138)
    _ = W24 (F := Ideal) m ρ c (Proc.devRef .tc main_v138) := by host_carry_L2 hostOps12
    _ = W23 (F := Ideal) m ρ c (Proc.devRef .tc main_v138) := W24_of_ne m ρ c main_v138 (by decide)

/-! ## The linear map of the layer's input -/

/-- The layer's weight matrix, cut out of the stack. -/
theorem weight_at21 : W21 (F := Ideal) m ρ c (Proc.devRef .tc main_v116)
    = fun i => (m ((c : Thread nD τ).loc main_arg9) : S3x128x128.Idx → EReal) (ix3 2 (i 0) (i 1)) := by
  refine (Raw.hostOps10_v116 (F := Ideal) (W20 (F := Ideal) m ρ c)).trans ?_
  refine Eq.trans (OpsRead.mat_layer2_eq (W20 (F := Ideal) m ρ c (Proc.devRef .tc main_arg9))) ?_
  exact congrArg (fun (a : S3x128x128.Idx → EReal) => fun (i : Sdd.Idx) => a (ix3 2 (i 0) (i 1))) (arg9_20_0 m ρ c)

/-- The zero row the layer's linear map takes as its bias. -/
theorem zero_at21 : W21 (F := Ideal) m ρ c (Proc.devRef .tc main_v30) = (fun _ => 0 : Srow.Idx → EReal) :=
  (v30_21_3 m ρ c).trans ((Raw.hostOps0_2_v30 (F := Ideal) (W2 (F := Ideal) m ρ c)).trans OpsRead.zero_row_eq)

/-- The layer's input times the layer's weights. -/
theorem hw_at22 : W22 (F := Ideal) m ρ c (Proc.devRef .tc main_v117)
    = linear (W20 (F := Ideal) m ρ c (Proc.devRef .tc main_v114)) (fun i => (m ((c : Thread nD τ).loc main_arg9) : S3x128x128.Idx → EReal) (ix3 2 (i 0) (i 1))) (fun _ => 0) :=
  (W22_arr m ρ c 3).trans ((Cert.KernelIdeal.MmValue10.mm10 (V21 (F := Ideal) m ρ) c).trans
    (linear_congr (v114_21_20 m ρ c) (weight_at21 m ρ c) (zero_at21 m ρ c)))

/-! ## The aggregate and the layer's rows -/

/-- The aggregate: the transformed features gathered along the edges, weighted, and summed into their target nodes. -/
theorem agg_at23 : W23 (F := Ideal) m ρ c (Proc.devRef .tc main_v129)
    = Cert.KernelIdeal.Agg.aggOps (W3 (F := Ideal) m ρ c (Proc.devRef .tc main_v1)) (W3 (F := Ideal) m ρ c (Proc.devRef .tc main_v3)) (W3 (F := Ideal) m ρ c (Proc.devRef .tc main_v29)) (W22 (F := Ideal) m ρ c (Proc.devRef .tc main_v117)) :=
  (Cert.KernelIdeal.Agg.hostOps11_v129_eq (W22 (F := Ideal) m ρ c)).trans
    (aggOps_congr _ (v1_22_3 m ρ c) (v3_22_3 m ρ c) (v29_22_3 m ρ c))

/-- The layer's bias, cut out of its stack and laid out as a row. -/
theorem bias_at23 : W23 (F := Ideal) m ρ c (Proc.devRef .tc main_v132)
    = rowOf (fun j => (m ((c : Thread nD τ).loc main_arg10) : S3x128.Idx → EReal) (ix2 2 (j 0))) := by
  refine (Raw.hostOps11_v132 (F := Ideal) (W22 (F := Ideal) m ρ c)).trans ?_
  refine Eq.trans (OpsRead.row_layer2_eq (W22 (F := Ideal) m ρ c (Proc.devRef .tc main_arg10))) ?_
  exact congrArg (fun (a : S3x128.Idx → EReal) => rowOf (fun j => a (ix2 2 (j 0)))) (arg10_22_0 m ρ c)

/-- The layer's scale, cut out of its stack and laid out as a row. -/
theorem scale_at23 : W23 (F := Ideal) m ρ c (Proc.devRef .tc main_v135)
    = rowOf (fun j => (m ((c : Thread nD τ).loc main_arg11) : S3x128.Idx → EReal) (ix2 2 (j 0))) := by
  refine (Raw.hostOps11_v135 (F := Ideal) (W22 (F := Ideal) m ρ c)).trans ?_
  refine Eq.trans (OpsRead.row_layer2_eq (W22 (F := Ideal) m ρ c (Proc.devRef .tc main_arg11))) ?_
  exact congrArg (fun (a : S3x128.Idx → EReal) => rowOf (fun j => a (ix2 2 (j 0)))) (arg11_22_0 m ρ c)

/-- The layer's shift, cut out of its stack and laid out as a row. -/
theorem shift_at23 : W23 (F := Ideal) m ρ c (Proc.devRef .tc main_v138)
    = rowOf (fun j => (m ((c : Thread nD τ).loc main_arg12) : S3x128.Idx → EReal) (ix2 2 (j 0))) := by
  refine (Raw.hostOps11_v138 (F := Ideal) (W22 (F := Ideal) m ρ c)).trans ?_
  refine Eq.trans (OpsRead.row_layer2_eq (W22 (F := Ideal) m ρ c (Proc.devRef .tc main_arg12))) ?_
  exact congrArg (fun (a : S3x128.Idx → EReal) => rowOf (fun j => a (ix2 2 (j 0)))) (arg12_22_0 m ρ c)

/-! ## The statistics -/

/-- The column sums of the aggregate plus its bias, as the statistics region leaves them. -/
theorem sum_at24 : W24 (F := Ideal) m ρ c (Proc.devRef .tc main_v139_0) = colSum (addRow (W23 (F := Ideal) m ρ c (Proc.devRef .tc main_v129)) (W23 (F := Ideal) m ρ c (Proc.devRef .tc main_v132))) :=
  (W24_arr m ρ c 2).trans (Cert.KernelIdeal.StatsValue11.sum11 (V23 (F := Ideal) m ρ) c)

/-- The column sums of its square. -/
theorem sumsq_at24 : W24 (F := Ideal) m ρ c (Proc.devRef .tc main_v139_1) = colSumSq (addRow (W23 (F := Ideal) m ρ c (Proc.devRef .tc main_v129)) (W23 (F := Ideal) m ρ c (Proc.devRef .tc main_v132))) :=
  (W24_arr m ρ c 3).trans (Cert.KernelIdeal.StatsValue11.sumsq11 (V23 (F := Ideal) m ρ) c)

/-- The column means. -/
theorem mean_at25 : W25 (F := Ideal) m ρ c (Proc.devRef .tc main_v141) = meanRow (addRow (W23 (F := Ideal) m ρ c (Proc.devRef .tc main_v129)) (W23 (F := Ideal) m ρ c (Proc.devRef .tc main_v132))) :=
  (Raw.hostOps12_v141 (F := Ideal) (W24 (F := Ideal) m ρ c)).trans
    (OpsRead.mean_row_eq (addRow (W23 (F := Ideal) m ρ c (Proc.devRef .tc main_v129)) (W23 (F := Ideal) m ρ c (Proc.devRef .tc main_v132))) (W24 (F := Ideal) m ρ c (Proc.devRef .tc main_v139_0)) (sum_at24 m ρ c))

/-- The column variances, in one pass. -/
theorem var_at25 : W25 (F := Ideal) m ρ c (Proc.devRef .tc main_v147) = varOnePassRow (addRow (W23 (F := Ideal) m ρ c (Proc.devRef .tc main_v129)) (W23 (F := Ideal) m ρ c (Proc.devRef .tc main_v132))) :=
  (Raw.hostOps12_v147 (F := Ideal) (W24 (F := Ideal) m ρ c)).trans
    (OpsRead.var_row_eq (addRow (W23 (F := Ideal) m ρ c (Proc.devRef .tc main_v129)) (W23 (F := Ideal) m ρ c (Proc.devRef .tc main_v132))) (W24 (F := Ideal) m ρ c (Proc.devRef .tc main_v139_0)) (W24 (F := Ideal) m ρ c (Proc.devRef .tc main_v139_1)) (sum_at24 m ρ c) (sumsq_at24 m ρ c))

/-! ## The layer's output -/

/-- The aggregate plus its bias, normalised by its column statistics, scaled, shifted, clamped at zero, added to the layer's input. -/
theorem out_at26 : W26 (F := Ideal) m ρ c (Proc.devRef .tc main_v148)
    = bnReluRes (W23 (F := Ideal) m ρ c (Proc.devRef .tc main_v129)) (W23 (F := Ideal) m ρ c (Proc.devRef .tc main_v132)) (W25 (F := Ideal) m ρ c (Proc.devRef .tc main_v141)) (W25 (F := Ideal) m ρ c (Proc.devRef .tc main_v147))
        (W23 (F := Ideal) m ρ c (Proc.devRef .tc main_v135)) (W23 (F := Ideal) m ρ c (Proc.devRef .tc main_v138)) (W20 (F := Ideal) m ρ c (Proc.devRef .tc main_v114)) :=
  (W26_arr m ρ c 7).trans ((Cert.KernelIdeal.BnResValue12.bnres12 (V25 (F := Ideal) m ρ) c).trans
    (bnReluRes_congr (v129_25_23 m ρ c) (v132_25_23 m ρ c) rfl rfl (v135_25_23 m ρ c) (v138_25_23 m ρ c) (v114_25_20 m ρ c)))

end Cert.KernelIdeal.FoldL2

end
-- ==== Proof.KLayers.lean ====
import proofs.«136606_j68719476736452_2_alg».proof.Proof.Gen.KernelIdeal.Frame
import proofs.«136606_j68719476736452_2_alg».proof.Proof.Spec
import Idealize.ShloMosaic.Lib.StableHlo.Run
import Idealize.ShloMosaic.Lib.ValueIdx
import Idealize.ShloMosaic.Lib.Pipeline.Value
import proofs.«136606_j68719476736452_2_alg».proof.Proof.KFoldL0
import proofs.«136606_j68719476736452_2_alg».proof.Proof.KFoldL1
import proofs.«136606_j68719476736452_2_alg».proof.Proof.KFoldL2
import proofs.«136606_j68719476736452_2_alg».proof.Proof.Agg
set_option maxRecDepth 16384

noncomputable section

namespace Cert.KernelIdeal.Layers

open Cert.KernelIdeal Cert.KernelIdeal.Gen Cert.Gcn
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- A buffer that no operation of a host stretch writes keeps its contents across the stretch. -/
macro "host_carry" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! # Each graph-convolution layer of the kernel program as one function -/

set_option maxHeartbeats 2000000 in
/-- Layer 0: the layer's output as one function of its input, the edge arrays and the layer's slices of the
    weight, bias, scale and shift arguments: aggregate the weighted neighbours' features, add the bias, normalise each
    column by its mean and one-pass variance, scale, shift, clamp at zero, and add the input back. -/
theorem layer0_out : W14 (F := Ideal) m ρ c (Proc.devRef .tc main_v80)
    = bnReluRes (Cert.KernelIdeal.Agg.aggOps (W3 (F := Ideal) m ρ c (Proc.devRef .tc main_v1)) (W3 (F := Ideal) m ρ c (Proc.devRef .tc main_v3)) (W3 (F := Ideal) m ρ c (Proc.devRef .tc main_v29)) (linear (W8 (F := Ideal) m ρ c (Proc.devRef .tc main_v46)) (fun i => (m ((c : Thread nD τ).loc main_arg9) : S3x128x128.Idx → EReal) (ix3 0 (i 0) (i 1))) (fun _ => 0))) (rowOf (fun j => (m ((c : Thread nD τ).loc main_arg10) : S3x128.Idx → EReal) (ix2 0 (j 0)))) (meanRow (addRow (Cert.KernelIdeal.Agg.aggOps (W3 (F := Ideal) m ρ c (Proc.devRef .tc main_v1)) (W3 (F := Ideal) m ρ c (Proc.devRef .tc main_v3)) (W3 (F := Ideal) m ρ c (Proc.devRef .tc main_v29)) (linear (W8 (F := Ideal) m ρ c (Proc.devRef .tc main_v46)) (fun i => (m ((c : Thread nD τ).loc main_arg9) : S3x128x128.Idx → EReal) (ix3 0 (i 0) (i 1))) (fun _ => 0))) (rowOf (fun j => (m ((c : Thread nD τ).loc main_arg10) : S3x128.Idx → EReal) (ix2 0 (j 0)))))) (varOnePassRow (addRow (Cert.KernelIdeal.Agg.aggOps (W3 (F := Ideal) m ρ c (Proc.devRef .tc main_v1)) (W3 (F := Ideal) m ρ c (Proc.devRef .tc main_v3)) (W3 (F := Ideal) m ρ c (Proc.devRef .tc main_v29)) (linear (W8 (F := Ideal) m ρ c (Proc.devRef .tc main_v46)) (fun i => (m ((c : Thread nD τ).loc main_arg9) : S3x128x128.Idx → EReal) (ix3 0 (i 0) (i 1))) (fun _ => 0))) (rowOf (fun j => (m ((c : Thread nD τ).loc main_arg10) : S3x128.Idx → EReal) (ix2 0 (j 0)))))) (rowOf (fun j => (m ((c : Thread nD τ).loc main_arg11) : S3x128.Idx → EReal) (ix2 0 (j 0)))) (rowOf (fun j => (m ((c : Thread nD τ).loc main_arg12) : S3x128.Idx → EReal) (ix2 0 (j 0)))) (W8 (F := Ideal) m ρ c (Proc.devRef .tc main_v46)) := by
  refine (Cert.KernelIdeal.FoldL0.out_at14 m ρ c).trans ?_
  rw [Cert.KernelIdeal.FoldL0.mean_at13 m ρ c, Cert.KernelIdeal.FoldL0.var_at13 m ρ c, Cert.KernelIdeal.FoldL0.agg_at11 m ρ c,
    Cert.KernelIdeal.FoldL0.bias_at11 m ρ c, Cert.KernelIdeal.FoldL0.scale_at11 m ρ c, Cert.KernelIdeal.FoldL0.shift_at11 m ρ c,
    Cert.KernelIdeal.FoldL0.hw_at10 m ρ c]

set_option maxHeartbeats 2000000 in
/-- Layer 1: the layer's output as one function of its input, the edge arrays and the layer's slices of the
    weight, bias, scale and shift arguments: aggregate the weighted neighbours' features, add the bias, normalise each
    column by its mean and one-pass variance, scale, shift, clamp at zero, and add the input back. -/
theorem layer1_out : W20 (F := Ideal) m ρ c (Proc.devRef .tc main_v114)
    = bnReluRes (Cert.KernelIdeal.Agg.aggOps (W3 (F := Ideal) m ρ c (Proc.devRef .tc main_v1)) (W3 (F := Ideal) m ρ c (Proc.devRef .tc main_v3)) (W3 (F := Ideal) m ρ c (Proc.devRef .tc main_v29)) (linear (W14 (F := Ideal) m ρ c (Proc.devRef .tc main_v80)) (fun i => (m ((c : Thread nD τ).loc main_arg9) : S3x128x128.Idx → EReal) (ix3 1 (i 0) (i 1))) (fun _ => 0))) (rowOf (fun j => (m ((c : Thread nD τ).loc main_arg10) : S3x128.Idx → EReal) (ix2 1 (j 0)))) (meanRow (addRow (Cert.KernelIdeal.Agg.aggOps (W3 (F := Ideal) m ρ c (Proc.devRef .tc main_v1)) (W3 (F := Ideal) m ρ c (Proc.devRef .tc main_v3)) (W3 (F := Ideal) m ρ c (Proc.devRef .tc main_v29)) (linear (W14 (F := Ideal) m ρ c (Proc.devRef .tc main_v80)) (fun i => (m ((c : Thread nD τ).loc main_arg9) : S3x128x128.Idx → EReal) (ix3 1 (i 0) (i 1))) (fun _ => 0))) (rowOf (fun j => (m ((c : Thread nD τ).loc main_arg10) : S3x128.Idx → EReal) (ix2 1 (j 0)))))) (varOnePassRow (addRow (Cert.KernelIdeal.Agg.aggOps (W3 (F := Ideal) m ρ c (Proc.devRef .tc main_v1)) (W3 (F := Ideal) m ρ c (Proc.devRef .tc main_v3)) (W3 (F := Ideal) m ρ c (Proc.devRef .tc main_v29)) (linear (W14 (F := Ideal) m ρ c (Proc.devRef .tc main_v80)) (fun i => (m ((c : Thread nD τ).loc main_arg9) : S3x128x128.Idx → EReal) (ix3 1 (i 0) (i 1))) (fun _ => 0))) (rowOf (fun j => (m ((c : Thread nD τ).loc main_arg10) : S3x128.Idx → EReal) (ix2 1 (j 0)))))) (rowOf (fun j => (m ((c : Thread nD τ).loc main_arg11) : S3x128.Idx → EReal) (ix2 1 (j 0)))) (rowOf (fun j => (m ((c : Thread nD τ).loc main_arg12) : S3x128.Idx → EReal) (ix2 1 (j 0)))) (W14 (F := Ideal) m ρ c (Proc.devRef .tc main_v80)) := by
  refine (Cert.KernelIdeal.FoldL1.out_at20 m ρ c).trans ?_
  rw [Cert.KernelIdeal.FoldL1.mean_at19 m ρ c, Cert.KernelIdeal.FoldL1.var_at19 m ρ c, Cert.KernelIdeal.FoldL1.agg_at17 m ρ c,
    Cert.KernelIdeal.FoldL1.bias_at17 m ρ c, Cert.KernelIdeal.FoldL1.scale_at17 m ρ c, Cert.KernelIdeal.FoldL1.shift_at17 m ρ c,
    Cert.KernelIdeal.FoldL1.hw_at16 m ρ c]

set_option maxHeartbeats 2000000 in
/-- Layer 2: the layer's output as one function of its input, the edge arrays and the layer's slices of the
    weight, bias, scale and shift arguments: aggregate the weighted neighbours' features, add the bias, normalise each
    column by its mean and one-pass variance, scale, shift, clamp at zero, and add the input back. -/
theorem layer2_out : W26 (F := Ideal) m ρ c (Proc.devRef .tc main_v148)
    = bnReluRes (Cert.KernelIdeal.Agg.aggOps (W3 (F := Ideal) m ρ c (Proc.devRef .tc main_v1)) (W3 (F := Ideal) m ρ c (Proc.devRef .tc main_v3)) (W3 (F := Ideal) m ρ c (Proc.devRef .tc main_v29)) (linear (W20 (F := Ideal) m ρ c (Proc.devRef .tc main_v114)) (fun i => (m ((c : Thread nD τ).loc main_arg9) : S3x128x128.Idx → EReal) (ix3 2 (i 0) (i 1))) (fun _ => 0))) (rowOf (fun j => (m ((c : Thread nD τ).loc main_arg10) : S3x128.Idx → EReal) (ix2 2 (j 0)))) (meanRow (addRow (Cert.KernelIdeal.Agg.aggOps (W3 (F := Ideal) m ρ c (Proc.devRef .tc main_v1)) (W3 (F := Ideal) m ρ c (Proc.devRef .tc main_v3)) (W3 (F := Ideal) m ρ c (Proc.devRef .tc main_v29)) (linear (W20 (F := Ideal) m ρ c (Proc.devRef .tc main_v114)) (fun i => (m ((c : Thread nD τ).loc main_arg9) : S3x128x128.Idx → EReal) (ix3 2 (i 0) (i 1))) (fun _ => 0))) (rowOf (fun j => (m ((c : Thread nD τ).loc main_arg10) : S3x128.Idx → EReal) (ix2 2 (j 0)))))) (varOnePassRow (addRow (Cert.KernelIdeal.Agg.aggOps (W3 (F := Ideal) m ρ c (Proc.devRef .tc main_v1)) (W3 (F := Ideal) m ρ c (Proc.devRef .tc main_v3)) (W3 (F := Ideal) m ρ c (Proc.devRef .tc main_v29)) (linear (W20 (F := Ideal) m ρ c (Proc.devRef .tc main_v114)) (fun i => (m ((c : Thread nD τ).loc main_arg9) : S3x128x128.Idx → EReal) (ix3 2 (i 0) (i 1))) (fun _ => 0))) (rowOf (fun j => (m ((c : Thread nD τ).loc main_arg10) : S3x128.Idx → EReal) (ix2 2 (j 0)))))) (rowOf (fun j => (m ((c : Thread nD τ).loc main_arg11) : S3x128.Idx → EReal) (ix2 2 (j 0)))) (rowOf (fun j => (m ((c : Thread nD τ).loc main_arg12) : S3x128.Idx → EReal) (ix2 2 (j 0)))) (W20 (F := Ideal) m ρ c (Proc.devRef .tc main_v114)) := by
  refine (Cert.KernelIdeal.FoldL2.out_at26 m ρ c).trans ?_
  rw [Cert.KernelIdeal.FoldL2.mean_at25 m ρ c, Cert.KernelIdeal.FoldL2.var_at25 m ρ c, Cert.KernelIdeal.FoldL2.agg_at23 m ρ c,
    Cert.KernelIdeal.FoldL2.bias_at23 m ρ c, Cert.KernelIdeal.FoldL2.scale_at23 m ρ c, Cert.KernelIdeal.FoldL2.shift_at23 m ρ c,
    Cert.KernelIdeal.FoldL2.hw_at22 m ρ c]

end Cert.KernelIdeal.Layers

end
-- ==== Proof.Shared.lean ====
/-
  The two programs run the same host operations on the edge list, on each layer's aggregate and on the
  readout; only the names of their buffers and each program's own copy of the dimension records differ.
  This module states those shared chains once and shows that the reference's copy equals the kernel
  program's copy.
-/
import proofs.«136606_j68719476736452_2_alg».proof.Proof.Agg
import proofs.«136606_j68719476736452_2_alg».proof.Proof.KRaw
import proofs.«136606_j68719476736452_2_alg».proof.Proof.RefRun
import proofs.«136606_j68719476736452_2_alg».proof.Proof.RefOps
import Idealize.ShloMosaic.Lib.ValueIdx
import Idealize.ShloMosaic.Lib.ValueLayout
import Idealize.ShloMosaic.Lib.IdealHost
import Mathlib.Tactic

set_option maxRecDepth 16384

noncomputable section

open Idealize.ShloMosaic Idealize.ShloMosaic.ValueIdx Idealize.ShloMosaic.TcCoe
open scoped BigOperators

namespace Cert.Shared

/-! ## A layer's aggregate in the reference -/

section RefAgg
open Cert.ReferenceIdeal Cert.ReferenceIdeal.Gen

/-- The reference's aggregation, written with the reference's own dimension records, is the aggregation function
    of the kernel program: the records have the same fields. -/
theorem ref_agg_eq (src dst : IVec S640000 32) (ew : FVec Ideal S640000x1 .f32) (hw : FVec Ideal S100000x128 .f32) :
    ((Host.scatterAdd (F := Ideal) scatter_S100000x128_S640000x1_S640000x128_1_0_0_1
      (broadcastInDim S100000x128 ![] bcast_S_S100000x128 (constant (F := Ideal) S_ .f32 0x00000000#32))
      (broadcastInDim S640000x1 ![0] bcast_S640000_S640000x1_0 dst)
      (mulf
        (Host.gather gather_S100000x128_S640000x1_S640000x128_1_0_n_n_0_1_1128 hw
          (broadcastInDim S640000x1 ![0] bcast_S640000_S640000x1_0
            (select (cmpi .slt src (broadcastInDim S640000 ![] bcast_S_S640000 (constantI S_ 32 0#32)))
              (addi src (broadcastInDim S640000 ![] bcast_S_S640000 (constantI S_ 32 100000#32))) src)))
        (broadcastInDim S640000x128 ![0, 1] bcast_S640000x1_S640000x128_0_1 ew))) : FVec Ideal S100000x128 .f32)
      = Cert.KernelIdeal.Agg.aggOps src dst ew hw := rfl

/-- Layer 0: the aggregate plus the layer's bias, cut out of the stack of biases and repeated over the nodes. -/
theorem ref_agg_bias0_eq (src dst : IVec S640000 32) (ew : FVec Ideal S640000x1 .f32)
    (hw : FVec Ideal S100000x128 .f32) (arg : FVec Ideal S3x128 .f32) :
    addf (F := Ideal) (φ := .f32) (Host.scatterAdd (F := Ideal) scatter_S100000x128_S640000x1_S640000x128_1_0_0_1
      (broadcastInDim S100000x128 ![] bcast_S_S100000x128 (constant (F := Ideal) S_ .f32 0x00000000#32))
      (broadcastInDim S640000x1 ![0] bcast_S640000_S640000x1_0 dst)
      (mulf
        (Host.gather gather_S100000x128_S640000x1_S640000x128_1_0_n_n_0_1_1128 hw
          (broadcastInDim S640000x1 ![0] bcast_S640000_S640000x1_0
            (select (cmpi .slt src (broadcastInDim S640000 ![] bcast_S_S640000 (constantI S_ 32 0#32)))
              (addi src (broadcastInDim S640000 ![] bcast_S_S640000 (constantI S_ 32 100000#32))) src)))
        (broadcastInDim S640000x128 ![0, 1] bcast_S640000x1_S640000x128_0_1 ew)))
      (broadcastInDim S100000x128 ![0, 1] bcast_S1x128_S100000x128_0_1
        (broadcastInDim S1x128 ![1] bcast_S128_S1x128_1
          (shapeCast S128 (extractStridedSlice S1x128 ![0, 0] arg slices_S3x128_S1x128_0_0) shapeCasts_S1x128_S128)))
      = Cert.Gcn.addRow (Cert.KernelIdeal.Agg.aggOps src dst ew hw) (Cert.Gcn.rowOf (fun j => arg (ix2 0 (j 0)))) := by
  rw [ref_agg_eq, Cert.ReferenceIdeal.OpsRead.vec_layer0_eq, Cert.ReferenceIdeal.OpsRead.bias_add_eq]

/-- Layer 1: the aggregate plus the layer's bias, cut out of the stack of biases and repeated over the nodes. -/
theorem ref_agg_bias1_eq (src dst : IVec S640000 32) (ew : FVec Ideal S640000x1 .f32)
    (hw : FVec Ideal S100000x128 .f32) (arg : FVec Ideal S3x128 .f32) :
    addf (F := Ideal) (φ := .f32) (Host.scatterAdd (F := Ideal) scatter_S100000x128_S640000x1_S640000x128_1_0_0_1
      (broadcastInDim S100000x128 ![] bcast_S_S100000x128 (constant (F := Ideal) S_ .f32 0x00000000#32))
      (broadcastInDim S640000x1 ![0] bcast_S640000_S640000x1_0 dst)
      (mulf
        (Host.gather gather_S100000x128_S640000x1_S640000x128_1_0_n_n_0_1_1128 hw
          (broadcastInDim S640000x1 ![0] bcast_S640000_S640000x1_0
            (select (cmpi .slt src (broadcastInDim S640000 ![] bcast_S_S640000 (constantI S_ 32 0#32)))
              (addi src (broadcastInDim S640000 ![] bcast_S_S640000 (constantI S_ 32 100000#32))) src)))
        (broadcastInDim S640000x128 ![0, 1] bcast_S640000x1_S640000x128_0_1 ew)))
      (broadcastInDim S100000x128 ![0, 1] bcast_S1x128_S100000x128_0_1
        (broadcastInDim S1x128 ![1] bcast_S128_S1x128_1
          (shapeCast S128 (extractStridedSlice S1x128 ![1, 0] arg slices_S3x128_S1x128_1_0) shapeCasts_S1x128_S128)))
      = Cert.Gcn.addRow (Cert.KernelIdeal.Agg.aggOps src dst ew hw) (Cert.Gcn.rowOf (fun j => arg (ix2 1 (j 0)))) := by
  rw [ref_agg_eq, Cert.ReferenceIdeal.OpsRead.vec_layer1_eq, Cert.ReferenceIdeal.OpsRead.bias_add_eq]

/-- Layer 2: the aggregate plus the layer's bias, cut out of the stack of biases and repeated over the nodes. -/
theorem ref_agg_bias2_eq (src dst : IVec S640000 32) (ew : FVec Ideal S640000x1 .f32)
    (hw : FVec Ideal S100000x128 .f32) (arg : FVec Ideal S3x128 .f32) :
    addf (F := Ideal) (φ := .f32) (Host.scatterAdd (F := Ideal) scatter_S100000x128_S640000x1_S640000x128_1_0_0_1
      (broadcastInDim S100000x128 ![] bcast_S_S100000x128 (constant (F := Ideal) S_ .f32 0x00000000#32))
      (broadcastInDim S640000x1 ![0] bcast_S640000_S640000x1_0 dst)
      (mulf
        (Host.gather gather_S100000x128_S640000x1_S640000x128_1_0_n_n_0_1_1128 hw
          (broadcastInDim S640000x1 ![0] bcast_S640000_S640000x1_0
            (select (cmpi .slt src (broadcastInDim S640000 ![] bcast_S_S640000 (constantI S_ 32 0#32)))
              (addi src (broadcastInDim S640000 ![] bcast_S_S640000 (constantI S_ 32 100000#32))) src)))
        (broadcastInDim S640000x128 ![0, 1] bcast_S640000x1_S640000x128_0_1 ew)))
      (broadcastInDim S100000x128 ![0, 1] bcast_S1x128_S100000x128_0_1
        (broadcastInDim S1x128 ![1] bcast_S128_S1x128_1
          (shapeCast S128 (extractStridedSlice S1x128 ![2, 0] arg slices_S3x128_S1x128_2_0) shapeCasts_S1x128_S128)))
      = Cert.Gcn.addRow (Cert.KernelIdeal.Agg.aggOps src dst ew hw) (Cert.Gcn.rowOf (fun j => arg (ix2 2 (j 0)))) := by
  rw [ref_agg_eq, Cert.ReferenceIdeal.OpsRead.vec_layer2_eq, Cert.ReferenceIdeal.OpsRead.bias_add_eq]

end RefAgg

/-! ## The edge list and the edge weights -/

section EdgeList

/-- Buffer contents of the kernel program and of the reference. -/
abbrev KVal : Type := Valuation Cert.KernelIdeal.τ Cert.KernelIdeal.sig (Elt Ideal)
abbrev RVal : Type := Valuation Cert.ReferenceIdeal.τ Cert.ReferenceIdeal.sig (Elt Ideal)

/-- The kernel program's three opening stretches, one after the other. -/
def kEdge (VK : KVal) : KVal :=
  StableHlo.after (Cert.KernelIdeal.Gen.hostOps0_2 (F := Ideal))
    (StableHlo.after (Cert.KernelIdeal.Gen.hostOps0_1 (F := Ideal))
      (StableHlo.after (Cert.KernelIdeal.Gen.hostOps0 (F := Ideal)) VK))

set_option maxHeartbeats 1000000 in
/-- From the same edge list both programs cut the same source nodes. -/
theorem edge_v1_eq (VR : RVal) (VK : KVal)
    (h : (VR (Proc.devRef .tc Cert.ReferenceIdeal.main_arg1) : IVec ⟨2, ![2, 640000]⟩ 32)
      = VK (Proc.devRef .tc Cert.KernelIdeal.main_arg1)) :
    (StableHlo.after (Cert.ReferenceIdeal.HandRun.seg0 (F := Ideal)) VR
        (Proc.devRef .tc Cert.ReferenceIdeal.main_v1) : IVec ⟨1, ![640000]⟩ 32)
      = kEdge VK (Proc.devRef .tc Cert.KernelIdeal.main_v1) := by
  unfold kEdge
  simp only [Cert.ReferenceIdeal.HandRun.seg0, Cert.KernelIdeal.Gen.hostOps0, Cert.KernelIdeal.Gen.hostOps0_1,
    Cert.KernelIdeal.Gen.hostOps0_2]
  after_results_simp
  rw [h]
  rfl

set_option maxHeartbeats 1000000 in
/-- … and the same target nodes. -/
theorem edge_v3_eq (VR : RVal) (VK : KVal)
    (h : (VR (Proc.devRef .tc Cert.ReferenceIdeal.main_arg1) : IVec ⟨2, ![2, 640000]⟩ 32)
      = VK (Proc.devRef .tc Cert.KernelIdeal.main_arg1)) :
    (StableHlo.after (Cert.ReferenceIdeal.HandRun.seg0 (F := Ideal)) VR
        (Proc.devRef .tc Cert.ReferenceIdeal.main_v3) : IVec ⟨1, ![640000]⟩ 32)
      = kEdge VK (Proc.devRef .tc Cert.KernelIdeal.main_v3) := by
  unfold kEdge
  simp only [Cert.ReferenceIdeal.HandRun.seg0, Cert.KernelIdeal.Gen.hostOps0, Cert.KernelIdeal.Gen.hostOps0_1,
    Cert.KernelIdeal.Gen.hostOps0_2]
  after_results_simp
  rw [h]
  rfl

set_option maxRecDepth 65536 in
set_option maxHeartbeats 4000000 in
/-- … and the same edge weights: the in-degrees, their roots, the choice of zero at nodes without incoming
    edges, the roots read at both ends of every edge and multiplied. -/
theorem edge_v29_eq (VR : RVal) (VK : KVal)
    (h : (VR (Proc.devRef .tc Cert.ReferenceIdeal.main_arg1) : IVec ⟨2, ![2, 640000]⟩ 32)
      = VK (Proc.devRef .tc Cert.KernelIdeal.main_arg1)) :
    (StableHlo.after (Cert.ReferenceIdeal.HandRun.seg0 (F := Ideal)) VR
        (Proc.devRef .tc Cert.ReferenceIdeal.main_v29) : FVec Ideal ⟨2, ![640000, 1]⟩ .f32)
      = kEdge VK (Proc.devRef .tc Cert.KernelIdeal.main_v29) := by
  unfold kEdge
  simp only [Cert.ReferenceIdeal.HandRun.seg0, Cert.KernelIdeal.Gen.hostOps0, Cert.KernelIdeal.Gen.hostOps0_1,
    Cert.KernelIdeal.Gen.hostOps0_2]
  after_results_simp
  rw [h]
  rfl

end EdgeList

/-! ## The pooling over the graphs and the readout -/

section Readout

/-- The kernel program's five closing stretches, one after the other. -/
def kReadout (VK : KVal) : KVal :=
  StableHlo.after (Cert.KernelIdeal.Gen.hostOps13_4 (F := Ideal))
    (StableHlo.after (Cert.KernelIdeal.Gen.hostOps13_3 (F := Ideal))
      (StableHlo.after (Cert.KernelIdeal.Gen.hostOps13_2 (F := Ideal))
        (StableHlo.after (Cert.KernelIdeal.Gen.hostOps13_1 (F := Ideal))
          (StableHlo.after (Cert.KernelIdeal.Gen.hostOps13 (F := Ideal)) VK))))

set_option maxRecDepth 65536 in
set_option maxHeartbeats 4000000 in
/-- From the same last layer's features, the same assignment of nodes to graphs and the same readout parameters,
    both programs compute the same result: the sum of the nodes of every graph and three small linear maps with
    clamps between them. -/
theorem readout_eq (VR : RVal) (VK : KVal)
    (hh : (VR (Proc.devRef .tc Cert.ReferenceIdeal.main_v192) : FVec Ideal ⟨2, ![100000, 128]⟩ .f32)
      = VK (Proc.devRef .tc Cert.KernelIdeal.main_v148))
    (h2 : (VR (Proc.devRef .tc Cert.ReferenceIdeal.main_arg2) : IVec ⟨1, ![100000]⟩ 32)
      = VK (Proc.devRef .tc Cert.KernelIdeal.main_arg2))
    (h13 : (VR (Proc.devRef .tc Cert.ReferenceIdeal.main_arg13) : FVec Ideal ⟨2, ![128, 64]⟩ .f32)
      = VK (Proc.devRef .tc Cert.KernelIdeal.main_arg13))
    (h14 : (VR (Proc.devRef .tc Cert.ReferenceIdeal.main_arg14) : FVec Ideal ⟨1, ![64]⟩ .f32)
      = VK (Proc.devRef .tc Cert.KernelIdeal.main_arg14))
    (h15 : (VR (Proc.devRef .tc Cert.ReferenceIdeal.main_arg15) : FVec Ideal ⟨2, ![64, 32]⟩ .f32)
      = VK (Proc.devRef .tc Cert.KernelIdeal.main_arg15))
    (h16 : (VR (Proc.devRef .tc Cert.ReferenceIdeal.main_arg16) : FVec Ideal ⟨1, ![32]⟩ .f32)
      = VK (Proc.devRef .tc Cert.KernelIdeal.main_arg16))
    (h17 : (VR (Proc.devRef .tc Cert.ReferenceIdeal.main_arg17) : FVec Ideal ⟨2, ![32, 1]⟩ .f32)
      = VK (Proc.devRef .tc Cert.KernelIdeal.main_arg17))
    (h18 : (VR (Proc.devRef .tc Cert.ReferenceIdeal.main_arg18) : FVec Ideal ⟨1, ![1]⟩ .f32)
      = VK (Proc.devRef .tc Cert.KernelIdeal.main_arg18)) :
    (StableHlo.after (Cert.ReferenceIdeal.HandRun.seg17 (F := Ideal)) VR
        (Proc.devRef .tc Cert.ReferenceIdeal.main_v209) : FVec Ideal ⟨2, ![64, 1]⟩ .f32)
      = kReadout VK (Proc.devRef .tc Cert.KernelIdeal.main_v165) := by
  unfold kReadout
  simp only [Cert.ReferenceIdeal.HandRun.seg17, Cert.KernelIdeal.Gen.hostOps13, Cert.KernelIdeal.Gen.hostOps13_1,
    Cert.KernelIdeal.Gen.hostOps13_2, Cert.KernelIdeal.Gen.hostOps13_3, Cert.KernelIdeal.Gen.hostOps13_4]
  after_results_simp
  rw [hh, h2, h13, h14, h15, h16, h17, h18]
  rfl

end Readout

end Cert.Shared

end
-- ==== Proof.BridgeL0.lean ====
/-
  The first graph-convolution layer of the two idealized programs, compared. The kernel program's layer output, read back
  to the layer's input, the edge arrays and the layer's slices of the stacked weights, is the aggregate over the edges plus
  the bias, normalised column by column with the ONE-pass statistics, scaled, shifted, clamped at zero, and added to the
  input; the reference's is the same with the TWO-pass statistics. On arrays of real numbers the two variances agree
  (the layer law), so when the two programs hold the same real array for the layer's input, the same edge arrays and
  the same real argument stacks, they hold the same array for the layer's output — and that array is again real.
-/
import proofs.«136606_j68719476736452_2_alg».proof.Proof.Spec
import proofs.«136606_j68719476736452_2_alg».proof.Proof.RealLaws
import proofs.«136606_j68719476736452_2_alg».proof.Proof.LayerLaw
import proofs.«136606_j68719476736452_2_alg».proof.Proof.KLayers
import proofs.«136606_j68719476736452_2_alg».proof.Proof.RefRead
import proofs.«136606_j68719476736452_2_alg».proof.Proof.Shared

noncomputable section

open Idealize.ShloMosaic Idealize.ShloMosaic.TcCoe Idealize.ShloMosaic.ValueIdx Idealize.SL.Sem
open Cert.Gcn

namespace Cert.Bridge

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- ONE MESSAGE-PASSING LAYER AGREES, with the reference's values as plain arrays. R57 is what the reference holds for
    the layer's input, R60 for the input times the layer's weights, R77 for the aggregate over the edges plus the bias,
    R79 and R81 for the layer's scale and shift, R102 for the layer's output: the input plus R77 normalised column by
    column with the TWO-pass statistics, scaled, shifted and clamped at zero. When the input is the array H of real
    numbers, and the weights, the edge weights and the bias are real, R102 is the same layer with the ONE-pass
    statistics: on real arrays the two variances agree. -/
theorem layer_agree_of
    (H : Snd.Idx → EReal) (w : Sdd.Idx → EReal) (src dst : IVec Cert.KernelIdeal.S640000 32)
    (ew : FVec Ideal Cert.KernelIdeal.S640000x1 .f32) (bias g be : Svec.Idx → EReal)
    (R57 R60 R77 R102 : Snd.Idx → EReal) (R79 R81 : Svec.Idx → EReal)
    (r57 : R57 = H)
    (r60 : R60 = linear R57 w (fun _ => 0))
    (r77 : R77 = addRow (Cert.KernelIdeal.Agg.aggOps src dst ew R60) (rowOf bias))
    (r79 : R79 = g) (r81 : R81 = be)
    (r102 : R102 = fun i => R57 i + max (normAt (R77 i) (meanAt R77 (i 1)) (varTwoPassAt R77 (i 1)) (R79 (ix1 (i 1))) (R81 (ix1 (i 1)))) 0)
    (hH : AllReal H) (hw : AllReal w) (hew : AllReal ew) (hb : AllReal bias) :
    R102 = bnReluRes (Cert.KernelIdeal.Agg.aggOps src dst ew (linear H w (fun _ => 0))) (rowOf bias)
      (meanRow (addRow (Cert.KernelIdeal.Agg.aggOps src dst ew (linear H w (fun _ => 0))) (rowOf bias)))
      (varOnePassRow (addRow (Cert.KernelIdeal.Agg.aggOps src dst ew (linear H w (fun _ => 0))) (rowOf bias)))
      (rowOf g) (rowOf be) H := by
  subst r57 r79 r81
  subst r60
  subst r77
  subst r102
  exact (layer_law _ w src dst ew bias _ _ hH hw hew hb).symm

/-- Equal edge arrays and equal stacks give the same aggregate plus bias row. -/
theorem agg_bias_congr {s s' d d' : IVec Cert.KernelIdeal.S640000 32} {e e' : FVec Ideal Cert.KernelIdeal.S640000x1 .f32}
    (x : FVec Ideal Cert.KernelIdeal.S100000x128 .f32) {a a' : Cert.KernelIdeal.S3x128.Idx → EReal} (l : Fin 3)
    (hs : s = s') (hd : d = d') (he : e = e') (ha : a = a') :
    addRow (Cert.KernelIdeal.Agg.aggOps s d e x) (rowOf (fun j => a (ix2 l (j 0))))
      = addRow (Cert.KernelIdeal.Agg.aggOps s' d' e' x) (rowOf (fun j => a' (ix2 l (j 0)))) := by
  subst hs hd he ha; rfl

/-- THE FIRST LAYER AGREES. When the reference holds for the layer's input what the kernel program holds, and that
    array is real; the two hold the same edge arrays, with real edge weights; and the stacked weight, bias, scale and shift
    arguments agree, the first two real: what the reference holds for the layer's output is what the kernel program holds. -/
theorem layer0_agree
    (m' : (ℓ : Loc Cert.ReferenceIdeal.nD Cert.ReferenceIdeal.τ Cert.ReferenceIdeal.sig) → Buf (Elt Ideal) ℓ)
    (hH : Cert.ReferenceIdeal.HandRun.U5 (StableHlo.launchContents m' c) (Proc.devRef .tc Cert.ReferenceIdeal.main_v57) = Cert.KernelIdeal.Gen.W8 (F := Ideal) m ρ c (Proc.devRef .tc Cert.KernelIdeal.main_v46))
    (hHr : AllReal (ι := Snd.Idx) (Cert.KernelIdeal.Gen.W8 (F := Ideal) m ρ c (Proc.devRef .tc Cert.KernelIdeal.main_v46)))
    (hS : Cert.ReferenceIdeal.HandRun.U1 (StableHlo.launchContents m' c) (Proc.devRef .tc Cert.ReferenceIdeal.main_v1) = Cert.KernelIdeal.Gen.W3 (F := Ideal) m ρ c (Proc.devRef .tc Cert.KernelIdeal.main_v1))
    (hD : Cert.ReferenceIdeal.HandRun.U1 (StableHlo.launchContents m' c) (Proc.devRef .tc Cert.ReferenceIdeal.main_v3) = Cert.KernelIdeal.Gen.W3 (F := Ideal) m ρ c (Proc.devRef .tc Cert.KernelIdeal.main_v3))
    (hE : Cert.ReferenceIdeal.HandRun.U1 (StableHlo.launchContents m' c) (Proc.devRef .tc Cert.ReferenceIdeal.main_v29) = Cert.KernelIdeal.Gen.W3 (F := Ideal) m ρ c (Proc.devRef .tc Cert.KernelIdeal.main_v29))
    (hEr : AllReal (ι := Cert.KernelIdeal.S640000x1.Idx) (Cert.KernelIdeal.Gen.W3 (F := Ideal) m ρ c (Proc.devRef .tc Cert.KernelIdeal.main_v29)))
    (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (h12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (r9 : AllReal (m ((c.tc : Thread Cert.KernelIdeal.nD Cert.KernelIdeal.τ).loc Cert.KernelIdeal.main_arg9))) (r10 : AllReal (m ((c.tc : Thread Cert.KernelIdeal.nD Cert.KernelIdeal.τ).loc Cert.KernelIdeal.main_arg10))) :
    Cert.ReferenceIdeal.HandRun.U9 (StableHlo.launchContents m' c) (Proc.devRef .tc Cert.ReferenceIdeal.main_v102)
      = Cert.KernelIdeal.Gen.W14 (F := Ideal) m ρ c (Proc.devRef .tc Cert.KernelIdeal.main_v80) := by
  refine Eq.trans ?_ (Cert.KernelIdeal.Layers.layer0_out m ρ c).symm
  exact layer_agree_of
    (Cert.KernelIdeal.Gen.W8 (F := Ideal) m ρ c (Proc.devRef .tc Cert.KernelIdeal.main_v46)) (fun i => ((m ((c.tc : Thread Cert.KernelIdeal.nD Cert.KernelIdeal.τ).loc Cert.KernelIdeal.main_arg9)) : Cert.KernelIdeal.S3x128x128.Idx → EReal) (ix3 0 (i 0) (i 1)))
    (Cert.KernelIdeal.Gen.W3 (F := Ideal) m ρ c (Proc.devRef .tc Cert.KernelIdeal.main_v1)) (Cert.KernelIdeal.Gen.W3 (F := Ideal) m ρ c (Proc.devRef .tc Cert.KernelIdeal.main_v3)) (Cert.KernelIdeal.Gen.W3 (F := Ideal) m ρ c (Proc.devRef .tc Cert.KernelIdeal.main_v29))
    (fun j => ((m ((c.tc : Thread Cert.KernelIdeal.nD Cert.KernelIdeal.τ).loc Cert.KernelIdeal.main_arg10)) : Cert.KernelIdeal.S3x128.Idx → EReal) (ix2 0 (j 0))) (fun j => ((m ((c.tc : Thread Cert.KernelIdeal.nD Cert.KernelIdeal.τ).loc Cert.KernelIdeal.main_arg11)) : Cert.KernelIdeal.S3x128.Idx → EReal) (ix2 0 (j 0))) (fun j => ((m ((c.tc : Thread Cert.KernelIdeal.nD Cert.KernelIdeal.τ).loc Cert.KernelIdeal.main_arg12)) : Cert.KernelIdeal.S3x128.Idx → EReal) (ix2 0 (j 0)))
    (Cert.ReferenceIdeal.HandRun.U5 (StableHlo.launchContents m' c) (Proc.devRef .tc Cert.ReferenceIdeal.main_v57)) (Cert.ReferenceIdeal.HandRun.U6 (StableHlo.launchContents m' c) (Proc.devRef .tc Cert.ReferenceIdeal.main_v60)) (Cert.ReferenceIdeal.HandRun.U7 (StableHlo.launchContents m' c) (Proc.devRef .tc Cert.ReferenceIdeal.main_v77)) (Cert.ReferenceIdeal.HandRun.U9 (StableHlo.launchContents m' c) (Proc.devRef .tc Cert.ReferenceIdeal.main_v102))
    (Cert.ReferenceIdeal.HandRun.U7 (StableHlo.launchContents m' c) (Proc.devRef .tc Cert.ReferenceIdeal.main_v79)) (Cert.ReferenceIdeal.HandRun.U7 (StableHlo.launchContents m' c) (Proc.devRef .tc Cert.ReferenceIdeal.main_v81))
    hH
    ((Cert.ReferenceIdeal.HandRun.l0_v60 (StableHlo.launchContents m' c)).trans
      (congrArg (fun a : Cert.KernelIdeal.S3x128x128.Idx → EReal =>
        linear (Cert.ReferenceIdeal.HandRun.U5 (StableHlo.launchContents m' c) (Proc.devRef .tc Cert.ReferenceIdeal.main_v57)) (fun i => a (ix3 0 (i 0) (i 1))) (fun _ => 0)) h9))
    (((Cert.ReferenceIdeal.HandRun.l0_v77 (StableHlo.launchContents m' c)).trans
      (Cert.Shared.ref_agg_bias0_eq _ _ _ _ _)).trans
      (agg_bias_congr (Cert.ReferenceIdeal.HandRun.U6 (StableHlo.launchContents m' c) (Proc.devRef .tc Cert.ReferenceIdeal.main_v60)) 0 hS hD hE h10))
    ((Cert.ReferenceIdeal.HandRun.l0_v79 (StableHlo.launchContents m' c)).trans
      (congrArg (fun a : Cert.KernelIdeal.S3x128.Idx → EReal => fun j : Svec.Idx => a (ix2 0 (j 0))) h11))
    ((Cert.ReferenceIdeal.HandRun.l0_v81 (StableHlo.launchContents m' c)).trans
      (congrArg (fun a : Cert.KernelIdeal.S3x128.Idx → EReal => fun j : Svec.Idx => a (ix2 0 (j 0))) h12))
    (Cert.ReferenceIdeal.HandRun.l0_v102 (StableHlo.launchContents m' c))
    hHr (r9.comp _) hEr (r10.comp _)

/-- THE FIRST LAYER'S OUTPUT IS REAL: what the kernel program holds for it is an array of real numbers, when the layer's
    input, the edge weights and the four argument stacks are. -/
theorem layer0_real
    (hHr : AllReal (ι := Snd.Idx) (Cert.KernelIdeal.Gen.W8 (F := Ideal) m ρ c (Proc.devRef .tc Cert.KernelIdeal.main_v46)))
    (hEr : AllReal (ι := Cert.KernelIdeal.S640000x1.Idx) (Cert.KernelIdeal.Gen.W3 (F := Ideal) m ρ c (Proc.devRef .tc Cert.KernelIdeal.main_v29)))
    (r9 : AllReal (m ((c.tc : Thread Cert.KernelIdeal.nD Cert.KernelIdeal.τ).loc Cert.KernelIdeal.main_arg9))) (r10 : AllReal (m ((c.tc : Thread Cert.KernelIdeal.nD Cert.KernelIdeal.τ).loc Cert.KernelIdeal.main_arg10)))
    (r11 : AllReal (m ((c.tc : Thread Cert.KernelIdeal.nD Cert.KernelIdeal.τ).loc Cert.KernelIdeal.main_arg11))) (r12 : AllReal (m ((c.tc : Thread Cert.KernelIdeal.nD Cert.KernelIdeal.τ).loc Cert.KernelIdeal.main_arg12))) :
    AllReal (ι := Snd.Idx) (Cert.KernelIdeal.Gen.W14 (F := Ideal) m ρ c (Proc.devRef .tc Cert.KernelIdeal.main_v80)) := by
  rw [Cert.KernelIdeal.Layers.layer0_out m ρ c]
  exact layer_allReal (Cert.KernelIdeal.Gen.W8 (F := Ideal) m ρ c (Proc.devRef .tc Cert.KernelIdeal.main_v46)) (fun i => ((m ((c.tc : Thread Cert.KernelIdeal.nD Cert.KernelIdeal.τ).loc Cert.KernelIdeal.main_arg9)) : Cert.KernelIdeal.S3x128x128.Idx → EReal) (ix3 0 (i 0) (i 1)))
    (Cert.KernelIdeal.Gen.W3 (F := Ideal) m ρ c (Proc.devRef .tc Cert.KernelIdeal.main_v1)) (Cert.KernelIdeal.Gen.W3 (F := Ideal) m ρ c (Proc.devRef .tc Cert.KernelIdeal.main_v3)) (Cert.KernelIdeal.Gen.W3 (F := Ideal) m ρ c (Proc.devRef .tc Cert.KernelIdeal.main_v29))
    (fun j => ((m ((c.tc : Thread Cert.KernelIdeal.nD Cert.KernelIdeal.τ).loc Cert.KernelIdeal.main_arg10)) : Cert.KernelIdeal.S3x128.Idx → EReal) (ix2 0 (j 0))) (fun j => ((m ((c.tc : Thread Cert.KernelIdeal.nD Cert.KernelIdeal.τ).loc Cert.KernelIdeal.main_arg11)) : Cert.KernelIdeal.S3x128.Idx → EReal) (ix2 0 (j 0))) (fun j => ((m ((c.tc : Thread Cert.KernelIdeal.nD Cert.KernelIdeal.τ).loc Cert.KernelIdeal.main_arg12)) : Cert.KernelIdeal.S3x128.Idx → EReal) (ix2 0 (j 0)))
    hHr (r9.comp _) hEr (r10.comp _) (r11.comp _) (r12.comp _)

end Cert.Bridge

end
-- ==== Proof.BridgeL1.lean ====
/-
  The second graph-convolution layer of the two idealized programs, compared. The kernel program's layer output, read back
  to the layer's input, the edge arrays and the layer's slices of the stacked weights, is the aggregate over the edges plus
  the bias, normalised column by column with the ONE-pass statistics, scaled, shifted, clamped at zero, and added to the
  input; the reference's is the same with the TWO-pass statistics. On arrays of real numbers the two variances agree
  (the layer law), so when the two programs hold the same real array for the layer's input, the same edge arrays and
  the same real argument stacks, they hold the same array for the layer's output — and that array is again real.
-/
import proofs.«136606_j68719476736452_2_alg».proof.Proof.Spec
import proofs.«136606_j68719476736452_2_alg».proof.Proof.RealLaws
import proofs.«136606_j68719476736452_2_alg».proof.Proof.LayerLaw
import proofs.«136606_j68719476736452_2_alg».proof.Proof.KLayers
import proofs.«136606_j68719476736452_2_alg».proof.Proof.RefRead
import proofs.«136606_j68719476736452_2_alg».proof.Proof.Shared

noncomputable section

open Idealize.ShloMosaic Idealize.ShloMosaic.TcCoe Idealize.ShloMosaic.ValueIdx Idealize.SL.Sem
open Cert.Gcn

namespace Cert.Bridge

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- ONE MESSAGE-PASSING LAYER AGREES, with the reference's values as plain arrays. R57 is what the reference holds for
    the layer's input, R60 for the input times the layer's weights, R77 for the aggregate over the edges plus the bias,
    R79 and R81 for the layer's scale and shift, R102 for the layer's output: the input plus R77 normalised column by
    column with the TWO-pass statistics, scaled, shifted and clamped at zero. When the input is the array H of real
    numbers, and the weights, the edge weights and the bias are real, R102 is the same layer with the ONE-pass
    statistics: on real arrays the two variances agree. -/
theorem layer_agree_of1
    (H : Snd.Idx → EReal) (w : Sdd.Idx → EReal) (src dst : IVec Cert.KernelIdeal.S640000 32)
    (ew : FVec Ideal Cert.KernelIdeal.S640000x1 .f32) (bias g be : Svec.Idx → EReal)
    (R57 R60 R77 R102 : Snd.Idx → EReal) (R79 R81 : Svec.Idx → EReal)
    (r57 : R57 = H)
    (r60 : R60 = linear R57 w (fun _ => 0))
    (r77 : R77 = addRow (Cert.KernelIdeal.Agg.aggOps src dst ew R60) (rowOf bias))
    (r79 : R79 = g) (r81 : R81 = be)
    (r102 : R102 = fun i => R57 i + max (normAt (R77 i) (meanAt R77 (i 1)) (varTwoPassAt R77 (i 1)) (R79 (ix1 (i 1))) (R81 (ix1 (i 1)))) 0)
    (hH : AllReal H) (hw : AllReal w) (hew : AllReal ew) (hb : AllReal bias) :
    R102 = bnReluRes (Cert.KernelIdeal.Agg.aggOps src dst ew (linear H w (fun _ => 0))) (rowOf bias)
      (meanRow (addRow (Cert.KernelIdeal.Agg.aggOps src dst ew (linear H w (fun _ => 0))) (rowOf bias)))
      (varOnePassRow (addRow (Cert.KernelIdeal.Agg.aggOps src dst ew (linear H w (fun _ => 0))) (rowOf bias)))
      (rowOf g) (rowOf be) H := by
  subst r57 r79 r81
  subst r60
  subst r77
  subst r102
  exact (layer_law _ w src dst ew bias _ _ hH hw hew hb).symm

/-- Equal edge arrays and equal stacks give the same aggregate plus bias row. -/
theorem agg_bias_congr1 {s s' d d' : IVec Cert.KernelIdeal.S640000 32} {e e' : FVec Ideal Cert.KernelIdeal.S640000x1 .f32}
    (x : FVec Ideal Cert.KernelIdeal.S100000x128 .f32) {a a' : Cert.KernelIdeal.S3x128.Idx → EReal} (l : Fin 3)
    (hs : s = s') (hd : d = d') (he : e = e') (ha : a = a') :
    addRow (Cert.KernelIdeal.Agg.aggOps s d e x) (rowOf (fun j => a (ix2 l (j 0))))
      = addRow (Cert.KernelIdeal.Agg.aggOps s' d' e' x) (rowOf (fun j => a' (ix2 l (j 0)))) := by
  subst hs hd he ha; rfl

/-- THE SECOND LAYER AGREES. When the reference holds for the layer's input what the kernel program holds, and that
    array is real; the two hold the same edge arrays, with real edge weights; and the stacked weight, bias, scale and shift
    arguments agree, the first two real: what the reference holds for the layer's output is what the kernel program holds. -/
theorem layer1_agree
    (m' : (ℓ : Loc Cert.ReferenceIdeal.nD Cert.ReferenceIdeal.τ Cert.ReferenceIdeal.sig) → Buf (Elt Ideal) ℓ)
    (hH : Cert.ReferenceIdeal.HandRun.U9 (StableHlo.launchContents m' c) (Proc.devRef .tc Cert.ReferenceIdeal.main_v102) = Cert.KernelIdeal.Gen.W14 (F := Ideal) m ρ c (Proc.devRef .tc Cert.KernelIdeal.main_v80))
    (hHr : AllReal (ι := Snd.Idx) (Cert.KernelIdeal.Gen.W14 (F := Ideal) m ρ c (Proc.devRef .tc Cert.KernelIdeal.main_v80)))
    (hS : Cert.ReferenceIdeal.HandRun.U1 (StableHlo.launchContents m' c) (Proc.devRef .tc Cert.ReferenceIdeal.main_v1) = Cert.KernelIdeal.Gen.W3 (F := Ideal) m ρ c (Proc.devRef .tc Cert.KernelIdeal.main_v1))
    (hD : Cert.ReferenceIdeal.HandRun.U1 (StableHlo.launchContents m' c) (Proc.devRef .tc Cert.ReferenceIdeal.main_v3) = Cert.KernelIdeal.Gen.W3 (F := Ideal) m ρ c (Proc.devRef .tc Cert.KernelIdeal.main_v3))
    (hE : Cert.ReferenceIdeal.HandRun.U1 (StableHlo.launchContents m' c) (Proc.devRef .tc Cert.ReferenceIdeal.main_v29) = Cert.KernelIdeal.Gen.W3 (F := Ideal) m ρ c (Proc.devRef .tc Cert.KernelIdeal.main_v29))
    (hEr : AllReal (ι := Cert.KernelIdeal.S640000x1.Idx) (Cert.KernelIdeal.Gen.W3 (F := Ideal) m ρ c (Proc.devRef .tc Cert.KernelIdeal.main_v29)))
    (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (h12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (r9 : AllReal (m ((c.tc : Thread Cert.KernelIdeal.nD Cert.KernelIdeal.τ).loc Cert.KernelIdeal.main_arg9))) (r10 : AllReal (m ((c.tc : Thread Cert.KernelIdeal.nD Cert.KernelIdeal.τ).loc Cert.KernelIdeal.main_arg10))) :
    Cert.ReferenceIdeal.HandRun.U13 (StableHlo.launchContents m' c) (Proc.devRef .tc Cert.ReferenceIdeal.main_v147)
      = Cert.KernelIdeal.Gen.W20 (F := Ideal) m ρ c (Proc.devRef .tc Cert.KernelIdeal.main_v114) := by
  refine Eq.trans ?_ (Cert.KernelIdeal.Layers.layer1_out m ρ c).symm
  exact layer_agree_of1
    (Cert.KernelIdeal.Gen.W14 (F := Ideal) m ρ c (Proc.devRef .tc Cert.KernelIdeal.main_v80)) (fun i => ((m ((c.tc : Thread Cert.KernelIdeal.nD Cert.KernelIdeal.τ).loc Cert.KernelIdeal.main_arg9)) : Cert.KernelIdeal.S3x128x128.Idx → EReal) (ix3 1 (i 0) (i 1)))
    (Cert.KernelIdeal.Gen.W3 (F := Ideal) m ρ c (Proc.devRef .tc Cert.KernelIdeal.main_v1)) (Cert.KernelIdeal.Gen.W3 (F := Ideal) m ρ c (Proc.devRef .tc Cert.KernelIdeal.main_v3)) (Cert.KernelIdeal.Gen.W3 (F := Ideal) m ρ c (Proc.devRef .tc Cert.KernelIdeal.main_v29))
    (fun j => ((m ((c.tc : Thread Cert.KernelIdeal.nD Cert.KernelIdeal.τ).loc Cert.KernelIdeal.main_arg10)) : Cert.KernelIdeal.S3x128.Idx → EReal) (ix2 1 (j 0))) (fun j => ((m ((c.tc : Thread Cert.KernelIdeal.nD Cert.KernelIdeal.τ).loc Cert.KernelIdeal.main_arg11)) : Cert.KernelIdeal.S3x128.Idx → EReal) (ix2 1 (j 0))) (fun j => ((m ((c.tc : Thread Cert.KernelIdeal.nD Cert.KernelIdeal.τ).loc Cert.KernelIdeal.main_arg12)) : Cert.KernelIdeal.S3x128.Idx → EReal) (ix2 1 (j 0)))
    (Cert.ReferenceIdeal.HandRun.U9 (StableHlo.launchContents m' c) (Proc.devRef .tc Cert.ReferenceIdeal.main_v102)) (Cert.ReferenceIdeal.HandRun.U10 (StableHlo.launchContents m' c) (Proc.devRef .tc Cert.ReferenceIdeal.main_v105)) (Cert.ReferenceIdeal.HandRun.U11 (StableHlo.launchContents m' c) (Proc.devRef .tc Cert.ReferenceIdeal.main_v122)) (Cert.ReferenceIdeal.HandRun.U13 (StableHlo.launchContents m' c) (Proc.devRef .tc Cert.ReferenceIdeal.main_v147))
    (Cert.ReferenceIdeal.HandRun.U11 (StableHlo.launchContents m' c) (Proc.devRef .tc Cert.ReferenceIdeal.main_v124)) (Cert.ReferenceIdeal.HandRun.U11 (StableHlo.launchContents m' c) (Proc.devRef .tc Cert.ReferenceIdeal.main_v126))
    hH
    ((Cert.ReferenceIdeal.HandRun.l1_v105 (StableHlo.launchContents m' c)).trans
      (congrArg (fun a : Cert.KernelIdeal.S3x128x128.Idx → EReal =>
        linear (Cert.ReferenceIdeal.HandRun.U9 (StableHlo.launchContents m' c) (Proc.devRef .tc Cert.ReferenceIdeal.main_v102)) (fun i => a (ix3 1 (i 0) (i 1))) (fun _ => 0)) h9))
    (((Cert.ReferenceIdeal.HandRun.l1_v122 (StableHlo.launchContents m' c)).trans
      (Cert.Shared.ref_agg_bias1_eq _ _ _ _ _)).trans
      (agg_bias_congr1 (Cert.ReferenceIdeal.HandRun.U10 (StableHlo.launchContents m' c) (Proc.devRef .tc Cert.ReferenceIdeal.main_v105)) 1 hS hD hE h10))
    ((Cert.ReferenceIdeal.HandRun.l1_v124 (StableHlo.launchContents m' c)).trans
      (congrArg (fun a : Cert.KernelIdeal.S3x128.Idx → EReal => fun j : Svec.Idx => a (ix2 1 (j 0))) h11))
    ((Cert.ReferenceIdeal.HandRun.l1_v126 (StableHlo.launchContents m' c)).trans
      (congrArg (fun a : Cert.KernelIdeal.S3x128.Idx → EReal => fun j : Svec.Idx => a (ix2 1 (j 0))) h12))
    (Cert.ReferenceIdeal.HandRun.l1_v147 (StableHlo.launchContents m' c))
    hHr (r9.comp _) hEr (r10.comp _)

/-- THE SECOND LAYER'S OUTPUT IS REAL: what the kernel program holds for it is an array of real numbers, when the layer's
    input, the edge weights and the four argument stacks are. -/
theorem layer1_real
    (hHr : AllReal (ι := Snd.Idx) (Cert.KernelIdeal.Gen.W14 (F := Ideal) m ρ c (Proc.devRef .tc Cert.KernelIdeal.main_v80)))
    (hEr : AllReal (ι := Cert.KernelIdeal.S640000x1.Idx) (Cert.KernelIdeal.Gen.W3 (F := Ideal) m ρ c (Proc.devRef .tc Cert.KernelIdeal.main_v29)))
    (r9 : AllReal (m ((c.tc : Thread Cert.KernelIdeal.nD Cert.KernelIdeal.τ).loc Cert.KernelIdeal.main_arg9))) (r10 : AllReal (m ((c.tc : Thread Cert.KernelIdeal.nD Cert.KernelIdeal.τ).loc Cert.KernelIdeal.main_arg10)))
    (r11 : AllReal (m ((c.tc : Thread Cert.KernelIdeal.nD Cert.KernelIdeal.τ).loc Cert.KernelIdeal.main_arg11))) (r12 : AllReal (m ((c.tc : Thread Cert.KernelIdeal.nD Cert.KernelIdeal.τ).loc Cert.KernelIdeal.main_arg12))) :
    AllReal (ι := Snd.Idx) (Cert.KernelIdeal.Gen.W20 (F := Ideal) m ρ c (Proc.devRef .tc Cert.KernelIdeal.main_v114)) := by
  rw [Cert.KernelIdeal.Layers.layer1_out m ρ c]
  exact layer_allReal (Cert.KernelIdeal.Gen.W14 (F := Ideal) m ρ c (Proc.devRef .tc Cert.KernelIdeal.main_v80)) (fun i => ((m ((c.tc : Thread Cert.KernelIdeal.nD Cert.KernelIdeal.τ).loc Cert.KernelIdeal.main_arg9)) : Cert.KernelIdeal.S3x128x128.Idx → EReal) (ix3 1 (i 0) (i 1)))
    (Cert.KernelIdeal.Gen.W3 (F := Ideal) m ρ c (Proc.devRef .tc Cert.KernelIdeal.main_v1)) (Cert.KernelIdeal.Gen.W3 (F := Ideal) m ρ c (Proc.devRef .tc Cert.KernelIdeal.main_v3)) (Cert.KernelIdeal.Gen.W3 (F := Ideal) m ρ c (Proc.devRef .tc Cert.KernelIdeal.main_v29))
    (fun j => ((m ((c.tc : Thread Cert.KernelIdeal.nD Cert.KernelIdeal.τ).loc Cert.KernelIdeal.main_arg10)) : Cert.KernelIdeal.S3x128.Idx → EReal) (ix2 1 (j 0))) (fun j => ((m ((c.tc : Thread Cert.KernelIdeal.nD Cert.KernelIdeal.τ).loc Cert.KernelIdeal.main_arg11)) : Cert.KernelIdeal.S3x128.Idx → EReal) (ix2 1 (j 0))) (fun j => ((m ((c.tc : Thread Cert.KernelIdeal.nD Cert.KernelIdeal.τ).loc Cert.KernelIdeal.main_arg12)) : Cert.KernelIdeal.S3x128.Idx → EReal) (ix2 1 (j 0)))
    hHr (r9.comp _) hEr (r10.comp _) (r11.comp _) (r12.comp _)

end Cert.Bridge

end
-- ==== Proof.BridgeL2.lean ====
/-
  The third graph-convolution layer of the two idealized programs, compared. The kernel program's layer output, read back
  to the layer's input, the edge arrays and the layer's slices of the stacked weights, is the aggregate over the edges plus
  the bias, normalised column by column with the ONE-pass statistics, scaled, shifted, clamped at zero, and added to the
  input; the reference's is the same with the TWO-pass statistics. On arrays of real numbers the two variances agree
  (the layer law), so when the two programs hold the same real array for the layer's input, the same edge arrays and
  the same real argument stacks, they hold the same array for the layer's output — and that array is again real.
-/
import proofs.«136606_j68719476736452_2_alg».proof.Proof.Spec
import proofs.«136606_j68719476736452_2_alg».proof.Proof.RealLaws
import proofs.«136606_j68719476736452_2_alg».proof.Proof.LayerLaw
import proofs.«136606_j68719476736452_2_alg».proof.Proof.KLayers
import proofs.«136606_j68719476736452_2_alg».proof.Proof.RefRead
import proofs.«136606_j68719476736452_2_alg».proof.Proof.Shared

noncomputable section

open Idealize.ShloMosaic Idealize.ShloMosaic.TcCoe Idealize.ShloMosaic.ValueIdx Idealize.SL.Sem
open Cert.Gcn

namespace Cert.Bridge

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- ONE MESSAGE-PASSING LAYER AGREES, with the reference's values as plain arrays. R57 is what the reference holds for
    the layer's input, R60 for the input times the layer's weights, R77 for the aggregate over the edges plus the bias,
    R79 and R81 for the layer's scale and shift, R102 for the layer's output: the input plus R77 normalised column by
    column with the TWO-pass statistics, scaled, shifted and clamped at zero. When the input is the array H of real
    numbers, and the weights, the edge weights and the bias are real, R102 is the same layer with the ONE-pass
    statistics: on real arrays the two variances agree. -/
theorem layer_agree_of2
    (H : Snd.Idx → EReal) (w : Sdd.Idx → EReal) (src dst : IVec Cert.KernelIdeal.S640000 32)
    (ew : FVec Ideal Cert.KernelIdeal.S640000x1 .f32) (bias g be : Svec.Idx → EReal)
    (R57 R60 R77 R102 : Snd.Idx → EReal) (R79 R81 : Svec.Idx → EReal)
    (r57 : R57 = H)
    (r60 : R60 = linear R57 w (fun _ => 0))
    (r77 : R77 = addRow (Cert.KernelIdeal.Agg.aggOps src dst ew R60) (rowOf bias))
    (r79 : R79 = g) (r81 : R81 = be)
    (r102 : R102 = fun i => R57 i + max (normAt (R77 i) (meanAt R77 (i 1)) (varTwoPassAt R77 (i 1)) (R79 (ix1 (i 1))) (R81 (ix1 (i 1)))) 0)
    (hH : AllReal H) (hw : AllReal w) (hew : AllReal ew) (hb : AllReal bias) :
    R102 = bnReluRes (Cert.KernelIdeal.Agg.aggOps src dst ew (linear H w (fun _ => 0))) (rowOf bias)
      (meanRow (addRow (Cert.KernelIdeal.Agg.aggOps src dst ew (linear H w (fun _ => 0))) (rowOf bias)))
      (varOnePassRow (addRow (Cert.KernelIdeal.Agg.aggOps src dst ew (linear H w (fun _ => 0))) (rowOf bias)))
      (rowOf g) (rowOf be) H := by
  subst r57 r79 r81
  subst r60
  subst r77
  subst r102
  exact (layer_law _ w src dst ew bias _ _ hH hw hew hb).symm

/-- Equal edge arrays and equal stacks give the same aggregate plus bias row. -/
theorem agg_bias_congr2 {s s' d d' : IVec Cert.KernelIdeal.S640000 32} {e e' : FVec Ideal Cert.KernelIdeal.S640000x1 .f32}
    (x : FVec Ideal Cert.KernelIdeal.S100000x128 .f32) {a a' : Cert.KernelIdeal.S3x128.Idx → EReal} (l : Fin 3)
    (hs : s = s') (hd : d = d') (he : e = e') (ha : a = a') :
    addRow (Cert.KernelIdeal.Agg.aggOps s d e x) (rowOf (fun j => a (ix2 l (j 0))))
      = addRow (Cert.KernelIdeal.Agg.aggOps s' d' e' x) (rowOf (fun j => a' (ix2 l (j 0)))) := by
  subst hs hd he ha; rfl

/-- THE THIRD LAYER AGREES. When the reference holds for the layer's input what the kernel program holds, and that
    array is real; the two hold the same edge arrays, with real edge weights; and the stacked weight, bias, scale and shift
    arguments agree, the first two real: what the reference holds for the layer's output is what the kernel program holds. -/
theorem layer2_agree
    (m' : (ℓ : Loc Cert.ReferenceIdeal.nD Cert.ReferenceIdeal.τ Cert.ReferenceIdeal.sig) → Buf (Elt Ideal) ℓ)
    (hH : Cert.ReferenceIdeal.HandRun.U13 (StableHlo.launchContents m' c) (Proc.devRef .tc Cert.ReferenceIdeal.main_v147) = Cert.KernelIdeal.Gen.W20 (F := Ideal) m ρ c (Proc.devRef .tc Cert.KernelIdeal.main_v114))
    (hHr : AllReal (ι := Snd.Idx) (Cert.KernelIdeal.Gen.W20 (F := Ideal) m ρ c (Proc.devRef .tc Cert.KernelIdeal.main_v114)))
    (hS : Cert.ReferenceIdeal.HandRun.U1 (StableHlo.launchContents m' c) (Proc.devRef .tc Cert.ReferenceIdeal.main_v1) = Cert.KernelIdeal.Gen.W3 (F := Ideal) m ρ c (Proc.devRef .tc Cert.KernelIdeal.main_v1))
    (hD : Cert.ReferenceIdeal.HandRun.U1 (StableHlo.launchContents m' c) (Proc.devRef .tc Cert.ReferenceIdeal.main_v3) = Cert.KernelIdeal.Gen.W3 (F := Ideal) m ρ c (Proc.devRef .tc Cert.KernelIdeal.main_v3))
    (hE : Cert.ReferenceIdeal.HandRun.U1 (StableHlo.launchContents m' c) (Proc.devRef .tc Cert.ReferenceIdeal.main_v29) = Cert.KernelIdeal.Gen.W3 (F := Ideal) m ρ c (Proc.devRef .tc Cert.KernelIdeal.main_v29))
    (hEr : AllReal (ι := Cert.KernelIdeal.S640000x1.Idx) (Cert.KernelIdeal.Gen.W3 (F := Ideal) m ρ c (Proc.devRef .tc Cert.KernelIdeal.main_v29)))
    (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (h12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (r9 : AllReal (m ((c.tc : Thread Cert.KernelIdeal.nD Cert.KernelIdeal.τ).loc Cert.KernelIdeal.main_arg9))) (r10 : AllReal (m ((c.tc : Thread Cert.KernelIdeal.nD Cert.KernelIdeal.τ).loc Cert.KernelIdeal.main_arg10))) :
    Cert.ReferenceIdeal.HandRun.U17 (StableHlo.launchContents m' c) (Proc.devRef .tc Cert.ReferenceIdeal.main_v192)
      = Cert.KernelIdeal.Gen.W26 (F := Ideal) m ρ c (Proc.devRef .tc Cert.KernelIdeal.main_v148) := by
  refine Eq.trans ?_ (Cert.KernelIdeal.Layers.layer2_out m ρ c).symm
  exact layer_agree_of2
    (Cert.KernelIdeal.Gen.W20 (F := Ideal) m ρ c (Proc.devRef .tc Cert.KernelIdeal.main_v114)) (fun i => ((m ((c.tc : Thread Cert.KernelIdeal.nD Cert.KernelIdeal.τ).loc Cert.KernelIdeal.main_arg9)) : Cert.KernelIdeal.S3x128x128.Idx → EReal) (ix3 2 (i 0) (i 1)))
    (Cert.KernelIdeal.Gen.W3 (F := Ideal) m ρ c (Proc.devRef .tc Cert.KernelIdeal.main_v1)) (Cert.KernelIdeal.Gen.W3 (F := Ideal) m ρ c (Proc.devRef .tc Cert.KernelIdeal.main_v3)) (Cert.KernelIdeal.Gen.W3 (F := Ideal) m ρ c (Proc.devRef .tc Cert.KernelIdeal.main_v29))
    (fun j => ((m ((c.tc : Thread Cert.KernelIdeal.nD Cert.KernelIdeal.τ).loc Cert.KernelIdeal.main_arg10)) : Cert.KernelIdeal.S3x128.Idx → EReal) (ix2 2 (j 0))) (fun j => ((m ((c.tc : Thread Cert.KernelIdeal.nD Cert.KernelIdeal.τ).loc Cert.KernelIdeal.main_arg11)) : Cert.KernelIdeal.S3x128.Idx → EReal) (ix2 2 (j 0))) (fun j => ((m ((c.tc : Thread Cert.KernelIdeal.nD Cert.KernelIdeal.τ).loc Cert.KernelIdeal.main_arg12)) : Cert.KernelIdeal.S3x128.Idx → EReal) (ix2 2 (j 0)))
    (Cert.ReferenceIdeal.HandRun.U13 (StableHlo.launchContents m' c) (Proc.devRef .tc Cert.ReferenceIdeal.main_v147)) (Cert.ReferenceIdeal.HandRun.U14 (StableHlo.launchContents m' c) (Proc.devRef .tc Cert.ReferenceIdeal.main_v150)) (Cert.ReferenceIdeal.HandRun.U15 (StableHlo.launchContents m' c) (Proc.devRef .tc Cert.ReferenceIdeal.main_v167)) (Cert.ReferenceIdeal.HandRun.U17 (StableHlo.launchContents m' c) (Proc.devRef .tc Cert.ReferenceIdeal.main_v192))
    (Cert.ReferenceIdeal.HandRun.U15 (StableHlo.launchContents m' c) (Proc.devRef .tc Cert.ReferenceIdeal.main_v169)) (Cert.ReferenceIdeal.HandRun.U15 (StableHlo.launchContents m' c) (Proc.devRef .tc Cert.ReferenceIdeal.main_v171))
    hH
    ((Cert.ReferenceIdeal.HandRun.l2_v150 (StableHlo.launchContents m' c)).trans
      (congrArg (fun a : Cert.KernelIdeal.S3x128x128.Idx → EReal =>
        linear (Cert.ReferenceIdeal.HandRun.U13 (StableHlo.launchContents m' c) (Proc.devRef .tc Cert.ReferenceIdeal.main_v147)) (fun i => a (ix3 2 (i 0) (i 1))) (fun _ => 0)) h9))
    (((Cert.ReferenceIdeal.HandRun.l2_v167 (StableHlo.launchContents m' c)).trans
      (Cert.Shared.ref_agg_bias2_eq _ _ _ _ _)).trans
      (agg_bias_congr2 (Cert.ReferenceIdeal.HandRun.U14 (StableHlo.launchContents m' c) (Proc.devRef .tc Cert.ReferenceIdeal.main_v150)) 2 hS hD hE h10))
    ((Cert.ReferenceIdeal.HandRun.l2_v169 (StableHlo.launchContents m' c)).trans
      (congrArg (fun a : Cert.KernelIdeal.S3x128.Idx → EReal => fun j : Svec.Idx => a (ix2 2 (j 0))) h11))
    ((Cert.ReferenceIdeal.HandRun.l2_v171 (StableHlo.launchContents m' c)).trans
      (congrArg (fun a : Cert.KernelIdeal.S3x128.Idx → EReal => fun j : Svec.Idx => a (ix2 2 (j 0))) h12))
    (Cert.ReferenceIdeal.HandRun.l2_v192 (StableHlo.launchContents m' c))
    hHr (r9.comp _) hEr (r10.comp _)

/-- THE THIRD LAYER'S OUTPUT IS REAL: what the kernel program holds for it is an array of real numbers, when the layer's
    input, the edge weights and the four argument stacks are. -/
theorem layer2_real
    (hHr : AllReal (ι := Snd.Idx) (Cert.KernelIdeal.Gen.W20 (F := Ideal) m ρ c (Proc.devRef .tc Cert.KernelIdeal.main_v114)))
    (hEr : AllReal (ι := Cert.KernelIdeal.S640000x1.Idx) (Cert.KernelIdeal.Gen.W3 (F := Ideal) m ρ c (Proc.devRef .tc Cert.KernelIdeal.main_v29)))
    (r9 : AllReal (m ((c.tc : Thread Cert.KernelIdeal.nD Cert.KernelIdeal.τ).loc Cert.KernelIdeal.main_arg9))) (r10 : AllReal (m ((c.tc : Thread Cert.KernelIdeal.nD Cert.KernelIdeal.τ).loc Cert.KernelIdeal.main_arg10)))
    (r11 : AllReal (m ((c.tc : Thread Cert.KernelIdeal.nD Cert.KernelIdeal.τ).loc Cert.KernelIdeal.main_arg11))) (r12 : AllReal (m ((c.tc : Thread Cert.KernelIdeal.nD Cert.KernelIdeal.τ).loc Cert.KernelIdeal.main_arg12))) :
    AllReal (ι := Snd.Idx) (Cert.KernelIdeal.Gen.W26 (F := Ideal) m ρ c (Proc.devRef .tc Cert.KernelIdeal.main_v148)) := by
  rw [Cert.KernelIdeal.Layers.layer2_out m ρ c]
  exact layer_allReal (Cert.KernelIdeal.Gen.W20 (F := Ideal) m ρ c (Proc.devRef .tc Cert.KernelIdeal.main_v114)) (fun i => ((m ((c.tc : Thread Cert.KernelIdeal.nD Cert.KernelIdeal.τ).loc Cert.KernelIdeal.main_arg9)) : Cert.KernelIdeal.S3x128x128.Idx → EReal) (ix3 2 (i 0) (i 1)))
    (Cert.KernelIdeal.Gen.W3 (F := Ideal) m ρ c (Proc.devRef .tc Cert.KernelIdeal.main_v1)) (Cert.KernelIdeal.Gen.W3 (F := Ideal) m ρ c (Proc.devRef .tc Cert.KernelIdeal.main_v3)) (Cert.KernelIdeal.Gen.W3 (F := Ideal) m ρ c (Proc.devRef .tc Cert.KernelIdeal.main_v29))
    (fun j => ((m ((c.tc : Thread Cert.KernelIdeal.nD Cert.KernelIdeal.τ).loc Cert.KernelIdeal.main_arg10)) : Cert.KernelIdeal.S3x128.Idx → EReal) (ix2 2 (j 0))) (fun j => ((m ((c.tc : Thread Cert.KernelIdeal.nD Cert.KernelIdeal.τ).loc Cert.KernelIdeal.main_arg11)) : Cert.KernelIdeal.S3x128.Idx → EReal) (ix2 2 (j 0))) (fun j => ((m ((c.tc : Thread Cert.KernelIdeal.nD Cert.KernelIdeal.τ).loc Cert.KernelIdeal.main_arg12)) : Cert.KernelIdeal.S3x128.Idx → EReal) (ix2 2 (j 0)))
    hHr (r9.comp _) hEr (r10.comp _) (r11.comp _) (r12.comp _)

end Cert.Bridge

end
-- ==== Proof.KFoldOut.lean ====
import proofs.«136606_j68719476736452_2_alg».proof.Proof.Gen.KernelIdeal.Frame
import proofs.«136606_j68719476736452_2_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.FoldOut

open Cert.KernelIdeal Cert.KernelIdeal.Gen Cert.Gcn
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- A buffer that no operation of a host stretch writes keeps its contents across the stretch. -/
macro "host_carry" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! # The kernel program's readout

After the last region the program pools the node features by graph and applies three small dense layers on the host.
The arguments those operations read are as launched at that boundary; the result buffer at the end is those five
host stretches applied to the contents at that boundary. -/

/-- Argument 2 is as launched when the readout begins. -/
theorem arg2_at26 : W26 (F := Ideal) m ρ c (Proc.devRef .tc main_arg2) = m ((c : Thread nD τ).loc main_arg2) :=
  (calc W31 (F := Ideal) m ρ c (Proc.devRef .tc main_arg2)
    _ = W30 (F := Ideal) m ρ c (Proc.devRef .tc main_arg2) := by host_carry hostOps13_4
    _ = W29 (F := Ideal) m ρ c (Proc.devRef .tc main_arg2) := by host_carry hostOps13_3
    _ = W28 (F := Ideal) m ρ c (Proc.devRef .tc main_arg2) := by host_carry hostOps13_2
    _ = W27 (F := Ideal) m ρ c (Proc.devRef .tc main_arg2) := by host_carry hostOps13_1
    _ = W26 (F := Ideal) m ρ c (Proc.devRef .tc main_arg2) := by host_carry hostOps13
  ).symm.trans (W31_main_arg2 m ρ c)

/-- Argument 13 is as launched when the readout begins. -/
theorem arg13_at26 : W26 (F := Ideal) m ρ c (Proc.devRef .tc main_arg13) = m ((c : Thread nD τ).loc main_arg13) :=
  (calc W31 (F := Ideal) m ρ c (Proc.devRef .tc main_arg13)
    _ = W30 (F := Ideal) m ρ c (Proc.devRef .tc main_arg13) := by host_carry hostOps13_4
    _ = W29 (F := Ideal) m ρ c (Proc.devRef .tc main_arg13) := by host_carry hostOps13_3
    _ = W28 (F := Ideal) m ρ c (Proc.devRef .tc main_arg13) := by host_carry hostOps13_2
    _ = W27 (F := Ideal) m ρ c (Proc.devRef .tc main_arg13) := by host_carry hostOps13_1
    _ = W26 (F := Ideal) m ρ c (Proc.devRef .tc main_arg13) := by host_carry hostOps13
  ).symm.trans (W31_main_arg13 m ρ c)

/-- Argument 14 is as launched when the readout begins. -/
theorem arg14_at26 : W26 (F := Ideal) m ρ c (Proc.devRef .tc main_arg14) = m ((c : Thread nD τ).loc main_arg14) :=
  (calc W31 (F := Ideal) m ρ c (Proc.devRef .tc main_arg14)
    _ = W30 (F := Ideal) m ρ c (Proc.devRef .tc main_arg14) := by host_carry hostOps13_4
    _ = W29 (F := Ideal) m ρ c (Proc.devRef .tc main_arg14) := by host_carry hostOps13_3
    _ = W28 (F := Ideal) m ρ c (Proc.devRef .tc main_arg14) := by host_carry hostOps13_2
    _ = W27 (F := Ideal) m ρ c (Proc.devRef .tc main_arg14) := by host_carry hostOps13_1
    _ = W26 (F := Ideal) m ρ c (Proc.devRef .tc main_arg14) := by host_carry hostOps13
  ).symm.trans (W31_main_arg14 m ρ c)

/-- Argument 15 is as launched when the readout begins. -/
theorem arg15_at26 : W26 (F := Ideal) m ρ c (Proc.devRef .tc main_arg15) = m ((c : Thread nD τ).loc main_arg15) :=
  (calc W31 (F := Ideal) m ρ c (Proc.devRef .tc main_arg15)
    _ = W30 (F := Ideal) m ρ c (Proc.devRef .tc main_arg15) := by host_carry hostOps13_4
    _ = W29 (F := Ideal) m ρ c (Proc.devRef .tc main_arg15) := by host_carry hostOps13_3
    _ = W28 (F := Ideal) m ρ c (Proc.devRef .tc main_arg15) := by host_carry hostOps13_2
    _ = W27 (F := Ideal) m ρ c (Proc.devRef .tc main_arg15) := by host_carry hostOps13_1
    _ = W26 (F := Ideal) m ρ c (Proc.devRef .tc main_arg15) := by host_carry hostOps13
  ).symm.trans (W31_main_arg15 m ρ c)

/-- Argument 16 is as launched when the readout begins. -/
theorem arg16_at26 : W26 (F := Ideal) m ρ c (Proc.devRef .tc main_arg16) = m ((c : Thread nD τ).loc main_arg16) :=
  (calc W31 (F := Ideal) m ρ c (Proc.devRef .tc main_arg16)
    _ = W30 (F := Ideal) m ρ c (Proc.devRef .tc main_arg16) := by host_carry hostOps13_4
    _ = W29 (F := Ideal) m ρ c (Proc.devRef .tc main_arg16) := by host_carry hostOps13_3
    _ = W28 (F := Ideal) m ρ c (Proc.devRef .tc main_arg16) := by host_carry hostOps13_2
    _ = W27 (F := Ideal) m ρ c (Proc.devRef .tc main_arg16) := by host_carry hostOps13_1
    _ = W26 (F := Ideal) m ρ c (Proc.devRef .tc main_arg16) := by host_carry hostOps13
  ).symm.trans (W31_main_arg16 m ρ c)

/-- Argument 17 is as launched when the readout begins. -/
theorem arg17_at26 : W26 (F := Ideal) m ρ c (Proc.devRef .tc main_arg17) = m ((c : Thread nD τ).loc main_arg17) :=
  (calc W31 (F := Ideal) m ρ c (Proc.devRef .tc main_arg17)
    _ = W30 (F := Ideal) m ρ c (Proc.devRef .tc main_arg17) := by host_carry hostOps13_4
    _ = W29 (F := Ideal) m ρ c (Proc.devRef .tc main_arg17) := by host_carry hostOps13_3
    _ = W28 (F := Ideal) m ρ c (Proc.devRef .tc main_arg17) := by host_carry hostOps13_2
    _ = W27 (F := Ideal) m ρ c (Proc.devRef .tc main_arg17) := by host_carry hostOps13_1
    _ = W26 (F := Ideal) m ρ c (Proc.devRef .tc main_arg17) := by host_carry hostOps13
  ).symm.trans (W31_main_arg17 m ρ c)

/-- Argument 18 is as launched when the readout begins. -/
theorem arg18_at26 : W26 (F := Ideal) m ρ c (Proc.devRef .tc main_arg18) = m ((c : Thread nD τ).loc main_arg18) :=
  (calc W31 (F := Ideal) m ρ c (Proc.devRef .tc main_arg18)
    _ = W30 (F := Ideal) m ρ c (Proc.devRef .tc main_arg18) := by host_carry hostOps13_4
    _ = W29 (F := Ideal) m ρ c (Proc.devRef .tc main_arg18) := by host_carry hostOps13_3
    _ = W28 (F := Ideal) m ρ c (Proc.devRef .tc main_arg18) := by host_carry hostOps13_2
    _ = W27 (F := Ideal) m ρ c (Proc.devRef .tc main_arg18) := by host_carry hostOps13_1
    _ = W26 (F := Ideal) m ρ c (Proc.devRef .tc main_arg18) := by host_carry hostOps13
  ).symm.trans (W31_main_arg18 m ρ c)

/-- The result buffer at the end of the run is the five readout stretches applied to the contents after the last region. -/
theorem result_at31 : W31 (F := Ideal) m ρ c (Proc.devRef .tc main_v165)
    = StableHlo.after (hostOps13_4 (F := Ideal)) (StableHlo.after (hostOps13_3 (F := Ideal)) (StableHlo.after (hostOps13_2 (F := Ideal))
        (StableHlo.after (hostOps13_1 (F := Ideal)) (StableHlo.after (hostOps13 (F := Ideal)) (W26 (F := Ideal) m ρ c))))) (Proc.devRef .tc main_v165) := rfl

end Cert.KernelIdeal.FoldOut

end
-- ==== Proof.PreReal.lean ====
/-
  From the precondition to finiteness. The claim's precondition is a truth value computed from the argument arrays:
  for each of the seventeen floating-point arguments x, all(|x| < +∞), and the and of the seventeen. Read over the
  extended reals, |x| is max x (−x), the word 0x7F800000 is ⊤, and a comparison answers 1 exactly when it holds; an
  and over all entries that answers 1 had 1 at every entry. So the precondition says that every entry of every
  floating-point argument is a real number (neither infinity), which is what the algebraic laws of the layers need.

  The per-argument step is stated once, at any shape (allReal_of_all), and used seventeen times.
-/
import proofs.«136606_j68719476736452_2_alg».proof.Defs
import proofs.«136606_j68719476736452_2_alg».proof.Proof.Gen.Pre_finite_inputs
import proofs.«136606_j68719476736452_2_alg».proof.Proof.Spec
import proofs.«136606_j68719476736452_2_alg».proof.Proof.RealLaws
import Idealize.ShloMosaic.Lib.ReduceAll
import Idealize.ShloMosaic.Lib.ValueIdx

noncomputable section

open Idealize.ShloMosaic Idealize.ShloMosaic.ValueIdx
open Cert.Gcn

namespace Cert.PreReal

/-- The shape with no axes has one index. -/
instance subsingleton_S_ : Subsingleton (⟨0, ![]⟩ : Shape).Idx := ⟨fun a b => funext fun d => d.elim0⟩

/-- The single-precision pattern of +∞, read as an extended real, is ⊤. -/
theorem inf_word : Ideal.ofBits .f32 0x7F800000#32 = (⊤ : EReal) := by
  simp [Ideal.ofBits, Ideal.ieee]

/-- An extended real whose absolute value is below +∞ is a real number: it is neither infinity. -/
theorem isReal_of_abs_lt_top (x : EReal) (h : max x (-x) < ⊤) : IsReal x := by
  induction x using EReal.rec with
  | bot => simp at h
  | coe r => exact ⟨r, rfl⟩
  | top => simp at h

/-- The comparison |x| < +∞ answering 1 says x is a real number. -/
theorem elem_real (x : EReal) (h : Ideal.cmp .olt (max x (-x)) (Ideal.ofBits .f32 0x7F800000#32) = 1#1) : IsReal x := by
  rw [inf_word] at h
  refine isReal_of_abs_lt_top x ?_
  by_contra hn
  have : Ideal.cmp .olt (max x (-x)) ⊤ = 0#1 := by
    unfold Ideal.cmp
    simp [hn]
  rw [this] at h
  exact absurd h (by decide)

/-- THE PER-ARGUMENT STEP, at any shape: an array x with all(|x| < +∞) = 1 has every entry real. -/
theorem allReal_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hu ix0 = 1#1) : AllReal x := by
  intro i
  exact elem_real (x i) (Host.reduce_andi_all _ _ hr hu ix0 e i)

/-- An and of two one-element truth values that is 1 has both 1. -/
theorem andi_split (a b : IVec (⟨0, ![]⟩ : Shape) 1) (h : andi a b ix0 = 1#1) : a ix0 = 1#1 ∧ b ix0 = 1#1 :=
  IntOp.andi_eq_one.1 h

/-- FROM THE PRECONDITION TO FINITENESS. The precondition says that, on every device, the and of all(|x| < +∞) over the
    seventeen floating-point arguments is 1; so every entry of each of them is a real number. One conjunct per
    floating-point argument, in argument order (arguments 1 and 2 are integer arrays and are not mentioned). -/
theorem args_real [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
      ∧ AllReal (m ((c.tc : Thread Cert.KernelIdeal.nD Cert.KernelIdeal.τ).loc Cert.KernelIdeal.main_arg3))
      ∧ AllReal (m ((c.tc : Thread Cert.KernelIdeal.nD Cert.KernelIdeal.τ).loc Cert.KernelIdeal.main_arg4))
      ∧ AllReal (m ((c.tc : Thread Cert.KernelIdeal.nD Cert.KernelIdeal.τ).loc Cert.KernelIdeal.main_arg5))
      ∧ AllReal (m ((c.tc : Thread Cert.KernelIdeal.nD Cert.KernelIdeal.τ).loc Cert.KernelIdeal.main_arg6))
      ∧ AllReal (m ((c.tc : Thread Cert.KernelIdeal.nD Cert.KernelIdeal.τ).loc Cert.KernelIdeal.main_arg7))
      ∧ AllReal (m ((c.tc : Thread Cert.KernelIdeal.nD Cert.KernelIdeal.τ).loc Cert.KernelIdeal.main_arg8))
      ∧ AllReal (m ((c.tc : Thread Cert.KernelIdeal.nD Cert.KernelIdeal.τ).loc Cert.KernelIdeal.main_arg9))
      ∧ AllReal (m ((c.tc : Thread Cert.KernelIdeal.nD Cert.KernelIdeal.τ).loc Cert.KernelIdeal.main_arg10))
      ∧ AllReal (m ((c.tc : Thread Cert.KernelIdeal.nD Cert.KernelIdeal.τ).loc Cert.KernelIdeal.main_arg11))
      ∧ AllReal (m ((c.tc : Thread Cert.KernelIdeal.nD Cert.KernelIdeal.τ).loc Cert.KernelIdeal.main_arg12))
      ∧ AllReal (m ((c.tc : Thread Cert.KernelIdeal.nD Cert.KernelIdeal.τ).loc Cert.KernelIdeal.main_arg13))
      ∧ AllReal (m ((c.tc : Thread Cert.KernelIdeal.nD Cert.KernelIdeal.τ).loc Cert.KernelIdeal.main_arg14))
      ∧ AllReal (m ((c.tc : Thread Cert.KernelIdeal.nD Cert.KernelIdeal.τ).loc Cert.KernelIdeal.main_arg15))
      ∧ AllReal (m ((c.tc : Thread Cert.KernelIdeal.nD Cert.KernelIdeal.τ).loc Cert.KernelIdeal.main_arg16))
      ∧ AllReal (m ((c.tc : Thread Cert.KernelIdeal.nD Cert.KernelIdeal.τ).loc Cert.KernelIdeal.main_arg17))
      ∧ AllReal (m ((c.tc : Thread Cert.KernelIdeal.nD Cert.KernelIdeal.τ).loc Cert.KernelIdeal.main_arg18)) := by
  have h0 := congrFun (h c) ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h0, e18⟩ := andi_split _ _ h0
  obtain ⟨h0, e17⟩ := andi_split _ _ h0
  obtain ⟨h0, e16⟩ := andi_split _ _ h0
  obtain ⟨h0, e15⟩ := andi_split _ _ h0
  obtain ⟨h0, e14⟩ := andi_split _ _ h0
  obtain ⟨h0, e13⟩ := andi_split _ _ h0
  obtain ⟨h0, e12⟩ := andi_split _ _ h0
  obtain ⟨h0, e11⟩ := andi_split _ _ h0
  obtain ⟨h0, e10⟩ := andi_split _ _ h0
  obtain ⟨h0, e9⟩ := andi_split _ _ h0
  obtain ⟨h0, e8⟩ := andi_split _ _ h0
  obtain ⟨h0, e7⟩ := andi_split _ _ h0
  obtain ⟨h0, e6⟩ := andi_split _ _ h0
  obtain ⟨h0, e5⟩ := andi_split _ _ h0
  obtain ⟨h0, e4⟩ := andi_split _ _ h0
  obtain ⟨h0, e3⟩ := andi_split _ _ h0
  exact ⟨allReal_of_all _ _ _ _ h0,
    allReal_of_all _ _ _ _ e3,
    allReal_of_all _ _ _ _ e4,
    allReal_of_all _ _ _ _ e5,
    allReal_of_all _ _ _ _ e6,
    allReal_of_all _ _ _ _ e7,
    allReal_of_all _ _ _ _ e8,
    allReal_of_all _ _ _ _ e9,
    allReal_of_all _ _ _ _ e10,
    allReal_of_all _ _ _ _ e11,
    allReal_of_all _ _ _ _ e12,
    allReal_of_all _ _ _ _ e13,
    allReal_of_all _ _ _ _ e14,
    allReal_of_all _ _ _ _ e15,
    allReal_of_all _ _ _ _ e16,
    allReal_of_all _ _ _ _ e17,
    allReal_of_all _ _ _ _ e18⟩

end Cert.PreReal

end
-- ==== Proof.BridgeAll.lean ====
/-
  The two idealized programs end with the same result.

  From memories that agree on the arguments, all of whose float entries are real numbers, the reference's contents are
  compared with the kernel program's boundary by boundary: the edge arrays (the same host operations on the same edge
  list), the encoder's output, each of the three layers' outputs — each equal across the two programs and all real, the
  one-pass and two-pass batch variances agreeing on real entries — and finally the readout (the same host operations on
  equal inputs). Also: no operation of the reference writes an argument.
-/
import proofs.«136606_j68719476736452_2_alg».proof.Proof.BridgeEnc
import proofs.«136606_j68719476736452_2_alg».proof.Proof.BridgeL0
import proofs.«136606_j68719476736452_2_alg».proof.Proof.BridgeL1
import proofs.«136606_j68719476736452_2_alg».proof.Proof.BridgeL2
import proofs.«136606_j68719476736452_2_alg».proof.Proof.Shared
import proofs.«136606_j68719476736452_2_alg».proof.Proof.KFoldOut
import proofs.«136606_j68719476736452_2_alg».proof.Proof.PreReal
import proofs.«136606_j68719476736452_2_alg».proof.Proof.RefRead
import proofs.«136606_j68719476736452_2_alg».proof.Proof.Agg

set_option maxRecDepth 16384

noncomputable section

open Idealize.ShloMosaic Idealize.ShloMosaic.TcCoe Idealize.ShloMosaic.ValueIdx Idealize.SL.Sem
open Cert.Gcn

namespace Cert.Bridge

/-! ## The reference writes no argument -/

/-- Argument 0 of the reference ends as launched. -/
theorem ref_arg0_kept (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.HandRun.ops (F := Ideal)) (StableHlo.launchContents m' c) (Proc.devRef .tc Cert.ReferenceIdeal.main_arg0)
      = m' ((c.tc : Thread Cert.ReferenceIdeal.nD Cert.ReferenceIdeal.τ).loc Cert.ReferenceIdeal.main_arg0) :=
  (congrFun (Cert.ReferenceIdeal.HandRun.after_ops (StableHlo.launchContents m' c)) _).trans
    ((Cert.ReferenceIdeal.HandRun.arg_kept_0 (StableHlo.launchContents m' c)).trans (Cert.ReferenceIdeal.HandRun.launch_arg m' c Cert.ReferenceIdeal.main_arg0))

/-- Argument 1 of the reference ends as launched. -/
theorem ref_arg1_kept (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.HandRun.ops (F := Ideal)) (StableHlo.launchContents m' c) (Proc.devRef .tc Cert.ReferenceIdeal.main_arg1)
      = m' ((c.tc : Thread Cert.ReferenceIdeal.nD Cert.ReferenceIdeal.τ).loc Cert.ReferenceIdeal.main_arg1) :=
  (congrFun (Cert.ReferenceIdeal.HandRun.after_ops (StableHlo.launchContents m' c)) _).trans
    ((Cert.ReferenceIdeal.HandRun.arg_kept_1 (StableHlo.launchContents m' c)).trans (Cert.ReferenceIdeal.HandRun.launch_arg m' c Cert.ReferenceIdeal.main_arg1))

/-- Argument 2 of the reference ends as launched. -/
theorem ref_arg2_kept (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.HandRun.ops (F := Ideal)) (StableHlo.launchContents m' c) (Proc.devRef .tc Cert.ReferenceIdeal.main_arg2)
      = m' ((c.tc : Thread Cert.ReferenceIdeal.nD Cert.ReferenceIdeal.τ).loc Cert.ReferenceIdeal.main_arg2) :=
  (congrFun (Cert.ReferenceIdeal.HandRun.after_ops (StableHlo.launchContents m' c)) _).trans
    ((Cert.ReferenceIdeal.HandRun.arg_kept_2 (StableHlo.launchContents m' c)).trans (Cert.ReferenceIdeal.HandRun.launch_arg m' c Cert.ReferenceIdeal.main_arg2))

/-- Argument 3 of the reference ends as launched. -/
theorem ref_arg3_kept (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.HandRun.ops (F := Ideal)) (StableHlo.launchContents m' c) (Proc.devRef .tc Cert.ReferenceIdeal.main_arg3)
      = m' ((c.tc : Thread Cert.ReferenceIdeal.nD Cert.ReferenceIdeal.τ).loc Cert.ReferenceIdeal.main_arg3) :=
  (congrFun (Cert.ReferenceIdeal.HandRun.after_ops (StableHlo.launchContents m' c)) _).trans
    ((Cert.ReferenceIdeal.HandRun.arg_kept_3 (StableHlo.launchContents m' c)).trans (Cert.ReferenceIdeal.HandRun.launch_arg m' c Cert.ReferenceIdeal.main_arg3))

/-- Argument 4 of the reference ends as launched. -/
theorem ref_arg4_kept (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.HandRun.ops (F := Ideal)) (StableHlo.launchContents m' c) (Proc.devRef .tc Cert.ReferenceIdeal.main_arg4)
      = m' ((c.tc : Thread Cert.ReferenceIdeal.nD Cert.ReferenceIdeal.τ).loc Cert.ReferenceIdeal.main_arg4) :=
  (congrFun (Cert.ReferenceIdeal.HandRun.after_ops (StableHlo.launchContents m' c)) _).trans
    ((Cert.ReferenceIdeal.HandRun.arg_kept_4 (StableHlo.launchContents m' c)).trans (Cert.ReferenceIdeal.HandRun.launch_arg m' c Cert.ReferenceIdeal.main_arg4))

/-- Argument 5 of the reference ends as launched. -/
theorem ref_arg5_kept (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.HandRun.ops (F := Ideal)) (StableHlo.launchContents m' c) (Proc.devRef .tc Cert.ReferenceIdeal.main_arg5)
      = m' ((c.tc : Thread Cert.ReferenceIdeal.nD Cert.ReferenceIdeal.τ).loc Cert.ReferenceIdeal.main_arg5) :=
  (congrFun (Cert.ReferenceIdeal.HandRun.after_ops (StableHlo.launchContents m' c)) _).trans
    ((Cert.ReferenceIdeal.HandRun.arg_kept_5 (StableHlo.launchContents m' c)).trans (Cert.ReferenceIdeal.HandRun.launch_arg m' c Cert.ReferenceIdeal.main_arg5))

/-- Argument 6 of the reference ends as launched. -/
theorem ref_arg6_kept (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.HandRun.ops (F := Ideal)) (StableHlo.launchContents m' c) (Proc.devRef .tc Cert.ReferenceIdeal.main_arg6)
      = m' ((c.tc : Thread Cert.ReferenceIdeal.nD Cert.ReferenceIdeal.τ).loc Cert.ReferenceIdeal.main_arg6) :=
  (congrFun (Cert.ReferenceIdeal.HandRun.after_ops (StableHlo.launchContents m' c)) _).trans
    ((Cert.ReferenceIdeal.HandRun.arg_kept_6 (StableHlo.launchContents m' c)).trans (Cert.ReferenceIdeal.HandRun.launch_arg m' c Cert.ReferenceIdeal.main_arg6))

/-- Argument 7 of the reference ends as launched. -/
theorem ref_arg7_kept (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.HandRun.ops (F := Ideal)) (StableHlo.launchContents m' c) (Proc.devRef .tc Cert.ReferenceIdeal.main_arg7)
      = m' ((c.tc : Thread Cert.ReferenceIdeal.nD Cert.ReferenceIdeal.τ).loc Cert.ReferenceIdeal.main_arg7) :=
  (congrFun (Cert.ReferenceIdeal.HandRun.after_ops (StableHlo.launchContents m' c)) _).trans
    ((Cert.ReferenceIdeal.HandRun.arg_kept_7 (StableHlo.launchContents m' c)).trans (Cert.ReferenceIdeal.HandRun.launch_arg m' c Cert.ReferenceIdeal.main_arg7))

/-- Argument 8 of the reference ends as launched. -/
theorem ref_arg8_kept (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.HandRun.ops (F := Ideal)) (StableHlo.launchContents m' c) (Proc.devRef .tc Cert.ReferenceIdeal.main_arg8)
      = m' ((c.tc : Thread Cert.ReferenceIdeal.nD Cert.ReferenceIdeal.τ).loc Cert.ReferenceIdeal.main_arg8) :=
  (congrFun (Cert.ReferenceIdeal.HandRun.after_ops (StableHlo.launchContents m' c)) _).trans
    ((Cert.ReferenceIdeal.HandRun.arg_kept_8 (StableHlo.launchContents m' c)).trans (Cert.ReferenceIdeal.HandRun.launch_arg m' c Cert.ReferenceIdeal.main_arg8))

/-- Argument 9 of the reference ends as launched. -/
theorem ref_arg9_kept (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.HandRun.ops (F := Ideal)) (StableHlo.launchContents m' c) (Proc.devRef .tc Cert.ReferenceIdeal.main_arg9)
      = m' ((c.tc : Thread Cert.ReferenceIdeal.nD Cert.ReferenceIdeal.τ).loc Cert.ReferenceIdeal.main_arg9) :=
  (congrFun (Cert.ReferenceIdeal.HandRun.after_ops (StableHlo.launchContents m' c)) _).trans
    ((Cert.ReferenceIdeal.HandRun.arg_kept_9 (StableHlo.launchContents m' c)).trans (Cert.ReferenceIdeal.HandRun.launch_arg m' c Cert.ReferenceIdeal.main_arg9))

/-- Argument 10 of the reference ends as launched. -/
theorem ref_arg10_kept (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.HandRun.ops (F := Ideal)) (StableHlo.launchContents m' c) (Proc.devRef .tc Cert.ReferenceIdeal.main_arg10)
      = m' ((c.tc : Thread Cert.ReferenceIdeal.nD Cert.ReferenceIdeal.τ).loc Cert.ReferenceIdeal.main_arg10) :=
  (congrFun (Cert.ReferenceIdeal.HandRun.after_ops (StableHlo.launchContents m' c)) _).trans
    ((Cert.ReferenceIdeal.HandRun.arg_kept_10 (StableHlo.launchContents m' c)).trans (Cert.ReferenceIdeal.HandRun.launch_arg m' c Cert.ReferenceIdeal.main_arg10))

/-- Argument 11 of the reference ends as launched. -/
theorem ref_arg11_kept (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.HandRun.ops (F := Ideal)) (StableHlo.launchContents m' c) (Proc.devRef .tc Cert.ReferenceIdeal.main_arg11)
      = m' ((c.tc : Thread Cert.ReferenceIdeal.nD Cert.ReferenceIdeal.τ).loc Cert.ReferenceIdeal.main_arg11) :=
  (congrFun (Cert.ReferenceIdeal.HandRun.after_ops (StableHlo.launchContents m' c)) _).trans
    ((Cert.ReferenceIdeal.HandRun.arg_kept_11 (StableHlo.launchContents m' c)).trans (Cert.ReferenceIdeal.HandRun.launch_arg m' c Cert.ReferenceIdeal.main_arg11))

/-- Argument 12 of the reference ends as launched. -/
theorem ref_arg12_kept (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.HandRun.ops (F := Ideal)) (StableHlo.launchContents m' c) (Proc.devRef .tc Cert.ReferenceIdeal.main_arg12)
      = m' ((c.tc : Thread Cert.ReferenceIdeal.nD Cert.ReferenceIdeal.τ).loc Cert.ReferenceIdeal.main_arg12) :=
  (congrFun (Cert.ReferenceIdeal.HandRun.after_ops (StableHlo.launchContents m' c)) _).trans
    ((Cert.ReferenceIdeal.HandRun.arg_kept_12 (StableHlo.launchContents m' c)).trans (Cert.ReferenceIdeal.HandRun.launch_arg m' c Cert.ReferenceIdeal.main_arg12))

/-- Argument 13 of the reference ends as launched. -/
theorem ref_arg13_kept (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.HandRun.ops (F := Ideal)) (StableHlo.launchContents m' c) (Proc.devRef .tc Cert.ReferenceIdeal.main_arg13)
      = m' ((c.tc : Thread Cert.ReferenceIdeal.nD Cert.ReferenceIdeal.τ).loc Cert.ReferenceIdeal.main_arg13) :=
  (congrFun (Cert.ReferenceIdeal.HandRun.after_ops (StableHlo.launchContents m' c)) _).trans
    ((Cert.ReferenceIdeal.HandRun.arg_kept_13 (StableHlo.launchContents m' c)).trans (Cert.ReferenceIdeal.HandRun.launch_arg m' c Cert.ReferenceIdeal.main_arg13))

/-- Argument 14 of the reference ends as launched. -/
theorem ref_arg14_kept (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.HandRun.ops (F := Ideal)) (StableHlo.launchContents m' c) (Proc.devRef .tc Cert.ReferenceIdeal.main_arg14)
      = m' ((c.tc : Thread Cert.ReferenceIdeal.nD Cert.ReferenceIdeal.τ).loc Cert.ReferenceIdeal.main_arg14) :=
  (congrFun (Cert.ReferenceIdeal.HandRun.after_ops (StableHlo.launchContents m' c)) _).trans
    ((Cert.ReferenceIdeal.HandRun.arg_kept_14 (StableHlo.launchContents m' c)).trans (Cert.ReferenceIdeal.HandRun.launch_arg m' c Cert.ReferenceIdeal.main_arg14))

/-- Argument 15 of the reference ends as launched. -/
theorem ref_arg15_kept (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.HandRun.ops (F := Ideal)) (StableHlo.launchContents m' c) (Proc.devRef .tc Cert.ReferenceIdeal.main_arg15)
      = m' ((c.tc : Thread Cert.ReferenceIdeal.nD Cert.ReferenceIdeal.τ).loc Cert.ReferenceIdeal.main_arg15) :=
  (congrFun (Cert.ReferenceIdeal.HandRun.after_ops (StableHlo.launchContents m' c)) _).trans
    ((Cert.ReferenceIdeal.HandRun.arg_kept_15 (StableHlo.launchContents m' c)).trans (Cert.ReferenceIdeal.HandRun.launch_arg m' c Cert.ReferenceIdeal.main_arg15))

/-- Argument 16 of the reference ends as launched. -/
theorem ref_arg16_kept (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.HandRun.ops (F := Ideal)) (StableHlo.launchContents m' c) (Proc.devRef .tc Cert.ReferenceIdeal.main_arg16)
      = m' ((c.tc : Thread Cert.ReferenceIdeal.nD Cert.ReferenceIdeal.τ).loc Cert.ReferenceIdeal.main_arg16) :=
  (congrFun (Cert.ReferenceIdeal.HandRun.after_ops (StableHlo.launchContents m' c)) _).trans
    ((Cert.ReferenceIdeal.HandRun.arg_kept_16 (StableHlo.launchContents m' c)).trans (Cert.ReferenceIdeal.HandRun.launch_arg m' c Cert.ReferenceIdeal.main_arg16))

/-- Argument 17 of the reference ends as launched. -/
theorem ref_arg17_kept (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.HandRun.ops (F := Ideal)) (StableHlo.launchContents m' c) (Proc.devRef .tc Cert.ReferenceIdeal.main_arg17)
      = m' ((c.tc : Thread Cert.ReferenceIdeal.nD Cert.ReferenceIdeal.τ).loc Cert.ReferenceIdeal.main_arg17) :=
  (congrFun (Cert.ReferenceIdeal.HandRun.after_ops (StableHlo.launchContents m' c)) _).trans
    ((Cert.ReferenceIdeal.HandRun.arg_kept_17 (StableHlo.launchContents m' c)).trans (Cert.ReferenceIdeal.HandRun.launch_arg m' c Cert.ReferenceIdeal.main_arg17))

/-- Argument 18 of the reference ends as launched. -/
theorem ref_arg18_kept (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.HandRun.ops (F := Ideal)) (StableHlo.launchContents m' c) (Proc.devRef .tc Cert.ReferenceIdeal.main_arg18)
      = m' ((c.tc : Thread Cert.ReferenceIdeal.nD Cert.ReferenceIdeal.τ).loc Cert.ReferenceIdeal.main_arg18) :=
  (congrFun (Cert.ReferenceIdeal.HandRun.after_ops (StableHlo.launchContents m' c)) _).trans
    ((Cert.ReferenceIdeal.HandRun.arg_kept_18 (StableHlo.launchContents m' c)).trans (Cert.ReferenceIdeal.HandRun.launch_arg m' c Cert.ReferenceIdeal.main_arg18))

/-! ## The results agree -/

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

set_option maxHeartbeats 4000000 in
/-- The reference's result buffer ends at what the kernel program's result buffer ends at. -/
theorem result_agree (hpre : Cert.Pre_KernelIdeal m)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    StableHlo.after (Cert.ReferenceIdeal.HandRun.ops (F := Ideal)) (StableHlo.launchContents m' c) (Proc.devRef .tc Cert.ReferenceIdeal.main_v209)
      = Cert.KernelIdeal.Gen.W31 (F := Ideal) m ρ c (Proc.devRef .tc Cert.KernelIdeal.main_v165) := by
  obtain ⟨a0, a1, a2, a3, a4, a5, a6, a7, a8, a9, a10, a11, a12, a13, a14, a15, a16, a17, a18⟩ := hag
  obtain ⟨r0, r3, r4, r5, r6, r7, r8, r9, r10, r11, r12, r13, r14, r15, r16, r17, r18⟩ := Cert.PreReal.args_real m hpre c
  -- the edge arrays: the same operations on the same edge list
  have hS : Cert.ReferenceIdeal.HandRun.U1 (StableHlo.launchContents m' c) (Proc.devRef .tc Cert.ReferenceIdeal.main_v1) = Cert.KernelIdeal.Gen.W3 (F := Ideal) m ρ c (Proc.devRef .tc Cert.KernelIdeal.main_v1) := by
    have h := Cert.Shared.edge_v1_eq (StableHlo.launchContents m' c) (Cert.KernelIdeal.Gen.W0 (F := Ideal) m ρ c) a1
    unfold Cert.Shared.kEdge at h
    unfold Cert.ReferenceIdeal.HandRun.U1 Cert.ReferenceIdeal.HandRun.U0
    exact h
  have hD : Cert.ReferenceIdeal.HandRun.U1 (StableHlo.launchContents m' c) (Proc.devRef .tc Cert.ReferenceIdeal.main_v3) = Cert.KernelIdeal.Gen.W3 (F := Ideal) m ρ c (Proc.devRef .tc Cert.KernelIdeal.main_v3) := by
    have h := Cert.Shared.edge_v3_eq (StableHlo.launchContents m' c) (Cert.KernelIdeal.Gen.W0 (F := Ideal) m ρ c) a1
    unfold Cert.Shared.kEdge at h
    unfold Cert.ReferenceIdeal.HandRun.U1 Cert.ReferenceIdeal.HandRun.U0
    exact h
  have hE : Cert.ReferenceIdeal.HandRun.U1 (StableHlo.launchContents m' c) (Proc.devRef .tc Cert.ReferenceIdeal.main_v29) = Cert.KernelIdeal.Gen.W3 (F := Ideal) m ρ c (Proc.devRef .tc Cert.KernelIdeal.main_v29) := by
    have h := Cert.Shared.edge_v29_eq (StableHlo.launchContents m' c) (Cert.KernelIdeal.Gen.W0 (F := Ideal) m ρ c) a1
    unfold Cert.Shared.kEdge at h
    unfold Cert.ReferenceIdeal.HandRun.U1 Cert.ReferenceIdeal.HandRun.U0
    exact h
  have hEr : AllReal (ι := Cert.KernelIdeal.S640000x1.Idx) (Cert.KernelIdeal.Gen.W3 (F := Ideal) m ρ c (Proc.devRef .tc Cert.KernelIdeal.main_v29)) :=
    Cert.KernelIdeal.Agg.edgeWeights_allReal (Cert.KernelIdeal.Gen.W0 (F := Ideal) m ρ c)
  -- the encoder, then the three layers: equal across the two programs, and all real
  have hH0 := Cert.Bridge.enc_agree m ρ c m' a0 a3 a4 a5 a6 a7 a8 r0 r3 r4
  have hH0r := Cert.Bridge.enc_real m ρ c r0 r3 r4 r5 r6 r7 r8
  have hH1 := Cert.Bridge.layer0_agree m ρ c m' hH0 hH0r hS hD hE hEr a9 a10 a11 a12 r9 r10
  have hH1r := Cert.Bridge.layer0_real m ρ c hH0r hEr r9 r10 r11 r12
  have hH2 := Cert.Bridge.layer1_agree m ρ c m' hH1 hH1r hS hD hE hEr a9 a10 a11 a12 r9 r10
  have hH2r := Cert.Bridge.layer1_real m ρ c hH1r hEr r9 r10 r11 r12
  have hH3 := Cert.Bridge.layer2_agree m ρ c m' hH2 hH2r hS hD hE hEr a9 a10 a11 a12 r9 r10
  -- the readout: the same operations on equal inputs
  have k2 := Cert.KernelIdeal.FoldOut.arg2_at26 m ρ c
  have k13 := Cert.KernelIdeal.FoldOut.arg13_at26 m ρ c
  have k14 := Cert.KernelIdeal.FoldOut.arg14_at26 m ρ c
  have k15 := Cert.KernelIdeal.FoldOut.arg15_at26 m ρ c
  have k16 := Cert.KernelIdeal.FoldOut.arg16_at26 m ρ c
  have k17 := Cert.KernelIdeal.FoldOut.arg17_at26 m ρ c
  have k18 := Cert.KernelIdeal.FoldOut.arg18_at26 m ρ c
  have hro := Cert.Shared.readout_eq (Cert.ReferenceIdeal.HandRun.U17 (StableHlo.launchContents m' c)) (Cert.KernelIdeal.Gen.W26 (F := Ideal) m ρ c)
    hH3
    ((Cert.ReferenceIdeal.HandRun.carry17_arg2 (StableHlo.launchContents m' c)).trans (a2.trans k2.symm))
    ((Cert.ReferenceIdeal.HandRun.carry17_arg13 (StableHlo.launchContents m' c)).trans (a13.trans k13.symm))
    ((Cert.ReferenceIdeal.HandRun.carry17_arg14 (StableHlo.launchContents m' c)).trans (a14.trans k14.symm))
    ((Cert.ReferenceIdeal.HandRun.carry17_arg15 (StableHlo.launchContents m' c)).trans (a15.trans k15.symm))
    ((Cert.ReferenceIdeal.HandRun.carry17_arg16 (StableHlo.launchContents m' c)).trans (a16.trans k16.symm))
    ((Cert.ReferenceIdeal.HandRun.carry17_arg17 (StableHlo.launchContents m' c)).trans (a17.trans k17.symm))
    ((Cert.ReferenceIdeal.HandRun.carry17_arg18 (StableHlo.launchContents m' c)).trans (a18.trans k18.symm))
  unfold Cert.Shared.kReadout at hro
  refine (congrFun (Cert.ReferenceIdeal.HandRun.after_ops (StableHlo.launchContents m' c)) _).trans ?_
  unfold Cert.ReferenceIdeal.HandRun.U18
  exact hro.trans (Cert.KernelIdeal.FoldOut.result_at31 m ρ c).symm

end Cert.Bridge

end
-- ==== Proof.lean ====
/-
  The certificate of a graph convolution network kernel against its reference, on the extended reals.

  Both programs compute, for 100000 nodes with 128 channels: an encoder (a dense layer, a batch normalisation with a
  clamp at zero, a second dense layer), three graph-convolution layers (a dense layer, the aggregate of the weighted
  neighbours' features along the edges, a bias, a batch normalisation with a clamp at zero, and the layer's input added
  back), and a readout (a sum per graph and three small dense layers). The kernel program runs the dense layers, the
  batch statistics and the normalisations as thirteen tiled kernel regions and keeps the edge arithmetic and the readout
  on the host; the reference is host operations throughout.

  The two differ in one place only: the batch variance. The kernel takes it in one pass, the mean of the squares minus
  the squared mean, clamped at zero; the reference takes the mean of the squared deviations from the mean. For real
  entries these are the same number; at an infinite entry they are not, so every layer's output is also shown to be all
  real, starting from the precondition that every float argument is finite, so that the next layer's statistics agree.

  The frames of the two kernel programs are the generated ones; the reference's frame and run are its straight-line
  run; the kernel program's run names its result buffer at the last boundary of the generated fold of buffer
  contents, and the comparison walks the two programs stage by stage.
-/
import proofs.«136606_j68719476736452_2_alg».proof.Defs
import proofs.«136606_j68719476736452_2_alg».proof.Proof.Gen.Kernel
import proofs.«136606_j68719476736452_2_alg».proof.Proof.Gen.Kernel.Frame
import proofs.«136606_j68719476736452_2_alg».proof.Proof.Gen.KernelIdeal
import proofs.«136606_j68719476736452_2_alg».proof.Proof.Gen.KernelIdeal.Frame
import proofs.«136606_j68719476736452_2_alg».proof.Proof.Gen.ReferenceIdeal
import proofs.«136606_j68719476736452_2_alg».proof.Proof.Gen.Pre_finite_inputs
import proofs.«136606_j68719476736452_2_alg».proof.Proof.KRun
import proofs.«136606_j68719476736452_2_alg».proof.Proof.RefRun
import proofs.«136606_j68719476736452_2_alg».proof.Proof.RefRead
import proofs.«136606_j68719476736452_2_alg».proof.Proof.BridgeAll
import Idealize.ShloMosaic.Adequacy
import Idealize.ShloMosaic.Init

set_option maxRecDepth 16384

noncomputable section

namespace Cert.Proof

open Idealize.ShloMosaic Idealize.ShloMosaic.TcCoe Idealize.SL.Sem

/-- The kernel program as printed: the generated frame. -/
theorem frame_k : Cert.frame_Kernel := fun m ρ _ => Cert.Kernel.Gen.frame m ρ

/-- The idealized kernel program: the generated frame. -/
theorem frame_ki : Cert.frame_KernelIdeal := fun m ρ _ => Cert.KernelIdeal.Gen.frame m ρ

/-- The idealized reference is straight-line host code: it runs to the end, and no operation writes an argument. -/
theorem frame_ri : Cert.frame_ReferenceIdeal := fun m ρ _ =>
  (θ_run (Cert.ReferenceIdeal.defs (F := Ideal)) _ _).mono (fun r h c =>
    ⟨(h c Cert.ReferenceIdeal.main_arg0).trans (Cert.Bridge.ref_arg0_kept m c),
     (h c Cert.ReferenceIdeal.main_arg1).trans (Cert.Bridge.ref_arg1_kept m c),
     (h c Cert.ReferenceIdeal.main_arg2).trans (Cert.Bridge.ref_arg2_kept m c),
     (h c Cert.ReferenceIdeal.main_arg3).trans (Cert.Bridge.ref_arg3_kept m c),
     (h c Cert.ReferenceIdeal.main_arg4).trans (Cert.Bridge.ref_arg4_kept m c),
     (h c Cert.ReferenceIdeal.main_arg5).trans (Cert.Bridge.ref_arg5_kept m c),
     (h c Cert.ReferenceIdeal.main_arg6).trans (Cert.Bridge.ref_arg6_kept m c),
     (h c Cert.ReferenceIdeal.main_arg7).trans (Cert.Bridge.ref_arg7_kept m c),
     (h c Cert.ReferenceIdeal.main_arg8).trans (Cert.Bridge.ref_arg8_kept m c),
     (h c Cert.ReferenceIdeal.main_arg9).trans (Cert.Bridge.ref_arg9_kept m c),
     (h c Cert.ReferenceIdeal.main_arg10).trans (Cert.Bridge.ref_arg10_kept m c),
     (h c Cert.ReferenceIdeal.main_arg11).trans (Cert.Bridge.ref_arg11_kept m c),
     (h c Cert.ReferenceIdeal.main_arg12).trans (Cert.Bridge.ref_arg12_kept m c),
     (h c Cert.ReferenceIdeal.main_arg13).trans (Cert.Bridge.ref_arg13_kept m c),
     (h c Cert.ReferenceIdeal.main_arg14).trans (Cert.Bridge.ref_arg14_kept m c),
     (h c Cert.ReferenceIdeal.main_arg15).trans (Cert.Bridge.ref_arg15_kept m c),
     (h c Cert.ReferenceIdeal.main_arg16).trans (Cert.Bridge.ref_arg16_kept m c),
     (h c Cert.ReferenceIdeal.main_arg17).trans (Cert.Bridge.ref_arg17_kept m c),
     (h c Cert.ReferenceIdeal.main_arg18).trans (Cert.Bridge.ref_arg18_kept m c)⟩)
    (Cert.ReferenceIdeal.HandRun.run_raw m ρ)

/-- The ideal pass rewrote nothing. -/
theorem preserves : Cert.preserves_Kernel_KernelIdeal := trivial

open Cert.KernelIdeal Cert.KernelIdeal.Gen in
/-- From memories agreeing on the arguments, both idealized programs end with the result the kernel program's fold
    leaves in its result buffer. -/
theorem algebraic : Cert.algebraic_KernelIdeal_ReferenceIdeal := by
  intro m ρ m' ρ' hpre hagree
  refine ⟨fun c => W31 (F := Ideal) m ρ c (Proc.devRef .tc main_v165), ?_, ?_⟩
  · exact (θ_run (Cert.KernelIdeal.defs (F := Ideal)) _ _).mono (fun r h c =>
      ⟨h c _ (mem_uc main_v165 (by decide)),
       (h c _ (mem_uc main_arg0 (by decide))).trans (W31_main_arg0 m ρ c),
       (h c _ (mem_uc main_arg1 (by decide))).trans (W31_main_arg1 m ρ c),
       (h c _ (mem_uc main_arg2 (by decide))).trans (W31_main_arg2 m ρ c),
       (h c _ (mem_uc main_arg3 (by decide))).trans (W31_main_arg3 m ρ c),
       (h c _ (mem_uc main_arg4 (by decide))).trans (W31_main_arg4 m ρ c),
       (h c _ (mem_uc main_arg5 (by decide))).trans (W31_main_arg5 m ρ c),
       (h c _ (mem_uc main_arg6 (by decide))).trans (W31_main_arg6 m ρ c),
       (h c _ (mem_uc main_arg7 (by decide))).trans (W31_main_arg7 m ρ c),
       (h c _ (mem_uc main_arg8 (by decide))).trans (W31_main_arg8 m ρ c),
       (h c _ (mem_uc main_arg9 (by decide))).trans (W31_main_arg9 m ρ c),
       (h c _ (mem_uc main_arg10 (by decide))).trans (W31_main_arg10 m ρ c),
       (h c _ (mem_uc main_arg11 (by decide))).trans (W31_main_arg11 m ρ c),
       (h c _ (mem_uc main_arg12 (by decide))).trans (W31_main_arg12 m ρ c),
       (h c _ (mem_uc main_arg13 (by decide))).trans (W31_main_arg13 m ρ c),
       (h c _ (mem_uc main_arg14 (by decide))).trans (W31_main_arg14 m ρ c),
       (h c _ (mem_uc main_arg15 (by decide))).trans (W31_main_arg15 m ρ c),
       (h c _ (mem_uc main_arg16 (by decide))).trans (W31_main_arg16 m ρ c),
       (h c _ (mem_uc main_arg17 (by decide))).trans (W31_main_arg17 m ρ c),
       (h c _ (mem_uc main_arg18 (by decide))).trans (W31_main_arg18 m ρ c)⟩)
      (Cert.KernelIdeal.ValueRun.run_all (F := Ideal) m ρ)
  · exact (θ_run (Cert.ReferenceIdeal.defs (F := Ideal)) _ _).mono (fun r h c =>
      ⟨(h c Cert.ReferenceIdeal.main_v209).trans (Cert.Bridge.result_agree m ρ m' c hpre (hagree c)),
       (h c Cert.ReferenceIdeal.main_arg0).trans (Cert.Bridge.ref_arg0_kept m' c),
       (h c Cert.ReferenceIdeal.main_arg1).trans (Cert.Bridge.ref_arg1_kept m' c),
       (h c Cert.ReferenceIdeal.main_arg2).trans (Cert.Bridge.ref_arg2_kept m' c),
       (h c Cert.ReferenceIdeal.main_arg3).trans (Cert.Bridge.ref_arg3_kept m' c),
       (h c Cert.ReferenceIdeal.main_arg4).trans (Cert.Bridge.ref_arg4_kept m' c),
       (h c Cert.ReferenceIdeal.main_arg5).trans (Cert.Bridge.ref_arg5_kept m' c),
       (h c Cert.ReferenceIdeal.main_arg6).trans (Cert.Bridge.ref_arg6_kept m' c),
       (h c Cert.ReferenceIdeal.main_arg7).trans (Cert.Bridge.ref_arg7_kept m' c),
       (h c Cert.ReferenceIdeal.main_arg8).trans (Cert.Bridge.ref_arg8_kept m' c),
       (h c Cert.ReferenceIdeal.main_arg9).trans (Cert.Bridge.ref_arg9_kept m' c),
       (h c Cert.ReferenceIdeal.main_arg10).trans (Cert.Bridge.ref_arg10_kept m' c),
       (h c Cert.ReferenceIdeal.main_arg11).trans (Cert.Bridge.ref_arg11_kept m' c),
       (h c Cert.ReferenceIdeal.main_arg12).trans (Cert.Bridge.ref_arg12_kept m' c),
       (h c Cert.ReferenceIdeal.main_arg13).trans (Cert.Bridge.ref_arg13_kept m' c),
       (h c Cert.ReferenceIdeal.main_arg14).trans (Cert.Bridge.ref_arg14_kept m' c),
       (h c Cert.ReferenceIdeal.main_arg15).trans (Cert.Bridge.ref_arg15_kept m' c),
       (h c Cert.ReferenceIdeal.main_arg16).trans (Cert.Bridge.ref_arg16_kept m' c),
       (h c Cert.ReferenceIdeal.main_arg17).trans (Cert.Bridge.ref_arg17_kept m' c),
       (h c Cert.ReferenceIdeal.main_arg18).trans (Cert.Bridge.ref_arg18_kept m' c)⟩)
      (Cert.ReferenceIdeal.HandRun.run_raw m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
